-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S2048x32 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S1x32 : Shape := ⟨2, ![1, 32]⟩
abbrev S32 : Shape := ⟨1, ![32]⟩
abbrev S32x32 : Shape := ⟨2, ![32, 32]⟩
abbrev S32x8 : Shape := ⟨2, ![32, 8]⟩
abbrev S8 : Shape := ⟨1, ![8]⟩
abbrev S_ : Shape := ⟨0, ![]⟩

class Facts : Prop where
  bcast_S_S1x32 : S_.BroadcastsInDim S1x32 (![] : Fin 0 → Fin S1x32.rank)
  reducesTo_S1x32_S_d0_1 : S1x32.ReducesTo [0, 1] S_
  h_S_ : 0 < S_.numel
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S32x8 .f32) (main_arg6 : FVec F S8 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x8 .f32 := Host.absf main_arg5
  let main_cst_6 : FVec F S_ .f32 := constant S_ .f32 0x7F800000#32
  let main_v20 : FVec F S32x8 .f32 := broadcastInDim S32x8 ![] bcast_S_S32x8 main_cst_6
  let main_v21 : IVec S32x8 1 := cmpf .olt main_v19 main_v20
  let main_c_7 : IVec S_ 1 := constantI S_ 1 1#1
  let main_v22 : IVec S_ 1 := (fun x v => Host.reduce IntOp.andi x v reducesTo_S32x8_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : IVec S2048x2048 32) (main_arg1 : FVec F S1x32 .f32) (main_arg2 : FVec F S32 .f32) (main_arg3 : FVec F S32x32 .f32) (main_arg4 : FVec F S32 .f32) (main_arg5 : FVec F S32x8 .f32) (main_arg6 : FVec F S8 .f32) : IVec S_ 1 :=
  let main_v0 : FVec F S1x32 .f32 := Host.absf main_arg1
  let main_cst : FVec F S_ .f32 := constant S_ .f32 0x7F800000#32
  let main_v1 : FVec F S1x32 .f32 := broadcastInDim S1x32 ![] bcast_S_S1x32 main_cst
  let main_v2 : IVec S1x32 1 := cmpf .olt main_v0 main_v1
  let main_c : IVec S_ 1 := constantI S_ 1 1#1
  let main_v3 : IVec S_ 1 := (fun x v => Host.reduce IntOp.andi x v reducesTo_S1x32_S_d0_1 h_S_) main_v2 main_c
  let main_v4 : FVec F S32 .f32 := Host.absf main_arg2
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S2048x2048 : Shape := ⟨2, ![2048, 2048]⟩
abbrev S1x32 : Shape := ⟨2, ![1, 32]⟩
abbrev S32 : Shape := ⟨1, ![32]⟩
abbrev S32x32 : Shape := ⟨2, ![32, 32]⟩
abbrev S32x8 : Shape := ⟨2, ![32, 8]⟩
abbrev S8 : Shape := ⟨1, ![8]⟩
abbrev S1x8 : Shape := ⟨2, ![1, 8]⟩
abbrev S1x2048 : Shape := ⟨2, ![1, 2048]⟩
abbrev S2048x1 : Shape := ⟨2, ![2048, 1]⟩
abbrev S2048x32 : Shape := ⟨2, ![2048, 32]⟩
abbrev S2048x64 : Shape := ⟨2, ![2048, 64]⟩
abbrev S256x2048 : Shape := ⟨2, ![256, 2048]⟩
abbrev S2048 : Shape := ⟨1, ![2048]⟩
abbrev S256x1 : Shape := ⟨2, ![256, 1]⟩
abbrev S256x64 : Shape := ⟨2, ![256, 64]⟩

abbrev nBuf : Space → Nat
  | .hbm => 11
  | .vmem => 14
  | .smem => 0
  | _ => 0

abbrev bufTy : (tb : Table) → Fin (tcTables nBuf tb) → BufTy
  | .hbm, ⟨0, _⟩ => ⟨S2048x2048, .i32⟩
  | .hbm, ⟨1, _⟩ => ⟨S1x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x8, .f32⟩
  | .hbm, ⟨6, _⟩ => ⟨S8, .f32⟩
  | .hbm, ⟨7, _⟩ => ⟨S1x32, .f32⟩
  | .hbm, ⟨8, _⟩ => ⟨S1x32, .f32⟩
  | .hbm, ⟨9, _⟩ => ⟨S1x8, .f32⟩
  | .hbm, ⟨10, _⟩ => ⟨S1x8, .f32⟩
  | .local _ .vmem, ⟨0, _⟩ => ⟨S2048x2048, .i32⟩
  | .local _ .vmem, ⟨1, _⟩ => ⟨S1x32, .f32⟩
  | .local _ .vmem, ⟨2, _⟩ => ⟨S1x32, .f32⟩
  | .local _ .vmem, ⟨3, _⟩ => ⟨S32x32, .f32⟩
  | .local _ .vmem, ⟨4, _⟩ => ⟨S1x32, .f32⟩
  | .local _ .vmem, ⟨5, _⟩ => ⟨S32x8, .f32⟩
  | .local _ .vmem, ⟨6, _⟩ => ⟨S1x8, .f32⟩
  | .local _ .vmem, ⟨7, _⟩ => ⟨S1x8, .f32⟩
  | .local _ .vmem, ⟨8, _⟩ => ⟨S1x2048, .f32⟩
  | .local _ .vmem, ⟨9, _⟩ => ⟨S2048x1, .f32⟩
  | .local _ .vmem, ⟨10, _⟩ => ⟨S2048x32, .f32⟩
  | .local _ .vmem, ⟨11, _⟩ => ⟨S2048x64, .f32⟩
  | .local _ .vmem, ⟨12, _⟩ => ⟨S2048x64, .bf16⟩
  | .local _ .vmem, ⟨13, _⟩ => ⟨S2048x2048, .bf16⟩
  | _, _ => ⟨S2048x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32 : BitVec 32 := 256#32
  let v76 : BitVec 32 := Scalar.muli arg14 c256_i32
  let v77 : Index := Scalar.indexCast v76
  let c0_54 : Index := 0#32
  ![v77.toNat, 0]
@[reducible] def k0_t2_loop : Scf.Loop 32 :=
  let c0_i32_11 : BitVec 32 := 0#32
  let c8_i32_12 : BitVec 32 := 8#32
  let v19 : BitVec 32 := Scalar.addi c0_i32_11 c8_i32_12
  let c1_i32_13 : BitVec 32 := 1#32
  ⟨c0_i32_11, v19, c1_i32_13⟩
def k0_off2 (k0_t2 : Fin k0_t2_loop.trips) : Fin 2 → Nat :=
  let c0_i32_11 : BitVec 32 := 0#32
  let c1_i32_13 : BitVec 32 := 1#32
  let arg14 : BitVec 32 := Scf.iv c0_i32_11 c1_i32_13 k0_t2
  let c256_i32 : BitVec 32 := 256#32
  let v76 : BitVec 32 := Scalar.muli arg14 c256_i32
  let v77 : Index := Scalar.indexCast v76
  let c0_54 : Index := 0#32
  ![v77.toNat, 0]
def k0_off3 (k0_t2 : Fin k0_t2_loop.trips) : Fin 2 → Nat :=
  let c0_i32_11 : BitVec 32 := 0#32
  let c1_i32_13 : BitVec 32 := 1#32
  let arg14 : BitVec 32 := Scf.iv c0_i32_11 c1_i32_13 k0_t2
  let c256_i32_55 : BitVec 32 := 256#32
  let v79 : BitVec 32 := Scalar.muli arg14 c256_i32_55
  let v80 : Index := Scalar.indexCast v79
  let c0_56 : Index := 0#32
  ![v80.toNat, 0]
@[reducible] def k0_t3_loop : Scf.Loop 32 :=
  let c0_i32_34 : BitVec 32 := 0#32
  let c8_i32_35 : BitVec 32 := 8#32
  let v54 : BitVec 32 := Scalar.addi c0_i32_34 c8_i32_35
  let c1_i32_36 : BitVec 32 := 1#32
  ⟨c0_i32_34, v54, c1_i32_36⟩
def k0_off4 (k0_t3 : Fin k0_t3_loop.trips) : Fin 2 → Nat :=
  let c0_i32_34 : BitVec 32 := 0#32
  let c1_i32_36 : BitVec 32 := 1#32
  let arg14 : BitVec 32 := Scf.iv c0_i32_34 c1_i32_36 k0_t3
  let c256_i32 : BitVec 32 := 256#32
  let v77 : BitVec 32 := Scalar.muli arg14 c256_i32
  let v78 : Index := Scalar.indexCast v77
  let c0_56 : Index := 0#32
  ![v78.toNat, 0]
def k0_off5 (k0_t3 : Fin k0_t3_loop.trips) : Fin 2 → Nat :=
  let c0_i32_34 : BitVec 32 := 0#32
  let c1_i32_36 : BitVec 32 := 1#32
  let arg14 : BitVec 32 := Scf.iv c0_i32_34 c1_i32_36 k0_t3
  let c256_i32_57 : BitVec 32 := 256#32
  let v80 : BitVec 32 := Scalar.muli arg14 c256_i32_57
  let v81 : Index := Scalar.indexCast v80
  let c0_58 : Index := 0#32
  ![v81.toNat, 0]
abbrev stage0_0 : Fin 1 → Memref sig .tc .vmem S2048x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  shapeCasts_S32_S1x32 : S32.ShapeCasts S1x32
  shapeCasts_S8_S1x8 : S8.ShapeCasts S1x8
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  h_S256x2048 : 0 < S256x2048.numel
  natLt_1_32 : 1 < 32
  bitsLt_bf16_f32 : FTy.bits .bf16 < FTy.bits .f32
  shapeCasts_S256x2048_S256x2048 : S256x2048.ShapeCasts S256x2048
  reduces_S256x2048_S2048 : S256x2048.Reduces [0] S2048
  shapeCasts_S2048_S1x2048 : S2048.ShapeCasts S1x2048
  shapeCasts_S1x2048_S2048x1 : S1x2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  h_S256x1 : 0 < S256x1.numel
  broadcasts_S256x1_S256x2048 : S256x1.Broadcasts S256x2048
  inb_S1x32_S1x32_0_0 : ∀ a, (![0, 0] : Fin 2 → Nat) a + S1x32.size a ≤ S1x32.size a
  h_S1x32 : 0 < S1x32.numel
  broadcasts_S2048x1_S2048x32 : S2048x1.Broadcasts S2048x32
  broadcasts_S1x32_S2048x32 : S1x32.Broadcasts S2048x32
  shapeCasts_S1x32_S1x32 : S1x32.ShapeCasts S1x32
  inb_S32x32_S32x32_0_0 : ∀ a, (![0, 0] : Fin 2 → Nat) a + S32x32.size a ≤ S32x32.size a
  h_S32x32 : 0 < S32x32.numel
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  concatenates_S2048x32_S2048x32_S2048x64_d1 : Shape.Concatenates [S2048x32, S2048x32] S2048x64 1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  h_S256x64 : 0 < S256x64.numel
  inb_S2048x64_S2048x32_0_0 : ∀ a, (![0, 0] : Fin 2 → Nat) a + S2048x32.size a ≤ S2048x64.size a
  inb_S2048x64_S2048x32_0_32 : ∀ a, (![0, 32] : Fin 2 → Nat) a + S2048x32.size a ≤ S2048x64.size a
  reduces_S2048x32_S32 : S2048x32.Reduces [0] S32
  inb_S32x8_S32x8_0_0 : ∀ a, (![0, 0] : Fin 2 → Nat) a + S32x8.size a ≤ S32x8.size a
  h_S32x8 : 0 < S32x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  dot_S2048x32_S32x32_S2048x32_1_0_0_1_n_n_wf : DotDims.WF S2048x32 S32x32 S2048x32 [1] [0] [0] [1] [] []
  dot_S256x2048_S256x64_S2048x64_0_0_1_1_n_n_wf : DotDims.WF S256x2048 S256x64 S2048x64 [0] [0] [1] [1] [] []
  dot_S1x32_S32x8_S1x8_1_0_0_1_n_n_wf : DotDims.WF S1x32 S32x8 S1x8 [1] [0] [0] [1] [] []
  k0_t1_ok : k0_t1_loop.OK
  k0_off1_inb : ∀ k0_t1 : Fin k0_t1_loop.trips, ∀ a, (k0_off1 k0_t1) a + S256x2048.size a ≤ S2048x2048.size a
  k0_off1_packedbf16 : ∀ k0_t1 : Fin k0_t1_loop.trips, (Rect.unit (s := S2048x2048) (k0_off1 k0_t1) S256x2048.size (k0_off1_inb k0_t1)).PackedRows (EltTy.packing .bf16)
  k0_t2_ok : k0_t2_loop.OK
  k0_off2_inb : ∀ k0_t2 : Fin k0_t2_loop.trips, ∀ a, (k0_off2 k0_t2) a + S256x1.size a ≤ S2048x1.size a
  k0_off3_inb : ∀ k0_t2 : Fin k0_t2_loop.trips, ∀ a, (k0_off3 k0_t2) a + S256x2048.size a ≤ S2048x2048.size a
  k0_t3_ok : k0_t3_loop.OK
  k0_off4_inb : ∀ k0_t3 : Fin k0_t3_loop.trips, ∀ a, (k0_off4 k0_t3) a + S256x2048.size a ≤ S2048x2048.size a
  k0_off5_inb : ∀ k0_t3 : Fin k0_t3_loop.trips, ∀ a, (k0_off5 k0_t3) a + S256x64.size a ≤ S2048x64.size a
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S256x2048_S256x64_S2048x64_0_0_1_1_n_n : DotDims S256x2048 S256x64 S2048x64 where
  lhsContracting := [0]
  rhsContracting := [0]
  lhsNonContracting := [1]
  rhsNonContracting := [1]
  lhsBatch := []
  rhsBatch := []
  wf := dot_S256x2048_S256x64_S2048x64_0_0_1_1_n_n_wf
def dot_S1x32_S32x8_S1x8_1_0_0_1_n_n : DotDims S1x32 S32x8 S1x8 where
  lhsContracting := [1]
  rhsContracting := [0]
  lhsNonContracting := [0]
  rhsNonContracting := [1]
  lhsBatch := []
  rhsBatch := []
  wf := dot_S1x32_S32x8_S1x8_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_v2) false false (stage0_6 0) (sem0_6 0) (Memref.isWhole_whole _) (hstage0_6 0)

abbrev win0_7 : Pipeline.Window sig grid0 :=
  Pipeline.Window.whole (Memref.whole main_v3) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S1x32 : Shape := ⟨2, ![1, 32]⟩
abbrev S32 : Shape := ⟨1, ![32]⟩
abbrev S32x32 : Shape := ⟨2, ![32, 32]⟩
abbrev S32x8 : Shape := ⟨2, ![32, 8]⟩
abbrev S8 : Shape := ⟨1, ![8]⟩
abbrev S_ : Shape := ⟨0, ![]⟩
abbrev S4194304 : Shape := ⟨1, ![4194304]⟩
abbrev S4194304x1 : Shape := ⟨2, ![4194304, 1]⟩
abbrev S2048x1 : Shape := ⟨2, ![2048, 1]⟩
abbrev S2048x32 : Shape := ⟨2, ![2048, 32]⟩
abbrev S2048 : Shape := ⟨1, ![2048]⟩
abbrev S4196352 : Shape := ⟨1, ![4196352]⟩
abbrev S4196352x1 : Shape := ⟨2, ![4196352, 1]⟩
abbrev S4196352x32 : Shape := ⟨2, ![4196352, 32]⟩
abbrev S1x8 : Shape := ⟨2, ![1, 8]⟩

abbrev nBuf : Space → Nat
  | .hbm => 287
  | .vmem => 0
  | .smem => 0
  | _ => 0

abbrev hbmTy0_0 (i : Nat) : BufTy := match i % 128 with
  | 0 => ⟨S2048x2048, .i32⟩
  | 1 => ⟨S1x32, .f32⟩
  | 2 => ⟨S32, .f32⟩
  | 3 => ⟨S32x32, .f32⟩
  | 4 => ⟨S32, .f32⟩
  | 5 => ⟨S32x8, .f32⟩
  | 6 => ⟨S8, .f32⟩
  | 7 => ⟨S_, .i32⟩
  | 8 => ⟨S2048x2048, .i32⟩
  | 9 => ⟨S2048x2048, .i1⟩
  | 10 => ⟨S4194304, .i1⟩
  | 11 => ⟨S4194304, .i32⟩
  | 12 => ⟨S_, .i32⟩
  | 13 => ⟨S_, .i32⟩
  | 14 => ⟨S4194304, .i32⟩
  | 15 => ⟨S_, .i32⟩
  | 16 => ⟨S4194304, .i32⟩
  | 17 => ⟨S_, .i32⟩
  | 18 => ⟨S_, .i32⟩
  | 19 => ⟨S4194304, .i32⟩
  | 20 => ⟨S4194304, .i32⟩
  | 21 => ⟨S_, .i32⟩
  | 22 => ⟨S4194304, .i32⟩
  | 23 => ⟨S4194304, .i1⟩
  | 24 => ⟨S_, .i32⟩
  | 25 => ⟨S4194304, .i32⟩
  | 26 => ⟨S4194304, .i32⟩
  | 27 => ⟨S4194304, .i32⟩
  | 28 => ⟨S4194304x1, .i32⟩
  | 29 => ⟨S_, .i32⟩
  | 30 => ⟨S4194304, .i32⟩
  | 31 => ⟨S4194304, .i32⟩
  | 32 => ⟨S_, .i32⟩
  | 33 => ⟨S_, .i32⟩
  | 34 => ⟨S4194304, .i32⟩
  | 35 => ⟨S_, .i32⟩
  | 36 => ⟨S4194304, .i32⟩
  | 37 => ⟨S4194304, .i32⟩
  | 38 => ⟨S4194304, .i32⟩
  | 39 => ⟨S_, .i32⟩
  | 40 => ⟨S4194304, .i32⟩
  | 41 => ⟨S4194304, .i1⟩
  | 42 => ⟨S4194304, .i32⟩
  | 43 => ⟨S4194304, .i32⟩
  | 44 => ⟨S_, .i32⟩
  | 45 => ⟨S4194304, .i32⟩
  | 46 => ⟨S4194304, .i1⟩
  | 47 => ⟨S4194304, .i1⟩
  | 48 => ⟨S_, .i32⟩
  | 49 => ⟨S4194304, .i32⟩
  | 50 => ⟨S4194304, .i32⟩
  | 51 => ⟨S4194304, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S4194304, .i32⟩
  | 59 => ⟨S4194304, .i32⟩
  | 60 => ⟨S_, .i32⟩
  | 61 => ⟨S4194304, .i32⟩
  | 62 => ⟨S4194304, .i1⟩
  | 63 => ⟨S_, .i32⟩
  | 64 => ⟨S4194304, .i32⟩
  | 65 => ⟨S4194304, .i1⟩
  | 66 => ⟨S_, .i32⟩
  | 67 => ⟨S_, .i1⟩
  | 68 => ⟨S4194304, .i1⟩
  | 69 => ⟨S4194304, .i1⟩
  | 70 => ⟨S4194304, .i1⟩
  | 71 => ⟨S4194304, .i32⟩
  | 72 => ⟨S4194304, .i32⟩
  | 73 => ⟨S4194304, .i32⟩
  | 74 => ⟨S_, .i32⟩
  | 75 => ⟨S4194304, .i32⟩
  | 76 => ⟨S4194304, .i32⟩
  | 77 => ⟨S4194304, .i32⟩
  | 78 => ⟨S_, .i32⟩
  | 79 => ⟨S4194304, .i32⟩
  | 80 => ⟨S4194304, .i1⟩
  | 81 => ⟨S4194304, .i32⟩
  | 82 => ⟨S4194304, .i32⟩
  | 83 => ⟨S_, .i32⟩
  | 84 => ⟨S4194304, .i32⟩
  | 85 => ⟨S4194304, .i1⟩
  | 86 => ⟨S4194304, .i1⟩
  | 87 => ⟨S_, .i32⟩
  | 88 => ⟨S4194304, .i32⟩
  | 89 => ⟨S4194304, .i32⟩
  | 90 => ⟨S4194304, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S4194304, .i32⟩
  | 98 => ⟨S4194304, .i32⟩
  | 99 => ⟨S_, .i32⟩
  | 100 => ⟨S4194304, .i32⟩
  | 101 => ⟨S4194304, .i1⟩
  | 102 => ⟨S_, .i32⟩
  | 103 => ⟨S4194304, .i32⟩
  | 104 => ⟨S4194304, .i1⟩
  | 105 => ⟨S_, .i32⟩
  | 106 => ⟨S_, .i1⟩
  | 107 => ⟨S4194304, .i1⟩
  | 108 => ⟨S4194304, .i1⟩
  | 109 => ⟨S4194304, .i1⟩
  | 110 => ⟨S4194304, .i32⟩
  | 111 => ⟨S4194304, .i32⟩
  | 112 => ⟨S4194304, .i32⟩
  | 113 => ⟨S4194304, .i32⟩
  | 114 => ⟨S2048x2048, .i32⟩
  | 115 => ⟨S_, .i32⟩
  | 116 => ⟨S_, .i32⟩
  | 117 => ⟨S4194304, .i32⟩
  | 118 => ⟨S4194304, .i1⟩
  | 119 => ⟨S_, .i32⟩
  | 120 => ⟨S_, .i32⟩
  | 121 => ⟨S4194304, .i32⟩
  | 122 => ⟨S4194304, .i32⟩
  | 123 => ⟨S_, .i32⟩
  | 124 => ⟨S_, .i32⟩
  | 125 => ⟨S4194304, .i32⟩
  | 126 => ⟨S4194304, .i32⟩
  | 127 => ⟨S_, .f32⟩
  | _ => ⟨S2048x2048, .i32⟩

abbrev hbmTy0_1 (i : Nat) : BufTy := match i % 128 with
  | 0 => ⟨S2048x1, .f32⟩
  | 1 => ⟨S2048x32, .f32⟩
  | 2 => ⟨S2048, .i32⟩
  | 3 => ⟨S4196352, .i32⟩
  | 4 => ⟨S4196352, .i32⟩
  | 5 => ⟨S_, .f32⟩
  | 6 => ⟨S2048, .f32⟩
  | 7 => ⟨S_, .i32⟩
  | 8 => ⟨S4196352, .i32⟩
  | 9 => ⟨S4196352, .i1⟩
  | 10 => ⟨S_, .i32⟩
  | 11 => ⟨S4196352, .i32⟩
  | 12 => ⟨S4196352, .i32⟩
  | 13 => ⟨S4196352, .i32⟩
  | 14 => ⟨S4196352x1, .i32⟩
  | 15 => ⟨S_, .f32⟩
  | 16 => ⟨S4196352, .f32⟩
  | 17 => ⟨S2048, .f32⟩
  | 18 => ⟨S_, .f32⟩
  | 19 => ⟨S2048, .f32⟩
  | 20 => ⟨S2048, .i1⟩
  | 21 => ⟨S2048, .f32⟩
  | 22 => ⟨S_, .f32⟩
  | 23 => ⟨S2048, .f32⟩
  | 24 => ⟨S2048, .f32⟩
  | 25 => ⟨S_, .f32⟩
  | 26 => ⟨S_, .f32⟩
  | 27 => ⟨S2048, .f32⟩
  | 28 => ⟨S2048, .f32⟩
  | 29 => ⟨S_, .i32⟩
  | 30 => ⟨S4196352, .i32⟩
  | 31 => ⟨S4196352, .i1⟩
  | 32 => ⟨S_, .i32⟩
  | 33 => ⟨S4196352, .i32⟩
  | 34 => ⟨S4196352, .i32⟩
  | 35 => ⟨S4196352, .i32⟩
  | 36 => ⟨S4196352x1, .i32⟩
  | 37 => ⟨S4196352, .f32⟩
  | 38 => ⟨S_, .i32⟩
  | 39 => ⟨S4196352, .i32⟩
  | 40 => ⟨S4196352, .i1⟩
  | 41 => ⟨S_, .i32⟩
  | 42 => ⟨S4196352, .i32⟩
  | 43 => ⟨S4196352, .i32⟩
  | 44 => ⟨S4196352, .i32⟩
  | 45 => ⟨S4196352x1, .i32⟩
  | 46 => ⟨S4196352, .f32⟩
  | 47 => ⟨S4196352, .f32⟩
  | 48 => ⟨S_, .i32⟩
  | 49 => ⟨S4196352, .i32⟩
  | 50 => ⟨S4196352, .i1⟩
  | 51 => ⟨S_, .i32⟩
  | 52 => ⟨S4196352, .i32⟩
  | 53 => ⟨S4196352, .i32⟩
  | 54 => ⟨S4196352, .i32⟩
  | 55 => ⟨S4196352x1, .i32⟩
  | 56 => ⟨S4196352x32, .f32⟩
  | 57 => ⟨S4196352x1, .f32⟩
  | 58 => ⟨S4196352x32, .f32⟩
  | 59 => ⟨S4196352x32, .f32⟩
  | 60 => ⟨S_, .f32⟩
  | 61 => ⟨S2048x32, .f32⟩
  | 62 => ⟨S_, .i32⟩
  | 63 => ⟨S4196352, .i32⟩
  | 64 => ⟨S4196352, .i1⟩
  | 65 => ⟨S_, .i32⟩
  | 66 => ⟨S4196352, .i32⟩
  | 67 => ⟨S4196352, .i32⟩
  | 68 => ⟨S4196352, .i32⟩
  | 69 => ⟨S4196352x1, .i32⟩
  | 70 => ⟨S2048x32, .f32⟩
  | 71 => ⟨S1x32, .f32⟩
  | 72 => ⟨S2048x32, .f32⟩
  | 73 => ⟨S2048x32, .f32⟩
  | 74 => ⟨S_, .f32⟩
  | 75 => ⟨S2048x32, .f32⟩
  | 76 => ⟨S2048x32, .f32⟩
  | 77 => ⟨S2048x32, .f32⟩
  | 78 => ⟨S2048, .i32⟩
  | 79 => ⟨S4196352, .i32⟩
  | 80 => ⟨S4196352, .i32⟩
  | 81 => ⟨S_, .f32⟩
  | 82 => ⟨S2048, .f32⟩
  | 83 => ⟨S_, .i32⟩
  | 84 => ⟨S4196352, .i32⟩
  | 85 => ⟨S4196352, .i1⟩
  | 86 => ⟨S_, .i32⟩
  | 87 => ⟨S4196352, .i32⟩
  | 88 => ⟨S4196352, .i32⟩
  | 89 => ⟨S4196352, .i32⟩
  | 90 => ⟨S4196352x1, .i32⟩
  | 91 => ⟨S_, .f32⟩
  | 92 => ⟨S4196352, .f32⟩
  | 93 => ⟨S2048, .f32⟩
  | 94 => ⟨S_, .f32⟩
  | 95 => ⟨S2048, .f32⟩
  | 96 => ⟨S2048, .i1⟩
  | 97 => ⟨S2048, .f32⟩
  | 98 => ⟨S_, .f32⟩
  | 99 => ⟨S2048, .f32⟩
  | 100 => ⟨S2048, .f32⟩
  | 101 => ⟨S_, .f32⟩
  | 102 => ⟨S_, .f32⟩
  | 103 => ⟨S2048, .f32⟩
  | 104 => ⟨S2048, .f32⟩
  | 105 => ⟨S_, .i32⟩
  | 106 => ⟨S4196352, .i32⟩
  | 107 => ⟨S4196352, .i1⟩
  | 108 => ⟨S_, .i32⟩
  | 109 => ⟨S4196352, .i32⟩
  | 110 => ⟨S4196352, .i32⟩
  | 111 => ⟨S4196352, .i32⟩
  | 112 => ⟨S4196352x1, .i32⟩
  | 113 => ⟨S4196352, .f32⟩
  | 114 => ⟨S_, .i32⟩
  | 115 => ⟨S4196352, .i32⟩
  | 116 => ⟨S4196352, .i1⟩
  | 117 => ⟨S_, .i32⟩
  | 118 => ⟨S4196352, .i32⟩
  | 119 => ⟨S4196352, .i32⟩
  | 120 => ⟨S4196352, .i32⟩
  | 121 => ⟨S4196352x1, .i32⟩
  | 122 => ⟨S4196352, .f32⟩
  | 123 => ⟨S4196352, .f32⟩
  | 124 => ⟨S_, .i32⟩
  | 125 => ⟨S4196352, .i32⟩
  | 126 => ⟨S4196352, .i1⟩
  | 127 => ⟨S_, .i32⟩
  | _ => ⟨S2048x2048, .i32⟩

abbrev hbmTy0_2 (i : Nat) : BufTy := match i % 128 with
  | 0 => ⟨S4196352, .i32⟩
  | 1 => ⟨S4196352, .i32⟩
  | 2 => ⟨S4196352, .i32⟩
  | 3 => ⟨S4196352x1, .i32⟩
  | 4 => ⟨S4196352x32, .f32⟩
  | 5 => ⟨S4196352x1, .f32⟩
  | 6 => ⟨S4196352x32, .f32⟩
  | 7 => ⟨S4196352x32, .f32⟩
  | 8 => ⟨S_, .f32⟩
  | 9 => ⟨S2048x32, .f32⟩
  | 10 => ⟨S_, .i32⟩
  | 11 => ⟨S4196352, .i32⟩
  | 12 => ⟨S4196352, .i1⟩
  | 13 => ⟨S_, .i32⟩
  | 14 => ⟨S4196352, .i32⟩
  | 15 => ⟨S4196352, .i32⟩
  | 16 => ⟨S4196352, .i32⟩
  | 17 => ⟨S4196352x1, .i32⟩
  | 18 => ⟨S2048x32, .f32⟩
  | 19 => ⟨S1x32, .f32⟩
  | 20 => ⟨S2048x32, .f32⟩
  | 21 => ⟨S2048x32, .f32⟩
  | 22 => ⟨S_, .f32⟩
  | 23 => ⟨S2048x32, .f32⟩
  | 24 => ⟨S2048x32, .f32⟩
  | 25 => ⟨S_, .f32⟩
  | 26 => ⟨S32, .f32⟩
  | 27 => ⟨S1x32, .f32⟩
  | 28 => ⟨S1x8, .f32⟩
  | 29 => ⟨S1x8, .f32⟩
  | 30 => ⟨S1x8, .f32⟩
  | _ => ⟨S2048x2048, .i32⟩

abbrev hbmTy (i : Nat) : BufTy := match i / 128 with
  | 0 => hbmTy0_0 i
  | 1 => hbmTy0_1 i
  | 2 => hbmTy0_2 i
  | _ => ⟨S2048x2048, .i32⟩

abbrev bufTy : (tb : Table) → Fin (tcTables nBuf tb) → BufTy
  | .hbm, ⟨i, _⟩ => hbmTy i
  | _, _ => ⟨S2048x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_call0_c : Ref sig .tc := ⟨.hbm, 12, rfl⟩
abbrev main_call0_call0_v0 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_v4 : Ref sig .tc := ⟨.hbm, 20, rfl⟩
abbrev main_c_2 : Ref sig .tc := ⟨.hbm, 21, rfl⟩
abbrev main_v5 : Ref sig .tc := ⟨.hbm, 22, rfl⟩
abbrev main_v6 : Ref sig .tc := ⟨.hbm, 23, rfl⟩
abbrev main_c_3 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_4 : Ref sig .tc := ⟨.hbm, 29, rfl⟩
abbrev main_v11 : Ref sig .tc := ⟨.hbm, 30, rfl⟩
abbrev main_v12 : Ref sig .tc := ⟨.hbm, 31, rfl⟩
abbrev main_call2_call0_c : Ref sig .tc := ⟨.hbm, 32, rfl⟩
abbrev main_call2_call0_v0 : Ref sig .tc := ⟨.hbm, 33, rfl⟩
abbrev main_v13 : Ref sig .tc := ⟨.hbm, 34, rfl⟩
abbrev main_c_5 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_v6 : Ref sig .tc := ⟨.hbm, 42, rfl⟩
abbrev main_call3_v7 : Ref sig .tc := ⟨.hbm, 43, rfl⟩
abbrev main_call3_c : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_c_0 : Ref sig .tc := ⟨.hbm, 48, rfl⟩
abbrev main_call3_v11 : Ref sig .tc := ⟨.hbm, 49, rfl⟩
abbrev main_call3_v12 : Ref sig .tc := ⟨.hbm, 50, rfl⟩
abbrev main_v14 : Ref sig .tc := ⟨.hbm, 51, rfl⟩
abbrev main_c_6 : Ref sig .tc := ⟨.hbm, 52, rfl⟩
abbrev main_call4_v0 : Ref sig .tc := ⟨.hbm, 53, rfl⟩
abbrev main_call4_c : Ref sig .tc := ⟨.hbm, 54, rfl⟩
abbrev main_call4_v1 : Ref sig .tc := ⟨.hbm, 55, rfl⟩
abbrev main_call4_c_0 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_call4_c_1 : Ref sig .tc := ⟨.hbm, 60, rfl⟩
abbrev main_call4_v5 : Ref sig .tc := ⟨.hbm, 61, rfl⟩
abbrev main_call4_v6 : Ref sig .tc := ⟨.hbm, 62, rfl⟩
abbrev main_call4_c_2 : Ref sig .tc := ⟨.hbm, 63, rfl⟩
abbrev main_call4_v7 : Ref sig .tc := ⟨.hbm, 64, rfl⟩
abbrev main_call4_v8 : Ref sig .tc := ⟨.hbm, 65, rfl⟩
abbrev main_call4_c_3 : Ref sig .tc := ⟨.hbm, 66, rfl⟩
abbrev main_call4_v9 : Ref sig .tc := ⟨.hbm, 67, rfl⟩
abbrev main_call4_v10 : Ref sig .tc := ⟨.hbm, 68, rfl⟩
abbrev main_call4_v11 : Ref sig .tc := ⟨.hbm, 69, rfl⟩
abbrev main_call4_v12 : Ref sig .tc := ⟨.hbm, 70, rfl⟩
abbrev main_call4_v13 : Ref sig .tc := ⟨.hbm, 71, rfl⟩
abbrev main_call4_v14 : Ref sig .tc := ⟨.hbm, 72, rfl⟩
abbrev main_v15 : Ref sig .tc := ⟨.hbm, 73, rfl⟩
abbrev main_c_7 : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_call5_v5 : Ref sig .tc := ⟨.hbm, 80, rfl⟩
abbrev main_call5_v6 : Ref sig .tc := ⟨.hbm, 81, rfl⟩
abbrev main_call5_v7 : Ref sig .tc := ⟨.hbm, 82, rfl⟩
abbrev main_call5_c : Ref sig .tc := ⟨.hbm, 83, rfl⟩
abbrev main_call5_v8 : Ref sig .tc := ⟨.hbm, 84, rfl⟩
abbrev main_call5_v9 : Ref sig .tc := ⟨.hbm, 85, rfl⟩
abbrev main_call5_v10 : Ref sig .tc := ⟨.hbm, 86, rfl⟩
abbrev main_call5_c_0 : Ref sig .tc := ⟨.hbm, 87, rfl⟩
abbrev main_call5_v11 : Ref sig .tc := ⟨.hbm, 88, rfl⟩
abbrev main_call5_v12 : Ref sig .tc := ⟨.hbm, 89, rfl⟩
abbrev main_v16 : Ref sig .tc := ⟨.hbm, 90, rfl⟩
abbrev main_c_8 : Ref sig .tc := ⟨.hbm, 91, rfl⟩
abbrev main_call6_v0 : Ref sig .tc := ⟨.hbm, 92, rfl⟩
abbrev main_call6_c : Ref sig .tc := ⟨.hbm, 93, rfl⟩
abbrev main_call6_v1 : Ref sig .tc := ⟨.hbm, 94, rfl⟩
abbrev main_call6_c_0 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_call6_c_1 : Ref sig .tc := ⟨.hbm, 99, rfl⟩
abbrev main_call6_v5 : Ref sig .tc := ⟨.hbm, 100, rfl⟩
abbrev main_call6_v6 : Ref sig .tc := ⟨.hbm, 101, rfl⟩
abbrev main_call6_c_2 : Ref sig .tc := ⟨.hbm, 102, rfl⟩
abbrev main_call6_v7 : Ref sig .tc := ⟨.hbm, 103, rfl⟩
abbrev main_call6_v8 : Ref sig .tc := ⟨.hbm, 104, rfl⟩
abbrev main_call6_c_3 : Ref sig .tc := ⟨.hbm, 105, rfl⟩
abbrev main_call6_v9 : Ref sig .tc := ⟨.hbm, 106, rfl⟩
abbrev main_call6_v10 : Ref sig .tc := ⟨.hbm, 107, rfl⟩
abbrev main_call6_v11 : Ref sig .tc := ⟨.hbm, 108, rfl⟩
abbrev main_call6_v12 : Ref sig .tc := ⟨.hbm, 109, rfl⟩
abbrev main_call6_v13 : Ref sig .tc := ⟨.hbm, 110, rfl⟩
abbrev main_call6_v14 : Ref sig .tc := ⟨.hbm, 111, rfl⟩
abbrev main_v17 : Ref sig .tc := ⟨.hbm, 112, rfl⟩
abbrev main_v18 : Ref sig .tc := ⟨.hbm, 113, rfl⟩
abbrev main_v19 : Ref sig .tc := ⟨.hbm, 114, rfl⟩
abbrev main_c_9 : Ref sig .tc := ⟨.hbm, 115, rfl⟩
abbrev main_v20 : Ref sig .tc := ⟨.hbm, 116, rfl⟩
abbrev main_v21 : Ref sig .tc := ⟨.hbm, 117, rfl⟩
abbrev main_v22 : Ref sig .tc := ⟨.hbm, 118, rfl⟩
abbrev main_c_10 : Ref sig .tc := ⟨.hbm, 119, rfl⟩
abbrev main_call7_v0 : Ref sig .tc := ⟨.hbm, 120, rfl⟩
abbrev main_call7_v1 : Ref sig .tc := ⟨.hbm, 121, rfl⟩
abbrev main_v23 : Ref sig .tc := ⟨.hbm, 122, rfl⟩
abbrev main_c_11 : Ref sig .tc := ⟨.hbm, 123, rfl⟩
abbrev main_call8_v0 : Ref sig .tc := ⟨.hbm, 124, rfl⟩
abbrev main_call8_v1 : Ref sig .tc := ⟨.hbm, 125, rfl⟩
abbrev main_v24 : Ref sig .tc := ⟨.hbm, 126, rfl⟩
abbrev main_cst : Ref sig .tc := ⟨.hbm, 127, rfl⟩
abbrev main_v25 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev main_cst_12 : Ref sig .tc := ⟨.hbm, 133, rfl⟩
abbrev main_v30 : Ref sig .tc := ⟨.hbm, 134, rfl⟩
abbrev main_c_13 : Ref sig .tc := ⟨.hbm, 135, rfl⟩
abbrev main_v31 : Ref sig .tc := ⟨.hbm, 136, rfl⟩
abbrev main_v32 : Ref sig .tc := ⟨.hbm, 137, rfl⟩
abbrev main_c_14 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_cst_15 : Ref sig .tc := ⟨.hbm, 143, rfl⟩
abbrev main_v37 : Ref sig .tc := ⟨.hbm, 144, rfl⟩
abbrev main_v38 : Ref sig .tc := ⟨.hbm, 145, rfl⟩
abbrev main_cst_16 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_cst_17 : Ref sig .tc := ⟨.hbm, 150, rfl⟩
abbrev main_v42 : Ref sig .tc := ⟨.hbm, 151, rfl⟩
abbrev main_v43 : Ref sig .tc := ⟨.hbm, 152, rfl⟩
abbrev main_cst_18 : Ref sig .tc := ⟨.hbm, 153, rfl⟩
abbrev main_call9_v0 : Ref sig .tc := ⟨.hbm, 154, rfl⟩
abbrev main_call9_v1 : Ref sig .tc := ⟨.hbm, 155, rfl⟩
abbrev main_v44 : Ref sig .tc := ⟨.hbm, 156, rfl⟩
abbrev main_c_19 : Ref sig .tc := ⟨.hbm, 157, rfl⟩
abbrev main_v45 : Ref sig .tc := ⟨.hbm, 158, rfl⟩
abbrev main_v46 : Ref sig .tc := ⟨.hbm, 159, rfl⟩
abbrev main_c_20 : Ref sig .tc := ⟨.hbm, 160, rfl⟩
abbrev main_v47 : Ref sig .tc := ⟨.hbm, 161, rfl⟩
abbrev main_v48 : Ref sig .tc := ⟨.hbm, 162, rfl⟩
abbrev main_v49 : Ref sig .tc := ⟨.hbm, 163, rfl⟩
abbrev main_v50 : Ref sig .tc := ⟨.hbm, 164, rfl⟩
abbrev main_v51 : Ref sig .tc := ⟨.hbm, 165, rfl⟩
abbrev main_c_21 : Ref sig .tc := ⟨.hbm, 166, rfl⟩
abbrev main_v52 : Ref sig .tc := ⟨.hbm, 167, rfl⟩
abbrev main_v53 : Ref sig .tc := ⟨.hbm, 168, rfl⟩
abbrev main_c_22 : Ref sig .tc := ⟨.hbm, 169, rfl⟩
abbrev main_v54 : Ref sig .tc := ⟨.hbm, 170, rfl⟩
abbrev main_v55 : Ref sig .tc := ⟨.hbm, 171, rfl⟩
abbrev main_v56 : Ref sig .tc := ⟨.hbm, 172, rfl⟩
abbrev main_v57 : Ref sig .tc := ⟨.hbm, 173, rfl⟩
abbrev main_v58 : Ref sig .tc := ⟨.hbm, 174, rfl⟩
abbrev main_v59 : Ref sig .tc := ⟨.hbm, 175, rfl⟩
abbrev main_c_23 : Ref sig .tc := ⟨.hbm, 176, rfl⟩
abbrev main_v60 : Ref sig .tc := ⟨.hbm, 177, rfl⟩
abbrev main_v61 : Ref sig .tc := ⟨.hbm, 178, rfl⟩
abbrev main_c_24 : Ref sig .tc := ⟨.hbm, 179, rfl⟩
abbrev main_v62 : Ref sig .tc := ⟨.hbm, 180, rfl⟩
abbrev main_v63 : Ref sig .tc := ⟨.hbm, 181, rfl⟩
abbrev main_v64 : Ref sig .tc := ⟨.hbm, 182, rfl⟩
abbrev main_v65 : Ref sig .tc := ⟨.hbm, 183, rfl⟩
abbrev main_v66 : Ref sig .tc := ⟨.hbm, 184, rfl⟩
abbrev main_v67 : Ref sig .tc := ⟨.hbm, 185, rfl⟩
abbrev main_v68 : Ref sig .tc := ⟨.hbm, 186, rfl⟩
abbrev main_v69 : Ref sig .tc := ⟨.hbm, 187, rfl⟩
abbrev main_cst_25 : Ref sig .tc := ⟨.hbm, 188, rfl⟩
abbrev main_v70 : Ref sig .tc := ⟨.hbm, 189, rfl⟩
abbrev main_c_26 : Ref sig .tc := ⟨.hbm, 190, rfl⟩
abbrev main_v71 : Ref sig .tc := ⟨.hbm, 191, rfl⟩
abbrev main_v72 : Ref sig .tc := ⟨.hbm, 192, rfl⟩
abbrev main_c_27 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_v80 : Ref sig .tc := ⟨.hbm, 201, rfl⟩
abbrev main_call10_cst : Ref sig .tc := ⟨.hbm, 202, rfl⟩
abbrev main_call10_v0 : Ref sig .tc := ⟨.hbm, 203, rfl⟩
abbrev main_v81 : Ref sig .tc := ⟨.hbm, 204, rfl⟩
abbrev main_v82 : Ref sig .tc := ⟨.hbm, 205, rfl⟩
abbrev main_v83 : Ref sig .tc := ⟨.hbm, 206, rfl⟩
abbrev main_v84 : Ref sig .tc := ⟨.hbm, 207, rfl⟩
abbrev main_v85 : Ref sig .tc := ⟨.hbm, 208, rfl⟩
abbrev main_cst_28 : Ref sig .tc := ⟨.hbm, 209, rfl⟩
abbrev main_v86 : Ref sig .tc := ⟨.hbm, 210, rfl⟩
abbrev main_c_29 : Ref sig .tc := ⟨.hbm, 211, rfl⟩
abbrev main_v87 : Ref sig .tc := ⟨.hbm, 212, rfl⟩
abbrev main_v88 : Ref sig .tc := ⟨.hbm, 213, rfl⟩
abbrev main_c_30 : Ref sig .tc := ⟨.hbm, 214, rfl⟩
abbrev main_v89 : Ref sig .tc := ⟨.hbm, 215, rfl⟩
abbrev main_v90 : Ref sig .tc := ⟨.hbm, 216, rfl⟩
abbrev main_v91 : Ref sig .tc := ⟨.hbm, 217, rfl⟩
abbrev main_v92 : Ref sig .tc := ⟨.hbm, 218, rfl⟩
abbrev main_cst_31 : Ref sig .tc := ⟨.hbm, 219, rfl⟩
abbrev main_v93 : Ref sig .tc := ⟨.hbm, 220, rfl⟩
abbrev main_v94 : Ref sig .tc := ⟨.hbm, 221, rfl⟩
abbrev main_cst_32 : Ref sig .tc := ⟨.hbm, 222, rfl⟩
abbrev main_v95 : Ref sig .tc := ⟨.hbm, 223, rfl⟩
abbrev main_v96 : Ref sig .tc := ⟨.hbm, 224, rfl⟩
abbrev main_v97 : Ref sig .tc := ⟨.hbm, 225, rfl⟩
abbrev main_cst_33 : Ref sig .tc := ⟨.hbm, 226, rfl⟩
abbrev main_v98 : Ref sig .tc := ⟨.hbm, 227, rfl⟩
abbrev main_v99 : Ref sig .tc := ⟨.hbm, 228, rfl⟩
abbrev main_cst_34 : Ref sig .tc := ⟨.hbm, 229, rfl⟩
abbrev main_call11_v0 : Ref sig .tc := ⟨.hbm, 230, rfl⟩
abbrev main_call11_v1 : Ref sig .tc := ⟨.hbm, 231, rfl⟩
abbrev main_v100 : Ref sig .tc := ⟨.hbm, 232, rfl⟩
abbrev main_c_35 : Ref sig .tc := ⟨.hbm, 233, rfl⟩
abbrev main_v101 : Ref sig .tc := ⟨.hbm, 234, rfl⟩
abbrev main_v102 : Ref sig .tc := ⟨.hbm, 235, rfl⟩
abbrev main_c_36 : Ref sig .tc := ⟨.hbm, 236, rfl⟩
abbrev main_v103 : Ref sig .tc := ⟨.hbm, 237, rfl⟩
abbrev main_v104 : Ref sig .tc := ⟨.hbm, 238, rfl⟩
abbrev main_v105 : Ref sig .tc := ⟨.hbm, 239, rfl⟩
abbrev main_v106 : Ref sig .tc := ⟨.hbm, 240, rfl⟩
abbrev main_v107 : Ref sig .tc := ⟨.hbm, 241, rfl⟩
abbrev main_c_37 : Ref sig .tc := ⟨.hbm, 242, rfl⟩
abbrev main_v108 : Ref sig .tc := ⟨.hbm, 243, rfl⟩
abbrev main_v109 : Ref sig .tc := ⟨.hbm, 244, rfl⟩
abbrev main_c_38 : Ref sig .tc := ⟨.hbm, 245, rfl⟩
abbrev main_v110 : Ref sig .tc := ⟨.hbm, 246, rfl⟩
abbrev main_v111 : Ref sig .tc := ⟨.hbm, 247, rfl⟩
abbrev main_v112 : Ref sig .tc := ⟨.hbm, 248, rfl⟩
abbrev main_v113 : Ref sig .tc := ⟨.hbm, 249, rfl⟩
abbrev main_v114 : Ref sig .tc := ⟨.hbm, 250, rfl⟩
abbrev main_v115 : Ref sig .tc := ⟨.hbm, 251, rfl⟩
abbrev main_c_39 : Ref sig .tc := ⟨.hbm, 252, rfl⟩
abbrev main_v116 : Ref sig .tc := ⟨.hbm, 253, rfl⟩
abbrev main_v117 : Ref sig .tc := ⟨.hbm, 254, rfl⟩
abbrev main_c_40 : Ref sig .tc := ⟨.hbm, 255, rfl⟩
abbrev main_v118 : Ref sig .tc := ⟨.hbm, 256, rfl⟩
abbrev main_v119 : Ref sig .tc := ⟨.hbm, 257, rfl⟩
abbrev main_v120 : Ref sig .tc := ⟨.hbm, 258, rfl⟩
abbrev main_v121 : Ref sig .tc := ⟨.hbm, 259, rfl⟩
abbrev main_v122 : Ref sig .tc := ⟨.hbm, 260, rfl⟩
abbrev main_v123 : Ref sig .tc := ⟨.hbm, 261, rfl⟩
abbrev main_v124 : Ref sig .tc := ⟨.hbm, 262, rfl⟩
abbrev main_v125 : Ref sig .tc := ⟨.hbm, 263, rfl⟩
abbrev main_cst_41 : Ref sig .tc := ⟨.hbm, 264, rfl⟩
abbrev main_v126 : Ref sig .tc := ⟨.hbm, 265, rfl⟩
abbrev main_c_42 : Ref sig .tc := ⟨.hbm, 266, rfl⟩
abbrev main_v127 : Ref sig .tc := ⟨.hbm, 267, rfl⟩
abbrev main_v128 : Ref sig .tc := ⟨.hbm, 268, rfl⟩
abbrev main_c_43 : Ref sig .tc := ⟨.hbm, 269, rfl⟩
abbrev main_v129 : Ref sig .tc := ⟨.hbm, 270, rfl⟩
abbrev main_v130 : Ref sig .tc := ⟨.hbm, 271, rfl⟩
abbrev main_v131 : Ref sig .tc := ⟨.hbm, 272, rfl⟩
abbrev main_v132 : Ref sig .tc := ⟨.hbm, 273, rfl⟩
abbrev main_v133 : Ref sig .tc := ⟨.hbm, 274, rfl⟩
abbrev main_v134 : Ref sig .tc := ⟨.hbm, 275, rfl⟩
abbrev main_v135 : Ref sig .tc := ⟨.hbm, 276, rfl⟩
abbrev main_v136 : Ref sig .tc := ⟨.hbm, 277, rfl⟩
abbrev main_call12_cst : Ref sig .tc := ⟨.hbm, 278, rfl⟩
abbrev main_call12_v0 : Ref sig .tc := ⟨.hbm, 279, rfl⟩
abbrev main_v137 : Ref sig .tc := ⟨.hbm, 280, rfl⟩
abbrev main_cst_44 : Ref sig .tc := ⟨.hbm, 281, rfl⟩
abbrev main_v138 : Ref sig .tc := ⟨.hbm, 282, rfl⟩
abbrev main_v139 : Ref sig .tc := ⟨.hbm, 283, rfl⟩
abbrev main_v140 : Ref sig .tc := ⟨.hbm, 284, rfl⟩
abbrev main_v141 : Ref sig .tc := ⟨.hbm, 285, rfl⟩
abbrev main_v142 : Ref sig .tc := ⟨.hbm, 286, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  shapeCasts_S2048x2048_S4194304 : S2048x2048.ShapeCasts S4194304
  natLt_1_32 : 1 < 32
  bcast_S_S_ : S_.BroadcastsInDim S_ (![] : Fin 0 → Fin S_.rank)
  reduceWindows_S4194304_S4194304_w4194304s1p4194303_0 : S4194304.ReduceWindows (![4194304] : Fin 1 → Nat) ![1] ![4194303] ![0] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  reducesTo_S2048x2048_S_d0_1 : S2048x2048.ReducesTo [0, 1] S_
  bcast_S_S2048x1 : S_.BroadcastsInDim S2048x1 (![] : Fin 0 → Fin S2048x1.rank)
  concatenates_S4194304_S2048_S4196352_d0 : Shape.Concatenates [S4194304, S2048] S4196352 0
  bcast_S_S2048 : S_.BroadcastsInDim S2048 (![] : Fin 0 → Fin S2048.rank)
  bcast_S_S4196352 : S_.BroadcastsInDim S4196352 (![] : Fin 0 → Fin S4196352.rank)
  bcast_S4196352_S4196352x1_0 : S4196352.BroadcastsInDim S4196352x1 (![0] : Fin 1 → Fin S4196352x1.rank)
  bcast_S4196352x1_S4196352x32_0_1 : S4196352x1.BroadcastsInDim S4196352x32 (![0, 1] : Fin 2 → Fin S4196352x32.rank)
  bcast_S_S2048x32 : S_.BroadcastsInDim S2048x32 (![] : Fin 0 → Fin S2048x32.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  reducesTo_S2048x32_S32_d0 : S2048x32.ReducesTo [0] S32
  bcast_S8_S1x8_1 : S8.BroadcastsInDim S1x8 (![1] : Fin 1 → Fin S1x8.rank)
  scatter_S4194304_S4194304x1_S4194304_n_0_0_1_wf : ScatterDims.WF S4194304 S4194304x1 S4194304 [] [0] [0] 1
  dot_S2048x1_S1x32_S2048x32_1_0_0_1_n_n_wf : DotDims.WF S2048x1 S1x32 S2048x32 [1] [0] [0] [1] [] []
  scatter_S2048_S4196352x1_S4196352_n_0_0_1_wf : ScatterDims.WF S2048 S4196352x1 S4196352 [] [0] [0] 1
  gather_S2048_S4196352x1_S4196352_n_0_n_n_0_1_1_wf : GatherDims.WF S2048 S4196352x1 S4196352 [] [0] [] [0] [] 1 ![1]
  gather_S2048x32_S4196352x1_S4196352x32_1_0_n_n_0_1_132_wf : GatherDims.WF S2048x32 S4196352x1 S4196352x32 [1] [0] [] [0] [] 1 ![1, 32]
  scatter_S2048x32_S4196352x1_S4196352x32_1_0_0_1_wf : ScatterDims.WF S2048x32 S4196352x1 S4196352x32 [1] [0] [0] 1
  dot_S2048x32_S32x32_S2048x32_1_0_0_1_n_n_wf : DotDims.WF S2048x32 S32x32 S2048x32 [1] [0] [0] [1] [] []
  dot_S1x32_S32x8_S1x8_1_0_0_1_n_n_wf : DotDims.WF S1x32 S32x8 S1x8 [1] [0] [0] [1] [] []

variable [Facts₀]

def scatter_S4194304_S4194304x1_S4194304_n_0_0_1 : ScatterDims S4194304 S4194304x1 S4194304 where
  updateWindowDims := []
  insertedWindowDims := [0]
  scatterDimsToOperandDims := [0]
  indexVectorDim := 1
  wf := scatter_S4194304_S4194304x1_S4194304_n_0_0_1_wf
def dot_S2048x1_S1x32_S2048x32_1_0_0_1_n_n : DotDims S2048x1 S1x32 S2048x32 where
  lhsContracting := [1]
  rhsContracting := [0]
  lhsNonContracting := [0]
  rhsNonContracting := [1]
  lhsBatch := []
  rhsBatch := []
  wf := dot_S2048x1_S1x32_S2048x32_1_0_0_1_n_n_wf
def scatter_S2048_S4196352x1_S4196352_n_0_0_1 : ScatterDims S2048 S4196352x1 S4196352 where
  updateWindowDims := []
  insertedWindowDims := [0]
  scatterDimsToOperandDims := [0]
  indexVectorDim := 1
  wf := scatter_S2048_S4196352x1_S4196352_n_0_0_1_wf
def gather_S2048_S4196352x1_S4196352_n_0_n_n_0_1_1 : GatherDims S2048 S4196352x1 S4196352 where
  offsetDims := []
  collapsedSliceDims := [0]
  operandBatchingDims := []
  startIndicesBatchingDims := []
  startIndexMap := [0]
  indexVectorDim := 1
  sliceSizes := ![1]
  wf := gather_S2048_S4196352x1_S4196352_n_0_n_n_0_1_1_wf
def gather_S2048x32_S4196352x1_S4196352x32_1_0_n_n_0_1_132 : GatherDims S2048x32 S4196352x1 S4196352x32 where
  offsetDims := [1]
  collapsedSliceDims := [0]
  operandBatchingDims := []
  startIndicesBatchingDims := []
  startIndexMap := [0]
  indexVectorDim := 1
  sliceSizes := ![1, 32]
  wf := gather_S2048x32_S4196352x1_S4196352x32_1_0_n_n_0_1_132_wf
def scatter_S2048x32_S4196352x1_S4196352x32_1_0_0_1 : ScatterDims S2048x32 S4196352x1 S4196352x32 where
  updateWindowDims := [1]
  insertedWindowDims := [0]
  scatterDimsToOperandDims := [0]
  indexVectorDim := 1
  wf := scatter_S2048x32_S4196352x1_S4196352x32_1_0_0_1_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S1x32_S32x8_S1x8_1_0_0_1_n_n : DotDims S1x32 S32x8 S1x8 where
  lhsContracting := [1]
  rhsContracting := [0]
  lhsNonContracting := [0]
  rhsNonContracting := [1]
  lhsBatch := []
  rhsBatch := []
  wf := dot_S1x32_S32x8_S1x8_1_0_0_1_n_n_wf

class Facts : Prop extends Facts₀ where

variable [Facts]
-- ==== Proof.RefOps.lean ====
/- Written by: bun scratch/gen_refops.js (run in the unit directory; it reads proof/ReferenceIdeal.lean). The reference's @main as
   lists of host operations, window by window: each call of an outlined function (cumsum, clip, floor_divide, remainder,
   where, relu) is replaced by the callee's own operations over that call's record of buffers, in order. -/
import proofs.«178039_g46316927320456_cont_sun_m_677_15_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 40 of window main_part0. -/
abbrev ops0_a : List (HloOp τ sig (Elt F)) :=
  [ nullary main_c (constantI S_ 32 0#32),
    unary main_c main_v0 (broadcastInDim S2048x2048 ![] bcast_S_S2048x2048 : (⟨S_, .i32⟩ : BufTy).Contents (Elt F) → (⟨S2048x2048, .i32⟩ : BufTy).Contents (Elt F)),
    binary main_arg0 main_v0 main_v1 (cmpi .sgt : (⟨S2048x2048, .i32⟩ : BufTy).Contents (Elt F) → (⟨S2048x2048, .i32⟩ : BufTy).Contents (Elt F) → (⟨S2048x2048, .i1⟩ : BufTy).Contents (Elt F)),
    TRef.reshape (TRef.of main_v1 : TRef sig ⟨S2048x2048, .i1⟩) main_call0.v0 rfl shapeCasts_S2048x2048_S4194304,
    TRef.unary main_call0.v0 main_call0.v1 (extui 32 · natLt_1_32),
    TRef.nullary main_call0.call0.c (constantI S_ 32 0#32),
    TRef.unary main_call0.call0.c main_call0.call0.v0 (broadcastInDim S_ ![] bcast_S_S_),
    TRef.binary main_call0.v1 main_call0.call0.v0 main_call0.call0.v1 (fun x v => Host.reduceWindow IntOp.addi ![4194304] ![1] ![4194303] ![0] x v reduceWindows_S4194304_S4194304_w4194304s1p4194303_0 h_S_),
    nullary main_c_0 (constantI S_ 32 0#32),
    unary main_c_0 main_v3 (broadcastInDim S4194304 ![] bcast_S_S4194304 : (⟨S_, .i32⟩ : BufTy).Contents (Elt F) → (⟨S4194304, .i32⟩ : BufTy).Contents (Elt F)),
    nullary main_c_1 (constantI S_ 32 0#32),
    TRef.unary (TRef.of main_c_1 : TRef sig ⟨S_, .i32⟩) main_call1.v0 id,
    TRef.unary main_call1.v0 main_call1.v1 (broadcastInDim S4194304 ![] bcast_S_S4194304),
    TRef.binary main_call1.v1 (TRef.of main_v2 : TRef sig ⟨S4194304, .i32⟩) main_call1.v2 maxsi,
    nullary main_c_2 (constantI S_ 32 0#32),
    unary main_c_2 main_v5 (broadcastInDim S4194304 ![] bcast_S_S4194304 : (⟨S_, .i32⟩ : BufTy).Contents (Elt F) → (⟨S4194304, .i32⟩ : BufTy).Contents (Elt F)),
    binary main_v4 main_v5 main_v6 (cmpi .slt : (⟨S4194304, .i32⟩ : BufTy).Contents (Elt F) → (⟨S4194304, .i32⟩ : BufTy).Contents (Elt F) → (⟨S4194304, .i1⟩ : BufTy).Contents (Elt F)),
    nullary main_c_3 (constantI S_ 32 4194304#32),
    unary main_c_3 main_v7 (broadcastInDim S4194304 ![] bcast_S_S4194304 : (⟨S_, .i32⟩ : BufTy).Contents (Elt F) → (⟨S4194304, .i32⟩ : BufTy).Contents (Elt F)),
    binary main_v4 main_v7 main_v8 (addi : (⟨S4194304, .i32⟩ : BufTy).Contents (Elt F) → (⟨S4194304, .i32⟩ : BufTy).Contents (Elt F) → (⟨S4194304, .i32⟩ : BufTy).Contents (Elt F)),
    ternary main_v6 main_v8 main_v4 main_v9 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v9 main_v10 (broadcastInDim S4194304x1 ![0] bcast_S4194304_S4194304x1_0 : (⟨S4194304, .i32⟩ : BufTy).Contents (Elt F) → (⟨S4194304x1, .i32⟩ : BufTy).Contents (Elt F)),
    nullary main_c_4 (constantI S_ 32 1#32),
    unary main_c_4 main_v11 (broadcastInDim S4194304 ![] bcast_S_S4194304 : (⟨S_, .i32⟩ : BufTy).Contents (Elt F) → (⟨S4194304, .i32⟩ : BufTy).Contents (Elt F)),
    ternary main_v3 main_v10 main_v11 main_v12 ((fun x i u => Host.scatter scatter_S4194304_S4194304x1_S4194304_n_0_0_1 IntOp.addi x i u) : (⟨S4194304, .i32⟩ : BufTy).Contents (Elt F) → (⟨S4194304x1, .i32⟩ : BufTy).Contents (Elt F) → (⟨S4194304, .i32⟩ : BufTy).Contents (Elt F) → (⟨S4194304, .i32⟩ : BufTy).Contents (Elt F)),
    TRef.nullary main_call2.call0.c (constantI S_ 32 0#32),
    TRef.unary main_call2.call0.c main_call2.call0.v0 (broadcastInDim S_ ![] bcast_S_S_),
    TRef.binary (TRef.of main_v12 : TRef sig ⟨S4194304, .i32⟩) main_call2.call0.v0 main_call2.call0.v1 (fun x v => Host.reduceWindow IntOp.addi ![4194304] ![1] ![4194303] ![0] x v reduceWindows_S4194304_S4194304_w4194304s1p4194303_0 h_S_),
    nullary main_c_5 (constantI S_ 32 2048#32),
    TRef.unary (TRef.of main_c_5 : TRef sig ⟨S_, .i32⟩) main_call3.v0 (broadcastInDim S4194304 ![] bcast_S_S4194304),
    TRef.binary (TRef.of main_v13 : TRef sig ⟨S4194304, .i32⟩) main_call3.v0 main_call3.v1 Host.divsi,
    TRef.unary (TRef.of main_v13 : TRef sig ⟨S4194304, .i32⟩) main_call3.v2 signi,
    TRef.unary (TRef.of main_c_5 : TRef sig ⟨S_, .i32⟩) main_call3.v3 signi,
    TRef.unary main_call3.v3 main_call3.v4 (broadcastInDim S4194304 ![] bcast_S_S4194304),
    TRef.binary main_call3.v2 main_call3.v4 main_call3.v5 (cmpi .ne),
    TRef.unary (TRef.of main_c_5 : TRef sig ⟨S_, .i32⟩) main_call3.v6 (broadcastInDim S4194304 ![] bcast_S_S4194304),
    TRef.binary (TRef.of main_v13 : TRef sig ⟨S4194304, .i32⟩) main_call3.v6 main_call3.v7 Host.remsi,
    TRef.nullary main_call3.c (constantI S_ 32 0#32),
    TRef.unary main_call3.c main_call3.v8 (broadcastInDim S4194304 ![] bcast_S_S4194304),
    TRef.binary main_call3.v7 main_call3.v8 main_call3.v9 (cmpi .ne) ]

theorem ops0_a_sub : (ops0_a : List (HloOp τ sig (Elt F))).Forall fun op => op.bufs ⊆ tcRefs τ sig :=
  ⟨nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub ..⟩

/-- The buffers these operations write, in order. -/
abbrev ops0_a_W : List (Ref sig .tc) :=
  [main_c, main_v0, main_v1, main_call0_v0, main_call0_v1, main_call0_call0_c, main_call0_call0_v0, main_v2, main_c_0, main_v3, main_c_1, main_call1_v0, main_call1_v1, main_v4, main_c_2, main_v5, main_v6, main_c_3, main_v7, main_v8, main_v9, main_v10, main_c_4, main_v11, main_v12, main_call2_call0_c, main_call2_call0_v0, main_v13, main_c_5, main_call3_v0, main_call3_v1, main_call3_v2, main_call3_v3, main_call3_v4, main_call3_v5, main_call3_v6, main_call3_v7, main_call3_c, main_call3_v8, main_call3_v9]

theorem ops0_a_writes : (ops0_a : List (HloOp τ sig (Elt F))).Forall fun op => op.writes ⊆ (ops0_a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem ops0_a_fresh : ∀ op ∈ (ops0_a : List (HloOp τ sig (Elt F))), op.fresh = ∅ := by
  intro _ h; (repeat (cases h with | head => rfl | tail _ h => ?_)); exact nomatch h

/-- Operations 41 … 80 of window main_part0. -/
abbrev ops0_b : List (HloOp τ sig (Elt F)) :=
  [ TRef.binary main_call3.v5 main_call3.v9 main_call3.v10 andi,
    TRef.nullary main_call3.c_0 (constantI S_ 32 1#32),
    TRef.unary main_call3.c_0 main_call3.v11 (broadcastInDim S4194304 ![] bcast_S_S4194304),
    TRef.binary main_call3.v1 main_call3.v11 main_call3.v12 subi,
    TRef.ternary main_call3.v10 main_call3.v12 main_call3.v1 main_call3.call0.v0 select,
    nullary main_c_6 (constantI S_ 32 2048#32),
    TRef.unary (TRef.of main_c_6 : TRef sig ⟨S_, .i32⟩) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S4194304 ![] bcast_S_S4194304),
    TRef.binary (TRef.of main_v14 : TRef sig ⟨S4194304, .i32⟩) main_call4.v3 main_call4.v4 Host.remsi,
    TRef.nullary main_call4.c_1 (constantI S_ 32 0#32),
    TRef.unary main_call4.c_1 main_call4.v5 (broadcastInDim S4194304 ![] bcast_S_S4194304),
    TRef.binary main_call4.v4 main_call4.v5 main_call4.v6 (cmpi .ne),
    TRef.nullary main_call4.c_2 (constantI S_ 32 0#32),
    TRef.unary main_call4.c_2 main_call4.v7 (broadcastInDim S4194304 ![] bcast_S_S4194304),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S4194304 ![] bcast_S_S4194304),
    TRef.binary main_call4.v8 main_call4.v10 main_call4.v11 (cmpi .ne),
    TRef.binary main_call4.v11 main_call4.v6 main_call4.v12 andi,
    TRef.unary main_call4.call0.v0 main_call4.v13 (broadcastInDim S4194304 ![] bcast_S_S4194304),
    TRef.binary main_call4.v4 main_call4.v13 main_call4.v14 addi,
    TRef.ternary main_call4.v12 main_call4.v14 main_call4.v4 main_call4.v15 select,
    nullary main_c_7 (constantI S_ 32 1#32),
    TRef.unary (TRef.of main_c_7 : TRef sig ⟨S_, .i32⟩) main_call5.v0 (broadcastInDim S4194304 ![] bcast_S_S4194304),
    TRef.binary (TRef.of main_v13 : TRef sig ⟨S4194304, .i32⟩) main_call5.v0 main_call5.v1 Host.divsi,
    TRef.unary (TRef.of main_v13 : TRef sig ⟨S4194304, .i32⟩) main_call5.v2 signi,
    TRef.unary (TRef.of main_c_7 : TRef sig ⟨S_, .i32⟩) main_call5.v3 signi,
    TRef.unary main_call5.v3 main_call5.v4 (broadcastInDim S4194304 ![] bcast_S_S4194304),
    TRef.binary main_call5.v2 main_call5.v4 main_call5.v5 (cmpi .ne),
    TRef.unary (TRef.of main_c_7 : TRef sig ⟨S_, .i32⟩) main_call5.v6 (broadcastInDim S4194304 ![] bcast_S_S4194304),
    TRef.binary (TRef.of main_v13 : TRef sig ⟨S4194304, .i32⟩) main_call5.v6 main_call5.v7 Host.remsi,
    TRef.nullary main_call5.c (constantI S_ 32 0#32),
    TRef.unary main_call5.c main_call5.v8 (broadcastInDim S4194304 ![] bcast_S_S4194304),
    TRef.binary main_call5.v7 main_call5.v8 main_call5.v9 (cmpi .ne),
    TRef.binary main_call5.v5 main_call5.v9 main_call5.v10 andi ]

theorem ops0_b_sub : (ops0_b : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

/-- The buffers these operations write, in order. -/
abbrev ops0_b_W : List (Ref sig .tc) :=
  [main_call3_v10, main_call3_c_0, main_call3_v11, main_call3_v12, main_v14, main_c_6, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v15, main_c_7, main_call5_v0, main_call5_v1, main_call5_v2, main_call5_v3, main_call5_v4, main_call5_v5, main_call5_v6, main_call5_v7, main_call5_c, main_call5_v8, main_call5_v9, main_call5_v10]

theorem ops0_b_writes : (ops0_b : List (HloOp τ sig (Elt F))).Forall fun op => op.writes ⊆ (ops0_b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem ops0_b_fresh : ∀ op ∈ (ops0_b : List (HloOp τ sig (Elt F))), op.fresh = ∅ := by
  intro _ h; (repeat (cases h with | head => rfl | tail _ h => ?_)); exact nomatch h

/-- Operations 81 … 120 of window main_part0. -/
abbrev ops0_c : List (HloOp τ sig (Elt F)) :=
  [ TRef.nullary main_call5.c_0 (constantI S_ 32 1#32),
    TRef.unary main_call5.c_0 main_call5.v11 (broadcastInDim S4194304 ![] bcast_S_S4194304),
    TRef.binary main_call5.v1 main_call5.v11 main_call5.v12 subi,
    TRef.ternary main_call5.v10 main_call5.v12 main_call5.v1 main_call5.call0.v0 select,
    nullary main_c_8 (constantI S_ 32 2048#32),
    TRef.unary (TRef.of main_c_8 : TRef sig ⟨S_, .i32⟩) main_call6.v0 id,
    TRef.nullary main_call6.c (constantI S_ 32 0#32),
    TRef.binary main_call6.v0 main_call6.c main_call6.v1 (cmpi .eq),
    TRef.nullary main_call6.c_0 (constantI S_ 32 1#32),
    TRef.ternary main_call6.v1 main_call6.c_0 main_call6.v0 main_call6.call0.v0 select,
    TRef.unary main_call6.call0.v0 main_call6.v3 (broadcastInDim S4194304 ![] bcast_S_S4194304),
    TRef.binary (TRef.of main_v16 : TRef sig ⟨S4194304, .i32⟩) main_call6.v3 main_call6.v4 Host.remsi,
    TRef.nullary main_call6.c_1 (constantI S_ 32 0#32),
    TRef.unary main_call6.c_1 main_call6.v5 (broadcastInDim S4194304 ![] bcast_S_S4194304),
    TRef.binary main_call6.v4 main_call6.v5 main_call6.v6 (cmpi .ne),
    TRef.nullary main_call6.c_2 (constantI S_ 32 0#32),
    TRef.unary main_call6.c_2 main_call6.v7 (broadcastInDim S4194304 ![] bcast_S_S4194304),
    TRef.binary main_call6.v4 main_call6.v7 main_call6.v8 (cmpi .slt),
    TRef.nullary main_call6.c_3 (constantI S_ 32 0#32),
    TRef.binary main_call6.call0.v0 main_call6.c_3 main_call6.v9 (cmpi .slt),
    TRef.unary main_call6.v9 main_call6.v10 (broadcastInDim S4194304 ![] bcast_S_S4194304),
    TRef.binary main_call6.v8 main_call6.v10 main_call6.v11 (cmpi .ne),
    TRef.binary main_call6.v11 main_call6.v6 main_call6.v12 andi,
    TRef.unary main_call6.call0.v0 main_call6.v13 (broadcastInDim S4194304 ![] bcast_S_S4194304),
    TRef.binary main_call6.v4 main_call6.v13 main_call6.v14 addi,
    TRef.ternary main_call6.v12 main_call6.v14 main_call6.v4 main_call6.v15 select,
    nullary main_v18 (iotaInDim S4194304 32 0),
    unary main_v1 main_v19 ((extui 32 · natLt_1_32) : (⟨S2048x2048, .i1⟩ : BufTy).Contents (Elt F) → (⟨S2048x2048, .i32⟩ : BufTy).Contents (Elt F)),
    nullary main_c_9 (constantI S_ 32 0#32),
    binary main_v19 main_c_9 main_v20 ((fun x v => Host.reduce IntOp.addi x v reducesTo_S2048x2048_S_d0_1 h_S_) : (⟨S2048x2048, .i32⟩ : BufTy).Contents (Elt F) → (⟨S_, .i32⟩ : BufTy).Contents (Elt F) → (⟨S_, .i32⟩ : BufTy).Contents (Elt F)),
    unary main_v20 main_v21 (broadcastInDim S4194304 ![] bcast_S_S4194304 : (⟨S_, .i32⟩ : BufTy).Contents (Elt F) → (⟨S4194304, .i32⟩ : BufTy).Contents (Elt F)),
    binary main_v18 main_v21 main_v22 (cmpi .sge : (⟨S4194304, .i32⟩ : BufTy).Contents (Elt F) → (⟨S4194304, .i32⟩ : BufTy).Contents (Elt F) → (⟨S4194304, .i1⟩ : BufTy).Contents (Elt F)),
    nullary main_c_10 (constantI S_ 32 2048#32),
    TRef.unary (TRef.of main_c_10 : TRef sig ⟨S_, .i32⟩) main_call7.v0 id,
    TRef.unary main_call7.v0 main_call7.v1 (broadcastInDim S4194304 ![] bcast_S_S4194304),
    TRef.ternary (TRef.of main_v22 : TRef sig ⟨S4194304, .i1⟩) main_call7.v1 (TRef.of main_v15 : TRef sig ⟨S4194304, .i32⟩) main_call7.v2 select,
    nullary main_c_11 (constantI S_ 32 2048#32),
    TRef.unary (TRef.of main_c_11 : TRef sig ⟨S_, .i32⟩) main_call8.v0 id,
    TRef.unary main_call8.v0 main_call8.v1 (broadcastInDim S4194304 ![] bcast_S_S4194304),
    TRef.ternary (TRef.of main_v22 : TRef sig ⟨S4194304, .i1⟩) main_call8.v1 (TRef.of main_v17 : TRef sig ⟨S4194304, .i32⟩) main_call8.v2 select ]

theorem ops0_c_sub : (ops0_c : List (HloOp τ sig (Elt F))).Forall fun op => op.bufs ⊆ tcRefs τ sig :=
  ⟨nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., nullary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub ..⟩

/-- The buffers these operations write, in order. -/
abbrev ops0_c_W : List (Ref sig .tc) :=
  [main_call5_c_0, main_call5_v11, main_call5_v12, main_v16, main_c_8, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v17, main_v18, main_v19, main_c_9, main_v20, main_v21, main_v22, main_c_10, main_call7_v0, main_call7_v1, main_v23, main_c_11, main_call8_v0, main_call8_v1, main_v24]

theorem ops0_c_writes : (ops0_c : List (HloOp τ sig (Elt F))).Forall fun op => op.writes ⊆ (ops0_c_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem ops0_c_fresh : ∀ op ∈ (ops0_c : List (HloOp τ sig (Elt F))), op.fresh = ∅ := by
  intro _ h; (repeat (cases h with | head => rfl | tail _ h => ?_)); exact nomatch h

/-- Operations 121 … 142 of window main_part0. -/
abbrev ops0_d : List (HloOp τ sig (Elt F)) :=
  [ nullary main_cst (constant S_ .f32 0x3F800000#32),
    unary main_cst main_v25 (broadcastInDim S2048x1 ![] bcast_S_S2048x1 : (⟨S_, .f32⟩ : BufTy).Contents (Elt F) → (⟨S2048x1, .f32⟩ : BufTy).Contents (Elt F)),
    binary main_v25 main_arg1 main_v26 ((fun l r => Host.dotGeneral dot_S2048x1_S1x32_S2048x32_1_0_0_1_n_n none l r) : (⟨S2048x1, .f32⟩ : BufTy).Contents (Elt F) → (⟨S1x32, .f32⟩ : BufTy).Contents (Elt F) → (⟨S2048x32, .f32⟩ : BufTy).Contents (Elt F)),
    nullary main_v27 (iotaInDim S2048 32 0),
    binary main_v23 main_v27 main_v28 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)),
    binary main_v24 main_v27 main_v29 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)),
    nullary main_cst_12 (constant S_ .f32 0x00000000#32),
    unary main_cst_12 main_v30 (broadcastInDim S2048 ![] bcast_S_S2048 : (⟨S_, .f32⟩ : BufTy).Contents (Elt F) → (⟨S2048, .f32⟩ : BufTy).Contents (Elt F)),
    nullary main_c_13 (constantI S_ 32 0#32),
    unary main_c_13 main_v31 (broadcastInDim S4196352 ![] bcast_S_S4196352 : (⟨S_, .i32⟩ : BufTy).Contents (Elt F) → (⟨S4196352, .i32⟩ : BufTy).Contents (Elt F)),
    binary main_v29 main_v31 main_v32 (cmpi .slt : (⟨S4196352, .i32⟩ : BufTy).Contents (Elt F) → (⟨S4196352, .i32⟩ : BufTy).Contents (Elt F) → (⟨S4196352, .i1⟩ : BufTy).Contents (Elt F)),
    nullary main_c_14 (constantI S_ 32 2048#32),
    unary main_c_14 main_v33 (broadcastInDim S4196352 ![] bcast_S_S4196352 : (⟨S_, .i32⟩ : BufTy).Contents (Elt F) → (⟨S4196352, .i32⟩ : BufTy).Contents (Elt F)),
    binary main_v29 main_v33 main_v34 (addi : (⟨S4196352, .i32⟩ : BufTy).Contents (Elt F) → (⟨S4196352, .i32⟩ : BufTy).Contents (Elt F) → (⟨S4196352, .i32⟩ : BufTy).Contents (Elt F)),
    ternary main_v32 main_v34 main_v29 main_v35 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v35 main_v36 (broadcastInDim S4196352x1 ![0] bcast_S4196352_S4196352x1_0 : (⟨S4196352, .i32⟩ : BufTy).Contents (Elt F) → (⟨S4196352x1, .i32⟩ : BufTy).Contents (Elt F)),
    nullary main_cst_15 (constant S_ .f32 0x3F800000#32),
    unary main_cst_15 main_v37 (broadcastInDim S4196352 ![] bcast_S_S4196352 : (⟨S_, .f32⟩ : BufTy).Contents (Elt F) → (⟨S4196352, .f32⟩ : BufTy).Contents (Elt F)),
    ternary main_v30 main_v36 main_v37 main_v38 ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)),
    nullary main_cst_16 (constant S_ .f32 0x00000000#32),
    unary main_cst_16 main_v39 (broadcastInDim S2048 ![] bcast_S_S2048 : (⟨S_, .f32⟩ : BufTy).Contents (Elt F) → (⟨S2048, .f32⟩ : BufTy).Contents (Elt F)),
    binary main_v38 main_v39 main_v40 (cmpf .ogt : (⟨S2048, .f32⟩ : BufTy).Contents (Elt F) → (⟨S2048, .f32⟩ : BufTy).Contents (Elt F) → (⟨S2048, .i1⟩ : BufTy).Contents (Elt F)) ]

theorem ops0_d_sub : (ops0_d : List (HloOp τ sig (Elt F))).Forall fun op => op.bufs ⊆ tcRefs τ sig :=
  ⟨nullary_bufs_sub .., unary_bufs_sub .., binary_bufs_sub .., nullary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub ..⟩

/-- The buffers these operations write, in order. -/
abbrev ops0_d_W : List (Ref sig .tc) :=
  [main_cst, main_v25, main_v26, main_v27, main_v28, main_v29, main_cst_12, main_v30, main_c_13, main_v31, main_v32, main_c_14, main_v33, main_v34, main_v35, main_v36, main_cst_15, main_v37, main_v38, main_cst_16, main_v39, main_v40]

theorem ops0_d_writes : (ops0_d : List (HloOp τ sig (Elt F))).Forall fun op => op.writes ⊆ (ops0_d_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem ops0_d_fresh : ∀ op ∈ (ops0_d : List (HloOp τ sig (Elt F))), op.fresh = ∅ := by
  intro _ h; (repeat (cases h with | head => rfl | tail _ h => ?_)); exact nomatch h

/-- Operations 1 … 40 of window main_part1. -/
abbrev ops1_a : List (HloOp τ sig (Elt F)) :=
  [ unary main_v38 main_v41 (Host.sqrt : (⟨S2048, .f32⟩ : BufTy).Contents (Elt F) → (⟨S2048, .f32⟩ : BufTy).Contents (Elt F)),
    nullary main_cst_17 (constant S_ .f32 0x3F800000#32),
    unary main_cst_17 main_v42 (broadcastInDim S2048 ![] bcast_S_S2048 : (⟨S_, .f32⟩ : BufTy).Contents (Elt F) → (⟨S2048, .f32⟩ : BufTy).Contents (Elt F)),
    binary main_v42 main_v41 main_v43 (Host.divf : (⟨S2048, .f32⟩ : BufTy).Contents (Elt F) → (⟨S2048, .f32⟩ : BufTy).Contents (Elt F) → (⟨S2048, .f32⟩ : BufTy).Contents (Elt F)),
    nullary main_cst_18 (constant S_ .f32 0x00000000#32),
    TRef.unary (TRef.of main_cst_18 : TRef sig ⟨S_, .f32⟩) main_call9.v0 id,
    TRef.unary main_call9.v0 main_call9.v1 (broadcastInDim S2048 ![] bcast_S_S2048),
    TRef.ternary (TRef.of main_v40 : TRef sig ⟨S2048, .i1⟩) (TRef.of main_v43 : TRef sig ⟨S2048, .f32⟩) main_call9.v1 main_call9.v2 select,
    nullary main_c_19 (constantI S_ 32 0#32),
    unary main_c_19 main_v45 (broadcastInDim S4196352 ![] bcast_S_S4196352 : (⟨S_, .i32⟩ : BufTy).Contents (Elt F) → (⟨S4196352, .i32⟩ : BufTy).Contents (Elt F)),
    binary main_v28 main_v45 main_v46 (cmpi .slt : (⟨S4196352, .i32⟩ : BufTy).Contents (Elt F) → (⟨S4196352, .i32⟩ : BufTy).Contents (Elt F) → (⟨S4196352, .i1⟩ : BufTy).Contents (Elt F)),
    nullary main_c_20 (constantI S_ 32 2048#32),
    unary main_c_20 main_v47 (broadcastInDim S4196352 ![] bcast_S_S4196352 : (⟨S_, .i32⟩ : BufTy).Contents (Elt F) → (⟨S4196352, .i32⟩ : BufTy).Contents (Elt F)),
    binary main_v28 main_v47 main_v48 (addi : (⟨S4196352, .i32⟩ : BufTy).Contents (Elt F) → (⟨S4196352, .i32⟩ : BufTy).Contents (Elt F) → (⟨S4196352, .i32⟩ : BufTy).Contents (Elt F)),
    ternary main_v46 main_v48 main_v28 main_v49 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v49 main_v50 (broadcastInDim S4196352x1 ![0] bcast_S4196352_S4196352x1_0 : (⟨S4196352, .i32⟩ : BufTy).Contents (Elt F) → (⟨S4196352x1, .i32⟩ : BufTy).Contents (Elt F)),
    binary main_v44 main_v50 main_v51 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    nullary main_c_21 (constantI S_ 32 0#32),
    unary main_c_21 main_v52 (broadcastInDim S4196352 ![] bcast_S_S4196352 : (⟨S_, .i32⟩ : BufTy).Contents (Elt F) → (⟨S4196352, .i32⟩ : BufTy).Contents (Elt F)),
    binary main_v29 main_v52 main_v53 (cmpi .slt : (⟨S4196352, .i32⟩ : BufTy).Contents (Elt F) → (⟨S4196352, .i32⟩ : BufTy).Contents (Elt F) → (⟨S4196352, .i1⟩ : BufTy).Contents (Elt F)),
    nullary main_c_22 (constantI S_ 32 2048#32),
    unary main_c_22 main_v54 (broadcastInDim S4196352 ![] bcast_S_S4196352 : (⟨S_, .i32⟩ : BufTy).Contents (Elt F) → (⟨S4196352, .i32⟩ : BufTy).Contents (Elt F)),
    binary main_v29 main_v54 main_v55 (addi : (⟨S4196352, .i32⟩ : BufTy).Contents (Elt F) → (⟨S4196352, .i32⟩ : BufTy).Contents (Elt F) → (⟨S4196352, .i32⟩ : BufTy).Contents (Elt F)),
    ternary main_v53 main_v55 main_v29 main_v56 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v56 main_v57 (broadcastInDim S4196352x1 ![0] bcast_S4196352_S4196352x1_0 : (⟨S4196352, .i32⟩ : BufTy).Contents (Elt F) → (⟨S4196352x1, .i32⟩ : BufTy).Contents (Elt F)),
    binary main_v44 main_v57 main_v58 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    binary main_v51 main_v58 main_v59 (mulf : (⟨S4196352, .f32⟩ : BufTy).Contents (Elt F) → (⟨S4196352, .f32⟩ : BufTy).Contents (Elt F) → (⟨S4196352, .f32⟩ : BufTy).Contents (Elt F)),
    nullary main_c_23 (constantI S_ 32 0#32),
    unary main_c_23 main_v60 (broadcastInDim S4196352 ![] bcast_S_S4196352 : (⟨S_, .i32⟩ : BufTy).Contents (Elt F) → (⟨S4196352, .i32⟩ : BufTy).Contents (Elt F)),
    binary main_v28 main_v60 main_v61 (cmpi .slt : (⟨S4196352, .i32⟩ : BufTy).Contents (Elt F) → (⟨S4196352, .i32⟩ : BufTy).Contents (Elt F) → (⟨S4196352, .i1⟩ : BufTy).Contents (Elt F)),
    nullary main_c_24 (constantI S_ 32 2048#32),
    unary main_c_24 main_v62 (broadcastInDim S4196352 ![] bcast_S_S4196352 : (⟨S_, .i32⟩ : BufTy).Contents (Elt F) → (⟨S4196352, .i32⟩ : BufTy).Contents (Elt F)),
    binary main_v28 main_v62 main_v63 (addi : (⟨S4196352, .i32⟩ : BufTy).Contents (Elt F) → (⟨S4196352, .i32⟩ : BufTy).Contents (Elt F) → (⟨S4196352, .i32⟩ : BufTy).Contents (Elt F)),
    ternary main_v61 main_v63 main_v28 main_v64 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v64 main_v65 (broadcastInDim S4196352x1 ![0] bcast_S4196352_S4196352x1_0 : (⟨S4196352, .i32⟩ : BufTy).Contents (Elt F) → (⟨S4196352x1, .i32⟩ : BufTy).Contents (Elt F)),
    binary main_v26 main_v65 main_v66 ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)),
    unary main_v59 main_v67 (broadcastInDim S4196352x1 ![0] bcast_S4196352_S4196352x1_0 : (⟨S4196352, .f32⟩ : BufTy).Contents (Elt F) → (⟨S4196352x1, .f32⟩ : BufTy).Contents (Elt F)),
    unary main_v67 main_v68 (broadcastInDim S4196352x32 ![0, 1] bcast_S4196352x1_S4196352x32_0_1 : (⟨S4196352x1, .f32⟩ : BufTy).Contents (Elt F) → (⟨S4196352x32, .f32⟩ : BufTy).Contents (Elt F)),
    binary main_v66 main_v68 main_v69 (mulf : (⟨S4196352x32, .f32⟩ : BufTy).Contents (Elt F) → (⟨S4196352x32, .f32⟩ : BufTy).Contents (Elt F) → (⟨S4196352x32, .f32⟩ : BufTy).Contents (Elt F)),
    nullary main_cst_25 (constant S_ .f32 0x00000000#32) ]

theorem ops1_a_sub : (ops1_a : List (HloOp τ sig (Elt F))).Forall fun op => op.bufs ⊆ tcRefs τ sig :=
  ⟨unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub ..⟩

/-- The buffers these operations write, in order. -/
abbrev ops1_a_W : List (Ref sig .tc) :=
  [main_v41, main_cst_17, main_v42, main_v43, main_cst_18, main_call9_v0, main_call9_v1, main_v44, main_c_19, main_v45, main_v46, main_c_20, main_v47, main_v48, main_v49, main_v50, main_v51, main_c_21, main_v52, main_v53, main_c_22, main_v54, main_v55, main_v56, main_v57, main_v58, main_v59, main_c_23, main_v60, main_v61, main_c_24, main_v62, main_v63, main_v64, main_v65, main_v66, main_v67, main_v68, main_v69, main_cst_25]

theorem ops1_a_writes : (ops1_a : List (HloOp τ sig (Elt F))).Forall fun op => op.writes ⊆ (ops1_a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem ops1_a_fresh : ∀ op ∈ (ops1_a : List (HloOp τ sig (Elt F))), op.fresh = ∅ := by
  intro _ h; (repeat (cases h with | head => rfl | tail _ h => ?_)); exact nomatch h

/-- Operations 41 … 64 of window main_part1. -/
abbrev ops1_b : List (HloOp τ sig (Elt F)) :=
  [ unary main_cst_25 main_v70 (broadcastInDim S2048x32 ![] bcast_S_S2048x32 : (⟨S_, .f32⟩ : BufTy).Contents (Elt F) → (⟨S2048x32, .f32⟩ : BufTy).Contents (Elt F)),
    nullary main_c_26 (constantI S_ 32 0#32),
    unary main_c_26 main_v71 (broadcastInDim S4196352 ![] bcast_S_S4196352 : (⟨S_, .i32⟩ : BufTy).Contents (Elt F) → (⟨S4196352, .i32⟩ : BufTy).Contents (Elt F)),
    binary main_v29 main_v71 main_v72 (cmpi .slt : (⟨S4196352, .i32⟩ : BufTy).Contents (Elt F) → (⟨S4196352, .i32⟩ : BufTy).Contents (Elt F) → (⟨S4196352, .i1⟩ : BufTy).Contents (Elt F)),
    nullary main_c_27 (constantI S_ 32 2048#32),
    unary main_c_27 main_v73 (broadcastInDim S4196352 ![] bcast_S_S4196352 : (⟨S_, .i32⟩ : BufTy).Contents (Elt F) → (⟨S4196352, .i32⟩ : BufTy).Contents (Elt F)),
    binary main_v29 main_v73 main_v74 (addi : (⟨S4196352, .i32⟩ : BufTy).Contents (Elt F) → (⟨S4196352, .i32⟩ : BufTy).Contents (Elt F) → (⟨S4196352, .i32⟩ : BufTy).Contents (Elt F)),
    ternary main_v72 main_v74 main_v29 main_v75 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v75 main_v76 (broadcastInDim S4196352x1 ![0] bcast_S4196352_S4196352x1_0 : (⟨S4196352, .i32⟩ : BufTy).Contents (Elt F) → (⟨S4196352x1, .i32⟩ : BufTy).Contents (Elt F)),
    ternary main_v70 main_v76 main_v69 main_v77 ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)),
    unary main_arg2 main_v78 (broadcastInDim S1x32 ![1] bcast_S32_S1x32_1 : (⟨S32, .f32⟩ : BufTy).Contents (Elt F) → (⟨S1x32, .f32⟩ : BufTy).Contents (Elt F)),
    unary main_v78 main_v79 (broadcastInDim S2048x32 ![0, 1] bcast_S1x32_S2048x32_0_1 : (⟨S1x32, .f32⟩ : BufTy).Contents (Elt F) → (⟨S2048x32, .f32⟩ : BufTy).Contents (Elt F)),
    binary main_v77 main_v79 main_v80 (addf : (⟨S2048x32, .f32⟩ : BufTy).Contents (Elt F) → (⟨S2048x32, .f32⟩ : BufTy).Contents (Elt F) → (⟨S2048x32, .f32⟩ : BufTy).Contents (Elt F)),
    TRef.nullary main_call10.cst (constant S_ .f32 0x00000000#32),
    TRef.unary main_call10.cst main_call10.v0 (broadcastInDim S2048x32 ![] bcast_S_S2048x32),
    TRef.binary (TRef.of main_v80 : TRef sig ⟨S2048x32, .f32⟩) main_call10.v0 main_call10.v1 maximumf,
    binary main_v81 main_arg3 main_v82 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    nullary main_v83 (iotaInDim S2048 32 0),
    binary main_v23 main_v83 main_v84 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)),
    binary main_v24 main_v83 main_v85 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)),
    nullary main_cst_28 (constant S_ .f32 0x00000000#32),
    unary main_cst_28 main_v86 (broadcastInDim S2048 ![] bcast_S_S2048 : (⟨S_, .f32⟩ : BufTy).Contents (Elt F) → (⟨S2048, .f32⟩ : BufTy).Contents (Elt F)),
    nullary main_c_29 (constantI S_ 32 0#32),
    unary main_c_29 main_v87 (broadcastInDim S4196352 ![] bcast_S_S4196352 : (⟨S_, .i32⟩ : BufTy).Contents (Elt F) → (⟨S4196352, .i32⟩ : BufTy).Contents (Elt F)) ]

theorem ops1_b_sub : (ops1_b : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub ..⟩

/-- The buffers these operations write, in order. -/
abbrev ops1_b_W : List (Ref sig .tc) :=
  [main_v70, main_c_26, main_v71, main_v72, main_c_27, main_v73, main_v74, main_v75, main_v76, main_v77, main_v78, main_v79, main_v80, main_call10_cst, main_call10_v0, main_v81, main_v82, main_v83, main_v84, main_v85, main_cst_28, main_v86, main_c_29, main_v87]

theorem ops1_b_writes : (ops1_b : List (HloOp τ sig (Elt F))).Forall fun op => op.writes ⊆ (ops1_b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem ops1_b_fresh : ∀ op ∈ (ops1_b : List (HloOp τ sig (Elt F))), op.fresh = ∅ := by
  intro _ h; (repeat (cases h with | head => rfl | tail _ h => ?_)); exact nomatch h

/-- Operations 1 … 40 of window main_part2. -/
abbrev ops2_a : List (HloOp τ sig (Elt F)) :=
  [ binary main_v85 main_v87 main_v88 (cmpi .slt : (⟨S4196352, .i32⟩ : BufTy).Contents (Elt F) → (⟨S4196352, .i32⟩ : BufTy).Contents (Elt F) → (⟨S4196352, .i1⟩ : BufTy).Contents (Elt F)),
    nullary main_c_30 (constantI S_ 32 2048#32),
    unary main_c_30 main_v89 (broadcastInDim S4196352 ![] bcast_S_S4196352 : (⟨S_, .i32⟩ : BufTy).Contents (Elt F) → (⟨S4196352, .i32⟩ : BufTy).Contents (Elt F)),
    binary main_v85 main_v89 main_v90 (addi : (⟨S4196352, .i32⟩ : BufTy).Contents (Elt F) → (⟨S4196352, .i32⟩ : BufTy).Contents (Elt F) → (⟨S4196352, .i32⟩ : BufTy).Contents (Elt F)),
    ternary main_v88 main_v90 main_v85 main_v91 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v91 main_v92 (broadcastInDim S4196352x1 ![0] bcast_S4196352_S4196352x1_0 : (⟨S4196352, .i32⟩ : BufTy).Contents (Elt F) → (⟨S4196352x1, .i32⟩ : BufTy).Contents (Elt F)),
    nullary main_cst_31 (constant S_ .f32 0x3F800000#32),
    unary main_cst_31 main_v93 (broadcastInDim S4196352 ![] bcast_S_S4196352 : (⟨S_, .f32⟩ : BufTy).Contents (Elt F) → (⟨S4196352, .f32⟩ : BufTy).Contents (Elt F)),
    ternary main_v86 main_v92 main_v93 main_v94 ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)),
    nullary main_cst_32 (constant S_ .f32 0x00000000#32),
    unary main_cst_32 main_v95 (broadcastInDim S2048 ![] bcast_S_S2048 : (⟨S_, .f32⟩ : BufTy).Contents (Elt F) → (⟨S2048, .f32⟩ : BufTy).Contents (Elt F)),
    binary main_v94 main_v95 main_v96 (cmpf .ogt : (⟨S2048, .f32⟩ : BufTy).Contents (Elt F) → (⟨S2048, .f32⟩ : BufTy).Contents (Elt F) → (⟨S2048, .i1⟩ : BufTy).Contents (Elt F)),
    unary main_v94 main_v97 (Host.sqrt : (⟨S2048, .f32⟩ : BufTy).Contents (Elt F) → (⟨S2048, .f32⟩ : BufTy).Contents (Elt F)),
    nullary main_cst_33 (constant S_ .f32 0x3F800000#32),
    unary main_cst_33 main_v98 (broadcastInDim S2048 ![] bcast_S_S2048 : (⟨S_, .f32⟩ : BufTy).Contents (Elt F) → (⟨S2048, .f32⟩ : BufTy).Contents (Elt F)),
    binary main_v98 main_v97 main_v99 (Host.divf : (⟨S2048, .f32⟩ : BufTy).Contents (Elt F) → (⟨S2048, .f32⟩ : BufTy).Contents (Elt F) → (⟨S2048, .f32⟩ : BufTy).Contents (Elt F)),
    nullary main_cst_34 (constant S_ .f32 0x00000000#32),
    TRef.unary (TRef.of main_cst_34 : TRef sig ⟨S_, .f32⟩) main_call11.v0 id,
    TRef.unary main_call11.v0 main_call11.v1 (broadcastInDim S2048 ![] bcast_S_S2048),
    TRef.ternary (TRef.of main_v96 : TRef sig ⟨S2048, .i1⟩) (TRef.of main_v99 : TRef sig ⟨S2048, .f32⟩) main_call11.v1 main_call11.v2 select,
    nullary main_c_35 (constantI S_ 32 0#32),
    unary main_c_35 main_v101 (broadcastInDim S4196352 ![] bcast_S_S4196352 : (⟨S_, .i32⟩ : BufTy).Contents (Elt F) → (⟨S4196352, .i32⟩ : BufTy).Contents (Elt F)),
    binary main_v84 main_v101 main_v102 (cmpi .slt : (⟨S4196352, .i32⟩ : BufTy).Contents (Elt F) → (⟨S4196352, .i32⟩ : BufTy).Contents (Elt F) → (⟨S4196352, .i1⟩ : BufTy).Contents (Elt F)),
    nullary main_c_36 (constantI S_ 32 2048#32),
    unary main_c_36 main_v103 (broadcastInDim S4196352 ![] bcast_S_S4196352 : (⟨S_, .i32⟩ : BufTy).Contents (Elt F) → (⟨S4196352, .i32⟩ : BufTy).Contents (Elt F)),
    binary main_v84 main_v103 main_v104 (addi : (⟨S4196352, .i32⟩ : BufTy).Contents (Elt F) → (⟨S4196352, .i32⟩ : BufTy).Contents (Elt F) → (⟨S4196352, .i32⟩ : BufTy).Contents (Elt F)),
    ternary main_v102 main_v104 main_v84 main_v105 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v105 main_v106 (broadcastInDim S4196352x1 ![0] bcast_S4196352_S4196352x1_0 : (⟨S4196352, .i32⟩ : BufTy).Contents (Elt F) → (⟨S4196352x1, .i32⟩ : BufTy).Contents (Elt F)),
    binary main_v100 main_v106 main_v107 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    nullary main_c_37 (constantI S_ 32 0#32),
    unary main_c_37 main_v108 (broadcastInDim S4196352 ![] bcast_S_S4196352 : (⟨S_, .i32⟩ : BufTy).Contents (Elt F) → (⟨S4196352, .i32⟩ : BufTy).Contents (Elt F)),
    binary main_v85 main_v108 main_v109 (cmpi .slt : (⟨S4196352, .i32⟩ : BufTy).Contents (Elt F) → (⟨S4196352, .i32⟩ : BufTy).Contents (Elt F) → (⟨S4196352, .i1⟩ : BufTy).Contents (Elt F)),
    nullary main_c_38 (constantI S_ 32 2048#32),
    unary main_c_38 main_v110 (broadcastInDim S4196352 ![] bcast_S_S4196352 : (⟨S_, .i32⟩ : BufTy).Contents (Elt F) → (⟨S4196352, .i32⟩ : BufTy).Contents (Elt F)),
    binary main_v85 main_v110 main_v111 (addi : (⟨S4196352, .i32⟩ : BufTy).Contents (Elt F) → (⟨S4196352, .i32⟩ : BufTy).Contents (Elt F) → (⟨S4196352, .i32⟩ : BufTy).Contents (Elt F)),
    ternary main_v109 main_v111 main_v85 main_v112 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v112 main_v113 (broadcastInDim S4196352x1 ![0] bcast_S4196352_S4196352x1_0 : (⟨S4196352, .i32⟩ : BufTy).Contents (Elt F) → (⟨S4196352x1, .i32⟩ : BufTy).Contents (Elt F)),
    binary main_v100 main_v113 main_v114 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    binary main_v107 main_v114 main_v115 (mulf : (⟨S4196352, .f32⟩ : BufTy).Contents (Elt F) → (⟨S4196352, .f32⟩ : BufTy).Contents (Elt F) → (⟨S4196352, .f32⟩ : BufTy).Contents (Elt F)),
    nullary main_c_39 (constantI S_ 32 0#32) ]

theorem ops2_a_sub : (ops2_a : List (HloOp τ sig (Elt F))).Forall fun op => op.bufs ⊆ tcRefs τ sig :=
  ⟨binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub ..⟩

/-- The buffers these operations write, in order. -/
abbrev ops2_a_W : List (Ref sig .tc) :=
  [main_v88, main_c_30, main_v89, main_v90, main_v91, main_v92, main_cst_31, main_v93, main_v94, main_cst_32, main_v95, main_v96, main_v97, main_cst_33, main_v98, main_v99, main_cst_34, main_call11_v0, main_call11_v1, main_v100, main_c_35, main_v101, main_v102, main_c_36, main_v103, main_v104, main_v105, main_v106, main_v107, main_c_37, main_v108, main_v109, main_c_38, main_v110, main_v111, main_v112, main_v113, main_v114, main_v115, main_c_39]

theorem ops2_a_writes : (ops2_a : List (HloOp τ sig (Elt F))).Forall fun op => op.writes ⊆ (ops2_a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem ops2_a_fresh : ∀ op ∈ (ops2_a : List (HloOp τ sig (Elt F))), op.fresh = ∅ := by
  intro _ h; (repeat (cases h with | head => rfl | tail _ h => ?_)); exact nomatch h

/-- Operations 41 … 62 of window main_part2. -/
abbrev ops2_b : List (HloOp τ sig (Elt F)) :=
  [ unary main_c_39 main_v116 (broadcastInDim S4196352 ![] bcast_S_S4196352 : (⟨S_, .i32⟩ : BufTy).Contents (Elt F) → (⟨S4196352, .i32⟩ : BufTy).Contents (Elt F)),
    binary main_v84 main_v116 main_v117 (cmpi .slt : (⟨S4196352, .i32⟩ : BufTy).Contents (Elt F) → (⟨S4196352, .i32⟩ : BufTy).Contents (Elt F) → (⟨S4196352, .i1⟩ : BufTy).Contents (Elt F)),
    nullary main_c_40 (constantI S_ 32 2048#32),
    unary main_c_40 main_v118 (broadcastInDim S4196352 ![] bcast_S_S4196352 : (⟨S_, .i32⟩ : BufTy).Contents (Elt F) → (⟨S4196352, .i32⟩ : BufTy).Contents (Elt F)),
    binary main_v84 main_v118 main_v119 (addi : (⟨S4196352, .i32⟩ : BufTy).Contents (Elt F) → (⟨S4196352, .i32⟩ : BufTy).Contents (Elt F) → (⟨S4196352, .i32⟩ : BufTy).Contents (Elt F)),
    ternary main_v117 main_v119 main_v84 main_v120 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v120 main_v121 (broadcastInDim S4196352x1 ![0] bcast_S4196352_S4196352x1_0 : (⟨S4196352, .i32⟩ : BufTy).Contents (Elt F) → (⟨S4196352x1, .i32⟩ : BufTy).Contents (Elt F)),
    binary main_v82 main_v121 main_v122 ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)),
    unary main_v115 main_v123 (broadcastInDim S4196352x1 ![0] bcast_S4196352_S4196352x1_0 : (⟨S4196352, .f32⟩ : BufTy).Contents (Elt F) → (⟨S4196352x1, .f32⟩ : BufTy).Contents (Elt F)),
    unary main_v123 main_v124 (broadcastInDim S4196352x32 ![0, 1] bcast_S4196352x1_S4196352x32_0_1 : (⟨S4196352x1, .f32⟩ : BufTy).Contents (Elt F) → (⟨S4196352x32, .f32⟩ : BufTy).Contents (Elt F)),
    binary main_v122 main_v124 main_v125 (mulf : (⟨S4196352x32, .f32⟩ : BufTy).Contents (Elt F) → (⟨S4196352x32, .f32⟩ : BufTy).Contents (Elt F) → (⟨S4196352x32, .f32⟩ : BufTy).Contents (Elt F)),
    nullary main_cst_41 (constant S_ .f32 0x00000000#32),
    unary main_cst_41 main_v126 (broadcastInDim S2048x32 ![] bcast_S_S2048x32 : (⟨S_, .f32⟩ : BufTy).Contents (Elt F) → (⟨S2048x32, .f32⟩ : BufTy).Contents (Elt F)),
    nullary main_c_42 (constantI S_ 32 0#32),
    unary main_c_42 main_v127 (broadcastInDim S4196352 ![] bcast_S_S4196352 : (⟨S_, .i32⟩ : BufTy).Contents (Elt F) → (⟨S4196352, .i32⟩ : BufTy).Contents (Elt F)),
    binary main_v85 main_v127 main_v128 (cmpi .slt : (⟨S4196352, .i32⟩ : BufTy).Contents (Elt F) → (⟨S4196352, .i32⟩ : BufTy).Contents (Elt F) → (⟨S4196352, .i1⟩ : BufTy).Contents (Elt F)),
    nullary main_c_43 (constantI S_ 32 2048#32),
    unary main_c_43 main_v129 (broadcastInDim S4196352 ![] bcast_S_S4196352 : (⟨S_, .i32⟩ : BufTy).Contents (Elt F) → (⟨S4196352, .i32⟩ : BufTy).Contents (Elt F)),
    binary main_v85 main_v129 main_v130 (addi : (⟨S4196352, .i32⟩ : BufTy).Contents (Elt F) → (⟨S4196352, .i32⟩ : BufTy).Contents (Elt F) → (⟨S4196352, .i32⟩ : BufTy).Contents (Elt F)),
    ternary main_v128 main_v130 main_v85 main_v131 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v131 main_v132 (broadcastInDim S4196352x1 ![0] bcast_S4196352_S4196352x1_0 : (⟨S4196352, .i32⟩ : BufTy).Contents (Elt F) → (⟨S4196352x1, .i32⟩ : BufTy).Contents (Elt F)),
    ternary main_v126 main_v132 main_v125 main_v133 ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)) ]

theorem ops2_b_sub : (ops2_b : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

/-- The buffers these operations write, in order. -/
abbrev ops2_b_W : List (Ref sig .tc) :=
  [main_v116, main_v117, main_c_40, main_v118, main_v119, main_v120, main_v121, main_v122, main_v123, main_v124, main_v125, main_cst_41, main_v126, main_c_42, main_v127, main_v128, main_c_43, main_v129, main_v130, main_v131, main_v132, main_v133]

theorem ops2_b_writes : (ops2_b : List (HloOp τ sig (Elt F))).Forall fun op => op.writes ⊆ (ops2_b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem ops2_b_fresh : ∀ op ∈ (ops2_b : List (HloOp τ sig (Elt F))), op.fresh = ∅ := by
  intro _ h; (repeat (cases h with | head => rfl | tail _ h => ?_)); exact nomatch h

/-- Operations 1 … 12 of window main_part3. -/
abbrev ops3_a : List (HloOp τ sig (Elt F)) :=
  [ unary main_arg4 main_v134 (broadcastInDim S1x32 ![1] bcast_S32_S1x32_1 : (⟨S32, .f32⟩ : BufTy).Contents (Elt F) → (⟨S1x32, .f32⟩ : BufTy).Contents (Elt F)),
    unary main_v134 main_v135 (broadcastInDim S2048x32 ![0, 1] bcast_S1x32_S2048x32_0_1 : (⟨S1x32, .f32⟩ : BufTy).Contents (Elt F) → (⟨S2048x32, .f32⟩ : BufTy).Contents (Elt F)),
    binary main_v133 main_v135 main_v136 (addf : (⟨S2048x32, .f32⟩ : BufTy).Contents (Elt F) → (⟨S2048x32, .f32⟩ : BufTy).Contents (Elt F) → (⟨S2048x32, .f32⟩ : BufTy).Contents (Elt F)),
    TRef.nullary main_call12.cst (constant S_ .f32 0x00000000#32),
    TRef.unary main_call12.cst main_call12.v0 (broadcastInDim S2048x32 ![] bcast_S_S2048x32),
    TRef.binary (TRef.of main_v136 : TRef sig ⟨S2048x32, .f32⟩) main_call12.v0 main_call12.v1 maximumf,
    nullary main_cst_44 (constant S_ .f32 0x00000000#32),
    binary main_v137 main_cst_44 main_v138 ((fun x v => Host.reduceAdd x v reducesTo_S2048x32_S32_d0 h_S_) : (⟨S2048x32, .f32⟩ : BufTy).Contents (Elt F) → (⟨S_, .f32⟩ : BufTy).Contents (Elt F) → (⟨S32, .f32⟩ : BufTy).Contents (Elt F)),
    unary main_v138 main_v139 (broadcastInDim S1x32 ![1] bcast_S32_S1x32_1 : (⟨S32, .f32⟩ : BufTy).Contents (Elt F) → (⟨S1x32, .f32⟩ : BufTy).Contents (Elt F)),
    binary main_v139 main_arg5 main_v140 ((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)),
    unary main_arg6 main_v141 (broadcastInDim S1x8 ![1] bcast_S8_S1x8_1 : (⟨S8, .f32⟩ : BufTy).Contents (Elt F) → (⟨S1x8, .f32⟩ : BufTy).Contents (Elt F)),
    binary main_v140 main_v141 main_v142 (addf : (⟨S1x8, .f32⟩ : BufTy).Contents (Elt F) → (⟨S1x8, .f32⟩ : BufTy).Contents (Elt F) → (⟨S1x8, .f32⟩ : BufTy).Contents (Elt F)) ]

theorem ops3_a_sub : (ops3_a : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., binary_bufs_sub .., unary_bufs_sub .., binary_bufs_sub .., unary_bufs_sub .., binary_bufs_sub ..⟩

/-- The buffers these operations write, in order. -/
abbrev ops3_a_W : List (Ref sig .tc) :=
  [main_v134, main_v135, main_v136, main_call12_cst, main_call12_v0, main_v137, main_cst_44, main_v138, main_v139, main_v140, main_v141, main_v142]

theorem ops3_a_writes : (ops3_a : List (HloOp τ sig (Elt F))).Forall fun op => op.writes ⊆ (ops3_a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem ops3_a_fresh : ∀ op ∈ (ops3_a : List (HloOp τ sig (Elt F))), op.fresh = ∅ := by
  intro _ h; (repeat (cases h with | head => rfl | tail _ h => ?_)); exact nomatch h

end Cert.ReferenceIdeal.RefRun

end
-- ==== Proof.RefRun.lean ====
/-
  The reference program read as one straight line of host operations, and what follows from that alone: every weakly
  fair execution of it terminates without a fault, every buffer ends at the fold of the operations' results over the
  launch contents, and an argument array, which no operation writes, ends as it started.

  The program's @main is printed as four windows run one after the other; a window is a sequence of single host
  operations and of calls of outlined functions (the two prefix sums, clip, floor_divide, remainder, where, relu). A call
  executes the callee's body on the call's own record of buffers, so each window is the concatenation of its operations
  with every call replaced by the callee's operations (the lists of RefOps.lean), and @main is the concatenation of the
  four windows.
-/
import proofs.«178039_g46316927320456_cont_sun_m_677_15_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second line's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The four windows' operations, and the whole line. -/
abbrev ops0 : List (HloOp τ sig (Elt F)) := ops0_a ++ (ops0_b ++ (ops0_c ++ ops0_d))
abbrev ops1 : List (HloOp τ sig (Elt F)) := ops1_a ++ ops1_b
abbrev ops2 : List (HloOp τ sig (Elt F)) := ops2_a ++ ops2_b
abbrev ops3 : List (HloOp τ sig (Elt F)) := ops3_a
abbrev ops : List (HloOp τ sig (Elt F)) := ops0 ++ (ops1 ++ (ops2 ++ ops3))

set_option maxRecDepth 16384 in
/-- The first window is its operations in order: the outlined functions unfold at their calls, and the sequencing
    re-associates to one chain. -/
theorem main_part0_eq (c : Dev nD) : main_part0 (F := F) c = seq ops0 := by
  simp only [main_part0, fn_cumsum.body, fn_cumsum_0.body, fn_cumsum_1.body, fn_clip.body, fn_floor_divide.body, fn_where.body,
    fn_remainder.body, fn_where_2.body, fn_where_3.body, bind_assoc, pure_bind]
  rfl

set_option maxRecDepth 16384 in
theorem main_part1_eq (c : Dev nD) : main_part1 (F := F) c = seq ops1 := by
  simp only [main_part1, fn_where_4.body, fn_relu.body, bind_assoc, pure_bind]
  rfl

set_option maxRecDepth 16384 in
theorem main_part2_eq (c : Dev nD) : main_part2 (F := F) c = seq ops2 := by
  simp only [main_part2, fn_where_4.body, bind_assoc, pure_bind]
  rfl

set_option maxRecDepth 16384 in
theorem main_part3_eq (c : Dev nD) : main_part3 (F := F) c = seq ops3 := by
  simp only [main_part3, fn_relu.body, bind_assoc, pure_bind]
  rfl

/-- @main is the whole line. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every operation of each of the nine lists holds of every operation of the line. -/
theorem ops_forall {P : HloOp τ sig (Elt F) → Prop}
    (h0a : ∀ op ∈ (ops0_a : List (HloOp τ sig (Elt F))), P op) (h0b : ∀ op ∈ (ops0_b : List (HloOp τ sig (Elt F))), P op)
    (h0c : ∀ op ∈ (ops0_c : List (HloOp τ sig (Elt F))), P op) (h0d : ∀ op ∈ (ops0_d : List (HloOp τ sig (Elt F))), P op)
    (h1a : ∀ op ∈ (ops1_a : List (HloOp τ sig (Elt F))), P op) (h1b : ∀ op ∈ (ops1_b : List (HloOp τ sig (Elt F))), P op)
    (h2a : ∀ op ∈ (ops2_a : List (HloOp τ sig (Elt F))), P op) (h2b : ∀ op ∈ (ops2_b : List (HloOp τ sig (Elt F))), P op)
    (h3a : ∀ op ∈ (ops3_a : List (HloOp τ sig (Elt F))), P op) :
    ∀ op ∈ (ops : List (HloOp τ sig (Elt F))), P op := by
  intro op h
  simp only [ops, ops0, ops1, ops2, ops3, List.mem_append] at h
  rcases h with (h | h | h | h) | (h | h) | (h | h) | h
  exacts [h0a op h, h0b op h, h0c op h, h0d op h, h1a op h, h1b op h, h2a op h, h2b op h, h3a op h]

theorem ops_sub : (ops : List (HloOp τ sig (Elt F))).Forall fun op => op.bufs ⊆ tcRefs τ sig :=
  List.forall_iff_forall_mem.mpr (ops_forall
    (List.forall_iff_forall_mem.mp ops0_a_sub) (List.forall_iff_forall_mem.mp ops0_b_sub)
    (List.forall_iff_forall_mem.mp ops0_c_sub) (List.forall_iff_forall_mem.mp ops0_d_sub)
    (List.forall_iff_forall_mem.mp ops1_a_sub) (List.forall_iff_forall_mem.mp ops1_b_sub)
    (List.forall_iff_forall_mem.mp ops2_a_sub) (List.forall_iff_forall_mem.mp ops2_b_sub)
    (List.forall_iff_forall_mem.mp ops3_a_sub))

theorem ops_fresh : ∀ op ∈ (ops : List (HloOp τ sig (Elt F))), op.fresh = ∅ :=
  ops_forall ops0_a_fresh ops0_b_fresh ops0_c_fresh ops0_d_fresh ops1_a_fresh ops1_b_fresh ops2_a_fresh ops2_b_fresh ops3_a_fresh

/-- On every device, from any memory with zero counters: every weakly fair execution of @main terminates, and every
    buffer ends at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- A buffer none of the nine lists writes keeps its contents through the whole line. -/
theorem kept (r : Ref sig .tc) (h0a : r ∉ (ops0_a_W : List (Ref sig .tc))) (h0b : r ∉ (ops0_b_W : List (Ref sig .tc)))
    (h0c : r ∉ (ops0_c_W : List (Ref sig .tc))) (h0d : r ∉ (ops0_d_W : List (Ref sig .tc)))
    (h1a : r ∉ (ops1_a_W : List (Ref sig .tc))) (h1b : r ∉ (ops1_b_W : List (Ref sig .tc)))
    (h2a : r ∉ (ops2_a_W : List (Ref sig .tc))) (h2b : r ∉ (ops2_b_W : List (Ref sig .tc)))
    (h3a : r ∉ (ops3_a_W : List (Ref sig .tc))) (V : Valuation τ sig (Elt F)) :
    after ops V (Proc.devRef .tc r) = V (Proc.devRef .tc r) := by
  simp only [ops, ops0, ops1, ops2, ops3, after_append]
  rw [after_of_writes_sub ops3_a _ ops3_a_writes h3a, after_of_writes_sub ops2_b _ ops2_b_writes h2b,
    after_of_writes_sub ops2_a _ ops2_a_writes h2a, after_of_writes_sub ops1_b _ ops1_b_writes h1b,
    after_of_writes_sub ops1_a _ ops1_a_writes h1a, after_of_writes_sub ops0_d _ ops0_d_writes h0d,
    after_of_writes_sub ops0_c _ ops0_c_writes h0c, after_of_writes_sub ops0_b _ ops0_b_writes h0b,
    after_of_writes_sub ops0_a _ ops0_a_writes h0a]

/-- The reference runs, and its seven argument arrays end unchanged. -/
theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c main_arg0).trans (kept main_arg0 (by decide) (by decide) (by decide) (by decide) (by decide) (by decide) (by decide) (by decide) (by decide) _),
     (h c main_arg1).trans (kept main_arg1 (by decide) (by decide) (by decide) (by decide) (by decide) (by decide) (by decide) (by decide) (by decide) _),
     (h c main_arg2).trans (kept main_arg2 (by decide) (by decide) (by decide) (by decide) (by decide) (by decide) (by decide) (by decide) (by decide) _),
     (h c main_arg3).trans (kept main_arg3 (by decide) (by decide) (by decide) (by decide) (by decide) (by decide) (by decide) (by decide) (by decide) _),
     (h c main_arg4).trans (kept main_arg4 (by decide) (by decide) (by decide) (by decide) (by decide) (by decide) (by decide) (by decide) (by decide) _),
     (h c main_arg5).trans (kept main_arg5 (by decide) (by decide) (by decide) (by decide) (by decide) (by decide) (by decide) (by decide) (by decide) _),
     (h c main_arg6).trans (kept main_arg6 (by decide) (by decide) (by decide) (by decide) (by decide) (by decide) (by decide) (by decide) (by decide) _)⟩)
    (run_all m ρ)

end Cert.ReferenceIdeal.RefRun

end
-- ==== Proof.KernelFun.lean ====
/-
  What the kernel's one output store holds, as a function of the seven argument blocks: the kernel body read as
  straight-line mathematics over its payloads (Skeleton.lean's `k0_payN`), with each of its three eight-trip loops
  replaced by the recursion it computes.

  The adjacency words `x0` (2048 x 2048) are visited in eight chunks of 256 rows. Loop 1 adds, chunk by chunk, the
  column sums of the 0/1 matrix `(x0 > 0)` to a row of zeros (`degAcc`), and leaves that matrix in bf16 (`abfRows`: chunk
  `k` of it). From the degrees come `dcol` (one over the square root of degree plus one, as a column). Loop 2 adds, chunk by
  chunk, the column sums of the matrix's rows scaled by `dcol` (`tAcc`). Then the first layer's rank-one form `h1`, the second
  layer's `y2` and its two bf16 halves side by side `ycat`. Loop 3 adds, chunk by chunk, the products of the transposed
  matrix chunk with the matching rows of `ycat` (`zAcc`). The output is the dense layer applied to the column sums of the
  rectified second layer (`out`).

  Everything here is generic in the float instance `F`; nothing is proved here.
-/
import proofs.«178039_g46316927320456_cont_sun_m_677_15_alg».proof.Proof.Gen.KernelIdeal.Skeleton
import Idealize.ShloMosaic.Lib.Pipeline.FrameBody

noncomputable section

namespace Cert.KernelIdeal.Fun

open Cert.KernelIdeal Cert.KernelIdeal.Gen
open Idealize.ShloMosaic Idealize.SL.Sem

variable {F : FTy → Type} [FloatOps F]

/-! ## Chunks of 256 rows -/

/-- Rows `256 k … 256 k + 255` fit in a 2048-row array, at each of the three widths the kernel uses. -/
theorem rows_inb_2048 : ∀ k : Fin 8, ∀ a, (![256 * k.val, 0] : Fin 2 → ℕ) a + S256x2048.size a ≤ S2048x2048.size a := by decide +kernel
theorem rows_inb_1 : ∀ k : Fin 8, ∀ a, (![256 * k.val, 0] : Fin 2 → ℕ) a + S256x1.size a ≤ S2048x1.size a := by decide +kernel
theorem rows_inb_64 : ∀ k : Fin 8, ∀ a, (![256 * k.val, 0] : Fin 2 → ℕ) a + S256x64.size a ≤ S2048x64.size a := by decide +kernel

/-- Chunk `k` of a 2048 x 2048 array: entry `(r, j)` of it is entry `(256 k + r, j)` of the array. -/
def rows2048 {e : EltTy} (X : Vec F S2048x2048 e) (k : Fin 8) : Vec F S256x2048 e :=
  View.ld (Val := Elt F) X (Rect.unit (s := S2048x2048) ![256 * k.val, 0] S256x2048.size (rows_inb_2048 k))

/-- Chunk `k` of a 2048 x 1 column. -/
def rows1 {e : EltTy} (X : Vec F S2048x1 e) (k : Fin 8) : Vec F S256x1 e :=
  View.ld (Val := Elt F) X (Rect.unit (s := S2048x1) ![256 * k.val, 0] S256x1.size (rows_inb_1 k))

/-- Chunk `k` of a 2048 x 64 array. -/
def rows64 {e : EltTy} (X : Vec F S2048x64 e) (k : Fin 8) : Vec F S256x64 e :=
  View.ld (Val := Elt F) X (Rect.unit (s := S2048x64) ![256 * k.val, 0] S256x64.size (rows_inb_64 k))

/-! ## Loop 1: degrees, and the matrix in bf16 -/

/-- The running row of column sums before trip `k` of loop 1: zeros, then chunk by chunk `k0_pay5` (the column sums of
    `(chunk > 0)` added to the running row). -/
def degAcc (x0 : Vec F S2048x2048 .i32) : ℕ → FVec F S1x2048 .f32
  | 0 => k0_pay2
  | k + 1 => if h : k < 8 then k0_pay5 (rows2048 x0 ⟨k, h⟩) (degAcc x0 k) else degAcc x0 k

/-- The column sums of `(x0 > 0)`: the running row after the eight trips. -/
def deg (x0 : Vec F S2048x2048 .i32) : FVec F S1x2048 .f32 := degAcc x0 8

/-- Chunk `k` of the 0/1 matrix in bf16, as loop 1 leaves it. -/
def abfRows (x0 : Vec F S2048x2048 .i32) (k : Fin 8) : FVec F S256x2048 .bf16 := k0_pay4 (rows2048 x0 k)

/-- One over the square root of (degree + 1), as a 2048 x 1 column. -/
def dcol (x0 : Vec F S2048x2048 .i32) : FVec F S2048x1 .f32 := k0_pay7 (deg x0)

/-! ## Loop 2: the weighted column sums -/

/-- The running row before trip `k` of loop 2: zeros, then chunk by chunk `k0_pay9` (the column sums of the matrix chunk's
    rows, each scaled by its entry of `dcol`, added to the running row). -/
def tAcc (x0 : Vec F S2048x2048 .i32) : ℕ → FVec F S1x2048 .f32
  | 0 => k0_pay8
  | k + 1 => if h : k < 8 then k0_pay9 (rows1 (e := .f32) (dcol x0) ⟨k, h⟩) (abfRows x0 ⟨k, h⟩) (tAcc x0 k) else tAcc x0 k

/-- The weighted column sums: the running row after the eight trips. -/
def t (x0 : Vec F S2048x2048 .i32) : FVec F S1x2048 .f32 := tAcc x0 8

/-! ## Between loop 2 and loop 3 -/

/-- The first layer before its bias and rectifier: `alpha * W1` with `alpha = dinv * (t + dinv)`. -/
def h1 (x0 : Vec F S2048x2048 .i32) (x1 : Vec F S1x32 .f32) : FVec F S2048x32 .f32 := k0_pay10 (deg x0) (t x0) x1

/-- The second layer's `dinv * (relu(h1 + b1) W2)`. -/
def y2 (x0 : Vec F S2048x2048 .i32) (x1 x2 : Vec F S1x32 .f32) (x3 : Vec F S32x32 .f32) : FVec F S2048x32 .f32 :=
  k0_pay12 (dcol x0) (h1 x0 x1) x2 x3

/-- `y2` in bf16 beside the bf16 of what that rounding lost: 2048 x 64. -/
def ycat (x0 : Vec F S2048x2048 .i32) (x1 x2 : Vec F S1x32 .f32) (x3 : Vec F S32x32 .f32) : FVec F S2048x64 .bf16 :=
  k0_pay13 (dcol x0) (h1 x0 x1) x2 x3

/-! ## Loop 3: the transposed matrix times `ycat` -/

/-- The running 2048 x 64 sum before trip `k` of loop 3: zeros, then chunk by chunk `k0_pay15` (the transposed matrix
    chunk times the matching rows of `ycat`, added to the running sum). -/
def zAcc (x0 : Vec F S2048x2048 .i32) (x1 x2 : Vec F S1x32 .f32) (x3 : Vec F S32x32 .f32) : ℕ → FVec F S2048x64 .f32
  | 0 => k0_pay14
  | k + 1 => if h : k < 8 then k0_pay15 (zAcc x0 x1 x2 x3 k) (abfRows x0 ⟨k, h⟩) (rows64 (e := .bf16) (ycat x0 x1 x2 x3) ⟨k, h⟩)
             else zAcc x0 x1 x2 x3 k

/-- The running sum after the eight trips. -/
def z (x0 : Vec F S2048x2048 .i32) (x1 x2 : Vec F S1x32 .f32) (x3 : Vec F S32x32 .f32) : FVec F S2048x64 .f32 :=
  zAcc x0 x1 x2 x3 8

/-- Columns `0 … 31` of `z`. -/
def zLo (x0 : Vec F S2048x2048 .i32) (x1 x2 : Vec F S1x32 .f32) (x3 : Vec F S32x32 .f32) : Vec F S2048x32 .f32 :=
  View.ld (Val := Elt F) (e' := .f32) (z x0 x1 x2 x3) (Rect.unit (s := S2048x64) ![0, 0] S2048x32.size inb_S2048x64_S2048x32_0_0)

/-- Columns `32 … 63` of `z`. -/
def zHi (x0 : Vec F S2048x2048 .i32) (x1 x2 : Vec F S1x32 .f32) (x3 : Vec F S32x32 .f32) : Vec F S2048x32 .f32 :=
  View.ld (Val := Elt F) (e' := .f32) (z x0 x1 x2 x3) (Rect.unit (s := S2048x64) ![0, 32] S2048x32.size inb_S2048x64_S2048x32_0_32)

/-! ## The output -/

/-- The second layer after aggregation: `dinv * (zLo + zHi + y2)`. -/
def agg (x0 : Vec F S2048x2048 .i32) (x1 x2 : Vec F S1x32 .f32) (x3 : Vec F S32x32 .f32) : FVec F S2048x32 .f32 :=
  k0_pay16 (dcol x0) (zLo x0 x1 x2 x3) (zHi x0 x1 x2 x3) (y2 x0 x1 x2 x3)

/-- What the kernel stores into its 1 x 8 output: the column sums of `relu(agg + b2)`, times `Wfc`, plus `bfc`. -/
def out (x0 : Vec F S2048x2048 .i32) (x1 x2 : Vec F S1x32 .f32) (x3 : Vec F S32x32 .f32) (x4 : Vec F S1x32 .f32)
    (x5 : Vec F S32x8 .f32) (x6 : Vec F S1x8 .f32) : FVec F S1x8 .f32 :=
  k0_pay1 (agg x0 x1 x2 x3) x4 x5 x6

end Cert.KernelIdeal.Fun

end
-- ==== Proof.KernelIdealLoops.lean ====
/-
  What the kernel's three eight-trip loops leave in the scratch buffers they write, whatever those buffers held
  before.

  Each loop's trips append their stores to the list of pieces written so far (`Gen.pb_k0_tN`, a recursion over the
  trips). A trip of loop 1 stores, into the whole running row, the row it finds plus the column sums of its chunk, and
  stores its chunk of the 0/1 matrix into rows `256 k … 256 k + 255` of the matrix buffer. So by induction over the trips
  the running row reads as the recursion `acc1` started from what the row read at loop entry, and — the chunks being
  disjoint — rows `256 j …` of the matrix buffer read as chunk `j`'s payload once trip `j` is past, the later trips'
  stores missing them. Loops 2 and 3 store only into their whole running buffer: the same induction gives `acc2`, `acc3`.
  The chunk a trip loads is spelt by the printed offset words; their closed form `![256 k, 0]` turns it into the chunk
  functions of KernelFun.lean.
-/
import proofs.«178039_g46316927320456_cont_sun_m_677_15_alg».proof.Proof.KernelFun
import proofs.«178039_g46316927320456_cont_sun_m_677_15_alg».proof.Proof.Gen.KernelIdeal.Loops
import Idealize.ShloMosaic.Lib.WritesUnit
import Idealize.ShloMosaic.Lib.Pipeline.Value

set_option maxRecDepth 16384

noncomputable section

namespace Cert.KernelIdeal.LoopVal

open Cert.KernelIdeal Cert.KernelIdeal.Gen
open Idealize.ShloMosaic Idealize.ShloMosaic.TcCoe Idealize.ShloMosaic.Tactic
open Idealize.SL Idealize.SL.Sem

/-! ## Generic facts about whole stores and unit rectangles -/

section Generic

variable {sig' : RefSig} {κ : Kind} {sp : Space} {S : Shape} {e : EltTy} {Val : EltTy → Type}

theorem hz2 : (![0, 0] : Fin 2 → ℕ) = fun _ => 0 := funext fun a => by fin_cases a <;> rfl

/-- A store through the whole shape, last, leaves its payload, whatever came before. -/
theorem read_writes_cons_whole (v : View sig' κ sp S e) (f : v.ty.Contents Val) {off : Fin S.rank → ℕ}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through a unit rectangle depends on the offsets only through their value. -/
theorem ld_unit_congr (X : S.Idx → Val e) {off off' : Fin S.rank → ℕ} (h : off = off') (size : Fin S.rank → ℕ)
    (inb : ∀ a, off a + size a ≤ S.size a) (inb' : ∀ a, off' a + size a ≤ S.size a) :
    View.ld X (Rect.unit off size inb) = View.ld X (Rect.unit off' size inb') := by
  subst h; rfl

end Generic

variable {F : FTy → Type} [FloatOps F]

/-! ## The loops make eight trips; the chunk each trip loads -/

theorem trips1 : k0_t1_loop.trips = 8 := by decide +kernel
theorem trips2 : k0_t2_loop.trips = 8 := by decide +kernel
theorem trips3 : k0_t3_loop.trips = 8 := by decide +kernel

theorem ld_off1 {e : EltTy} (X : Vec F S2048x2048 e) (k : Fin k0_t1_loop.trips) (h : k.val < 8) :
    View.ld (Val := Elt F) X (Rect.unit (s := S2048x2048) (k0_off1 k) S256x2048.size (k0_off1_inb k)) = Fun.rows2048 X ⟨k.val, h⟩ :=
  ld_unit_congr X (k0_off1_eq k) _ _ _
theorem ld_off2 {e : EltTy} (X : Vec F S2048x1 e) (k : Fin k0_t2_loop.trips) (h : k.val < 8) :
    View.ld (Val := Elt F) X (Rect.unit (s := S2048x1) (k0_off2 k) S256x1.size (k0_off2_inb k)) = Fun.rows1 X ⟨k.val, h⟩ :=
  ld_unit_congr X (k0_off2_eq k) _ _ _
theorem ld_off3 {e : EltTy} (X : Vec F S2048x2048 e) (k : Fin k0_t2_loop.trips) (h : k.val < 8) :
    View.ld (Val := Elt F) X (Rect.unit (s := S2048x2048) (k0_off3 k) S256x2048.size (k0_off3_inb k)) = Fun.rows2048 X ⟨k.val, h⟩ :=
  ld_unit_congr X (k0_off3_eq k) _ _ _
theorem ld_off4 {e : EltTy} (X : Vec F S2048x2048 e) (k : Fin k0_t3_loop.trips) (h : k.val < 8) :
    View.ld (Val := Elt F) X (Rect.unit (s := S2048x2048) (k0_off4 k) S256x2048.size (k0_off4_inb k)) = Fun.rows2048 X ⟨k.val, h⟩ :=
  ld_unit_congr X (k0_off4_eq k) _ _ _
theorem ld_off5 {e : EltTy} (X : Vec F S2048x64 e) (k : Fin k0_t3_loop.trips) (h : k.val < 8) :
    View.ld (Val := Elt F) X (Rect.unit (s := S2048x64) (k0_off5 k) S256x64.size (k0_off5_inb k)) = Fun.rows64 X ⟨k.val, h⟩ :=
  ld_unit_congr X (k0_off5_eq k) _ _ _

/-! ## The three recursions, from any starting contents -/

/-- Loop 1's running row from the row `a`: chunk by chunk `k0_pay5`. -/
def acc1 (X0 : Vec F S2048x2048 .i32) (a : Vec F S1x2048 .f32) : ℕ → Vec F S1x2048 .f32
  | 0 => a
  | k + 1 => if h : k < 8 then k0_pay5 (Fun.rows2048 X0 ⟨k, h⟩) (acc1 X0 a k) else acc1 X0 a k

/-- Loop 2's running row from the row `a`, over a column `D` and the matrix chunks `B`: chunk by chunk `k0_pay9`. -/
def acc2 (D : Vec F S2048x1 .f32) (B : Fin 8 → Vec F S256x2048 .bf16) (a : Vec F S1x2048 .f32) : ℕ → Vec F S1x2048 .f32
  | 0 => a
  | k + 1 => if h : k < 8 then k0_pay9 (Fun.rows1 D ⟨k, h⟩) (B ⟨k, h⟩) (acc2 D B a k) else acc2 D B a k

/-- Loop 3's running sum from `a`, over the matrix chunks `B` and the array `Y`: chunk by chunk `k0_pay15`. -/
def acc3 (B : Fin 8 → Vec F S256x2048 .bf16) (Y : Vec F S2048x64 .bf16) (a : Vec F S2048x64 .f32) : ℕ → Vec F S2048x64 .f32
  | 0 => a
  | k + 1 => if h : k < 8 then k0_pay15 (acc3 B Y a k) (B ⟨k, h⟩) (Fun.rows64 Y ⟨k, h⟩) else acc3 B Y a k

theorem degAcc_eq (x0 : Vec F S2048x2048 .i32) : ∀ k, Fun.degAcc x0 k = acc1 x0 k0_pay2 k
  | 0 => rfl
  | k + 1 => by simp only [Fun.degAcc, acc1, degAcc_eq x0 k]

theorem tAcc_eq (x0 : Vec F S2048x2048 .i32) :
    ∀ k, Fun.tAcc x0 k = acc2 (Fun.dcol x0) (fun j => k0_pay4 (Fun.rows2048 x0 j)) k0_pay8 k
  | 0 => rfl
  | k + 1 => by simp only [Fun.tAcc, acc2, Fun.abfRows, tAcc_eq x0 k]

theorem zAcc_eq (x0 : Vec F S2048x2048 .i32) (x1 x2 : Vec F S1x32 .f32) (x3 : Vec F S32x32 .f32) :
    ∀ k, Fun.zAcc x0 x1 x2 x3 k = acc3 (fun j => k0_pay4 (Fun.rows2048 x0 j)) (Fun.ycat x0 x1 x2 x3) k0_pay14 k
  | 0 => rfl
  | k + 1 => by simp only [Fun.zAcc, acc3, Fun.abfRows, zAcc_eq x0 x1 x2 x3 k]

/-! ## The trips' pieces, opened once -/

section Loops

variable (𝒱 : Variants) (c : Dev nD) (bd : Option 𝒱.V) (arg0 : Memref sig .tc .vmem S2048x2048 .i32) (harg0 : arg0.IsWhole) (arg1 : Memref sig .tc .vmem S1x32 .f32) (harg1 : arg1.IsWhole) (arg2 : Memref sig .tc .vmem S1x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x8 .f32) (harg5 : arg5.IsWhole) (arg6 : Memref sig .tc .vmem S1x8 .f32) (harg6 : arg6.IsWhole) (arg7 : Memref sig .tc .vmem S1x8 .f32) (harg7 : arg7.IsWhole) (arg8 : Memref sig .tc .vmem S1x2048 .f32) (harg8 : arg8.IsWhole) (arg9 : Memref sig .tc .vmem S2048x1 .f32) (harg9 : arg9.IsWhole) (arg10 : Memref sig .tc .vmem S2048x32 .f32) (harg10 : arg10.IsWhole) (arg11 : Memref sig .tc .vmem S2048x64 .f32) (harg11 : arg11.IsWhole) (arg12 : Memref sig .tc .vmem S2048x64 .bf16) (harg12 : arg12.IsWhole) (arg13 : Memref sig .tc .vmem S2048x2048 .bf16) (harg13 : arg13.IsWhole)

theorem tripL1_eq (X : BufTy.Contents (Elt F) arg0.view.ty) (k : Fin k0_t1_loop.trips)
    (f8 : BufTy.Contents (Elt F) arg8.view.ty) (f13 : BufTy.Contents (Elt F) arg13.view.ty) :
    tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X k f8 f13
      = (([⟨(Rect.unit (s := S1x2048) ![0, 0] S1x2048.size inb_S1x2048_S1x2048_0_0), k0_pay5 (arg0.view.readAt (Elt F) (Rect.unit (s := S2048x2048) (k0_off1 k) S256x2048.size (k0_off1_inb k)).toLoadRect X) (arg8.view.readAt (Elt F) (Rect.unit (s := S1x2048) ![0, 0] S1x2048.size inb_S1x2048_S1x2048_0_0).toLoadRect f8)⟩],
          [⟨(Rect.unit (s := S2048x2048) (k0_off1 k) S256x2048.size (k0_off1_inb k)), k0_pay4 (arg0.view.readAt (Elt F) (Rect.unit (s := S2048x2048) (k0_off1 k) S256x2048.size (k0_off1_inb k)).toLoadRect X)⟩]) :
          List (View.Piece (Elt F) S1x2048 .f32) × List (View.Piece (Elt F) S2048x2048 .bf16)) := by
  unfold tripL_k0_t1 trip_k0_t1
  rfl

theorem trip1_fst (X : BufTy.Contents (Elt F) arg0.view.ty) (k : Fin k0_t1_loop.trips)
    (f8 : BufTy.Contents (Elt F) arg8.view.ty) (f13 : BufTy.Contents (Elt F) arg13.view.ty) :
    (trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X k).1 f8 f13
      = ([⟨(Rect.unit (s := S1x2048) ![0, 0] S1x2048.size inb_S1x2048_S1x2048_0_0), k0_pay5 (arg0.view.readAt (Elt F) (Rect.unit (s := S2048x2048) (k0_off1 k) S256x2048.size (k0_off1_inb k)).toLoadRect X) (arg8.view.readAt (Elt F) (Rect.unit (s := S1x2048) ![0, 0] S1x2048.size inb_S1x2048_S1x2048_0_0).toLoadRect f8)⟩] :
          List (View.Piece (Elt F) S1x2048 .f32)) :=
  congrArg Prod.fst (tripL1_eq 𝒱 c bd arg0 harg0 arg1 harg1 arg2 harg2 arg3 harg3 arg4 harg4 arg5 harg5 arg6 harg6 arg7 harg7 arg8 harg8 arg9 harg9 arg10 harg10 arg11 harg11 arg12 harg12 arg13 harg13 X k f8 f13)

theorem trip1_snd (X : BufTy.Contents (Elt F) arg0.view.ty) (k : Fin k0_t1_loop.trips)
    (f8 : BufTy.Contents (Elt F) arg8.view.ty) (f13 : BufTy.Contents (Elt F) arg13.view.ty) :
    (trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X k).2.1 f8 f13
      = ([⟨(Rect.unit (s := S2048x2048) (k0_off1 k) S256x2048.size (k0_off1_inb k)), k0_pay4 (arg0.view.readAt (Elt F) (Rect.unit (s := S2048x2048) (k0_off1 k) S256x2048.size (k0_off1_inb k)).toLoadRect X)⟩] :
          List (View.Piece (Elt F) S2048x2048 .bf16)) :=
  congrArg Prod.snd (tripL1_eq 𝒱 c bd arg0 harg0 arg1 harg1 arg2 harg2 arg3 harg3 arg4 harg4 arg5 harg5 arg6 harg6 arg7 harg7 arg8 harg8 arg9 harg9 arg10 harg10 arg11 harg11 arg12 harg12 arg13 harg13 X k f8 f13)

theorem tripL2_eq (X9 : BufTy.Contents (Elt F) arg9.view.ty) (X13 : BufTy.Contents (Elt F) arg13.view.ty)
    (k : Fin k0_t2_loop.trips) (f8 : BufTy.Contents (Elt F) arg8.view.ty) :
    tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X9 X13 k f8
      = ([⟨(Rect.unit (s := S1x2048) ![0, 0] S1x2048.size inb_S1x2048_S1x2048_0_0), k0_pay9 (arg9.view.readAt (Elt F) (Rect.unit (s := S2048x1) (k0_off2 k) S256x1.size (k0_off2_inb k)).toLoadRect X9) (arg13.view.readAt (Elt F) (Rect.unit (s := S2048x2048) (k0_off3 k) S256x2048.size (k0_off3_inb k)).toLoadRect X13) (arg8.view.readAt (Elt F) (Rect.unit (s := S1x2048) ![0, 0] S1x2048.size inb_S1x2048_S1x2048_0_0).toLoadRect f8)⟩] :
          List (View.Piece (Elt F) S1x2048 .f32)) := by
  unfold tripL_k0_t2 trip_k0_t2
  rfl

theorem tripL3_eq (v24 : Vec F S2048x1 .f32) (v28 : FVec F S2048x32 .f32) (X12 : BufTy.Contents (Elt F) arg12.view.ty)
    (X13 : BufTy.Contents (Elt F) arg13.view.ty) (k : Fin k0_t3_loop.trips) (f11 : BufTy.Contents (Elt F) arg11.view.ty) :
    tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v24 v28 X12 X13 k f11
      = ([⟨(Rect.unit (s := S2048x64) ![0, 0] S2048x64.size inb_S2048x64_S2048x64_0_0), k0_pay15 (arg11.view.readAt (Elt F) (Rect.unit (s := S2048x64) ![0, 0] S2048x64.size inb_S2048x64_S2048x64_0_0).toLoadRect f11) (arg13.view.readAt (Elt F) (Rect.unit (s := S2048x2048) (k0_off4 k) S256x2048.size (k0_off4_inb k)).toLoadRect X13) (arg12.view.readAt (Elt F) (Rect.unit (s := S2048x64) (k0_off5 k) S256x64.size (k0_off5_inb k)).toLoadRect X12)⟩] :
          List (View.Piece (Elt F) S2048x64 .f32)) := by
  unfold tripL_k0_t3 trip_k0_t3
  rfl

/-! ## Loop 1 -/

/-- The running row after `k` trips of loop 1. -/
theorem pb1_read8 (X : BufTy.Contents (Elt F) arg0.view.ty) (G8 : BufTy.Contents (Elt F) arg8.view.ty)
    (G13 : BufTy.Contents (Elt F) arg13.view.ty) :
    ∀ k, k ≤ 8 → arg8.view.read (Elt F) (arg8.view.writes (Elt F) G8 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X G8 G13 k).1)
        = acc1 (arg0.view.read (Elt F) X) (arg8.view.read (Elt F) G8) k
  | 0, _ => rfl
  | k + 1, hk => by
    have hk' : k < k0_t1_loop.trips := by rw [trips1]; omega
    have ih := pb1_read8 X G8 G13 k (by omega)
    have h := pb_k0_t1_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X G8 G13 ⟨k, hk'⟩
    dsimp only at h
    rw [h]
    dsimp only
    rw [trip1_fst]
    rw [List.singleton_append, read_writes_cons_whole _ _ hz2, View.readAt_eq_ld, View.readAt_eq_ld,
      View.ld_unit_zero hz2, ih, ld_off1 _ ⟨k, hk'⟩ (by omega : k < 8)]
    simp only [acc1, dif_pos (by omega : k < 8)]

/-- Rows `256 j …` of the matrix buffer after `n > j` trips of loop 1: chunk `j`'s payload. -/
theorem pb1_read13 (X : BufTy.Contents (Elt F) arg0.view.ty) (G8 : BufTy.Contents (Elt F) arg8.view.ty)
    (G13 : BufTy.Contents (Elt F) arg13.view.ty) :
    ∀ n, n ≤ 8 → ∀ (j : ℕ) (hj8 : j < 8), j < n →
      ∀ x : (Rect.unit (s := S2048x2048) ![256 * j, 0] S256x2048.size (Fun.rows_inb_2048 ⟨j, hj8⟩)).shape.Idx,
      arg13.view.read (Elt F) (arg13.view.writes (Elt F) G13 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X G8 G13 n).2)
          ((Rect.unit (s := S2048x2048) ![256 * j, 0] S256x2048.size (Fun.rows_inb_2048 ⟨j, hj8⟩)).emb x)
        = k0_pay4 (Fun.rows2048 (arg0.view.read (Elt F) X) ⟨j, hj8⟩) x
  | 0, _, j, _, hj, _ => absurd hj (Nat.not_lt_zero _)
  | n + 1, hn, j, hj8, hj, x => by
    have hn' : n < k0_t1_loop.trips := by rw [trips1]; omega
    have h := pb_k0_t1_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X G8 G13 ⟨n, hn'⟩
    dsimp only at h
    rw [h]
    dsimp only
    rw [trip1_snd]
    rw [List.singleton_append]
    have hx0 : (x (0 : Fin 2)).val < 256 := (x (0 : Fin 2)).isLt
    by_cases hjn : j = n
    · subst hjn
      refine (View.read_writes_cons_rows_of_mem (o := 256 * j) arg13.view _ (k0_off1_inb ⟨j, hn'⟩) _ _ _ x
        (k0_off1_eq ⟨j, hn'⟩) ?_ ?_).trans ?_
      · rw [Rect.emb_apply, Rect.off_unit, Rect.stride_unit, Nat.one_mul]; rfl
      · rw [Rect.emb_apply, Rect.off_unit, Rect.stride_unit, Nat.one_mul]; exact Nat.zero_add _
      · rw [View.readAt_eq_ld, ld_off1 _ ⟨j, hn'⟩ hj8]
    · refine (View.read_writes_cons_rows_of_not_mem (o := 256 * n) (W := 256) arg13.view _ (k0_off1_inb ⟨n, hn'⟩) _ _ _
        (k0_off1_eq ⟨n, hn'⟩) rfl (Or.inl ?_)).trans ?_
      · rw [Rect.emb_apply, Rect.off_unit, Rect.stride_unit, Nat.one_mul]
        show 256 * j + (x (0 : Fin 2)).val < 256 * n
        omega
      · exact pb1_read13 X G8 G13 n (by omega) j hj8 (by omega) x

/-! ## Loop 2 -/

/-- The running row after `k` trips of loop 2. -/
theorem pb2_read8 (X9 : BufTy.Contents (Elt F) arg9.view.ty) (X13 : BufTy.Contents (Elt F) arg13.view.ty)
    (G8 : BufTy.Contents (Elt F) arg8.view.ty) :
    ∀ k, k ≤ 8 → arg8.view.read (Elt F) (arg8.view.writes (Elt F) G8 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X9 X13 G8 k))
        = acc2 (arg9.view.read (Elt F) X9) (fun j => Fun.rows2048 (arg13.view.read (Elt F) X13) j) (arg8.view.read (Elt F) G8) k
  | 0, _ => rfl
  | k + 1, hk => by
    have hk' : k < k0_t2_loop.trips := by rw [trips2]; omega
    have ih := pb2_read8 X9 X13 G8 k (by omega)
    have h := pb_k0_t2_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X9 X13 G8 ⟨k, hk'⟩
    dsimp only at h
    rw [h, tripL2_eq]
    rw [List.singleton_append, read_writes_cons_whole _ _ hz2, View.readAt_eq_ld, View.readAt_eq_ld, View.readAt_eq_ld,
      View.ld_unit_zero hz2, ih, ld_off2 _ ⟨k, hk'⟩ (by omega : k < 8), ld_off3 _ ⟨k, hk'⟩ (by omega : k < 8)]
    simp only [acc2, dif_pos (by omega : k < 8)]

/-! ## Loop 3 -/

/-- The running sum after `k` trips of loop 3. -/
theorem pb3_read11 (v24 : Vec F S2048x1 .f32) (v28 : FVec F S2048x32 .f32) (X12 : BufTy.Contents (Elt F) arg12.view.ty)
    (X13 : BufTy.Contents (Elt F) arg13.view.ty) (G11 : BufTy.Contents (Elt F) arg11.view.ty) :
    ∀ k, k ≤ 8 → arg11.view.read (Elt F) (arg11.view.writes (Elt F) G11 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v24 v28 X12 X13 G11 k))
        = acc3 (fun j => Fun.rows2048 (arg13.view.read (Elt F) X13) j) (arg12.view.read (Elt F) X12) (arg11.view.read (Elt F) G11) k
  | 0, _ => rfl
  | k + 1, hk => by
    have hk' : k < k0_t3_loop.trips := by rw [trips3]; omega
    have ih := pb3_read11 v24 v28 X12 X13 G11 k (by omega)
    have h := pb_k0_t3_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v24 v28 X12 X13 G11 ⟨k, hk'⟩
    dsimp only at h
    rw [h, tripL3_eq]
    rw [List.singleton_append, read_writes_cons_whole _ _ hz2, View.readAt_eq_ld, View.readAt_eq_ld, View.readAt_eq_ld,
      View.ld_unit_zero hz2, ih, ld_off4 _ ⟨k, hk'⟩ (by omega : k < 8), ld_off5 _ ⟨k, hk'⟩ (by omega : k < 8)]
    simp only [acc3, dif_pos (by omega : k < 8)]

/-! ## After the eight trips -/

theorem loop1_read8 (X : BufTy.Contents (Elt F) arg0.view.ty) (G8 : BufTy.Contents (Elt F) arg8.view.ty)
    (G13 : BufTy.Contents (Elt F) arg13.view.ty) :
    arg8.view.read (Elt F) (arg8.view.writes (Elt F) G8 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X G8 G13 8).1)
      = acc1 (arg0.view.read (Elt F) X) (arg8.view.read (Elt F) G8) 8 :=
  pb1_read8 𝒱 c bd arg0 harg0 arg1 harg1 arg2 harg2 arg3 harg3 arg4 harg4 arg5 harg5 arg6 harg6 arg7 harg7 arg8 harg8 arg9 harg9 arg10 harg10 arg11 harg11 arg12 harg12 arg13 harg13 X G8 G13 8 (le_refl 8)

theorem loop1_rows13 (X : BufTy.Contents (Elt F) arg0.view.ty) (G8 : BufTy.Contents (Elt F) arg8.view.ty)
    (G13 : BufTy.Contents (Elt F) arg13.view.ty) (j : Fin 8) :
    Fun.rows2048 (arg13.view.read (Elt F) (arg13.view.writes (Elt F) G13 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X G8 G13 8).2)) j
      = k0_pay4 (Fun.rows2048 (arg0.view.read (Elt F) X) j) :=
  funext fun x => pb1_read13 𝒱 c bd arg0 harg0 arg1 harg1 arg2 harg2 arg3 harg3 arg4 harg4 arg5 harg5 arg6 harg6 arg7 harg7 arg8 harg8 arg9 harg9 arg10 harg10 arg11 harg11 arg12 harg12 arg13 harg13 X G8 G13 8 (le_refl 8) j.val j.isLt j.isLt x

theorem loop2_read8 (X9 : BufTy.Contents (Elt F) arg9.view.ty) (X13 : BufTy.Contents (Elt F) arg13.view.ty)
    (G8 : BufTy.Contents (Elt F) arg8.view.ty) :
    arg8.view.read (Elt F) (arg8.view.writes (Elt F) G8 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X9 X13 G8 8))
      = acc2 (arg9.view.read (Elt F) X9) (fun j => Fun.rows2048 (arg13.view.read (Elt F) X13) j) (arg8.view.read (Elt F) G8) 8 :=
  pb2_read8 𝒱 c bd arg0 harg0 arg1 harg1 arg2 harg2 arg3 harg3 arg4 harg4 arg5 harg5 arg6 harg6 arg7 harg7 arg8 harg8 arg9 harg9 arg10 harg10 arg11 harg11 arg12 harg12 arg13 harg13 X9 X13 G8 8 (le_refl 8)

theorem loop3_read11 (v24 : Vec F S2048x1 .f32) (v28 : FVec F S2048x32 .f32) (X12 : BufTy.Contents (Elt F) arg12.view.ty)
    (X13 : BufTy.Contents (Elt F) arg13.view.ty) (G11 : BufTy.Contents (Elt F) arg11.view.ty) :
    arg11.view.read (Elt F) (arg11.view.writes (Elt F) G11 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v24 v28 X12 X13 G11 8))
      = acc3 (fun j => Fun.rows2048 (arg13.view.read (Elt F) X13) j) (arg12.view.read (Elt F) X12) (arg11.view.read (Elt F) G11) 8 :=
  pb3_read11 𝒱 c bd arg0 harg0 arg1 harg1 arg2 harg2 arg3 harg3 arg4 harg4 arg5 harg5 arg6 harg6 arg7 harg7 arg8 harg8 arg9 harg9 arg10 harg10 arg11 harg11 arg12 harg12 arg13 harg13 v24 v28 X12 X13 G11 8 (le_refl 8)

end Loops

end Cert.KernelIdeal.LoopVal

end
-- ==== Proof.KernelIdealValue.lean ====
/-
  What the run's one store into the output holds, whatever the scratch buffers held: the piece the run finds is spelt
  over the scratch buffers' entry contents through the three loops' piece recursions; read through what those loops
  leave (KernelIdealLoops.lean) — the running rows and the running sum as the recursions of KernelFun.lean, the matrix
  buffer chunk by chunk, every whole store read back as its payload — it is `Fun.out` of the seven argument blocks.
  From it: the body's triple with that one piece as its witness.
-/
import proofs.«178039_g46316927320456_cont_sun_m_677_15_alg».proof.Proof.KernelIdealLoops
import proofs.«178039_g46316927320456_cont_sun_m_677_15_alg».proof.Proof.KernelIdealRunF

set_option maxRecDepth 16384

noncomputable section

namespace Cert.KernelIdeal.GenN

open Cert.KernelIdeal Cert.KernelIdeal.Gen Cert.KernelIdeal.GenP Cert.KernelIdeal.LoopVal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem tripsN1 : Scf.trips k0_t1_loop.lb k0_t1_loop.ub k0_t1_loop.st = 8 := by decide +kernel
theorem tripsN2 : Scf.trips k0_t2_loop.lb k0_t2_loop.ub k0_t2_loop.st = 8 := by decide +kernel
theorem tripsN3 : Scf.trips k0_t3_loop.lb k0_t3_loop.ub k0_t3_loop.st = 8 := by decide +kernel

set_option maxHeartbeats 4000000 in
/-- The found piece is the one store of `Fun.out`, for any entry contents of the scratch buffers. -/
theorem L7_eq (c : Dev nD) (arg0 : Memref sig .tc .vmem S2048x2048 .i32) (harg0 : arg0.IsWhole) (arg1 : Memref sig .tc .vmem S1x32 .f32) (harg1 : arg1.IsWhole) (arg2 : Memref sig .tc .vmem S1x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x8 .f32) (harg5 : arg5.IsWhole) (arg6 : Memref sig .tc .vmem S1x8 .f32) (harg6 : arg6.IsWhole) (arg7 : Memref sig .tc .vmem S1x8 .f32) (harg7 : arg7.IsWhole) (arg8 : Memref sig .tc .vmem S1x2048 .f32) (harg8 : arg8.IsWhole) (arg9 : Memref sig .tc .vmem S2048x1 .f32) (harg9 : arg9.IsWhole) (arg10 : Memref sig .tc .vmem S2048x32 .f32) (harg10 : arg10.IsWhole) (arg11 : Memref sig .tc .vmem S2048x64 .f32) (harg11 : arg11.IsWhole) (arg12 : Memref sig .tc .vmem S2048x64 .bf16) (harg12 : arg12.IsWhole) (arg13 : Memref sig .tc .vmem S2048x2048 .bf16) (harg13 : arg13.IsWhole)
    (x0 : Vec F S2048x2048 .i32) (x1 : Vec F S1x32 .f32) (x2 : Vec F S1x32 .f32) (x3 : Vec F S32x32 .f32) (x4 : Vec F S1x32 .f32) (x5 : Vec F S32x8 .f32) (x6 : Vec F S1x8 .f32)
    (fs0 : BufTy.Contents (Elt F) arg8.view.ty) (fs1 : BufTy.Contents (Elt F) arg9.view.ty) (fs2 : BufTy.Contents (Elt F) arg10.view.ty) (fs3 : BufTy.Contents (Elt F) arg11.view.ty) (fs4 : BufTy.Contents (Elt F) arg12.view.ty) (fs5 : BufTy.Contents (Elt F) arg13.view.ty) :
    (kernelRun0_AF c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).1 fs0 fs1 fs2 fs3 fs4 fs5
      = [⟨Rect.unit (s := S1x8) ![0, 0] S1x8.size inb_S1x8_S1x8_0_0, Fun.out x0 x1 x2 x3 x4 x5 x6⟩] := by
  unfold kernelRun0_AF
  dsimp only
  sl_unfold_run_names
  rw [tripsN1]
  simp only [View.writes_append]
  simp only [View.readAt_eq_ld, View.ld_unit_zero (S := S1x2048) hz2, View.ld_unit_zero (S := S1x32) hz2,
    View.ld_unit_zero (S := S32x32) hz2, View.ld_unit_zero (S := S32x8) hz2, View.ld_unit_zero (S := S1x8) hz2,
    View.readCov_unit_zero (S := S2048x1) _ hz2, View.readCov_unit_zero (S := S2048x32) _ hz2,
    loop1_read8, loop2_read8, loop3_read11, loop1_rows13,
    read_writes_cons_whole (S := S1x2048) _ _ hz2, read_writes_cons_whole (S := S2048x1) _ _ hz2,
    read_writes_cons_whole (S := S2048x64) _ _ hz2,
    harg0.read_unread, harg1.read_unread, harg2.read_unread, harg3.read_unread, harg4.read_unread, harg5.read_unread,
    harg6.read_unread]
  simp only [Fun.out, Fun.agg, Fun.zLo, Fun.zHi, Fun.z, Fun.y2, Fun.ycat, Fun.h1, Fun.t, Fun.dcol, Fun.deg,
    degAcc_eq, tAcc_eq, zAcc_eq]

-- (the statement is the generated run's; its proof cites the run whose witness is a function of the scratch contents)
/-- What the body's stores leave in output 7's staging memref — ONE piece, the store of `Fun.out` of the argument
    blocks through the whole 1 x 8 block —, WITH the proof that on whole staging memrefs — the inputs' at their contents,
    output 7's at anything, the scratch buffers at anything — the body runs to the continuation holding the inputs' as
    they were, the scratch at some contents, output 7's buffer with that piece written. -/
noncomputable def kernelRun0_A (c : Dev nD) (arg0 : Memref sig .tc .vmem S2048x2048 .i32) (harg0 : arg0.IsWhole) (arg1 : Memref sig .tc .vmem S1x32 .f32) (harg1 : arg1.IsWhole) (arg2 : Memref sig .tc .vmem S1x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x8 .f32) (harg5 : arg5.IsWhole) (arg6 : Memref sig .tc .vmem S1x8 .f32) (harg6 : arg6.IsWhole) (arg7 : Memref sig .tc .vmem S1x8 .f32) (harg7 : arg7.IsWhole) (arg8 : Memref sig .tc .vmem S1x2048 .f32) (harg8 : arg8.IsWhole) (arg9 : Memref sig .tc .vmem S2048x1 .f32) (harg9 : arg9.IsWhole) (arg10 : Memref sig .tc .vmem S2048x32 .f32) (harg10 : arg10.IsWhole) (arg11 : Memref sig .tc .vmem S2048x64 .f32) (harg11 : arg11.IsWhole) (arg12 : Memref sig .tc .vmem S2048x64 .bf16) (harg12 : arg12.IsWhole) (arg13 : Memref sig .tc .vmem S2048x2048 .bf16) (harg13 : arg13.IsWhole)
    (x0 : Vec F S2048x2048 .i32) (x1 : Vec F S1x32 .f32) (x2 : Vec F S1x32 .f32) (x3 : Vec F S32x32 .f32) (x4 : Vec F S1x32 .f32) (x5 : Vec F S32x8 .f32) (x6 : Vec F S1x8 .f32) :
    { L7 : List (View.Piece (Elt F) S1x8 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__gnn_kernel arg0 harg0 arg1 harg1 arg2 harg2 arg3 harg3 arg4 harg4 arg5 harg5 arg6 harg6 arg7 harg7 arg8 harg8 arg9 harg9 arg10 harg10 arg11 harg11 arg12 harg12 arg13 harg13) K } :=
  ⟨[⟨Rect.unit (s := S1x8) ![0, 0] S1x8.size inb_S1x8_S1x8_0_0, Fun.out x0 x1 x2 x3 x4 x5 x6⟩], fun E K => by
    unfold owns
    iintro ⟨H0, H1, H2, H3, H4, H5, H6, H7, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    iapply ((kernelRun0_AF c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).2 E K fs0 fs1 fs2 fs3 fs4 fs5)
    rw [L7_eq c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 fs0 fs1 fs2 fs3 fs4 fs5]
    unfold owns
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    isplitl [HS5]; · iexact HS5
    iexact Hk⟩

/-- The witness, named. -/
theorem kernelRun0_A_val (c : Dev nD) (arg0 : Memref sig .tc .vmem S2048x2048 .i32) (harg0 : arg0.IsWhole) (arg1 : Memref sig .tc .vmem S1x32 .f32) (harg1 : arg1.IsWhole) (arg2 : Memref sig .tc .vmem S1x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x8 .f32) (harg5 : arg5.IsWhole) (arg6 : Memref sig .tc .vmem S1x8 .f32) (harg6 : arg6.IsWhole) (arg7 : Memref sig .tc .vmem S1x8 .f32) (harg7 : arg7.IsWhole) (arg8 : Memref sig .tc .vmem S1x2048 .f32) (harg8 : arg8.IsWhole) (arg9 : Memref sig .tc .vmem S2048x1 .f32) (harg9 : arg9.IsWhole) (arg10 : Memref sig .tc .vmem S2048x32 .f32) (harg10 : arg10.IsWhole) (arg11 : Memref sig .tc .vmem S2048x64 .f32) (harg11 : arg11.IsWhole) (arg12 : Memref sig .tc .vmem S2048x64 .bf16) (harg12 : arg12.IsWhole) (arg13 : Memref sig .tc .vmem S2048x2048 .bf16) (harg13 : arg13.IsWhole)
    (x0 : Vec F S2048x2048 .i32) (x1 : Vec F S1x32 .f32) (x2 : Vec F S1x32 .f32) (x3 : Vec F S32x32 .f32) (x4 : Vec F S1x32 .f32) (x5 : Vec F S32x8 .f32) (x6 : Vec F S1x8 .f32) :
    (kernelRun0_A c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).1 = [⟨Rect.unit (s := S1x8) ![0, 0] S1x8.size inb_S1x8_S1x8_0_0, Fun.out x0 x1 x2 x3 x4 x5 x6⟩] := rfl

end Cert.KernelIdeal.GenN

end
-- ==== Proof.KernelIdealOut.lean ====
/-
  What the kernel's output block holds after the body, named: the one store of `Fun.out` through the whole 1 x 8 block,
  read back — at the body's triple, and at every grid point over the windows' blocks.
-/
import proofs.«178039_g46316927320456_cont_sun_m_677_15_alg».proof.Proof.KernelIdealFrameN

set_option maxRecDepth 16384

noncomputable section

namespace Cert.KernelIdeal.GenN

open Cert.KernelIdeal Cert.KernelIdeal.Gen Cert.KernelIdeal.LoopVal
open Idealize.ShloMosaic Idealize.ShloMosaic.TcCoe Idealize.SL.Sem
open Idealize.ShloMosaic.Pipeline (Dat)

variable {F : FTy → Type} [FloatOps F]

/-- What the run leaves in output 7's staging buffer is `Fun.out` of the argument blocks. -/
theorem out0_A_7_eq (c : Dev nD) (arg0 : Memref sig .tc .vmem S2048x2048 .i32) (harg0 : arg0.IsWhole) (arg1 : Memref sig .tc .vmem S1x32 .f32) (harg1 : arg1.IsWhole) (arg2 : Memref sig .tc .vmem S1x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x8 .f32) (harg5 : arg5.IsWhole) (arg6 : Memref sig .tc .vmem S1x8 .f32) (harg6 : arg6.IsWhole) (arg7 : Memref sig .tc .vmem S1x8 .f32) (harg7 : arg7.IsWhole) (arg8 : Memref sig .tc .vmem S1x2048 .f32) (harg8 : arg8.IsWhole) (arg9 : Memref sig .tc .vmem S2048x1 .f32) (harg9 : arg9.IsWhole) (arg10 : Memref sig .tc .vmem S2048x32 .f32) (harg10 : arg10.IsWhole) (arg11 : Memref sig .tc .vmem S2048x64 .f32) (harg11 : arg11.IsWhole) (arg12 : Memref sig .tc .vmem S2048x64 .bf16) (harg12 : arg12.IsWhole) (arg13 : Memref sig .tc .vmem S2048x2048 .bf16) (harg13 : arg13.IsWhole)
    (x0 : Vec F S2048x2048 .i32) (x1 : Vec F S1x32 .f32) (x2 : Vec F S1x32 .f32) (x3 : Vec F S32x32 .f32) (x4 : Vec F S1x32 .f32) (x5 : Vec F S32x8 .f32) (x6 : Vec F S1x8 .f32) :
    out0_A_7 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = Fun.out x0 x1 x2 x3 x4 x5 x6 := by
  unfold out0_A_7
  rw [kernelRun0_A_val]
  exact read_writes_cons_whole (S := S1x8) (Val := Elt F) (e := .f32) VO0_7 VO0_7.junk hz2 inb_S1x8_S1x8_0_0 (Fun.out x0 x1 x2 x3 x4 x5 x6) []

variable (m : (ℓ : Loc nD τ sig) → Buf (Elt F) ℓ)

/-- After the body at point `t` the output's staging buffer holds `Fun.out` of the seven input windows' blocks. -/
theorem outsAt0_eq (c : Dev nD) (t : Fin cfg0.N) :
    outsAt0 m c t = Fun.out (iblk m c 0 t) (iblk m c 1 t) (iblk m c 2 t) (iblk m c 3 t) (iblk m c 4 t) (iblk m c 5 t) (iblk m c 6 t) := by
  unfold outsAt0
  exact out0_A_7_eq ..

/-- The proof data's `after` at the output window, named. -/
theorem after0_7_eq (c : Dev nD) (t : Fin cfg0.N) :
    (dats m 0 c).after 7 t = Fun.out (iblk m c 0 t) (iblk m c 1 t) (iblk m c 2 t) (iblk m c 3 t) (iblk m c 4 t) (iblk m c 5 t) (iblk m c 6 t) :=
  (after0_7 m c t).trans (outsAt0_eq m c t)

end Cert.KernelIdeal.GenN

end
-- ==== Proof.KernelIdealRun.lean ====
/-
  The kernel's run, read: after every weakly fair execution of the program the result array holds `Fun.out` of the
  argument arrays — the weight and bias vectors through the three reshapes the host makes of them before the kernel —
  and the seven argument arrays are unchanged. The grid has one point and every window's block is its whole array, so
  each input block is its array as the kernel finds it, and the one write-back of the output block is the result array.
-/
import proofs.«178039_g46316927320456_cont_sun_m_677_15_alg».proof.Proof.KernelIdealOut
import Idealize.ShloMosaic.Lib.Pipeline.Value
import Idealize.ShloMosaic.Lib.StableHlo.Run

set_option maxRecDepth 16384

noncomputable section

namespace Cert.KernelIdeal.GenN

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The host's three reshapes -/

theorem V_main_v0 (c : Dev nD) : V m c main_v0 = shapeCast S1x32 (m ((c.tc : Thread nD τ).loc main_arg2)) shapeCasts_S32_S1x32 := by
  show StableHlo.after hostOps0 (fun b => m (c, b)) _ = _
  after_results
  rfl
theorem V_main_v1 (c : Dev nD) : V m c main_v1 = shapeCast S1x32 (m ((c.tc : Thread nD τ).loc main_arg4)) shapeCasts_S32_S1x32 := by
  show StableHlo.after hostOps0 (fun b => m (c, b)) _ = _
  after_results
  rfl
theorem V_main_v2 (c : Dev nD) : V m c main_v2 = shapeCast S1x8 (m ((c.tc : Thread nD τ).loc main_arg6)) shapeCasts_S8_S1x8 := by
  show StableHlo.after hostOps0 (fun b => m (c, b)) _ = _
  after_results
  rfl

/-! ## At the one grid point each input block is its array -/

theorem iblk_0 (c : Dev nD) (t : Fin cfg0.N) : (iblk m c 0 t : Vec F S2048x2048 .i32) = V m c main_arg0 := by
  obtain rfl : t = t0_0 := fin_N0 t
  have hz' : (fun a => win0_0.index t0_0 a * main_arg0.ty.shape.size a) = fun _ => 0 := funext fun a => by fin_cases a <;> decide
  exact Memref.read_access_unit_zero (Elt F) main_arg0 hz' (fun a => by rw [congrFun hz' a]; simp) (V m c main_arg0)
theorem iblk_1 (c : Dev nD) (t : Fin cfg0.N) : (iblk m c 1 t : Vec F S1x32 .f32) = V m c main_arg1 := by
  obtain rfl : t = t0_0 := fin_N0 t
  have hz' : (fun a => win0_1.index t0_0 a * main_arg1.ty.shape.size a) = fun _ => 0 := funext fun a => by fin_cases a <;> decide
  exact Memref.read_access_unit_zero (Elt F) main_arg1 hz' (fun a => by rw [congrFun hz' a]; simp) (V m c main_arg1)
theorem iblk_2 (c : Dev nD) (t : Fin cfg0.N) : (iblk m c 2 t : Vec F S1x32 .f32) = V m c main_v0 := by
  obtain rfl : t = t0_0 := fin_N0 t
  have hz' : (fun a => win0_2.index t0_0 a * main_v0.ty.shape.size a) = fun _ => 0 := funext fun a => by fin_cases a <;> decide
  exact Memref.read_access_unit_zero (Elt F) main_v0 hz' (fun a => by rw [congrFun hz' a]; simp) (V m c main_v0)
theorem iblk_3 (c : Dev nD) (t : Fin cfg0.N) : (iblk m c 3 t : Vec F S32x32 .f32) = V m c main_arg3 := by
  obtain rfl : t = t0_0 := fin_N0 t
  have hz' : (fun a => win0_3.index t0_0 a * main_arg3.ty.shape.size a) = fun _ => 0 := funext fun a => by fin_cases a <;> decide
  exact Memref.read_access_unit_zero (Elt F) main_arg3 hz' (fun a => by rw [congrFun hz' a]; simp) (V m c main_arg3)
theorem iblk_4 (c : Dev nD) (t : Fin cfg0.N) : (iblk m c 4 t : Vec F S1x32 .f32) = V m c main_v1 := by
  obtain rfl : t = t0_0 := fin_N0 t
  have hz' : (fun a => win0_4.index t0_0 a * main_v1.ty.shape.size a) = fun _ => 0 := funext fun a => by fin_cases a <;> decide
  exact Memref.read_access_unit_zero (Elt F) main_v1 hz' (fun a => by rw [congrFun hz' a]; simp) (V m c main_v1)
theorem iblk_5 (c : Dev nD) (t : Fin cfg0.N) : (iblk m c 5 t : Vec F S32x8 .f32) = V m c main_arg5 := by
  obtain rfl : t = t0_0 := fin_N0 t
  have hz' : (fun a => win0_5.index t0_0 a * main_arg5.ty.shape.size a) = fun _ => 0 := funext fun a => by fin_cases a <;> decide
  exact Memref.read_access_unit_zero (Elt F) main_arg5 hz' (fun a => by rw [congrFun hz' a]; simp) (V m c main_arg5)
theorem iblk_6 (c : Dev nD) (t : Fin cfg0.N) : (iblk m c 6 t : Vec F S1x8 .f32) = V m c main_v2 := by
  obtain rfl : t = t0_0 := fin_N0 t
  have hz' : (fun a => win0_6.index t0_0 a * main_v2.ty.shape.size a) = fun _ => 0 := funext fun a => by fin_cases a <;> decide
  exact Memref.read_access_unit_zero (Elt F) main_v2 hz' (fun a => by rw [congrFun hz' a]; simp) (V m c main_v2)

/-! ## The result array -/

/-- What the result array ends holding. -/
abbrev result (c : Dev nD) : Buf (Elt F) ((c.tc : Thread nD τ).loc main_v3) :=
  Fun.out (m ((c.tc : Thread nD τ).loc main_arg0)) (m ((c.tc : Thread nD τ).loc main_arg1)) (V m c main_v0)
              (m ((c.tc : Thread nD τ).loc main_arg3)) (V m c main_v1) (m ((c.tc : Thread nD τ).loc main_arg5)) (V m c main_v2)

/-- The one write-back writes it: the output block is the whole 1 x 8 array. -/
theorem flushed_eq (c : Dev nD) (t : Fin cfg0.N) (hf : (cfg0.win 7).flush t = true) :
    (dats m 0 c).flushed 7 t = ((cfg0.win 7).blk t).view.read (Elt F) (result m c) := by
  obtain rfl : t = t0_0 := fin_N0 t
  show (cfg0.win 7).cut (grid0.coords t0_0) ((dats m 0 c).after 7 t0_0) = _
  rw [after0_7_eq, iblk_0, iblk_1, iblk_2, iblk_3, iblk_4, iblk_5, iblk_6, V_main_arg0, V_main_arg1, V_main_arg3, V_main_arg5]
  have hz' : (fun a => win0_7.index t0_0 a * main_v3.ty.shape.size a) = fun _ => 0 := funext fun a => by fin_cases a <;> decide
  exact (Memref.read_access_unit_zero (Elt F) main_v3 hz' (fun a => by rw [congrFun hz' a]; simp) (result m c)).symm

/-- So the result array ends holding it. -/
theorem final_o (c : Dev nD) : (dats m 0 c).arrAt 7 cfg0.N = result m c :=
  (dats m 0 c).arrAt_eq_of_cover 7 (result m c) (flushed_eq m c) fun i =>
    ⟨t0_0, flush0_7 t0_0, by
      show i ∈ ((View.whole main_v3).slice (win0_7.rect t0_0)).set
      rw [View.set_slice_whole, Rect.mem_set_unit]
      intro a
      have h0 : (i 0 : Nat) < 1 := (i 0).isLt
      have h1 : (i 1 : Nat) < 8 := (i 1).isLt
      match a with
      | ⟨0, _⟩ => show win0_7.index t0_0 0 * win0_7.size 0 ≤ (i 0 : Nat) ∧ (i 0 : Nat) < win0_7.index t0_0 0 * win0_7.size 0 + win0_7.xsize (grid0.coords t0_0) 0
                  rw [show win0_7.index t0_0 0 * win0_7.size 0 = 0 from by decide +kernel, show win0_7.xsize (grid0.coords t0_0) 0 = 1 from by decide +kernel]; omega
      | ⟨1, _⟩ => show win0_7.index t0_0 1 * win0_7.size 1 ≤ (i 1 : Nat) ∧ (i 1 : Nat) < win0_7.index t0_0 1 * win0_7.size 1 + win0_7.xsize (grid0.coords t0_0) 1
                  rw [show win0_7.index t0_0 1 * win0_7.size 1 = 0 from by decide +kernel, show win0_7.xsize (grid0.coords t0_0) 1 = 8 from by decide +kernel]; omega⟩

/-- The run, read: the result array at `Fun.out` of the argument arrays, the arguments unchanged. -/
theorem run_value : θ_run defs (onTc (τ := τ) (main (F := F))) ⟨m, fun _ => 0, ρ⟩ (fun r => ∀ c : Dev nD,
      r.2.mem ((c.tc : Thread nD τ).loc main_v3)
          = Fun.out (m ((c.tc : Thread nD τ).loc main_arg0)) (m ((c.tc : Thread nD τ).loc main_arg1)) (V m c main_v0)
              (m ((c.tc : Thread nD τ).loc main_arg3)) (V m c main_v1) (m ((c.tc : Thread nD τ).loc main_arg5)) (V m c main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final_o m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c)⟩)
    (run_main m ρ)

end Cert.KernelIdeal.GenN

end
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.LibTransposedProduct.lean ====
/-
  A matrix product contracted over the FIRST axis of both operands, read at an entry.

  With dimension numbers ⟨[0], [0], [1], [1]⟩ a K×M operand and a K×P operand give the M×P array whose entry (m, p) is
  ∑ k, lhs (k, m) · rhs (k, p): the transpose of the left operand times the right one, with no transpose materialised. At the ideal
  values the kernel's product into a zero accumulator, or into any accumulator, is that sum (plus the accumulator's entry).
-/
import Idealize.ShloMosaic.Lib.ValueIdx
import Idealize.ShloMosaic.PureOps.Ideal.Laws

noncomputable section

namespace TransposedProduct

open Idealize.ShloMosaic Idealize.ShloMosaic.ValueIdx

variable {K M P : Nat}

/-- The dimension numbers of (K×M)ᵀ by K×P. -/
abbrev tDims (K M P : Nat)
    (wf : DotDims.WF (⟨2, ![K, M]⟩ : Shape) ⟨2, ![K, P]⟩ ⟨2, ![M, P]⟩ [0] [0] [1] [1] [] []) :
    DotDims ⟨2, ![K, M]⟩ ⟨2, ![K, P]⟩ ⟨2, ![M, P]⟩ where
  lhsContracting := [0]
  rhsContracting := [0]
  lhsNonContracting := [1]
  rhsNonContracting := [1]
  lhsBatch := []
  rhsBatch := []
  wf := wf

variable (wf : DotDims.WF (⟨2, ![K, M]⟩ : Shape) ⟨2, ![K, P]⟩ ⟨2, ![M, P]⟩ [0] [0] [1] [1] [] [])

/-- The sum over the contraction index is the sum over k of lhs(k, m) · rhs(k, p). -/
theorem contr_sum (lhs : (⟨2, ![K, M]⟩ : Shape).Idx → EReal) (rhs : (⟨2, ![K, P]⟩ : Shape).Idx → EReal) (m : Fin M) (p : Fin P) :
    ∑ q : (tDims K M P wf).contr.Idx,
        lhs ((tDims K M P wf).lhsIdx (ix2 m p) q) * rhs ((tDims K M P wf).rhsIdx (ix2 m p) q)
      = ∑ k : Fin K, lhs (ix2 k m) * rhs (ix2 k p) := by
  rw [← Equiv.sum_comp (contrEquiv1 (tDims K M P wf) K rfl rfl).symm]
  refine Finset.sum_congr rfl fun k _ => ?_
  have hl : (tDims K M P wf).lhsIdx (ix2 m p) ((contrEquiv1 (tDims K M P wf) K rfl rfl).symm k) = ix2 k m := by
    funext a
    refine Fin.ext ?_
    match a with
    | ⟨0, _⟩ =>
      exact (DotDims.lhsIdx_val_of_single (d := tDims K M P wf) (cl := (0 : Fin 2)) rfl (ix2 m p) _).trans
        (contrEquiv1_symm_val (tDims K M P wf) K rfl rfl k)
    | ⟨1, _⟩ => rfl
  have hr : (tDims K M P wf).rhsIdx (ix2 m p) ((contrEquiv1 (tDims K M P wf) K rfl rfl).symm k) = ix2 k p := by
    funext a
    refine Fin.ext ?_
    match a with
    | ⟨0, _⟩ =>
      exact (DotDims.rhsIdx_val_of_single (d := tDims K M P wf) (cr := (0 : Fin 2)) rfl (ix2 m p) _).trans
        (contrEquiv1_symm_val (tDims K M P wf) K rfl rfl k)
    | ⟨1, _⟩ => rfl
  rw [hl, hr]

/-- The kernel's product accumulated into `acc`, read at (m, p). -/
theorem matmul_apply {φ₁ φ₂ : FTy} (prec : Option ContractPrecision) (lhs : FVec Ideal ⟨2, ![K, M]⟩ φ₁)
    (rhs : FVec Ideal ⟨2, ![K, P]⟩ φ₂) (acc : FVec Ideal ⟨2, ![M, P]⟩ .f32) (m : Fin M) (p : Fin P) :
    matmul (tDims K M P wf) prec lhs rhs acc (ix2 m p) = acc (ix2 m p) + ∑ k : Fin K, lhs (ix2 k m) * rhs (ix2 k p) :=
  (Ideal.matmul_apply (tDims K M P wf) prec lhs rhs acc (ix2 m p)).trans (congrArg (acc (ix2 m p) + ·) (contr_sum wf lhs rhs m p))

/-- Into a splat of zeros: just the sum. -/
theorem matmul_zero_apply {φ₁ φ₂ : FTy} (prec : Option ContractPrecision) (lhs : FVec Ideal ⟨2, ![K, M]⟩ φ₁)
    (rhs : FVec Ideal ⟨2, ![K, P]⟩ φ₂) (m : Fin M) (p : Fin P) :
    matmul (tDims K M P wf) prec lhs rhs (constant ⟨2, ![M, P]⟩ .f32 0x00000000#32) (ix2 m p)
      = ∑ k : Fin K, lhs (ix2 k m) * rhs (ix2 k p) :=
  (Ideal.matmul_constant_zero_apply (tDims K M P wf) prec lhs rhs (ix2 m p)).trans (contr_sum wf lhs rhs m p)

end TransposedProduct
-- ==== Proof.KernelPay.lean ====
/-
  The kernel's arithmetic read at an index, on the extended reals.

  Every value the kernel stores is one of its payloads applied to blocks it loaded. This module reads the payloads one entry at a
  time at the ideal instance: the 0/1 matrix of positive adjacency entries, a column sum over a block of 256 rows, the normalisation
  1/√(deg + 1), the two layers' products, and the final dense layer — each as an explicit finite sum.
-/
import proofs.«178039_g46316927320456_cont_sun_m_677_15_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«178039_g46316927320456_cont_sun_m_677_15_alg».proof.Proof.LibPlainProduct
import proofs.«178039_g46316927320456_cont_sun_m_677_15_alg».proof.Proof.LibTransposedProduct

noncomputable section

namespace Cert.KernelIdeal.Pay

open Idealize.ShloMosaic Idealize.ShloMosaic.ValueIdx Cert.KernelIdeal Cert.KernelIdeal.Gen

/-- The 0/1 value of an adjacency word: one when the word is positive as a signed integer. -/
def A01 (b : BitVec 32) : ℝ := if 0 < b.toInt then 1 else 0

theorem A01_nonneg (b : BitVec 32) : 0 ≤ A01 b := by unfold A01; split <;> norm_num

/-- The block of the 0/1 matrix as floats: positive entries one, the others zero. -/
theorem pay3_apply (v78 : Vec Ideal S256x2048 .i32) (i : Fin 256) (j : Fin 2048) :
    k0_pay3 (F := Ideal) v78 (ix2 i j) = ((A01 (v78 (ix2 i j)) : ℝ) : EReal) := by
  unfold k0_pay3
  simp only [sitofp_apply, extui_apply, broadcast_apply]
  show ((((BitVec.setWidth 32 (IntOp.cmpi .sgt (v78 (ix2 i j)) 0#32)).toInt : ℝ) : ℝ) : EReal) = _
  unfold A01 IntOp.cmpi
  by_cases h : 0 < (v78 (ix2 i j)).toInt
  · simp [BitVec.slt, h]
  · simp [BitVec.slt, h]

/-- Over a reduced index `c` of a matrix summed along its rows, the source index with row `k` put back is `(k, c)`. -/
theorem lift_rows {n0 n1 : ℕ} (h : (⟨2, ![n0, n1]⟩ : Shape).Reduces [0] ⟨1, ![n1]⟩) (c : Fin n1) (k : Fin n0) :
    h.lift (ix1 c) k = ix2 k c := by
  funext d
  refine Fin.ext ?_
  show h.liftVal (ix1 c) k.val d = (ix2 k c d).val
  unfold Shape.Reduces.liftVal
  match d with
  | ⟨0, _⟩ => simp
  | ⟨1, _⟩ => simp

/-- A float sum down the rows of an `n0 × n1` matrix, read at column `c`: the sum of the column's entries. -/
theorem colsum_apply {n0 n1 : ℕ} (src : FVec Ideal ⟨2, ![n0, n1]⟩ .f32) (h : (⟨2, ![n0, n1]⟩ : Shape).Reduces [0] ⟨1, ![n1]⟩)
    (hφ : FKind.Formats .f32) (hacc : (0x00000000#32 : BitVec 32) = FKind.add.neutral .f32 hφ) (c : Fin n1) :
    multiReduction .add [0] ⟨1, ![n1]⟩ src 0x00000000#32 h hφ hacc (ix1 c) = ∑ k : Fin n0, src (ix2 k c) := by
  refine (Ideal.multiReduction_add_single src 0x00000000#32 h hφ hacc (ix1 c)).trans ?_
  show ∑ k : Fin n0, src (h.lift (ix1 c) k) = _
  exact Finset.sum_congr rfl fun k _ => by rw [lift_rows]

/-! ## Layout steps -/

/-- A `[1, a]` row cast to an `[a, 1]` column reads, at `(p, u)`, the row at `p`. -/
theorem shapeCast_1a_a1_apply {α : Type} {a : ℕ} (x : (⟨2, ![1, a]⟩ : Shape).Idx → α)
    (h : (⟨2, ![1, a]⟩ : Shape).ShapeCasts ⟨2, ![a, 1]⟩) (p : Fin a) (u : Fin 1) :
    shapeCast ⟨2, ![a, 1]⟩ x h (ix2 p u) = x (ix2 (0 : Fin 1) p) :=
  shapeCast_apply x h _ _ (by
    have hu : u.val = 0 := by omega
    rw [Shape.rowMajor_val_two, Shape.rowMajor_val_two]
    show 0 * a + p.val = p.val * 1 + u.val
    omega)

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Words -/

theorem one_word : Ideal.ofBits .f32 0x3F800000#32 = ((1 : ℝ) : EReal) := by
  simp [Ideal.ofBits, Ideal.ieee, -EReal.coe_mul]; norm_num

theorem zero_word : Ideal.ofBits .f32 0x00000000#32 = (0 : EReal) := Ideal.ofBits_zero_f32

/-- A finite sum of reals, read on the extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion of reals to extended reals preserves maxima. -/
theorem coe_max (a b : ℝ) : ((max a b : ℝ) : EReal) = max (a : EReal) (b : EReal) := EReal.coe_strictMono.monotone.map_max

/-! ## Loop 1: one trip adds a block's column sums -/

theorem pay5_apply (v78 : Vec Ideal S256x2048 .i32) (v89 : Vec Ideal S1x2048 .f32) (c : Fin 2048) :
    k0_pay5 (F := Ideal) v78 v89 (ix2 (0 : Fin 1) c)
      = v89 (ix2 (0 : Fin 1) c) + ∑ i : Fin 256, ((A01 (v78 (ix2 i c)) : ℝ) : EReal) := by
  unfold k0_pay5
  simp only [shapeCast_self, addf_apply]
  refine congrArg (v89 (ix2 (0 : Fin 1) c) + ·) ?_
  refine (shapeCast_a_1a_apply _ _ (0 : Fin 1) c).trans ?_
  refine (colsum_apply _ _ _ _ c).trans ?_
  exact Finset.sum_congr rfl fun i _ => pay3_apply v78 i c

/-- The bf16 copy of the block holds the same 0/1 values. -/
theorem pay4_apply (v78 : Vec Ideal S256x2048 .i32) (i : Fin 256) (j : Fin 2048) :
    k0_pay4 (F := Ideal) v78 (ix2 i j) = ((A01 (v78 (ix2 i j)) : ℝ) : EReal) := by
  unfold k0_pay4
  simp only [shapeCast_self]
  exact pay3_apply v78 i j

/-! ## The normalisation -/

theorem pay6_apply (v5 : Vec Ideal S1x2048 .f32) (c : Fin 2048) (d : ℝ) (hd : 0 ≤ d) (h : v5 (ix2 (0 : Fin 1) c) = (d : EReal)) :
    k0_pay6 (F := Ideal) v5 (ix2 (0 : Fin 1) c) = ((1 / Real.sqrt (d + 1) : ℝ) : EReal) := by
  unfold k0_pay6
  show Ideal.div (Ideal.ofBits .f32 0x3F800000#32) (Ideal.sqrt (v5 (ix2 (0 : Fin 1) c) + Ideal.ofBits .f32 0x3F800000#32)) = _
  have hpos : 0 < Real.sqrt (d + 1) := Real.sqrt_pos.mpr (by linarith)
  rw [h, one_word, ← EReal.coe_add, Ideal.sqrt_coe, if_neg (by linarith), Ideal.div_coe (ne_of_gt hpos), ← EReal.coe_mul, one_mul]

theorem pay7_apply (v5 : Vec Ideal S1x2048 .f32) (n : Fin 2048) :
    k0_pay7 (F := Ideal) v5 (ix2 n (0 : Fin 1)) = k0_pay6 (F := Ideal) v5 (ix2 (0 : Fin 1) n) := by
  unfold k0_pay7
  simp only [shapeCast_self]
  exact shapeCast_1a_a1_apply _ _ n 0

/-! ## Loop 2: one trip adds a block's weighted column sums -/

theorem pay9_apply (v78 : Vec Ideal S256x1 .f32) (v81 : Vec Ideal S256x2048 .bf16) (v83 : Vec Ideal S1x2048 .f32) (c : Fin 2048) :
    k0_pay9 (F := Ideal) v78 v81 v83 (ix2 (0 : Fin 1) c)
      = v83 (ix2 (0 : Fin 1) c) + ∑ i : Fin 256, v81 (ix2 i c) * v78 (ix2 i (0 : Fin 1)) := by
  unfold k0_pay9
  simp only [shapeCast_self, addf_apply]
  refine congrArg (v83 (ix2 (0 : Fin 1) c) + ·) ?_
  refine (shapeCast_a_1a_apply _ _ (0 : Fin 1) c).trans ?_
  refine (colsum_apply _ _ _ _ c).trans ?_
  refine Finset.sum_congr rfl fun i _ => ?_
  rw [mulf_apply, extf_apply, broadcastTo_a1_ab_apply]

/-! ## Between the loops -/

/-- The first layer before bias and rectifier: `(dinv n · (t n + dinv n)) · w1 k`. -/
theorem pay10_apply (v5 v20 : Vec Ideal S1x2048 .f32) (v25 : Vec Ideal S1x32 .f32) (n : Fin 2048) (k : Fin 32) :
    k0_pay10 (F := Ideal) v5 v20 v25 (ix2 n k)
      = (k0_pay6 (F := Ideal) v5 (ix2 (0 : Fin 1) n) * (v20 (ix2 (0 : Fin 1) n) + k0_pay6 (F := Ideal) v5 (ix2 (0 : Fin 1) n)))
          * v25 (ix2 (0 : Fin 1) k) := by
  unfold k0_pay10
  rw [mulf_apply, broadcastTo_a1_ab_apply, broadcastTo_1b_ab_apply, shapeCast_1a_a1_apply, mulf_apply, addf_apply]

/-- The second layer: `dinv n · ∑ k, max (v28 n k + b1 k) 0 · w2 k h`. -/
theorem pay11_apply (v24 : Vec Ideal S2048x1 .f32) (v28 : FVec Ideal S2048x32 .f32) (v29 : Vec Ideal S1x32 .f32)
    (v35 : Vec Ideal S32x32 .f32) (n : Fin 2048) (h : Fin 32) :
    k0_pay11 (F := Ideal) v24 v28 v29 v35 (ix2 n h)
      = v24 (ix2 n (0 : Fin 1)) * ∑ k : Fin 32, max (v28 (ix2 n k) + v29 (ix2 (0 : Fin 1) k)) 0 * v35 (ix2 k h) := by
  unfold k0_pay11
  rw [mulf_apply, broadcastTo_a1_ab_apply]
  refine congrArg (v24 (ix2 n (0 : Fin 1)) * ·) ?_
  refine (PlainProduct.matmul_zero_apply (M := 2048) (K := 32) (P := 32) _ _ _ _ n h).trans ?_
  refine Finset.sum_congr rfl fun k _ => ?_
  rw [maximumf_apply, addf_apply, broadcast_apply, shapeCast_self, broadcastTo_1b_ab_apply]
  show max _ (Ideal.ofBits .f32 0x00000000#32) * _ = _
  rw [zero_word]

theorem pay12_apply (v24 : Vec Ideal S2048x1 .f32) (v28 : FVec Ideal S2048x32 .f32) (v29 : Vec Ideal S1x32 .f32)
    (v35 : Vec Ideal S32x32 .f32) : k0_pay12 (F := Ideal) v24 v28 v29 v35 = k0_pay11 (F := Ideal) v24 v28 v29 v35 := by
  unfold k0_pay12
  simp only [shapeCast_self]

end Cert.KernelIdeal.Pay
-- ==== Proof.Spec.lean ====
/-
  The function both programs compute, over the reals.

  `A r c ∈ {0, 1}` says whether node `r` has an edge to node `c` (the adjacency entry is positive). With a self loop at every node,
  the degree of `c` is `deg c = ∑ r, A r c + 1` and the symmetric normalisation is `dinv c = 1 / √(deg c)`. A graph
  convolution of features `x` with weights `W` and bias `b` is
      conv x c h = ∑ r, A r c · (dinv r · dinv c · (x W) r h) + dinv c · dinv c · (x W) c h + b h.
  The network applies it to the all-ones feature (one input channel: `(1 W1) r h = w1 h`), a rectifier, a second convolution, a rectifier,
  sums over the nodes, and applies a dense layer. Written with the common factors taken out of the sums, as the kernel computes it:
      t c     = ∑ r, A r c · dinv r                      alpha c = dinv c · (t c + dinv c)
      x1 n k  = max (alpha n · w1 k + b1 k) 0            y2 n h  = dinv n · ∑ k, x1 n k · w2 k h
      z c h   = ∑ r, A r c · y2 r h                      x2 c h  = max (dinv c · (z c h + y2 c h) + b2 h) 0
      pooled h = ∑ c, x2 c h                             out o   = ∑ h, pooled h · wfc h o + bfc o.
-/
import Mathlib.Analysis.SpecialFunctions.Sqrt
import Mathlib.Algebra.BigOperators.Group.Finset.Basic

noncomputable section

namespace Cert.Spec

variable (A : Fin 2048 → Fin 2048 → ℝ) (w1 b1 : Fin 32 → ℝ) (w2 : Fin 32 → Fin 32 → ℝ) (b2 : Fin 32 → ℝ)
  (wfc : Fin 32 → Fin 8 → ℝ) (bfc : Fin 8 → ℝ)

/-- The number of edges into `c` (the column sum of the 0/1 matrix). -/
def indeg (c : Fin 2048) : ℝ := ∑ r, A r c

/-- The normalisation `1 / √(indeg c + 1)`. -/
def dinv (c : Fin 2048) : ℝ := 1 / Real.sqrt (indeg A c + 1)

def t (c : Fin 2048) : ℝ := ∑ r, A r c * dinv A r

def alpha (c : Fin 2048) : ℝ := dinv A c * (t A c + dinv A c)

def x1 (n : Fin 2048) (k : Fin 32) : ℝ := max (alpha A n * w1 k + b1 k) 0

def y2 (n : Fin 2048) (h : Fin 32) : ℝ := dinv A n * ∑ k, x1 A w1 b1 n k * w2 k h

def z (c : Fin 2048) (h : Fin 32) : ℝ := ∑ r, A r c * y2 A w1 b1 w2 r h

def x2 (c : Fin 2048) (h : Fin 32) : ℝ := max (dinv A c * (z A w1 b1 w2 c h + y2 A w1 b1 w2 c h) + b2 h) 0

def pooled (h : Fin 32) : ℝ := ∑ c, x2 A w1 b1 w2 b2 c h

def out (o : Fin 8) : ℝ := ∑ h, pooled A w1 b1 w2 b2 h * wfc h o + bfc o

/-- The degree is at least one: the normalisation is a positive real. -/
theorem indeg_nonneg (hA : ∀ r c, 0 ≤ A r c) (c : Fin 2048) : 0 ≤ indeg A c :=
  Finset.sum_nonneg fun r _ => hA r c

theorem dinv_pos (hA : ∀ r c, 0 ≤ A r c) (c : Fin 2048) : 0 < dinv A c := by
  unfold dinv
  have : 0 < indeg A c + 1 := by linarith [indeg_nonneg A hA c]
  exact one_div_pos.mpr (Real.sqrt_pos.mpr this)

end Cert.Spec
-- ==== Proof.KernelMath.lean ====
/-
  The kernel's function is the specification.

  With every float input the coercion of a real, each quantity the kernel computes is the coercion of the matching real quantity of
  the specification: the running column sums of loop 1 after `k` trips are the sums over the first `256 k` rows of the 0/1 matrix;
  their total is the in-degree; the normalisation is `1 / √(deg + 1)`; loop 2's running sums are the partial sums of
  `A r c · dinv r`; the two layers follow entry by entry; the second half of the concatenated operand is `y2 − y2 = 0`, so loop 3's
  running sums are the partial sums of `A r c · y2 r h` in the first 32 columns and zero in the last 32; and the last payload is the
  dense layer over the column sums of the rectified second layer.
-/
import proofs.«178039_g46316927320456_cont_sun_m_677_15_alg».proof.Proof.KernelPay
import proofs.«178039_g46316927320456_cont_sun_m_677_15_alg».proof.Proof.KernelFun
import proofs.«178039_g46316927320456_cont_sun_m_677_15_alg».proof.Proof.Spec

noncomputable section

namespace Cert.KernelIdeal.Math

open Idealize.ShloMosaic Idealize.ShloMosaic.ValueIdx Cert.KernelIdeal Cert.KernelIdeal.Gen Cert.KernelIdeal.Pay

variable (x0 : Vec Ideal S2048x2048 .i32)

/-- The 0/1 matrix of positive adjacency entries. -/
def A (r c : Fin 2048) : ℝ := A01 (x0 (ix2 r c))

theorem A_nonneg (r c : Fin 2048) : 0 ≤ A x0 r c := A01_nonneg _

/-- The same with the row a natural number, zero past the last row. -/
def An (r : ℕ) (c : Fin 2048) : ℝ := if h : r < 2048 then A x0 ⟨r, h⟩ c else 0

theorem sum_An (g : ℕ → ℝ) (c : Fin 2048) :
    ∑ r ∈ Finset.range 2048, An x0 r c * g r = ∑ r : Fin 2048, A x0 r c * g r.val := by
  rw [← Fin.sum_univ_eq_sum_range (fun r => An x0 r c * g r) 2048]
  refine Finset.sum_congr rfl fun r _ => ?_
  unfold An
  rw [dif_pos r.isLt]

/-! ## Chunks -/

theorem rows2048_apply {e : EltTy} (X : Vec Ideal S2048x2048 e) (k : Fin 8) (i : Fin 256) (j : Fin 2048) :
    Fun.rows2048 (F := Ideal) X k (ix2 i j) = X (ix2 ⟨256 * k.val + i.val, by omega⟩ j) := by
  unfold Fun.rows2048
  show X _ = X _
  congr 1
  funext a
  refine Fin.ext ?_
  match a with
  | ⟨0, _⟩ => show 256 * k.val + 1 * i.val = 256 * k.val + i.val; omega
  | ⟨1, _⟩ => show 0 + 1 * j.val = j.val; omega

theorem rows1_apply {e : EltTy} (X : Vec Ideal S2048x1 e) (k : Fin 8) (i : Fin 256) :
    Fun.rows1 (F := Ideal) X k (ix2 i (0 : Fin 1)) = X (ix2 ⟨256 * k.val + i.val, by omega⟩ (0 : Fin 1)) := by
  unfold Fun.rows1
  show X _ = X _
  congr 1
  funext a
  refine Fin.ext ?_
  match a with
  | ⟨0, _⟩ => show 256 * k.val + 1 * i.val = 256 * k.val + i.val; omega
  | ⟨1, _⟩ => show 0 + 1 * 0 = 0; omega

theorem rows64_apply {e : EltTy} (X : Vec Ideal S2048x64 e) (k : Fin 8) (i : Fin 256) (j : Fin 64) :
    Fun.rows64 (F := Ideal) X k (ix2 i j) = X (ix2 ⟨256 * k.val + i.val, by omega⟩ j) := by
  unfold Fun.rows64
  show X _ = X _
  congr 1
  funext a
  refine Fin.ext ?_
  match a with
  | ⟨0, _⟩ => show 256 * k.val + 1 * i.val = 256 * k.val + i.val; omega
  | ⟨1, _⟩ => show 0 + 1 * j.val = j.val; omega

/-! ## Loop 1 -/

theorem pay2_apply (c : Fin 2048) : k0_pay2 (F := Ideal) (ix2 (0 : Fin 1) c) = (0 : EReal) := by
  unfold k0_pay2
  simp only [shapeCast_self, broadcast_apply]
  exact zero_word

theorem degAcc_apply (k : ℕ) (hk : k ≤ 8) (c : Fin 2048) :
    Fun.degAcc (F := Ideal) x0 k (ix2 (0 : Fin 1) c) = ((∑ r ∈ Finset.range (256 * k), An x0 r c : ℝ) : EReal) := by
  induction k with
  | zero =>
    show k0_pay2 (F := Ideal) (ix2 (0 : Fin 1) c) = _
    rw [pay2_apply]; simp
  | succ k ih =>
    have hk' : k < 8 := hk
    have e : Fun.degAcc (F := Ideal) x0 (k + 1) = k0_pay5 (Fun.rows2048 x0 ⟨k, hk'⟩) (Fun.degAcc x0 k) := by
      show (if h : k < 8 then _ else _) = _
      rw [dif_pos hk']
    rw [e, pay5_apply, ih (le_of_lt hk'), show 256 * (k + 1) = 256 * k + 256 by ring, Finset.sum_range_add, EReal.coe_add, coe_sum]
    refine congrArg (_ + ·) ?_
    rw [coe_sum, ← Fin.sum_univ_eq_sum_range (fun i => ((An x0 (256 * k + i) c : ℝ) : EReal)) 256]
    refine Finset.sum_congr rfl fun i _ => ?_
    rw [rows2048_apply]
    unfold An A
    rw [dif_pos (by have := i.isLt; omega)]

theorem deg_apply (c : Fin 2048) : Fun.deg (F := Ideal) x0 (ix2 (0 : Fin 1) c) = ((Spec.indeg (A x0) c : ℝ) : EReal) := by
  unfold Fun.deg
  rw [degAcc_apply x0 8 le_rfl c]
  refine congrArg _ ?_
  have := sum_An x0 (fun _ => 1) c
  simp only [mul_one] at this
  exact this

theorem dcol_apply (n : Fin 2048) : Fun.dcol (F := Ideal) x0 (ix2 n (0 : Fin 1)) = ((Spec.dinv (A x0) n : ℝ) : EReal) := by
  unfold Fun.dcol
  rw [pay7_apply, pay6_apply _ n _ (Spec.indeg_nonneg (A x0) (A_nonneg x0) n) (deg_apply x0 n)]
  rfl

theorem abfRows_apply (k : Fin 8) (i : Fin 256) (c : Fin 2048) :
    Fun.abfRows (F := Ideal) x0 k (ix2 i c) = ((An x0 (256 * k.val + i.val) c : ℝ) : EReal) := by
  unfold Fun.abfRows
  rw [pay4_apply, rows2048_apply]
  unfold An A
  rw [dif_pos (by have := i.isLt; have := k.isLt; omega)]

/-! ## Loop 2 -/

/-- The normalisation with the node a natural number, zero past the last node. -/
def dinvn (r : ℕ) : ℝ := if h : r < 2048 then Spec.dinv (A x0) ⟨r, h⟩ else 0

theorem pay8_apply (c : Fin 2048) : k0_pay8 (F := Ideal) (ix2 (0 : Fin 1) c) = (0 : EReal) := by
  unfold k0_pay8
  simp only [shapeCast_self, broadcast_apply]
  exact zero_word

theorem tAcc_apply (k : ℕ) (hk : k ≤ 8) (c : Fin 2048) :
    Fun.tAcc (F := Ideal) x0 k (ix2 (0 : Fin 1) c)
      = ((∑ r ∈ Finset.range (256 * k), An x0 r c * dinvn x0 r : ℝ) : EReal) := by
  induction k with
  | zero =>
    show k0_pay8 (F := Ideal) (ix2 (0 : Fin 1) c) = _
    rw [pay8_apply]; simp
  | succ k ih =>
    have hk' : k < 8 := hk
    have e : Fun.tAcc (F := Ideal) x0 (k + 1)
        = k0_pay9 (Fun.rows1 (e := .f32) (Fun.dcol x0) ⟨k, hk'⟩) (Fun.abfRows x0 ⟨k, hk'⟩) (Fun.tAcc x0 k) := by
      show (if h : k < 8 then _ else _) = _
      rw [dif_pos hk']
    rw [e, pay9_apply, ih (le_of_lt hk'), show 256 * (k + 1) = 256 * k + 256 by ring, Finset.sum_range_add, EReal.coe_add, coe_sum]
    refine congrArg (_ + ·) ?_
    rw [coe_sum, ← Fin.sum_univ_eq_sum_range (fun i => ((An x0 (256 * k + i) c * dinvn x0 (256 * k + i) : ℝ) : EReal)) 256]
    refine Finset.sum_congr rfl fun i _ => ?_
    rw [abfRows_apply, rows1_apply, dcol_apply, ← EReal.coe_mul]
    unfold dinvn
    rw [dif_pos (by have := i.isLt; omega)]

theorem t_apply (c : Fin 2048) : Fun.t (F := Ideal) x0 (ix2 (0 : Fin 1) c) = ((Spec.t (A x0) c : ℝ) : EReal) := by
  unfold Fun.t
  rw [tAcc_apply x0 8 le_rfl c]
  refine congrArg _ ?_
  rw [sum_An x0 (dinvn x0) c]
  unfold Spec.t
  refine Finset.sum_congr rfl fun r _ => ?_
  unfold dinvn
  rw [dif_pos r.isLt]

/-! ## The two layers -/

section Layers

variable (x1 x2 : Vec Ideal S1x32 .f32) (x3 : Vec Ideal S32x32 .f32) (x4 : Vec Ideal S1x32 .f32) (x5 : Vec Ideal S32x8 .f32)
  (x6 : Vec Ideal S1x8 .f32)
variable (w1 b1 : Fin 32 → ℝ) (w2 : Fin 32 → Fin 32 → ℝ) (b2 : Fin 32 → ℝ) (wfc : Fin 32 → Fin 8 → ℝ) (bfc : Fin 8 → ℝ)

theorem h1_apply (h1w : ∀ k, x1 (ix2 (0 : Fin 1) k) = ((w1 k : ℝ) : EReal)) (n : Fin 2048) (k : Fin 32) :
    Fun.h1 (F := Ideal) x0 x1 (ix2 n k) = ((Spec.alpha (A x0) n * w1 k : ℝ) : EReal) := by
  unfold Fun.h1
  have hd : k0_pay6 (F := Ideal) (Fun.deg x0) (ix2 (0 : Fin 1) n) = ((Spec.dinv (A x0) n : ℝ) : EReal) := by
    rw [pay6_apply _ n _ (Spec.indeg_nonneg (A x0) (A_nonneg x0) n) (deg_apply x0 n)]; rfl
  rw [pay10_apply, hd, t_apply, h1w k, ← EReal.coe_add, ← EReal.coe_mul, ← EReal.coe_mul]
  rfl

theorem y2_apply (h1w : ∀ k, x1 (ix2 (0 : Fin 1) k) = ((w1 k : ℝ) : EReal)) (h2w : ∀ k, x2 (ix2 (0 : Fin 1) k) = ((b1 k : ℝ) : EReal))
    (h3w : ∀ k h, x3 (ix2 k h) = ((w2 k h : ℝ) : EReal)) (n : Fin 2048) (h : Fin 32) :
    Fun.y2 (F := Ideal) x0 x1 x2 x3 (ix2 n h) = ((Spec.y2 (A x0) w1 b1 w2 n h : ℝ) : EReal) := by
  unfold Fun.y2
  rw [pay12_apply, pay11_apply, dcol_apply]
  unfold Spec.y2
  rw [EReal.coe_mul, coe_sum]
  refine congrArg (_ * ·) (Finset.sum_congr rfl fun k _ => ?_)
  rw [h1_apply x0 x1 w1 h1w n k, h2w k, h3w k h, ← EReal.coe_add, ← EReal.coe_zero, ← coe_max, ← EReal.coe_mul]
  rfl

/-- The concatenated operand: the second layer in its first 32 columns, zero in its last 32. -/
theorem ycat_lo (h1w : ∀ k, x1 (ix2 (0 : Fin 1) k) = ((w1 k : ℝ) : EReal)) (h2w : ∀ k, x2 (ix2 (0 : Fin 1) k) = ((b1 k : ℝ) : EReal))
    (h3w : ∀ k h, x3 (ix2 k h) = ((w2 k h : ℝ) : EReal)) (n : Fin 2048) (h : Fin 32) :
    Fun.ycat (F := Ideal) x0 x1 x2 x3 (ix2 n (⟨h.val, by omega⟩ : Fin 64)) = ((Spec.y2 (A x0) w1 b1 w2 n h : ℝ) : EReal) := by
  unfold Fun.ycat k0_pay13
  simp only [shapeCast_self]
  refine (concatenate_pair_apply_left (t := S2048x64) (s₁ := S2048x32) (s₂ := S2048x32) (1 : Fin 2) _ _ _ (ix2 n (⟨h.val, by omega⟩ : Fin 64)) rfl (ix2 n h) (fun b => ?_)).trans ?_
  · match b with
    | ⟨0, _⟩ => rfl
    | ⟨1, _⟩ => rfl
  · rw [truncf_apply]
    have := y2_apply x0 x1 x2 x3 w1 b1 w2 h1w h2w h3w n h
    unfold Fun.y2 at this
    rw [pay12_apply] at this
    exact this

theorem ycat_hi (h1w : ∀ k, x1 (ix2 (0 : Fin 1) k) = ((w1 k : ℝ) : EReal)) (h2w : ∀ k, x2 (ix2 (0 : Fin 1) k) = ((b1 k : ℝ) : EReal))
    (h3w : ∀ k h, x3 (ix2 k h) = ((w2 k h : ℝ) : EReal)) (n : Fin 2048) (h : Fin 32) :
    Fun.ycat (F := Ideal) x0 x1 x2 x3 (ix2 n (⟨32 + h.val, by omega⟩ : Fin 64)) = (0 : EReal) := by
  unfold Fun.ycat k0_pay13
  simp only [shapeCast_self]
  refine (concatenate_pair_apply_right (t := S2048x64) (s₁ := S2048x32) (s₂ := S2048x32) (1 : Fin 2) _ _ _ (ix2 n (⟨32 + h.val, by omega⟩ : Fin 64)) rfl rfl (ix2 n h) (fun b hb => ?_) ?_).trans ?_
  · match b with
    | ⟨0, _⟩ => rfl
    | ⟨1, _⟩ => exact absurd rfl hb
  · show h.val + 32 = 32 + h.val; omega
  · rw [truncf_apply, subf_apply]
    have := y2_apply x0 x1 x2 x3 w1 b1 w2 h1w h2w h3w n h
    unfold Fun.y2 at this
    rw [pay12_apply] at this
    rw [this, ← EReal.coe_sub, sub_self, EReal.coe_zero]

/-! ## Loop 3 -/

/-- The concatenated operand as reals, the row a natural number. -/
def Yn (r : ℕ) (j : Fin 64) : ℝ :=
  if h : r < 2048 then (if hj : j.val < 32 then Spec.y2 (A x0) w1 b1 w2 ⟨r, h⟩ ⟨j.val, hj⟩ else 0) else 0

theorem ycat_apply (h1w : ∀ k, x1 (ix2 (0 : Fin 1) k) = ((w1 k : ℝ) : EReal)) (h2w : ∀ k, x2 (ix2 (0 : Fin 1) k) = ((b1 k : ℝ) : EReal))
    (h3w : ∀ k h, x3 (ix2 k h) = ((w2 k h : ℝ) : EReal)) (n : Fin 2048) (j : Fin 64) :
    Fun.ycat (F := Ideal) x0 x1 x2 x3 (ix2 n j) = ((Yn x0 w1 b1 w2 n.val j : ℝ) : EReal) := by
  unfold Yn
  rw [dif_pos n.isLt]
  by_cases hj : j.val < 32
  · rw [dif_pos hj]
    exact ycat_lo x0 x1 x2 x3 w1 b1 w2 h1w h2w h3w n ⟨j.val, hj⟩
  · rw [dif_neg hj, EReal.coe_zero]
    have e : j = (⟨32 + (j.val - 32), by have := j.isLt; omega⟩ : Fin 64) := Fin.ext (by show j.val = 32 + (j.val - 32); omega)
    rw [e]
    exact ycat_hi x0 x1 x2 x3 w1 b1 w2 h1w h2w h3w n ⟨j.val - 32, by have := j.isLt; omega⟩

theorem pay14_apply (c : Fin 2048) (j : Fin 64) : k0_pay14 (F := Ideal) (ix2 c j) = (0 : EReal) := by
  unfold k0_pay14
  simp only [shapeCast_self, broadcast_apply]
  exact zero_word

theorem pay15_apply (v76 : Vec Ideal S2048x64 .f32) (v79 : Vec Ideal S256x2048 .bf16) (v82 : Vec Ideal S256x64 .bf16)
    (c : Fin 2048) (j : Fin 64) :
    k0_pay15 (F := Ideal) v76 v79 v82 (ix2 c j) = v76 (ix2 c j) + ∑ i : Fin 256, v79 (ix2 i c) * v82 (ix2 i j) := by
  unfold k0_pay15
  simp only [shapeCast_self, addf_apply]
  refine congrArg (v76 (ix2 c j) + ·) ?_
  exact TransposedProduct.matmul_zero_apply (K := 256) (M := 2048) (P := 64) _ _ _ _ c j

theorem zAcc_apply (h1w : ∀ k, x1 (ix2 (0 : Fin 1) k) = ((w1 k : ℝ) : EReal)) (h2w : ∀ k, x2 (ix2 (0 : Fin 1) k) = ((b1 k : ℝ) : EReal))
    (h3w : ∀ k h, x3 (ix2 k h) = ((w2 k h : ℝ) : EReal)) (k : ℕ) (hk : k ≤ 8) (c : Fin 2048) (j : Fin 64) :
    Fun.zAcc (F := Ideal) x0 x1 x2 x3 k (ix2 c j)
      = ((∑ r ∈ Finset.range (256 * k), An x0 r c * Yn x0 w1 b1 w2 r j : ℝ) : EReal) := by
  induction k with
  | zero =>
    show k0_pay14 (F := Ideal) (ix2 c j) = _
    rw [pay14_apply]; simp
  | succ k ih =>
    have hk' : k < 8 := hk
    have e : Fun.zAcc (F := Ideal) x0 x1 x2 x3 (k + 1)
        = k0_pay15 (Fun.zAcc x0 x1 x2 x3 k) (Fun.abfRows x0 ⟨k, hk'⟩) (Fun.rows64 (e := .bf16) (Fun.ycat x0 x1 x2 x3) ⟨k, hk'⟩) := by
      show (if h : k < 8 then _ else _) = _
      rw [dif_pos hk']
    rw [e, pay15_apply, ih (le_of_lt hk'), show 256 * (k + 1) = 256 * k + 256 by ring, Finset.sum_range_add, EReal.coe_add, coe_sum]
    refine congrArg (_ + ·) ?_
    rw [coe_sum, ← Fin.sum_univ_eq_sum_range (fun i => ((An x0 (256 * k + i) c * Yn x0 w1 b1 w2 (256 * k + i) j : ℝ) : EReal)) 256]
    refine Finset.sum_congr rfl fun i _ => ?_
    rw [abfRows_apply, rows64_apply, ycat_apply x0 x1 x2 x3 w1 b1 w2 h1w h2w h3w, ← EReal.coe_mul]

theorem z_apply (h1w : ∀ k, x1 (ix2 (0 : Fin 1) k) = ((w1 k : ℝ) : EReal)) (h2w : ∀ k, x2 (ix2 (0 : Fin 1) k) = ((b1 k : ℝ) : EReal))
    (h3w : ∀ k h, x3 (ix2 k h) = ((w2 k h : ℝ) : EReal)) (c : Fin 2048) (j : Fin 64) :
    Fun.z (F := Ideal) x0 x1 x2 x3 (ix2 c j) = ((∑ r : Fin 2048, A x0 r c * Yn x0 w1 b1 w2 r.val j : ℝ) : EReal) := by
  unfold Fun.z
  rw [zAcc_apply x0 x1 x2 x3 w1 b1 w2 h1w h2w h3w 8 le_rfl c j, sum_An x0 (fun r => Yn x0 w1 b1 w2 r j) c]

theorem zLo_apply (h1w : ∀ k, x1 (ix2 (0 : Fin 1) k) = ((w1 k : ℝ) : EReal)) (h2w : ∀ k, x2 (ix2 (0 : Fin 1) k) = ((b1 k : ℝ) : EReal))
    (h3w : ∀ k h, x3 (ix2 k h) = ((w2 k h : ℝ) : EReal)) (c : Fin 2048) (h : Fin 32) :
    Fun.zLo (F := Ideal) x0 x1 x2 x3 (ix2 c h) = ((Spec.z (A x0) w1 b1 w2 c h : ℝ) : EReal) := by
  unfold Fun.zLo
  have e : (View.ld (Val := Elt Ideal) (e' := .f32) (Fun.z x0 x1 x2 x3)
      (Rect.unit (s := S2048x64) ![0, 0] S2048x32.size inb_S2048x64_S2048x32_0_0)) (ix2 c h)
      = Fun.z (F := Ideal) x0 x1 x2 x3 (ix2 c (⟨h.val, by omega⟩ : Fin 64)) := by
    show Fun.z x0 x1 x2 x3 _ = Fun.z x0 x1 x2 x3 _
    congr 1
    funext a
    refine Fin.ext ?_
    match a with
    | ⟨0, _⟩ => show 0 + 1 * c.val = c.val; omega
    | ⟨1, _⟩ => show 0 + 1 * h.val = h.val; omega
  rw [e, z_apply x0 x1 x2 x3 w1 b1 w2 h1w h2w h3w]
  refine congrArg _ ?_
  unfold Spec.z
  refine Finset.sum_congr rfl fun r _ => ?_
  unfold Yn
  rw [dif_pos r.isLt, dif_pos h.isLt]

theorem zHi_apply (h1w : ∀ k, x1 (ix2 (0 : Fin 1) k) = ((w1 k : ℝ) : EReal)) (h2w : ∀ k, x2 (ix2 (0 : Fin 1) k) = ((b1 k : ℝ) : EReal))
    (h3w : ∀ k h, x3 (ix2 k h) = ((w2 k h : ℝ) : EReal)) (c : Fin 2048) (h : Fin 32) :
    Fun.zHi (F := Ideal) x0 x1 x2 x3 (ix2 c h) = (0 : EReal) := by
  unfold Fun.zHi
  have e : (View.ld (Val := Elt Ideal) (e' := .f32) (Fun.z x0 x1 x2 x3)
      (Rect.unit (s := S2048x64) ![0, 32] S2048x32.size inb_S2048x64_S2048x32_0_32)) (ix2 c h)
      = Fun.z (F := Ideal) x0 x1 x2 x3 (ix2 c (⟨32 + h.val, by omega⟩ : Fin 64)) := by
    show Fun.z x0 x1 x2 x3 _ = Fun.z x0 x1 x2 x3 _
    congr 1
    funext a
    refine Fin.ext ?_
    match a with
    | ⟨0, _⟩ => show 0 + 1 * c.val = c.val; omega
    | ⟨1, _⟩ => show 32 + 1 * h.val = 32 + h.val; omega
  rw [e, z_apply x0 x1 x2 x3 w1 b1 w2 h1w h2w h3w, ← EReal.coe_zero]
  refine congrArg _ ?_
  refine Finset.sum_eq_zero fun r _ => ?_
  unfold Yn
  rw [dif_pos r.isLt, dif_neg (by show ¬ (32 + h.val < 32); omega), mul_zero]

/-! ## The output -/

theorem agg_apply (h1w : ∀ k, x1 (ix2 (0 : Fin 1) k) = ((w1 k : ℝ) : EReal)) (h2w : ∀ k, x2 (ix2 (0 : Fin 1) k) = ((b1 k : ℝ) : EReal))
    (h3w : ∀ k h, x3 (ix2 k h) = ((w2 k h : ℝ) : EReal)) (c : Fin 2048) (h : Fin 32) :
    Fun.agg (F := Ideal) x0 x1 x2 x3 (ix2 c h)
      = ((Spec.dinv (A x0) c * (Spec.z (A x0) w1 b1 w2 c h + Spec.y2 (A x0) w1 b1 w2 c h) : ℝ) : EReal) := by
  unfold Fun.agg k0_pay16
  rw [mulf_apply, broadcastTo_a1_ab_apply, addf_apply, addf_apply, dcol_apply, zLo_apply x0 x1 x2 x3 w1 b1 w2 h1w h2w h3w,
    zHi_apply x0 x1 x2 x3 w1 b1 w2 h1w h2w h3w, y2_apply x0 x1 x2 x3 w1 b1 w2 h1w h2w h3w, add_zero, ← EReal.coe_add, ← EReal.coe_mul]

theorem out_apply (h1w : ∀ k, x1 (ix2 (0 : Fin 1) k) = ((w1 k : ℝ) : EReal)) (h2w : ∀ k, x2 (ix2 (0 : Fin 1) k) = ((b1 k : ℝ) : EReal))
    (h3w : ∀ k h, x3 (ix2 k h) = ((w2 k h : ℝ) : EReal)) (h4w : ∀ k, x4 (ix2 (0 : Fin 1) k) = ((b2 k : ℝ) : EReal))
    (h5w : ∀ h o, x5 (ix2 h o) = ((wfc h o : ℝ) : EReal)) (h6w : ∀ o, x6 (ix2 (0 : Fin 1) o) = ((bfc o : ℝ) : EReal)) (o : Fin 8) :
    Fun.out (F := Ideal) x0 x1 x2 x3 x4 x5 x6 (ix2 (0 : Fin 1) o) = ((Spec.out (A x0) w1 b1 w2 b2 wfc bfc o : ℝ) : EReal) := by
  unfold Fun.out k0_pay1
  simp only [shapeCast_self]
  rw [addf_apply, h6w o]
  unfold Spec.out
  rw [EReal.coe_add, coe_sum]
  refine congrArg (· + _) ?_
  refine (PlainProduct.matmul_zero_apply (M := 1) (K := 32) (P := 8) _ _ _ _ (0 : Fin 1) o).trans ?_
  refine Finset.sum_congr rfl fun h _ => ?_
  rw [h5w h o, EReal.coe_mul]
  refine congrArg (· * _) ?_
  refine (shapeCast_a_1a_apply _ _ (0 : Fin 1) h).trans ?_
  refine (colsum_apply _ _ _ _ h).trans ?_
  unfold Spec.pooled
  rw [coe_sum]
  refine Finset.sum_congr rfl fun c _ => ?_
  rw [maximumf_apply, addf_apply, broadcast_apply, broadcastTo_1b_ab_apply, h4w h,
    agg_apply x0 x1 x2 x3 w1 b1 w2 h1w h2w h3w c h]
  show max _ (Ideal.ofBits .f32 0x00000000#32) = _
  rw [zero_word, ← EReal.coe_add, ← EReal.coe_zero, ← coe_max]
  rfl

end Layers

end Cert.KernelIdeal.Math
-- ==== Proof.Finite.lean ====
/-
  What the precondition gives: every entry of every float input is a real number.

  The precondition is the conjunction, over the six float inputs, of "every entry's absolute value is below the word of +∞". On the
  extended reals that word is `⊤`, the absolute value is `max x (-x)`, and `max x (-x) < ⊤` excludes both infinities: the entry is the
  coercion of a real.
-/
import proofs.«178039_g46316927320456_cont_sun_m_677_15_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.Pre_finite_inputs Cert.Pre_finite_inputs.Gen

/-- The f32 word of +∞ is the top of the extended reals. -/
theorem top_word : Ideal.ofBits .f32 0x7F800000#32 = (⊤ : EReal) := by simp [Ideal.ofBits, Ideal.ieee]

/-- An extended real whose absolute value is below `⊤` is a real. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

instance : Subsingleton S_.Idx := ⟨fun a b => funext fun d => d.elim0⟩

/-- One conjunct of the precondition: a `jnp.all (|x| < +∞)` that is one makes every entry of `x` a real. -/
theorem reals_of_all {s : Shape} {axes : List (Fin s.rank)} (x : FVec Ideal s .f32) (hb : S_.BroadcastsInDim s (![] : Fin 0 → Fin s.rank))
    (hr : s.ReducesTo axes S_) (hu : 0 < S_.numel) (c : IVec S_ 1)
    (h : Host.reduce IntOp.andi (cmpf .olt (Host.absf x) (broadcastInDim s ![] hb (constant (F := Ideal) S_ .f32 0x7F800000#32))) c hr hu ix0 = 1#1)
    (i : s.Idx) : ∃ r : ℝ, x i = (r : EReal) := by
  have h1 := Host.reduce_andi_all _ c hr hu ix0 h i
  refine real_of_abs_lt_top (x i) ?_
  rw [← top_word]
  exact h1

/-- The precondition makes every entry of the six float inputs a real. -/
theorem reals_of_pre [Cert.Pre_finite_inputs.Facts] (a0 : IVec S2048x2048 32) (a1 : FVec Ideal S1x32 .f32) (a2 : FVec Ideal S32 .f32)
    (a3 : FVec Ideal S32x32 .f32) (a4 : FVec Ideal S32 .f32) (a5 : FVec Ideal S32x8 .f32) (a6 : FVec Ideal S8 .f32)
    (h : fn (F := Ideal) a0 a1 a2 a3 a4 a5 a6 = fun _ => 1#1) :
    (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) := by
  have h0 := congrFun h ix0
  dsimp only [fn, fn_part1] at h0
  simp only [andi, IntOp.andi_eq_one] at h0
  obtain ⟨⟨⟨⟨⟨h1, h2⟩, h3⟩, h4⟩, h5⟩, h6⟩ := h0
  exact ⟨reals_of_all a1 _ _ _ _ h1, reals_of_all a2 _ _ _ _ h2, reals_of_all a3 _ _ _ _ h3, reals_of_all a4 _ _ _ _ h4,
    reals_of_all a5 _ _ _ _ h5, reals_of_all a6 _ _ _ _ h6⟩

/-- The same with the reals chosen: each float input is the coercion of a real array. -/
theorem arrays_of_pre [Cert.Pre_finite_inputs.Facts] (a0 : IVec S2048x2048 32) (a1 : FVec Ideal S1x32 .f32) (a2 : FVec Ideal S32 .f32)
    (a3 : FVec Ideal S32x32 .f32) (a4 : FVec Ideal S32 .f32) (a5 : FVec Ideal S32x8 .f32) (a6 : FVec Ideal S8 .f32)
    (h : fn (F := Ideal) a0 a1 a2 a3 a4 a5 a6 = fun _ => 1#1) :
    ∃ (w1r : S1x32.Idx → ℝ) (b1r : S32.Idx → ℝ) (w2r : S32x32.Idx → ℝ) (b2r : S32.Idx → ℝ) (wfcr : S32x8.Idx → ℝ) (bfcr : S8.Idx → ℝ),
      a1 = (fun i => ((w1r i : ℝ) : EReal)) ∧ a2 = (fun i => ((b1r i : ℝ) : EReal)) ∧ a3 = (fun i => ((w2r i : ℝ) : EReal))
        ∧ a4 = (fun i => ((b2r i : ℝ) : EReal)) ∧ a5 = (fun i => ((wfcr i : ℝ) : EReal)) ∧ a6 = (fun i => ((bfcr i : ℝ) : EReal)) := by
  obtain ⟨h1, h2, h3, h4, h5, h6⟩ := reals_of_pre a0 a1 a2 a3 a4 a5 a6 h
  choose w1r e1 using h1
  choose b1r e2 using h2
  choose w2r e3 using h3
  choose b2r e4 using h4
  choose wfcr e5 using h5
  choose bfcr e6 using h6
  exact ⟨w1r, b1r, w2r, b2r, wfcr, bfcr, funext e1, funext e2, funext e3, funext e4, funext e5, funext e6⟩

end Cert.Finite
-- ==== Proof.EdgeSpec.lean ====
/-
  What the reference's two index arrays hold, stated once for both halves of the argument.

  The reference lists the positive entries of the 2048×2048 matrix in row-major order: the flat position `i = 2048·r + c` holds a
  positive entry when `adj r c > 0`. With `total` such positions, slot `e` of the row array and of the column array hold the row and
  the column of the `e`-th positive position (counting from zero) when `e < total`, and the fill value 2048 — one past the last node —
  in every later slot.
-/
import Idealize.ShloMosaic.Lib.ValueIdx
import Mathlib.Data.Nat.Nth

noncomputable section

namespace Cert.EdgeSpec

open Idealize.ShloMosaic Idealize.ShloMosaic.ValueIdx

/-- The adjacency entry at row `r`, column `c` is positive (read as a signed 32-bit integer). -/
def Pos (a0 : (⟨2, ![2048, 2048]⟩ : Shape).Idx → BitVec 32) (r c : Fin 2048) : Prop := 0 < (a0 (ix2 r c)).toInt

/-- The flat position `i` (row-major) lies in the matrix and holds a positive entry. -/
def PosAt (a0 : (⟨2, ![2048, 2048]⟩ : Shape).Idx → BitVec 32) (i : ℕ) : Prop :=
  ∃ h : i < 4194304, Pos a0 ⟨i / 2048, by omega⟩ ⟨i % 2048, Nat.mod_lt _ (by decide)⟩

instance (a0 : (⟨2, ![2048, 2048]⟩ : Shape).Idx → BitVec 32) : DecidablePred (PosAt a0) := fun _ => Classical.propDecidable _

/-- The number of positive entries. -/
def total (a0 : (⟨2, ![2048, 2048]⟩ : Shape).Idx → BitVec 32) : ℕ := Nat.count (PosAt a0) 4194304

/-- The row and column arrays list the positive positions in order, then the fill value. -/
structure Lists (a0 : (⟨2, ![2048, 2048]⟩ : Shape).Idx → BitVec 32)
    (row col : (⟨1, ![4194304]⟩ : Shape).Idx → BitVec 32) : Prop where
  /-- a slot below the count holds the row and column of that positive position -/
  listed : ∀ e : Fin 4194304, e.val < total a0 →
    (row (ix1 e)).toNat = Nat.nth (PosAt a0) e.val / 2048 ∧ (col (ix1 e)).toNat = Nat.nth (PosAt a0) e.val % 2048
  /-- a slot from the count on holds the fill value -/
  filled : ∀ e : Fin 4194304, total a0 ≤ e.val → row (ix1 e) = 2048#32 ∧ col (ix1 e) = 2048#32

end Cert.EdgeSpec
-- ==== Proof.Meet.lean ====
/-
  The common value of the two programs, as one function of the argument arrays.

  Under the precondition every float input entry is the coercion of a real, namely of its own real part. Reading the adjacency
  array as the 0/1 matrix of its positive entries and each float array through its real parts, both programs' one result is, at
  (0, o), the coercion of the specification's `out o`.
-/
import proofs.«178039_g46316927320456_cont_sun_m_677_15_alg».proof.Proof.Spec
import proofs.«178039_g46316927320456_cont_sun_m_677_15_alg».proof.Proof.EdgeSpec
import Idealize.ShloMosaic.Lib.ValueIdx
import Mathlib.Data.EReal.Basic

noncomputable section

namespace Cert.Meet

open Idealize.ShloMosaic Idealize.ShloMosaic.ValueIdx

/-- Positivity of an adjacency word is decided by comparing integers. -/
instance (a0 : (⟨2, ![2048, 2048]⟩ : Shape).Idx → BitVec 32) (r c : Fin 2048) : Decidable (Cert.EdgeSpec.Pos a0 r c) := by
  unfold Cert.EdgeSpec.Pos; infer_instance

/-- The 0/1 matrix of the positive adjacency entries. -/
def Amat (a0 : (⟨2, ![2048, 2048]⟩ : Shape).Idx → BitVec 32) (r c : Fin 2048) : ℝ := if Cert.EdgeSpec.Pos a0 r c then 1 else 0

/-- The real parts of an array of extended reals. -/
def re {s : Shape} (x : s.Idx → EReal) (i : s.Idx) : ℝ := (x i).toReal

/-- An array all of whose entries are reals is the coercion of its real parts. -/
theorem eq_coe_re {s : Shape} (x : s.Idx → EReal) (h : ∀ i, ∃ r : ℝ, x i = (r : EReal)) : x = fun i => ((re x i : ℝ) : EReal) := by
  funext i
  obtain ⟨r, hr⟩ := h i
  unfold re
  rw [hr, EReal.toReal_coe]

/-- The common result: the specification's output on the arrays' real parts, at every index of the 1 × 8 result. -/
def G (a0 : (⟨2, ![2048, 2048]⟩ : Shape).Idx → BitVec 32) (a1 : (⟨2, ![1, 32]⟩ : Shape).Idx → EReal) (a2 : (⟨1, ![32]⟩ : Shape).Idx → EReal)
    (a3 : (⟨2, ![32, 32]⟩ : Shape).Idx → EReal) (a4 : (⟨1, ![32]⟩ : Shape).Idx → EReal) (a5 : (⟨2, ![32, 8]⟩ : Shape).Idx → EReal)
    (a6 : (⟨1, ![8]⟩ : Shape).Idx → EReal) : (⟨2, ![1, 8]⟩ : Shape).Idx → EReal :=
  fun i => ((Cert.Spec.out (Amat a0) (fun k => re a1 (ix2 (0 : Fin 1) k)) (fun k => re a2 (ix1 k)) (fun k h => re a3 (ix2 k h))
    (fun h => re a4 (ix1 h)) (fun h o => re a5 (ix2 h o)) (fun o => re a6 (ix1 o)) (i 1) : ℝ) : EReal)

end Cert.Meet
-- ==== Proof.KernelFinal.lean ====
/-
  The kernel's run ends with the common value.

  The idealized kernel's one result is the kernel function of its seven staged blocks: the adjacency, W1, W2 and Wfc arrays as they
  are, and b1, b2, bfc reshaped by the host from [32], [32], [8] to [1, 32], [1, 32], [1, 8]. Under the precondition every float
  entry is the coercion of its real part, a reshaped vector's entry (0, k) is the vector's entry k, and the kernel function of such
  blocks is, at (0, o), the coercion of the specification's output: the common value `G` of the seven argument arrays.
-/
import proofs.«178039_g46316927320456_cont_sun_m_677_15_alg».proof.Defs
import proofs.«178039_g46316927320456_cont_sun_m_677_15_alg».proof.Proof.KernelIdealRun
import proofs.«178039_g46316927320456_cont_sun_m_677_15_alg».proof.Proof.KernelMath
import proofs.«178039_g46316927320456_cont_sun_m_677_15_alg».proof.Proof.Finite
import proofs.«178039_g46316927320456_cont_sun_m_677_15_alg».proof.Proof.Meet

noncomputable section

namespace Cert.KernelFinal

open Idealize.ShloMosaic Idealize.ShloMosaic.ValueIdx Idealize.SL.Sem Cert.KernelIdeal Cert.KernelIdeal.Gen

/-- The kernel side's 0/1 matrix is the common one. -/
theorem A_eq (x0 : Vec Ideal S2048x2048 .i32) : Cert.KernelIdeal.Math.A x0 = Cert.Meet.Amat x0 := by
  funext r c
  unfold Cert.KernelIdeal.Math.A Cert.KernelIdeal.Pay.A01 Cert.Meet.Amat
  by_cases h : 0 < (x0 (ix2 r c)).toInt
  · rw [if_pos h, if_pos (show Cert.EdgeSpec.Pos x0 r c from h)]
  · rw [if_neg h, if_neg (show ¬ Cert.EdgeSpec.Pos x0 r c from h)]

/-- The kernel function of blocks whose float entries are reals is the common value. -/
theorem out_eq_G (a0 : Vec Ideal S2048x2048 .i32) (a1 : Vec Ideal S1x32 .f32) (a2 : FVec Ideal S32 .f32) (a3 : Vec Ideal S32x32 .f32)
    (a4 : FVec Ideal S32 .f32) (a5 : Vec Ideal S32x8 .f32) (a6 : FVec Ideal S8 .f32)
    (r1 : ∀ i, ∃ r : ℝ, a1 i = (r : EReal)) (r2 : ∀ i, ∃ r : ℝ, a2 i = (r : EReal)) (r3 : ∀ i, ∃ r : ℝ, a3 i = (r : EReal))
    (r4 : ∀ i, ∃ r : ℝ, a4 i = (r : EReal)) (r5 : ∀ i, ∃ r : ℝ, a5 i = (r : EReal)) (r6 : ∀ i, ∃ r : ℝ, a6 i = (r : EReal)) :
    Fun.out (F := Ideal) a0 a1 (shapeCast S1x32 a2 shapeCasts_S32_S1x32) a3 (shapeCast S1x32 a4 shapeCasts_S32_S1x32) a5
      (shapeCast S1x8 a6 shapeCasts_S8_S1x8) = Cert.Meet.G a0 a1 a2 a3 a4 a5 a6 := by
  funext i
  obtain ⟨o, rfl⟩ : ∃ o : Fin 8, i = ix2 (0 : Fin 1) o := ⟨⟨(i 1).val, idx2_lt1 i⟩, by
    funext a
    refine Fin.ext ?_
    match a with
    | ⟨0, _⟩ =>
      have := idx2_lt0 i
      show (i 0).val = 0
      omega
    | ⟨1, _⟩ => rfl⟩
  have e1 := Cert.Meet.eq_coe_re a1 r1
  have e2 := Cert.Meet.eq_coe_re a2 r2
  have e3 := Cert.Meet.eq_coe_re a3 r3
  have e4 := Cert.Meet.eq_coe_re a4 r4
  have e5 := Cert.Meet.eq_coe_re a5 r5
  have e6 := Cert.Meet.eq_coe_re a6 r6
  rw [Cert.KernelIdeal.Math.out_apply a0 a1 (shapeCast S1x32 a2 shapeCasts_S32_S1x32) a3 (shapeCast S1x32 a4 shapeCasts_S32_S1x32) a5
    (shapeCast S1x8 a6 shapeCasts_S8_S1x8)
    (fun k => Cert.Meet.re a1 (ix2 (0 : Fin 1) k)) (fun k => Cert.Meet.re a2 (ix1 k)) (fun k h => Cert.Meet.re a3 (ix2 k h))
    (fun h => Cert.Meet.re a4 (ix1 h)) (fun h o => Cert.Meet.re a5 (ix2 h o)) (fun o => Cert.Meet.re a6 (ix1 o))
    (fun k => congrFun e1 _)
    (fun k => (shapeCast_a_1a_apply a2 shapeCasts_S32_S1x32 (0 : Fin 1) k).trans (congrFun e2 _))
    (fun k h => congrFun e3 _)
    (fun k => (shapeCast_a_1a_apply a4 shapeCasts_S32_S1x32 (0 : Fin 1) k).trans (congrFun e4 _))
    (fun h o => congrFun e5 _)
    (fun o => (shapeCast_a_1a_apply a6 shapeCasts_S8_S1x8 (0 : Fin 1) o).trans (congrFun e6 _))
    o, A_eq]
  rfl

/-- On every device the idealized kernel runs to the common value of its argument arrays, which end unchanged. -/
theorem run [Cert.KernelIdeal.Facts] [Cert.Pre_finite_inputs.Facts]
    (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc main_v3)
            = Cert.Meet.G (m ((c.tc : Thread nD τ).loc main_arg0)) (m ((c.tc : Thread nD τ).loc main_arg1))
                (m ((c.tc : Thread nD τ).loc main_arg2)) (m ((c.tc : Thread nD τ).loc main_arg3)) (m ((c.tc : Thread nD τ).loc main_arg4))
                (m ((c.tc : Thread nD τ).loc main_arg5)) (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) := by
  refine (θ_run _ _ _).mono (fun r h c => ?_) (GenN.run_value (F := Ideal) m ρ)
  obtain ⟨hv, hargs⟩ := h c
  refine ⟨hv.trans ?_, hargs⟩
  obtain ⟨r1, r2, r3, r4, r5, r6⟩ := Cert.Finite.reals_of_pre _ _ _ _ _ _ _ (hpre c)
  rw [GenN.V_main_v0, GenN.V_main_v1, GenN.V_main_v2]
  exact out_eq_G _ _ _ _ _ _ _ r1 r2 r3 r4 r5 r6

end Cert.KernelFinal
-- ==== Proof.LibLine.lean ====
/-
  A straight line of host operations in single-assignment form, read through its final contents.

  Let a line of operations be run from contents `V`, and let `W` be the contents after the whole line. Suppose the
  buffers can be ranked so that the `k`-th operation touches only buffers of rank at most `k` and writes only buffers of
  rank exactly `k` (each value is written once, after everything it is computed from), and suppose every operation's
  value does not depend on the old contents of the buffers it writes. Then `W` satisfies every operation's own equation:
  at a buffer `y` that an operation `op` of the line writes, `W y = op.result W y` — the operation's function applied to
  `W` at its operands. The values of a long program can then be read one operation at a time, with no nesting.
-/
import Idealize.ShloMosaic.Lib.StableHlo.Run

namespace Cert.Lib.Line

open Idealize.ShloMosaic Idealize.ShloMosaic.StableHlo

variable {τ : Topo} {sig : RefSig} {Val : EltTy → Type}

/-- The operation's value at a buffer it writes depends only on the contents of the buffers it does not write. -/
def Pure (op : HloOp τ sig Val) : Prop :=
  ∀ F G : Valuation τ sig Val, (∀ b ∈ op.bufs, b ∉ op.writes → F b = G b) → ∀ y ∈ op.writes, op.result F y = op.result G y

/-- From position `k` on, each operation touches buffers of rank at most its position and writes buffers of rank
    exactly its position. -/
def Ranked (rk : DevRef τ sig → ℕ) : ℕ → List (HloOp τ sig Val) → Prop
  | _, [] => True
  | k, op :: rest => (∀ b ∈ op.bufs, rk b ≤ k) ∧ (∀ b ∈ op.writes, rk b = k) ∧ Ranked rk (k + 1) rest

theorem Ranked.append {rk : DevRef τ sig → ℕ} : ∀ {k : ℕ} {l₁ l₂ : List (HloOp τ sig Val)},
    Ranked rk k l₁ → Ranked rk (k + l₁.length) l₂ → Ranked rk k (l₁ ++ l₂)
  | _, [], _, _, h₂ => by simpa using h₂
  | k, op :: l, l₂, h₁, h₂ => by
    refine ⟨h₁.1, h₁.2.1, Ranked.append h₁.2.2 ?_⟩
    have : k + 1 + l.length = k + (op :: l).length := by simp only [List.length_cons]; omega
    rw [this]; exact h₂

/-- Every buffer written from position `k` on has rank at least `k`. -/
theorem Ranked.le_of_writes {rk : DevRef τ sig → ℕ} : ∀ {k : ℕ} {l : List (HloOp τ sig Val)}, Ranked rk k l →
    ∀ o ∈ l, ∀ b ∈ o.writes, k ≤ rk b
  | _, [], _, _, ho, _, _ => nomatch ho
  | k, op :: rest, h, o, ho, b, hb => by
    rcases List.mem_cons.mp ho with rfl | ho'
    · exact (h.2.1 b hb).ge
    · exact Nat.le_of_succ_le (Ranked.le_of_writes h.2.2 o ho' b hb)

/-- A buffer of rank below `k` is written by no operation from position `k` on: it keeps its contents. -/
theorem Ranked.after_of_lt {rk : DevRef τ sig → ℕ} {k : ℕ} {l : List (HloOp τ sig Val)} (h : Ranked rk k l)
    (V : Valuation τ sig Val) {b : DevRef τ sig} (hb : rk b < k) : after l V b = V b :=
  after_of_forall_not_mem l V fun o ho hw => absurd (Ranked.le_of_writes h o ho b hw) (Nat.not_le.mpr hb)

/-- The final contents of a ranked line of pure operations satisfy each operation's equation. -/
theorem after_fixed {rk : DevRef τ sig → ℕ} : ∀ {k : ℕ} (l : List (HloOp τ sig Val)), Ranked rk k l → (∀ op ∈ l, Pure op) →
    ∀ (V : Valuation τ sig Val) (op : HloOp τ sig Val), op ∈ l → ∀ y ∈ op.writes, after l V y = op.result (after l V) y
  | _, [], _, _, _, _, hop, _, _ => nomatch hop
  | k, o :: rest, h, hp, V, op, hop, y, hy => by
    rw [after_cons]
    rcases List.mem_cons.mp hop with rfl | hop'
    · have hy' : rk y < k + 1 := Nat.lt_succ_of_le (h.2.1 y hy).le
      rw [Ranked.after_of_lt h.2.2 _ hy']
      refine hp op List.mem_cons_self _ _ (fun b hb hnw => ?_) y hy
      have hb' : rk b < k + 1 := Nat.lt_succ_of_le (h.1 b hb)
      rw [Ranked.after_of_lt h.2.2 _ hb', op.result_of_not_mem V hnw]
    · exact after_fixed rest h.2.2 (fun o' ho' => hp o' (List.mem_cons_of_mem _ ho')) _ op hop' y hy

/-! ## The builders are pure when the result is not an operand -/

section Builders

variable {x a b c y : Ref sig .tc}

theorem pure_nullary (v : y.ty.Contents Val) (hy) : Pure (nullary (τ := τ) y v hy) := by
  intro F G _ y' hy'
  simp only [nullary_writes, Finset.mem_singleton] at hy'
  subst hy'
  rw [nullary_result, nullary_result]

theorem pure_unary (f : x.ty.Contents Val → y.ty.Contents Val) (hx hy) (hxy : x ≠ y) : Pure (unary (τ := τ) x y f hx hy) := by
  intro F G h y' hy'
  simp only [unary_writes, Finset.mem_singleton] at hy'
  subst hy'
  rw [unary_result, unary_result, h (Proc.devRef .tc x) (by simp [unary_bufs]) (by simp only [unary_writes, Finset.mem_singleton]; exact devRef_ne_of_ne hxy)]

theorem pure_binary (f : a.ty.Contents Val → b.ty.Contents Val → y.ty.Contents Val) (ha hb hy) (hay : a ≠ y) (hby : b ≠ y) :
    Pure (binary (τ := τ) a b y f ha hb hy) := by
  intro F G h y' hy'
  simp only [binary_writes, Finset.mem_singleton] at hy'
  subst hy'
  rw [binary_result, binary_result,
    h (Proc.devRef .tc a) (by simp [binary_bufs]) (by simp only [binary_writes, Finset.mem_singleton]; exact devRef_ne_of_ne hay),
    h (Proc.devRef .tc b) (by simp [binary_bufs]) (by simp only [binary_writes, Finset.mem_singleton]; exact devRef_ne_of_ne hby)]

theorem pure_ternary (f : c.ty.Contents Val → a.ty.Contents Val → b.ty.Contents Val → y.ty.Contents Val) (hc ha hb hy)
    (hcy : c ≠ y) (hay : a ≠ y) (hby : b ≠ y) : Pure (ternary (τ := τ) c a b y f hc ha hb hy) := by
  intro F G h y' hy'
  simp only [ternary_writes, Finset.mem_singleton] at hy'
  subst hy'
  rw [ternary_result, ternary_result,
    h (Proc.devRef .tc c) (by simp [ternary_bufs]) (by simp only [ternary_writes, Finset.mem_singleton]; exact devRef_ne_of_ne hcy),
    h (Proc.devRef .tc a) (by simp [ternary_bufs]) (by simp only [ternary_writes, Finset.mem_singleton]; exact devRef_ne_of_ne hay),
    h (Proc.devRef .tc b) (by simp [ternary_bufs]) (by simp only [ternary_writes, Finset.mem_singleton]; exact devRef_ne_of_ne hby)]

theorem pure_reshape (he hn hx hy) (hxy : x ≠ y) : Pure (reshape (τ := τ) (Val := Val) x y he hn hx hy) := by
  intro F G h y' hy'
  simp only [reshape_writes, Finset.mem_singleton] at hy'
  subst hy'
  rw [reshape_result, reshape_result, h (Proc.devRef .tc x) (by simp [reshape_bufs]) (by simp only [reshape_writes, Finset.mem_singleton]; exact devRef_ne_of_ne hxy)]

end Builders

/-! ## Ranking a line one builder at a time -/

section Cons

variable {x a b c y : Ref sig .tc} {rk : DevRef τ sig → ℕ} {k : ℕ} {rest : List (HloOp τ sig Val)}

theorem Ranked.cons_nullary (v : y.ty.Contents Val) (hy) (h2 : rk (Proc.devRef .tc y) = k) (hr : Ranked rk (k + 1) rest) :
    Ranked rk k (nullary (τ := τ) y v hy :: rest) := by
  refine ⟨fun d hd => ?_, fun d hd => ?_, hr⟩
  · simp only [nullary_bufs, Finset.mem_singleton] at hd; subst hd; exact h2.le
  · simp only [nullary_writes, Finset.mem_singleton] at hd; subst hd; exact h2

theorem Ranked.cons_unary (f : x.ty.Contents Val → y.ty.Contents Val) (hx hy) (h1 : rk (Proc.devRef .tc x) ≤ k)
    (h2 : rk (Proc.devRef .tc y) = k) (hr : Ranked rk (k + 1) rest) : Ranked rk k (unary (τ := τ) x y f hx hy :: rest) := by
  refine ⟨fun d hd => ?_, fun d hd => ?_, hr⟩
  · simp only [unary_bufs, Finset.mem_insert, Finset.mem_singleton] at hd
    rcases hd with rfl | rfl
    exacts [h1, h2.le]
  · simp only [unary_writes, Finset.mem_singleton] at hd; subst hd; exact h2

theorem Ranked.cons_binary (f : a.ty.Contents Val → b.ty.Contents Val → y.ty.Contents Val) (ha hb hy)
    (h1 : rk (Proc.devRef .tc a) ≤ k) (h1' : rk (Proc.devRef .tc b) ≤ k) (h2 : rk (Proc.devRef .tc y) = k)
    (hr : Ranked rk (k + 1) rest) : Ranked rk k (binary (τ := τ) a b y f ha hb hy :: rest) := by
  refine ⟨fun d hd => ?_, fun d hd => ?_, hr⟩
  · simp only [binary_bufs, Finset.mem_insert, Finset.mem_singleton] at hd
    rcases hd with rfl | rfl | rfl
    exacts [h1, h1', h2.le]
  · simp only [binary_writes, Finset.mem_singleton] at hd; subst hd; exact h2

theorem Ranked.cons_ternary (f : c.ty.Contents Val → a.ty.Contents Val → b.ty.Contents Val → y.ty.Contents Val) (hc ha hb hy)
    (h0 : rk (Proc.devRef .tc c) ≤ k) (h1 : rk (Proc.devRef .tc a) ≤ k) (h1' : rk (Proc.devRef .tc b) ≤ k)
    (h2 : rk (Proc.devRef .tc y) = k) (hr : Ranked rk (k + 1) rest) :
    Ranked rk k (ternary (τ := τ) c a b y f hc ha hb hy :: rest) := by
  refine ⟨fun d hd => ?_, fun d hd => ?_, hr⟩
  · simp only [ternary_bufs, Finset.mem_insert, Finset.mem_singleton] at hd
    rcases hd with rfl | rfl | rfl | rfl
    exacts [h0, h1, h1', h2.le]
  · simp only [ternary_writes, Finset.mem_singleton] at hd; subst hd; exact h2

theorem Ranked.cons_reshape (he hn hx hy) (h1 : rk (Proc.devRef .tc x) ≤ k) (h2 : rk (Proc.devRef .tc y) = k)
    (hr : Ranked rk (k + 1) rest) : Ranked rk k (reshape (τ := τ) (Val := Val) x y he hn hx hy :: rest) := by
  refine ⟨fun d hd => ?_, fun d hd => ?_, hr⟩
  · simp only [reshape_bufs, Finset.mem_insert, Finset.mem_singleton] at hd
    rcases hd with rfl | rfl
    exacts [h1, h2.le]
  · simp only [reshape_writes, Finset.mem_singleton] at hd; subst hd; exact h2

end Cons

end Cert.Lib.Line
-- ==== Proof.RefLine.lean ====
/- Written by: bun scratch/gen_refline.js (run in the unit directory, after gen_refops.js and gen_refstages.js). The reference's line of host
   operations is in single-assignment form: ranking a buffer by its index, the k-th operation touches buffers of rank at most 7 + k
   and writes the buffer of rank 7 + k (the seven arguments are the buffers 0 … 6), and no operation's result is one of its operands. -/
import proofs.«178039_g46316927320456_cont_sun_m_677_15_alg».proof.Proof.RefRun
import proofs.«178039_g46316927320456_cont_sun_m_677_15_alg».proof.Proof.LibLine

noncomputable section

namespace Cert.ReferenceIdeal.RefRun

open Cert.ReferenceIdeal Cert.ReferenceIdeal.Gen Idealize.ShloMosaic Idealize.ShloMosaic.TcCoe Idealize.SL.Sem Idealize.ShloMosaic.StableHlo Cert.Lib.Line

variable {F : FTy → Type} [FloatOps F]

/-- A buffer's rank: its index in its table (every buffer of this program is an HBM buffer of the device). -/
abbrev rk : DevRef τ sig → ℕ := fun b => b.idx.val

theorem ops0_a_ranked : Ranked (Val := Elt F) rk 7 (ops0_a : List (HloOp τ sig (Elt F))) :=
  Ranked.cons_nullary _ _ (by decide) (Ranked.cons_unary _ _ _ (by decide) (by decide) (Ranked.cons_binary _ _ _ _ (by decide) (by decide) (by decide) (Ranked.cons_reshape _ _ _ _ (by decide) (by decide) (Ranked.cons_unary _ _ _ (by decide) (by decide) (Ranked.cons_nullary _ _ (by decide) (Ranked.cons_unary _ _ _ (by decide) (by decide) (Ranked.cons_binary _ _ _ _ (by decide) (by decide) (by decide) (Ranked.cons_nullary _ _ (by decide) (Ranked.cons_unary _ _ _ (by decide) (by decide) (Ranked.cons_nullary _ _ (by decide) (Ranked.cons_unary _ _ _ (by decide) (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_ternary _ _ _ _ _ (by decide) (by decide) (by decide) (by decide) (Ranked.cons_unary _ _ _ (by decide) (by decide) (Ranked.cons_nullary _ _ (by decide) (Ranked.cons_unary _ _ _ (by decide) (by decide) (Ranked.cons_ternary _ _ _ _ _ (by decide) (by decide) (by decide) (by decide) (Ranked.cons_nullary _ _ (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_unary _ _ _ (by decide) (by decide) (Ranked.cons_unary _ _ _ (by decide) (by decide) (Ranked.cons_unary _ _ _ (by decide) (by decide) (Ranked.cons_binary _ _ _ _ (by decide) (by decide) (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (trivial))))))))))))))))))))))))))))))))))))))))

theorem ops0_a_pure : (ops0_a : List (HloOp τ sig (Elt F))).Forall Pure :=
  ⟨pure_nullary _ _, pure_unary _ _ _ (by decide), pure_binary _ _ _ _ (by decide) (by decide), pure_reshape _ _ _ _ (by decide), pure_unary _ _ _ (by decide), pure_nullary _ _, pure_unary _ _ _ (by decide), pure_binary _ _ _ _ (by decide) (by decide), pure_nullary _ _, pure_unary _ _ _ (by decide), pure_nullary _ _, pure_unary _ _ _ (by decide), pure_unary _ _ _ (by decide), pure_binary _ _ _ _ (by decide) (by decide), pure_nullary _ _, pure_unary _ _ _ (by decide), pure_binary _ _ _ _ (by decide) (by decide), pure_nullary _ _, pure_unary _ _ _ (by decide), pure_binary _ _ _ _ (by decide) (by decide), pure_ternary _ _ _ _ _ (by decide) (by decide) (by decide), pure_unary _ _ _ (by decide), pure_nullary _ _, pure_unary _ _ _ (by decide), pure_ternary _ _ _ _ _ (by decide) (by decide) (by decide), pure_nullary _ _, pure_unary _ _ _ (by decide), pure_binary _ _ _ _ (by decide) (by decide), pure_nullary _ _, pure_unary _ _ _ (by decide), pure_binary _ _ _ _ (by decide) (by decide), pure_unary _ _ _ (by decide), pure_unary _ _ _ (by decide), pure_unary _ _ _ (by decide), pure_binary _ _ _ _ (by decide) (by decide), pure_unary _ _ _ (by decide), pure_binary _ _ _ _ (by decide) (by decide), pure_nullary _ _, pure_unary _ _ _ (by decide), pure_binary _ _ _ _ (by decide) (by decide)⟩

theorem ops0_b_ranked : Ranked (Val := Elt F) rk 47 (ops0_b : List (HloOp τ sig (Elt F))) :=
  Ranked.cons_binary _ _ _ _ (by decide) (by decide) (by decide) (Ranked.cons_nullary _ _ (by decide) (Ranked.cons_unary _ _ _ (by decide) (by decide) (Ranked.cons_binary _ _ _ _ (by decide) (by decide) (by decide) (Ranked.cons_ternary _ _ _ _ _ (by decide) (by decide) (by decide) (by decide) (Ranked.cons_nullary _ _ (by decide) (Ranked.cons_unary _ _ _ (by decide) (by decide) (Ranked.cons_nullary _ _ (by decide) (Ranked.cons_binary _ _ _ _ (by decide) (by decide) (by decide) (Ranked.cons_nullary _ _ (by decide) (Ranked.cons_ternary _ _ _ _ _ (by decide) (by decide) (by decide) (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_nullary _ _ (by decide) (Ranked.cons_binary _ _ _ _ (by decide) (by decide) (by decide) (Ranked.cons_unary _ _ _ (by decide) (by decide) (Ranked.cons_binary _ _ _ _ (by decide) (by decide) (by decide) (Ranked.cons_binary _ _ _ _ (by decide) (by decide) (by decide) (Ranked.cons_unary _ _ _ (by decide) (by decide) (Ranked.cons_binary _ _ _ _ (by decide) (by decide) (by decide) (Ranked.cons_ternary _ _ _ _ _ (by decide) (by decide) (by decide) (by decide) (Ranked.cons_nullary _ _ (by decide) (Ranked.cons_unary _ _ _ (by decide) (by decide) (Ranked.cons_binary _ _ _ _ (by decide) (by decide) (by decide) (Ranked.cons_unary _ _ _ (by decide) (by decide) (Ranked.cons_unary _ _ _ (by decide) (by decide) (Ranked.cons_unary _ _ _ (by decide) (by decide) (Ranked.cons_binary _ _ _ _ (by decide) (by decide) (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_binary _ _ _ _ (by decide) (by decide) (by decide) (trivial))))))))))))))))))))))))))))))))))))))))

theorem ops0_b_pure : (ops0_b : List (HloOp τ sig (Elt F))).Forall Pure :=
  ⟨pure_binary _ _ _ _ (by decide) (by decide), pure_nullary _ _, pure_unary _ _ _ (by decide), pure_binary _ _ _ _ (by decide) (by decide), pure_ternary _ _ _ _ _ (by decide) (by decide) (by decide), pure_nullary _ _, pure_unary _ _ _ (by decide), pure_nullary _ _, pure_binary _ _ _ _ (by decide) (by decide), pure_nullary _ _, pure_ternary _ _ _ _ _ (by decide) (by decide) (by decide), pure_unary _ _ _ (by decide), pure_binary _ _ _ _ (by decide) (by decide), pure_nullary _ _, pure_unary _ _ _ (by decide), pure_binary _ _ _ _ (by decide) (by decide), pure_nullary _ _, pure_unary _ _ _ (by decide), pure_binary _ _ _ _ (by decide) (by decide), pure_nullary _ _, pure_binary _ _ _ _ (by decide) (by decide), pure_unary _ _ _ (by decide), pure_binary _ _ _ _ (by decide) (by decide), pure_binary _ _ _ _ (by decide) (by decide), pure_unary _ _ _ (by decide), pure_binary _ _ _ _ (by decide) (by decide), pure_ternary _ _ _ _ _ (by decide) (by decide) (by decide), pure_nullary _ _, pure_unary _ _ _ (by decide), pure_binary _ _ _ _ (by decide) (by decide), pure_unary _ _ _ (by decide), pure_unary _ _ _ (by decide), pure_unary _ _ _ (by decide), pure_binary _ _ _ _ (by decide) (by decide), pure_unary _ _ _ (by decide), pure_binary _ _ _ _ (by decide) (by decide), pure_nullary _ _, pure_unary _ _ _ (by decide), pure_binary _ _ _ _ (by decide) (by decide), pure_binary _ _ _ _ (by decide) (by decide)⟩

theorem ops0_c_ranked : Ranked (Val := Elt F) rk 87 (ops0_c : List (HloOp τ sig (Elt F))) :=
  Ranked.cons_nullary _ _ (by decide) (Ranked.cons_unary _ _ _ (by decide) (by decide) (Ranked.cons_binary _ _ _ _ (by decide) (by decide) (by decide) (Ranked.cons_ternary _ _ _ _ _ (by decide) (by decide) (by decide) (by decide) (Ranked.cons_nullary _ _ (by decide) (Ranked.cons_unary _ _ _ (by decide) (by decide) (Ranked.cons_nullary _ _ (by decide) (Ranked.cons_binary _ _ _ _ (by decide) (by decide) (by decide) (Ranked.cons_nullary _ _ (by decide) (Ranked.cons_ternary _ _ _ _ _ (by decide) (by decide) (by decide) (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_nullary _ _ (by decide) (Ranked.cons_binary _ _ _ _ (by decide) (by decide) (by decide) (Ranked.cons_unary _ _ _ (by decide) (by decide) (Ranked.cons_binary _ _ _ _ (by decide) (by decide) (by decide) (Ranked.cons_binary _ _ _ _ (by decide) (by decide) (by decide) (Ranked.cons_unary _ _ _ (by decide) (by decide) (Ranked.cons_binary _ _ _ _ (by decide) (by decide) (by decide) (Ranked.cons_ternary _ _ _ _ _ (by decide) (by decide) (by decide) (by decide) (Ranked.cons_nullary _ _ (by decide) (Ranked.cons_unary _ _ _ (by decide) (by decide) (Ranked.cons_nullary _ _ (by decide) (Ranked.cons_binary _ _ _ _ (by decide) (by decide) (by decide) (Ranked.cons_unary _ _ _ (by decide) (by decide) (Ranked.cons_binary _ _ _ _ (by decide) (by decide) (by decide) (Ranked.cons_nullary _ _ (by decide) (Ranked.cons_unary _ _ _ (by decide) (by decide) (Ranked.cons_unary _ _ _ (by decide) (by decide) (Ranked.cons_ternary _ _ _ _ _ (by decide) (by decide) (by decide) (by decide) (Ranked.cons_nullary _ _ (by decide) (Ranked.cons_unary _ _ _ (by decide) (by decide) (Ranked.cons_unary _ _ _ (by decide) (by decide) (Ranked.cons_ternary _ _ _ _ _ (by decide) (by decide) (by decide) (by decide) (trivial))))))))))))))))))))))))))))))))))))))))

theorem ops0_c_pure : (ops0_c : List (HloOp τ sig (Elt F))).Forall Pure :=
  ⟨pure_nullary _ _, pure_unary _ _ _ (by decide), pure_binary _ _ _ _ (by decide) (by decide), pure_ternary _ _ _ _ _ (by decide) (by decide) (by decide), pure_nullary _ _, pure_unary _ _ _ (by decide), pure_nullary _ _, pure_binary _ _ _ _ (by decide) (by decide), pure_nullary _ _, pure_ternary _ _ _ _ _ (by decide) (by decide) (by decide), pure_unary _ _ _ (by decide), pure_binary _ _ _ _ (by decide) (by decide), pure_nullary _ _, pure_unary _ _ _ (by decide), pure_binary _ _ _ _ (by decide) (by decide), pure_nullary _ _, pure_unary _ _ _ (by decide), pure_binary _ _ _ _ (by decide) (by decide), pure_nullary _ _, pure_binary _ _ _ _ (by decide) (by decide), pure_unary _ _ _ (by decide), pure_binary _ _ _ _ (by decide) (by decide), pure_binary _ _ _ _ (by decide) (by decide), pure_unary _ _ _ (by decide), pure_binary _ _ _ _ (by decide) (by decide), pure_ternary _ _ _ _ _ (by decide) (by decide) (by decide), pure_nullary _ _, pure_unary _ _ _ (by decide), pure_nullary _ _, pure_binary _ _ _ _ (by decide) (by decide), pure_unary _ _ _ (by decide), pure_binary _ _ _ _ (by decide) (by decide), pure_nullary _ _, pure_unary _ _ _ (by decide), pure_unary _ _ _ (by decide), pure_ternary _ _ _ _ _ (by decide) (by decide) (by decide), pure_nullary _ _, pure_unary _ _ _ (by decide), pure_unary _ _ _ (by decide), pure_ternary _ _ _ _ _ (by decide) (by decide) (by decide)⟩

theorem ops0_d_ranked : Ranked (Val := Elt F) rk 127 (ops0_d : List (HloOp τ sig (Elt F))) :=
  Ranked.cons_nullary _ _ (by decide) (Ranked.cons_unary _ _ _ (by decide) (by decide) (Ranked.cons_binary _ _ _ _ (by decide) (by decide) (by decide) (Ranked.cons_nullary _ _ (by decide) (Ranked.cons_binary _ _ _ _ (by decide) (by decide) (by decide) (Ranked.cons_binary _ _ _ _ (by decide) (by decide) (by decide) (Ranked.cons_nullary _ _ (by decide) (Ranked.cons_unary _ _ _ (by decide) (by decide) (Ranked.cons_nullary _ _ (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_ternary _ _ _ _ _ (by decide) (by decide) (by decide) (by decide) (Ranked.cons_unary _ _ _ (by decide) (by decide) (Ranked.cons_nullary _ _ (by decide) (Ranked.cons_unary _ _ _ (by decide) (by decide) (Ranked.cons_ternary _ _ _ _ _ (by decide) (by decide) (by decide) (by decide) (Ranked.cons_nullary _ _ (by decide) (Ranked.cons_unary _ _ _ (by decide) (by decide) (Ranked.cons_binary _ _ _ _ (by decide) (by decide) (by decide) (trivial))))))))))))))))))))))

theorem ops0_d_pure : (ops0_d : List (HloOp τ sig (Elt F))).Forall Pure :=
  ⟨pure_nullary _ _, pure_unary _ _ _ (by decide), pure_binary _ _ _ _ (by decide) (by decide), pure_nullary _ _, pure_binary _ _ _ _ (by decide) (by decide), pure_binary _ _ _ _ (by decide) (by decide), pure_nullary _ _, pure_unary _ _ _ (by decide), pure_nullary _ _, pure_unary _ _ _ (by decide), pure_binary _ _ _ _ (by decide) (by decide), pure_nullary _ _, pure_unary _ _ _ (by decide), pure_binary _ _ _ _ (by decide) (by decide), pure_ternary _ _ _ _ _ (by decide) (by decide) (by decide), pure_unary _ _ _ (by decide), pure_nullary _ _, pure_unary _ _ _ (by decide), pure_ternary _ _ _ _ _ (by decide) (by decide) (by decide), pure_nullary _ _, pure_unary _ _ _ (by decide), pure_binary _ _ _ _ (by decide) (by decide)⟩

theorem ops1_a_ranked : Ranked (Val := Elt F) rk 149 (ops1_a : List (HloOp τ sig (Elt F))) :=
  Ranked.cons_unary _ _ _ (by decide) (by decide) (Ranked.cons_nullary _ _ (by decide) (Ranked.cons_unary _ _ _ (by decide) (by decide) (Ranked.cons_binary _ _ _ _ (by decide) (by decide) (by decide) (Ranked.cons_nullary _ _ (by decide) (Ranked.cons_unary _ _ _ (by decide) (by decide) (Ranked.cons_unary _ _ _ (by decide) (by decide) (Ranked.cons_ternary _ _ _ _ _ (by decide) (by decide) (by decide) (by decide) (Ranked.cons_nullary _ _ (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_ternary _ _ _ _ _ (by decide) (by decide) (by decide) (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_ternary _ _ _ _ _ (by decide) (by decide) (by decide) (by decide) (Ranked.cons_unary _ _ _ (by decide) (by decide) (Ranked.cons_binary _ _ _ _ (by decide) (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_ternary _ _ _ _ _ (by decide) (by decide) (by decide) (by decide) (Ranked.cons_unary _ _ _ (by decide) (by decide) (Ranked.cons_binary _ _ _ _ (by decide) (by decide) (by decide) (Ranked.cons_unary _ _ _ (by decide) (by decide) (Ranked.cons_unary _ _ _ (by decide) (by decide) (Ranked.cons_binary _ _ _ _ (by decide) (by decide) (by decide) (Ranked.cons_nullary _ _ (by decide) (trivial))))))))))))))))))))))))))))))))))))))))

theorem ops1_a_pure : (ops1_a : List (HloOp τ sig (Elt F))).Forall Pure :=
  ⟨pure_unary _ _ _ (by decide), pure_nullary _ _, pure_unary _ _ _ (by decide), pure_binary _ _ _ _ (by decide) (by decide), pure_nullary _ _, pure_unary _ _ _ (by decide), pure_unary _ _ _ (by decide), pure_ternary _ _ _ _ _ (by decide) (by decide) (by decide), pure_nullary _ _, pure_unary _ _ _ (by decide), pure_binary _ _ _ _ (by decide) (by decide), pure_nullary _ _, pure_unary _ _ _ (by decide), pure_binary _ _ _ _ (by decide) (by decide), pure_ternary _ _ _ _ _ (by decide) (by decide) (by decide), pure_unary _ _ _ (by decide), pure_binary _ _ _ _ (by decide) (by decide), pure_nullary _ _, pure_unary _ _ _ (by decide), pure_binary _ _ _ _ (by decide) (by decide), pure_nullary _ _, pure_unary _ _ _ (by decide), pure_binary _ _ _ _ (by decide) (by decide), pure_ternary _ _ _ _ _ (by decide) (by decide) (by decide), pure_unary _ _ _ (by decide), pure_binary _ _ _ _ (by decide) (by decide), pure_binary _ _ _ _ (by decide) (by decide), pure_nullary _ _, pure_unary _ _ _ (by decide), pure_binary _ _ _ _ (by decide) (by decide), pure_nullary _ _, pure_unary _ _ _ (by decide), pure_binary _ _ _ _ (by decide) (by decide), pure_ternary _ _ _ _ _ (by decide) (by decide) (by decide), pure_unary _ _ _ (by decide), pure_binary _ _ _ _ (by decide) (by decide), pure_unary _ _ _ (by decide), pure_unary _ _ _ (by decide), pure_binary _ _ _ _ (by decide) (by decide), pure_nullary _ _⟩

theorem ops1_b_ranked : Ranked (Val := Elt F) rk 189 (ops1_b : List (HloOp τ sig (Elt F))) :=
  Ranked.cons_unary _ _ _ (by decide) (by decide) (Ranked.cons_nullary _ _ (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_ternary _ _ _ _ _ (by decide) (by decide) (by decide) (by decide) (Ranked.cons_unary _ _ _ (by decide) (by decide) (Ranked.cons_ternary _ _ _ _ _ (by decide) (by decide) (by decide) (by decide) (Ranked.cons_unary _ _ _ (by decide) (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_binary _ _ _ _ (by decide) (by decide) (by decide) (Ranked.cons_nullary _ _ (by decide) (Ranked.cons_binary _ _ _ _ (by decide) (by decide) (by decide) (Ranked.cons_binary _ _ _ _ (by decide) (by decide) (by decide) (Ranked.cons_nullary _ _ (by decide) (Ranked.cons_unary _ _ _ (by decide) (by decide) (Ranked.cons_nullary _ _ (by decide) (Ranked.cons_unary _ _ _ (by decide) (by decide) (trivial))))))))))))))))))))))))

theorem ops1_b_pure : (ops1_b : List (HloOp τ sig (Elt F))).Forall Pure :=
  ⟨pure_unary _ _ _ (by decide), pure_nullary _ _, pure_unary _ _ _ (by decide), pure_binary _ _ _ _ (by decide) (by decide), pure_nullary _ _, pure_unary _ _ _ (by decide), pure_binary _ _ _ _ (by decide) (by decide), pure_ternary _ _ _ _ _ (by decide) (by decide) (by decide), pure_unary _ _ _ (by decide), pure_ternary _ _ _ _ _ (by decide) (by decide) (by decide), pure_unary _ _ _ (by decide), pure_unary _ _ _ (by decide), pure_binary _ _ _ _ (by decide) (by decide), pure_nullary _ _, pure_unary _ _ _ (by decide), pure_binary _ _ _ _ (by decide) (by decide), pure_binary _ _ _ _ (by decide) (by decide), pure_nullary _ _, pure_binary _ _ _ _ (by decide) (by decide), pure_binary _ _ _ _ (by decide) (by decide), pure_nullary _ _, pure_unary _ _ _ (by decide), pure_nullary _ _, pure_unary _ _ _ (by decide)⟩

theorem ops2_a_ranked : Ranked (Val := Elt F) rk 213 (ops2_a : List (HloOp τ sig (Elt F))) :=
  Ranked.cons_binary _ _ _ _ (by decide) (by decide) (by decide) (Ranked.cons_nullary _ _ (by decide) (Ranked.cons_unary _ _ _ (by decide) (by decide) (Ranked.cons_binary _ _ _ _ (by decide) (by decide) (by decide) (Ranked.cons_ternary _ _ _ _ _ (by decide) (by decide) (by decide) (by decide) (Ranked.cons_unary _ _ _ (by decide) (by decide) (Ranked.cons_nullary _ _ (by decide) (Ranked.cons_unary _ _ _ (by decide) (by decide) (Ranked.cons_ternary _ _ _ _ _ (by decide) (by decide) (by decide) (by decide) (Ranked.cons_nullary _ _ (by decide) (Ranked.cons_unary _ _ _ (by decide) (by decide) (Ranked.cons_binary _ _ _ _ (by decide) (by decide) (by decide) (Ranked.cons_unary _ _ _ (by decide) (by decide) (Ranked.cons_nullary _ _ (by decide) (Ranked.cons_unary _ _ _ (by decide) (by decide) (Ranked.cons_binary _ _ _ _ (by decide) (by decide) (by decide) (Ranked.cons_nullary _ _ (by decide) (Ranked.cons_unary _ _ _ (by decide) (by decide) (Ranked.cons_unary _ _ _ (by decide) (by decide) (Ranked.cons_ternary _ _ _ _ _ (by decide) (by decide) (by decide) (by decide) (Ranked.cons_nullary _ _ (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_ternary _ _ _ _ _ (by decide) (by decide) (by decide) (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_ternary _ _ _ _ _ (by decide) (by decide) (by decide) (by decide) (Ranked.cons_unary _ _ _ (by decide) (by decide) (Ranked.cons_binary _ _ _ _ (by decide) (by decide) (by decide) (Ranked.cons_binary _ _ _ _ (by decide) (by decide) (by decide) (Ranked.cons_nullary _ _ (by decide) (trivial))))))))))))))))))))))))))))))))))))))))

theorem ops2_a_pure : (ops2_a : List (HloOp τ sig (Elt F))).Forall Pure :=
  ⟨pure_binary _ _ _ _ (by decide) (by decide), pure_nullary _ _, pure_unary _ _ _ (by decide), pure_binary _ _ _ _ (by decide) (by decide), pure_ternary _ _ _ _ _ (by decide) (by decide) (by decide), pure_unary _ _ _ (by decide), pure_nullary _ _, pure_unary _ _ _ (by decide), pure_ternary _ _ _ _ _ (by decide) (by decide) (by decide), pure_nullary _ _, pure_unary _ _ _ (by decide), pure_binary _ _ _ _ (by decide) (by decide), pure_unary _ _ _ (by decide), pure_nullary _ _, pure_unary _ _ _ (by decide), pure_binary _ _ _ _ (by decide) (by decide), pure_nullary _ _, pure_unary _ _ _ (by decide), pure_unary _ _ _ (by decide), pure_ternary _ _ _ _ _ (by decide) (by decide) (by decide), pure_nullary _ _, pure_unary _ _ _ (by decide), pure_binary _ _ _ _ (by decide) (by decide), pure_nullary _ _, pure_unary _ _ _ (by decide), pure_binary _ _ _ _ (by decide) (by decide), pure_ternary _ _ _ _ _ (by decide) (by decide) (by decide), pure_unary _ _ _ (by decide), pure_binary _ _ _ _ (by decide) (by decide), pure_nullary _ _, pure_unary _ _ _ (by decide), pure_binary _ _ _ _ (by decide) (by decide), pure_nullary _ _, pure_unary _ _ _ (by decide), pure_binary _ _ _ _ (by decide) (by decide), pure_ternary _ _ _ _ _ (by decide) (by decide) (by decide), pure_unary _ _ _ (by decide), pure_binary _ _ _ _ (by decide) (by decide), pure_binary _ _ _ _ (by decide) (by decide), pure_nullary _ _⟩

theorem ops2_b_ranked : Ranked (Val := Elt F) rk 253 (ops2_b : List (HloOp τ sig (Elt F))) :=
  Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_ternary _ _ _ _ _ (by decide) (by decide) (by decide) (by decide) (Ranked.cons_unary _ _ _ (by decide) (by decide) (Ranked.cons_binary _ _ _ _ (by decide) (by decide) (by decide) (Ranked.cons_unary _ _ _ (by decide) (by decide) (Ranked.cons_unary _ _ _ (by decide) (by decide) (Ranked.cons_binary _ _ _ _ (by decide) (by decide) (by decide) (Ranked.cons_nullary _ _ (by decide) (Ranked.cons_unary _ _ _ (by decide) (by decide) (Ranked.cons_nullary _ _ (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_ternary _ _ _ _ _ (by decide) (by decide) (by decide) (by decide) (Ranked.cons_unary _ _ _ (by decide) (by decide) (Ranked.cons_ternary _ _ _ _ _ (by decide) (by decide) (by decide) (by decide) (trivial))))))))))))))))))))))

theorem ops2_b_pure : (ops2_b : List (HloOp τ sig (Elt F))).Forall Pure :=
  ⟨pure_unary _ _ _ (by decide), pure_binary _ _ _ _ (by decide) (by decide), pure_nullary _ _, pure_unary _ _ _ (by decide), pure_binary _ _ _ _ (by decide) (by decide), pure_ternary _ _ _ _ _ (by decide) (by decide) (by decide), pure_unary _ _ _ (by decide), pure_binary _ _ _ _ (by decide) (by decide), pure_unary _ _ _ (by decide), pure_unary _ _ _ (by decide), pure_binary _ _ _ _ (by decide) (by decide), pure_nullary _ _, pure_unary _ _ _ (by decide), pure_nullary _ _, pure_unary _ _ _ (by decide), pure_binary _ _ _ _ (by decide) (by decide), pure_nullary _ _, pure_unary _ _ _ (by decide), pure_binary _ _ _ _ (by decide) (by decide), pure_ternary _ _ _ _ _ (by decide) (by decide) (by decide), pure_unary _ _ _ (by decide), pure_ternary _ _ _ _ _ (by decide) (by decide) (by decide)⟩

theorem ops3_a_ranked : Ranked (Val := Elt F) rk 275 (ops3_a : List (HloOp τ sig (Elt F))) :=
  Ranked.cons_unary _ _ _ (by decide) (by decide) (Ranked.cons_unary _ _ _ (by decide) (by decide) (Ranked.cons_binary _ _ _ _ (by decide) (by decide) (by decide) (Ranked.cons_nullary _ _ (by decide) (Ranked.cons_unary _ _ _ (by decide) (by decide) (Ranked.cons_binary _ _ _ _ (by decide) (by decide) (by decide) (Ranked.cons_nullary _ _ (by decide) (Ranked.cons_binary _ _ _ _ (by decide) (by decide) (by decide) (Ranked.cons_unary _ _ _ (by decide) (by decide) (Ranked.cons_binary _ _ _ _ (by decide) (by decide) (by decide) (Ranked.cons_unary _ _ _ (by decide) (by decide) (Ranked.cons_binary _ _ _ _ (by decide) (by decide) (by decide) (trivial))))))))))))

theorem ops3_a_pure : (ops3_a : List (HloOp τ sig (Elt F))).Forall Pure :=
  ⟨pure_unary _ _ _ (by decide), pure_unary _ _ _ (by decide), pure_binary _ _ _ _ (by decide) (by decide), pure_nullary _ _, pure_unary _ _ _ (by decide), pure_binary _ _ _ _ (by decide) (by decide), pure_nullary _ _, pure_binary _ _ _ _ (by decide) (by decide), pure_unary _ _ _ (by decide), pure_binary _ _ _ _ (by decide) (by decide), pure_unary _ _ _ (by decide), pure_binary _ _ _ _ (by decide) (by decide)⟩

/-- The whole line is ranked from 7. -/
theorem ops_ranked : Ranked (Val := Elt F) rk 7 (ops : List (HloOp τ sig (Elt F))) :=
  Ranked.append (Ranked.append ops0_a_ranked (Ranked.append ops0_b_ranked (Ranked.append ops0_c_ranked ops0_d_ranked)))
    (Ranked.append (Ranked.append ops1_a_ranked ops1_b_ranked) (Ranked.append (Ranked.append ops2_a_ranked ops2_b_ranked) ops3_a_ranked))

theorem ops_pure : ∀ op ∈ (ops : List (HloOp τ sig (Elt F))), Pure op :=
  ops_forall (List.forall_iff_forall_mem.mp ops0_a_pure) (List.forall_iff_forall_mem.mp ops0_b_pure) (List.forall_iff_forall_mem.mp ops0_c_pure) (List.forall_iff_forall_mem.mp ops0_d_pure) (List.forall_iff_forall_mem.mp ops1_a_pure) (List.forall_iff_forall_mem.mp ops1_b_pure) (List.forall_iff_forall_mem.mp ops2_a_pure) (List.forall_iff_forall_mem.mp ops2_b_pure) (List.forall_iff_forall_mem.mp ops3_a_pure)

/-- The final contents satisfy the equation of every operation of the line. -/
theorem fixed (V : Valuation τ sig (Elt F)) (op : HloOp τ sig (Elt F)) (hop : op ∈ (ops : List (HloOp τ sig (Elt F)))) (y : DevRef τ sig) (hy : y ∈ op.writes) :
    after ops V y = op.result (after ops V) y :=
  after_fixed ops ops_ranked ops_pure V op hop y hy

theorem arg0_kept (V : Valuation τ sig (Elt F)) : after ops V (Proc.devRef .tc main_arg0) = V (Proc.devRef .tc main_arg0) :=
  kept main_arg0 (by decide) (by decide) (by decide) (by decide) (by decide) (by decide) (by decide) (by decide) (by decide) V

theorem arg1_kept (V : Valuation τ sig (Elt F)) : after ops V (Proc.devRef .tc main_arg1) = V (Proc.devRef .tc main_arg1) :=
  kept main_arg1 (by decide) (by decide) (by decide) (by decide) (by decide) (by decide) (by decide) (by decide) (by decide) V

theorem arg2_kept (V : Valuation τ sig (Elt F)) : after ops V (Proc.devRef .tc main_arg2) = V (Proc.devRef .tc main_arg2) :=
  kept main_arg2 (by decide) (by decide) (by decide) (by decide) (by decide) (by decide) (by decide) (by decide) (by decide) V

theorem arg3_kept (V : Valuation τ sig (Elt F)) : after ops V (Proc.devRef .tc main_arg3) = V (Proc.devRef .tc main_arg3) :=
  kept main_arg3 (by decide) (by decide) (by decide) (by decide) (by decide) (by decide) (by decide) (by decide) (by decide) V

theorem arg4_kept (V : Valuation τ sig (Elt F)) : after ops V (Proc.devRef .tc main_arg4) = V (Proc.devRef .tc main_arg4) :=
  kept main_arg4 (by decide) (by decide) (by decide) (by decide) (by decide) (by decide) (by decide) (by decide) (by decide) V

theorem arg5_kept (V : Valuation τ sig (Elt F)) : after ops V (Proc.devRef .tc main_arg5) = V (Proc.devRef .tc main_arg5) :=
  kept main_arg5 (by decide) (by decide) (by decide) (by decide) (by decide) (by decide) (by decide) (by decide) (by decide) V

theorem arg6_kept (V : Valuation τ sig (Elt F)) : after ops V (Proc.devRef .tc main_arg6) = V (Proc.devRef .tc main_arg6) :=
  kept main_arg6 (by decide) (by decide) (by decide) (by decide) (by decide) (by decide) (by decide) (by decide) (by decide) V

end Cert.ReferenceIdeal.RefRun

end
-- ==== Proof.RefStages.lean ====
/- Written by: bun scratch/gen_refstages.js (run in the unit directory; it reads proof/ReferenceIdeal.lean). The reference, stage by stage:
   for each buffer of the program the value it ends with, as the pure operation that writes it applied to the stages of that
   operation's operands (a call of an outlined function contributes the callee's operations); each stage takes the argument arrays
   it depends on. `s_main_v142` is the result. -/
import proofs.«178039_g46316927320456_cont_sun_m_677_15_alg».proof.Proof.Gen.ReferenceIdeal

noncomputable section

namespace Cert.ReferenceIdeal.Stage

open Cert.ReferenceIdeal Cert.ReferenceIdeal.Gen Idealize.ShloMosaic

variable {F : FTy → Type} [FloatOps F]

def s_main_c :=
  (constantI S_ 32 0#32)

def s_main_v0 :=
  (broadcastInDim S2048x2048 ![] bcast_S_S2048x2048 : (⟨S_, .i32⟩ : BufTy).Contents (Elt F) → (⟨S2048x2048, .i32⟩ : BufTy).Contents (Elt F)) s_main_c

def s_main_v1 (a0 : (⟨S2048x2048, .i32⟩ : BufTy).Contents (Elt F)) :=
  (cmpi .sgt : (⟨S2048x2048, .i32⟩ : BufTy).Contents (Elt F) → (⟨S2048x2048, .i32⟩ : BufTy).Contents (Elt F) → (⟨S2048x2048, .i1⟩ : BufTy).Contents (Elt F)) a0 (s_main_v0 (F := F))

def s_main_call0_v0 (a0 : (⟨S2048x2048, .i32⟩ : BufTy).Contents (Elt F)) :=
  shapeCast S4194304 (s_main_v1 a0) shapeCasts_S2048x2048_S4194304

def s_main_call0_v1 (a0 : (⟨S2048x2048, .i32⟩ : BufTy).Contents (Elt F)) :=
  (extui 32 · natLt_1_32) (s_main_call0_v0 a0)

def s_main_call0_call0_c :=
  (constantI S_ 32 0#32)

def s_main_call0_call0_v0 :=
  (broadcastInDim S_ ![] bcast_S_S_) s_main_call0_call0_c

def s_main_v2 (a0 : (⟨S2048x2048, .i32⟩ : BufTy).Contents (Elt F)) :=
  (fun x v => Host.reduceWindow IntOp.addi ![4194304] ![1] ![4194303] ![0] x v reduceWindows_S4194304_S4194304_w4194304s1p4194303_0 h_S_) (s_main_call0_v1 a0) s_main_call0_call0_v0

def s_main_c_0 :=
  (constantI S_ 32 0#32)

def s_main_v3 :=
  (broadcastInDim S4194304 ![] bcast_S_S4194304 : (⟨S_, .i32⟩ : BufTy).Contents (Elt F) → (⟨S4194304, .i32⟩ : BufTy).Contents (Elt F)) s_main_c_0

def s_main_c_1 :=
  (constantI S_ 32 0#32)

def s_main_call1_v0 :=
  id s_main_c_1

def s_main_call1_v1 :=
  (broadcastInDim S4194304 ![] bcast_S_S4194304) s_main_call1_v0

def s_main_v4 (a0 : (⟨S2048x2048, .i32⟩ : BufTy).Contents (Elt F)) :=
  maxsi s_main_call1_v1 (s_main_v2 a0)

def s_main_c_2 :=
  (constantI S_ 32 0#32)

def s_main_v5 :=
  (broadcastInDim S4194304 ![] bcast_S_S4194304 : (⟨S_, .i32⟩ : BufTy).Contents (Elt F) → (⟨S4194304, .i32⟩ : BufTy).Contents (Elt F)) s_main_c_2

def s_main_v6 (a0 : (⟨S2048x2048, .i32⟩ : BufTy).Contents (Elt F)) :=
  (cmpi .slt : (⟨S4194304, .i32⟩ : BufTy).Contents (Elt F) → (⟨S4194304, .i32⟩ : BufTy).Contents (Elt F) → (⟨S4194304, .i1⟩ : BufTy).Contents (Elt F)) (s_main_v4 a0) (s_main_v5 (F := F))

def s_main_c_3 :=
  (constantI S_ 32 4194304#32)

def s_main_v7 :=
  (broadcastInDim S4194304 ![] bcast_S_S4194304 : (⟨S_, .i32⟩ : BufTy).Contents (Elt F) → (⟨S4194304, .i32⟩ : BufTy).Contents (Elt F)) s_main_c_3

def s_main_v8 (a0 : (⟨S2048x2048, .i32⟩ : BufTy).Contents (Elt F)) :=
  (addi : (⟨S4194304, .i32⟩ : BufTy).Contents (Elt F) → (⟨S4194304, .i32⟩ : BufTy).Contents (Elt F) → (⟨S4194304, .i32⟩ : BufTy).Contents (Elt F)) (s_main_v4 a0) (s_main_v7 (F := F))

def s_main_v9 (a0 : (⟨S2048x2048, .i32⟩ : BufTy).Contents (Elt F)) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (s_main_v6 a0) (s_main_v8 a0) (s_main_v4 a0)

def s_main_v10 (a0 : (⟨S2048x2048, .i32⟩ : BufTy).Contents (Elt F)) :=
  (broadcastInDim S4194304x1 ![0] bcast_S4194304_S4194304x1_0 : (⟨S4194304, .i32⟩ : BufTy).Contents (Elt F) → (⟨S4194304x1, .i32⟩ : BufTy).Contents (Elt F)) (s_main_v9 a0)

def s_main_c_4 :=
  (constantI S_ 32 1#32)

def s_main_v11 :=
  (broadcastInDim S4194304 ![] bcast_S_S4194304 : (⟨S_, .i32⟩ : BufTy).Contents (Elt F) → (⟨S4194304, .i32⟩ : BufTy).Contents (Elt F)) s_main_c_4

def s_main_v12 (a0 : (⟨S2048x2048, .i32⟩ : BufTy).Contents (Elt F)) :=
  ((fun x i u => Host.scatter scatter_S4194304_S4194304x1_S4194304_n_0_0_1 IntOp.addi x i u) : (⟨S4194304, .i32⟩ : BufTy).Contents (Elt F) → (⟨S4194304x1, .i32⟩ : BufTy).Contents (Elt F) → (⟨S4194304, .i32⟩ : BufTy).Contents (Elt F) → (⟨S4194304, .i32⟩ : BufTy).Contents (Elt F)) (s_main_v3 (F := F)) (s_main_v10 a0) (s_main_v11 (F := F))

def s_main_call2_call0_c :=
  (constantI S_ 32 0#32)

def s_main_call2_call0_v0 :=
  (broadcastInDim S_ ![] bcast_S_S_) s_main_call2_call0_c

def s_main_v13 (a0 : (⟨S2048x2048, .i32⟩ : BufTy).Contents (Elt F)) :=
  (fun x v => Host.reduceWindow IntOp.addi ![4194304] ![1] ![4194303] ![0] x v reduceWindows_S4194304_S4194304_w4194304s1p4194303_0 h_S_) (s_main_v12 a0) s_main_call2_call0_v0

def s_main_c_5 :=
  (constantI S_ 32 2048#32)

def s_main_call3_v0 :=
  (broadcastInDim S4194304 ![] bcast_S_S4194304) s_main_c_5

def s_main_call3_v1 (a0 : (⟨S2048x2048, .i32⟩ : BufTy).Contents (Elt F)) :=
  Host.divsi (s_main_v13 a0) s_main_call3_v0

def s_main_call3_v2 (a0 : (⟨S2048x2048, .i32⟩ : BufTy).Contents (Elt F)) :=
  signi (s_main_v13 a0)

def s_main_call3_v3 :=
  signi s_main_c_5

def s_main_call3_v4 :=
  (broadcastInDim S4194304 ![] bcast_S_S4194304) s_main_call3_v3

def s_main_call3_v5 (a0 : (⟨S2048x2048, .i32⟩ : BufTy).Contents (Elt F)) :=
  (cmpi .ne) (s_main_call3_v2 a0) s_main_call3_v4

def s_main_call3_v6 :=
  (broadcastInDim S4194304 ![] bcast_S_S4194304) s_main_c_5

def s_main_call3_v7 (a0 : (⟨S2048x2048, .i32⟩ : BufTy).Contents (Elt F)) :=
  Host.remsi (s_main_v13 a0) s_main_call3_v6

def s_main_call3_c :=
  (constantI S_ 32 0#32)

def s_main_call3_v8 :=
  (broadcastInDim S4194304 ![] bcast_S_S4194304) s_main_call3_c

def s_main_call3_v9 (a0 : (⟨S2048x2048, .i32⟩ : BufTy).Contents (Elt F)) :=
  (cmpi .ne) (s_main_call3_v7 a0) s_main_call3_v8

def s_main_call3_v10 (a0 : (⟨S2048x2048, .i32⟩ : BufTy).Contents (Elt F)) :=
  andi (s_main_call3_v5 a0) (s_main_call3_v9 a0)

def s_main_call3_c_0 :=
  (constantI S_ 32 1#32)

def s_main_call3_v11 :=
  (broadcastInDim S4194304 ![] bcast_S_S4194304) s_main_call3_c_0

def s_main_call3_v12 (a0 : (⟨S2048x2048, .i32⟩ : BufTy).Contents (Elt F)) :=
  subi (s_main_call3_v1 a0) s_main_call3_v11

def s_main_v14 (a0 : (⟨S2048x2048, .i32⟩ : BufTy).Contents (Elt F)) :=
  select (s_main_call3_v10 a0) (s_main_call3_v12 a0) (s_main_call3_v1 a0)

def s_main_c_6 :=
  (constantI S_ 32 2048#32)

def s_main_call4_v0 :=
  id s_main_c_6

def s_main_call4_c :=
  (constantI S_ 32 0#32)

def s_main_call4_v1 :=
  (cmpi .eq) s_main_call4_v0 s_main_call4_c

def s_main_call4_c_0 :=
  (constantI S_ 32 1#32)

def s_main_call4_v2 :=
  select s_main_call4_v1 s_main_call4_c_0 s_main_call4_v0

def s_main_call4_v3 :=
  (broadcastInDim S4194304 ![] bcast_S_S4194304) s_main_call4_v2

def s_main_call4_v4 (a0 : (⟨S2048x2048, .i32⟩ : BufTy).Contents (Elt F)) :=
  Host.remsi (s_main_v14 a0) s_main_call4_v3

def s_main_call4_c_1 :=
  (constantI S_ 32 0#32)

def s_main_call4_v5 :=
  (broadcastInDim S4194304 ![] bcast_S_S4194304) s_main_call4_c_1

def s_main_call4_v6 (a0 : (⟨S2048x2048, .i32⟩ : BufTy).Contents (Elt F)) :=
  (cmpi .ne) (s_main_call4_v4 a0) s_main_call4_v5

def s_main_call4_c_2 :=
  (constantI S_ 32 0#32)

def s_main_call4_v7 :=
  (broadcastInDim S4194304 ![] bcast_S_S4194304) s_main_call4_c_2

def s_main_call4_v8 (a0 : (⟨S2048x2048, .i32⟩ : BufTy).Contents (Elt F)) :=
  (cmpi .slt) (s_main_call4_v4 a0) s_main_call4_v7

def s_main_call4_c_3 :=
  (constantI S_ 32 0#32)

def s_main_call4_v9 :=
  (cmpi .slt) s_main_call4_v2 s_main_call4_c_3

def s_main_call4_v10 :=
  (broadcastInDim S4194304 ![] bcast_S_S4194304) s_main_call4_v9

def s_main_call4_v11 (a0 : (⟨S2048x2048, .i32⟩ : BufTy).Contents (Elt F)) :=
  (cmpi .ne) (s_main_call4_v8 a0) s_main_call4_v10

def s_main_call4_v12 (a0 : (⟨S2048x2048, .i32⟩ : BufTy).Contents (Elt F)) :=
  andi (s_main_call4_v11 a0) (s_main_call4_v6 a0)

def s_main_call4_v13 :=
  (broadcastInDim S4194304 ![] bcast_S_S4194304) s_main_call4_v2

def s_main_call4_v14 (a0 : (⟨S2048x2048, .i32⟩ : BufTy).Contents (Elt F)) :=
  addi (s_main_call4_v4 a0) s_main_call4_v13

def s_main_v15 (a0 : (⟨S2048x2048, .i32⟩ : BufTy).Contents (Elt F)) :=
  select (s_main_call4_v12 a0) (s_main_call4_v14 a0) (s_main_call4_v4 a0)

def s_main_c_7 :=
  (constantI S_ 32 1#32)

def s_main_call5_v0 :=
  (broadcastInDim S4194304 ![] bcast_S_S4194304) s_main_c_7

def s_main_call5_v1 (a0 : (⟨S2048x2048, .i32⟩ : BufTy).Contents (Elt F)) :=
  Host.divsi (s_main_v13 a0) s_main_call5_v0

def s_main_call5_v2 (a0 : (⟨S2048x2048, .i32⟩ : BufTy).Contents (Elt F)) :=
  signi (s_main_v13 a0)

def s_main_call5_v3 :=
  signi s_main_c_7

def s_main_call5_v4 :=
  (broadcastInDim S4194304 ![] bcast_S_S4194304) s_main_call5_v3

def s_main_call5_v5 (a0 : (⟨S2048x2048, .i32⟩ : BufTy).Contents (Elt F)) :=
  (cmpi .ne) (s_main_call5_v2 a0) s_main_call5_v4

def s_main_call5_v6 :=
  (broadcastInDim S4194304 ![] bcast_S_S4194304) s_main_c_7

def s_main_call5_v7 (a0 : (⟨S2048x2048, .i32⟩ : BufTy).Contents (Elt F)) :=
  Host.remsi (s_main_v13 a0) s_main_call5_v6

def s_main_call5_c :=
  (constantI S_ 32 0#32)

def s_main_call5_v8 :=
  (broadcastInDim S4194304 ![] bcast_S_S4194304) s_main_call5_c

def s_main_call5_v9 (a0 : (⟨S2048x2048, .i32⟩ : BufTy).Contents (Elt F)) :=
  (cmpi .ne) (s_main_call5_v7 a0) s_main_call5_v8

def s_main_call5_v10 (a0 : (⟨S2048x2048, .i32⟩ : BufTy).Contents (Elt F)) :=
  andi (s_main_call5_v5 a0) (s_main_call5_v9 a0)

def s_main_call5_c_0 :=
  (constantI S_ 32 1#32)

def s_main_call5_v11 :=
  (broadcastInDim S4194304 ![] bcast_S_S4194304) s_main_call5_c_0

def s_main_call5_v12 (a0 : (⟨S2048x2048, .i32⟩ : BufTy).Contents (Elt F)) :=
  subi (s_main_call5_v1 a0) s_main_call5_v11

def s_main_v16 (a0 : (⟨S2048x2048, .i32⟩ : BufTy).Contents (Elt F)) :=
  select (s_main_call5_v10 a0) (s_main_call5_v12 a0) (s_main_call5_v1 a0)

def s_main_c_8 :=
  (constantI S_ 32 2048#32)

def s_main_call6_v0 :=
  id s_main_c_8

def s_main_call6_c :=
  (constantI S_ 32 0#32)

def s_main_call6_v1 :=
  (cmpi .eq) s_main_call6_v0 s_main_call6_c

def s_main_call6_c_0 :=
  (constantI S_ 32 1#32)

def s_main_call6_v2 :=
  select s_main_call6_v1 s_main_call6_c_0 s_main_call6_v0

def s_main_call6_v3 :=
  (broadcastInDim S4194304 ![] bcast_S_S4194304) s_main_call6_v2

def s_main_call6_v4 (a0 : (⟨S2048x2048, .i32⟩ : BufTy).Contents (Elt F)) :=
  Host.remsi (s_main_v16 a0) s_main_call6_v3

def s_main_call6_c_1 :=
  (constantI S_ 32 0#32)

def s_main_call6_v5 :=
  (broadcastInDim S4194304 ![] bcast_S_S4194304) s_main_call6_c_1

def s_main_call6_v6 (a0 : (⟨S2048x2048, .i32⟩ : BufTy).Contents (Elt F)) :=
  (cmpi .ne) (s_main_call6_v4 a0) s_main_call6_v5

def s_main_call6_c_2 :=
  (constantI S_ 32 0#32)

def s_main_call6_v7 :=
  (broadcastInDim S4194304 ![] bcast_S_S4194304) s_main_call6_c_2

def s_main_call6_v8 (a0 : (⟨S2048x2048, .i32⟩ : BufTy).Contents (Elt F)) :=
  (cmpi .slt) (s_main_call6_v4 a0) s_main_call6_v7

def s_main_call6_c_3 :=
  (constantI S_ 32 0#32)

def s_main_call6_v9 :=
  (cmpi .slt) s_main_call6_v2 s_main_call6_c_3

def s_main_call6_v10 :=
  (broadcastInDim S4194304 ![] bcast_S_S4194304) s_main_call6_v9

def s_main_call6_v11 (a0 : (⟨S2048x2048, .i32⟩ : BufTy).Contents (Elt F)) :=
  (cmpi .ne) (s_main_call6_v8 a0) s_main_call6_v10

def s_main_call6_v12 (a0 : (⟨S2048x2048, .i32⟩ : BufTy).Contents (Elt F)) :=
  andi (s_main_call6_v11 a0) (s_main_call6_v6 a0)

def s_main_call6_v13 :=
  (broadcastInDim S4194304 ![] bcast_S_S4194304) s_main_call6_v2

def s_main_call6_v14 (a0 : (⟨S2048x2048, .i32⟩ : BufTy).Contents (Elt F)) :=
  addi (s_main_call6_v4 a0) s_main_call6_v13

def s_main_v17 (a0 : (⟨S2048x2048, .i32⟩ : BufTy).Contents (Elt F)) :=
  select (s_main_call6_v12 a0) (s_main_call6_v14 a0) (s_main_call6_v4 a0)

def s_main_v18 :=
  (iotaInDim S4194304 32 0)

def s_main_v19 (a0 : (⟨S2048x2048, .i32⟩ : BufTy).Contents (Elt F)) :=
  ((extui 32 · natLt_1_32) : (⟨S2048x2048, .i1⟩ : BufTy).Contents (Elt F) → (⟨S2048x2048, .i32⟩ : BufTy).Contents (Elt F)) (s_main_v1 a0)

def s_main_c_9 :=
  (constantI S_ 32 0#32)

def s_main_v20 (a0 : (⟨S2048x2048, .i32⟩ : BufTy).Contents (Elt F)) :=
  ((fun x v => Host.reduce IntOp.addi x v reducesTo_S2048x2048_S_d0_1 h_S_) : (⟨S2048x2048, .i32⟩ : BufTy).Contents (Elt F) → (⟨S_, .i32⟩ : BufTy).Contents (Elt F) → (⟨S_, .i32⟩ : BufTy).Contents (Elt F)) (s_main_v19 a0) s_main_c_9

def s_main_v21 (a0 : (⟨S2048x2048, .i32⟩ : BufTy).Contents (Elt F)) :=
  (broadcastInDim S4194304 ![] bcast_S_S4194304 : (⟨S_, .i32⟩ : BufTy).Contents (Elt F) → (⟨S4194304, .i32⟩ : BufTy).Contents (Elt F)) (s_main_v20 a0)

def s_main_v22 (a0 : (⟨S2048x2048, .i32⟩ : BufTy).Contents (Elt F)) :=
  (cmpi .sge : (⟨S4194304, .i32⟩ : BufTy).Contents (Elt F) → (⟨S4194304, .i32⟩ : BufTy).Contents (Elt F) → (⟨S4194304, .i1⟩ : BufTy).Contents (Elt F)) s_main_v18 (s_main_v21 a0)

def s_main_c_10 :=
  (constantI S_ 32 2048#32)

def s_main_call7_v0 :=
  id s_main_c_10

def s_main_call7_v1 :=
  (broadcastInDim S4194304 ![] bcast_S_S4194304) s_main_call7_v0

def s_main_v23 (a0 : (⟨S2048x2048, .i32⟩ : BufTy).Contents (Elt F)) :=
  select (s_main_v22 a0) s_main_call7_v1 (s_main_v15 a0)

def s_main_c_11 :=
  (constantI S_ 32 2048#32)

def s_main_call8_v0 :=
  id s_main_c_11

def s_main_call8_v1 :=
  (broadcastInDim S4194304 ![] bcast_S_S4194304) s_main_call8_v0

def s_main_v24 (a0 : (⟨S2048x2048, .i32⟩ : BufTy).Contents (Elt F)) :=
  select (s_main_v22 a0) s_main_call8_v1 (s_main_v17 a0)

def s_main_cst :=
  (constant (F := F) S_ .f32 0x3F800000#32)

def s_main_v25 :=
  (broadcastInDim S2048x1 ![] bcast_S_S2048x1 : (⟨S_, .f32⟩ : BufTy).Contents (Elt F) → (⟨S2048x1, .f32⟩ : BufTy).Contents (Elt F)) (s_main_cst (F := F))

def s_main_v26 (a1 : (⟨S1x32, .f32⟩ : BufTy).Contents (Elt F)) :=
  ((fun l r => Host.dotGeneral dot_S2048x1_S1x32_S2048x32_1_0_0_1_n_n none l r) : (⟨S2048x1, .f32⟩ : BufTy).Contents (Elt F) → (⟨S1x32, .f32⟩ : BufTy).Contents (Elt F) → (⟨S2048x32, .f32⟩ : BufTy).Contents (Elt F)) (s_main_v25 (F := F)) a1

def s_main_v27 :=
  (iotaInDim S2048 32 0)

def s_main_v28 (a0 : (⟨S2048x2048, .i32⟩ : BufTy).Contents (Elt F)) :=
  ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) (s_main_v23 a0) s_main_v27

def s_main_v29 (a0 : (⟨S2048x2048, .i32⟩ : BufTy).Contents (Elt F)) :=
  ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) (s_main_v24 a0) s_main_v27

def s_main_cst_12 :=
  (constant (F := F) S_ .f32 0x00000000#32)

def s_main_v30 :=
  (broadcastInDim S2048 ![] bcast_S_S2048 : (⟨S_, .f32⟩ : BufTy).Contents (Elt F) → (⟨S2048, .f32⟩ : BufTy).Contents (Elt F)) (s_main_cst_12 (F := F))

def s_main_c_13 :=
  (constantI S_ 32 0#32)

def s_main_v31 :=
  (broadcastInDim S4196352 ![] bcast_S_S4196352 : (⟨S_, .i32⟩ : BufTy).Contents (Elt F) → (⟨S4196352, .i32⟩ : BufTy).Contents (Elt F)) s_main_c_13

def s_main_v32 (a0 : (⟨S2048x2048, .i32⟩ : BufTy).Contents (Elt F)) :=
  (cmpi .slt : (⟨S4196352, .i32⟩ : BufTy).Contents (Elt F) → (⟨S4196352, .i32⟩ : BufTy).Contents (Elt F) → (⟨S4196352, .i1⟩ : BufTy).Contents (Elt F)) (s_main_v29 a0) (s_main_v31 (F := F))

def s_main_c_14 :=
  (constantI S_ 32 2048#32)

def s_main_v33 :=
  (broadcastInDim S4196352 ![] bcast_S_S4196352 : (⟨S_, .i32⟩ : BufTy).Contents (Elt F) → (⟨S4196352, .i32⟩ : BufTy).Contents (Elt F)) s_main_c_14

def s_main_v34 (a0 : (⟨S2048x2048, .i32⟩ : BufTy).Contents (Elt F)) :=
  (addi : (⟨S4196352, .i32⟩ : BufTy).Contents (Elt F) → (⟨S4196352, .i32⟩ : BufTy).Contents (Elt F) → (⟨S4196352, .i32⟩ : BufTy).Contents (Elt F)) (s_main_v29 a0) (s_main_v33 (F := F))

def s_main_v35 (a0 : (⟨S2048x2048, .i32⟩ : BufTy).Contents (Elt F)) :=
  (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (s_main_v32 a0) (s_main_v34 a0) (s_main_v29 a0)

def s_main_v36 (a0 : (⟨S2048x2048, .i32⟩ : BufTy).Contents (Elt F)) :=
  (broadcastInDim S4196352x1 ![0] bcast_S4196352_S4196352x1_0 : (⟨S4196352, .i32⟩ : BufTy).Contents (Elt F) → (⟨S4196352x1, .i32⟩ : BufTy).Contents (Elt F)) (s_main_v35 a0)

def s_main_cst_15 :=
  (constant (F := F) S_ .f32 0x3F800000#32)

def s_main_v37 :=
  (broadcastInDim S4196352 ![] bcast_S_S4196352 : (⟨S_, .f32⟩ : BufTy).Contents (Elt F) → (⟨S4196352, .f32⟩ : BufTy).Contents (Elt F)) (s_main_cst_15 (F := F))

def s_main_v38 (a0 : (⟨S2048x2048, .i32⟩ : BufTy).Contents (Elt F)) :=
  ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)) (s_main_v30 (F := F)) (s_main_v36 a0) (s_main_v37 (F := F))

def s_main_cst_16 :=
  (constant (F := F) S_ .f32 0x00000000#32)

def s_main_v39 :=
  (broadcastInDim S2048 ![] bcast_S_S2048 : (⟨S_, .f32⟩ : BufTy).Contents (Elt F) → (⟨S2048, .f32⟩ : BufTy).Contents (Elt F)) (s_main_cst_16 (F := F))

def s_main_v40 (a0 : (⟨S2048x2048, .i32⟩ : BufTy).Contents (Elt F)) :=
  (cmpf .ogt : (⟨S2048, .f32⟩ : BufTy).Contents (Elt F) → (⟨S2048, .f32⟩ : BufTy).Contents (Elt F) → (⟨S2048, .i1⟩ : BufTy).Contents (Elt F)) (s_main_v38 a0) (s_main_v39 (F := F))

def s_main_v41 (a0 : (⟨S2048x2048, .i32⟩ : BufTy).Contents (Elt F)) :=
  (Host.sqrt : (⟨S2048, .f32⟩ : BufTy).Contents (Elt F) → (⟨S2048, .f32⟩ : BufTy).Contents (Elt F)) (s_main_v38 a0)

def s_main_cst_17 :=
  (constant (F := F) S_ .f32 0x3F800000#32)

def s_main_v42 :=
  (broadcastInDim S2048 ![] bcast_S_S2048 : (⟨S_, .f32⟩ : BufTy).Contents (Elt F) → (⟨S2048, .f32⟩ : BufTy).Contents (Elt F)) (s_main_cst_17 (F := F))

def s_main_v43 (a0 : (⟨S2048x2048, .i32⟩ : BufTy).Contents (Elt F)) :=
  (Host.divf : (⟨S2048, .f32⟩ : BufTy).Contents (Elt F) → (⟨S2048, .f32⟩ : BufTy).Contents (Elt F) → (⟨S2048, .f32⟩ : BufTy).Contents (Elt F)) (s_main_v42 (F := F)) (s_main_v41 a0)

def s_main_cst_18 :=
  (constant (F := F) S_ .f32 0x00000000#32)

def s_main_call9_v0 :=
  id (s_main_cst_18 (F := F))

def s_main_call9_v1 :=
  (broadcastInDim S2048 ![] bcast_S_S2048) (s_main_call9_v0 (F := F))

def s_main_v44 (a0 : (⟨S2048x2048, .i32⟩ : BufTy).Contents (Elt F)) :=
  select (s_main_v40 a0) (s_main_v43 a0) (s_main_call9_v1 (F := F))

def s_main_c_19 :=
  (constantI S_ 32 0#32)

def s_main_v45 :=
  (broadcastInDim S4196352 ![] bcast_S_S4196352 : (⟨S_, .i32⟩ : BufTy).Contents (Elt F) → (⟨S4196352, .i32⟩ : BufTy).Contents (Elt F)) s_main_c_19

def s_main_v46 (a0 : (⟨S2048x2048, .i32⟩ : BufTy).Contents (Elt F)) :=
  (cmpi .slt : (⟨S4196352, .i32⟩ : BufTy).Contents (Elt F) → (⟨S4196352, .i32⟩ : BufTy).Contents (Elt F) → (⟨S4196352, .i1⟩ : BufTy).Contents (Elt F)) (s_main_v28 a0) (s_main_v45 (F := F))

def s_main_c_20 :=
  (constantI S_ 32 2048#32)

def s_main_v47 :=
  (broadcastInDim S4196352 ![] bcast_S_S4196352 : (⟨S_, .i32⟩ : BufTy).Contents (Elt F) → (⟨S4196352, .i32⟩ : BufTy).Contents (Elt F)) s_main_c_20

def s_main_v48 (a0 : (⟨S2048x2048, .i32⟩ : BufTy).Contents (Elt F)) :=
  (addi : (⟨S4196352, .i32⟩ : BufTy).Contents (Elt F) → (⟨S4196352, .i32⟩ : BufTy).Contents (Elt F) → (⟨S4196352, .i32⟩ : BufTy).Contents (Elt F)) (s_main_v28 a0) (s_main_v47 (F := F))

def s_main_v49 (a0 : (⟨S2048x2048, .i32⟩ : BufTy).Contents (Elt F)) :=
  (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (s_main_v46 a0) (s_main_v48 a0) (s_main_v28 a0)

def s_main_v50 (a0 : (⟨S2048x2048, .i32⟩ : BufTy).Contents (Elt F)) :=
  (broadcastInDim S4196352x1 ![0] bcast_S4196352_S4196352x1_0 : (⟨S4196352, .i32⟩ : BufTy).Contents (Elt F) → (⟨S4196352x1, .i32⟩ : BufTy).Contents (Elt F)) (s_main_v49 a0)

def s_main_v51 (a0 : (⟨S2048x2048, .i32⟩ : BufTy).Contents (Elt F)) :=
  ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) (s_main_v44 a0) (s_main_v50 a0)

def s_main_c_21 :=
  (constantI S_ 32 0#32)

def s_main_v52 :=
  (broadcastInDim S4196352 ![] bcast_S_S4196352 : (⟨S_, .i32⟩ : BufTy).Contents (Elt F) → (⟨S4196352, .i32⟩ : BufTy).Contents (Elt F)) s_main_c_21

def s_main_v53 (a0 : (⟨S2048x2048, .i32⟩ : BufTy).Contents (Elt F)) :=
  (cmpi .slt : (⟨S4196352, .i32⟩ : BufTy).Contents (Elt F) → (⟨S4196352, .i32⟩ : BufTy).Contents (Elt F) → (⟨S4196352, .i1⟩ : BufTy).Contents (Elt F)) (s_main_v29 a0) (s_main_v52 (F := F))

def s_main_c_22 :=
  (constantI S_ 32 2048#32)

def s_main_v54 :=
  (broadcastInDim S4196352 ![] bcast_S_S4196352 : (⟨S_, .i32⟩ : BufTy).Contents (Elt F) → (⟨S4196352, .i32⟩ : BufTy).Contents (Elt F)) s_main_c_22

def s_main_v55 (a0 : (⟨S2048x2048, .i32⟩ : BufTy).Contents (Elt F)) :=
  (addi : (⟨S4196352, .i32⟩ : BufTy).Contents (Elt F) → (⟨S4196352, .i32⟩ : BufTy).Contents (Elt F) → (⟨S4196352, .i32⟩ : BufTy).Contents (Elt F)) (s_main_v29 a0) (s_main_v54 (F := F))

def s_main_v56 (a0 : (⟨S2048x2048, .i32⟩ : BufTy).Contents (Elt F)) :=
  (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (s_main_v53 a0) (s_main_v55 a0) (s_main_v29 a0)

def s_main_v57 (a0 : (⟨S2048x2048, .i32⟩ : BufTy).Contents (Elt F)) :=
  (broadcastInDim S4196352x1 ![0] bcast_S4196352_S4196352x1_0 : (⟨S4196352, .i32⟩ : BufTy).Contents (Elt F) → (⟨S4196352x1, .i32⟩ : BufTy).Contents (Elt F)) (s_main_v56 a0)

def s_main_v58 (a0 : (⟨S2048x2048, .i32⟩ : BufTy).Contents (Elt F)) :=
  ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) (s_main_v44 a0) (s_main_v57 a0)

def s_main_v59 (a0 : (⟨S2048x2048, .i32⟩ : BufTy).Contents (Elt F)) :=
  (mulf : (⟨S4196352, .f32⟩ : BufTy).Contents (Elt F) → (⟨S4196352, .f32⟩ : BufTy).Contents (Elt F) → (⟨S4196352, .f32⟩ : BufTy).Contents (Elt F)) (s_main_v51 a0) (s_main_v58 a0)

def s_main_c_23 :=
  (constantI S_ 32 0#32)

def s_main_v60 :=
  (broadcastInDim S4196352 ![] bcast_S_S4196352 : (⟨S_, .i32⟩ : BufTy).Contents (Elt F) → (⟨S4196352, .i32⟩ : BufTy).Contents (Elt F)) s_main_c_23

def s_main_v61 (a0 : (⟨S2048x2048, .i32⟩ : BufTy).Contents (Elt F)) :=
  (cmpi .slt : (⟨S4196352, .i32⟩ : BufTy).Contents (Elt F) → (⟨S4196352, .i32⟩ : BufTy).Contents (Elt F) → (⟨S4196352, .i1⟩ : BufTy).Contents (Elt F)) (s_main_v28 a0) (s_main_v60 (F := F))

def s_main_c_24 :=
  (constantI S_ 32 2048#32)

def s_main_v62 :=
  (broadcastInDim S4196352 ![] bcast_S_S4196352 : (⟨S_, .i32⟩ : BufTy).Contents (Elt F) → (⟨S4196352, .i32⟩ : BufTy).Contents (Elt F)) s_main_c_24

def s_main_v63 (a0 : (⟨S2048x2048, .i32⟩ : BufTy).Contents (Elt F)) :=
  (addi : (⟨S4196352, .i32⟩ : BufTy).Contents (Elt F) → (⟨S4196352, .i32⟩ : BufTy).Contents (Elt F) → (⟨S4196352, .i32⟩ : BufTy).Contents (Elt F)) (s_main_v28 a0) (s_main_v62 (F := F))

def s_main_v64 (a0 : (⟨S2048x2048, .i32⟩ : BufTy).Contents (Elt F)) :=
  (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (s_main_v61 a0) (s_main_v63 a0) (s_main_v28 a0)

def s_main_v65 (a0 : (⟨S2048x2048, .i32⟩ : BufTy).Contents (Elt F)) :=
  (broadcastInDim S4196352x1 ![0] bcast_S4196352_S4196352x1_0 : (⟨S4196352, .i32⟩ : BufTy).Contents (Elt F) → (⟨S4196352x1, .i32⟩ : BufTy).Contents (Elt F)) (s_main_v64 a0)

def s_main_v66 (a0 : (⟨S2048x2048, .i32⟩ : BufTy).Contents (Elt F)) (a1 : (⟨S1x32, .f32⟩ : BufTy).Contents (Elt F)) :=
  ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)) (s_main_v26 a1) (s_main_v65 a0)

def s_main_v67 (a0 : (⟨S2048x2048, .i32⟩ : BufTy).Contents (Elt F)) :=
  (broadcastInDim S4196352x1 ![0] bcast_S4196352_S4196352x1_0 : (⟨S4196352, .f32⟩ : BufTy).Contents (Elt F) → (⟨S4196352x1, .f32⟩ : BufTy).Contents (Elt F)) (s_main_v59 a0)

def s_main_v68 (a0 : (⟨S2048x2048, .i32⟩ : BufTy).Contents (Elt F)) :=
  (broadcastInDim S4196352x32 ![0, 1] bcast_S4196352x1_S4196352x32_0_1 : (⟨S4196352x1, .f32⟩ : BufTy).Contents (Elt F) → (⟨S4196352x32, .f32⟩ : BufTy).Contents (Elt F)) (s_main_v67 a0)

def s_main_v69 (a0 : (⟨S2048x2048, .i32⟩ : BufTy).Contents (Elt F)) (a1 : (⟨S1x32, .f32⟩ : BufTy).Contents (Elt F)) :=
  (mulf : (⟨S4196352x32, .f32⟩ : BufTy).Contents (Elt F) → (⟨S4196352x32, .f32⟩ : BufTy).Contents (Elt F) → (⟨S4196352x32, .f32⟩ : BufTy).Contents (Elt F)) (s_main_v66 a0 a1) (s_main_v68 a0)

def s_main_cst_25 :=
  (constant (F := F) S_ .f32 0x00000000#32)

def s_main_v70 :=
  (broadcastInDim S2048x32 ![] bcast_S_S2048x32 : (⟨S_, .f32⟩ : BufTy).Contents (Elt F) → (⟨S2048x32, .f32⟩ : BufTy).Contents (Elt F)) (s_main_cst_25 (F := F))

def s_main_c_26 :=
  (constantI S_ 32 0#32)

def s_main_v71 :=
  (broadcastInDim S4196352 ![] bcast_S_S4196352 : (⟨S_, .i32⟩ : BufTy).Contents (Elt F) → (⟨S4196352, .i32⟩ : BufTy).Contents (Elt F)) s_main_c_26

def s_main_v72 (a0 : (⟨S2048x2048, .i32⟩ : BufTy).Contents (Elt F)) :=
  (cmpi .slt : (⟨S4196352, .i32⟩ : BufTy).Contents (Elt F) → (⟨S4196352, .i32⟩ : BufTy).Contents (Elt F) → (⟨S4196352, .i1⟩ : BufTy).Contents (Elt F)) (s_main_v29 a0) (s_main_v71 (F := F))

def s_main_c_27 :=
  (constantI S_ 32 2048#32)

def s_main_v73 :=
  (broadcastInDim S4196352 ![] bcast_S_S4196352 : (⟨S_, .i32⟩ : BufTy).Contents (Elt F) → (⟨S4196352, .i32⟩ : BufTy).Contents (Elt F)) s_main_c_27

def s_main_v74 (a0 : (⟨S2048x2048, .i32⟩ : BufTy).Contents (Elt F)) :=
  (addi : (⟨S4196352, .i32⟩ : BufTy).Contents (Elt F) → (⟨S4196352, .i32⟩ : BufTy).Contents (Elt F) → (⟨S4196352, .i32⟩ : BufTy).Contents (Elt F)) (s_main_v29 a0) (s_main_v73 (F := F))

def s_main_v75 (a0 : (⟨S2048x2048, .i32⟩ : BufTy).Contents (Elt F)) :=
  (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (s_main_v72 a0) (s_main_v74 a0) (s_main_v29 a0)

def s_main_v76 (a0 : (⟨S2048x2048, .i32⟩ : BufTy).Contents (Elt F)) :=
  (broadcastInDim S4196352x1 ![0] bcast_S4196352_S4196352x1_0 : (⟨S4196352, .i32⟩ : BufTy).Contents (Elt F) → (⟨S4196352x1, .i32⟩ : BufTy).Contents (Elt F)) (s_main_v75 a0)

def s_main_v77 (a0 : (⟨S2048x2048, .i32⟩ : BufTy).Contents (Elt F)) (a1 : (⟨S1x32, .f32⟩ : BufTy).Contents (Elt F)) :=
  ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)) (s_main_v70 (F := F)) (s_main_v76 a0) (s_main_v69 a0 a1)

def s_main_v78 (a2 : (⟨S32, .f32⟩ : BufTy).Contents (Elt F)) :=
  (broadcastInDim S1x32 ![1] bcast_S32_S1x32_1 : (⟨S32, .f32⟩ : BufTy).Contents (Elt F) → (⟨S1x32, .f32⟩ : BufTy).Contents (Elt F)) a2

def s_main_v79 (a2 : (⟨S32, .f32⟩ : BufTy).Contents (Elt F)) :=
  (broadcastInDim S2048x32 ![0, 1] bcast_S1x32_S2048x32_0_1 : (⟨S1x32, .f32⟩ : BufTy).Contents (Elt F) → (⟨S2048x32, .f32⟩ : BufTy).Contents (Elt F)) (s_main_v78 a2)

def s_main_v80 (a0 : (⟨S2048x2048, .i32⟩ : BufTy).Contents (Elt F)) (a1 : (⟨S1x32, .f32⟩ : BufTy).Contents (Elt F)) (a2 : (⟨S32, .f32⟩ : BufTy).Contents (Elt F)) :=
  (addf : (⟨S2048x32, .f32⟩ : BufTy).Contents (Elt F) → (⟨S2048x32, .f32⟩ : BufTy).Contents (Elt F) → (⟨S2048x32, .f32⟩ : BufTy).Contents (Elt F)) (s_main_v77 a0 a1) (s_main_v79 a2)

def s_main_call10_cst :=
  (constant (F := F) S_ .f32 0x00000000#32)

def s_main_call10_v0 :=
  (broadcastInDim S2048x32 ![] bcast_S_S2048x32) (s_main_call10_cst (F := F))

def s_main_v81 (a0 : (⟨S2048x2048, .i32⟩ : BufTy).Contents (Elt F)) (a1 : (⟨S1x32, .f32⟩ : BufTy).Contents (Elt F)) (a2 : (⟨S32, .f32⟩ : BufTy).Contents (Elt F)) :=
  maximumf (s_main_v80 a0 a1 a2) (s_main_call10_v0 (F := F))

def s_main_v82 (a0 : (⟨S2048x2048, .i32⟩ : BufTy).Contents (Elt F)) (a1 : (⟨S1x32, .f32⟩ : BufTy).Contents (Elt F)) (a2 : (⟨S32, .f32⟩ : BufTy).Contents (Elt F)) (a3 : (⟨S32x32, .f32⟩ : BufTy).Contents (Elt F)) :=
  ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)) (s_main_v81 a0 a1 a2) a3

def s_main_v83 :=
  (iotaInDim S2048 32 0)

def s_main_v84 (a0 : (⟨S2048x2048, .i32⟩ : BufTy).Contents (Elt F)) :=
  ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) (s_main_v23 a0) s_main_v83

def s_main_v85 (a0 : (⟨S2048x2048, .i32⟩ : BufTy).Contents (Elt F)) :=
  ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) (s_main_v24 a0) s_main_v83

def s_main_cst_28 :=
  (constant (F := F) S_ .f32 0x00000000#32)

def s_main_v86 :=
  (broadcastInDim S2048 ![] bcast_S_S2048 : (⟨S_, .f32⟩ : BufTy).Contents (Elt F) → (⟨S2048, .f32⟩ : BufTy).Contents (Elt F)) (s_main_cst_28 (F := F))

def s_main_c_29 :=
  (constantI S_ 32 0#32)

def s_main_v87 :=
  (broadcastInDim S4196352 ![] bcast_S_S4196352 : (⟨S_, .i32⟩ : BufTy).Contents (Elt F) → (⟨S4196352, .i32⟩ : BufTy).Contents (Elt F)) s_main_c_29

def s_main_v88 (a0 : (⟨S2048x2048, .i32⟩ : BufTy).Contents (Elt F)) :=
  (cmpi .slt : (⟨S4196352, .i32⟩ : BufTy).Contents (Elt F) → (⟨S4196352, .i32⟩ : BufTy).Contents (Elt F) → (⟨S4196352, .i1⟩ : BufTy).Contents (Elt F)) (s_main_v85 a0) (s_main_v87 (F := F))

def s_main_c_30 :=
  (constantI S_ 32 2048#32)

def s_main_v89 :=
  (broadcastInDim S4196352 ![] bcast_S_S4196352 : (⟨S_, .i32⟩ : BufTy).Contents (Elt F) → (⟨S4196352, .i32⟩ : BufTy).Contents (Elt F)) s_main_c_30

def s_main_v90 (a0 : (⟨S2048x2048, .i32⟩ : BufTy).Contents (Elt F)) :=
  (addi : (⟨S4196352, .i32⟩ : BufTy).Contents (Elt F) → (⟨S4196352, .i32⟩ : BufTy).Contents (Elt F) → (⟨S4196352, .i32⟩ : BufTy).Contents (Elt F)) (s_main_v85 a0) (s_main_v89 (F := F))

def s_main_v91 (a0 : (⟨S2048x2048, .i32⟩ : BufTy).Contents (Elt F)) :=
  (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (s_main_v88 a0) (s_main_v90 a0) (s_main_v85 a0)

def s_main_v92 (a0 : (⟨S2048x2048, .i32⟩ : BufTy).Contents (Elt F)) :=
  (broadcastInDim S4196352x1 ![0] bcast_S4196352_S4196352x1_0 : (⟨S4196352, .i32⟩ : BufTy).Contents (Elt F) → (⟨S4196352x1, .i32⟩ : BufTy).Contents (Elt F)) (s_main_v91 a0)

def s_main_cst_31 :=
  (constant (F := F) S_ .f32 0x3F800000#32)

def s_main_v93 :=
  (broadcastInDim S4196352 ![] bcast_S_S4196352 : (⟨S_, .f32⟩ : BufTy).Contents (Elt F) → (⟨S4196352, .f32⟩ : BufTy).Contents (Elt F)) (s_main_cst_31 (F := F))

def s_main_v94 (a0 : (⟨S2048x2048, .i32⟩ : BufTy).Contents (Elt F)) :=
  ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)) (s_main_v86 (F := F)) (s_main_v92 a0) (s_main_v93 (F := F))

def s_main_cst_32 :=
  (constant (F := F) S_ .f32 0x00000000#32)

def s_main_v95 :=
  (broadcastInDim S2048 ![] bcast_S_S2048 : (⟨S_, .f32⟩ : BufTy).Contents (Elt F) → (⟨S2048, .f32⟩ : BufTy).Contents (Elt F)) (s_main_cst_32 (F := F))

def s_main_v96 (a0 : (⟨S2048x2048, .i32⟩ : BufTy).Contents (Elt F)) :=
  (cmpf .ogt : (⟨S2048, .f32⟩ : BufTy).Contents (Elt F) → (⟨S2048, .f32⟩ : BufTy).Contents (Elt F) → (⟨S2048, .i1⟩ : BufTy).Contents (Elt F)) (s_main_v94 a0) (s_main_v95 (F := F))

def s_main_v97 (a0 : (⟨S2048x2048, .i32⟩ : BufTy).Contents (Elt F)) :=
  (Host.sqrt : (⟨S2048, .f32⟩ : BufTy).Contents (Elt F) → (⟨S2048, .f32⟩ : BufTy).Contents (Elt F)) (s_main_v94 a0)

def s_main_cst_33 :=
  (constant (F := F) S_ .f32 0x3F800000#32)

def s_main_v98 :=
  (broadcastInDim S2048 ![] bcast_S_S2048 : (⟨S_, .f32⟩ : BufTy).Contents (Elt F) → (⟨S2048, .f32⟩ : BufTy).Contents (Elt F)) (s_main_cst_33 (F := F))

def s_main_v99 (a0 : (⟨S2048x2048, .i32⟩ : BufTy).Contents (Elt F)) :=
  (Host.divf : (⟨S2048, .f32⟩ : BufTy).Contents (Elt F) → (⟨S2048, .f32⟩ : BufTy).Contents (Elt F) → (⟨S2048, .f32⟩ : BufTy).Contents (Elt F)) (s_main_v98 (F := F)) (s_main_v97 a0)

def s_main_cst_34 :=
  (constant (F := F) S_ .f32 0x00000000#32)

def s_main_call11_v0 :=
  id (s_main_cst_34 (F := F))

def s_main_call11_v1 :=
  (broadcastInDim S2048 ![] bcast_S_S2048) (s_main_call11_v0 (F := F))

def s_main_v100 (a0 : (⟨S2048x2048, .i32⟩ : BufTy).Contents (Elt F)) :=
  select (s_main_v96 a0) (s_main_v99 a0) (s_main_call11_v1 (F := F))

def s_main_c_35 :=
  (constantI S_ 32 0#32)

def s_main_v101 :=
  (broadcastInDim S4196352 ![] bcast_S_S4196352 : (⟨S_, .i32⟩ : BufTy).Contents (Elt F) → (⟨S4196352, .i32⟩ : BufTy).Contents (Elt F)) s_main_c_35

def s_main_v102 (a0 : (⟨S2048x2048, .i32⟩ : BufTy).Contents (Elt F)) :=
  (cmpi .slt : (⟨S4196352, .i32⟩ : BufTy).Contents (Elt F) → (⟨S4196352, .i32⟩ : BufTy).Contents (Elt F) → (⟨S4196352, .i1⟩ : BufTy).Contents (Elt F)) (s_main_v84 a0) (s_main_v101 (F := F))

def s_main_c_36 :=
  (constantI S_ 32 2048#32)

def s_main_v103 :=
  (broadcastInDim S4196352 ![] bcast_S_S4196352 : (⟨S_, .i32⟩ : BufTy).Contents (Elt F) → (⟨S4196352, .i32⟩ : BufTy).Contents (Elt F)) s_main_c_36

def s_main_v104 (a0 : (⟨S2048x2048, .i32⟩ : BufTy).Contents (Elt F)) :=
  (addi : (⟨S4196352, .i32⟩ : BufTy).Contents (Elt F) → (⟨S4196352, .i32⟩ : BufTy).Contents (Elt F) → (⟨S4196352, .i32⟩ : BufTy).Contents (Elt F)) (s_main_v84 a0) (s_main_v103 (F := F))

def s_main_v105 (a0 : (⟨S2048x2048, .i32⟩ : BufTy).Contents (Elt F)) :=
  (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (s_main_v102 a0) (s_main_v104 a0) (s_main_v84 a0)

def s_main_v106 (a0 : (⟨S2048x2048, .i32⟩ : BufTy).Contents (Elt F)) :=
  (broadcastInDim S4196352x1 ![0] bcast_S4196352_S4196352x1_0 : (⟨S4196352, .i32⟩ : BufTy).Contents (Elt F) → (⟨S4196352x1, .i32⟩ : BufTy).Contents (Elt F)) (s_main_v105 a0)

def s_main_v107 (a0 : (⟨S2048x2048, .i32⟩ : BufTy).Contents (Elt F)) :=
  ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) (s_main_v100 a0) (s_main_v106 a0)

def s_main_c_37 :=
  (constantI S_ 32 0#32)

def s_main_v108 :=
  (broadcastInDim S4196352 ![] bcast_S_S4196352 : (⟨S_, .i32⟩ : BufTy).Contents (Elt F) → (⟨S4196352, .i32⟩ : BufTy).Contents (Elt F)) s_main_c_37

def s_main_v109 (a0 : (⟨S2048x2048, .i32⟩ : BufTy).Contents (Elt F)) :=
  (cmpi .slt : (⟨S4196352, .i32⟩ : BufTy).Contents (Elt F) → (⟨S4196352, .i32⟩ : BufTy).Contents (Elt F) → (⟨S4196352, .i1⟩ : BufTy).Contents (Elt F)) (s_main_v85 a0) (s_main_v108 (F := F))

def s_main_c_38 :=
  (constantI S_ 32 2048#32)

def s_main_v110 :=
  (broadcastInDim S4196352 ![] bcast_S_S4196352 : (⟨S_, .i32⟩ : BufTy).Contents (Elt F) → (⟨S4196352, .i32⟩ : BufTy).Contents (Elt F)) s_main_c_38

def s_main_v111 (a0 : (⟨S2048x2048, .i32⟩ : BufTy).Contents (Elt F)) :=
  (addi : (⟨S4196352, .i32⟩ : BufTy).Contents (Elt F) → (⟨S4196352, .i32⟩ : BufTy).Contents (Elt F) → (⟨S4196352, .i32⟩ : BufTy).Contents (Elt F)) (s_main_v85 a0) (s_main_v110 (F := F))

def s_main_v112 (a0 : (⟨S2048x2048, .i32⟩ : BufTy).Contents (Elt F)) :=
  (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (s_main_v109 a0) (s_main_v111 a0) (s_main_v85 a0)

def s_main_v113 (a0 : (⟨S2048x2048, .i32⟩ : BufTy).Contents (Elt F)) :=
  (broadcastInDim S4196352x1 ![0] bcast_S4196352_S4196352x1_0 : (⟨S4196352, .i32⟩ : BufTy).Contents (Elt F) → (⟨S4196352x1, .i32⟩ : BufTy).Contents (Elt F)) (s_main_v112 a0)

def s_main_v114 (a0 : (⟨S2048x2048, .i32⟩ : BufTy).Contents (Elt F)) :=
  ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) (s_main_v100 a0) (s_main_v113 a0)

def s_main_v115 (a0 : (⟨S2048x2048, .i32⟩ : BufTy).Contents (Elt F)) :=
  (mulf : (⟨S4196352, .f32⟩ : BufTy).Contents (Elt F) → (⟨S4196352, .f32⟩ : BufTy).Contents (Elt F) → (⟨S4196352, .f32⟩ : BufTy).Contents (Elt F)) (s_main_v107 a0) (s_main_v114 a0)

def s_main_c_39 :=
  (constantI S_ 32 0#32)

def s_main_v116 :=
  (broadcastInDim S4196352 ![] bcast_S_S4196352 : (⟨S_, .i32⟩ : BufTy).Contents (Elt F) → (⟨S4196352, .i32⟩ : BufTy).Contents (Elt F)) s_main_c_39

def s_main_v117 (a0 : (⟨S2048x2048, .i32⟩ : BufTy).Contents (Elt F)) :=
  (cmpi .slt : (⟨S4196352, .i32⟩ : BufTy).Contents (Elt F) → (⟨S4196352, .i32⟩ : BufTy).Contents (Elt F) → (⟨S4196352, .i1⟩ : BufTy).Contents (Elt F)) (s_main_v84 a0) (s_main_v116 (F := F))

def s_main_c_40 :=
  (constantI S_ 32 2048#32)

def s_main_v118 :=
  (broadcastInDim S4196352 ![] bcast_S_S4196352 : (⟨S_, .i32⟩ : BufTy).Contents (Elt F) → (⟨S4196352, .i32⟩ : BufTy).Contents (Elt F)) s_main_c_40

def s_main_v119 (a0 : (⟨S2048x2048, .i32⟩ : BufTy).Contents (Elt F)) :=
  (addi : (⟨S4196352, .i32⟩ : BufTy).Contents (Elt F) → (⟨S4196352, .i32⟩ : BufTy).Contents (Elt F) → (⟨S4196352, .i32⟩ : BufTy).Contents (Elt F)) (s_main_v84 a0) (s_main_v118 (F := F))

def s_main_v120 (a0 : (⟨S2048x2048, .i32⟩ : BufTy).Contents (Elt F)) :=
  (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (s_main_v117 a0) (s_main_v119 a0) (s_main_v84 a0)

def s_main_v121 (a0 : (⟨S2048x2048, .i32⟩ : BufTy).Contents (Elt F)) :=
  (broadcastInDim S4196352x1 ![0] bcast_S4196352_S4196352x1_0 : (⟨S4196352, .i32⟩ : BufTy).Contents (Elt F) → (⟨S4196352x1, .i32⟩ : BufTy).Contents (Elt F)) (s_main_v120 a0)

def s_main_v122 (a0 : (⟨S2048x2048, .i32⟩ : BufTy).Contents (Elt F)) (a1 : (⟨S1x32, .f32⟩ : BufTy).Contents (Elt F)) (a2 : (⟨S32, .f32⟩ : BufTy).Contents (Elt F)) (a3 : (⟨S32x32, .f32⟩ : BufTy).Contents (Elt F)) :=
  ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)) (s_main_v82 a0 a1 a2 a3) (s_main_v121 a0)

def s_main_v123 (a0 : (⟨S2048x2048, .i32⟩ : BufTy).Contents (Elt F)) :=
  (broadcastInDim S4196352x1 ![0] bcast_S4196352_S4196352x1_0 : (⟨S4196352, .f32⟩ : BufTy).Contents (Elt F) → (⟨S4196352x1, .f32⟩ : BufTy).Contents (Elt F)) (s_main_v115 a0)

def s_main_v124 (a0 : (⟨S2048x2048, .i32⟩ : BufTy).Contents (Elt F)) :=
  (broadcastInDim S4196352x32 ![0, 1] bcast_S4196352x1_S4196352x32_0_1 : (⟨S4196352x1, .f32⟩ : BufTy).Contents (Elt F) → (⟨S4196352x32, .f32⟩ : BufTy).Contents (Elt F)) (s_main_v123 a0)

def s_main_v125 (a0 : (⟨S2048x2048, .i32⟩ : BufTy).Contents (Elt F)) (a1 : (⟨S1x32, .f32⟩ : BufTy).Contents (Elt F)) (a2 : (⟨S32, .f32⟩ : BufTy).Contents (Elt F)) (a3 : (⟨S32x32, .f32⟩ : BufTy).Contents (Elt F)) :=
  (mulf : (⟨S4196352x32, .f32⟩ : BufTy).Contents (Elt F) → (⟨S4196352x32, .f32⟩ : BufTy).Contents (Elt F) → (⟨S4196352x32, .f32⟩ : BufTy).Contents (Elt F)) (s_main_v122 a0 a1 a2 a3) (s_main_v124 a0)

def s_main_cst_41 :=
  (constant (F := F) S_ .f32 0x00000000#32)

def s_main_v126 :=
  (broadcastInDim S2048x32 ![] bcast_S_S2048x32 : (⟨S_, .f32⟩ : BufTy).Contents (Elt F) → (⟨S2048x32, .f32⟩ : BufTy).Contents (Elt F)) (s_main_cst_41 (F := F))

def s_main_c_42 :=
  (constantI S_ 32 0#32)

def s_main_v127 :=
  (broadcastInDim S4196352 ![] bcast_S_S4196352 : (⟨S_, .i32⟩ : BufTy).Contents (Elt F) → (⟨S4196352, .i32⟩ : BufTy).Contents (Elt F)) s_main_c_42

def s_main_v128 (a0 : (⟨S2048x2048, .i32⟩ : BufTy).Contents (Elt F)) :=
  (cmpi .slt : (⟨S4196352, .i32⟩ : BufTy).Contents (Elt F) → (⟨S4196352, .i32⟩ : BufTy).Contents (Elt F) → (⟨S4196352, .i1⟩ : BufTy).Contents (Elt F)) (s_main_v85 a0) (s_main_v127 (F := F))

def s_main_c_43 :=
  (constantI S_ 32 2048#32)

def s_main_v129 :=
  (broadcastInDim S4196352 ![] bcast_S_S4196352 : (⟨S_, .i32⟩ : BufTy).Contents (Elt F) → (⟨S4196352, .i32⟩ : BufTy).Contents (Elt F)) s_main_c_43

def s_main_v130 (a0 : (⟨S2048x2048, .i32⟩ : BufTy).Contents (Elt F)) :=
  (addi : (⟨S4196352, .i32⟩ : BufTy).Contents (Elt F) → (⟨S4196352, .i32⟩ : BufTy).Contents (Elt F) → (⟨S4196352, .i32⟩ : BufTy).Contents (Elt F)) (s_main_v85 a0) (s_main_v129 (F := F))

def s_main_v131 (a0 : (⟨S2048x2048, .i32⟩ : BufTy).Contents (Elt F)) :=
  (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (s_main_v128 a0) (s_main_v130 a0) (s_main_v85 a0)

def s_main_v132 (a0 : (⟨S2048x2048, .i32⟩ : BufTy).Contents (Elt F)) :=
  (broadcastInDim S4196352x1 ![0] bcast_S4196352_S4196352x1_0 : (⟨S4196352, .i32⟩ : BufTy).Contents (Elt F) → (⟨S4196352x1, .i32⟩ : BufTy).Contents (Elt F)) (s_main_v131 a0)

def s_main_v133 (a0 : (⟨S2048x2048, .i32⟩ : BufTy).Contents (Elt F)) (a1 : (⟨S1x32, .f32⟩ : BufTy).Contents (Elt F)) (a2 : (⟨S32, .f32⟩ : BufTy).Contents (Elt F)) (a3 : (⟨S32x32, .f32⟩ : BufTy).Contents (Elt F)) :=
  ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)) (s_main_v126 (F := F)) (s_main_v132 a0) (s_main_v125 a0 a1 a2 a3)

def s_main_v134 (a4 : (⟨S32, .f32⟩ : BufTy).Contents (Elt F)) :=
  (broadcastInDim S1x32 ![1] bcast_S32_S1x32_1 : (⟨S32, .f32⟩ : BufTy).Contents (Elt F) → (⟨S1x32, .f32⟩ : BufTy).Contents (Elt F)) a4

def s_main_v135 (a4 : (⟨S32, .f32⟩ : BufTy).Contents (Elt F)) :=
  (broadcastInDim S2048x32 ![0, 1] bcast_S1x32_S2048x32_0_1 : (⟨S1x32, .f32⟩ : BufTy).Contents (Elt F) → (⟨S2048x32, .f32⟩ : BufTy).Contents (Elt F)) (s_main_v134 a4)

def s_main_v136 (a0 : (⟨S2048x2048, .i32⟩ : BufTy).Contents (Elt F)) (a1 : (⟨S1x32, .f32⟩ : BufTy).Contents (Elt F)) (a2 : (⟨S32, .f32⟩ : BufTy).Contents (Elt F)) (a3 : (⟨S32x32, .f32⟩ : BufTy).Contents (Elt F)) (a4 : (⟨S32, .f32⟩ : BufTy).Contents (Elt F)) :=
  (addf : (⟨S2048x32, .f32⟩ : BufTy).Contents (Elt F) → (⟨S2048x32, .f32⟩ : BufTy).Contents (Elt F) → (⟨S2048x32, .f32⟩ : BufTy).Contents (Elt F)) (s_main_v133 a0 a1 a2 a3) (s_main_v135 a4)

def s_main_call12_cst :=
  (constant (F := F) S_ .f32 0x00000000#32)

def s_main_call12_v0 :=
  (broadcastInDim S2048x32 ![] bcast_S_S2048x32) (s_main_call12_cst (F := F))

def s_main_v137 (a0 : (⟨S2048x2048, .i32⟩ : BufTy).Contents (Elt F)) (a1 : (⟨S1x32, .f32⟩ : BufTy).Contents (Elt F)) (a2 : (⟨S32, .f32⟩ : BufTy).Contents (Elt F)) (a3 : (⟨S32x32, .f32⟩ : BufTy).Contents (Elt F)) (a4 : (⟨S32, .f32⟩ : BufTy).Contents (Elt F)) :=
  maximumf (s_main_v136 a0 a1 a2 a3 a4) (s_main_call12_v0 (F := F))

def s_main_cst_44 :=
  (constant (F := F) S_ .f32 0x00000000#32)

def s_main_v138 (a0 : (⟨S2048x2048, .i32⟩ : BufTy).Contents (Elt F)) (a1 : (⟨S1x32, .f32⟩ : BufTy).Contents (Elt F)) (a2 : (⟨S32, .f32⟩ : BufTy).Contents (Elt F)) (a3 : (⟨S32x32, .f32⟩ : BufTy).Contents (Elt F)) (a4 : (⟨S32, .f32⟩ : BufTy).Contents (Elt F)) :=
  ((fun x v => Host.reduceAdd x v reducesTo_S2048x32_S32_d0 h_S_) : (⟨S2048x32, .f32⟩ : BufTy).Contents (Elt F) → (⟨S_, .f32⟩ : BufTy).Contents (Elt F) → (⟨S32, .f32⟩ : BufTy).Contents (Elt F)) (s_main_v137 a0 a1 a2 a3 a4) (s_main_cst_44 (F := F))

def s_main_v139 (a0 : (⟨S2048x2048, .i32⟩ : BufTy).Contents (Elt F)) (a1 : (⟨S1x32, .f32⟩ : BufTy).Contents (Elt F)) (a2 : (⟨S32, .f32⟩ : BufTy).Contents (Elt F)) (a3 : (⟨S32x32, .f32⟩ : BufTy).Contents (Elt F)) (a4 : (⟨S32, .f32⟩ : BufTy).Contents (Elt F)) :=
  (broadcastInDim S1x32 ![1] bcast_S32_S1x32_1 : (⟨S32, .f32⟩ : BufTy).Contents (Elt F) → (⟨S1x32, .f32⟩ : BufTy).Contents (Elt F)) (s_main_v138 a0 a1 a2 a3 a4)

def s_main_v140 (a0 : (⟨S2048x2048, .i32⟩ : BufTy).Contents (Elt F)) (a1 : (⟨S1x32, .f32⟩ : BufTy).Contents (Elt F)) (a2 : (⟨S32, .f32⟩ : BufTy).Contents (Elt F)) (a3 : (⟨S32x32, .f32⟩ : BufTy).Contents (Elt F)) (a4 : (⟨S32, .f32⟩ : BufTy).Contents (Elt F)) (a5 : (⟨S32x8, .f32⟩ : BufTy).Contents (Elt F)) :=
  ((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)) (s_main_v139 a0 a1 a2 a3 a4) a5

def s_main_v141 (a6 : (⟨S8, .f32⟩ : BufTy).Contents (Elt F)) :=
  (broadcastInDim S1x8 ![1] bcast_S8_S1x8_1 : (⟨S8, .f32⟩ : BufTy).Contents (Elt F) → (⟨S1x8, .f32⟩ : BufTy).Contents (Elt F)) a6

def s_main_v142 (a0 : (⟨S2048x2048, .i32⟩ : BufTy).Contents (Elt F)) (a1 : (⟨S1x32, .f32⟩ : BufTy).Contents (Elt F)) (a2 : (⟨S32, .f32⟩ : BufTy).Contents (Elt F)) (a3 : (⟨S32x32, .f32⟩ : BufTy).Contents (Elt F)) (a4 : (⟨S32, .f32⟩ : BufTy).Contents (Elt F)) (a5 : (⟨S32x8, .f32⟩ : BufTy).Contents (Elt F)) (a6 : (⟨S8, .f32⟩ : BufTy).Contents (Elt F)) :=
  (addf : (⟨S1x8, .f32⟩ : BufTy).Contents (Elt F) → (⟨S1x8, .f32⟩ : BufTy).Contents (Elt F) → (⟨S1x8, .f32⟩ : BufTy).Contents (Elt F)) (s_main_v140 a0 a1 a2 a3 a4 a5) (s_main_v141 a6)

end Cert.ReferenceIdeal.Stage

end
-- ==== Proof.RefVals.lean ====
/- Written by: bun scratch/gen_refline.js. Per buffer of the reference: the equation of the operation that writes it, over the contents after
   the whole line (eq_…), and from these, in program order, the buffer's final value as its stage of the argument arrays (val_…). -/
import proofs.«178039_g46316927320456_cont_sun_m_677_15_alg».proof.Proof.RefLine
import proofs.«178039_g46316927320456_cont_sun_m_677_15_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo Cert.Lib.Line

variable {F : FTy → Type} [FloatOps F]

-- the host operations stay folded while an operation's equation is matched: only the typed references' transports are opened
attribute [local irreducible] Host.reduceWindow Host.reduce Host.scatter Host.scatterAdd Host.gather Host.divsi Host.remsi maxsi signi cmpi andi subi addi select maximumf

theorem res_main_c (W : Valuation τ sig (Elt F)) : (nullary main_c (constantI S_ 32 0#32) : HloOp τ sig (Elt F)).result W (Proc.devRef .tc main_c) = (constantI S_ 32 0#32) :=
  nullary_result ..

theorem eq_main_c (V : Valuation τ sig (Elt F)) : after ops V (Proc.devRef .tc main_c) = (constantI S_ 32 0#32) :=
  (fixed V (nullary main_c (constantI S_ 32 0#32) : HloOp τ sig (Elt F)) (List.mem_of_getElem? (show (ops : List (HloOp τ sig (Elt F)))[0]? = some (nullary main_c (constantI S_ 32 0#32) : HloOp τ sig (Elt F)) from rfl)) (Proc.devRef .tc main_c) (by simp only [nullary_writes, Finset.mem_singleton])).trans (res_main_c (after ops V))

theorem val_main_c (V : Valuation τ sig (Elt F)) : after ops V (Proc.devRef .tc main_c) = Stage.s_main_c := by
  rw [eq_main_c]
  rfl

theorem res_main_v0 (W : Valuation τ sig (Elt F)) : (unary main_c main_v0 (broadcastInDim S2048x2048 ![] bcast_S_S2048x2048 : (⟨S_, .i32⟩ : BufTy).Contents (Elt F) → (⟨S2048x2048, .i32⟩ : BufTy).Contents (Elt F)) : HloOp τ sig (Elt F)).result W (Proc.devRef .tc main_v0) = (broadcastInDim S2048x2048 ![] bcast_S_S2048x2048 : (⟨S_, .i32⟩ : BufTy).Contents (Elt F) → (⟨S2048x2048, .i32⟩ : BufTy).Contents (Elt F)) (W (Proc.devRef .tc main_c)) :=
  unary_result ..

theorem eq_main_v0 (V : Valuation τ sig (Elt F)) : after ops V (Proc.devRef .tc main_v0) = (broadcastInDim S2048x2048 ![] bcast_S_S2048x2048 : (⟨S_, .i32⟩ : BufTy).Contents (Elt F) → (⟨S2048x2048, .i32⟩ : BufTy).Contents (Elt F)) (after ops V (Proc.devRef .tc main_c)) :=
  (fixed V (unary main_c main_v0 (broadcastInDim S2048x2048 ![] bcast_S_S2048x2048 : (⟨S_, .i32⟩ : BufTy).Contents (Elt F) → (⟨S2048x2048, .i32⟩ : BufTy).Contents (Elt F)) : HloOp τ sig (Elt F)) (List.mem_of_getElem? (show (ops : List (HloOp τ sig (Elt F)))[1]? = some (unary main_c main_v0 (broadcastInDim S2048x2048 ![] bcast_S_S2048x2048 : (⟨S_, .i32⟩ : BufTy).Contents (Elt F) → (⟨S2048x2048, .i32⟩ : BufTy).Contents (Elt F)) : HloOp τ sig (Elt F)) from rfl)) (Proc.devRef .tc main_v0) (by simp only [unary_writes, Finset.mem_singleton])).trans (res_main_v0 (after ops V))

theorem val_main_v0 (V : Valuation τ sig (Elt F)) : after ops V (Proc.devRef .tc main_v0) = Stage.s_main_v0 (F := F) := by
  rw [eq_main_v0, val_main_c]
  rfl

theorem res_main_v1 (W : Valuation τ sig (Elt F)) : (binary main_arg0 main_v0 main_v1 (cmpi .sgt : (⟨S2048x2048, .i32⟩ : BufTy).Contents (Elt F) → (⟨S2048x2048, .i32⟩ : BufTy).Contents (Elt F) → (⟨S2048x2048, .i1⟩ : BufTy).Contents (Elt F)) : HloOp τ sig (Elt F)).result W (Proc.devRef .tc main_v1) = (cmpi .sgt : (⟨S2048x2048, .i32⟩ : BufTy).Contents (Elt F) → (⟨S2048x2048, .i32⟩ : BufTy).Contents (Elt F) → (⟨S2048x2048, .i1⟩ : BufTy).Contents (Elt F)) (W (Proc.devRef .tc main_arg0)) (W (Proc.devRef .tc main_v0)) :=
  binary_result ..

theorem eq_main_v1 (V : Valuation τ sig (Elt F)) : after ops V (Proc.devRef .tc main_v1) = (cmpi .sgt : (⟨S2048x2048, .i32⟩ : BufTy).Contents (Elt F) → (⟨S2048x2048, .i32⟩ : BufTy).Contents (Elt F) → (⟨S2048x2048, .i1⟩ : BufTy).Contents (Elt F)) (after ops V (Proc.devRef .tc main_arg0)) (after ops V (Proc.devRef .tc main_v0)) :=
  (fixed V (binary main_arg0 main_v0 main_v1 (cmpi .sgt : (⟨S2048x2048, .i32⟩ : BufTy).Contents (Elt F) → (⟨S2048x2048, .i32⟩ : BufTy).Contents (Elt F) → (⟨S2048x2048, .i1⟩ : BufTy).Contents (Elt F)) : HloOp τ sig (Elt F)) (List.mem_of_getElem? (show (ops : List (HloOp τ sig (Elt F)))[2]? = some (binary main_arg0 main_v0 main_v1 (cmpi .sgt : (⟨S2048x2048, .i32⟩ : BufTy).Contents (Elt F) → (⟨S2048x2048, .i32⟩ : BufTy).Contents (Elt F) → (⟨S2048x2048, .i1⟩ : BufTy).Contents (Elt F)) : HloOp τ sig (Elt F)) from rfl)) (Proc.devRef .tc main_v1) (by simp only [binary_writes, Finset.mem_singleton])).trans (res_main_v1 (after ops V))

theorem val_main_v1 (V : Valuation τ sig (Elt F)) : after ops V (Proc.devRef .tc main_v1) = Stage.s_main_v1 (V (Proc.devRef .tc main_arg0)) := by
  rw [eq_main_v1, arg0_kept, val_main_v0]
  rfl

theorem res_main_call0_v0 (W : Valuation τ sig (Elt F)) : (TRef.reshape (TRef.of main_v1 : TRef sig ⟨S2048x2048, .i1⟩) main_call0.v0 rfl shapeCasts_S2048x2048_S4194304 : HloOp τ sig (Elt F)).result W (Proc.devRef .tc main_call0_v0) = shapeCast S4194304 (W (Proc.devRef .tc main_v1)) shapeCasts_S2048x2048_S4194304 :=
  reshape_result ..

theorem eq_main_call0_v0 (V : Valuation τ sig (Elt F)) : after ops V (Proc.devRef .tc main_call0_v0) = shapeCast S4194304 (after ops V (Proc.devRef .tc main_v1)) shapeCasts_S2048x2048_S4194304 :=
  (fixed V (TRef.reshape (TRef.of main_v1 : TRef sig ⟨S2048x2048, .i1⟩) main_call0.v0 rfl shapeCasts_S2048x2048_S4194304 : HloOp τ sig (Elt F)) (List.mem_of_getElem? (show (ops : List (HloOp τ sig (Elt F)))[3]? = some (TRef.reshape (TRef.of main_v1 : TRef sig ⟨S2048x2048, .i1⟩) main_call0.v0 rfl shapeCasts_S2048x2048_S4194304 : HloOp τ sig (Elt F)) from rfl)) (Proc.devRef .tc main_call0_v0) (by simp only [reshape_writes, Finset.mem_singleton])).trans (res_main_call0_v0 (after ops V))

theorem val_main_call0_v0 (V : Valuation τ sig (Elt F)) : after ops V (Proc.devRef .tc main_call0_v0) = Stage.s_main_call0_v0 (V (Proc.devRef .tc main_arg0)) := by
  rw [eq_main_call0_v0, val_main_v1]
  rfl

theorem res_main_call0_v1 (W : Valuation τ sig (Elt F)) : (TRef.unary main_call0.v0 main_call0.v1 (extui 32 · natLt_1_32) : HloOp τ sig (Elt F)).result W (Proc.devRef .tc main_call0_v1) = ((extui 32 · natLt_1_32) : (⟨S4194304, .i1⟩ : BufTy).Contents (Elt F) → (⟨S4194304, .i32⟩ : BufTy).Contents (Elt F)) (W (Proc.devRef .tc main_call0_v0)) :=
  unary_result ..

theorem eq_main_call0_v1 (V : Valuation τ sig (Elt F)) : after ops V (Proc.devRef .tc main_call0_v1) = ((extui 32 · natLt_1_32) : (⟨S4194304, .i1⟩ : BufTy).Contents (Elt F) → (⟨S4194304, .i32⟩ : BufTy).Contents (Elt F)) (after ops V (Proc.devRef .tc main_call0_v0)) :=
  (fixed V (TRef.unary main_call0.v0 main_call0.v1 (extui 32 · natLt_1_32) : HloOp τ sig (Elt F)) (List.mem_of_getElem? (show (ops : List (HloOp τ sig (Elt F)))[4]? = some (TRef.unary main_call0.v0 main_call0.v1 (extui 32 · natLt_1_32) : HloOp τ sig (Elt F)) from rfl)) (Proc.devRef .tc main_call0_v1) (by simp only [unary_writes, Finset.mem_singleton])).trans (res_main_call0_v1 (after ops V))

theorem val_main_call0_v1 (V : Valuation τ sig (Elt F)) : after ops V (Proc.devRef .tc main_call0_v1) = Stage.s_main_call0_v1 (V (Proc.devRef .tc main_arg0)) := by
  rw [eq_main_call0_v1, val_main_call0_v0]
  rfl

theorem res_main_call0_call0_c (W : Valuation τ sig (Elt F)) : (TRef.nullary main_call0.call0.c (constantI S_ 32 0#32) : HloOp τ sig (Elt F)).result W (Proc.devRef .tc main_call0_call0_c) = (constantI S_ 32 0#32) :=
  nullary_result ..

theorem eq_main_call0_call0_c (V : Valuation τ sig (Elt F)) : after ops V (Proc.devRef .tc main_call0_call0_c) = (constantI S_ 32 0#32) :=
  (fixed V (TRef.nullary main_call0.call0.c (constantI S_ 32 0#32) : HloOp τ sig (Elt F)) (List.mem_of_getElem? (show (ops : List (HloOp τ sig (Elt F)))[5]? = some (TRef.nullary main_call0.call0.c (constantI S_ 32 0#32) : HloOp τ sig (Elt F)) from rfl)) (Proc.devRef .tc main_call0_call0_c) (by simp only [nullary_writes, Finset.mem_singleton])).trans (res_main_call0_call0_c (after ops V))

theorem val_main_call0_call0_c (V : Valuation τ sig (Elt F)) : after ops V (Proc.devRef .tc main_call0_call0_c) = Stage.s_main_call0_call0_c := by
  rw [eq_main_call0_call0_c]
  rfl

theorem res_main_call0_call0_v0 (W : Valuation τ sig (Elt F)) : (TRef.unary main_call0.call0.c main_call0.call0.v0 (broadcastInDim S_ ![] bcast_S_S_) : HloOp τ sig (Elt F)).result W (Proc.devRef .tc main_call0_call0_v0) = ((broadcastInDim S_ ![] bcast_S_S_) : (⟨S_, .i32⟩ : BufTy).Contents (Elt F) → (⟨S_, .i32⟩ : BufTy).Contents (Elt F)) (W (Proc.devRef .tc main_call0_call0_c)) :=
  unary_result ..

theorem eq_main_call0_call0_v0 (V : Valuation τ sig (Elt F)) : after ops V (Proc.devRef .tc main_call0_call0_v0) = ((broadcastInDim S_ ![] bcast_S_S_) : (⟨S_, .i32⟩ : BufTy).Contents (Elt F) → (⟨S_, .i32⟩ : BufTy).Contents (Elt F)) (after ops V (Proc.devRef .tc main_call0_call0_c)) :=
  (fixed V (TRef.unary main_call0.call0.c main_call0.call0.v0 (broadcastInDim S_ ![] bcast_S_S_) : HloOp τ sig (Elt F)) (List.mem_of_getElem? (show (ops : List (HloOp τ sig (Elt F)))[6]? = some (TRef.unary main_call0.call0.c main_call0.call0.v0 (broadcastInDim S_ ![] bcast_S_S_) : HloOp τ sig (Elt F)) from rfl)) (Proc.devRef .tc main_call0_call0_v0) (by simp only [unary_writes, Finset.mem_singleton])).trans (res_main_call0_call0_v0 (after ops V))

theorem val_main_call0_call0_v0 (V : Valuation τ sig (Elt F)) : after ops V (Proc.devRef .tc main_call0_call0_v0) = Stage.s_main_call0_call0_v0 := by
  rw [eq_main_call0_call0_v0, val_main_call0_call0_c]
  rfl

theorem res_main_v2 (W : Valuation τ sig (Elt F)) : (TRef.binary main_call0.v1 main_call0.call0.v0 main_call0.call0.v1 (fun x v => Host.reduceWindow IntOp.addi ![4194304] ![1] ![4194303] ![0] x v reduceWindows_S4194304_S4194304_w4194304s1p4194303_0 h_S_) : HloOp τ sig (Elt F)).result W (Proc.devRef .tc main_v2) = ((fun x v => Host.reduceWindow IntOp.addi ![4194304] ![1] ![4194303] ![0] x v reduceWindows_S4194304_S4194304_w4194304s1p4194303_0 h_S_) : (⟨S4194304, .i32⟩ : BufTy).Contents (Elt F) → (⟨S_, .i32⟩ : BufTy).Contents (Elt F) → (⟨S4194304, .i32⟩ : BufTy).Contents (Elt F)) (W (Proc.devRef .tc main_call0_v1)) (W (Proc.devRef .tc main_call0_call0_v0)) :=
  binary_result ..

theorem eq_main_v2 (V : Valuation τ sig (Elt F)) : after ops V (Proc.devRef .tc main_v2) = ((fun x v => Host.reduceWindow IntOp.addi ![4194304] ![1] ![4194303] ![0] x v reduceWindows_S4194304_S4194304_w4194304s1p4194303_0 h_S_) : (⟨S4194304, .i32⟩ : BufTy).Contents (Elt F) → (⟨S_, .i32⟩ : BufTy).Contents (Elt F) → (⟨S4194304, .i32⟩ : BufTy).Contents (Elt F)) (after ops V (Proc.devRef .tc main_call0_v1)) (after ops V (Proc.devRef .tc main_call0_call0_v0)) :=
  (fixed V (TRef.binary main_call0.v1 main_call0.call0.v0 main_call0.call0.v1 (fun x v => Host.reduceWindow IntOp.addi ![4194304] ![1] ![4194303] ![0] x v reduceWindows_S4194304_S4194304_w4194304s1p4194303_0 h_S_) : HloOp τ sig (Elt F)) (List.mem_of_getElem? (show (ops : List (HloOp τ sig (Elt F)))[7]? = some (TRef.binary main_call0.v1 main_call0.call0.v0 main_call0.call0.v1 (fun x v => Host.reduceWindow IntOp.addi ![4194304] ![1] ![4194303] ![0] x v reduceWindows_S4194304_S4194304_w4194304s1p4194303_0 h_S_) : HloOp τ sig (Elt F)) from rfl)) (Proc.devRef .tc main_v2) (by simp only [binary_writes, Finset.mem_singleton])).trans (res_main_v2 (after ops V))

theorem val_main_v2 (V : Valuation τ sig (Elt F)) : after ops V (Proc.devRef .tc main_v2) = Stage.s_main_v2 (V (Proc.devRef .tc main_arg0)) := by
  rw [eq_main_v2, val_main_call0_v1, val_main_call0_call0_v0]
  rfl

theorem res_main_c_0 (W : Valuation τ sig (Elt F)) : (nullary main_c_0 (constantI S_ 32 0#32) : HloOp τ sig (Elt F)).result W (Proc.devRef .tc main_c_0) = (constantI S_ 32 0#32) :=
  nullary_result ..

theorem eq_main_c_0 (V : Valuation τ sig (Elt F)) : after ops V (Proc.devRef .tc main_c_0) = (constantI S_ 32 0#32) :=
  (fixed V (nullary main_c_0 (constantI S_ 32 0#32) : HloOp τ sig (Elt F)) (List.mem_of_getElem? (show (ops : List (HloOp τ sig (Elt F)))[8]? = some (nullary main_c_0 (constantI S_ 32 0#32) : HloOp τ sig (Elt F)) from rfl)) (Proc.devRef .tc main_c_0) (by simp only [nullary_writes, Finset.mem_singleton])).trans (res_main_c_0 (after ops V))

theorem val_main_c_0 (V : Valuation τ sig (Elt F)) : after ops V (Proc.devRef .tc main_c_0) = Stage.s_main_c_0 := by
  rw [eq_main_c_0]
  rfl

theorem res_main_v3 (W : Valuation τ sig (Elt F)) : (unary main_c_0 main_v3 (broadcastInDim S4194304 ![] bcast_S_S4194304 : (⟨S_, .i32⟩ : BufTy).Contents (Elt F) → (⟨S4194304, .i32⟩ : BufTy).Contents (Elt F)) : HloOp τ sig (Elt F)).result W (Proc.devRef .tc main_v3) = (broadcastInDim S4194304 ![] bcast_S_S4194304 : (⟨S_, .i32⟩ : BufTy).Contents (Elt F) → (⟨S4194304, .i32⟩ : BufTy).Contents (Elt F)) (W (Proc.devRef .tc main_c_0)) :=
  unary_result ..

theorem eq_main_v3 (V : Valuation τ sig (Elt F)) : after ops V (Proc.devRef .tc main_v3) = (broadcastInDim S4194304 ![] bcast_S_S4194304 : (⟨S_, .i32⟩ : BufTy).Contents (Elt F) → (⟨S4194304, .i32⟩ : BufTy).Contents (Elt F)) (after ops V (Proc.devRef .tc main_c_0)) :=
  (fixed V (unary main_c_0 main_v3 (broadcastInDim S4194304 ![] bcast_S_S4194304 : (⟨S_, .i32⟩ : BufTy).Contents (Elt F) → (⟨S4194304, .i32⟩ : BufTy).Contents (Elt F)) : HloOp τ sig (Elt F)) (List.mem_of_getElem? (show (ops : List (HloOp τ sig (Elt F)))[9]? = some (unary main_c_0 main_v3 (broadcastInDim S4194304 ![] bcast_S_S4194304 : (⟨S_, .i32⟩ : BufTy).Contents (Elt F) → (⟨S4194304, .i32⟩ : BufTy).Contents (Elt F)) : HloOp τ sig (Elt F)) from rfl)) (Proc.devRef .tc main_v3) (by simp only [unary_writes, Finset.mem_singleton])).trans (res_main_v3 (after ops V))

theorem val_main_v3 (V : Valuation τ sig (Elt F)) : after ops V (Proc.devRef .tc main_v3) = Stage.s_main_v3 (F := F) := by
  rw [eq_main_v3, val_main_c_0]
  rfl

theorem res_main_c_1 (W : Valuation τ sig (Elt F)) : (nullary main_c_1 (constantI S_ 32 0#32) : HloOp τ sig (Elt F)).result W (Proc.devRef .tc main_c_1) = (constantI S_ 32 0#32) :=
  nullary_result ..

theorem eq_main_c_1 (V : Valuation τ sig (Elt F)) : after ops V (Proc.devRef .tc main_c_1) = (constantI S_ 32 0#32) :=
  (fixed V (nullary main_c_1 (constantI S_ 32 0#32) : HloOp τ sig (Elt F)) (List.mem_of_getElem? (show (ops : List (HloOp τ sig (Elt F)))[10]? = some (nullary main_c_1 (constantI S_ 32 0#32) : HloOp τ sig (Elt F)) from rfl)) (Proc.devRef .tc main_c_1) (by simp only [nullary_writes, Finset.mem_singleton])).trans (res_main_c_1 (after ops V))

theorem val_main_c_1 (V : Valuation τ sig (Elt F)) : after ops V (Proc.devRef .tc main_c_1) = Stage.s_main_c_1 := by
  rw [eq_main_c_1]
  rfl

theorem res_main_call1_v0 (W : Valuation τ sig (Elt F)) : (TRef.unary (TRef.of main_c_1 : TRef sig ⟨S_, .i32⟩) main_call1.v0 id : HloOp τ sig (Elt F)).result W (Proc.devRef .tc main_call1_v0) = (id : (⟨S_, .i32⟩ : BufTy).Contents (Elt F) → (⟨S_, .i32⟩ : BufTy).Contents (Elt F)) (W (Proc.devRef .tc main_c_1)) :=
  unary_result ..

theorem eq_main_call1_v0 (V : Valuation τ sig (Elt F)) : after ops V (Proc.devRef .tc main_call1_v0) = (id : (⟨S_, .i32⟩ : BufTy).Contents (Elt F) → (⟨S_, .i32⟩ : BufTy).Contents (Elt F)) (after ops V (Proc.devRef .tc main_c_1)) :=
  (fixed V (TRef.unary (TRef.of main_c_1 : TRef sig ⟨S_, .i32⟩) main_call1.v0 id : HloOp τ sig (Elt F)) (List.mem_of_getElem? (show (ops : List (HloOp τ sig (Elt F)))[11]? = some (TRef.unary (TRef.of main_c_1 : TRef sig ⟨S_, .i32⟩) main_call1.v0 id : HloOp τ sig (Elt F)) from rfl)) (Proc.devRef .tc main_call1_v0) (by simp only [unary_writes, Finset.mem_singleton])).trans (res_main_call1_v0 (after ops V))

theorem val_main_call1_v0 (V : Valuation τ sig (Elt F)) : after ops V (Proc.devRef .tc main_call1_v0) = Stage.s_main_call1_v0 := by
  rw [eq_main_call1_v0, val_main_c_1]
  rfl

theorem res_main_call1_v1 (W : Valuation τ sig (Elt F)) : (TRef.unary main_call1.v0 main_call1.v1 (broadcastInDim S4194304 ![] bcast_S_S4194304) : HloOp τ sig (Elt F)).result W (Proc.devRef .tc main_call1_v1) = ((broadcastInDim S4194304 ![] bcast_S_S4194304) : (⟨S_, .i32⟩ : BufTy).Contents (Elt F) → (⟨S4194304, .i32⟩ : BufTy).Contents (Elt F)) (W (Proc.devRef .tc main_call1_v0)) :=
  unary_result ..

theorem eq_main_call1_v1 (V : Valuation τ sig (Elt F)) : after ops V (Proc.devRef .tc main_call1_v1) = ((broadcastInDim S4194304 ![] bcast_S_S4194304) : (⟨S_, .i32⟩ : BufTy).Contents (Elt F) → (⟨S4194304, .i32⟩ : BufTy).Contents (Elt F)) (after ops V (Proc.devRef .tc main_call1_v0)) :=
  (fixed V (TRef.unary main_call1.v0 main_call1.v1 (broadcastInDim S4194304 ![] bcast_S_S4194304) : HloOp τ sig (Elt F)) (List.mem_of_getElem? (show (ops : List (HloOp τ sig (Elt F)))[12]? = some (TRef.unary main_call1.v0 main_call1.v1 (broadcastInDim S4194304 ![] bcast_S_S4194304) : HloOp τ sig (Elt F)) from rfl)) (Proc.devRef .tc main_call1_v1) (by simp only [unary_writes, Finset.mem_singleton])).trans (res_main_call1_v1 (after ops V))

theorem val_main_call1_v1 (V : Valuation τ sig (Elt F)) : after ops V (Proc.devRef .tc main_call1_v1) = Stage.s_main_call1_v1 := by
  rw [eq_main_call1_v1, val_main_call1_v0]
  rfl

theorem res_main_v4 (W : Valuation τ sig (Elt F)) : (TRef.binary main_call1.v1 (TRef.of main_v2 : TRef sig ⟨S4194304, .i32⟩) main_call1.v2 maxsi : HloOp τ sig (Elt F)).result W (Proc.devRef .tc main_v4) = (maxsi : (⟨S4194304, .i32⟩ : BufTy).Contents (Elt F) → (⟨S4194304, .i32⟩ : BufTy).Contents (Elt F) → (⟨S4194304, .i32⟩ : BufTy).Contents (Elt F)) (W (Proc.devRef .tc main_call1_v1)) (W (Proc.devRef .tc main_v2)) :=
  binary_result ..

theorem eq_main_v4 (V : Valuation τ sig (Elt F)) : after ops V (Proc.devRef .tc main_v4) = (maxsi : (⟨S4194304, .i32⟩ : BufTy).Contents (Elt F) → (⟨S4194304, .i32⟩ : BufTy).Contents (Elt F) → (⟨S4194304, .i32⟩ : BufTy).Contents (Elt F)) (after ops V (Proc.devRef .tc main_call1_v1)) (after ops V (Proc.devRef .tc main_v2)) :=
  (fixed V (TRef.binary main_call1.v1 (TRef.of main_v2 : TRef sig ⟨S4194304, .i32⟩) main_call1.v2 maxsi : HloOp τ sig (Elt F)) (List.mem_of_getElem? (show (ops : List (HloOp τ sig (Elt F)))[13]? = some (TRef.binary main_call1.v1 (TRef.of main_v2 : TRef sig ⟨S4194304, .i32⟩) main_call1.v2 maxsi : HloOp τ sig (Elt F)) from rfl)) (Proc.devRef .tc main_v4) (by simp only [binary_writes, Finset.mem_singleton])).trans (res_main_v4 (after ops V))

theorem val_main_v4 (V : Valuation τ sig (Elt F)) : after ops V (Proc.devRef .tc main_v4) = Stage.s_main_v4 (V (Proc.devRef .tc main_arg0)) := by
  rw [eq_main_v4, val_main_call1_v1, val_main_v2]
  rfl

theorem res_main_c_2 (W : Valuation τ sig (Elt F)) : (nullary main_c_2 (constantI S_ 32 0#32) : HloOp τ sig (Elt F)).result W (Proc.devRef .tc main_c_2) = (constantI S_ 32 0#32) :=
  nullary_result ..

theorem eq_main_c_2 (V : Valuation τ sig (Elt F)) : after ops V (Proc.devRef .tc main_c_2) = (constantI S_ 32 0#32) :=
  (fixed V (nullary main_c_2 (constantI S_ 32 0#32) : HloOp τ sig (Elt F)) (List.mem_of_getElem? (show (ops : List (HloOp τ sig (Elt F)))[14]? = some (nullary main_c_2 (constantI S_ 32 0#32) : HloOp τ sig (Elt F)) from rfl)) (Proc.devRef .tc main_c_2) (by simp only [nullary_writes, Finset.mem_singleton])).trans (res_main_c_2 (after ops V))

theorem val_main_c_2 (V : Valuation τ sig (Elt F)) : after ops V (Proc.devRef .tc main_c_2) = Stage.s_main_c_2 := by
  rw [eq_main_c_2]
  rfl

theorem res_main_v5 (W : Valuation τ sig (Elt F)) : (unary main_c_2 main_v5 (broadcastInDim S4194304 ![] bcast_S_S4194304 : (⟨S_, .i32⟩ : BufTy).Contents (Elt F) → (⟨S4194304, .i32⟩ : BufTy).Contents (Elt F)) : HloOp τ sig (Elt F)).result W (Proc.devRef .tc main_v5) = (broadcastInDim S4194304 ![] bcast_S_S4194304 : (⟨S_, .i32⟩ : BufTy).Contents (Elt F) → (⟨S4194304, .i32⟩ : BufTy).Contents (Elt F)) (W (Proc.devRef .tc main_c_2)) :=
  unary_result ..

theorem eq_main_v5 (V : Valuation τ sig (Elt F)) : after ops V (Proc.devRef .tc main_v5) = (broadcastInDim S4194304 ![] bcast_S_S4194304 : (⟨S_, .i32⟩ : BufTy).Contents (Elt F) → (⟨S4194304, .i32⟩ : BufTy).Contents (Elt F)) (after ops V (Proc.devRef .tc main_c_2)) :=
  (fixed V (unary main_c_2 main_v5 (broadcastInDim S4194304 ![] bcast_S_S4194304 : (⟨S_, .i32⟩ : BufTy).Contents (Elt F) → (⟨S4194304, .i32⟩ : BufTy).Contents (Elt F)) : HloOp τ sig (Elt F)) (List.mem_of_getElem? (show (ops : List (HloOp τ sig (Elt F)))[15]? = some (unary main_c_2 main_v5 (broadcastInDim S4194304 ![] bcast_S_S4194304 : (⟨S_, .i32⟩ : BufTy).Contents (Elt F) → (⟨S4194304, .i32⟩ : BufTy).Contents (Elt F)) : HloOp τ sig (Elt F)) from rfl)) (Proc.devRef .tc main_v5) (by simp only [unary_writes, Finset.mem_singleton])).trans (res_main_v5 (after ops V))

theorem val_main_v5 (V : Valuation τ sig (Elt F)) : after ops V (Proc.devRef .tc main_v5) = Stage.s_main_v5 (F := F) := by
  rw [eq_main_v5, val_main_c_2]
  rfl

theorem res_main_v6 (W : Valuation τ sig (Elt F)) : (binary main_v4 main_v5 main_v6 (cmpi .slt : (⟨S4194304, .i32⟩ : BufTy).Contents (Elt F) → (⟨S4194304, .i32⟩ : BufTy).Contents (Elt F) → (⟨S4194304, .i1⟩ : BufTy).Contents (Elt F)) : HloOp τ sig (Elt F)).result W (Proc.devRef .tc main_v6) = (cmpi .slt : (⟨S4194304, .i32⟩ : BufTy).Contents (Elt F) → (⟨S4194304, .i32⟩ : BufTy).Contents (Elt F) → (⟨S4194304, .i1⟩ : BufTy).Contents (Elt F)) (W (Proc.devRef .tc main_v4)) (W (Proc.devRef .tc main_v5)) :=
  binary_result ..

theorem eq_main_v6 (V : Valuation τ sig (Elt F)) : after ops V (Proc.devRef .tc main_v6) = (cmpi .slt : (⟨S4194304, .i32⟩ : BufTy).Contents (Elt F) → (⟨S4194304, .i32⟩ : BufTy).Contents (Elt F) → (⟨S4194304, .i1⟩ : BufTy).Contents (Elt F)) (after ops V (Proc.devRef .tc main_v4)) (after ops V (Proc.devRef .tc main_v5)) :=
  (fixed V (binary main_v4 main_v5 main_v6 (cmpi .slt : (⟨S4194304, .i32⟩ : BufTy).Contents (Elt F) → (⟨S4194304, .i32⟩ : BufTy).Contents (Elt F) → (⟨S4194304, .i1⟩ : BufTy).Contents (Elt F)) : HloOp τ sig (Elt F)) (List.mem_of_getElem? (show (ops : List (HloOp τ sig (Elt F)))[16]? = some (binary main_v4 main_v5 main_v6 (cmpi .slt : (⟨S4194304, .i32⟩ : BufTy).Contents (Elt F) → (⟨S4194304, .i32⟩ : BufTy).Contents (Elt F) → (⟨S4194304, .i1⟩ : BufTy).Contents (Elt F)) : HloOp τ sig (Elt F)) from rfl)) (Proc.devRef .tc main_v6) (by simp only [binary_writes, Finset.mem_singleton])).trans (res_main_v6 (after ops V))

theorem val_main_v6 (V : Valuation τ sig (Elt F)) : after ops V (Proc.devRef .tc main_v6) = Stage.s_main_v6 (V (Proc.devRef .tc main_arg0)) := by
  rw [eq_main_v6, val_main_v4, val_main_v5]
  rfl

theorem res_main_c_3 (W : Valuation τ sig (Elt F)) : (nullary main_c_3 (constantI S_ 32 4194304#32) : HloOp τ sig (Elt F)).result W (Proc.devRef .tc main_c_3) = (constantI S_ 32 4194304#32) :=
  nullary_result ..

theorem eq_main_c_3 (V : Valuation τ sig (Elt F)) : after ops V (Proc.devRef .tc main_c_3) = (constantI S_ 32 4194304#32) :=
  (fixed V (nullary main_c_3 (constantI S_ 32 4194304#32) : HloOp τ sig (Elt F)) (List.mem_of_getElem? (show (ops : List (HloOp τ sig (Elt F)))[17]? = some (nullary main_c_3 (constantI S_ 32 4194304#32) : HloOp τ sig (Elt F)) from rfl)) (Proc.devRef .tc main_c_3) (by simp only [nullary_writes, Finset.mem_singleton])).trans (res_main_c_3 (after ops V))

theorem val_main_c_3 (V : Valuation τ sig (Elt F)) : after ops V (Proc.devRef .tc main_c_3) = Stage.s_main_c_3 := by
  rw [eq_main_c_3]
  rfl

theorem res_main_v7 (W : Valuation τ sig (Elt F)) : (unary main_c_3 main_v7 (broadcastInDim S4194304 ![] bcast_S_S4194304 : (⟨S_, .i32⟩ : BufTy).Contents (Elt F) → (⟨S4194304, .i32⟩ : BufTy).Contents (Elt F)) : HloOp τ sig (Elt F)).result W (Proc.devRef .tc main_v7) = (broadcastInDim S4194304 ![] bcast_S_S4194304 : (⟨S_, .i32⟩ : BufTy).Contents (Elt F) → (⟨S4194304, .i32⟩ : BufTy).Contents (Elt F)) (W (Proc.devRef .tc main_c_3)) :=
  unary_result ..

theorem eq_main_v7 (V : Valuation τ sig (Elt F)) : after ops V (Proc.devRef .tc main_v7) = (broadcastInDim S4194304 ![] bcast_S_S4194304 : (⟨S_, .i32⟩ : BufTy).Contents (Elt F) → (⟨S4194304, .i32⟩ : BufTy).Contents (Elt F)) (after ops V (Proc.devRef .tc main_c_3)) :=
  (fixed V (unary main_c_3 main_v7 (broadcastInDim S4194304 ![] bcast_S_S4194304 : (⟨S_, .i32⟩ : BufTy).Contents (Elt F) → (⟨S4194304, .i32⟩ : BufTy).Contents (Elt F)) : HloOp τ sig (Elt F)) (List.mem_of_getElem? (show (ops : List (HloOp τ sig (Elt F)))[18]? = some (unary main_c_3 main_v7 (broadcastInDim S4194304 ![] bcast_S_S4194304 : (⟨S_, .i32⟩ : BufTy).Contents (Elt F) → (⟨S4194304, .i32⟩ : BufTy).Contents (Elt F)) : HloOp τ sig (Elt F)) from rfl)) (Proc.devRef .tc main_v7) (by simp only [unary_writes, Finset.mem_singleton])).trans (res_main_v7 (after ops V))

theorem val_main_v7 (V : Valuation τ sig (Elt F)) : after ops V (Proc.devRef .tc main_v7) = Stage.s_main_v7 (F := F) := by
  rw [eq_main_v7, val_main_c_3]
  rfl

theorem res_main_v8 (W : Valuation τ sig (Elt F)) : (binary main_v4 main_v7 main_v8 (addi : (⟨S4194304, .i32⟩ : BufTy).Contents (Elt F) → (⟨S4194304, .i32⟩ : BufTy).Contents (Elt F) → (⟨S4194304, .i32⟩ : BufTy).Contents (Elt F)) : HloOp τ sig (Elt F)).result W (Proc.devRef .tc main_v8) = (addi : (⟨S4194304, .i32⟩ : BufTy).Contents (Elt F) → (⟨S4194304, .i32⟩ : BufTy).Contents (Elt F) → (⟨S4194304, .i32⟩ : BufTy).Contents (Elt F)) (W (Proc.devRef .tc main_v4)) (W (Proc.devRef .tc main_v7)) :=
  binary_result ..

theorem eq_main_v8 (V : Valuation τ sig (Elt F)) : after ops V (Proc.devRef .tc main_v8) = (addi : (⟨S4194304, .i32⟩ : BufTy).Contents (Elt F) → (⟨S4194304, .i32⟩ : BufTy).Contents (Elt F) → (⟨S4194304, .i32⟩ : BufTy).Contents (Elt F)) (after ops V (Proc.devRef .tc main_v4)) (after ops V (Proc.devRef .tc main_v7)) :=
  (fixed V (binary main_v4 main_v7 main_v8 (addi : (⟨S4194304, .i32⟩ : BufTy).Contents (Elt F) → (⟨S4194304, .i32⟩ : BufTy).Contents (Elt F) → (⟨S4194304, .i32⟩ : BufTy).Contents (Elt F)) : HloOp τ sig (Elt F)) (List.mem_of_getElem? (show (ops : List (HloOp τ sig (Elt F)))[19]? = some (binary main_v4 main_v7 main_v8 (addi : (⟨S4194304, .i32⟩ : BufTy).Contents (Elt F) → (⟨S4194304, .i32⟩ : BufTy).Contents (Elt F) → (⟨S4194304, .i32⟩ : BufTy).Contents (Elt F)) : HloOp τ sig (Elt F)) from rfl)) (Proc.devRef .tc main_v8) (by simp only [binary_writes, Finset.mem_singleton])).trans (res_main_v8 (after ops V))

theorem val_main_v8 (V : Valuation τ sig (Elt F)) : after ops V (Proc.devRef .tc main_v8) = Stage.s_main_v8 (V (Proc.devRef .tc main_arg0)) := by
  rw [eq_main_v8, val_main_v4, val_main_v7]
  rfl

theorem res_main_v9 (W : Valuation τ sig (Elt F)) : (ternary main_v6 main_v8 main_v4 main_v9 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) : HloOp τ sig (Elt F)).result W (Proc.devRef .tc main_v9) = (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (W (Proc.devRef .tc main_v6)) (W (Proc.devRef .tc main_v8)) (W (Proc.devRef .tc main_v4)) :=
  ternary_result ..

theorem eq_main_v9 (V : Valuation τ sig (Elt F)) : after ops V (Proc.devRef .tc main_v9) = (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (after ops V (Proc.devRef .tc main_v6)) (after ops V (Proc.devRef .tc main_v8)) (after ops V (Proc.devRef .tc main_v4)) :=
  (fixed V (ternary main_v6 main_v8 main_v4 main_v9 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) : HloOp τ sig (Elt F)) (List.mem_of_getElem? (show (ops : List (HloOp τ sig (Elt F)))[20]? = some (ternary main_v6 main_v8 main_v4 main_v9 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) : HloOp τ sig (Elt F)) from rfl)) (Proc.devRef .tc main_v9) (by simp only [ternary_writes, Finset.mem_singleton])).trans (res_main_v9 (after ops V))

theorem val_main_v9 (V : Valuation τ sig (Elt F)) : after ops V (Proc.devRef .tc main_v9) = Stage.s_main_v9 (V (Proc.devRef .tc main_arg0)) := by
  rw [eq_main_v9, val_main_v6, val_main_v8, val_main_v4]
  rfl

theorem res_main_v10 (W : Valuation τ sig (Elt F)) : (unary main_v9 main_v10 (broadcastInDim S4194304x1 ![0] bcast_S4194304_S4194304x1_0 : (⟨S4194304, .i32⟩ : BufTy).Contents (Elt F) → (⟨S4194304x1, .i32⟩ : BufTy).Contents (Elt F)) : HloOp τ sig (Elt F)).result W (Proc.devRef .tc main_v10) = (broadcastInDim S4194304x1 ![0] bcast_S4194304_S4194304x1_0 : (⟨S4194304, .i32⟩ : BufTy).Contents (Elt F) → (⟨S4194304x1, .i32⟩ : BufTy).Contents (Elt F)) (W (Proc.devRef .tc main_v9)) :=
  unary_result ..

theorem eq_main_v10 (V : Valuation τ sig (Elt F)) : after ops V (Proc.devRef .tc main_v10) = (broadcastInDim S4194304x1 ![0] bcast_S4194304_S4194304x1_0 : (⟨S4194304, .i32⟩ : BufTy).Contents (Elt F) → (⟨S4194304x1, .i32⟩ : BufTy).Contents (Elt F)) (after ops V (Proc.devRef .tc main_v9)) :=
  (fixed V (unary main_v9 main_v10 (broadcastInDim S4194304x1 ![0] bcast_S4194304_S4194304x1_0 : (⟨S4194304, .i32⟩ : BufTy).Contents (Elt F) → (⟨S4194304x1, .i32⟩ : BufTy).Contents (Elt F)) : HloOp τ sig (Elt F)) (List.mem_of_getElem? (show (ops : List (HloOp τ sig (Elt F)))[21]? = some (unary main_v9 main_v10 (broadcastInDim S4194304x1 ![0] bcast_S4194304_S4194304x1_0 : (⟨S4194304, .i32⟩ : BufTy).Contents (Elt F) → (⟨S4194304x1, .i32⟩ : BufTy).Contents (Elt F)) : HloOp τ sig (Elt F)) from rfl)) (Proc.devRef .tc main_v10) (by simp only [unary_writes, Finset.mem_singleton])).trans (res_main_v10 (after ops V))

theorem val_main_v10 (V : Valuation τ sig (Elt F)) : after ops V (Proc.devRef .tc main_v10) = Stage.s_main_v10 (V (Proc.devRef .tc main_arg0)) := by
  rw [eq_main_v10, val_main_v9]
  rfl

theorem res_main_c_4 (W : Valuation τ sig (Elt F)) : (nullary main_c_4 (constantI S_ 32 1#32) : HloOp τ sig (Elt F)).result W (Proc.devRef .tc main_c_4) = (constantI S_ 32 1#32) :=
  nullary_result ..

theorem eq_main_c_4 (V : Valuation τ sig (Elt F)) : after ops V (Proc.devRef .tc main_c_4) = (constantI S_ 32 1#32) :=
  (fixed V (nullary main_c_4 (constantI S_ 32 1#32) : HloOp τ sig (Elt F)) (List.mem_of_getElem? (show (ops : List (HloOp τ sig (Elt F)))[22]? = some (nullary main_c_4 (constantI S_ 32 1#32) : HloOp τ sig (Elt F)) from rfl)) (Proc.devRef .tc main_c_4) (by simp only [nullary_writes, Finset.mem_singleton])).trans (res_main_c_4 (after ops V))

theorem val_main_c_4 (V : Valuation τ sig (Elt F)) : after ops V (Proc.devRef .tc main_c_4) = Stage.s_main_c_4 := by
  rw [eq_main_c_4]
  rfl

theorem res_main_v11 (W : Valuation τ sig (Elt F)) : (unary main_c_4 main_v11 (broadcastInDim S4194304 ![] bcast_S_S4194304 : (⟨S_, .i32⟩ : BufTy).Contents (Elt F) → (⟨S4194304, .i32⟩ : BufTy).Contents (Elt F)) : HloOp τ sig (Elt F)).result W (Proc.devRef .tc main_v11) = (broadcastInDim S4194304 ![] bcast_S_S4194304 : (⟨S_, .i32⟩ : BufTy).Contents (Elt F) → (⟨S4194304, .i32⟩ : BufTy).Contents (Elt F)) (W (Proc.devRef .tc main_c_4)) :=
  unary_result ..

theorem eq_main_v11 (V : Valuation τ sig (Elt F)) : after ops V (Proc.devRef .tc main_v11) = (broadcastInDim S4194304 ![] bcast_S_S4194304 : (⟨S_, .i32⟩ : BufTy).Contents (Elt F) → (⟨S4194304, .i32⟩ : BufTy).Contents (Elt F)) (after ops V (Proc.devRef .tc main_c_4)) :=
  (fixed V (unary main_c_4 main_v11 (broadcastInDim S4194304 ![] bcast_S_S4194304 : (⟨S_, .i32⟩ : BufTy).Contents (Elt F) → (⟨S4194304, .i32⟩ : BufTy).Contents (Elt F)) : HloOp τ sig (Elt F)) (List.mem_of_getElem? (show (ops : List (HloOp τ sig (Elt F)))[23]? = some (unary main_c_4 main_v11 (broadcastInDim S4194304 ![] bcast_S_S4194304 : (⟨S_, .i32⟩ : BufTy).Contents (Elt F) → (⟨S4194304, .i32⟩ : BufTy).Contents (Elt F)) : HloOp τ sig (Elt F)) from rfl)) (Proc.devRef .tc main_v11) (by simp only [unary_writes, Finset.mem_singleton])).trans (res_main_v11 (after ops V))

theorem val_main_v11 (V : Valuation τ sig (Elt F)) : after ops V (Proc.devRef .tc main_v11) = Stage.s_main_v11 (F := F) := by
  rw [eq_main_v11, val_main_c_4]
  rfl

theorem res_main_v12 (W : Valuation τ sig (Elt F)) : (ternary main_v3 main_v10 main_v11 main_v12 ((fun x i u => Host.scatter scatter_S4194304_S4194304x1_S4194304_n_0_0_1 IntOp.addi x i u) : (⟨S4194304, .i32⟩ : BufTy).Contents (Elt F) → (⟨S4194304x1, .i32⟩ : BufTy).Contents (Elt F) → (⟨S4194304, .i32⟩ : BufTy).Contents (Elt F) → (⟨S4194304, .i32⟩ : BufTy).Contents (Elt F)) : HloOp τ sig (Elt F)).result W (Proc.devRef .tc main_v12) = ((fun x i u => Host.scatter scatter_S4194304_S4194304x1_S4194304_n_0_0_1 IntOp.addi x i u) : (⟨S4194304, .i32⟩ : BufTy).Contents (Elt F) → (⟨S4194304x1, .i32⟩ : BufTy).Contents (Elt F) → (⟨S4194304, .i32⟩ : BufTy).Contents (Elt F) → (⟨S4194304, .i32⟩ : BufTy).Contents (Elt F)) (W (Proc.devRef .tc main_v3)) (W (Proc.devRef .tc main_v10)) (W (Proc.devRef .tc main_v11)) :=
  ternary_result ..

theorem eq_main_v12 (V : Valuation τ sig (Elt F)) : after ops V (Proc.devRef .tc main_v12) = ((fun x i u => Host.scatter scatter_S4194304_S4194304x1_S4194304_n_0_0_1 IntOp.addi x i u) : (⟨S4194304, .i32⟩ : BufTy).Contents (Elt F) → (⟨S4194304x1, .i32⟩ : BufTy).Contents (Elt F) → (⟨S4194304, .i32⟩ : BufTy).Contents (Elt F) → (⟨S4194304, .i32⟩ : BufTy).Contents (Elt F)) (after ops V (Proc.devRef .tc main_v3)) (after ops V (Proc.devRef .tc main_v10)) (after ops V (Proc.devRef .tc main_v11)) :=
  (fixed V (ternary main_v3 main_v10 main_v11 main_v12 ((fun x i u => Host.scatter scatter_S4194304_S4194304x1_S4194304_n_0_0_1 IntOp.addi x i u) : (⟨S4194304, .i32⟩ : BufTy).Contents (Elt F) → (⟨S4194304x1, .i32⟩ : BufTy).Contents (Elt F) → (⟨S4194304, .i32⟩ : BufTy).Contents (Elt F) → (⟨S4194304, .i32⟩ : BufTy).Contents (Elt F)) : HloOp τ sig (Elt F)) (List.mem_of_getElem? (show (ops : List (HloOp τ sig (Elt F)))[24]? = some (ternary main_v3 main_v10 main_v11 main_v12 ((fun x i u => Host.scatter scatter_S4194304_S4194304x1_S4194304_n_0_0_1 IntOp.addi x i u) : (⟨S4194304, .i32⟩ : BufTy).Contents (Elt F) → (⟨S4194304x1, .i32⟩ : BufTy).Contents (Elt F) → (⟨S4194304, .i32⟩ : BufTy).Contents (Elt F) → (⟨S4194304, .i32⟩ : BufTy).Contents (Elt F)) : HloOp τ sig (Elt F)) from rfl)) (Proc.devRef .tc main_v12) (by simp only [ternary_writes, Finset.mem_singleton])).trans (res_main_v12 (after ops V))

theorem val_main_v12 (V : Valuation τ sig (Elt F)) : after ops V (Proc.devRef .tc main_v12) = Stage.s_main_v12 (V (Proc.devRef .tc main_arg0)) := by
  rw [eq_main_v12, val_main_v3, val_main_v10, val_main_v11]
  rfl

theorem res_main_call2_call0_c (W : Valuation τ sig (Elt F)) : (TRef.nullary main_call2.call0.c (constantI S_ 32 0#32) : HloOp τ sig (Elt F)).result W (Proc.devRef .tc main_call2_call0_c) = (constantI S_ 32 0#32) :=
  nullary_result ..

theorem eq_main_call2_call0_c (V : Valuation τ sig (Elt F)) : after ops V (Proc.devRef .tc main_call2_call0_c) = (constantI S_ 32 0#32) :=
  (fixed V (TRef.nullary main_call2.call0.c (constantI S_ 32 0#32) : HloOp τ sig (Elt F)) (List.mem_of_getElem? (show (ops : List (HloOp τ sig (Elt F)))[25]? = some (TRef.nullary main_call2.call0.c (constantI S_ 32 0#32) : HloOp τ sig (Elt F)) from rfl)) (Proc.devRef .tc main_call2_call0_c) (by simp only [nullary_writes, Finset.mem_singleton])).trans (res_main_call2_call0_c (after ops V))

theorem val_main_call2_call0_c (V : Valuation τ sig (Elt F)) : after ops V (Proc.devRef .tc main_call2_call0_c) = Stage.s_main_call2_call0_c := by
  rw [eq_main_call2_call0_c]
  rfl

theorem res_main_call2_call0_v0 (W : Valuation τ sig (Elt F)) : (TRef.unary main_call2.call0.c main_call2.call0.v0 (broadcastInDim S_ ![] bcast_S_S_) : HloOp τ sig (Elt F)).result W (Proc.devRef .tc main_call2_call0_v0) = ((broadcastInDim S_ ![] bcast_S_S_) : (⟨S_, .i32⟩ : BufTy).Contents (Elt F) → (⟨S_, .i32⟩ : BufTy).Contents (Elt F)) (W (Proc.devRef .tc main_call2_call0_c)) :=
  unary_result ..

theorem eq_main_call2_call0_v0 (V : Valuation τ sig (Elt F)) : after ops V (Proc.devRef .tc main_call2_call0_v0) = ((broadcastInDim S_ ![] bcast_S_S_) : (⟨S_, .i32⟩ : BufTy).Contents (Elt F) → (⟨S_, .i32⟩ : BufTy).Contents (Elt F)) (after ops V (Proc.devRef .tc main_call2_call0_c)) :=
  (fixed V (TRef.unary main_call2.call0.c main_call2.call0.v0 (broadcastInDim S_ ![] bcast_S_S_) : HloOp τ sig (Elt F)) (List.mem_of_getElem? (show (ops : List (HloOp τ sig (Elt F)))[26]? = some (TRef.unary main_call2.call0.c main_call2.call0.v0 (broadcastInDim S_ ![] bcast_S_S_) : HloOp τ sig (Elt F)) from rfl)) (Proc.devRef .tc main_call2_call0_v0) (by simp only [unary_writes, Finset.mem_singleton])).trans (res_main_call2_call0_v0 (after ops V))

theorem val_main_call2_call0_v0 (V : Valuation τ sig (Elt F)) : after ops V (Proc.devRef .tc main_call2_call0_v0) = Stage.s_main_call2_call0_v0 := by
  rw [eq_main_call2_call0_v0, val_main_call2_call0_c]
  rfl

theorem res_main_v13 (W : Valuation τ sig (Elt F)) : (TRef.binary (TRef.of main_v12 : TRef sig ⟨S4194304, .i32⟩) main_call2.call0.v0 main_call2.call0.v1 (fun x v => Host.reduceWindow IntOp.addi ![4194304] ![1] ![4194303] ![0] x v reduceWindows_S4194304_S4194304_w4194304s1p4194303_0 h_S_) : HloOp τ sig (Elt F)).result W (Proc.devRef .tc main_v13) = ((fun x v => Host.reduceWindow IntOp.addi ![4194304] ![1] ![4194303] ![0] x v reduceWindows_S4194304_S4194304_w4194304s1p4194303_0 h_S_) : (⟨S4194304, .i32⟩ : BufTy).Contents (Elt F) → (⟨S_, .i32⟩ : BufTy).Contents (Elt F) → (⟨S4194304, .i32⟩ : BufTy).Contents (Elt F)) (W (Proc.devRef .tc main_v12)) (W (Proc.devRef .tc main_call2_call0_v0)) :=
  binary_result ..

theorem eq_main_v13 (V : Valuation τ sig (Elt F)) : after ops V (Proc.devRef .tc main_v13) = ((fun x v => Host.reduceWindow IntOp.addi ![4194304] ![1] ![4194303] ![0] x v reduceWindows_S4194304_S4194304_w4194304s1p4194303_0 h_S_) : (⟨S4194304, .i32⟩ : BufTy).Contents (Elt F) → (⟨S_, .i32⟩ : BufTy).Contents (Elt F) → (⟨S4194304, .i32⟩ : BufTy).Contents (Elt F)) (after ops V (Proc.devRef .tc main_v12)) (after ops V (Proc.devRef .tc main_call2_call0_v0)) :=
  (fixed V (TRef.binary (TRef.of main_v12 : TRef sig ⟨S4194304, .i32⟩) main_call2.call0.v0 main_call2.call0.v1 (fun x v => Host.reduceWindow IntOp.addi ![4194304] ![1] ![4194303] ![0] x v reduceWindows_S4194304_S4194304_w4194304s1p4194303_0 h_S_) : HloOp τ sig (Elt F)) (List.mem_of_getElem? (show (ops : List (HloOp τ sig (Elt F)))[27]? = some (TRef.binary (TRef.of main_v12 : TRef sig ⟨S4194304, .i32⟩) main_call2.call0.v0 main_call2.call0.v1 (fun x v => Host.reduceWindow IntOp.addi ![4194304] ![1] ![4194303] ![0] x v reduceWindows_S4194304_S4194304_w4194304s1p4194303_0 h_S_) : HloOp τ sig (Elt F)) from rfl)) (Proc.devRef .tc main_v13) (by simp only [binary_writes, Finset.mem_singleton])).trans (res_main_v13 (after ops V))

theorem val_main_v13 (V : Valuation τ sig (Elt F)) : after ops V (Proc.devRef .tc main_v13) = Stage.s_main_v13 (V (Proc.devRef .tc main_arg0)) := by
  rw [eq_main_v13, val_main_v12, val_main_call2_call0_v0]
  rfl

theorem res_main_c_5 (W : Valuation τ sig (Elt F)) : (nullary main_c_5 (constantI S_ 32 2048#32) : HloOp τ sig (Elt F)).result W (Proc.devRef .tc main_c_5) = (constantI S_ 32 2048#32) :=
  nullary_result ..

theorem eq_main_c_5 (V : Valuation τ sig (Elt F)) : after ops V (Proc.devRef .tc main_c_5) = (constantI S_ 32 2048#32) :=
  (fixed V (nullary main_c_5 (constantI S_ 32 2048#32) : HloOp τ sig (Elt F)) (List.mem_of_getElem? (show (ops : List (HloOp τ sig (Elt F)))[28]? = some (nullary main_c_5 (constantI S_ 32 2048#32) : HloOp τ sig (Elt F)) from rfl)) (Proc.devRef .tc main_c_5) (by simp only [nullary_writes, Finset.mem_singleton])).trans (res_main_c_5 (after ops V))

theorem val_main_c_5 (V : Valuation τ sig (Elt F)) : after ops V (Proc.devRef .tc main_c_5) = Stage.s_main_c_5 := by
  rw [eq_main_c_5]
  rfl

theorem res_main_call3_v0 (W : Valuation τ sig (Elt F)) : (TRef.unary (TRef.of main_c_5 : TRef sig ⟨S_, .i32⟩) main_call3.v0 (broadcastInDim S4194304 ![] bcast_S_S4194304) : HloOp τ sig (Elt F)).result W (Proc.devRef .tc main_call3_v0) = ((broadcastInDim S4194304 ![] bcast_S_S4194304) : (⟨S_, .i32⟩ : BufTy).Contents (Elt F) → (⟨S4194304, .i32⟩ : BufTy).Contents (Elt F)) (W (Proc.devRef .tc main_c_5)) :=
  unary_result ..

theorem eq_main_call3_v0 (V : Valuation τ sig (Elt F)) : after ops V (Proc.devRef .tc main_call3_v0) = ((broadcastInDim S4194304 ![] bcast_S_S4194304) : (⟨S_, .i32⟩ : BufTy).Contents (Elt F) → (⟨S4194304, .i32⟩ : BufTy).Contents (Elt F)) (after ops V (Proc.devRef .tc main_c_5)) :=
  (fixed V (TRef.unary (TRef.of main_c_5 : TRef sig ⟨S_, .i32⟩) main_call3.v0 (broadcastInDim S4194304 ![] bcast_S_S4194304) : HloOp τ sig (Elt F)) (List.mem_of_getElem? (show (ops : List (HloOp τ sig (Elt F)))[29]? = some (TRef.unary (TRef.of main_c_5 : TRef sig ⟨S_, .i32⟩) main_call3.v0 (broadcastInDim S4194304 ![] bcast_S_S4194304) : HloOp τ sig (Elt F)) from rfl)) (Proc.devRef .tc main_call3_v0) (by simp only [unary_writes, Finset.mem_singleton])).trans (res_main_call3_v0 (after ops V))

theorem val_main_call3_v0 (V : Valuation τ sig (Elt F)) : after ops V (Proc.devRef .tc main_call3_v0) = Stage.s_main_call3_v0 := by
  rw [eq_main_call3_v0, val_main_c_5]
  rfl

theorem res_main_call3_v1 (W : Valuation τ sig (Elt F)) : (TRef.binary (TRef.of main_v13 : TRef sig ⟨S4194304, .i32⟩) main_call3.v0 main_call3.v1 Host.divsi : HloOp τ sig (Elt F)).result W (Proc.devRef .tc main_call3_v1) = (Host.divsi : (⟨S4194304, .i32⟩ : BufTy).Contents (Elt F) → (⟨S4194304, .i32⟩ : BufTy).Contents (Elt F) → (⟨S4194304, .i32⟩ : BufTy).Contents (Elt F)) (W (Proc.devRef .tc main_v13)) (W (Proc.devRef .tc main_call3_v0)) :=
  binary_result ..

theorem eq_main_call3_v1 (V : Valuation τ sig (Elt F)) : after ops V (Proc.devRef .tc main_call3_v1) = (Host.divsi : (⟨S4194304, .i32⟩ : BufTy).Contents (Elt F) → (⟨S4194304, .i32⟩ : BufTy).Contents (Elt F) → (⟨S4194304, .i32⟩ : BufTy).Contents (Elt F)) (after ops V (Proc.devRef .tc main_v13)) (after ops V (Proc.devRef .tc main_call3_v0)) :=
  (fixed V (TRef.binary (TRef.of main_v13 : TRef sig ⟨S4194304, .i32⟩) main_call3.v0 main_call3.v1 Host.divsi : HloOp τ sig (Elt F)) (List.mem_of_getElem? (show (ops : List (HloOp τ sig (Elt F)))[30]? = some (TRef.binary (TRef.of main_v13 : TRef sig ⟨S4194304, .i32⟩) main_call3.v0 main_call3.v1 Host.divsi : HloOp τ sig (Elt F)) from rfl)) (Proc.devRef .tc main_call3_v1) (by simp only [binary_writes, Finset.mem_singleton])).trans (res_main_call3_v1 (after ops V))

theorem val_main_call3_v1 (V : Valuation τ sig (Elt F)) : after ops V (Proc.devRef .tc main_call3_v1) = Stage.s_main_call3_v1 (V (Proc.devRef .tc main_arg0)) := by
  rw [eq_main_call3_v1, val_main_v13, val_main_call3_v0]
  rfl

theorem res_main_call3_v2 (W : Valuation τ sig (Elt F)) : (TRef.unary (TRef.of main_v13 : TRef sig ⟨S4194304, .i32⟩) main_call3.v2 signi : HloOp τ sig (Elt F)).result W (Proc.devRef .tc main_call3_v2) = (signi : (⟨S4194304, .i32⟩ : BufTy).Contents (Elt F) → (⟨S4194304, .i32⟩ : BufTy).Contents (Elt F)) (W (Proc.devRef .tc main_v13)) :=
  unary_result ..

theorem eq_main_call3_v2 (V : Valuation τ sig (Elt F)) : after ops V (Proc.devRef .tc main_call3_v2) = (signi : (⟨S4194304, .i32⟩ : BufTy).Contents (Elt F) → (⟨S4194304, .i32⟩ : BufTy).Contents (Elt F)) (after ops V (Proc.devRef .tc main_v13)) :=
  (fixed V (TRef.unary (TRef.of main_v13 : TRef sig ⟨S4194304, .i32⟩) main_call3.v2 signi : HloOp τ sig (Elt F)) (List.mem_of_getElem? (show (ops : List (HloOp τ sig (Elt F)))[31]? = some (TRef.unary (TRef.of main_v13 : TRef sig ⟨S4194304, .i32⟩) main_call3.v2 signi : HloOp τ sig (Elt F)) from rfl)) (Proc.devRef .tc main_call3_v2) (by simp only [unary_writes, Finset.mem_singleton])).trans (res_main_call3_v2 (after ops V))

theorem val_main_call3_v2 (V : Valuation τ sig (Elt F)) : after ops V (Proc.devRef .tc main_call3_v2) = Stage.s_main_call3_v2 (V (Proc.devRef .tc main_arg0)) := by
  rw [eq_main_call3_v2, val_main_v13]
  rfl

theorem res_main_call3_v3 (W : Valuation τ sig (Elt F)) : (TRef.unary (TRef.of main_c_5 : TRef sig ⟨S_, .i32⟩) main_call3.v3 signi : HloOp τ sig (Elt F)).result W (Proc.devRef .tc main_call3_v3) = (signi : (⟨S_, .i32⟩ : BufTy).Contents (Elt F) → (⟨S_, .i32⟩ : BufTy).Contents (Elt F)) (W (Proc.devRef .tc main_c_5)) :=
  unary_result ..

theorem eq_main_call3_v3 (V : Valuation τ sig (Elt F)) : after ops V (Proc.devRef .tc main_call3_v3) = (signi : (⟨S_, .i32⟩ : BufTy).Contents (Elt F) → (⟨S_, .i32⟩ : BufTy).Contents (Elt F)) (after ops V (Proc.devRef .tc main_c_5)) :=
  (fixed V (TRef.unary (TRef.of main_c_5 : TRef sig ⟨S_, .i32⟩) main_call3.v3 signi : HloOp τ sig (Elt F)) (List.mem_of_getElem? (show (ops : List (HloOp τ sig (Elt F)))[32]? = some (TRef.unary (TRef.of main_c_5 : TRef sig ⟨S_, .i32⟩) main_call3.v3 signi : HloOp τ sig (Elt F)) from rfl)) (Proc.devRef .tc main_call3_v3) (by simp only [unary_writes, Finset.mem_singleton])).trans (res_main_call3_v3 (after ops V))

theorem val_main_call3_v3 (V : Valuation τ sig (Elt F)) : after ops V (Proc.devRef .tc main_call3_v3) = Stage.s_main_call3_v3 := by
  rw [eq_main_call3_v3, val_main_c_5]
  rfl

theorem res_main_call3_v4 (W : Valuation τ sig (Elt F)) : (TRef.unary main_call3.v3 main_call3.v4 (broadcastInDim S4194304 ![] bcast_S_S4194304) : HloOp τ sig (Elt F)).result W (Proc.devRef .tc main_call3_v4) = ((broadcastInDim S4194304 ![] bcast_S_S4194304) : (⟨S_, .i32⟩ : BufTy).Contents (Elt F) → (⟨S4194304, .i32⟩ : BufTy).Contents (Elt F)) (W (Proc.devRef .tc main_call3_v3)) :=
  unary_result ..

theorem eq_main_call3_v4 (V : Valuation τ sig (Elt F)) : after ops V (Proc.devRef .tc main_call3_v4) = ((broadcastInDim S4194304 ![] bcast_S_S4194304) : (⟨S_, .i32⟩ : BufTy).Contents (Elt F) → (⟨S4194304, .i32⟩ : BufTy).Contents (Elt F)) (after ops V (Proc.devRef .tc main_call3_v3)) :=
  (fixed V (TRef.unary main_call3.v3 main_call3.v4 (broadcastInDim S4194304 ![] bcast_S_S4194304) : HloOp τ sig (Elt F)) (List.mem_of_getElem? (show (ops : List (HloOp τ sig (Elt F)))[33]? = some (TRef.unary main_call3.v3 main_call3.v4 (broadcastInDim S4194304 ![] bcast_S_S4194304) : HloOp τ sig (Elt F)) from rfl)) (Proc.devRef .tc main_call3_v4) (by simp only [unary_writes, Finset.mem_singleton])).trans (res_main_call3_v4 (after ops V))

theorem val_main_call3_v4 (V : Valuation τ sig (Elt F)) : after ops V (Proc.devRef .tc main_call3_v4) = Stage.s_main_call3_v4 := by
  rw [eq_main_call3_v4, val_main_call3_v3]
  rfl

theorem res_main_call3_v5 (W : Valuation τ sig (Elt F)) : (TRef.binary main_call3.v2 main_call3.v4 main_call3.v5 (cmpi .ne) : HloOp τ sig (Elt F)).result W (Proc.devRef .tc main_call3_v5) = ((cmpi .ne) : (⟨S4194304, .i32⟩ : BufTy).Contents (Elt F) → (⟨S4194304, .i32⟩ : BufTy).Contents (Elt F) → (⟨S4194304, .i1⟩ : BufTy).Contents (Elt F)) (W (Proc.devRef .tc main_call3_v2)) (W (Proc.devRef .tc main_call3_v4)) :=
  binary_result ..

theorem eq_main_call3_v5 (V : Valuation τ sig (Elt F)) : after ops V (Proc.devRef .tc main_call3_v5) = ((cmpi .ne) : (⟨S4194304, .i32⟩ : BufTy).Contents (Elt F) → (⟨S4194304, .i32⟩ : BufTy).Contents (Elt F) → (⟨S4194304, .i1⟩ : BufTy).Contents (Elt F)) (after ops V (Proc.devRef .tc main_call3_v2)) (after ops V (Proc.devRef .tc main_call3_v4)) :=
  (fixed V (TRef.binary main_call3.v2 main_call3.v4 main_call3.v5 (cmpi .ne) : HloOp τ sig (Elt F)) (List.mem_of_getElem? (show (ops : List (HloOp τ sig (Elt F)))[34]? = some (TRef.binary main_call3.v2 main_call3.v4 main_call3.v5 (cmpi .ne) : HloOp τ sig (Elt F)) from rfl)) (Proc.devRef .tc main_call3_v5) (by simp only [binary_writes, Finset.mem_singleton])).trans (res_main_call3_v5 (after ops V))

theorem val_main_call3_v5 (V : Valuation τ sig (Elt F)) : after ops V (Proc.devRef .tc main_call3_v5) = Stage.s_main_call3_v5 (V (Proc.devRef .tc main_arg0)) := by
  rw [eq_main_call3_v5, val_main_call3_v2, val_main_call3_v4]
  rfl

theorem res_main_call3_v6 (W : Valuation τ sig (Elt F)) : (TRef.unary (TRef.of main_c_5 : TRef sig ⟨S_, .i32⟩) main_call3.v6 (broadcastInDim S4194304 ![] bcast_S_S4194304) : HloOp τ sig (Elt F)).result W (Proc.devRef .tc main_call3_v6) = ((broadcastInDim S4194304 ![] bcast_S_S4194304) : (⟨S_, .i32⟩ : BufTy).Contents (Elt F) → (⟨S4194304, .i32⟩ : BufTy).Contents (Elt F)) (W (Proc.devRef .tc main_c_5)) :=
  unary_result ..

theorem eq_main_call3_v6 (V : Valuation τ sig (Elt F)) : after ops V (Proc.devRef .tc main_call3_v6) = ((broadcastInDim S4194304 ![] bcast_S_S4194304) : (⟨S_, .i32⟩ : BufTy).Contents (Elt F) → (⟨S4194304, .i32⟩ : BufTy).Contents (Elt F)) (after ops V (Proc.devRef .tc main_c_5)) :=
  (fixed V (TRef.unary (TRef.of main_c_5 : TRef sig ⟨S_, .i32⟩) main_call3.v6 (broadcastInDim S4194304 ![] bcast_S_S4194304) : HloOp τ sig (Elt F)) (List.mem_of_getElem? (show (ops : List (HloOp τ sig (Elt F)))[35]? = some (TRef.unary (TRef.of main_c_5 : TRef sig ⟨S_, .i32⟩) main_call3.v6 (broadcastInDim S4194304 ![] bcast_S_S4194304) : HloOp τ sig (Elt F)) from rfl)) (Proc.devRef .tc main_call3_v6) (by simp only [unary_writes, Finset.mem_singleton])).trans (res_main_call3_v6 (after ops V))

theorem val_main_call3_v6 (V : Valuation τ sig (Elt F)) : after ops V (Proc.devRef .tc main_call3_v6) = Stage.s_main_call3_v6 := by
  rw [eq_main_call3_v6, val_main_c_5]
  rfl

theorem res_main_call3_v7 (W : Valuation τ sig (Elt F)) : (TRef.binary (TRef.of main_v13 : TRef sig ⟨S4194304, .i32⟩) main_call3.v6 main_call3.v7 Host.remsi : HloOp τ sig (Elt F)).result W (Proc.devRef .tc main_call3_v7) = (Host.remsi : (⟨S4194304, .i32⟩ : BufTy).Contents (Elt F) → (⟨S4194304, .i32⟩ : BufTy).Contents (Elt F) → (⟨S4194304, .i32⟩ : BufTy).Contents (Elt F)) (W (Proc.devRef .tc main_v13)) (W (Proc.devRef .tc main_call3_v6)) :=
  binary_result ..

theorem eq_main_call3_v7 (V : Valuation τ sig (Elt F)) : after ops V (Proc.devRef .tc main_call3_v7) = (Host.remsi : (⟨S4194304, .i32⟩ : BufTy).Contents (Elt F) → (⟨S4194304, .i32⟩ : BufTy).Contents (Elt F) → (⟨S4194304, .i32⟩ : BufTy).Contents (Elt F)) (after ops V (Proc.devRef .tc main_v13)) (after ops V (Proc.devRef .tc main_call3_v6)) :=
  (fixed V (TRef.binary (TRef.of main_v13 : TRef sig ⟨S4194304, .i32⟩) main_call3.v6 main_call3.v7 Host.remsi : HloOp τ sig (Elt F)) (List.mem_of_getElem? (show (ops : List (HloOp τ sig (Elt F)))[36]? = some (TRef.binary (TRef.of main_v13 : TRef sig ⟨S4194304, .i32⟩) main_call3.v6 main_call3.v7 Host.remsi : HloOp τ sig (Elt F)) from rfl)) (Proc.devRef .tc main_call3_v7) (by simp only [binary_writes, Finset.mem_singleton])).trans (res_main_call3_v7 (after ops V))

theorem val_main_call3_v7 (V : Valuation τ sig (Elt F)) : after ops V (Proc.devRef .tc main_call3_v7) = Stage.s_main_call3_v7 (V (Proc.devRef .tc main_arg0)) := by
  rw [eq_main_call3_v7, val_main_v13, val_main_call3_v6]
  rfl

theorem res_main_call3_c (W : Valuation τ sig (Elt F)) : (TRef.nullary main_call3.c (constantI S_ 32 0#32) : HloOp τ sig (Elt F)).result W (Proc.devRef .tc main_call3_c) = (constantI S_ 32 0#32) :=
  nullary_result ..

theorem eq_main_call3_c (V : Valuation τ sig (Elt F)) : after ops V (Proc.devRef .tc main_call3_c) = (constantI S_ 32 0#32) :=
  (fixed V (TRef.nullary main_call3.c (constantI S_ 32 0#32) : HloOp τ sig (Elt F)) (List.mem_of_getElem? (show (ops : List (HloOp τ sig (Elt F)))[37]? = some (TRef.nullary main_call3.c (constantI S_ 32 0#32) : HloOp τ sig (Elt F)) from rfl)) (Proc.devRef .tc main_call3_c) (by simp only [nullary_writes, Finset.mem_singleton])).trans (res_main_call3_c (after ops V))

theorem val_main_call3_c (V : Valuation τ sig (Elt F)) : after ops V (Proc.devRef .tc main_call3_c) = Stage.s_main_call3_c := by
  rw [eq_main_call3_c]
  rfl

theorem res_main_call3_v8 (W : Valuation τ sig (Elt F)) : (TRef.unary main_call3.c main_call3.v8 (broadcastInDim S4194304 ![] bcast_S_S4194304) : HloOp τ sig (Elt F)).result W (Proc.devRef .tc main_call3_v8) = ((broadcastInDim S4194304 ![] bcast_S_S4194304) : (⟨S_, .i32⟩ : BufTy).Contents (Elt F) → (⟨S4194304, .i32⟩ : BufTy).Contents (Elt F)) (W (Proc.devRef .tc main_call3_c)) :=
  unary_result ..

theorem eq_main_call3_v8 (V : Valuation τ sig (Elt F)) : after ops V (Proc.devRef .tc main_call3_v8) = ((broadcastInDim S4194304 ![] bcast_S_S4194304) : (⟨S_, .i32⟩ : BufTy).Contents (Elt F) → (⟨S4194304, .i32⟩ : BufTy).Contents (Elt F)) (after ops V (Proc.devRef .tc main_call3_c)) :=
  (fixed V (TRef.unary main_call3.c main_call3.v8 (broadcastInDim S4194304 ![] bcast_S_S4194304) : HloOp τ sig (Elt F)) (List.mem_of_getElem? (show (ops : List (HloOp τ sig (Elt F)))[38]? = some (TRef.unary main_call3.c main_call3.v8 (broadcastInDim S4194304 ![] bcast_S_S4194304) : HloOp τ sig (Elt F)) from rfl)) (Proc.devRef .tc main_call3_v8) (by simp only [unary_writes, Finset.mem_singleton])).trans (res_main_call3_v8 (after ops V))

theorem val_main_call3_v8 (V : Valuation τ sig (Elt F)) : after ops V (Proc.devRef .tc main_call3_v8) = Stage.s_main_call3_v8 := by
  rw [eq_main_call3_v8, val_main_call3_c]
  rfl

theorem res_main_call3_v9 (W : Valuation τ sig (Elt F)) : (TRef.binary main_call3.v7 main_call3.v8 main_call3.v9 (cmpi .ne) : HloOp τ sig (Elt F)).result W (Proc.devRef .tc main_call3_v9) = ((cmpi .ne) : (⟨S4194304, .i32⟩ : BufTy).Contents (Elt F) → (⟨S4194304, .i32⟩ : BufTy).Contents (Elt F) → (⟨S4194304, .i1⟩ : BufTy).Contents (Elt F)) (W (Proc.devRef .tc main_call3_v7)) (W (Proc.devRef .tc main_call3_v8)) :=
  binary_result ..

theorem eq_main_call3_v9 (V : Valuation τ sig (Elt F)) : after ops V (Proc.devRef .tc main_call3_v9) = ((cmpi .ne) : (⟨S4194304, .i32⟩ : BufTy).Contents (Elt F) → (⟨S4194304, .i32⟩ : BufTy).Contents (Elt F) → (⟨S4194304, .i1⟩ : BufTy).Contents (Elt F)) (after ops V (Proc.devRef .tc main_call3_v7)) (after ops V (Proc.devRef .tc main_call3_v8)) :=
  (fixed V (TRef.binary main_call3.v7 main_call3.v8 main_call3.v9 (cmpi .ne) : HloOp τ sig (Elt F)) (List.mem_of_getElem? (show (ops : List (HloOp τ sig (Elt F)))[39]? = some (TRef.binary main_call3.v7 main_call3.v8 main_call3.v9 (cmpi .ne) : HloOp τ sig (Elt F)) from rfl)) (Proc.devRef .tc main_call3_v9) (by simp only [binary_writes, Finset.mem_singleton])).trans (res_main_call3_v9 (after ops V))

theorem val_main_call3_v9 (V : Valuation τ sig (Elt F)) : after ops V (Proc.devRef .tc main_call3_v9) = Stage.s_main_call3_v9 (V (Proc.devRef .tc main_arg0)) := by
  rw [eq_main_call3_v9, val_main_call3_v7, val_main_call3_v8]
  rfl

theorem res_main_call3_v10 (W : Valuation τ sig (Elt F)) : (TRef.binary main_call3.v5 main_call3.v9 main_call3.v10 andi : HloOp τ sig (Elt F)).result W (Proc.devRef .tc main_call3_v10) = (andi : (⟨S4194304, .i1⟩ : BufTy).Contents (Elt F) → (⟨S4194304, .i1⟩ : BufTy).Contents (Elt F) → (⟨S4194304, .i1⟩ : BufTy).Contents (Elt F)) (W (Proc.devRef .tc main_call3_v5)) (W (Proc.devRef .tc main_call3_v9)) :=
  binary_result ..

theorem eq_main_call3_v10 (V : Valuation τ sig (Elt F)) : after ops V (Proc.devRef .tc main_call3_v10) = (andi : (⟨S4194304, .i1⟩ : BufTy).Contents (Elt F) → (⟨S4194304, .i1⟩ : BufTy).Contents (Elt F) → (⟨S4194304, .i1⟩ : BufTy).Contents (Elt F)) (after ops V (Proc.devRef .tc main_call3_v5)) (after ops V (Proc.devRef .tc main_call3_v9)) :=
  (fixed V (TRef.binary main_call3.v5 main_call3.v9 main_call3.v10 andi : HloOp τ sig (Elt F)) (List.mem_of_getElem? (show (ops : List (HloOp τ sig (Elt F)))[40]? = some (TRef.binary main_call3.v5 main_call3.v9 main_call3.v10 andi : HloOp τ sig (Elt F)) from rfl)) (Proc.devRef .tc main_call3_v10) (by simp only [binary_writes, Finset.mem_singleton])).trans (res_main_call3_v10 (after ops V))

theorem val_main_call3_v10 (V : Valuation τ sig (Elt F)) : after ops V (Proc.devRef .tc main_call3_v10) = Stage.s_main_call3_v10 (V (Proc.devRef .tc main_arg0)) := by
  rw [eq_main_call3_v10, val_main_call3_v5, val_main_call3_v9]
  rfl

theorem res_main_call3_c_0 (W : Valuation τ sig (Elt F)) : (TRef.nullary main_call3.c_0 (constantI S_ 32 1#32) : HloOp τ sig (Elt F)).result W (Proc.devRef .tc main_call3_c_0) = (constantI S_ 32 1#32) :=
  nullary_result ..

theorem eq_main_call3_c_0 (V : Valuation τ sig (Elt F)) : after ops V (Proc.devRef .tc main_call3_c_0) = (constantI S_ 32 1#32) :=
  (fixed V (TRef.nullary main_call3.c_0 (constantI S_ 32 1#32) : HloOp τ sig (Elt F)) (List.mem_of_getElem? (show (ops : List (HloOp τ sig (Elt F)))[41]? = some (TRef.nullary main_call3.c_0 (constantI S_ 32 1#32) : HloOp τ sig (Elt F)) from rfl)) (Proc.devRef .tc main_call3_c_0) (by simp only [nullary_writes, Finset.mem_singleton])).trans (res_main_call3_c_0 (after ops V))

theorem val_main_call3_c_0 (V : Valuation τ sig (Elt F)) : after ops V (Proc.devRef .tc main_call3_c_0) = Stage.s_main_call3_c_0 := by
  rw [eq_main_call3_c_0]
  rfl

theorem res_main_call3_v11 (W : Valuation τ sig (Elt F)) : (TRef.unary main_call3.c_0 main_call3.v11 (broadcastInDim S4194304 ![] bcast_S_S4194304) : HloOp τ sig (Elt F)).result W (Proc.devRef .tc main_call3_v11) = ((broadcastInDim S4194304 ![] bcast_S_S4194304) : (⟨S_, .i32⟩ : BufTy).Contents (Elt F) → (⟨S4194304, .i32⟩ : BufTy).Contents (Elt F)) (W (Proc.devRef .tc main_call3_c_0)) :=
  unary_result ..

theorem eq_main_call3_v11 (V : Valuation τ sig (Elt F)) : after ops V (Proc.devRef .tc main_call3_v11) = ((broadcastInDim S4194304 ![] bcast_S_S4194304) : (⟨S_, .i32⟩ : BufTy).Contents (Elt F) → (⟨S4194304, .i32⟩ : BufTy).Contents (Elt F)) (after ops V (Proc.devRef .tc main_call3_c_0)) :=
  (fixed V (TRef.unary main_call3.c_0 main_call3.v11 (broadcastInDim S4194304 ![] bcast_S_S4194304) : HloOp τ sig (Elt F)) (List.mem_of_getElem? (show (ops : List (HloOp τ sig (Elt F)))[42]? = some (TRef.unary main_call3.c_0 main_call3.v11 (broadcastInDim S4194304 ![] bcast_S_S4194304) : HloOp τ sig (Elt F)) from rfl)) (Proc.devRef .tc main_call3_v11) (by simp only [unary_writes, Finset.mem_singleton])).trans (res_main_call3_v11 (after ops V))

theorem val_main_call3_v11 (V : Valuation τ sig (Elt F)) : after ops V (Proc.devRef .tc main_call3_v11) = Stage.s_main_call3_v11 := by
  rw [eq_main_call3_v11, val_main_call3_c_0]
  rfl

theorem res_main_call3_v12 (W : Valuation τ sig (Elt F)) : (TRef.binary main_call3.v1 main_call3.v11 main_call3.v12 subi : HloOp τ sig (Elt F)).result W (Proc.devRef .tc main_call3_v12) = (subi : (⟨S4194304, .i32⟩ : BufTy).Contents (Elt F) → (⟨S4194304, .i32⟩ : BufTy).Contents (Elt F) → (⟨S4194304, .i32⟩ : BufTy).Contents (Elt F)) (W (Proc.devRef .tc main_call3_v1)) (W (Proc.devRef .tc main_call3_v11)) :=
  binary_result ..

theorem eq_main_call3_v12 (V : Valuation τ sig (Elt F)) : after ops V (Proc.devRef .tc main_call3_v12) = (subi : (⟨S4194304, .i32⟩ : BufTy).Contents (Elt F) → (⟨S4194304, .i32⟩ : BufTy).Contents (Elt F) → (⟨S4194304, .i32⟩ : BufTy).Contents (Elt F)) (after ops V (Proc.devRef .tc main_call3_v1)) (after ops V (Proc.devRef .tc main_call3_v11)) :=
  (fixed V (TRef.binary main_call3.v1 main_call3.v11 main_call3.v12 subi : HloOp τ sig (Elt F)) (List.mem_of_getElem? (show (ops : List (HloOp τ sig (Elt F)))[43]? = some (TRef.binary main_call3.v1 main_call3.v11 main_call3.v12 subi : HloOp τ sig (Elt F)) from rfl)) (Proc.devRef .tc main_call3_v12) (by simp only [binary_writes, Finset.mem_singleton])).trans (res_main_call3_v12 (after ops V))

theorem val_main_call3_v12 (V : Valuation τ sig (Elt F)) : after ops V (Proc.devRef .tc main_call3_v12) = Stage.s_main_call3_v12 (V (Proc.devRef .tc main_arg0)) := by
  rw [eq_main_call3_v12, val_main_call3_v1, val_main_call3_v11]
  rfl

theorem res_main_v14 (W : Valuation τ sig (Elt F)) : (TRef.ternary main_call3.v10 main_call3.v12 main_call3.v1 main_call3.call0.v0 select : HloOp τ sig (Elt F)).result W (Proc.devRef .tc main_v14) = (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (W (Proc.devRef .tc main_call3_v10)) (W (Proc.devRef .tc main_call3_v12)) (W (Proc.devRef .tc main_call3_v1)) :=
  ternary_result ..

theorem eq_main_v14 (V : Valuation τ sig (Elt F)) : after ops V (Proc.devRef .tc main_v14) = (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (after ops V (Proc.devRef .tc main_call3_v10)) (after ops V (Proc.devRef .tc main_call3_v12)) (after ops V (Proc.devRef .tc main_call3_v1)) :=
  (fixed V (TRef.ternary main_call3.v10 main_call3.v12 main_call3.v1 main_call3.call0.v0 select : HloOp τ sig (Elt F)) (List.mem_of_getElem? (show (ops : List (HloOp τ sig (Elt F)))[44]? = some (TRef.ternary main_call3.v10 main_call3.v12 main_call3.v1 main_call3.call0.v0 select : HloOp τ sig (Elt F)) from rfl)) (Proc.devRef .tc main_v14) (by simp only [ternary_writes, Finset.mem_singleton])).trans (res_main_v14 (after ops V))

theorem val_main_v14 (V : Valuation τ sig (Elt F)) : after ops V (Proc.devRef .tc main_v14) = Stage.s_main_v14 (V (Proc.devRef .tc main_arg0)) := by
  rw [eq_main_v14, val_main_call3_v10, val_main_call3_v12, val_main_call3_v1]
  rfl

theorem res_main_c_6 (W : Valuation τ sig (Elt F)) : (nullary main_c_6 (constantI S_ 32 2048#32) : HloOp τ sig (Elt F)).result W (Proc.devRef .tc main_c_6) = (constantI S_ 32 2048#32) :=
  nullary_result ..

theorem eq_main_c_6 (V : Valuation τ sig (Elt F)) : after ops V (Proc.devRef .tc main_c_6) = (constantI S_ 32 2048#32) :=
  (fixed V (nullary main_c_6 (constantI S_ 32 2048#32) : HloOp τ sig (Elt F)) (List.mem_of_getElem? (show (ops : List (HloOp τ sig (Elt F)))[45]? = some (nullary main_c_6 (constantI S_ 32 2048#32) : HloOp τ sig (Elt F)) from rfl)) (Proc.devRef .tc main_c_6) (by simp only [nullary_writes, Finset.mem_singleton])).trans (res_main_c_6 (after ops V))

theorem val_main_c_6 (V : Valuation τ sig (Elt F)) : after ops V (Proc.devRef .tc main_c_6) = Stage.s_main_c_6 := by
  rw [eq_main_c_6]
  rfl

theorem res_main_call4_v0 (W : Valuation τ sig (Elt F)) : (TRef.unary (TRef.of main_c_6 : TRef sig ⟨S_, .i32⟩) main_call4.v0 id : HloOp τ sig (Elt F)).result W (Proc.devRef .tc main_call4_v0) = (id : (⟨S_, .i32⟩ : BufTy).Contents (Elt F) → (⟨S_, .i32⟩ : BufTy).Contents (Elt F)) (W (Proc.devRef .tc main_c_6)) :=
  unary_result ..

theorem eq_main_call4_v0 (V : Valuation τ sig (Elt F)) : after ops V (Proc.devRef .tc main_call4_v0) = (id : (⟨S_, .i32⟩ : BufTy).Contents (Elt F) → (⟨S_, .i32⟩ : BufTy).Contents (Elt F)) (after ops V (Proc.devRef .tc main_c_6)) :=
  (fixed V (TRef.unary (TRef.of main_c_6 : TRef sig ⟨S_, .i32⟩) main_call4.v0 id : HloOp τ sig (Elt F)) (List.mem_of_getElem? (show (ops : List (HloOp τ sig (Elt F)))[46]? = some (TRef.unary (TRef.of main_c_6 : TRef sig ⟨S_, .i32⟩) main_call4.v0 id : HloOp τ sig (Elt F)) from rfl)) (Proc.devRef .tc main_call4_v0) (by simp only [unary_writes, Finset.mem_singleton])).trans (res_main_call4_v0 (after ops V))

theorem val_main_call4_v0 (V : Valuation τ sig (Elt F)) : after ops V (Proc.devRef .tc main_call4_v0) = Stage.s_main_call4_v0 := by
  rw [eq_main_call4_v0, val_main_c_6]
  rfl

theorem res_main_call4_c (W : Valuation τ sig (Elt F)) : (TRef.nullary main_call4.c (constantI S_ 32 0#32) : HloOp τ sig (Elt F)).result W (Proc.devRef .tc main_call4_c) = (constantI S_ 32 0#32) :=
  nullary_result ..

theorem eq_main_call4_c (V : Valuation τ sig (Elt F)) : after ops V (Proc.devRef .tc main_call4_c) = (constantI S_ 32 0#32) :=
  (fixed V (TRef.nullary main_call4.c (constantI S_ 32 0#32) : HloOp τ sig (Elt F)) (List.mem_of_getElem? (show (ops : List (HloOp τ sig (Elt F)))[47]? = some (TRef.nullary main_call4.c (constantI S_ 32 0#32) : HloOp τ sig (Elt F)) from rfl)) (Proc.devRef .tc main_call4_c) (by simp only [nullary_writes, Finset.mem_singleton])).trans (res_main_call4_c (after ops V))

theorem val_main_call4_c (V : Valuation τ sig (Elt F)) : after ops V (Proc.devRef .tc main_call4_c) = Stage.s_main_call4_c := by
  rw [eq_main_call4_c]
  rfl

theorem res_main_call4_v1 (W : Valuation τ sig (Elt F)) : (TRef.binary main_call4.v0 main_call4.c main_call4.v1 (cmpi .eq) : HloOp τ sig (Elt F)).result W (Proc.devRef .tc main_call4_v1) = ((cmpi .eq) : (⟨S_, .i32⟩ : BufTy).Contents (Elt F) → (⟨S_, .i32⟩ : BufTy).Contents (Elt F) → (⟨S_, .i1⟩ : BufTy).Contents (Elt F)) (W (Proc.devRef .tc main_call4_v0)) (W (Proc.devRef .tc main_call4_c)) :=
  binary_result ..

theorem eq_main_call4_v1 (V : Valuation τ sig (Elt F)) : after ops V (Proc.devRef .tc main_call4_v1) = ((cmpi .eq) : (⟨S_, .i32⟩ : BufTy).Contents (Elt F) → (⟨S_, .i32⟩ : BufTy).Contents (Elt F) → (⟨S_, .i1⟩ : BufTy).Contents (Elt F)) (after ops V (Proc.devRef .tc main_call4_v0)) (after ops V (Proc.devRef .tc main_call4_c)) :=
  (fixed V (TRef.binary main_call4.v0 main_call4.c main_call4.v1 (cmpi .eq) : HloOp τ sig (Elt F)) (List.mem_of_getElem? (show (ops : List (HloOp τ sig (Elt F)))[48]? = some (TRef.binary main_call4.v0 main_call4.c main_call4.v1 (cmpi .eq) : HloOp τ sig (Elt F)) from rfl)) (Proc.devRef .tc main_call4_v1) (by simp only [binary_writes, Finset.mem_singleton])).trans (res_main_call4_v1 (after ops V))

theorem val_main_call4_v1 (V : Valuation τ sig (Elt F)) : after ops V (Proc.devRef .tc main_call4_v1) = Stage.s_main_call4_v1 := by
  rw [eq_main_call4_v1, val_main_call4_v0, val_main_call4_c]
  rfl

theorem res_main_call4_c_0 (W : Valuation τ sig (Elt F)) : (TRef.nullary main_call4.c_0 (constantI S_ 32 1#32) : HloOp τ sig (Elt F)).result W (Proc.devRef .tc main_call4_c_0) = (constantI S_ 32 1#32) :=
  nullary_result ..

theorem eq_main_call4_c_0 (V : Valuation τ sig (Elt F)) : after ops V (Proc.devRef .tc main_call4_c_0) = (constantI S_ 32 1#32) :=
  (fixed V (TRef.nullary main_call4.c_0 (constantI S_ 32 1#32) : HloOp τ sig (Elt F)) (List.mem_of_getElem? (show (ops : List (HloOp τ sig (Elt F)))[49]? = some (TRef.nullary main_call4.c_0 (constantI S_ 32 1#32) : HloOp τ sig (Elt F)) from rfl)) (Proc.devRef .tc main_call4_c_0) (by simp only [nullary_writes, Finset.mem_singleton])).trans (res_main_call4_c_0 (after ops V))

theorem val_main_call4_c_0 (V : Valuation τ sig (Elt F)) : after ops V (Proc.devRef .tc main_call4_c_0) = Stage.s_main_call4_c_0 := by
  rw [eq_main_call4_c_0]
  rfl

theorem res_main_call4_v2 (W : Valuation τ sig (Elt F)) : (TRef.ternary main_call4.v1 main_call4.c_0 main_call4.v0 main_call4.call0.v0 select : HloOp τ sig (Elt F)).result W (Proc.devRef .tc main_call4_v2) = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (W (Proc.devRef .tc main_call4_v1)) (W (Proc.devRef .tc main_call4_c_0)) (W (Proc.devRef .tc main_call4_v0)) :=
  ternary_result ..

theorem eq_main_call4_v2 (V : Valuation τ sig (Elt F)) : after ops V (Proc.devRef .tc main_call4_v2) = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (after ops V (Proc.devRef .tc main_call4_v1)) (after ops V (Proc.devRef .tc main_call4_c_0)) (after ops V (Proc.devRef .tc main_call4_v0)) :=
  (fixed V (TRef.ternary main_call4.v1 main_call4.c_0 main_call4.v0 main_call4.call0.v0 select : HloOp τ sig (Elt F)) (List.mem_of_getElem? (show (ops : List (HloOp τ sig (Elt F)))[50]? = some (TRef.ternary main_call4.v1 main_call4.c_0 main_call4.v0 main_call4.call0.v0 select : HloOp τ sig (Elt F)) from rfl)) (Proc.devRef .tc main_call4_v2) (by simp only [ternary_writes, Finset.mem_singleton])).trans (res_main_call4_v2 (after ops V))

theorem val_main_call4_v2 (V : Valuation τ sig (Elt F)) : after ops V (Proc.devRef .tc main_call4_v2) = Stage.s_main_call4_v2 := by
  rw [eq_main_call4_v2, val_main_call4_v1, val_main_call4_c_0, val_main_call4_v0]
  rfl

theorem res_main_call4_v3 (W : Valuation τ sig (Elt F)) : (TRef.unary main_call4.call0.v0 main_call4.v3 (broadcastInDim S4194304 ![] bcast_S_S4194304) : HloOp τ sig (Elt F)).result W (Proc.devRef .tc main_call4_v3) = ((broadcastInDim S4194304 ![] bcast_S_S4194304) : (⟨S_, .i32⟩ : BufTy).Contents (Elt F) → (⟨S4194304, .i32⟩ : BufTy).Contents (Elt F)) (W (Proc.devRef .tc main_call4_v2)) :=
  unary_result ..

theorem eq_main_call4_v3 (V : Valuation τ sig (Elt F)) : after ops V (Proc.devRef .tc main_call4_v3) = ((broadcastInDim S4194304 ![] bcast_S_S4194304) : (⟨S_, .i32⟩ : BufTy).Contents (Elt F) → (⟨S4194304, .i32⟩ : BufTy).Contents (Elt F)) (after ops V (Proc.devRef .tc main_call4_v2)) :=
  (fixed V (TRef.unary main_call4.call0.v0 main_call4.v3 (broadcastInDim S4194304 ![] bcast_S_S4194304) : HloOp τ sig (Elt F)) (List.mem_of_getElem? (show (ops : List (HloOp τ sig (Elt F)))[51]? = some (TRef.unary main_call4.call0.v0 main_call4.v3 (broadcastInDim S4194304 ![] bcast_S_S4194304) : HloOp τ sig (Elt F)) from rfl)) (Proc.devRef .tc main_call4_v3) (by simp only [unary_writes, Finset.mem_singleton])).trans (res_main_call4_v3 (after ops V))

theorem val_main_call4_v3 (V : Valuation τ sig (Elt F)) : after ops V (Proc.devRef .tc main_call4_v3) = Stage.s_main_call4_v3 := by
  rw [eq_main_call4_v3, val_main_call4_v2]
  rfl

theorem res_main_call4_v4 (W : Valuation τ sig (Elt F)) : (TRef.binary (TRef.of main_v14 : TRef sig ⟨S4194304, .i32⟩) main_call4.v3 main_call4.v4 Host.remsi : HloOp τ sig (Elt F)).result W (Proc.devRef .tc main_call4_v4) = (Host.remsi : (⟨S4194304, .i32⟩ : BufTy).Contents (Elt F) → (⟨S4194304, .i32⟩ : BufTy).Contents (Elt F) → (⟨S4194304, .i32⟩ : BufTy).Contents (Elt F)) (W (Proc.devRef .tc main_v14)) (W (Proc.devRef .tc main_call4_v3)) :=
  binary_result ..

theorem eq_main_call4_v4 (V : Valuation τ sig (Elt F)) : after ops V (Proc.devRef .tc main_call4_v4) = (Host.remsi : (⟨S4194304, .i32⟩ : BufTy).Contents (Elt F) → (⟨S4194304, .i32⟩ : BufTy).Contents (Elt F) → (⟨S4194304, .i32⟩ : BufTy).Contents (Elt F)) (after ops V (Proc.devRef .tc main_v14)) (after ops V (Proc.devRef .tc main_call4_v3)) :=
  (fixed V (TRef.binary (TRef.of main_v14 : TRef sig ⟨S4194304, .i32⟩) main_call4.v3 main_call4.v4 Host.remsi : HloOp τ sig (Elt F)) (List.mem_of_getElem? (show (ops : List (HloOp τ sig (Elt F)))[52]? = some (TRef.binary (TRef.of main_v14 : TRef sig ⟨S4194304, .i32⟩) main_call4.v3 main_call4.v4 Host.remsi : HloOp τ sig (Elt F)) from rfl)) (Proc.devRef .tc main_call4_v4) (by simp only [binary_writes, Finset.mem_singleton])).trans (res_main_call4_v4 (after ops V))

theorem val_main_call4_v4 (V : Valuation τ sig (Elt F)) : after ops V (Proc.devRef .tc main_call4_v4) = Stage.s_main_call4_v4 (V (Proc.devRef .tc main_arg0)) := by
  rw [eq_main_call4_v4, val_main_v14, val_main_call4_v3]
  rfl

theorem res_main_call4_c_1 (W : Valuation τ sig (Elt F)) : (TRef.nullary main_call4.c_1 (constantI S_ 32 0#32) : HloOp τ sig (Elt F)).result W (Proc.devRef .tc main_call4_c_1) = (constantI S_ 32 0#32) :=
  nullary_result ..

theorem eq_main_call4_c_1 (V : Valuation τ sig (Elt F)) : after ops V (Proc.devRef .tc main_call4_c_1) = (constantI S_ 32 0#32) :=
  (fixed V (TRef.nullary main_call4.c_1 (constantI S_ 32 0#32) : HloOp τ sig (Elt F)) (List.mem_of_getElem? (show (ops : List (HloOp τ sig (Elt F)))[53]? = some (TRef.nullary main_call4.c_1 (constantI S_ 32 0#32) : HloOp τ sig (Elt F)) from rfl)) (Proc.devRef .tc main_call4_c_1) (by simp only [nullary_writes, Finset.mem_singleton])).trans (res_main_call4_c_1 (after ops V))

theorem val_main_call4_c_1 (V : Valuation τ sig (Elt F)) : after ops V (Proc.devRef .tc main_call4_c_1) = Stage.s_main_call4_c_1 := by
  rw [eq_main_call4_c_1]
  rfl

theorem res_main_call4_v5 (W : Valuation τ sig (Elt F)) : (TRef.unary main_call4.c_1 main_call4.v5 (broadcastInDim S4194304 ![] bcast_S_S4194304) : HloOp τ sig (Elt F)).result W (Proc.devRef .tc main_call4_v5) = ((broadcastInDim S4194304 ![] bcast_S_S4194304) : (⟨S_, .i32⟩ : BufTy).Contents (Elt F) → (⟨S4194304, .i32⟩ : BufTy).Contents (Elt F)) (W (Proc.devRef .tc main_call4_c_1)) :=
  unary_result ..

theorem eq_main_call4_v5 (V : Valuation τ sig (Elt F)) : after ops V (Proc.devRef .tc main_call4_v5) = ((broadcastInDim S4194304 ![] bcast_S_S4194304) : (⟨S_, .i32⟩ : BufTy).Contents (Elt F) → (⟨S4194304, .i32⟩ : BufTy).Contents (Elt F)) (after ops V (Proc.devRef .tc main_call4_c_1)) :=
  (fixed V (TRef.unary main_call4.c_1 main_call4.v5 (broadcastInDim S4194304 ![] bcast_S_S4194304) : HloOp τ sig (Elt F)) (List.mem_of_getElem? (show (ops : List (HloOp τ sig (Elt F)))[54]? = some (TRef.unary main_call4.c_1 main_call4.v5 (broadcastInDim S4194304 ![] bcast_S_S4194304) : HloOp τ sig (Elt F)) from rfl)) (Proc.devRef .tc main_call4_v5) (by simp only [unary_writes, Finset.mem_singleton])).trans (res_main_call4_v5 (after ops V))

theorem val_main_call4_v5 (V : Valuation τ sig (Elt F)) : after ops V (Proc.devRef .tc main_call4_v5) = Stage.s_main_call4_v5 := by
  rw [eq_main_call4_v5, val_main_call4_c_1]
  rfl

theorem res_main_call4_v6 (W : Valuation τ sig (Elt F)) : (TRef.binary main_call4.v4 main_call4.v5 main_call4.v6 (cmpi .ne) : HloOp τ sig (Elt F)).result W (Proc.devRef .tc main_call4_v6) = ((cmpi .ne) : (⟨S4194304, .i32⟩ : BufTy).Contents (Elt F) → (⟨S4194304, .i32⟩ : BufTy).Contents (Elt F) → (⟨S4194304, .i1⟩ : BufTy).Contents (Elt F)) (W (Proc.devRef .tc main_call4_v4)) (W (Proc.devRef .tc main_call4_v5)) :=
  binary_result ..

theorem eq_main_call4_v6 (V : Valuation τ sig (Elt F)) : after ops V (Proc.devRef .tc main_call4_v6) = ((cmpi .ne) : (⟨S4194304, .i32⟩ : BufTy).Contents (Elt F) → (⟨S4194304, .i32⟩ : BufTy).Contents (Elt F) → (⟨S4194304, .i1⟩ : BufTy).Contents (Elt F)) (after ops V (Proc.devRef .tc main_call4_v4)) (after ops V (Proc.devRef .tc main_call4_v5)) :=
  (fixed V (TRef.binary main_call4.v4 main_call4.v5 main_call4.v6 (cmpi .ne) : HloOp τ sig (Elt F)) (List.mem_of_getElem? (show (ops : List (HloOp τ sig (Elt F)))[55]? = some (TRef.binary main_call4.v4 main_call4.v5 main_call4.v6 (cmpi .ne) : HloOp τ sig (Elt F)) from rfl)) (Proc.devRef .tc main_call4_v6) (by simp only [binary_writes, Finset.mem_singleton])).trans (res_main_call4_v6 (after ops V))

theorem val_main_call4_v6 (V : Valuation τ sig (Elt F)) : after ops V (Proc.devRef .tc main_call4_v6) = Stage.s_main_call4_v6 (V (Proc.devRef .tc main_arg0)) := by
  rw [eq_main_call4_v6, val_main_call4_v4, val_main_call4_v5]
  rfl

theorem res_main_call4_c_2 (W : Valuation τ sig (Elt F)) : (TRef.nullary main_call4.c_2 (constantI S_ 32 0#32) : HloOp τ sig (Elt F)).result W (Proc.devRef .tc main_call4_c_2) = (constantI S_ 32 0#32) :=
  nullary_result ..

theorem eq_main_call4_c_2 (V : Valuation τ sig (Elt F)) : after ops V (Proc.devRef .tc main_call4_c_2) = (constantI S_ 32 0#32) :=
  (fixed V (TRef.nullary main_call4.c_2 (constantI S_ 32 0#32) : HloOp τ sig (Elt F)) (List.mem_of_getElem? (show (ops : List (HloOp τ sig (Elt F)))[56]? = some (TRef.nullary main_call4.c_2 (constantI S_ 32 0#32) : HloOp τ sig (Elt F)) from rfl)) (Proc.devRef .tc main_call4_c_2) (by simp only [nullary_writes, Finset.mem_singleton])).trans (res_main_call4_c_2 (after ops V))

theorem val_main_call4_c_2 (V : Valuation τ sig (Elt F)) : after ops V (Proc.devRef .tc main_call4_c_2) = Stage.s_main_call4_c_2 := by
  rw [eq_main_call4_c_2]
  rfl

theorem res_main_call4_v7 (W : Valuation τ sig (Elt F)) : (TRef.unary main_call4.c_2 main_call4.v7 (broadcastInDim S4194304 ![] bcast_S_S4194304) : HloOp τ sig (Elt F)).result W (Proc.devRef .tc main_call4_v7) = ((broadcastInDim S4194304 ![] bcast_S_S4194304) : (⟨S_, .i32⟩ : BufTy).Contents (Elt F) → (⟨S4194304, .i32⟩ : BufTy).Contents (Elt F)) (W (Proc.devRef .tc main_call4_c_2)) :=
  unary_result ..

theorem eq_main_call4_v7 (V : Valuation τ sig (Elt F)) : after ops V (Proc.devRef .tc main_call4_v7) = ((broadcastInDim S4194304 ![] bcast_S_S4194304) : (⟨S_, .i32⟩ : BufTy).Contents (Elt F) → (⟨S4194304, .i32⟩ : BufTy).Contents (Elt F)) (after ops V (Proc.devRef .tc main_call4_c_2)) :=
  (fixed V (TRef.unary main_call4.c_2 main_call4.v7 (broadcastInDim S4194304 ![] bcast_S_S4194304) : HloOp τ sig (Elt F)) (List.mem_of_getElem? (show (ops : List (HloOp τ sig (Elt F)))[57]? = some (TRef.unary main_call4.c_2 main_call4.v7 (broadcastInDim S4194304 ![] bcast_S_S4194304) : HloOp τ sig (Elt F)) from rfl)) (Proc.devRef .tc main_call4_v7) (by simp only [unary_writes, Finset.mem_singleton])).trans (res_main_call4_v7 (after ops V))

theorem val_main_call4_v7 (V : Valuation τ sig (Elt F)) : after ops V (Proc.devRef .tc main_call4_v7) = Stage.s_main_call4_v7 := by
  rw [eq_main_call4_v7, val_main_call4_c_2]
  rfl

theorem res_main_call4_v8 (W : Valuation τ sig (Elt F)) : (TRef.binary main_call4.v4 main_call4.v7 main_call4.v8 (cmpi .slt) : HloOp τ sig (Elt F)).result W (Proc.devRef .tc main_call4_v8) = ((cmpi .slt) : (⟨S4194304, .i32⟩ : BufTy).Contents (Elt F) → (⟨S4194304, .i32⟩ : BufTy).Contents (Elt F) → (⟨S4194304, .i1⟩ : BufTy).Contents (Elt F)) (W (Proc.devRef .tc main_call4_v4)) (W (Proc.devRef .tc main_call4_v7)) :=
  binary_result ..

theorem eq_main_call4_v8 (V : Valuation τ sig (Elt F)) : after ops V (Proc.devRef .tc main_call4_v8) = ((cmpi .slt) : (⟨S4194304, .i32⟩ : BufTy).Contents (Elt F) → (⟨S4194304, .i32⟩ : BufTy).Contents (Elt F) → (⟨S4194304, .i1⟩ : BufTy).Contents (Elt F)) (after ops V (Proc.devRef .tc main_call4_v4)) (after ops V (Proc.devRef .tc main_call4_v7)) :=
  (fixed V (TRef.binary main_call4.v4 main_call4.v7 main_call4.v8 (cmpi .slt) : HloOp τ sig (Elt F)) (List.mem_of_getElem? (show (ops : List (HloOp τ sig (Elt F)))[58]? = some (TRef.binary main_call4.v4 main_call4.v7 main_call4.v8 (cmpi .slt) : HloOp τ sig (Elt F)) from rfl)) (Proc.devRef .tc main_call4_v8) (by simp only [binary_writes, Finset.mem_singleton])).trans (res_main_call4_v8 (after ops V))

theorem val_main_call4_v8 (V : Valuation τ sig (Elt F)) : after ops V (Proc.devRef .tc main_call4_v8) = Stage.s_main_call4_v8 (V (Proc.devRef .tc main_arg0)) := by
  rw [eq_main_call4_v8, val_main_call4_v4, val_main_call4_v7]
  rfl

theorem res_main_call4_c_3 (W : Valuation τ sig (Elt F)) : (TRef.nullary main_call4.c_3 (constantI S_ 32 0#32) : HloOp τ sig (Elt F)).result W (Proc.devRef .tc main_call4_c_3) = (constantI S_ 32 0#32) :=
  nullary_result ..

theorem eq_main_call4_c_3 (V : Valuation τ sig (Elt F)) : after ops V (Proc.devRef .tc main_call4_c_3) = (constantI S_ 32 0#32) :=
  (fixed V (TRef.nullary main_call4.c_3 (constantI S_ 32 0#32) : HloOp τ sig (Elt F)) (List.mem_of_getElem? (show (ops : List (HloOp τ sig (Elt F)))[59]? = some (TRef.nullary main_call4.c_3 (constantI S_ 32 0#32) : HloOp τ sig (Elt F)) from rfl)) (Proc.devRef .tc main_call4_c_3) (by simp only [nullary_writes, Finset.mem_singleton])).trans (res_main_call4_c_3 (after ops V))

theorem val_main_call4_c_3 (V : Valuation τ sig (Elt F)) : after ops V (Proc.devRef .tc main_call4_c_3) = Stage.s_main_call4_c_3 := by
  rw [eq_main_call4_c_3]
  rfl

theorem res_main_call4_v9 (W : Valuation τ sig (Elt F)) : (TRef.binary main_call4.call0.v0 main_call4.c_3 main_call4.v9 (cmpi .slt) : HloOp τ sig (Elt F)).result W (Proc.devRef .tc main_call4_v9) = ((cmpi .slt) : (⟨S_, .i32⟩ : BufTy).Contents (Elt F) → (⟨S_, .i32⟩ : BufTy).Contents (Elt F) → (⟨S_, .i1⟩ : BufTy).Contents (Elt F)) (W (Proc.devRef .tc main_call4_v2)) (W (Proc.devRef .tc main_call4_c_3)) :=
  binary_result ..

theorem eq_main_call4_v9 (V : Valuation τ sig (Elt F)) : after ops V (Proc.devRef .tc main_call4_v9) = ((cmpi .slt) : (⟨S_, .i32⟩ : BufTy).Contents (Elt F) → (⟨S_, .i32⟩ : BufTy).Contents (Elt F) → (⟨S_, .i1⟩ : BufTy).Contents (Elt F)) (after ops V (Proc.devRef .tc main_call4_v2)) (after ops V (Proc.devRef .tc main_call4_c_3)) :=
  (fixed V (TRef.binary main_call4.call0.v0 main_call4.c_3 main_call4.v9 (cmpi .slt) : HloOp τ sig (Elt F)) (List.mem_of_getElem? (show (ops : List (HloOp τ sig (Elt F)))[60]? = some (TRef.binary main_call4.call0.v0 main_call4.c_3 main_call4.v9 (cmpi .slt) : HloOp τ sig (Elt F)) from rfl)) (Proc.devRef .tc main_call4_v9) (by simp only [binary_writes, Finset.mem_singleton])).trans (res_main_call4_v9 (after ops V))

theorem val_main_call4_v9 (V : Valuation τ sig (Elt F)) : after ops V (Proc.devRef .tc main_call4_v9) = Stage.s_main_call4_v9 := by
  rw [eq_main_call4_v9, val_main_call4_v2, val_main_call4_c_3]
  rfl

theorem res_main_call4_v10 (W : Valuation τ sig (Elt F)) : (TRef.unary main_call4.v9 main_call4.v10 (broadcastInDim S4194304 ![] bcast_S_S4194304) : HloOp τ sig (Elt F)).result W (Proc.devRef .tc main_call4_v10) = ((broadcastInDim S4194304 ![] bcast_S_S4194304) : (⟨S_, .i1⟩ : BufTy).Contents (Elt F) → (⟨S4194304, .i1⟩ : BufTy).Contents (Elt F)) (W (Proc.devRef .tc main_call4_v9)) :=
  unary_result ..

theorem eq_main_call4_v10 (V : Valuation τ sig (Elt F)) : after ops V (Proc.devRef .tc main_call4_v10) = ((broadcastInDim S4194304 ![] bcast_S_S4194304) : (⟨S_, .i1⟩ : BufTy).Contents (Elt F) → (⟨S4194304, .i1⟩ : BufTy).Contents (Elt F)) (after ops V (Proc.devRef .tc main_call4_v9)) :=
  (fixed V (TRef.unary main_call4.v9 main_call4.v10 (broadcastInDim S4194304 ![] bcast_S_S4194304) : HloOp τ sig (Elt F)) (List.mem_of_getElem? (show (ops : List (HloOp τ sig (Elt F)))[61]? = some (TRef.unary main_call4.v9 main_call4.v10 (broadcastInDim S4194304 ![] bcast_S_S4194304) : HloOp τ sig (Elt F)) from rfl)) (Proc.devRef .tc main_call4_v10) (by simp only [unary_writes, Finset.mem_singleton])).trans (res_main_call4_v10 (after ops V))

theorem val_main_call4_v10 (V : Valuation τ sig (Elt F)) : after ops V (Proc.devRef .tc main_call4_v10) = Stage.s_main_call4_v10 := by
  rw [eq_main_call4_v10, val_main_call4_v9]
  rfl

theorem res_main_call4_v11 (W : Valuation τ sig (Elt F)) : (TRef.binary main_call4.v8 main_call4.v10 main_call4.v11 (cmpi .ne) : HloOp τ sig (Elt F)).result W (Proc.devRef .tc main_call4_v11) = ((cmpi .ne) : (⟨S4194304, .i1⟩ : BufTy).Contents (Elt F) → (⟨S4194304, .i1⟩ : BufTy).Contents (Elt F) → (⟨S4194304, .i1⟩ : BufTy).Contents (Elt F)) (W (Proc.devRef .tc main_call4_v8)) (W (Proc.devRef .tc main_call4_v10)) :=
  binary_result ..

theorem eq_main_call4_v11 (V : Valuation τ sig (Elt F)) : after ops V (Proc.devRef .tc main_call4_v11) = ((cmpi .ne) : (⟨S4194304, .i1⟩ : BufTy).Contents (Elt F) → (⟨S4194304, .i1⟩ : BufTy).Contents (Elt F) → (⟨S4194304, .i1⟩ : BufTy).Contents (Elt F)) (after ops V (Proc.devRef .tc main_call4_v8)) (after ops V (Proc.devRef .tc main_call4_v10)) :=
  (fixed V (TRef.binary main_call4.v8 main_call4.v10 main_call4.v11 (cmpi .ne) : HloOp τ sig (Elt F)) (List.mem_of_getElem? (show (ops : List (HloOp τ sig (Elt F)))[62]? = some (TRef.binary main_call4.v8 main_call4.v10 main_call4.v11 (cmpi .ne) : HloOp τ sig (Elt F)) from rfl)) (Proc.devRef .tc main_call4_v11) (by simp only [binary_writes, Finset.mem_singleton])).trans (res_main_call4_v11 (after ops V))

theorem val_main_call4_v11 (V : Valuation τ sig (Elt F)) : after ops V (Proc.devRef .tc main_call4_v11) = Stage.s_main_call4_v11 (V (Proc.devRef .tc main_arg0)) := by
  rw [eq_main_call4_v11, val_main_call4_v8, val_main_call4_v10]
  rfl

theorem res_main_call4_v12 (W : Valuation τ sig (Elt F)) : (TRef.binary main_call4.v11 main_call4.v6 main_call4.v12 andi : HloOp τ sig (Elt F)).result W (Proc.devRef .tc main_call4_v12) = (andi : (⟨S4194304, .i1⟩ : BufTy).Contents (Elt F) → (⟨S4194304, .i1⟩ : BufTy).Contents (Elt F) → (⟨S4194304, .i1⟩ : BufTy).Contents (Elt F)) (W (Proc.devRef .tc main_call4_v11)) (W (Proc.devRef .tc main_call4_v6)) :=
  binary_result ..

theorem eq_main_call4_v12 (V : Valuation τ sig (Elt F)) : after ops V (Proc.devRef .tc main_call4_v12) = (andi : (⟨S4194304, .i1⟩ : BufTy).Contents (Elt F) → (⟨S4194304, .i1⟩ : BufTy).Contents (Elt F) → (⟨S4194304, .i1⟩ : BufTy).Contents (Elt F)) (after ops V (Proc.devRef .tc main_call4_v11)) (after ops V (Proc.devRef .tc main_call4_v6)) :=
  (fixed V (TRef.binary main_call4.v11 main_call4.v6 main_call4.v12 andi : HloOp τ sig (Elt F)) (List.mem_of_getElem? (show (ops : List (HloOp τ sig (Elt F)))[63]? = some (TRef.binary main_call4.v11 main_call4.v6 main_call4.v12 andi : HloOp τ sig (Elt F)) from rfl)) (Proc.devRef .tc main_call4_v12) (by simp only [binary_writes, Finset.mem_singleton])).trans (res_main_call4_v12 (after ops V))

theorem val_main_call4_v12 (V : Valuation τ sig (Elt F)) : after ops V (Proc.devRef .tc main_call4_v12) = Stage.s_main_call4_v12 (V (Proc.devRef .tc main_arg0)) := by
  rw [eq_main_call4_v12, val_main_call4_v11, val_main_call4_v6]
  rfl

theorem res_main_call4_v13 (W : Valuation τ sig (Elt F)) : (TRef.unary main_call4.call0.v0 main_call4.v13 (broadcastInDim S4194304 ![] bcast_S_S4194304) : HloOp τ sig (Elt F)).result W (Proc.devRef .tc main_call4_v13) = ((broadcastInDim S4194304 ![] bcast_S_S4194304) : (⟨S_, .i32⟩ : BufTy).Contents (Elt F) → (⟨S4194304, .i32⟩ : BufTy).Contents (Elt F)) (W (Proc.devRef .tc main_call4_v2)) :=
  unary_result ..

theorem eq_main_call4_v13 (V : Valuation τ sig (Elt F)) : after ops V (Proc.devRef .tc main_call4_v13) = ((broadcastInDim S4194304 ![] bcast_S_S4194304) : (⟨S_, .i32⟩ : BufTy).Contents (Elt F) → (⟨S4194304, .i32⟩ : BufTy).Contents (Elt F)) (after ops V (Proc.devRef .tc main_call4_v2)) :=
  (fixed V (TRef.unary main_call4.call0.v0 main_call4.v13 (broadcastInDim S4194304 ![] bcast_S_S4194304) : HloOp τ sig (Elt F)) (List.mem_of_getElem? (show (ops : List (HloOp τ sig (Elt F)))[64]? = some (TRef.unary main_call4.call0.v0 main_call4.v13 (broadcastInDim S4194304 ![] bcast_S_S4194304) : HloOp τ sig (Elt F)) from rfl)) (Proc.devRef .tc main_call4_v13) (by simp only [unary_writes, Finset.mem_singleton])).trans (res_main_call4_v13 (after ops V))

theorem val_main_call4_v13 (V : Valuation τ sig (Elt F)) : after ops V (Proc.devRef .tc main_call4_v13) = Stage.s_main_call4_v13 := by
  rw [eq_main_call4_v13, val_main_call4_v2]
  rfl

theorem res_main_call4_v14 (W : Valuation τ sig (Elt F)) : (TRef.binary main_call4.v4 main_call4.v13 main_call4.v14 addi : HloOp τ sig (Elt F)).result W (Proc.devRef .tc main_call4_v14) = (addi : (⟨S4194304, .i32⟩ : BufTy).Contents (Elt F) → (⟨S4194304, .i32⟩ : BufTy).Contents (Elt F) → (⟨S4194304, .i32⟩ : BufTy).Contents (Elt F)) (W (Proc.devRef .tc main_call4_v4)) (W (Proc.devRef .tc main_call4_v13)) :=
  binary_result ..

theorem eq_main_call4_v14 (V : Valuation τ sig (Elt F)) : after ops V (Proc.devRef .tc main_call4_v14) = (addi : (⟨S4194304, .i32⟩ : BufTy).Contents (Elt F) → (⟨S4194304, .i32⟩ : BufTy).Contents (Elt F) → (⟨S4194304, .i32⟩ : BufTy).Contents (Elt F)) (after ops V (Proc.devRef .tc main_call4_v4)) (after ops V (Proc.devRef .tc main_call4_v13)) :=
  (fixed V (TRef.binary main_call4.v4 main_call4.v13 main_call4.v14 addi : HloOp τ sig (Elt F)) (List.mem_of_getElem? (show (ops : List (HloOp τ sig (Elt F)))[65]? = some (TRef.binary main_call4.v4 main_call4.v13 main_call4.v14 addi : HloOp τ sig (Elt F)) from rfl)) (Proc.devRef .tc main_call4_v14) (by simp only [binary_writes, Finset.mem_singleton])).trans (res_main_call4_v14 (after ops V))

theorem val_main_call4_v14 (V : Valuation τ sig (Elt F)) : after ops V (Proc.devRef .tc main_call4_v14) = Stage.s_main_call4_v14 (V (Proc.devRef .tc main_arg0)) := by
  rw [eq_main_call4_v14, val_main_call4_v4, val_main_call4_v13]
  rfl

theorem res_main_v15 (W : Valuation τ sig (Elt F)) : (TRef.ternary main_call4.v12 main_call4.v14 main_call4.v4 main_call4.v15 select : HloOp τ sig (Elt F)).result W (Proc.devRef .tc main_v15) = (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (W (Proc.devRef .tc main_call4_v12)) (W (Proc.devRef .tc main_call4_v14)) (W (Proc.devRef .tc main_call4_v4)) :=
  ternary_result ..

theorem eq_main_v15 (V : Valuation τ sig (Elt F)) : after ops V (Proc.devRef .tc main_v15) = (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (after ops V (Proc.devRef .tc main_call4_v12)) (after ops V (Proc.devRef .tc main_call4_v14)) (after ops V (Proc.devRef .tc main_call4_v4)) :=
  (fixed V (TRef.ternary main_call4.v12 main_call4.v14 main_call4.v4 main_call4.v15 select : HloOp τ sig (Elt F)) (List.mem_of_getElem? (show (ops : List (HloOp τ sig (Elt F)))[66]? = some (TRef.ternary main_call4.v12 main_call4.v14 main_call4.v4 main_call4.v15 select : HloOp τ sig (Elt F)) from rfl)) (Proc.devRef .tc main_v15) (by simp only [ternary_writes, Finset.mem_singleton])).trans (res_main_v15 (after ops V))

theorem val_main_v15 (V : Valuation τ sig (Elt F)) : after ops V (Proc.devRef .tc main_v15) = Stage.s_main_v15 (V (Proc.devRef .tc main_arg0)) := by
  rw [eq_main_v15, val_main_call4_v12, val_main_call4_v14, val_main_call4_v4]
  rfl

theorem res_main_c_7 (W : Valuation τ sig (Elt F)) : (nullary main_c_7 (constantI S_ 32 1#32) : HloOp τ sig (Elt F)).result W (Proc.devRef .tc main_c_7) = (constantI S_ 32 1#32) :=
  nullary_result ..

theorem eq_main_c_7 (V : Valuation τ sig (Elt F)) : after ops V (Proc.devRef .tc main_c_7) = (constantI S_ 32 1#32) :=
  (fixed V (nullary main_c_7 (constantI S_ 32 1#32) : HloOp τ sig (Elt F)) (List.mem_of_getElem? (show (ops : List (HloOp τ sig (Elt F)))[67]? = some (nullary main_c_7 (constantI S_ 32 1#32) : HloOp τ sig (Elt F)) from rfl)) (Proc.devRef .tc main_c_7) (by simp only [nullary_writes, Finset.mem_singleton])).trans (res_main_c_7 (after ops V))

theorem val_main_c_7 (V : Valuation τ sig (Elt F)) : after ops V (Proc.devRef .tc main_c_7) = Stage.s_main_c_7 := by
  rw [eq_main_c_7]
  rfl

theorem res_main_call5_v0 (W : Valuation τ sig (Elt F)) : (TRef.unary (TRef.of main_c_7 : TRef sig ⟨S_, .i32⟩) main_call5.v0 (broadcastInDim S4194304 ![] bcast_S_S4194304) : HloOp τ sig (Elt F)).result W (Proc.devRef .tc main_call5_v0) = ((broadcastInDim S4194304 ![] bcast_S_S4194304) : (⟨S_, .i32⟩ : BufTy).Contents (Elt F) → (⟨S4194304, .i32⟩ : BufTy).Contents (Elt F)) (W (Proc.devRef .tc main_c_7)) :=
  unary_result ..

theorem eq_main_call5_v0 (V : Valuation τ sig (Elt F)) : after ops V (Proc.devRef .tc main_call5_v0) = ((broadcastInDim S4194304 ![] bcast_S_S4194304) : (⟨S_, .i32⟩ : BufTy).Contents (Elt F) → (⟨S4194304, .i32⟩ : BufTy).Contents (Elt F)) (after ops V (Proc.devRef .tc main_c_7)) :=
  (fixed V (TRef.unary (TRef.of main_c_7 : TRef sig ⟨S_, .i32⟩) main_call5.v0 (broadcastInDim S4194304 ![] bcast_S_S4194304) : HloOp τ sig (Elt F)) (List.mem_of_getElem? (show (ops : List (HloOp τ sig (Elt F)))[68]? = some (TRef.unary (TRef.of main_c_7 : TRef sig ⟨S_, .i32⟩) main_call5.v0 (broadcastInDim S4194304 ![] bcast_S_S4194304) : HloOp τ sig (Elt F)) from rfl)) (Proc.devRef .tc main_call5_v0) (by simp only [unary_writes, Finset.mem_singleton])).trans (res_main_call5_v0 (after ops V))

theorem val_main_call5_v0 (V : Valuation τ sig (Elt F)) : after ops V (Proc.devRef .tc main_call5_v0) = Stage.s_main_call5_v0 := by
  rw [eq_main_call5_v0, val_main_c_7]
  rfl

theorem res_main_call5_v1 (W : Valuation τ sig (Elt F)) : (TRef.binary (TRef.of main_v13 : TRef sig ⟨S4194304, .i32⟩) main_call5.v0 main_call5.v1 Host.divsi : HloOp τ sig (Elt F)).result W (Proc.devRef .tc main_call5_v1) = (Host.divsi : (⟨S4194304, .i32⟩ : BufTy).Contents (Elt F) → (⟨S4194304, .i32⟩ : BufTy).Contents (Elt F) → (⟨S4194304, .i32⟩ : BufTy).Contents (Elt F)) (W (Proc.devRef .tc main_v13)) (W (Proc.devRef .tc main_call5_v0)) :=
  binary_result ..

theorem eq_main_call5_v1 (V : Valuation τ sig (Elt F)) : after ops V (Proc.devRef .tc main_call5_v1) = (Host.divsi : (⟨S4194304, .i32⟩ : BufTy).Contents (Elt F) → (⟨S4194304, .i32⟩ : BufTy).Contents (Elt F) → (⟨S4194304, .i32⟩ : BufTy).Contents (Elt F)) (after ops V (Proc.devRef .tc main_v13)) (after ops V (Proc.devRef .tc main_call5_v0)) :=
  (fixed V (TRef.binary (TRef.of main_v13 : TRef sig ⟨S4194304, .i32⟩) main_call5.v0 main_call5.v1 Host.divsi : HloOp τ sig (Elt F)) (List.mem_of_getElem? (show (ops : List (HloOp τ sig (Elt F)))[69]? = some (TRef.binary (TRef.of main_v13 : TRef sig ⟨S4194304, .i32⟩) main_call5.v0 main_call5.v1 Host.divsi : HloOp τ sig (Elt F)) from rfl)) (Proc.devRef .tc main_call5_v1) (by simp only [binary_writes, Finset.mem_singleton])).trans (res_main_call5_v1 (after ops V))

theorem val_main_call5_v1 (V : Valuation τ sig (Elt F)) : after ops V (Proc.devRef .tc main_call5_v1) = Stage.s_main_call5_v1 (V (Proc.devRef .tc main_arg0)) := by
  rw [eq_main_call5_v1, val_main_v13, val_main_call5_v0]
  rfl

theorem res_main_call5_v2 (W : Valuation τ sig (Elt F)) : (TRef.unary (TRef.of main_v13 : TRef sig ⟨S4194304, .i32⟩) main_call5.v2 signi : HloOp τ sig (Elt F)).result W (Proc.devRef .tc main_call5_v2) = (signi : (⟨S4194304, .i32⟩ : BufTy).Contents (Elt F) → (⟨S4194304, .i32⟩ : BufTy).Contents (Elt F)) (W (Proc.devRef .tc main_v13)) :=
  unary_result ..

theorem eq_main_call5_v2 (V : Valuation τ sig (Elt F)) : after ops V (Proc.devRef .tc main_call5_v2) = (signi : (⟨S4194304, .i32⟩ : BufTy).Contents (Elt F) → (⟨S4194304, .i32⟩ : BufTy).Contents (Elt F)) (after ops V (Proc.devRef .tc main_v13)) :=
  (fixed V (TRef.unary (TRef.of main_v13 : TRef sig ⟨S4194304, .i32⟩) main_call5.v2 signi : HloOp τ sig (Elt F)) (List.mem_of_getElem? (show (ops : List (HloOp τ sig (Elt F)))[70]? = some (TRef.unary (TRef.of main_v13 : TRef sig ⟨S4194304, .i32⟩) main_call5.v2 signi : HloOp τ sig (Elt F)) from rfl)) (Proc.devRef .tc main_call5_v2) (by simp only [unary_writes, Finset.mem_singleton])).trans (res_main_call5_v2 (after ops V))

theorem val_main_call5_v2 (V : Valuation τ sig (Elt F)) : after ops V (Proc.devRef .tc main_call5_v2) = Stage.s_main_call5_v2 (V (Proc.devRef .tc main_arg0)) := by
  rw [eq_main_call5_v2, val_main_v13]
  rfl

theorem res_main_call5_v3 (W : Valuation τ sig (Elt F)) : (TRef.unary (TRef.of main_c_7 : TRef sig ⟨S_, .i32⟩) main_call5.v3 signi : HloOp τ sig (Elt F)).result W (Proc.devRef .tc main_call5_v3) = (signi : (⟨S_, .i32⟩ : BufTy).Contents (Elt F) → (⟨S_, .i32⟩ : BufTy).Contents (Elt F)) (W (Proc.devRef .tc main_c_7)) :=
  unary_result ..

theorem eq_main_call5_v3 (V : Valuation τ sig (Elt F)) : after ops V (Proc.devRef .tc main_call5_v3) = (signi : (⟨S_, .i32⟩ : BufTy).Contents (Elt F) → (⟨S_, .i32⟩ : BufTy).Contents (Elt F)) (after ops V (Proc.devRef .tc main_c_7)) :=
  (fixed V (TRef.unary (TRef.of main_c_7 : TRef sig ⟨S_, .i32⟩) main_call5.v3 signi : HloOp τ sig (Elt F)) (List.mem_of_getElem? (show (ops : List (HloOp τ sig (Elt F)))[71]? = some (TRef.unary (TRef.of main_c_7 : TRef sig ⟨S_, .i32⟩) main_call5.v3 signi : HloOp τ sig (Elt F)) from rfl)) (Proc.devRef .tc main_call5_v3) (by simp only [unary_writes, Finset.mem_singleton])).trans (res_main_call5_v3 (after ops V))

theorem val_main_call5_v3 (V : Valuation τ sig (Elt F)) : after ops V (Proc.devRef .tc main_call5_v3) = Stage.s_main_call5_v3 := by
  rw [eq_main_call5_v3, val_main_c_7]
  rfl

theorem res_main_call5_v4 (W : Valuation τ sig (Elt F)) : (TRef.unary main_call5.v3 main_call5.v4 (broadcastInDim S4194304 ![] bcast_S_S4194304) : HloOp τ sig (Elt F)).result W (Proc.devRef .tc main_call5_v4) = ((broadcastInDim S4194304 ![] bcast_S_S4194304) : (⟨S_, .i32⟩ : BufTy).Contents (Elt F) → (⟨S4194304, .i32⟩ : BufTy).Contents (Elt F)) (W (Proc.devRef .tc main_call5_v3)) :=
  unary_result ..

theorem eq_main_call5_v4 (V : Valuation τ sig (Elt F)) : after ops V (Proc.devRef .tc main_call5_v4) = ((broadcastInDim S4194304 ![] bcast_S_S4194304) : (⟨S_, .i32⟩ : BufTy).Contents (Elt F) → (⟨S4194304, .i32⟩ : BufTy).Contents (Elt F)) (after ops V (Proc.devRef .tc main_call5_v3)) :=
  (fixed V (TRef.unary main_call5.v3 main_call5.v4 (broadcastInDim S4194304 ![] bcast_S_S4194304) : HloOp τ sig (Elt F)) (List.mem_of_getElem? (show (ops : List (HloOp τ sig (Elt F)))[72]? = some (TRef.unary main_call5.v3 main_call5.v4 (broadcastInDim S4194304 ![] bcast_S_S4194304) : HloOp τ sig (Elt F)) from rfl)) (Proc.devRef .tc main_call5_v4) (by simp only [unary_writes, Finset.mem_singleton])).trans (res_main_call5_v4 (after ops V))

theorem val_main_call5_v4 (V : Valuation τ sig (Elt F)) : after ops V (Proc.devRef .tc main_call5_v4) = Stage.s_main_call5_v4 := by
  rw [eq_main_call5_v4, val_main_call5_v3]
  rfl

theorem res_main_call5_v5 (W : Valuation τ sig (Elt F)) : (TRef.binary main_call5.v2 main_call5.v4 main_call5.v5 (cmpi .ne) : HloOp τ sig (Elt F)).result W (Proc.devRef .tc main_call5_v5) = ((cmpi .ne) : (⟨S4194304, .i32⟩ : BufTy).Contents (Elt F) → (⟨S4194304, .i32⟩ : BufTy).Contents (Elt F) → (⟨S4194304, .i1⟩ : BufTy).Contents (Elt F)) (W (Proc.devRef .tc main_call5_v2)) (W (Proc.devRef .tc main_call5_v4)) :=
  binary_result ..

theorem eq_main_call5_v5 (V : Valuation τ sig (Elt F)) : after ops V (Proc.devRef .tc main_call5_v5) = ((cmpi .ne) : (⟨S4194304, .i32⟩ : BufTy).Contents (Elt F) → (⟨S4194304, .i32⟩ : BufTy).Contents (Elt F) → (⟨S4194304, .i1⟩ : BufTy).Contents (Elt F)) (after ops V (Proc.devRef .tc main_call5_v2)) (after ops V (Proc.devRef .tc main_call5_v4)) :=
  (fixed V (TRef.binary main_call5.v2 main_call5.v4 main_call5.v5 (cmpi .ne) : HloOp τ sig (Elt F)) (List.mem_of_getElem? (show (ops : List (HloOp τ sig (Elt F)))[73]? = some (TRef.binary main_call5.v2 main_call5.v4 main_call5.v5 (cmpi .ne) : HloOp τ sig (Elt F)) from rfl)) (Proc.devRef .tc main_call5_v5) (by simp only [binary_writes, Finset.mem_singleton])).trans (res_main_call5_v5 (after ops V))

theorem val_main_call5_v5 (V : Valuation τ sig (Elt F)) : after ops V (Proc.devRef .tc main_call5_v5) = Stage.s_main_call5_v5 (V (Proc.devRef .tc main_arg0)) := by
  rw [eq_main_call5_v5, val_main_call5_v2, val_main_call5_v4]
  rfl

theorem res_main_call5_v6 (W : Valuation τ sig (Elt F)) : (TRef.unary (TRef.of main_c_7 : TRef sig ⟨S_, .i32⟩) main_call5.v6 (broadcastInDim S4194304 ![] bcast_S_S4194304) : HloOp τ sig (Elt F)).result W (Proc.devRef .tc main_call5_v6) = ((broadcastInDim S4194304 ![] bcast_S_S4194304) : (⟨S_, .i32⟩ : BufTy).Contents (Elt F) → (⟨S4194304, .i32⟩ : BufTy).Contents (Elt F)) (W (Proc.devRef .tc main_c_7)) :=
  unary_result ..

theorem eq_main_call5_v6 (V : Valuation τ sig (Elt F)) : after ops V (Proc.devRef .tc main_call5_v6) = ((broadcastInDim S4194304 ![] bcast_S_S4194304) : (⟨S_, .i32⟩ : BufTy).Contents (Elt F) → (⟨S4194304, .i32⟩ : BufTy).Contents (Elt F)) (after ops V (Proc.devRef .tc main_c_7)) :=
  (fixed V (TRef.unary (TRef.of main_c_7 : TRef sig ⟨S_, .i32⟩) main_call5.v6 (broadcastInDim S4194304 ![] bcast_S_S4194304) : HloOp τ sig (Elt F)) (List.mem_of_getElem? (show (ops : List (HloOp τ sig (Elt F)))[74]? = some (TRef.unary (TRef.of main_c_7 : TRef sig ⟨S_, .i32⟩) main_call5.v6 (broadcastInDim S4194304 ![] bcast_S_S4194304) : HloOp τ sig (Elt F)) from rfl)) (Proc.devRef .tc main_call5_v6) (by simp only [unary_writes, Finset.mem_singleton])).trans (res_main_call5_v6 (after ops V))

theorem val_main_call5_v6 (V : Valuation τ sig (Elt F)) : after ops V (Proc.devRef .tc main_call5_v6) = Stage.s_main_call5_v6 := by
  rw [eq_main_call5_v6, val_main_c_7]
  rfl

theorem res_main_call5_v7 (W : Valuation τ sig (Elt F)) : (TRef.binary (TRef.of main_v13 : TRef sig ⟨S4194304, .i32⟩) main_call5.v6 main_call5.v7 Host.remsi : HloOp τ sig (Elt F)).result W (Proc.devRef .tc main_call5_v7) = (Host.remsi : (⟨S4194304, .i32⟩ : BufTy).Contents (Elt F) → (⟨S4194304, .i32⟩ : BufTy).Contents (Elt F) → (⟨S4194304, .i32⟩ : BufTy).Contents (Elt F)) (W (Proc.devRef .tc main_v13)) (W (Proc.devRef .tc main_call5_v6)) :=
  binary_result ..

theorem eq_main_call5_v7 (V : Valuation τ sig (Elt F)) : after ops V (Proc.devRef .tc main_call5_v7) = (Host.remsi : (⟨S4194304, .i32⟩ : BufTy).Contents (Elt F) → (⟨S4194304, .i32⟩ : BufTy).Contents (Elt F) → (⟨S4194304, .i32⟩ : BufTy).Contents (Elt F)) (after ops V (Proc.devRef .tc main_v13)) (after ops V (Proc.devRef .tc main_call5_v6)) :=
  (fixed V (TRef.binary (TRef.of main_v13 : TRef sig ⟨S4194304, .i32⟩) main_call5.v6 main_call5.v7 Host.remsi : HloOp τ sig (Elt F)) (List.mem_of_getElem? (show (ops : List (HloOp τ sig (Elt F)))[75]? = some (TRef.binary (TRef.of main_v13 : TRef sig ⟨S4194304, .i32⟩) main_call5.v6 main_call5.v7 Host.remsi : HloOp τ sig (Elt F)) from rfl)) (Proc.devRef .tc main_call5_v7) (by simp only [binary_writes, Finset.mem_singleton])).trans (res_main_call5_v7 (after ops V))

theorem val_main_call5_v7 (V : Valuation τ sig (Elt F)) : after ops V (Proc.devRef .tc main_call5_v7) = Stage.s_main_call5_v7 (V (Proc.devRef .tc main_arg0)) := by
  rw [eq_main_call5_v7, val_main_v13, val_main_call5_v6]
  rfl

theorem res_main_call5_c (W : Valuation τ sig (Elt F)) : (TRef.nullary main_call5.c (constantI S_ 32 0#32) : HloOp τ sig (Elt F)).result W (Proc.devRef .tc main_call5_c) = (constantI S_ 32 0#32) :=
  nullary_result ..

theorem eq_main_call5_c (V : Valuation τ sig (Elt F)) : after ops V (Proc.devRef .tc main_call5_c) = (constantI S_ 32 0#32) :=
  (fixed V (TRef.nullary main_call5.c (constantI S_ 32 0#32) : HloOp τ sig (Elt F)) (List.mem_of_getElem? (show (ops : List (HloOp τ sig (Elt F)))[76]? = some (TRef.nullary main_call5.c (constantI S_ 32 0#32) : HloOp τ sig (Elt F)) from rfl)) (Proc.devRef .tc main_call5_c) (by simp only [nullary_writes, Finset.mem_singleton])).trans (res_main_call5_c (after ops V))

theorem val_main_call5_c (V : Valuation τ sig (Elt F)) : after ops V (Proc.devRef .tc main_call5_c) = Stage.s_main_call5_c := by
  rw [eq_main_call5_c]
  rfl

theorem res_main_call5_v8 (W : Valuation τ sig (Elt F)) : (TRef.unary main_call5.c main_call5.v8 (broadcastInDim S4194304 ![] bcast_S_S4194304) : HloOp τ sig (Elt F)).result W (Proc.devRef .tc main_call5_v8) = ((broadcastInDim S4194304 ![] bcast_S_S4194304) : (⟨S_, .i32⟩ : BufTy).Contents (Elt F) → (⟨S4194304, .i32⟩ : BufTy).Contents (Elt F)) (W (Proc.devRef .tc main_call5_c)) :=
  unary_result ..

theorem eq_main_call5_v8 (V : Valuation τ sig (Elt F)) : after ops V (Proc.devRef .tc main_call5_v8) = ((broadcastInDim S4194304 ![] bcast_S_S4194304) : (⟨S_, .i32⟩ : BufTy).Contents (Elt F) → (⟨S4194304, .i32⟩ : BufTy).Contents (Elt F)) (after ops V (Proc.devRef .tc main_call5_c)) :=
  (fixed V (TRef.unary main_call5.c main_call5.v8 (broadcastInDim S4194304 ![] bcast_S_S4194304) : HloOp τ sig (Elt F)) (List.mem_of_getElem? (show (ops : List (HloOp τ sig (Elt F)))[77]? = some (TRef.unary main_call5.c main_call5.v8 (broadcastInDim S4194304 ![] bcast_S_S4194304) : HloOp τ sig (Elt F)) from rfl)) (Proc.devRef .tc main_call5_v8) (by simp only [unary_writes, Finset.mem_singleton])).trans (res_main_call5_v8 (after ops V))

theorem val_main_call5_v8 (V : Valuation τ sig (Elt F)) : after ops V (Proc.devRef .tc main_call5_v8) = Stage.s_main_call5_v8 := by
  rw [eq_main_call5_v8, val_main_call5_c]
  rfl

theorem res_main_call5_v9 (W : Valuation τ sig (Elt F)) : (TRef.binary main_call5.v7 main_call5.v8 main_call5.v9 (cmpi .ne) : HloOp τ sig (Elt F)).result W (Proc.devRef .tc main_call5_v9) = ((cmpi .ne) : (⟨S4194304, .i32⟩ : BufTy).Contents (Elt F) → (⟨S4194304, .i32⟩ : BufTy).Contents (Elt F) → (⟨S4194304, .i1⟩ : BufTy).Contents (Elt F)) (W (Proc.devRef .tc main_call5_v7)) (W (Proc.devRef .tc main_call5_v8)) :=
  binary_result ..

theorem eq_main_call5_v9 (V : Valuation τ sig (Elt F)) : after ops V (Proc.devRef .tc main_call5_v9) = ((cmpi .ne) : (⟨S4194304, .i32⟩ : BufTy).Contents (Elt F) → (⟨S4194304, .i32⟩ : BufTy).Contents (Elt F) → (⟨S4194304, .i1⟩ : BufTy).Contents (Elt F)) (after ops V (Proc.devRef .tc main_call5_v7)) (after ops V (Proc.devRef .tc main_call5_v8)) :=
  (fixed V (TRef.binary main_call5.v7 main_call5.v8 main_call5.v9 (cmpi .ne) : HloOp τ sig (Elt F)) (List.mem_of_getElem? (show (ops : List (HloOp τ sig (Elt F)))[78]? = some (TRef.binary main_call5.v7 main_call5.v8 main_call5.v9 (cmpi .ne) : HloOp τ sig (Elt F)) from rfl)) (Proc.devRef .tc main_call5_v9) (by simp only [binary_writes, Finset.mem_singleton])).trans (res_main_call5_v9 (after ops V))

theorem val_main_call5_v9 (V : Valuation τ sig (Elt F)) : after ops V (Proc.devRef .tc main_call5_v9) = Stage.s_main_call5_v9 (V (Proc.devRef .tc main_arg0)) := by
  rw [eq_main_call5_v9, val_main_call5_v7, val_main_call5_v8]
  rfl

theorem res_main_call5_v10 (W : Valuation τ sig (Elt F)) : (TRef.binary main_call5.v5 main_call5.v9 main_call5.v10 andi : HloOp τ sig (Elt F)).result W (Proc.devRef .tc main_call5_v10) = (andi : (⟨S4194304, .i1⟩ : BufTy).Contents (Elt F) → (⟨S4194304, .i1⟩ : BufTy).Contents (Elt F) → (⟨S4194304, .i1⟩ : BufTy).Contents (Elt F)) (W (Proc.devRef .tc main_call5_v5)) (W (Proc.devRef .tc main_call5_v9)) :=
  binary_result ..

theorem eq_main_call5_v10 (V : Valuation τ sig (Elt F)) : after ops V (Proc.devRef .tc main_call5_v10) = (andi : (⟨S4194304, .i1⟩ : BufTy).Contents (Elt F) → (⟨S4194304, .i1⟩ : BufTy).Contents (Elt F) → (⟨S4194304, .i1⟩ : BufTy).Contents (Elt F)) (after ops V (Proc.devRef .tc main_call5_v5)) (after ops V (Proc.devRef .tc main_call5_v9)) :=
  (fixed V (TRef.binary main_call5.v5 main_call5.v9 main_call5.v10 andi : HloOp τ sig (Elt F)) (List.mem_of_getElem? (show (ops : List (HloOp τ sig (Elt F)))[79]? = some (TRef.binary main_call5.v5 main_call5.v9 main_call5.v10 andi : HloOp τ sig (Elt F)) from rfl)) (Proc.devRef .tc main_call5_v10) (by simp only [binary_writes, Finset.mem_singleton])).trans (res_main_call5_v10 (after ops V))

theorem val_main_call5_v10 (V : Valuation τ sig (Elt F)) : after ops V (Proc.devRef .tc main_call5_v10) = Stage.s_main_call5_v10 (V (Proc.devRef .tc main_arg0)) := by
  rw [eq_main_call5_v10, val_main_call5_v5, val_main_call5_v9]
  rfl

theorem res_main_call5_c_0 (W : Valuation τ sig (Elt F)) : (TRef.nullary main_call5.c_0 (constantI S_ 32 1#32) : HloOp τ sig (Elt F)).result W (Proc.devRef .tc main_call5_c_0) = (constantI S_ 32 1#32) :=
  nullary_result ..

theorem eq_main_call5_c_0 (V : Valuation τ sig (Elt F)) : after ops V (Proc.devRef .tc main_call5_c_0) = (constantI S_ 32 1#32) :=
  (fixed V (TRef.nullary main_call5.c_0 (constantI S_ 32 1#32) : HloOp τ sig (Elt F)) (List.mem_of_getElem? (show (ops : List (HloOp τ sig (Elt F)))[80]? = some (TRef.nullary main_call5.c_0 (constantI S_ 32 1#32) : HloOp τ sig (Elt F)) from rfl)) (Proc.devRef .tc main_call5_c_0) (by simp only [nullary_writes, Finset.mem_singleton])).trans (res_main_call5_c_0 (after ops V))

theorem val_main_call5_c_0 (V : Valuation τ sig (Elt F)) : after ops V (Proc.devRef .tc main_call5_c_0) = Stage.s_main_call5_c_0 := by
  rw [eq_main_call5_c_0]
  rfl

theorem res_main_call5_v11 (W : Valuation τ sig (Elt F)) : (TRef.unary main_call5.c_0 main_call5.v11 (broadcastInDim S4194304 ![] bcast_S_S4194304) : HloOp τ sig (Elt F)).result W (Proc.devRef .tc main_call5_v11) = ((broadcastInDim S4194304 ![] bcast_S_S4194304) : (⟨S_, .i32⟩ : BufTy).Contents (Elt F) → (⟨S4194304, .i32⟩ : BufTy).Contents (Elt F)) (W (Proc.devRef .tc main_call5_c_0)) :=
  unary_result ..

theorem eq_main_call5_v11 (V : Valuation τ sig (Elt F)) : after ops V (Proc.devRef .tc main_call5_v11) = ((broadcastInDim S4194304 ![] bcast_S_S4194304) : (⟨S_, .i32⟩ : BufTy).Contents (Elt F) → (⟨S4194304, .i32⟩ : BufTy).Contents (Elt F)) (after ops V (Proc.devRef .tc main_call5_c_0)) :=
  (fixed V (TRef.unary main_call5.c_0 main_call5.v11 (broadcastInDim S4194304 ![] bcast_S_S4194304) : HloOp τ sig (Elt F)) (List.mem_of_getElem? (show (ops : List (HloOp τ sig (Elt F)))[81]? = some (TRef.unary main_call5.c_0 main_call5.v11 (broadcastInDim S4194304 ![] bcast_S_S4194304) : HloOp τ sig (Elt F)) from rfl)) (Proc.devRef .tc main_call5_v11) (by simp only [unary_writes, Finset.mem_singleton])).trans (res_main_call5_v11 (after ops V))

theorem val_main_call5_v11 (V : Valuation τ sig (Elt F)) : after ops V (Proc.devRef .tc main_call5_v11) = Stage.s_main_call5_v11 := by
  rw [eq_main_call5_v11, val_main_call5_c_0]
  rfl

theorem res_main_call5_v12 (W : Valuation τ sig (Elt F)) : (TRef.binary main_call5.v1 main_call5.v11 main_call5.v12 subi : HloOp τ sig (Elt F)).result W (Proc.devRef .tc main_call5_v12) = (subi : (⟨S4194304, .i32⟩ : BufTy).Contents (Elt F) → (⟨S4194304, .i32⟩ : BufTy).Contents (Elt F) → (⟨S4194304, .i32⟩ : BufTy).Contents (Elt F)) (W (Proc.devRef .tc main_call5_v1)) (W (Proc.devRef .tc main_call5_v11)) :=
  binary_result ..

theorem eq_main_call5_v12 (V : Valuation τ sig (Elt F)) : after ops V (Proc.devRef .tc main_call5_v12) = (subi : (⟨S4194304, .i32⟩ : BufTy).Contents (Elt F) → (⟨S4194304, .i32⟩ : BufTy).Contents (Elt F) → (⟨S4194304, .i32⟩ : BufTy).Contents (Elt F)) (after ops V (Proc.devRef .tc main_call5_v1)) (after ops V (Proc.devRef .tc main_call5_v11)) :=
  (fixed V (TRef.binary main_call5.v1 main_call5.v11 main_call5.v12 subi : HloOp τ sig (Elt F)) (List.mem_of_getElem? (show (ops : List (HloOp τ sig (Elt F)))[82]? = some (TRef.binary main_call5.v1 main_call5.v11 main_call5.v12 subi : HloOp τ sig (Elt F)) from rfl)) (Proc.devRef .tc main_call5_v12) (by simp only [binary_writes, Finset.mem_singleton])).trans (res_main_call5_v12 (after ops V))

theorem val_main_call5_v12 (V : Valuation τ sig (Elt F)) : after ops V (Proc.devRef .tc main_call5_v12) = Stage.s_main_call5_v12 (V (Proc.devRef .tc main_arg0)) := by
  rw [eq_main_call5_v12, val_main_call5_v1, val_main_call5_v11]
  rfl

theorem res_main_v16 (W : Valuation τ sig (Elt F)) : (TRef.ternary main_call5.v10 main_call5.v12 main_call5.v1 main_call5.call0.v0 select : HloOp τ sig (Elt F)).result W (Proc.devRef .tc main_v16) = (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (W (Proc.devRef .tc main_call5_v10)) (W (Proc.devRef .tc main_call5_v12)) (W (Proc.devRef .tc main_call5_v1)) :=
  ternary_result ..

theorem eq_main_v16 (V : Valuation τ sig (Elt F)) : after ops V (Proc.devRef .tc main_v16) = (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (after ops V (Proc.devRef .tc main_call5_v10)) (after ops V (Proc.devRef .tc main_call5_v12)) (after ops V (Proc.devRef .tc main_call5_v1)) :=
  (fixed V (TRef.ternary main_call5.v10 main_call5.v12 main_call5.v1 main_call5.call0.v0 select : HloOp τ sig (Elt F)) (List.mem_of_getElem? (show (ops : List (HloOp τ sig (Elt F)))[83]? = some (TRef.ternary main_call5.v10 main_call5.v12 main_call5.v1 main_call5.call0.v0 select : HloOp τ sig (Elt F)) from rfl)) (Proc.devRef .tc main_v16) (by simp only [ternary_writes, Finset.mem_singleton])).trans (res_main_v16 (after ops V))

theorem val_main_v16 (V : Valuation τ sig (Elt F)) : after ops V (Proc.devRef .tc main_v16) = Stage.s_main_v16 (V (Proc.devRef .tc main_arg0)) := by
  rw [eq_main_v16, val_main_call5_v10, val_main_call5_v12, val_main_call5_v1]
  rfl

theorem res_main_c_8 (W : Valuation τ sig (Elt F)) : (nullary main_c_8 (constantI S_ 32 2048#32) : HloOp τ sig (Elt F)).result W (Proc.devRef .tc main_c_8) = (constantI S_ 32 2048#32) :=
  nullary_result ..

theorem eq_main_c_8 (V : Valuation τ sig (Elt F)) : after ops V (Proc.devRef .tc main_c_8) = (constantI S_ 32 2048#32) :=
  (fixed V (nullary main_c_8 (constantI S_ 32 2048#32) : HloOp τ sig (Elt F)) (List.mem_of_getElem? (show (ops : List (HloOp τ sig (Elt F)))[84]? = some (nullary main_c_8 (constantI S_ 32 2048#32) : HloOp τ sig (Elt F)) from rfl)) (Proc.devRef .tc main_c_8) (by simp only [nullary_writes, Finset.mem_singleton])).trans (res_main_c_8 (after ops V))

theorem val_main_c_8 (V : Valuation τ sig (Elt F)) : after ops V (Proc.devRef .tc main_c_8) = Stage.s_main_c_8 := by
  rw [eq_main_c_8]
  rfl

theorem res_main_call6_v0 (W : Valuation τ sig (Elt F)) : (TRef.unary (TRef.of main_c_8 : TRef sig ⟨S_, .i32⟩) main_call6.v0 id : HloOp τ sig (Elt F)).result W (Proc.devRef .tc main_call6_v0) = (id : (⟨S_, .i32⟩ : BufTy).Contents (Elt F) → (⟨S_, .i32⟩ : BufTy).Contents (Elt F)) (W (Proc.devRef .tc main_c_8)) :=
  unary_result ..

theorem eq_main_call6_v0 (V : Valuation τ sig (Elt F)) : after ops V (Proc.devRef .tc main_call6_v0) = (id : (⟨S_, .i32⟩ : BufTy).Contents (Elt F) → (⟨S_, .i32⟩ : BufTy).Contents (Elt F)) (after ops V (Proc.devRef .tc main_c_8)) :=
  (fixed V (TRef.unary (TRef.of main_c_8 : TRef sig ⟨S_, .i32⟩) main_call6.v0 id : HloOp τ sig (Elt F)) (List.mem_of_getElem? (show (ops : List (HloOp τ sig (Elt F)))[85]? = some (TRef.unary (TRef.of main_c_8 : TRef sig ⟨S_, .i32⟩) main_call6.v0 id : HloOp τ sig (Elt F)) from rfl)) (Proc.devRef .tc main_call6_v0) (by simp only [unary_writes, Finset.mem_singleton])).trans (res_main_call6_v0 (after ops V))

theorem val_main_call6_v0 (V : Valuation τ sig (Elt F)) : after ops V (Proc.devRef .tc main_call6_v0) = Stage.s_main_call6_v0 := by
  rw [eq_main_call6_v0, val_main_c_8]
  rfl

theorem res_main_call6_c (W : Valuation τ sig (Elt F)) : (TRef.nullary main_call6.c (constantI S_ 32 0#32) : HloOp τ sig (Elt F)).result W (Proc.devRef .tc main_call6_c) = (constantI S_ 32 0#32) :=
  nullary_result ..

theorem eq_main_call6_c (V : Valuation τ sig (Elt F)) : after ops V (Proc.devRef .tc main_call6_c) = (constantI S_ 32 0#32) :=
  (fixed V (TRef.nullary main_call6.c (constantI S_ 32 0#32) : HloOp τ sig (Elt F)) (List.mem_of_getElem? (show (ops : List (HloOp τ sig (Elt F)))[86]? = some (TRef.nullary main_call6.c (constantI S_ 32 0#32) : HloOp τ sig (Elt F)) from rfl)) (Proc.devRef .tc main_call6_c) (by simp only [nullary_writes, Finset.mem_singleton])).trans (res_main_call6_c (after ops V))

theorem val_main_call6_c (V : Valuation τ sig (Elt F)) : after ops V (Proc.devRef .tc main_call6_c) = Stage.s_main_call6_c := by
  rw [eq_main_call6_c]
  rfl

theorem res_main_call6_v1 (W : Valuation τ sig (Elt F)) : (TRef.binary main_call6.v0 main_call6.c main_call6.v1 (cmpi .eq) : HloOp τ sig (Elt F)).result W (Proc.devRef .tc main_call6_v1) = ((cmpi .eq) : (⟨S_, .i32⟩ : BufTy).Contents (Elt F) → (⟨S_, .i32⟩ : BufTy).Contents (Elt F) → (⟨S_, .i1⟩ : BufTy).Contents (Elt F)) (W (Proc.devRef .tc main_call6_v0)) (W (Proc.devRef .tc main_call6_c)) :=
  binary_result ..

theorem eq_main_call6_v1 (V : Valuation τ sig (Elt F)) : after ops V (Proc.devRef .tc main_call6_v1) = ((cmpi .eq) : (⟨S_, .i32⟩ : BufTy).Contents (Elt F) → (⟨S_, .i32⟩ : BufTy).Contents (Elt F) → (⟨S_, .i1⟩ : BufTy).Contents (Elt F)) (after ops V (Proc.devRef .tc main_call6_v0)) (after ops V (Proc.devRef .tc main_call6_c)) :=
  (fixed V (TRef.binary main_call6.v0 main_call6.c main_call6.v1 (cmpi .eq) : HloOp τ sig (Elt F)) (List.mem_of_getElem? (show (ops : List (HloOp τ sig (Elt F)))[87]? = some (TRef.binary main_call6.v0 main_call6.c main_call6.v1 (cmpi .eq) : HloOp τ sig (Elt F)) from rfl)) (Proc.devRef .tc main_call6_v1) (by simp only [binary_writes, Finset.mem_singleton])).trans (res_main_call6_v1 (after ops V))

theorem val_main_call6_v1 (V : Valuation τ sig (Elt F)) : after ops V (Proc.devRef .tc main_call6_v1) = Stage.s_main_call6_v1 := by
  rw [eq_main_call6_v1, val_main_call6_v0, val_main_call6_c]
  rfl

theorem res_main_call6_c_0 (W : Valuation τ sig (Elt F)) : (TRef.nullary main_call6.c_0 (constantI S_ 32 1#32) : HloOp τ sig (Elt F)).result W (Proc.devRef .tc main_call6_c_0) = (constantI S_ 32 1#32) :=
  nullary_result ..

theorem eq_main_call6_c_0 (V : Valuation τ sig (Elt F)) : after ops V (Proc.devRef .tc main_call6_c_0) = (constantI S_ 32 1#32) :=
  (fixed V (TRef.nullary main_call6.c_0 (constantI S_ 32 1#32) : HloOp τ sig (Elt F)) (List.mem_of_getElem? (show (ops : List (HloOp τ sig (Elt F)))[88]? = some (TRef.nullary main_call6.c_0 (constantI S_ 32 1#32) : HloOp τ sig (Elt F)) from rfl)) (Proc.devRef .tc main_call6_c_0) (by simp only [nullary_writes, Finset.mem_singleton])).trans (res_main_call6_c_0 (after ops V))

theorem val_main_call6_c_0 (V : Valuation τ sig (Elt F)) : after ops V (Proc.devRef .tc main_call6_c_0) = Stage.s_main_call6_c_0 := by
  rw [eq_main_call6_c_0]
  rfl

theorem res_main_call6_v2 (W : Valuation τ sig (Elt F)) : (TRef.ternary main_call6.v1 main_call6.c_0 main_call6.v0 main_call6.call0.v0 select : HloOp τ sig (Elt F)).result W (Proc.devRef .tc main_call6_v2) = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (W (Proc.devRef .tc main_call6_v1)) (W (Proc.devRef .tc main_call6_c_0)) (W (Proc.devRef .tc main_call6_v0)) :=
  ternary_result ..

theorem eq_main_call6_v2 (V : Valuation τ sig (Elt F)) : after ops V (Proc.devRef .tc main_call6_v2) = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (after ops V (Proc.devRef .tc main_call6_v1)) (after ops V (Proc.devRef .tc main_call6_c_0)) (after ops V (Proc.devRef .tc main_call6_v0)) :=
  (fixed V (TRef.ternary main_call6.v1 main_call6.c_0 main_call6.v0 main_call6.call0.v0 select : HloOp τ sig (Elt F)) (List.mem_of_getElem? (show (ops : List (HloOp τ sig (Elt F)))[89]? = some (TRef.ternary main_call6.v1 main_call6.c_0 main_call6.v0 main_call6.call0.v0 select : HloOp τ sig (Elt F)) from rfl)) (Proc.devRef .tc main_call6_v2) (by simp only [ternary_writes, Finset.mem_singleton])).trans (res_main_call6_v2 (after ops V))

theorem val_main_call6_v2 (V : Valuation τ sig (Elt F)) : after ops V (Proc.devRef .tc main_call6_v2) = Stage.s_main_call6_v2 := by
  rw [eq_main_call6_v2, val_main_call6_v1, val_main_call6_c_0, val_main_call6_v0]
  rfl

theorem res_main_call6_v3 (W : Valuation τ sig (Elt F)) : (TRef.unary main_call6.call0.v0 main_call6.v3 (broadcastInDim S4194304 ![] bcast_S_S4194304) : HloOp τ sig (Elt F)).result W (Proc.devRef .tc main_call6_v3) = ((broadcastInDim S4194304 ![] bcast_S_S4194304) : (⟨S_, .i32⟩ : BufTy).Contents (Elt F) → (⟨S4194304, .i32⟩ : BufTy).Contents (Elt F)) (W (Proc.devRef .tc main_call6_v2)) :=
  unary_result ..

theorem eq_main_call6_v3 (V : Valuation τ sig (Elt F)) : after ops V (Proc.devRef .tc main_call6_v3) = ((broadcastInDim S4194304 ![] bcast_S_S4194304) : (⟨S_, .i32⟩ : BufTy).Contents (Elt F) → (⟨S4194304, .i32⟩ : BufTy).Contents (Elt F)) (after ops V (Proc.devRef .tc main_call6_v2)) :=
  (fixed V (TRef.unary main_call6.call0.v0 main_call6.v3 (broadcastInDim S4194304 ![] bcast_S_S4194304) : HloOp τ sig (Elt F)) (List.mem_of_getElem? (show (ops : List (HloOp τ sig (Elt F)))[90]? = some (TRef.unary main_call6.call0.v0 main_call6.v3 (broadcastInDim S4194304 ![] bcast_S_S4194304) : HloOp τ sig (Elt F)) from rfl)) (Proc.devRef .tc main_call6_v3) (by simp only [unary_writes, Finset.mem_singleton])).trans (res_main_call6_v3 (after ops V))

theorem val_main_call6_v3 (V : Valuation τ sig (Elt F)) : after ops V (Proc.devRef .tc main_call6_v3) = Stage.s_main_call6_v3 := by
  rw [eq_main_call6_v3, val_main_call6_v2]
  rfl

theorem res_main_call6_v4 (W : Valuation τ sig (Elt F)) : (TRef.binary (TRef.of main_v16 : TRef sig ⟨S4194304, .i32⟩) main_call6.v3 main_call6.v4 Host.remsi : HloOp τ sig (Elt F)).result W (Proc.devRef .tc main_call6_v4) = (Host.remsi : (⟨S4194304, .i32⟩ : BufTy).Contents (Elt F) → (⟨S4194304, .i32⟩ : BufTy).Contents (Elt F) → (⟨S4194304, .i32⟩ : BufTy).Contents (Elt F)) (W (Proc.devRef .tc main_v16)) (W (Proc.devRef .tc main_call6_v3)) :=
  binary_result ..

theorem eq_main_call6_v4 (V : Valuation τ sig (Elt F)) : after ops V (Proc.devRef .tc main_call6_v4) = (Host.remsi : (⟨S4194304, .i32⟩ : BufTy).Contents (Elt F) → (⟨S4194304, .i32⟩ : BufTy).Contents (Elt F) → (⟨S4194304, .i32⟩ : BufTy).Contents (Elt F)) (after ops V (Proc.devRef .tc main_v16)) (after ops V (Proc.devRef .tc main_call6_v3)) :=
  (fixed V (TRef.binary (TRef.of main_v16 : TRef sig ⟨S4194304, .i32⟩) main_call6.v3 main_call6.v4 Host.remsi : HloOp τ sig (Elt F)) (List.mem_of_getElem? (show (ops : List (HloOp τ sig (Elt F)))[91]? = some (TRef.binary (TRef.of main_v16 : TRef sig ⟨S4194304, .i32⟩) main_call6.v3 main_call6.v4 Host.remsi : HloOp τ sig (Elt F)) from rfl)) (Proc.devRef .tc main_call6_v4) (by simp only [binary_writes, Finset.mem_singleton])).trans (res_main_call6_v4 (after ops V))

theorem val_main_call6_v4 (V : Valuation τ sig (Elt F)) : after ops V (Proc.devRef .tc main_call6_v4) = Stage.s_main_call6_v4 (V (Proc.devRef .tc main_arg0)) := by
  rw [eq_main_call6_v4, val_main_v16, val_main_call6_v3]
  rfl

theorem res_main_call6_c_1 (W : Valuation τ sig (Elt F)) : (TRef.nullary main_call6.c_1 (constantI S_ 32 0#32) : HloOp τ sig (Elt F)).result W (Proc.devRef .tc main_call6_c_1) = (constantI S_ 32 0#32) :=
  nullary_result ..

theorem eq_main_call6_c_1 (V : Valuation τ sig (Elt F)) : after ops V (Proc.devRef .tc main_call6_c_1) = (constantI S_ 32 0#32) :=
  (fixed V (TRef.nullary main_call6.c_1 (constantI S_ 32 0#32) : HloOp τ sig (Elt F)) (List.mem_of_getElem? (show (ops : List (HloOp τ sig (Elt F)))[92]? = some (TRef.nullary main_call6.c_1 (constantI S_ 32 0#32) : HloOp τ sig (Elt F)) from rfl)) (Proc.devRef .tc main_call6_c_1) (by simp only [nullary_writes, Finset.mem_singleton])).trans (res_main_call6_c_1 (after ops V))

theorem val_main_call6_c_1 (V : Valuation τ sig (Elt F)) : after ops V (Proc.devRef .tc main_call6_c_1) = Stage.s_main_call6_c_1 := by
  rw [eq_main_call6_c_1]
  rfl

theorem res_main_call6_v5 (W : Valuation τ sig (Elt F)) : (TRef.unary main_call6.c_1 main_call6.v5 (broadcastInDim S4194304 ![] bcast_S_S4194304) : HloOp τ sig (Elt F)).result W (Proc.devRef .tc main_call6_v5) = ((broadcastInDim S4194304 ![] bcast_S_S4194304) : (⟨S_, .i32⟩ : BufTy).Contents (Elt F) → (⟨S4194304, .i32⟩ : BufTy).Contents (Elt F)) (W (Proc.devRef .tc main_call6_c_1)) :=
  unary_result ..

theorem eq_main_call6_v5 (V : Valuation τ sig (Elt F)) : after ops V (Proc.devRef .tc main_call6_v5) = ((broadcastInDim S4194304 ![] bcast_S_S4194304) : (⟨S_, .i32⟩ : BufTy).Contents (Elt F) → (⟨S4194304, .i32⟩ : BufTy).Contents (Elt F)) (after ops V (Proc.devRef .tc main_call6_c_1)) :=
  (fixed V (TRef.unary main_call6.c_1 main_call6.v5 (broadcastInDim S4194304 ![] bcast_S_S4194304) : HloOp τ sig (Elt F)) (List.mem_of_getElem? (show (ops : List (HloOp τ sig (Elt F)))[93]? = some (TRef.unary main_call6.c_1 main_call6.v5 (broadcastInDim S4194304 ![] bcast_S_S4194304) : HloOp τ sig (Elt F)) from rfl)) (Proc.devRef .tc main_call6_v5) (by simp only [unary_writes, Finset.mem_singleton])).trans (res_main_call6_v5 (after ops V))

theorem val_main_call6_v5 (V : Valuation τ sig (Elt F)) : after ops V (Proc.devRef .tc main_call6_v5) = Stage.s_main_call6_v5 := by
  rw [eq_main_call6_v5, val_main_call6_c_1]
  rfl

theorem res_main_call6_v6 (W : Valuation τ sig (Elt F)) : (TRef.binary main_call6.v4 main_call6.v5 main_call6.v6 (cmpi .ne) : HloOp τ sig (Elt F)).result W (Proc.devRef .tc main_call6_v6) = ((cmpi .ne) : (⟨S4194304, .i32⟩ : BufTy).Contents (Elt F) → (⟨S4194304, .i32⟩ : BufTy).Contents (Elt F) → (⟨S4194304, .i1⟩ : BufTy).Contents (Elt F)) (W (Proc.devRef .tc main_call6_v4)) (W (Proc.devRef .tc main_call6_v5)) :=
  binary_result ..

theorem eq_main_call6_v6 (V : Valuation τ sig (Elt F)) : after ops V (Proc.devRef .tc main_call6_v6) = ((cmpi .ne) : (⟨S4194304, .i32⟩ : BufTy).Contents (Elt F) → (⟨S4194304, .i32⟩ : BufTy).Contents (Elt F) → (⟨S4194304, .i1⟩ : BufTy).Contents (Elt F)) (after ops V (Proc.devRef .tc main_call6_v4)) (after ops V (Proc.devRef .tc main_call6_v5)) :=
  (fixed V (TRef.binary main_call6.v4 main_call6.v5 main_call6.v6 (cmpi .ne) : HloOp τ sig (Elt F)) (List.mem_of_getElem? (show (ops : List (HloOp τ sig (Elt F)))[94]? = some (TRef.binary main_call6.v4 main_call6.v5 main_call6.v6 (cmpi .ne) : HloOp τ sig (Elt F)) from rfl)) (Proc.devRef .tc main_call6_v6) (by simp only [binary_writes, Finset.mem_singleton])).trans (res_main_call6_v6 (after ops V))

theorem val_main_call6_v6 (V : Valuation τ sig (Elt F)) : after ops V (Proc.devRef .tc main_call6_v6) = Stage.s_main_call6_v6 (V (Proc.devRef .tc main_arg0)) := by
  rw [eq_main_call6_v6, val_main_call6_v4, val_main_call6_v5]
  rfl

theorem res_main_call6_c_2 (W : Valuation τ sig (Elt F)) : (TRef.nullary main_call6.c_2 (constantI S_ 32 0#32) : HloOp τ sig (Elt F)).result W (Proc.devRef .tc main_call6_c_2) = (constantI S_ 32 0#32) :=
  nullary_result ..

theorem eq_main_call6_c_2 (V : Valuation τ sig (Elt F)) : after ops V (Proc.devRef .tc main_call6_c_2) = (constantI S_ 32 0#32) :=
  (fixed V (TRef.nullary main_call6.c_2 (constantI S_ 32 0#32) : HloOp τ sig (Elt F)) (List.mem_of_getElem? (show (ops : List (HloOp τ sig (Elt F)))[95]? = some (TRef.nullary main_call6.c_2 (constantI S_ 32 0#32) : HloOp τ sig (Elt F)) from rfl)) (Proc.devRef .tc main_call6_c_2) (by simp only [nullary_writes, Finset.mem_singleton])).trans (res_main_call6_c_2 (after ops V))

theorem val_main_call6_c_2 (V : Valuation τ sig (Elt F)) : after ops V (Proc.devRef .tc main_call6_c_2) = Stage.s_main_call6_c_2 := by
  rw [eq_main_call6_c_2]
  rfl

theorem res_main_call6_v7 (W : Valuation τ sig (Elt F)) : (TRef.unary main_call6.c_2 main_call6.v7 (broadcastInDim S4194304 ![] bcast_S_S4194304) : HloOp τ sig (Elt F)).result W (Proc.devRef .tc main_call6_v7) = ((broadcastInDim S4194304 ![] bcast_S_S4194304) : (⟨S_, .i32⟩ : BufTy).Contents (Elt F) → (⟨S4194304, .i32⟩ : BufTy).Contents (Elt F)) (W (Proc.devRef .tc main_call6_c_2)) :=
  unary_result ..

theorem eq_main_call6_v7 (V : Valuation τ sig (Elt F)) : after ops V (Proc.devRef .tc main_call6_v7) = ((broadcastInDim S4194304 ![] bcast_S_S4194304) : (⟨S_, .i32⟩ : BufTy).Contents (Elt F) → (⟨S4194304, .i32⟩ : BufTy).Contents (Elt F)) (after ops V (Proc.devRef .tc main_call6_c_2)) :=
  (fixed V (TRef.unary main_call6.c_2 main_call6.v7 (broadcastInDim S4194304 ![] bcast_S_S4194304) : HloOp τ sig (Elt F)) (List.mem_of_getElem? (show (ops : List (HloOp τ sig (Elt F)))[96]? = some (TRef.unary main_call6.c_2 main_call6.v7 (broadcastInDim S4194304 ![] bcast_S_S4194304) : HloOp τ sig (Elt F)) from rfl)) (Proc.devRef .tc main_call6_v7) (by simp only [unary_writes, Finset.mem_singleton])).trans (res_main_call6_v7 (after ops V))

theorem val_main_call6_v7 (V : Valuation τ sig (Elt F)) : after ops V (Proc.devRef .tc main_call6_v7) = Stage.s_main_call6_v7 := by
  rw [eq_main_call6_v7, val_main_call6_c_2]
  rfl

theorem res_main_call6_v8 (W : Valuation τ sig (Elt F)) : (TRef.binary main_call6.v4 main_call6.v7 main_call6.v8 (cmpi .slt) : HloOp τ sig (Elt F)).result W (Proc.devRef .tc main_call6_v8) = ((cmpi .slt) : (⟨S4194304, .i32⟩ : BufTy).Contents (Elt F) → (⟨S4194304, .i32⟩ : BufTy).Contents (Elt F) → (⟨S4194304, .i1⟩ : BufTy).Contents (Elt F)) (W (Proc.devRef .tc main_call6_v4)) (W (Proc.devRef .tc main_call6_v7)) :=
  binary_result ..

theorem eq_main_call6_v8 (V : Valuation τ sig (Elt F)) : after ops V (Proc.devRef .tc main_call6_v8) = ((cmpi .slt) : (⟨S4194304, .i32⟩ : BufTy).Contents (Elt F) → (⟨S4194304, .i32⟩ : BufTy).Contents (Elt F) → (⟨S4194304, .i1⟩ : BufTy).Contents (Elt F)) (after ops V (Proc.devRef .tc main_call6_v4)) (after ops V (Proc.devRef .tc main_call6_v7)) :=
  (fixed V (TRef.binary main_call6.v4 main_call6.v7 main_call6.v8 (cmpi .slt) : HloOp τ sig (Elt F)) (List.mem_of_getElem? (show (ops : List (HloOp τ sig (Elt F)))[97]? = some (TRef.binary main_call6.v4 main_call6.v7 main_call6.v8 (cmpi .slt) : HloOp τ sig (Elt F)) from rfl)) (Proc.devRef .tc main_call6_v8) (by simp only [binary_writes, Finset.mem_singleton])).trans (res_main_call6_v8 (after ops V))

theorem val_main_call6_v8 (V : Valuation τ sig (Elt F)) : after ops V (Proc.devRef .tc main_call6_v8) = Stage.s_main_call6_v8 (V (Proc.devRef .tc main_arg0)) := by
  rw [eq_main_call6_v8, val_main_call6_v4, val_main_call6_v7]
  rfl

theorem res_main_call6_c_3 (W : Valuation τ sig (Elt F)) : (TRef.nullary main_call6.c_3 (constantI S_ 32 0#32) : HloOp τ sig (Elt F)).result W (Proc.devRef .tc main_call6_c_3) = (constantI S_ 32 0#32) :=
  nullary_result ..

theorem eq_main_call6_c_3 (V : Valuation τ sig (Elt F)) : after ops V (Proc.devRef .tc main_call6_c_3) = (constantI S_ 32 0#32) :=
  (fixed V (TRef.nullary main_call6.c_3 (constantI S_ 32 0#32) : HloOp τ sig (Elt F)) (List.mem_of_getElem? (show (ops : List (HloOp τ sig (Elt F)))[98]? = some (TRef.nullary main_call6.c_3 (constantI S_ 32 0#32) : HloOp τ sig (Elt F)) from rfl)) (Proc.devRef .tc main_call6_c_3) (by simp only [nullary_writes, Finset.mem_singleton])).trans (res_main_call6_c_3 (after ops V))

theorem val_main_call6_c_3 (V : Valuation τ sig (Elt F)) : after ops V (Proc.devRef .tc main_call6_c_3) = Stage.s_main_call6_c_3 := by
  rw [eq_main_call6_c_3]
  rfl

theorem res_main_call6_v9 (W : Valuation τ sig (Elt F)) : (TRef.binary main_call6.call0.v0 main_call6.c_3 main_call6.v9 (cmpi .slt) : HloOp τ sig (Elt F)).result W (Proc.devRef .tc main_call6_v9) = ((cmpi .slt) : (⟨S_, .i32⟩ : BufTy).Contents (Elt F) → (⟨S_, .i32⟩ : BufTy).Contents (Elt F) → (⟨S_, .i1⟩ : BufTy).Contents (Elt F)) (W (Proc.devRef .tc main_call6_v2)) (W (Proc.devRef .tc main_call6_c_3)) :=
  binary_result ..

theorem eq_main_call6_v9 (V : Valuation τ sig (Elt F)) : after ops V (Proc.devRef .tc main_call6_v9) = ((cmpi .slt) : (⟨S_, .i32⟩ : BufTy).Contents (Elt F) → (⟨S_, .i32⟩ : BufTy).Contents (Elt F) → (⟨S_, .i1⟩ : BufTy).Contents (Elt F)) (after ops V (Proc.devRef .tc main_call6_v2)) (after ops V (Proc.devRef .tc main_call6_c_3)) :=
  (fixed V (TRef.binary main_call6.call0.v0 main_call6.c_3 main_call6.v9 (cmpi .slt) : HloOp τ sig (Elt F)) (List.mem_of_getElem? (show (ops : List (HloOp τ sig (Elt F)))[99]? = some (TRef.binary main_call6.call0.v0 main_call6.c_3 main_call6.v9 (cmpi .slt) : HloOp τ sig (Elt F)) from rfl)) (Proc.devRef .tc main_call6_v9) (by simp only [binary_writes, Finset.mem_singleton])).trans (res_main_call6_v9 (after ops V))

theorem val_main_call6_v9 (V : Valuation τ sig (Elt F)) : after ops V (Proc.devRef .tc main_call6_v9) = Stage.s_main_call6_v9 := by
  rw [eq_main_call6_v9, val_main_call6_v2, val_main_call6_c_3]
  rfl

theorem res_main_call6_v10 (W : Valuation τ sig (Elt F)) : (TRef.unary main_call6.v9 main_call6.v10 (broadcastInDim S4194304 ![] bcast_S_S4194304) : HloOp τ sig (Elt F)).result W (Proc.devRef .tc main_call6_v10) = ((broadcastInDim S4194304 ![] bcast_S_S4194304) : (⟨S_, .i1⟩ : BufTy).Contents (Elt F) → (⟨S4194304, .i1⟩ : BufTy).Contents (Elt F)) (W (Proc.devRef .tc main_call6_v9)) :=
  unary_result ..

theorem eq_main_call6_v10 (V : Valuation τ sig (Elt F)) : after ops V (Proc.devRef .tc main_call6_v10) = ((broadcastInDim S4194304 ![] bcast_S_S4194304) : (⟨S_, .i1⟩ : BufTy).Contents (Elt F) → (⟨S4194304, .i1⟩ : BufTy).Contents (Elt F)) (after ops V (Proc.devRef .tc main_call6_v9)) :=
  (fixed V (TRef.unary main_call6.v9 main_call6.v10 (broadcastInDim S4194304 ![] bcast_S_S4194304) : HloOp τ sig (Elt F)) (List.mem_of_getElem? (show (ops : List (HloOp τ sig (Elt F)))[100]? = some (TRef.unary main_call6.v9 main_call6.v10 (broadcastInDim S4194304 ![] bcast_S_S4194304) : HloOp τ sig (Elt F)) from rfl)) (Proc.devRef .tc main_call6_v10) (by simp only [unary_writes, Finset.mem_singleton])).trans (res_main_call6_v10 (after ops V))

theorem val_main_call6_v10 (V : Valuation τ sig (Elt F)) : after ops V (Proc.devRef .tc main_call6_v10) = Stage.s_main_call6_v10 := by
  rw [eq_main_call6_v10, val_main_call6_v9]
  rfl

theorem res_main_call6_v11 (W : Valuation τ sig (Elt F)) : (TRef.binary main_call6.v8 main_call6.v10 main_call6.v11 (cmpi .ne) : HloOp τ sig (Elt F)).result W (Proc.devRef .tc main_call6_v11) = ((cmpi .ne) : (⟨S4194304, .i1⟩ : BufTy).Contents (Elt F) → (⟨S4194304, .i1⟩ : BufTy).Contents (Elt F) → (⟨S4194304, .i1⟩ : BufTy).Contents (Elt F)) (W (Proc.devRef .tc main_call6_v8)) (W (Proc.devRef .tc main_call6_v10)) :=
  binary_result ..

theorem eq_main_call6_v11 (V : Valuation τ sig (Elt F)) : after ops V (Proc.devRef .tc main_call6_v11) = ((cmpi .ne) : (⟨S4194304, .i1⟩ : BufTy).Contents (Elt F) → (⟨S4194304, .i1⟩ : BufTy).Contents (Elt F) → (⟨S4194304, .i1⟩ : BufTy).Contents (Elt F)) (after ops V (Proc.devRef .tc main_call6_v8)) (after ops V (Proc.devRef .tc main_call6_v10)) :=
  (fixed V (TRef.binary main_call6.v8 main_call6.v10 main_call6.v11 (cmpi .ne) : HloOp τ sig (Elt F)) (List.mem_of_getElem? (show (ops : List (HloOp τ sig (Elt F)))[101]? = some (TRef.binary main_call6.v8 main_call6.v10 main_call6.v11 (cmpi .ne) : HloOp τ sig (Elt F)) from rfl)) (Proc.devRef .tc main_call6_v11) (by simp only [binary_writes, Finset.mem_singleton])).trans (res_main_call6_v11 (after ops V))

theorem val_main_call6_v11 (V : Valuation τ sig (Elt F)) : after ops V (Proc.devRef .tc main_call6_v11) = Stage.s_main_call6_v11 (V (Proc.devRef .tc main_arg0)) := by
  rw [eq_main_call6_v11, val_main_call6_v8, val_main_call6_v10]
  rfl

theorem res_main_call6_v12 (W : Valuation τ sig (Elt F)) : (TRef.binary main_call6.v11 main_call6.v6 main_call6.v12 andi : HloOp τ sig (Elt F)).result W (Proc.devRef .tc main_call6_v12) = (andi : (⟨S4194304, .i1⟩ : BufTy).Contents (Elt F) → (⟨S4194304, .i1⟩ : BufTy).Contents (Elt F) → (⟨S4194304, .i1⟩ : BufTy).Contents (Elt F)) (W (Proc.devRef .tc main_call6_v11)) (W (Proc.devRef .tc main_call6_v6)) :=
  binary_result ..

theorem eq_main_call6_v12 (V : Valuation τ sig (Elt F)) : after ops V (Proc.devRef .tc main_call6_v12) = (andi : (⟨S4194304, .i1⟩ : BufTy).Contents (Elt F) → (⟨S4194304, .i1⟩ : BufTy).Contents (Elt F) → (⟨S4194304, .i1⟩ : BufTy).Contents (Elt F)) (after ops V (Proc.devRef .tc main_call6_v11)) (after ops V (Proc.devRef .tc main_call6_v6)) :=
  (fixed V (TRef.binary main_call6.v11 main_call6.v6 main_call6.v12 andi : HloOp τ sig (Elt F)) (List.mem_of_getElem? (show (ops : List (HloOp τ sig (Elt F)))[102]? = some (TRef.binary main_call6.v11 main_call6.v6 main_call6.v12 andi : HloOp τ sig (Elt F)) from rfl)) (Proc.devRef .tc main_call6_v12) (by simp only [binary_writes, Finset.mem_singleton])).trans (res_main_call6_v12 (after ops V))

theorem val_main_call6_v12 (V : Valuation τ sig (Elt F)) : after ops V (Proc.devRef .tc main_call6_v12) = Stage.s_main_call6_v12 (V (Proc.devRef .tc main_arg0)) := by
  rw [eq_main_call6_v12, val_main_call6_v11, val_main_call6_v6]
  rfl

theorem res_main_call6_v13 (W : Valuation τ sig (Elt F)) : (TRef.unary main_call6.call0.v0 main_call6.v13 (broadcastInDim S4194304 ![] bcast_S_S4194304) : HloOp τ sig (Elt F)).result W (Proc.devRef .tc main_call6_v13) = ((broadcastInDim S4194304 ![] bcast_S_S4194304) : (⟨S_, .i32⟩ : BufTy).Contents (Elt F) → (⟨S4194304, .i32⟩ : BufTy).Contents (Elt F)) (W (Proc.devRef .tc main_call6_v2)) :=
  unary_result ..

theorem eq_main_call6_v13 (V : Valuation τ sig (Elt F)) : after ops V (Proc.devRef .tc main_call6_v13) = ((broadcastInDim S4194304 ![] bcast_S_S4194304) : (⟨S_, .i32⟩ : BufTy).Contents (Elt F) → (⟨S4194304, .i32⟩ : BufTy).Contents (Elt F)) (after ops V (Proc.devRef .tc main_call6_v2)) :=
  (fixed V (TRef.unary main_call6.call0.v0 main_call6.v13 (broadcastInDim S4194304 ![] bcast_S_S4194304) : HloOp τ sig (Elt F)) (List.mem_of_getElem? (show (ops : List (HloOp τ sig (Elt F)))[103]? = some (TRef.unary main_call6.call0.v0 main_call6.v13 (broadcastInDim S4194304 ![] bcast_S_S4194304) : HloOp τ sig (Elt F)) from rfl)) (Proc.devRef .tc main_call6_v13) (by simp only [unary_writes, Finset.mem_singleton])).trans (res_main_call6_v13 (after ops V))

theorem val_main_call6_v13 (V : Valuation τ sig (Elt F)) : after ops V (Proc.devRef .tc main_call6_v13) = Stage.s_main_call6_v13 := by
  rw [eq_main_call6_v13, val_main_call6_v2]
  rfl

theorem res_main_call6_v14 (W : Valuation τ sig (Elt F)) : (TRef.binary main_call6.v4 main_call6.v13 main_call6.v14 addi : HloOp τ sig (Elt F)).result W (Proc.devRef .tc main_call6_v14) = (addi : (⟨S4194304, .i32⟩ : BufTy).Contents (Elt F) → (⟨S4194304, .i32⟩ : BufTy).Contents (Elt F) → (⟨S4194304, .i32⟩ : BufTy).Contents (Elt F)) (W (Proc.devRef .tc main_call6_v4)) (W (Proc.devRef .tc main_call6_v13)) :=
  binary_result ..

theorem eq_main_call6_v14 (V : Valuation τ sig (Elt F)) : after ops V (Proc.devRef .tc main_call6_v14) = (addi : (⟨S4194304, .i32⟩ : BufTy).Contents (Elt F) → (⟨S4194304, .i32⟩ : BufTy).Contents (Elt F) → (⟨S4194304, .i32⟩ : BufTy).Contents (Elt F)) (after ops V (Proc.devRef .tc main_call6_v4)) (after ops V (Proc.devRef .tc main_call6_v13)) :=
  (fixed V (TRef.binary main_call6.v4 main_call6.v13 main_call6.v14 addi : HloOp τ sig (Elt F)) (List.mem_of_getElem? (show (ops : List (HloOp τ sig (Elt F)))[104]? = some (TRef.binary main_call6.v4 main_call6.v13 main_call6.v14 addi : HloOp τ sig (Elt F)) from rfl)) (Proc.devRef .tc main_call6_v14) (by simp only [binary_writes, Finset.mem_singleton])).trans (res_main_call6_v14 (after ops V))

theorem val_main_call6_v14 (V : Valuation τ sig (Elt F)) : after ops V (Proc.devRef .tc main_call6_v14) = Stage.s_main_call6_v14 (V (Proc.devRef .tc main_arg0)) := by
  rw [eq_main_call6_v14, val_main_call6_v4, val_main_call6_v13]
  rfl

theorem res_main_v17 (W : Valuation τ sig (Elt F)) : (TRef.ternary main_call6.v12 main_call6.v14 main_call6.v4 main_call6.v15 select : HloOp τ sig (Elt F)).result W (Proc.devRef .tc main_v17) = (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (W (Proc.devRef .tc main_call6_v12)) (W (Proc.devRef .tc main_call6_v14)) (W (Proc.devRef .tc main_call6_v4)) :=
  ternary_result ..

theorem eq_main_v17 (V : Valuation τ sig (Elt F)) : after ops V (Proc.devRef .tc main_v17) = (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (after ops V (Proc.devRef .tc main_call6_v12)) (after ops V (Proc.devRef .tc main_call6_v14)) (after ops V (Proc.devRef .tc main_call6_v4)) :=
  (fixed V (TRef.ternary main_call6.v12 main_call6.v14 main_call6.v4 main_call6.v15 select : HloOp τ sig (Elt F)) (List.mem_of_getElem? (show (ops : List (HloOp τ sig (Elt F)))[105]? = some (TRef.ternary main_call6.v12 main_call6.v14 main_call6.v4 main_call6.v15 select : HloOp τ sig (Elt F)) from rfl)) (Proc.devRef .tc main_v17) (by simp only [ternary_writes, Finset.mem_singleton])).trans (res_main_v17 (after ops V))

theorem val_main_v17 (V : Valuation τ sig (Elt F)) : after ops V (Proc.devRef .tc main_v17) = Stage.s_main_v17 (V (Proc.devRef .tc main_arg0)) := by
  rw [eq_main_v17, val_main_call6_v12, val_main_call6_v14, val_main_call6_v4]
  rfl

theorem res_main_v18 (W : Valuation τ sig (Elt F)) : (nullary main_v18 (iotaInDim S4194304 32 0) : HloOp τ sig (Elt F)).result W (Proc.devRef .tc main_v18) = (iotaInDim S4194304 32 0) :=
  nullary_result ..

theorem eq_main_v18 (V : Valuation τ sig (Elt F)) : after ops V (Proc.devRef .tc main_v18) = (iotaInDim S4194304 32 0) :=
  (fixed V (nullary main_v18 (iotaInDim S4194304 32 0) : HloOp τ sig (Elt F)) (List.mem_of_getElem? (show (ops : List (HloOp τ sig (Elt F)))[106]? = some (nullary main_v18 (iotaInDim S4194304 32 0) : HloOp τ sig (Elt F)) from rfl)) (Proc.devRef .tc main_v18) (by simp only [nullary_writes, Finset.mem_singleton])).trans (res_main_v18 (after ops V))

theorem val_main_v18 (V : Valuation τ sig (Elt F)) : after ops V (Proc.devRef .tc main_v18) = Stage.s_main_v18 := by
  rw [eq_main_v18]
  rfl

theorem res_main_v19 (W : Valuation τ sig (Elt F)) : (unary main_v1 main_v19 ((extui 32 · natLt_1_32) : (⟨S2048x2048, .i1⟩ : BufTy).Contents (Elt F) → (⟨S2048x2048, .i32⟩ : BufTy).Contents (Elt F)) : HloOp τ sig (Elt F)).result W (Proc.devRef .tc main_v19) = ((extui 32 · natLt_1_32) : (⟨S2048x2048, .i1⟩ : BufTy).Contents (Elt F) → (⟨S2048x2048, .i32⟩ : BufTy).Contents (Elt F)) (W (Proc.devRef .tc main_v1)) :=
  unary_result ..

theorem eq_main_v19 (V : Valuation τ sig (Elt F)) : after ops V (Proc.devRef .tc main_v19) = ((extui 32 · natLt_1_32) : (⟨S2048x2048, .i1⟩ : BufTy).Contents (Elt F) → (⟨S2048x2048, .i32⟩ : BufTy).Contents (Elt F)) (after ops V (Proc.devRef .tc main_v1)) :=
  (fixed V (unary main_v1 main_v19 ((extui 32 · natLt_1_32) : (⟨S2048x2048, .i1⟩ : BufTy).Contents (Elt F) → (⟨S2048x2048, .i32⟩ : BufTy).Contents (Elt F)) : HloOp τ sig (Elt F)) (List.mem_of_getElem? (show (ops : List (HloOp τ sig (Elt F)))[107]? = some (unary main_v1 main_v19 ((extui 32 · natLt_1_32) : (⟨S2048x2048, .i1⟩ : BufTy).Contents (Elt F) → (⟨S2048x2048, .i32⟩ : BufTy).Contents (Elt F)) : HloOp τ sig (Elt F)) from rfl)) (Proc.devRef .tc main_v19) (by simp only [unary_writes, Finset.mem_singleton])).trans (res_main_v19 (after ops V))

theorem val_main_v19 (V : Valuation τ sig (Elt F)) : after ops V (Proc.devRef .tc main_v19) = Stage.s_main_v19 (V (Proc.devRef .tc main_arg0)) := by
  rw [eq_main_v19, val_main_v1]
  rfl

theorem res_main_c_9 (W : Valuation τ sig (Elt F)) : (nullary main_c_9 (constantI S_ 32 0#32) : HloOp τ sig (Elt F)).result W (Proc.devRef .tc main_c_9) = (constantI S_ 32 0#32) :=
  nullary_result ..

theorem eq_main_c_9 (V : Valuation τ sig (Elt F)) : after ops V (Proc.devRef .tc main_c_9) = (constantI S_ 32 0#32) :=
  (fixed V (nullary main_c_9 (constantI S_ 32 0#32) : HloOp τ sig (Elt F)) (List.mem_of_getElem? (show (ops : List (HloOp τ sig (Elt F)))[108]? = some (nullary main_c_9 (constantI S_ 32 0#32) : HloOp τ sig (Elt F)) from rfl)) (Proc.devRef .tc main_c_9) (by simp only [nullary_writes, Finset.mem_singleton])).trans (res_main_c_9 (after ops V))

theorem val_main_c_9 (V : Valuation τ sig (Elt F)) : after ops V (Proc.devRef .tc main_c_9) = Stage.s_main_c_9 := by
  rw [eq_main_c_9]
  rfl

theorem res_main_v20 (W : Valuation τ sig (Elt F)) : (binary main_v19 main_c_9 main_v20 ((fun x v => Host.reduce IntOp.addi x v reducesTo_S2048x2048_S_d0_1 h_S_) : (⟨S2048x2048, .i32⟩ : BufTy).Contents (Elt F) → (⟨S_, .i32⟩ : BufTy).Contents (Elt F) → (⟨S_, .i32⟩ : BufTy).Contents (Elt F)) : HloOp τ sig (Elt F)).result W (Proc.devRef .tc main_v20) = ((fun x v => Host.reduce IntOp.addi x v reducesTo_S2048x2048_S_d0_1 h_S_) : (⟨S2048x2048, .i32⟩ : BufTy).Contents (Elt F) → (⟨S_, .i32⟩ : BufTy).Contents (Elt F) → (⟨S_, .i32⟩ : BufTy).Contents (Elt F)) (W (Proc.devRef .tc main_v19)) (W (Proc.devRef .tc main_c_9)) :=
  binary_result ..

theorem eq_main_v20 (V : Valuation τ sig (Elt F)) : after ops V (Proc.devRef .tc main_v20) = ((fun x v => Host.reduce IntOp.addi x v reducesTo_S2048x2048_S_d0_1 h_S_) : (⟨S2048x2048, .i32⟩ : BufTy).Contents (Elt F) → (⟨S_, .i32⟩ : BufTy).Contents (Elt F) → (⟨S_, .i32⟩ : BufTy).Contents (Elt F)) (after ops V (Proc.devRef .tc main_v19)) (after ops V (Proc.devRef .tc main_c_9)) :=
  (fixed V (binary main_v19 main_c_9 main_v20 ((fun x v => Host.reduce IntOp.addi x v reducesTo_S2048x2048_S_d0_1 h_S_) : (⟨S2048x2048, .i32⟩ : BufTy).Contents (Elt F) → (⟨S_, .i32⟩ : BufTy).Contents (Elt F) → (⟨S_, .i32⟩ : BufTy).Contents (Elt F)) : HloOp τ sig (Elt F)) (List.mem_of_getElem? (show (ops : List (HloOp τ sig (Elt F)))[109]? = some (binary main_v19 main_c_9 main_v20 ((fun x v => Host.reduce IntOp.addi x v reducesTo_S2048x2048_S_d0_1 h_S_) : (⟨S2048x2048, .i32⟩ : BufTy).Contents (Elt F) → (⟨S_, .i32⟩ : BufTy).Contents (Elt F) → (⟨S_, .i32⟩ : BufTy).Contents (Elt F)) : HloOp τ sig (Elt F)) from rfl)) (Proc.devRef .tc main_v20) (by simp only [binary_writes, Finset.mem_singleton])).trans (res_main_v20 (after ops V))

theorem val_main_v20 (V : Valuation τ sig (Elt F)) : after ops V (Proc.devRef .tc main_v20) = Stage.s_main_v20 (V (Proc.devRef .tc main_arg0)) := by
  rw [eq_main_v20, val_main_v19, val_main_c_9]
  rfl

theorem res_main_v21 (W : Valuation τ sig (Elt F)) : (unary main_v20 main_v21 (broadcastInDim S4194304 ![] bcast_S_S4194304 : (⟨S_, .i32⟩ : BufTy).Contents (Elt F) → (⟨S4194304, .i32⟩ : BufTy).Contents (Elt F)) : HloOp τ sig (Elt F)).result W (Proc.devRef .tc main_v21) = (broadcastInDim S4194304 ![] bcast_S_S4194304 : (⟨S_, .i32⟩ : BufTy).Contents (Elt F) → (⟨S4194304, .i32⟩ : BufTy).Contents (Elt F)) (W (Proc.devRef .tc main_v20)) :=
  unary_result ..

theorem eq_main_v21 (V : Valuation τ sig (Elt F)) : after ops V (Proc.devRef .tc main_v21) = (broadcastInDim S4194304 ![] bcast_S_S4194304 : (⟨S_, .i32⟩ : BufTy).Contents (Elt F) → (⟨S4194304, .i32⟩ : BufTy).Contents (Elt F)) (after ops V (Proc.devRef .tc main_v20)) :=
  (fixed V (unary main_v20 main_v21 (broadcastInDim S4194304 ![] bcast_S_S4194304 : (⟨S_, .i32⟩ : BufTy).Contents (Elt F) → (⟨S4194304, .i32⟩ : BufTy).Contents (Elt F)) : HloOp τ sig (Elt F)) (List.mem_of_getElem? (show (ops : List (HloOp τ sig (Elt F)))[110]? = some (unary main_v20 main_v21 (broadcastInDim S4194304 ![] bcast_S_S4194304 : (⟨S_, .i32⟩ : BufTy).Contents (Elt F) → (⟨S4194304, .i32⟩ : BufTy).Contents (Elt F)) : HloOp τ sig (Elt F)) from rfl)) (Proc.devRef .tc main_v21) (by simp only [unary_writes, Finset.mem_singleton])).trans (res_main_v21 (after ops V))

theorem val_main_v21 (V : Valuation τ sig (Elt F)) : after ops V (Proc.devRef .tc main_v21) = Stage.s_main_v21 (V (Proc.devRef .tc main_arg0)) := by
  rw [eq_main_v21, val_main_v20]
  rfl

theorem res_main_v22 (W : Valuation τ sig (Elt F)) : (binary main_v18 main_v21 main_v22 (cmpi .sge : (⟨S4194304, .i32⟩ : BufTy).Contents (Elt F) → (⟨S4194304, .i32⟩ : BufTy).Contents (Elt F) → (⟨S4194304, .i1⟩ : BufTy).Contents (Elt F)) : HloOp τ sig (Elt F)).result W (Proc.devRef .tc main_v22) = (cmpi .sge : (⟨S4194304, .i32⟩ : BufTy).Contents (Elt F) → (⟨S4194304, .i32⟩ : BufTy).Contents (Elt F) → (⟨S4194304, .i1⟩ : BufTy).Contents (Elt F)) (W (Proc.devRef .tc main_v18)) (W (Proc.devRef .tc main_v21)) :=
  binary_result ..

theorem eq_main_v22 (V : Valuation τ sig (Elt F)) : after ops V (Proc.devRef .tc main_v22) = (cmpi .sge : (⟨S4194304, .i32⟩ : BufTy).Contents (Elt F) → (⟨S4194304, .i32⟩ : BufTy).Contents (Elt F) → (⟨S4194304, .i1⟩ : BufTy).Contents (Elt F)) (after ops V (Proc.devRef .tc main_v18)) (after ops V (Proc.devRef .tc main_v21)) :=
  (fixed V (binary main_v18 main_v21 main_v22 (cmpi .sge : (⟨S4194304, .i32⟩ : BufTy).Contents (Elt F) → (⟨S4194304, .i32⟩ : BufTy).Contents (Elt F) → (⟨S4194304, .i1⟩ : BufTy).Contents (Elt F)) : HloOp τ sig (Elt F)) (List.mem_of_getElem? (show (ops : List (HloOp τ sig (Elt F)))[111]? = some (binary main_v18 main_v21 main_v22 (cmpi .sge : (⟨S4194304, .i32⟩ : BufTy).Contents (Elt F) → (⟨S4194304, .i32⟩ : BufTy).Contents (Elt F) → (⟨S4194304, .i1⟩ : BufTy).Contents (Elt F)) : HloOp τ sig (Elt F)) from rfl)) (Proc.devRef .tc main_v22) (by simp only [binary_writes, Finset.mem_singleton])).trans (res_main_v22 (after ops V))

theorem val_main_v22 (V : Valuation τ sig (Elt F)) : after ops V (Proc.devRef .tc main_v22) = Stage.s_main_v22 (V (Proc.devRef .tc main_arg0)) := by
  rw [eq_main_v22, val_main_v18, val_main_v21]
  rfl

theorem res_main_c_10 (W : Valuation τ sig (Elt F)) : (nullary main_c_10 (constantI S_ 32 2048#32) : HloOp τ sig (Elt F)).result W (Proc.devRef .tc main_c_10) = (constantI S_ 32 2048#32) :=
  nullary_result ..

theorem eq_main_c_10 (V : Valuation τ sig (Elt F)) : after ops V (Proc.devRef .tc main_c_10) = (constantI S_ 32 2048#32) :=
  (fixed V (nullary main_c_10 (constantI S_ 32 2048#32) : HloOp τ sig (Elt F)) (List.mem_of_getElem? (show (ops : List (HloOp τ sig (Elt F)))[112]? = some (nullary main_c_10 (constantI S_ 32 2048#32) : HloOp τ sig (Elt F)) from rfl)) (Proc.devRef .tc main_c_10) (by simp only [nullary_writes, Finset.mem_singleton])).trans (res_main_c_10 (after ops V))

theorem val_main_c_10 (V : Valuation τ sig (Elt F)) : after ops V (Proc.devRef .tc main_c_10) = Stage.s_main_c_10 := by
  rw [eq_main_c_10]
  rfl

theorem res_main_call7_v0 (W : Valuation τ sig (Elt F)) : (TRef.unary (TRef.of main_c_10 : TRef sig ⟨S_, .i32⟩) main_call7.v0 id : HloOp τ sig (Elt F)).result W (Proc.devRef .tc main_call7_v0) = (id : (⟨S_, .i32⟩ : BufTy).Contents (Elt F) → (⟨S_, .i32⟩ : BufTy).Contents (Elt F)) (W (Proc.devRef .tc main_c_10)) :=
  unary_result ..

theorem eq_main_call7_v0 (V : Valuation τ sig (Elt F)) : after ops V (Proc.devRef .tc main_call7_v0) = (id : (⟨S_, .i32⟩ : BufTy).Contents (Elt F) → (⟨S_, .i32⟩ : BufTy).Contents (Elt F)) (after ops V (Proc.devRef .tc main_c_10)) :=
  (fixed V (TRef.unary (TRef.of main_c_10 : TRef sig ⟨S_, .i32⟩) main_call7.v0 id : HloOp τ sig (Elt F)) (List.mem_of_getElem? (show (ops : List (HloOp τ sig (Elt F)))[113]? = some (TRef.unary (TRef.of main_c_10 : TRef sig ⟨S_, .i32⟩) main_call7.v0 id : HloOp τ sig (Elt F)) from rfl)) (Proc.devRef .tc main_call7_v0) (by simp only [unary_writes, Finset.mem_singleton])).trans (res_main_call7_v0 (after ops V))

theorem val_main_call7_v0 (V : Valuation τ sig (Elt F)) : after ops V (Proc.devRef .tc main_call7_v0) = Stage.s_main_call7_v0 := by
  rw [eq_main_call7_v0, val_main_c_10]
  rfl

theorem res_main_call7_v1 (W : Valuation τ sig (Elt F)) : (TRef.unary main_call7.v0 main_call7.v1 (broadcastInDim S4194304 ![] bcast_S_S4194304) : HloOp τ sig (Elt F)).result W (Proc.devRef .tc main_call7_v1) = ((broadcastInDim S4194304 ![] bcast_S_S4194304) : (⟨S_, .i32⟩ : BufTy).Contents (Elt F) → (⟨S4194304, .i32⟩ : BufTy).Contents (Elt F)) (W (Proc.devRef .tc main_call7_v0)) :=
  unary_result ..

theorem eq_main_call7_v1 (V : Valuation τ sig (Elt F)) : after ops V (Proc.devRef .tc main_call7_v1) = ((broadcastInDim S4194304 ![] bcast_S_S4194304) : (⟨S_, .i32⟩ : BufTy).Contents (Elt F) → (⟨S4194304, .i32⟩ : BufTy).Contents (Elt F)) (after ops V (Proc.devRef .tc main_call7_v0)) :=
  (fixed V (TRef.unary main_call7.v0 main_call7.v1 (broadcastInDim S4194304 ![] bcast_S_S4194304) : HloOp τ sig (Elt F)) (List.mem_of_getElem? (show (ops : List (HloOp τ sig (Elt F)))[114]? = some (TRef.unary main_call7.v0 main_call7.v1 (broadcastInDim S4194304 ![] bcast_S_S4194304) : HloOp τ sig (Elt F)) from rfl)) (Proc.devRef .tc main_call7_v1) (by simp only [unary_writes, Finset.mem_singleton])).trans (res_main_call7_v1 (after ops V))

theorem val_main_call7_v1 (V : Valuation τ sig (Elt F)) : after ops V (Proc.devRef .tc main_call7_v1) = Stage.s_main_call7_v1 := by
  rw [eq_main_call7_v1, val_main_call7_v0]
  rfl

theorem res_main_v23 (W : Valuation τ sig (Elt F)) : (TRef.ternary (TRef.of main_v22 : TRef sig ⟨S4194304, .i1⟩) main_call7.v1 (TRef.of main_v15 : TRef sig ⟨S4194304, .i32⟩) main_call7.v2 select : HloOp τ sig (Elt F)).result W (Proc.devRef .tc main_v23) = (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (W (Proc.devRef .tc main_v22)) (W (Proc.devRef .tc main_call7_v1)) (W (Proc.devRef .tc main_v15)) :=
  ternary_result ..

theorem eq_main_v23 (V : Valuation τ sig (Elt F)) : after ops V (Proc.devRef .tc main_v23) = (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (after ops V (Proc.devRef .tc main_v22)) (after ops V (Proc.devRef .tc main_call7_v1)) (after ops V (Proc.devRef .tc main_v15)) :=
  (fixed V (TRef.ternary (TRef.of main_v22 : TRef sig ⟨S4194304, .i1⟩) main_call7.v1 (TRef.of main_v15 : TRef sig ⟨S4194304, .i32⟩) main_call7.v2 select : HloOp τ sig (Elt F)) (List.mem_of_getElem? (show (ops : List (HloOp τ sig (Elt F)))[115]? = some (TRef.ternary (TRef.of main_v22 : TRef sig ⟨S4194304, .i1⟩) main_call7.v1 (TRef.of main_v15 : TRef sig ⟨S4194304, .i32⟩) main_call7.v2 select : HloOp τ sig (Elt F)) from rfl)) (Proc.devRef .tc main_v23) (by simp only [ternary_writes, Finset.mem_singleton])).trans (res_main_v23 (after ops V))

theorem val_main_v23 (V : Valuation τ sig (Elt F)) : after ops V (Proc.devRef .tc main_v23) = Stage.s_main_v23 (V (Proc.devRef .tc main_arg0)) := by
  rw [eq_main_v23, val_main_v22, val_main_call7_v1, val_main_v15]
  rfl

theorem res_main_c_11 (W : Valuation τ sig (Elt F)) : (nullary main_c_11 (constantI S_ 32 2048#32) : HloOp τ sig (Elt F)).result W (Proc.devRef .tc main_c_11) = (constantI S_ 32 2048#32) :=
  nullary_result ..

theorem eq_main_c_11 (V : Valuation τ sig (Elt F)) : after ops V (Proc.devRef .tc main_c_11) = (constantI S_ 32 2048#32) :=
  (fixed V (nullary main_c_11 (constantI S_ 32 2048#32) : HloOp τ sig (Elt F)) (List.mem_of_getElem? (show (ops : List (HloOp τ sig (Elt F)))[116]? = some (nullary main_c_11 (constantI S_ 32 2048#32) : HloOp τ sig (Elt F)) from rfl)) (Proc.devRef .tc main_c_11) (by simp only [nullary_writes, Finset.mem_singleton])).trans (res_main_c_11 (after ops V))

theorem val_main_c_11 (V : Valuation τ sig (Elt F)) : after ops V (Proc.devRef .tc main_c_11) = Stage.s_main_c_11 := by
  rw [eq_main_c_11]
  rfl

theorem res_main_call8_v0 (W : Valuation τ sig (Elt F)) : (TRef.unary (TRef.of main_c_11 : TRef sig ⟨S_, .i32⟩) main_call8.v0 id : HloOp τ sig (Elt F)).result W (Proc.devRef .tc main_call8_v0) = (id : (⟨S_, .i32⟩ : BufTy).Contents (Elt F) → (⟨S_, .i32⟩ : BufTy).Contents (Elt F)) (W (Proc.devRef .tc main_c_11)) :=
  unary_result ..

theorem eq_main_call8_v0 (V : Valuation τ sig (Elt F)) : after ops V (Proc.devRef .tc main_call8_v0) = (id : (⟨S_, .i32⟩ : BufTy).Contents (Elt F) → (⟨S_, .i32⟩ : BufTy).Contents (Elt F)) (after ops V (Proc.devRef .tc main_c_11)) :=
  (fixed V (TRef.unary (TRef.of main_c_11 : TRef sig ⟨S_, .i32⟩) main_call8.v0 id : HloOp τ sig (Elt F)) (List.mem_of_getElem? (show (ops : List (HloOp τ sig (Elt F)))[117]? = some (TRef.unary (TRef.of main_c_11 : TRef sig ⟨S_, .i32⟩) main_call8.v0 id : HloOp τ sig (Elt F)) from rfl)) (Proc.devRef .tc main_call8_v0) (by simp only [unary_writes, Finset.mem_singleton])).trans (res_main_call8_v0 (after ops V))

theorem val_main_call8_v0 (V : Valuation τ sig (Elt F)) : after ops V (Proc.devRef .tc main_call8_v0) = Stage.s_main_call8_v0 := by
  rw [eq_main_call8_v0, val_main_c_11]
  rfl

theorem res_main_call8_v1 (W : Valuation τ sig (Elt F)) : (TRef.unary main_call8.v0 main_call8.v1 (broadcastInDim S4194304 ![] bcast_S_S4194304) : HloOp τ sig (Elt F)).result W (Proc.devRef .tc main_call8_v1) = ((broadcastInDim S4194304 ![] bcast_S_S4194304) : (⟨S_, .i32⟩ : BufTy).Contents (Elt F) → (⟨S4194304, .i32⟩ : BufTy).Contents (Elt F)) (W (Proc.devRef .tc main_call8_v0)) :=
  unary_result ..

theorem eq_main_call8_v1 (V : Valuation τ sig (Elt F)) : after ops V (Proc.devRef .tc main_call8_v1) = ((broadcastInDim S4194304 ![] bcast_S_S4194304) : (⟨S_, .i32⟩ : BufTy).Contents (Elt F) → (⟨S4194304, .i32⟩ : BufTy).Contents (Elt F)) (after ops V (Proc.devRef .tc main_call8_v0)) :=
  (fixed V (TRef.unary main_call8.v0 main_call8.v1 (broadcastInDim S4194304 ![] bcast_S_S4194304) : HloOp τ sig (Elt F)) (List.mem_of_getElem? (show (ops : List (HloOp τ sig (Elt F)))[118]? = some (TRef.unary main_call8.v0 main_call8.v1 (broadcastInDim S4194304 ![] bcast_S_S4194304) : HloOp τ sig (Elt F)) from rfl)) (Proc.devRef .tc main_call8_v1) (by simp only [unary_writes, Finset.mem_singleton])).trans (res_main_call8_v1 (after ops V))

theorem val_main_call8_v1 (V : Valuation τ sig (Elt F)) : after ops V (Proc.devRef .tc main_call8_v1) = Stage.s_main_call8_v1 := by
  rw [eq_main_call8_v1, val_main_call8_v0]
  rfl

theorem res_main_v24 (W : Valuation τ sig (Elt F)) : (TRef.ternary (TRef.of main_v22 : TRef sig ⟨S4194304, .i1⟩) main_call8.v1 (TRef.of main_v17 : TRef sig ⟨S4194304, .i32⟩) main_call8.v2 select : HloOp τ sig (Elt F)).result W (Proc.devRef .tc main_v24) = (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (W (Proc.devRef .tc main_v22)) (W (Proc.devRef .tc main_call8_v1)) (W (Proc.devRef .tc main_v17)) :=
  ternary_result ..

theorem eq_main_v24 (V : Valuation τ sig (Elt F)) : after ops V (Proc.devRef .tc main_v24) = (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (after ops V (Proc.devRef .tc main_v22)) (after ops V (Proc.devRef .tc main_call8_v1)) (after ops V (Proc.devRef .tc main_v17)) :=
  (fixed V (TRef.ternary (TRef.of main_v22 : TRef sig ⟨S4194304, .i1⟩) main_call8.v1 (TRef.of main_v17 : TRef sig ⟨S4194304, .i32⟩) main_call8.v2 select : HloOp τ sig (Elt F)) (List.mem_of_getElem? (show (ops : List (HloOp τ sig (Elt F)))[119]? = some (TRef.ternary (TRef.of main_v22 : TRef sig ⟨S4194304, .i1⟩) main_call8.v1 (TRef.of main_v17 : TRef sig ⟨S4194304, .i32⟩) main_call8.v2 select : HloOp τ sig (Elt F)) from rfl)) (Proc.devRef .tc main_v24) (by simp only [ternary_writes, Finset.mem_singleton])).trans (res_main_v24 (after ops V))

theorem val_main_v24 (V : Valuation τ sig (Elt F)) : after ops V (Proc.devRef .tc main_v24) = Stage.s_main_v24 (V (Proc.devRef .tc main_arg0)) := by
  rw [eq_main_v24, val_main_v22, val_main_call8_v1, val_main_v17]
  rfl

theorem res_main_cst (W : Valuation τ sig (Elt F)) : (nullary main_cst (constant S_ .f32 0x3F800000#32) : HloOp τ sig (Elt F)).result W (Proc.devRef .tc main_cst) = (constant (F := F) S_ .f32 0x3F800000#32) :=
  nullary_result ..

theorem eq_main_cst (V : Valuation τ sig (Elt F)) : after ops V (Proc.devRef .tc main_cst) = (constant (F := F) S_ .f32 0x3F800000#32) :=
  (fixed V (nullary main_cst (constant S_ .f32 0x3F800000#32) : HloOp τ sig (Elt F)) (List.mem_of_getElem? (show (ops : List (HloOp τ sig (Elt F)))[120]? = some (nullary main_cst (constant S_ .f32 0x3F800000#32) : HloOp τ sig (Elt F)) from rfl)) (Proc.devRef .tc main_cst) (by simp only [nullary_writes, Finset.mem_singleton])).trans (res_main_cst (after ops V))

theorem val_main_cst (V : Valuation τ sig (Elt F)) : after ops V (Proc.devRef .tc main_cst) = Stage.s_main_cst (F := F) := by
  rw [eq_main_cst]
  rfl

theorem res_main_v25 (W : Valuation τ sig (Elt F)) : (unary main_cst main_v25 (broadcastInDim S2048x1 ![] bcast_S_S2048x1 : (⟨S_, .f32⟩ : BufTy).Contents (Elt F) → (⟨S2048x1, .f32⟩ : BufTy).Contents (Elt F)) : HloOp τ sig (Elt F)).result W (Proc.devRef .tc main_v25) = (broadcastInDim S2048x1 ![] bcast_S_S2048x1 : (⟨S_, .f32⟩ : BufTy).Contents (Elt F) → (⟨S2048x1, .f32⟩ : BufTy).Contents (Elt F)) (W (Proc.devRef .tc main_cst)) :=
  unary_result ..

theorem eq_main_v25 (V : Valuation τ sig (Elt F)) : after ops V (Proc.devRef .tc main_v25) = (broadcastInDim S2048x1 ![] bcast_S_S2048x1 : (⟨S_, .f32⟩ : BufTy).Contents (Elt F) → (⟨S2048x1, .f32⟩ : BufTy).Contents (Elt F)) (after ops V (Proc.devRef .tc main_cst)) :=
  (fixed V (unary main_cst main_v25 (broadcastInDim S2048x1 ![] bcast_S_S2048x1 : (⟨S_, .f32⟩ : BufTy).Contents (Elt F) → (⟨S2048x1, .f32⟩ : BufTy).Contents (Elt F)) : HloOp τ sig (Elt F)) (List.mem_of_getElem? (show (ops : List (HloOp τ sig (Elt F)))[121]? = some (unary main_cst main_v25 (broadcastInDim S2048x1 ![] bcast_S_S2048x1 : (⟨S_, .f32⟩ : BufTy).Contents (Elt F) → (⟨S2048x1, .f32⟩ : BufTy).Contents (Elt F)) : HloOp τ sig (Elt F)) from rfl)) (Proc.devRef .tc main_v25) (by simp only [unary_writes, Finset.mem_singleton])).trans (res_main_v25 (after ops V))

theorem val_main_v25 (V : Valuation τ sig (Elt F)) : after ops V (Proc.devRef .tc main_v25) = Stage.s_main_v25 (F := F) := by
  rw [eq_main_v25, val_main_cst]
  rfl

theorem res_main_v26 (W : Valuation τ sig (Elt F)) : (binary main_v25 main_arg1 main_v26 ((fun l r => Host.dotGeneral dot_S2048x1_S1x32_S2048x32_1_0_0_1_n_n none l r) : (⟨S2048x1, .f32⟩ : BufTy).Contents (Elt F) → (⟨S1x32, .f32⟩ : BufTy).Contents (Elt F) → (⟨S2048x32, .f32⟩ : BufTy).Contents (Elt F)) : HloOp τ sig (Elt F)).result W (Proc.devRef .tc main_v26) = ((fun l r => Host.dotGeneral dot_S2048x1_S1x32_S2048x32_1_0_0_1_n_n none l r) : (⟨S2048x1, .f32⟩ : BufTy).Contents (Elt F) → (⟨S1x32, .f32⟩ : BufTy).Contents (Elt F) → (⟨S2048x32, .f32⟩ : BufTy).Contents (Elt F)) (W (Proc.devRef .tc main_v25)) (W (Proc.devRef .tc main_arg1)) :=
  binary_result ..

theorem eq_main_v26 (V : Valuation τ sig (Elt F)) : after ops V (Proc.devRef .tc main_v26) = ((fun l r => Host.dotGeneral dot_S2048x1_S1x32_S2048x32_1_0_0_1_n_n none l r) : (⟨S2048x1, .f32⟩ : BufTy).Contents (Elt F) → (⟨S1x32, .f32⟩ : BufTy).Contents (Elt F) → (⟨S2048x32, .f32⟩ : BufTy).Contents (Elt F)) (after ops V (Proc.devRef .tc main_v25)) (after ops V (Proc.devRef .tc main_arg1)) :=
  (fixed V (binary main_v25 main_arg1 main_v26 ((fun l r => Host.dotGeneral dot_S2048x1_S1x32_S2048x32_1_0_0_1_n_n none l r) : (⟨S2048x1, .f32⟩ : BufTy).Contents (Elt F) → (⟨S1x32, .f32⟩ : BufTy).Contents (Elt F) → (⟨S2048x32, .f32⟩ : BufTy).Contents (Elt F)) : HloOp τ sig (Elt F)) (List.mem_of_getElem? (show (ops : List (HloOp τ sig (Elt F)))[122]? = some (binary main_v25 main_arg1 main_v26 ((fun l r => Host.dotGeneral dot_S2048x1_S1x32_S2048x32_1_0_0_1_n_n none l r) : (⟨S2048x1, .f32⟩ : BufTy).Contents (Elt F) → (⟨S1x32, .f32⟩ : BufTy).Contents (Elt F) → (⟨S2048x32, .f32⟩ : BufTy).Contents (Elt F)) : HloOp τ sig (Elt F)) from rfl)) (Proc.devRef .tc main_v26) (by simp only [binary_writes, Finset.mem_singleton])).trans (res_main_v26 (after ops V))

theorem val_main_v26 (V : Valuation τ sig (Elt F)) : after ops V (Proc.devRef .tc main_v26) = Stage.s_main_v26 (V (Proc.devRef .tc main_arg1)) := by
  rw [eq_main_v26, val_main_v25, arg1_kept]
  rfl

theorem res_main_v27 (W : Valuation τ sig (Elt F)) : (nullary main_v27 (iotaInDim S2048 32 0) : HloOp τ sig (Elt F)).result W (Proc.devRef .tc main_v27) = (iotaInDim S2048 32 0) :=
  nullary_result ..

theorem eq_main_v27 (V : Valuation τ sig (Elt F)) : after ops V (Proc.devRef .tc main_v27) = (iotaInDim S2048 32 0) :=
  (fixed V (nullary main_v27 (iotaInDim S2048 32 0) : HloOp τ sig (Elt F)) (List.mem_of_getElem? (show (ops : List (HloOp τ sig (Elt F)))[123]? = some (nullary main_v27 (iotaInDim S2048 32 0) : HloOp τ sig (Elt F)) from rfl)) (Proc.devRef .tc main_v27) (by simp only [nullary_writes, Finset.mem_singleton])).trans (res_main_v27 (after ops V))

theorem val_main_v27 (V : Valuation τ sig (Elt F)) : after ops V (Proc.devRef .tc main_v27) = Stage.s_main_v27 := by
  rw [eq_main_v27]
  rfl

theorem res_main_v28 (W : Valuation τ sig (Elt F)) : (binary main_v23 main_v27 main_v28 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) : HloOp τ sig (Elt F)).result W (Proc.devRef .tc main_v28) = ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) (W (Proc.devRef .tc main_v23)) (W (Proc.devRef .tc main_v27)) :=
  binary_result ..

theorem eq_main_v28 (V : Valuation τ sig (Elt F)) : after ops V (Proc.devRef .tc main_v28) = ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) (after ops V (Proc.devRef .tc main_v23)) (after ops V (Proc.devRef .tc main_v27)) :=
  (fixed V (binary main_v23 main_v27 main_v28 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) : HloOp τ sig (Elt F)) (List.mem_of_getElem? (show (ops : List (HloOp τ sig (Elt F)))[124]? = some (binary main_v23 main_v27 main_v28 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) : HloOp τ sig (Elt F)) from rfl)) (Proc.devRef .tc main_v28) (by simp only [binary_writes, Finset.mem_singleton])).trans (res_main_v28 (after ops V))

theorem val_main_v28 (V : Valuation τ sig (Elt F)) : after ops V (Proc.devRef .tc main_v28) = Stage.s_main_v28 (V (Proc.devRef .tc main_arg0)) := by
  rw [eq_main_v28, val_main_v23, val_main_v27]
  rfl

theorem res_main_v29 (W : Valuation τ sig (Elt F)) : (binary main_v24 main_v27 main_v29 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) : HloOp τ sig (Elt F)).result W (Proc.devRef .tc main_v29) = ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) (W (Proc.devRef .tc main_v24)) (W (Proc.devRef .tc main_v27)) :=
  binary_result ..

theorem eq_main_v29 (V : Valuation τ sig (Elt F)) : after ops V (Proc.devRef .tc main_v29) = ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) (after ops V (Proc.devRef .tc main_v24)) (after ops V (Proc.devRef .tc main_v27)) :=
  (fixed V (binary main_v24 main_v27 main_v29 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) : HloOp τ sig (Elt F)) (List.mem_of_getElem? (show (ops : List (HloOp τ sig (Elt F)))[125]? = some (binary main_v24 main_v27 main_v29 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) : HloOp τ sig (Elt F)) from rfl)) (Proc.devRef .tc main_v29) (by simp only [binary_writes, Finset.mem_singleton])).trans (res_main_v29 (after ops V))

theorem val_main_v29 (V : Valuation τ sig (Elt F)) : after ops V (Proc.devRef .tc main_v29) = Stage.s_main_v29 (V (Proc.devRef .tc main_arg0)) := by
  rw [eq_main_v29, val_main_v24, val_main_v27]
  rfl

theorem res_main_cst_12 (W : Valuation τ sig (Elt F)) : (nullary main_cst_12 (constant S_ .f32 0x00000000#32) : HloOp τ sig (Elt F)).result W (Proc.devRef .tc main_cst_12) = (constant (F := F) S_ .f32 0x00000000#32) :=
  nullary_result ..

theorem eq_main_cst_12 (V : Valuation τ sig (Elt F)) : after ops V (Proc.devRef .tc main_cst_12) = (constant (F := F) S_ .f32 0x00000000#32) :=
  (fixed V (nullary main_cst_12 (constant S_ .f32 0x00000000#32) : HloOp τ sig (Elt F)) (List.mem_of_getElem? (show (ops : List (HloOp τ sig (Elt F)))[126]? = some (nullary main_cst_12 (constant S_ .f32 0x00000000#32) : HloOp τ sig (Elt F)) from rfl)) (Proc.devRef .tc main_cst_12) (by simp only [nullary_writes, Finset.mem_singleton])).trans (res_main_cst_12 (after ops V))

theorem val_main_cst_12 (V : Valuation τ sig (Elt F)) : after ops V (Proc.devRef .tc main_cst_12) = Stage.s_main_cst_12 (F := F) := by
  rw [eq_main_cst_12]
  rfl

theorem res_main_v30 (W : Valuation τ sig (Elt F)) : (unary main_cst_12 main_v30 (broadcastInDim S2048 ![] bcast_S_S2048 : (⟨S_, .f32⟩ : BufTy).Contents (Elt F) → (⟨S2048, .f32⟩ : BufTy).Contents (Elt F)) : HloOp τ sig (Elt F)).result W (Proc.devRef .tc main_v30) = (broadcastInDim S2048 ![] bcast_S_S2048 : (⟨S_, .f32⟩ : BufTy).Contents (Elt F) → (⟨S2048, .f32⟩ : BufTy).Contents (Elt F)) (W (Proc.devRef .tc main_cst_12)) :=
  unary_result ..

theorem eq_main_v30 (V : Valuation τ sig (Elt F)) : after ops V (Proc.devRef .tc main_v30) = (broadcastInDim S2048 ![] bcast_S_S2048 : (⟨S_, .f32⟩ : BufTy).Contents (Elt F) → (⟨S2048, .f32⟩ : BufTy).Contents (Elt F)) (after ops V (Proc.devRef .tc main_cst_12)) :=
  (fixed V (unary main_cst_12 main_v30 (broadcastInDim S2048 ![] bcast_S_S2048 : (⟨S_, .f32⟩ : BufTy).Contents (Elt F) → (⟨S2048, .f32⟩ : BufTy).Contents (Elt F)) : HloOp τ sig (Elt F)) (List.mem_of_getElem? (show (ops : List (HloOp τ sig (Elt F)))[127]? = some (unary main_cst_12 main_v30 (broadcastInDim S2048 ![] bcast_S_S2048 : (⟨S_, .f32⟩ : BufTy).Contents (Elt F) → (⟨S2048, .f32⟩ : BufTy).Contents (Elt F)) : HloOp τ sig (Elt F)) from rfl)) (Proc.devRef .tc main_v30) (by simp only [unary_writes, Finset.mem_singleton])).trans (res_main_v30 (after ops V))

theorem val_main_v30 (V : Valuation τ sig (Elt F)) : after ops V (Proc.devRef .tc main_v30) = Stage.s_main_v30 (F := F) := by
  rw [eq_main_v30, val_main_cst_12]
  rfl

theorem res_main_c_13 (W : Valuation τ sig (Elt F)) : (nullary main_c_13 (constantI S_ 32 0#32) : HloOp τ sig (Elt F)).result W (Proc.devRef .tc main_c_13) = (constantI S_ 32 0#32) :=
  nullary_result ..

theorem eq_main_c_13 (V : Valuation τ sig (Elt F)) : after ops V (Proc.devRef .tc main_c_13) = (constantI S_ 32 0#32) :=
  (fixed V (nullary main_c_13 (constantI S_ 32 0#32) : HloOp τ sig (Elt F)) (List.mem_of_getElem? (show (ops : List (HloOp τ sig (Elt F)))[128]? = some (nullary main_c_13 (constantI S_ 32 0#32) : HloOp τ sig (Elt F)) from rfl)) (Proc.devRef .tc main_c_13) (by simp only [nullary_writes, Finset.mem_singleton])).trans (res_main_c_13 (after ops V))

theorem val_main_c_13 (V : Valuation τ sig (Elt F)) : after ops V (Proc.devRef .tc main_c_13) = Stage.s_main_c_13 := by
  rw [eq_main_c_13]
  rfl

theorem res_main_v31 (W : Valuation τ sig (Elt F)) : (unary main_c_13 main_v31 (broadcastInDim S4196352 ![] bcast_S_S4196352 : (⟨S_, .i32⟩ : BufTy).Contents (Elt F) → (⟨S4196352, .i32⟩ : BufTy).Contents (Elt F)) : HloOp τ sig (Elt F)).result W (Proc.devRef .tc main_v31) = (broadcastInDim S4196352 ![] bcast_S_S4196352 : (⟨S_, .i32⟩ : BufTy).Contents (Elt F) → (⟨S4196352, .i32⟩ : BufTy).Contents (Elt F)) (W (Proc.devRef .tc main_c_13)) :=
  unary_result ..

theorem eq_main_v31 (V : Valuation τ sig (Elt F)) : after ops V (Proc.devRef .tc main_v31) = (broadcastInDim S4196352 ![] bcast_S_S4196352 : (⟨S_, .i32⟩ : BufTy).Contents (Elt F) → (⟨S4196352, .i32⟩ : BufTy).Contents (Elt F)) (after ops V (Proc.devRef .tc main_c_13)) :=
  (fixed V (unary main_c_13 main_v31 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[129]? = some (unary main_c_13 main_v31 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v31) (by simp only [unary_writes, Finset.mem_singleton])).trans (res_main_v31 (after ops V))

theorem val_main_v31 (V : Valuation τ sig (Elt F)) : after ops V (Proc.devRef .tc main_v31) = Stage.s_main_v31 (F := F) := by
  rw [eq_main_v31, val_main_c_13]
  rfl

theorem res_main_v32 (W : Valuation τ sig (Elt F)) : (binary main_v29 main_v31 main_v32 (cmpi .slt : (⟨S4196352, .i32⟩ : BufTy).Contents (Elt F) → (⟨S4196352, .i32⟩ : BufTy).Contents (Elt F) → (⟨S4196352, .i1⟩ : BufTy).Contents (Elt F)) : HloOp τ sig (Elt F)).result W (Proc.devRef .tc main_v32) = (cmpi .slt : (⟨S4196352, .i32⟩ : BufTy).Contents (Elt F) → (⟨S4196352, .i32⟩ : BufTy).Contents (Elt F) → (⟨S4196352, .i1⟩ : BufTy).Contents (Elt F)) (W (Proc.devRef .tc main_v29)) (W (Proc.devRef .tc main_v31)) :=
  binary_result ..

theorem eq_main_v32 (V : Valuation τ sig (Elt F)) : after ops V (Proc.devRef .tc main_v32) = (cmpi .slt : (⟨S4196352, .i32⟩ : BufTy).Contents (Elt F) → (⟨S4196352, .i32⟩ : BufTy).Contents (Elt F) → (⟨S4196352, .i1⟩ : BufTy).Contents (Elt F)) (after ops V (Proc.devRef .tc main_v29)) (after ops V (Proc.devRef .tc main_v31)) :=
  (fixed V (binary main_v29 main_v31 main_v32 (cmpi .slt : (⟨S4196352, .i32⟩ : BufTy).Contents (Elt F) → (⟨S4196352, .i32⟩ : BufTy).Contents (Elt F) → (⟨S4196352, .i1⟩ : BufTy).Contents (Elt F)) : HloOp τ sig (Elt F)) (List.mem_of_getElem? (show (ops : List (HloOp τ sig (Elt F)))[130]? = some (binary main_v29 main_v31 main_v32 (cmpi .slt : (⟨S4196352, .i32⟩ : BufTy).Contents (Elt F) → (⟨S4196352, .i32⟩ : BufTy).Contents (Elt F) → (⟨S4196352, .i1⟩ : BufTy).Contents (Elt F)) : HloOp τ sig (Elt F)) from rfl)) (Proc.devRef .tc main_v32) (by simp only [binary_writes, Finset.mem_singleton])).trans (res_main_v32 (after ops V))

theorem val_main_v32 (V : Valuation τ sig (Elt F)) : after ops V (Proc.devRef .tc main_v32) = Stage.s_main_v32 (V (Proc.devRef .tc main_arg0)) := by
  rw [eq_main_v32, val_main_v29, val_main_v31]
  rfl

theorem res_main_c_14 (W : Valuation τ sig (Elt F)) : (nullary main_c_14 (constantI S_ 32 2048#32) : HloOp τ sig (Elt F)).result W (Proc.devRef .tc main_c_14) = (constantI S_ 32 2048#32) :=
  nullary_result ..

theorem eq_main_c_14 (V : Valuation τ sig (Elt F)) : after ops V (Proc.devRef .tc main_c_14) = (constantI S_ 32 2048#32) :=
  (fixed V (nullary main_c_14 (constantI S_ 32 2048#32) : HloOp τ sig (Elt F)) (List.mem_of_getElem? (show (ops : List (HloOp τ sig (Elt F)))[131]? = some (nullary main_c_14 (constantI S_ 32 2048#32) : HloOp τ sig (Elt F)) from rfl)) (Proc.devRef .tc main_c_14) (by simp only [nullary_writes, Finset.mem_singleton])).trans (res_main_c_14 (after ops V))

theorem val_main_c_14 (V : Valuation τ sig (Elt F)) : after ops V (Proc.devRef .tc main_c_14) = Stage.s_main_c_14 := by
  rw [eq_main_c_14]
  rfl

theorem res_main_v33 (W : Valuation τ sig (Elt F)) : (unary main_c_14 main_v33 (broadcastInDim S4196352 ![] bcast_S_S4196352 : (⟨S_, .i32⟩ : BufTy).Contents (Elt F) → (⟨S4196352, .i32⟩ : BufTy).Contents (Elt F)) : HloOp τ sig (Elt F)).result W (Proc.devRef .tc main_v33) = (broadcastInDim S4196352 ![] bcast_S_S4196352 : (⟨S_, .i32⟩ : BufTy).Contents (Elt F) → (⟨S4196352, .i32⟩ : BufTy).Contents (Elt F)) (W (Proc.devRef .tc main_c_14)) :=
  unary_result ..

theorem eq_main_v33 (V : Valuation τ sig (Elt F)) : after ops V (Proc.devRef .tc main_v33) = (broadcastInDim S4196352 ![] bcast_S_S4196352 : (⟨S_, .i32⟩ : BufTy).Contents (Elt F) → (⟨S4196352, .i32⟩ : BufTy).Contents (Elt F)) (after ops V (Proc.devRef .tc main_c_14)) :=
  (fixed V (unary main_c_14 main_v33 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[132]? = some (unary main_c_14 main_v33 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v33) (by simp only [unary_writes, Finset.mem_singleton])).trans (res_main_v33 (after ops V))

theorem val_main_v33 (V : Valuation τ sig (Elt F)) : after ops V (Proc.devRef .tc main_v33) = Stage.s_main_v33 (F := F) := by
  rw [eq_main_v33, val_main_c_14]
  rfl

theorem res_main_v34 (W : Valuation τ sig (Elt F)) : (binary main_v29 main_v33 main_v34 (addi : (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v34) = (addi : (⟨S4196352, .i32⟩ : BufTy).Contents (Elt F) → (⟨S4196352, .i32⟩ : BufTy).Contents (Elt F) → (⟨S4196352, .i32⟩ : BufTy).Contents (Elt F)) (W (Proc.devRef .tc main_v29)) (W (Proc.devRef .tc main_v33)) :=
  binary_result ..

theorem eq_main_v34 (V : Valuation τ sig (Elt F)) : after ops V (Proc.devRef .tc main_v34) = (addi : (⟨S4196352, .i32⟩ : BufTy).Contents (Elt F) → (⟨S4196352, .i32⟩ : BufTy).Contents (Elt F) → (⟨S4196352, .i32⟩ : BufTy).Contents (Elt F)) (after ops V (Proc.devRef .tc main_v29)) (after ops V (Proc.devRef .tc main_v33)) :=
  (fixed V (binary main_v29 main_v33 main_v34 (addi : (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[133]? = some (binary main_v29 main_v33 main_v34 (addi : (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v34) (by simp only [binary_writes, Finset.mem_singleton])).trans (res_main_v34 (after ops V))

theorem val_main_v34 (V : Valuation τ sig (Elt F)) : after ops V (Proc.devRef .tc main_v34) = Stage.s_main_v34 (V (Proc.devRef .tc main_arg0)) := by
  rw [eq_main_v34, val_main_v29, val_main_v33]
  rfl

theorem res_main_v35 (W : Valuation τ sig (Elt F)) : (ternary main_v32 main_v34 main_v29 main_v35 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v35) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (W (Proc.devRef .tc main_v32)) (W (Proc.devRef .tc main_v34)) (W (Proc.devRef .tc main_v29)) :=
  ternary_result ..

theorem eq_main_v35 (V : Valuation τ sig (Elt F)) : after ops V (Proc.devRef .tc main_v35) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (after ops V (Proc.devRef .tc main_v32)) (after ops V (Proc.devRef .tc main_v34)) (after ops V (Proc.devRef .tc main_v29)) :=
  (fixed V (ternary main_v32 main_v34 main_v29 main_v35 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[134]? = some (ternary main_v32 main_v34 main_v29 main_v35 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v35) (by simp only [ternary_writes, Finset.mem_singleton])).trans (res_main_v35 (after ops V))

theorem val_main_v35 (V : Valuation τ sig (Elt F)) : after ops V (Proc.devRef .tc main_v35) = Stage.s_main_v35 (V (Proc.devRef .tc main_arg0)) := by
  rw [eq_main_v35, val_main_v32, val_main_v34, val_main_v29]
  rfl

theorem res_main_v36 (W : Valuation τ sig (Elt F)) : (unary main_v35 main_v36 (broadcastInDim S4196352x1 ![0] bcast_S4196352_S4196352x1_0 : (⟨S4196352, .i32⟩ : BufTy).Contents (Elt F) → (⟨S4196352x1, .i32⟩ : BufTy).Contents (Elt F)) : HloOp τ sig (Elt F)).result W (Proc.devRef .tc main_v36) = (broadcastInDim S4196352x1 ![0] bcast_S4196352_S4196352x1_0 : (⟨S4196352, .i32⟩ : BufTy).Contents (Elt F) → (⟨S4196352x1, .i32⟩ : BufTy).Contents (Elt F)) (W (Proc.devRef .tc main_v35)) :=
  unary_result ..

theorem eq_main_v36 (V : Valuation τ sig (Elt F)) : after ops V (Proc.devRef .tc main_v36) = (broadcastInDim S4196352x1 ![0] bcast_S4196352_S4196352x1_0 : (⟨S4196352, .i32⟩ : BufTy).Contents (Elt F) → (⟨S4196352x1, .i32⟩ : BufTy).Contents (Elt F)) (after ops V (Proc.devRef .tc main_v35)) :=
  (fixed V (unary main_v35 main_v36 (broadcastInDim S4196352x1 ![0] bcast_S4196352_S4196352x1_0 : (⟨S4196352, .i32⟩ : BufTy).Contents (Elt F) → (⟨S4196352x1, .i32⟩ : BufTy).Contents (Elt F)) : HloOp τ sig (Elt F)) (List.mem_of_getElem? (show (ops : List (HloOp τ sig (Elt F)))[135]? = some (unary main_v35 main_v36 (broadcastInDim S4196352x1 ![0] bcast_S4196352_S4196352x1_0 : (⟨S4196352, .i32⟩ : BufTy).Contents (Elt F) → (⟨S4196352x1, .i32⟩ : BufTy).Contents (Elt F)) : HloOp τ sig (Elt F)) from rfl)) (Proc.devRef .tc main_v36) (by simp only [unary_writes, Finset.mem_singleton])).trans (res_main_v36 (after ops V))

theorem val_main_v36 (V : Valuation τ sig (Elt F)) : after ops V (Proc.devRef .tc main_v36) = Stage.s_main_v36 (V (Proc.devRef .tc main_arg0)) := by
  rw [eq_main_v36, val_main_v35]
  rfl

theorem res_main_cst_15 (W : Valuation τ sig (Elt F)) : (nullary main_cst_15 (constant S_ .f32 0x3F800000#32) : HloOp τ sig (Elt F)).result W (Proc.devRef .tc main_cst_15) = (constant (F := F) S_ .f32 0x3F800000#32) :=
  nullary_result ..

theorem eq_main_cst_15 (V : Valuation τ sig (Elt F)) : after ops V (Proc.devRef .tc main_cst_15) = (constant (F := F) S_ .f32 0x3F800000#32) :=
  (fixed V (nullary main_cst_15 (constant S_ .f32 0x3F800000#32) : HloOp τ sig (Elt F)) (List.mem_of_getElem? (show (ops : List (HloOp τ sig (Elt F)))[136]? = some (nullary main_cst_15 (constant S_ .f32 0x3F800000#32) : HloOp τ sig (Elt F)) from rfl)) (Proc.devRef .tc main_cst_15) (by simp only [nullary_writes, Finset.mem_singleton])).trans (res_main_cst_15 (after ops V))

theorem val_main_cst_15 (V : Valuation τ sig (Elt F)) : after ops V (Proc.devRef .tc main_cst_15) = Stage.s_main_cst_15 (F := F) := by
  rw [eq_main_cst_15]
  rfl

theorem res_main_v37 (W : Valuation τ sig (Elt F)) : (unary main_cst_15 main_v37 (broadcastInDim S4196352 ![] bcast_S_S4196352 : (⟨S_, .f32⟩ : BufTy).Contents (Elt F) → (⟨S4196352, .f32⟩ : BufTy).Contents (Elt F)) : HloOp τ sig (Elt F)).result W (Proc.devRef .tc main_v37) = (broadcastInDim S4196352 ![] bcast_S_S4196352 : (⟨S_, .f32⟩ : BufTy).Contents (Elt F) → (⟨S4196352, .f32⟩ : BufTy).Contents (Elt F)) (W (Proc.devRef .tc main_cst_15)) :=
  unary_result ..

theorem eq_main_v37 (V : Valuation τ sig (Elt F)) : after ops V (Proc.devRef .tc main_v37) = (broadcastInDim S4196352 ![] bcast_S_S4196352 : (⟨S_, .f32⟩ : BufTy).Contents (Elt F) → (⟨S4196352, .f32⟩ : BufTy).Contents (Elt F)) (after ops V (Proc.devRef .tc main_cst_15)) :=
  (fixed V (unary main_cst_15 main_v37 (broadcastInDim S4196352 ![] bcast_S_S4196352 : (⟨S_, .f32⟩ : BufTy).Contents (Elt F) → (⟨S4196352, .f32⟩ : BufTy).Contents (Elt F)) : HloOp τ sig (Elt F)) (List.mem_of_getElem? (show (ops : List (HloOp τ sig (Elt F)))[137]? = some (unary main_cst_15 main_v37 (broadcastInDim S4196352 ![] bcast_S_S4196352 : (⟨S_, .f32⟩ : BufTy).Contents (Elt F) → (⟨S4196352, .f32⟩ : BufTy).Contents (Elt F)) : HloOp τ sig (Elt F)) from rfl)) (Proc.devRef .tc main_v37) (by simp only [unary_writes, Finset.mem_singleton])).trans (res_main_v37 (after ops V))

theorem val_main_v37 (V : Valuation τ sig (Elt F)) : after ops V (Proc.devRef .tc main_v37) = Stage.s_main_v37 (F := F) := by
  rw [eq_main_v37, val_main_cst_15]
  rfl

theorem res_main_v38 (W : Valuation τ sig (Elt F)) : (ternary main_v30 main_v36 main_v37 main_v38 ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)) : HloOp τ sig (Elt F)).result W (Proc.devRef .tc main_v38) = ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)) (W (Proc.devRef .tc main_v30)) (W (Proc.devRef .tc main_v36)) (W (Proc.devRef .tc main_v37)) :=
  ternary_result ..

theorem eq_main_v38 (V : Valuation τ sig (Elt F)) : after ops V (Proc.devRef .tc main_v38) = ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)) (after ops V (Proc.devRef .tc main_v30)) (after ops V (Proc.devRef .tc main_v36)) (after ops V (Proc.devRef .tc main_v37)) :=
  (fixed V (ternary main_v30 main_v36 main_v37 main_v38 ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)) : HloOp τ sig (Elt F)) (List.mem_of_getElem? (show (ops : List (HloOp τ sig (Elt F)))[138]? = some (ternary main_v30 main_v36 main_v37 main_v38 ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)) : HloOp τ sig (Elt F)) from rfl)) (Proc.devRef .tc main_v38) (by simp only [ternary_writes, Finset.mem_singleton])).trans (res_main_v38 (after ops V))

theorem val_main_v38 (V : Valuation τ sig (Elt F)) : after ops V (Proc.devRef .tc main_v38) = Stage.s_main_v38 (V (Proc.devRef .tc main_arg0)) := by
  rw [eq_main_v38, val_main_v30, val_main_v36, val_main_v37]
  rfl

theorem res_main_cst_16 (W : Valuation τ sig (Elt F)) : (nullary main_cst_16 (constant S_ .f32 0x00000000#32) : HloOp τ sig (Elt F)).result W (Proc.devRef .tc main_cst_16) = (constant (F := F) S_ .f32 0x00000000#32) :=
  nullary_result ..

theorem eq_main_cst_16 (V : Valuation τ sig (Elt F)) : after ops V (Proc.devRef .tc main_cst_16) = (constant (F := F) S_ .f32 0x00000000#32) :=
  (fixed V (nullary main_cst_16 (constant S_ .f32 0x00000000#32) : HloOp τ sig (Elt F)) (List.mem_of_getElem? (show (ops : List (HloOp τ sig (Elt F)))[139]? = some (nullary main_cst_16 (constant S_ .f32 0x00000000#32) : HloOp τ sig (Elt F)) from rfl)) (Proc.devRef .tc main_cst_16) (by simp only [nullary_writes, Finset.mem_singleton])).trans (res_main_cst_16 (after ops V))

theorem val_main_cst_16 (V : Valuation τ sig (Elt F)) : after ops V (Proc.devRef .tc main_cst_16) = Stage.s_main_cst_16 (F := F) := by
  rw [eq_main_cst_16]
  rfl

theorem res_main_v39 (W : Valuation τ sig (Elt F)) : (unary main_cst_16 main_v39 (broadcastInDim S2048 ![] bcast_S_S2048 : (⟨S_, .f32⟩ : BufTy).Contents (Elt F) → (⟨S2048, .f32⟩ : BufTy).Contents (Elt F)) : HloOp τ sig (Elt F)).result W (Proc.devRef .tc main_v39) = (broadcastInDim S2048 ![] bcast_S_S2048 : (⟨S_, .f32⟩ : BufTy).Contents (Elt F) → (⟨S2048, .f32⟩ : BufTy).Contents (Elt F)) (W (Proc.devRef .tc main_cst_16)) :=
  unary_result ..

theorem eq_main_v39 (V : Valuation τ sig (Elt F)) : after ops V (Proc.devRef .tc main_v39) = (broadcastInDim S2048 ![] bcast_S_S2048 : (⟨S_, .f32⟩ : BufTy).Contents (Elt F) → (⟨S2048, .f32⟩ : BufTy).Contents (Elt F)) (after ops V (Proc.devRef .tc main_cst_16)) :=
  (fixed V (unary main_cst_16 main_v39 (broadcastInDim S2048 ![] bcast_S_S2048 : (⟨S_, .f32⟩ : BufTy).Contents (Elt F) → (⟨S2048, .f32⟩ : BufTy).Contents (Elt F)) : HloOp τ sig (Elt F)) (List.mem_of_getElem? (show (ops : List (HloOp τ sig (Elt F)))[140]? = some (unary main_cst_16 main_v39 (broadcastInDim S2048 ![] bcast_S_S2048 : (⟨S_, .f32⟩ : BufTy).Contents (Elt F) → (⟨S2048, .f32⟩ : BufTy).Contents (Elt F)) : HloOp τ sig (Elt F)) from rfl)) (Proc.devRef .tc main_v39) (by simp only [unary_writes, Finset.mem_singleton])).trans (res_main_v39 (after ops V))

theorem val_main_v39 (V : Valuation τ sig (Elt F)) : after ops V (Proc.devRef .tc main_v39) = Stage.s_main_v39 (F := F) := by
  rw [eq_main_v39, val_main_cst_16]
  rfl

theorem res_main_v40 (W : Valuation τ sig (Elt F)) : (binary main_v38 main_v39 main_v40 (cmpf .ogt : (⟨S2048, .f32⟩ : BufTy).Contents (Elt F) → (⟨S2048, .f32⟩ : BufTy).Contents (Elt F) → (⟨S2048, .i1⟩ : BufTy).Contents (Elt F)) : HloOp τ sig (Elt F)).result W (Proc.devRef .tc main_v40) = (cmpf .ogt : (⟨S2048, .f32⟩ : BufTy).Contents (Elt F) → (⟨S2048, .f32⟩ : BufTy).Contents (Elt F) → (⟨S2048, .i1⟩ : BufTy).Contents (Elt F)) (W (Proc.devRef .tc main_v38)) (W (Proc.devRef .tc main_v39)) :=
  binary_result ..

theorem eq_main_v40 (V : Valuation τ sig (Elt F)) : after ops V (Proc.devRef .tc main_v40) = (cmpf .ogt : (⟨S2048, .f32⟩ : BufTy).Contents (Elt F) → (⟨S2048, .f32⟩ : BufTy).Contents (Elt F) → (⟨S2048, .i1⟩ : BufTy).Contents (Elt F)) (after ops V (Proc.devRef .tc main_v38)) (after ops V (Proc.devRef .tc main_v39)) :=
  (fixed V (binary main_v38 main_v39 main_v40 (cmpf .ogt : (⟨S2048, .f32⟩ : BufTy).Contents (Elt F) → (⟨S2048, .f32⟩ : BufTy).Contents (Elt F) → (⟨S2048, .i1⟩ : BufTy).Contents (Elt F)) : HloOp τ sig (Elt F)) (List.mem_of_getElem? (show (ops : List (HloOp τ sig (Elt F)))[141]? = some (binary main_v38 main_v39 main_v40 (cmpf .ogt : (⟨S2048, .f32⟩ : BufTy).Contents (Elt F) → (⟨S2048, .f32⟩ : BufTy).Contents (Elt F) → (⟨S2048, .i1⟩ : BufTy).Contents (Elt F)) : HloOp τ sig (Elt F)) from rfl)) (Proc.devRef .tc main_v40) (by simp only [binary_writes, Finset.mem_singleton])).trans (res_main_v40 (after ops V))

theorem val_main_v40 (V : Valuation τ sig (Elt F)) : after ops V (Proc.devRef .tc main_v40) = Stage.s_main_v40 (V (Proc.devRef .tc main_arg0)) := by
  rw [eq_main_v40, val_main_v38, val_main_v39]
  rfl

theorem res_main_v41 (W : Valuation τ sig (Elt F)) : (unary main_v38 main_v41 (Host.sqrt : (⟨S2048, .f32⟩ : BufTy).Contents (Elt F) → (⟨S2048, .f32⟩ : BufTy).Contents (Elt F)) : HloOp τ sig (Elt F)).result W (Proc.devRef .tc main_v41) = (Host.sqrt : (⟨S2048, .f32⟩ : BufTy).Contents (Elt F) → (⟨S2048, .f32⟩ : BufTy).Contents (Elt F)) (W (Proc.devRef .tc main_v38)) :=
  unary_result ..

theorem eq_main_v41 (V : Valuation τ sig (Elt F)) : after ops V (Proc.devRef .tc main_v41) = (Host.sqrt : (⟨S2048, .f32⟩ : BufTy).Contents (Elt F) → (⟨S2048, .f32⟩ : BufTy).Contents (Elt F)) (after ops V (Proc.devRef .tc main_v38)) :=
  (fixed V (unary main_v38 main_v41 (Host.sqrt : (⟨S2048, .f32⟩ : BufTy).Contents (Elt F) → (⟨S2048, .f32⟩ : BufTy).Contents (Elt F)) : HloOp τ sig (Elt F)) (List.mem_of_getElem? (show (ops : List (HloOp τ sig (Elt F)))[142]? = some (unary main_v38 main_v41 (Host.sqrt : (⟨S2048, .f32⟩ : BufTy).Contents (Elt F) → (⟨S2048, .f32⟩ : BufTy).Contents (Elt F)) : HloOp τ sig (Elt F)) from rfl)) (Proc.devRef .tc main_v41) (by simp only [unary_writes, Finset.mem_singleton])).trans (res_main_v41 (after ops V))

theorem val_main_v41 (V : Valuation τ sig (Elt F)) : after ops V (Proc.devRef .tc main_v41) = Stage.s_main_v41 (V (Proc.devRef .tc main_arg0)) := by
  rw [eq_main_v41, val_main_v38]
  rfl

theorem res_main_cst_17 (W : Valuation τ sig (Elt F)) : (nullary main_cst_17 (constant S_ .f32 0x3F800000#32) : HloOp τ sig (Elt F)).result W (Proc.devRef .tc main_cst_17) = (constant (F := F) S_ .f32 0x3F800000#32) :=
  nullary_result ..

theorem eq_main_cst_17 (V : Valuation τ sig (Elt F)) : after ops V (Proc.devRef .tc main_cst_17) = (constant (F := F) S_ .f32 0x3F800000#32) :=
  (fixed V (nullary main_cst_17 (constant S_ .f32 0x3F800000#32) : HloOp τ sig (Elt F)) (List.mem_of_getElem? (show (ops : List (HloOp τ sig (Elt F)))[143]? = some (nullary main_cst_17 (constant S_ .f32 0x3F800000#32) : HloOp τ sig (Elt F)) from rfl)) (Proc.devRef .tc main_cst_17) (by simp only [nullary_writes, Finset.mem_singleton])).trans (res_main_cst_17 (after ops V))

theorem val_main_cst_17 (V : Valuation τ sig (Elt F)) : after ops V (Proc.devRef .tc main_cst_17) = Stage.s_main_cst_17 (F := F) := by
  rw [eq_main_cst_17]
  rfl

theorem res_main_v42 (W : Valuation τ sig (Elt F)) : (unary main_cst_17 main_v42 (broadcastInDim S2048 ![] bcast_S_S2048 : (⟨S_, .f32⟩ : BufTy).Contents (Elt F) → (⟨S2048, .f32⟩ : BufTy).Contents (Elt F)) : HloOp τ sig (Elt F)).result W (Proc.devRef .tc main_v42) = (broadcastInDim S2048 ![] bcast_S_S2048 : (⟨S_, .f32⟩ : BufTy).Contents (Elt F) → (⟨S2048, .f32⟩ : BufTy).Contents (Elt F)) (W (Proc.devRef .tc main_cst_17)) :=
  unary_result ..

theorem eq_main_v42 (V : Valuation τ sig (Elt F)) : after ops V (Proc.devRef .tc main_v42) = (broadcastInDim S2048 ![] bcast_S_S2048 : (⟨S_, .f32⟩ : BufTy).Contents (Elt F) → (⟨S2048, .f32⟩ : BufTy).Contents (Elt F)) (after ops V (Proc.devRef .tc main_cst_17)) :=
  (fixed V (unary main_cst_17 main_v42 (broadcastInDim S2048 ![] bcast_S_S2048 : (⟨S_, .f32⟩ : BufTy).Contents (Elt F) → (⟨S2048, .f32⟩ : BufTy).Contents (Elt F)) : HloOp τ sig (Elt F)) (List.mem_of_getElem? (show (ops : List (HloOp τ sig (Elt F)))[144]? = some (unary main_cst_17 main_v42 (broadcastInDim S2048 ![] bcast_S_S2048 : (⟨S_, .f32⟩ : BufTy).Contents (Elt F) → (⟨S2048, .f32⟩ : BufTy).Contents (Elt F)) : HloOp τ sig (Elt F)) from rfl)) (Proc.devRef .tc main_v42) (by simp only [unary_writes, Finset.mem_singleton])).trans (res_main_v42 (after ops V))

theorem val_main_v42 (V : Valuation τ sig (Elt F)) : after ops V (Proc.devRef .tc main_v42) = Stage.s_main_v42 (F := F) := by
  rw [eq_main_v42, val_main_cst_17]
  rfl

theorem res_main_v43 (W : Valuation τ sig (Elt F)) : (binary main_v42 main_v41 main_v43 (Host.divf : (⟨S2048, .f32⟩ : BufTy).Contents (Elt F) → (⟨S2048, .f32⟩ : BufTy).Contents (Elt F) → (⟨S2048, .f32⟩ : BufTy).Contents (Elt F)) : HloOp τ sig (Elt F)).result W (Proc.devRef .tc main_v43) = (Host.divf : (⟨S2048, .f32⟩ : BufTy).Contents (Elt F) → (⟨S2048, .f32⟩ : BufTy).Contents (Elt F) → (⟨S2048, .f32⟩ : BufTy).Contents (Elt F)) (W (Proc.devRef .tc main_v42)) (W (Proc.devRef .tc main_v41)) :=
  binary_result ..

theorem eq_main_v43 (V : Valuation τ sig (Elt F)) : after ops V (Proc.devRef .tc main_v43) = (Host.divf : (⟨S2048, .f32⟩ : BufTy).Contents (Elt F) → (⟨S2048, .f32⟩ : BufTy).Contents (Elt F) → (⟨S2048, .f32⟩ : BufTy).Contents (Elt F)) (after ops V (Proc.devRef .tc main_v42)) (after ops V (Proc.devRef .tc main_v41)) :=
  (fixed V (binary main_v42 main_v41 main_v43 (Host.divf : (⟨S2048, .f32⟩ : BufTy).Contents (Elt F) → (⟨S2048, .f32⟩ : BufTy).Contents (Elt F) → (⟨S2048, .f32⟩ : BufTy).Contents (Elt F)) : HloOp τ sig (Elt F)) (List.mem_of_getElem? (show (ops : List (HloOp τ sig (Elt F)))[145]? = some (binary main_v42 main_v41 main_v43 (Host.divf : (⟨S2048, .f32⟩ : BufTy).Contents (Elt F) → (⟨S2048, .f32⟩ : BufTy).Contents (Elt F) → (⟨S2048, .f32⟩ : BufTy).Contents (Elt F)) : HloOp τ sig (Elt F)) from rfl)) (Proc.devRef .tc main_v43) (by simp only [binary_writes, Finset.mem_singleton])).trans (res_main_v43 (after ops V))

theorem val_main_v43 (V : Valuation τ sig (Elt F)) : after ops V (Proc.devRef .tc main_v43) = Stage.s_main_v43 (V (Proc.devRef .tc main_arg0)) := by
  rw [eq_main_v43, val_main_v42, val_main_v41]
  rfl

theorem res_main_cst_18 (W : Valuation τ sig (Elt F)) : (nullary main_cst_18 (constant S_ .f32 0x00000000#32) : HloOp τ sig (Elt F)).result W (Proc.devRef .tc main_cst_18) = (constant (F := F) S_ .f32 0x00000000#32) :=
  nullary_result ..

theorem eq_main_cst_18 (V : Valuation τ sig (Elt F)) : after ops V (Proc.devRef .tc main_cst_18) = (constant (F := F) S_ .f32 0x00000000#32) :=
  (fixed V (nullary main_cst_18 (constant S_ .f32 0x00000000#32) : HloOp τ sig (Elt F)) (List.mem_of_getElem? (show (ops : List (HloOp τ sig (Elt F)))[146]? = some (nullary main_cst_18 (constant S_ .f32 0x00000000#32) : HloOp τ sig (Elt F)) from rfl)) (Proc.devRef .tc main_cst_18) (by simp only [nullary_writes, Finset.mem_singleton])).trans (res_main_cst_18 (after ops V))

theorem val_main_cst_18 (V : Valuation τ sig (Elt F)) : after ops V (Proc.devRef .tc main_cst_18) = Stage.s_main_cst_18 (F := F) := by
  rw [eq_main_cst_18]
  rfl

theorem res_main_call9_v0 (W : Valuation τ sig (Elt F)) : (TRef.unary (TRef.of main_cst_18 : TRef sig ⟨S_, .f32⟩) main_call9.v0 id : HloOp τ sig (Elt F)).result W (Proc.devRef .tc main_call9_v0) = (id : (⟨S_, .f32⟩ : BufTy).Contents (Elt F) → (⟨S_, .f32⟩ : BufTy).Contents (Elt F)) (W (Proc.devRef .tc main_cst_18)) :=
  unary_result ..

theorem eq_main_call9_v0 (V : Valuation τ sig (Elt F)) : after ops V (Proc.devRef .tc main_call9_v0) = (id : (⟨S_, .f32⟩ : BufTy).Contents (Elt F) → (⟨S_, .f32⟩ : BufTy).Contents (Elt F)) (after ops V (Proc.devRef .tc main_cst_18)) :=
  (fixed V (TRef.unary (TRef.of main_cst_18 : TRef sig ⟨S_, .f32⟩) main_call9.v0 id : HloOp τ sig (Elt F)) (List.mem_of_getElem? (show (ops : List (HloOp τ sig (Elt F)))[147]? = some (TRef.unary (TRef.of main_cst_18 : TRef sig ⟨S_, .f32⟩) main_call9.v0 id : HloOp τ sig (Elt F)) from rfl)) (Proc.devRef .tc main_call9_v0) (by simp only [unary_writes, Finset.mem_singleton])).trans (res_main_call9_v0 (after ops V))

theorem val_main_call9_v0 (V : Valuation τ sig (Elt F)) : after ops V (Proc.devRef .tc main_call9_v0) = Stage.s_main_call9_v0 (F := F) := by
  rw [eq_main_call9_v0, val_main_cst_18]
  rfl

theorem res_main_call9_v1 (W : Valuation τ sig (Elt F)) : (TRef.unary main_call9.v0 main_call9.v1 (broadcastInDim S2048 ![] bcast_S_S2048) : HloOp τ sig (Elt F)).result W (Proc.devRef .tc main_call9_v1) = ((broadcastInDim S2048 ![] bcast_S_S2048) : (⟨S_, .f32⟩ : BufTy).Contents (Elt F) → (⟨S2048, .f32⟩ : BufTy).Contents (Elt F)) (W (Proc.devRef .tc main_call9_v0)) :=
  unary_result ..

theorem eq_main_call9_v1 (V : Valuation τ sig (Elt F)) : after ops V (Proc.devRef .tc main_call9_v1) = ((broadcastInDim S2048 ![] bcast_S_S2048) : (⟨S_, .f32⟩ : BufTy).Contents (Elt F) → (⟨S2048, .f32⟩ : BufTy).Contents (Elt F)) (after ops V (Proc.devRef .tc main_call9_v0)) :=
  (fixed V (TRef.unary main_call9.v0 main_call9.v1 (broadcastInDim S2048 ![] bcast_S_S2048) : HloOp τ sig (Elt F)) (List.mem_of_getElem? (show (ops : List (HloOp τ sig (Elt F)))[148]? = some (TRef.unary main_call9.v0 main_call9.v1 (broadcastInDim S2048 ![] bcast_S_S2048) : HloOp τ sig (Elt F)) from rfl)) (Proc.devRef .tc main_call9_v1) (by simp only [unary_writes, Finset.mem_singleton])).trans (res_main_call9_v1 (after ops V))

theorem val_main_call9_v1 (V : Valuation τ sig (Elt F)) : after ops V (Proc.devRef .tc main_call9_v1) = Stage.s_main_call9_v1 (F := F) := by
  rw [eq_main_call9_v1, val_main_call9_v0]
  rfl

theorem res_main_v44 (W : Valuation τ sig (Elt F)) : (TRef.ternary (TRef.of main_v40 : TRef sig ⟨S2048, .i1⟩) (TRef.of main_v43 : TRef sig ⟨S2048, .f32⟩) main_call9.v1 main_call9.v2 select : HloOp τ sig (Elt F)).result W (Proc.devRef .tc main_v44) = (select : (⟨S2048, .i1⟩ : BufTy).Contents (Elt F) → (⟨S2048, .f32⟩ : BufTy).Contents (Elt F) → (⟨S2048, .f32⟩ : BufTy).Contents (Elt F) → (⟨S2048, .f32⟩ : BufTy).Contents (Elt F)) (W (Proc.devRef .tc main_v40)) (W (Proc.devRef .tc main_v43)) (W (Proc.devRef .tc main_call9_v1)) :=
  ternary_result ..

theorem eq_main_v44 (V : Valuation τ sig (Elt F)) : after ops V (Proc.devRef .tc main_v44) = (select : (⟨S2048, .i1⟩ : BufTy).Contents (Elt F) → (⟨S2048, .f32⟩ : BufTy).Contents (Elt F) → (⟨S2048, .f32⟩ : BufTy).Contents (Elt F) → (⟨S2048, .f32⟩ : BufTy).Contents (Elt F)) (after ops V (Proc.devRef .tc main_v40)) (after ops V (Proc.devRef .tc main_v43)) (after ops V (Proc.devRef .tc main_call9_v1)) :=
  (fixed V (TRef.ternary (TRef.of main_v40 : TRef sig ⟨S2048, .i1⟩) (TRef.of main_v43 : TRef sig ⟨S2048, .f32⟩) main_call9.v1 main_call9.v2 select : HloOp τ sig (Elt F)) (List.mem_of_getElem? (show (ops : List (HloOp τ sig (Elt F)))[149]? = some (TRef.ternary (TRef.of main_v40 : TRef sig ⟨S2048, .i1⟩) (TRef.of main_v43 : TRef sig ⟨S2048, .f32⟩) main_call9.v1 main_call9.v2 select : HloOp τ sig (Elt F)) from rfl)) (Proc.devRef .tc main_v44) (by simp only [ternary_writes, Finset.mem_singleton])).trans (res_main_v44 (after ops V))

theorem val_main_v44 (V : Valuation τ sig (Elt F)) : after ops V (Proc.devRef .tc main_v44) = Stage.s_main_v44 (V (Proc.devRef .tc main_arg0)) := by
  rw [eq_main_v44, val_main_v40, val_main_v43, val_main_call9_v1]
  rfl

theorem res_main_c_19 (W : Valuation τ sig (Elt F)) : (nullary main_c_19 (constantI S_ 32 0#32) : HloOp τ sig (Elt F)).result W (Proc.devRef .tc main_c_19) = (constantI S_ 32 0#32) :=
  nullary_result ..

theorem eq_main_c_19 (V : Valuation τ sig (Elt F)) : after ops V (Proc.devRef .tc main_c_19) = (constantI S_ 32 0#32) :=
  (fixed V (nullary main_c_19 (constantI S_ 32 0#32) : HloOp τ sig (Elt F)) (List.mem_of_getElem? (show (ops : List (HloOp τ sig (Elt F)))[150]? = some (nullary main_c_19 (constantI S_ 32 0#32) : HloOp τ sig (Elt F)) from rfl)) (Proc.devRef .tc main_c_19) (by simp only [nullary_writes, Finset.mem_singleton])).trans (res_main_c_19 (after ops V))

theorem val_main_c_19 (V : Valuation τ sig (Elt F)) : after ops V (Proc.devRef .tc main_c_19) = Stage.s_main_c_19 := by
  rw [eq_main_c_19]
  rfl

theorem res_main_v45 (W : Valuation τ sig (Elt F)) : (unary main_c_19 main_v45 (broadcastInDim S4196352 ![] bcast_S_S4196352 : (⟨S_, .i32⟩ : BufTy).Contents (Elt F) → (⟨S4196352, .i32⟩ : BufTy).Contents (Elt F)) : HloOp τ sig (Elt F)).result W (Proc.devRef .tc main_v45) = (broadcastInDim S4196352 ![] bcast_S_S4196352 : (⟨S_, .i32⟩ : BufTy).Contents (Elt F) → (⟨S4196352, .i32⟩ : BufTy).Contents (Elt F)) (W (Proc.devRef .tc main_c_19)) :=
  unary_result ..

theorem eq_main_v45 (V : Valuation τ sig (Elt F)) : after ops V (Proc.devRef .tc main_v45) = (broadcastInDim S4196352 ![] bcast_S_S4196352 : (⟨S_, .i32⟩ : BufTy).Contents (Elt F) → (⟨S4196352, .i32⟩ : BufTy).Contents (Elt F)) (after ops V (Proc.devRef .tc main_c_19)) :=
  (fixed V (unary main_c_19 main_v45 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[151]? = some (unary main_c_19 main_v45 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v45) (by simp only [unary_writes, Finset.mem_singleton])).trans (res_main_v45 (after ops V))

theorem val_main_v45 (V : Valuation τ sig (Elt F)) : after ops V (Proc.devRef .tc main_v45) = Stage.s_main_v45 (F := F) := by
  rw [eq_main_v45, val_main_c_19]
  rfl

theorem res_main_v46 (W : Valuation τ sig (Elt F)) : (binary main_v28 main_v45 main_v46 (cmpi .slt : (⟨S4196352, .i32⟩ : BufTy).Contents (Elt F) → (⟨S4196352, .i32⟩ : BufTy).Contents (Elt F) → (⟨S4196352, .i1⟩ : BufTy).Contents (Elt F)) : HloOp τ sig (Elt F)).result W (Proc.devRef .tc main_v46) = (cmpi .slt : (⟨S4196352, .i32⟩ : BufTy).Contents (Elt F) → (⟨S4196352, .i32⟩ : BufTy).Contents (Elt F) → (⟨S4196352, .i1⟩ : BufTy).Contents (Elt F)) (W (Proc.devRef .tc main_v28)) (W (Proc.devRef .tc main_v45)) :=
  binary_result ..

theorem eq_main_v46 (V : Valuation τ sig (Elt F)) : after ops V (Proc.devRef .tc main_v46) = (cmpi .slt : (⟨S4196352, .i32⟩ : BufTy).Contents (Elt F) → (⟨S4196352, .i32⟩ : BufTy).Contents (Elt F) → (⟨S4196352, .i1⟩ : BufTy).Contents (Elt F)) (after ops V (Proc.devRef .tc main_v28)) (after ops V (Proc.devRef .tc main_v45)) :=
  (fixed V (binary main_v28 main_v45 main_v46 (cmpi .slt : (⟨S4196352, .i32⟩ : BufTy).Contents (Elt F) → (⟨S4196352, .i32⟩ : BufTy).Contents (Elt F) → (⟨S4196352, .i1⟩ : BufTy).Contents (Elt F)) : HloOp τ sig (Elt F)) (List.mem_of_getElem? (show (ops : List (HloOp τ sig (Elt F)))[152]? = some (binary main_v28 main_v45 main_v46 (cmpi .slt : (⟨S4196352, .i32⟩ : BufTy).Contents (Elt F) → (⟨S4196352, .i32⟩ : BufTy).Contents (Elt F) → (⟨S4196352, .i1⟩ : BufTy).Contents (Elt F)) : HloOp τ sig (Elt F)) from rfl)) (Proc.devRef .tc main_v46) (by simp only [binary_writes, Finset.mem_singleton])).trans (res_main_v46 (after ops V))

theorem val_main_v46 (V : Valuation τ sig (Elt F)) : after ops V (Proc.devRef .tc main_v46) = Stage.s_main_v46 (V (Proc.devRef .tc main_arg0)) := by
  rw [eq_main_v46, val_main_v28, val_main_v45]
  rfl

theorem res_main_c_20 (W : Valuation τ sig (Elt F)) : (nullary main_c_20 (constantI S_ 32 2048#32) : HloOp τ sig (Elt F)).result W (Proc.devRef .tc main_c_20) = (constantI S_ 32 2048#32) :=
  nullary_result ..

theorem eq_main_c_20 (V : Valuation τ sig (Elt F)) : after ops V (Proc.devRef .tc main_c_20) = (constantI S_ 32 2048#32) :=
  (fixed V (nullary main_c_20 (constantI S_ 32 2048#32) : HloOp τ sig (Elt F)) (List.mem_of_getElem? (show (ops : List (HloOp τ sig (Elt F)))[153]? = some (nullary main_c_20 (constantI S_ 32 2048#32) : HloOp τ sig (Elt F)) from rfl)) (Proc.devRef .tc main_c_20) (by simp only [nullary_writes, Finset.mem_singleton])).trans (res_main_c_20 (after ops V))

theorem val_main_c_20 (V : Valuation τ sig (Elt F)) : after ops V (Proc.devRef .tc main_c_20) = Stage.s_main_c_20 := by
  rw [eq_main_c_20]
  rfl

theorem res_main_v47 (W : Valuation τ sig (Elt F)) : (unary main_c_20 main_v47 (broadcastInDim S4196352 ![] bcast_S_S4196352 : (⟨S_, .i32⟩ : BufTy).Contents (Elt F) → (⟨S4196352, .i32⟩ : BufTy).Contents (Elt F)) : HloOp τ sig (Elt F)).result W (Proc.devRef .tc main_v47) = (broadcastInDim S4196352 ![] bcast_S_S4196352 : (⟨S_, .i32⟩ : BufTy).Contents (Elt F) → (⟨S4196352, .i32⟩ : BufTy).Contents (Elt F)) (W (Proc.devRef .tc main_c_20)) :=
  unary_result ..

theorem eq_main_v47 (V : Valuation τ sig (Elt F)) : after ops V (Proc.devRef .tc main_v47) = (broadcastInDim S4196352 ![] bcast_S_S4196352 : (⟨S_, .i32⟩ : BufTy).Contents (Elt F) → (⟨S4196352, .i32⟩ : BufTy).Contents (Elt F)) (after ops V (Proc.devRef .tc main_c_20)) :=
  (fixed V (unary main_c_20 main_v47 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[154]? = some (unary main_c_20 main_v47 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v47) (by simp only [unary_writes, Finset.mem_singleton])).trans (res_main_v47 (after ops V))

theorem val_main_v47 (V : Valuation τ sig (Elt F)) : after ops V (Proc.devRef .tc main_v47) = Stage.s_main_v47 (F := F) := by
  rw [eq_main_v47, val_main_c_20]
  rfl

theorem res_main_v48 (W : Valuation τ sig (Elt F)) : (binary main_v28 main_v47 main_v48 (addi : (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v48) = (addi : (⟨S4196352, .i32⟩ : BufTy).Contents (Elt F) → (⟨S4196352, .i32⟩ : BufTy).Contents (Elt F) → (⟨S4196352, .i32⟩ : BufTy).Contents (Elt F)) (W (Proc.devRef .tc main_v28)) (W (Proc.devRef .tc main_v47)) :=
  binary_result ..

theorem eq_main_v48 (V : Valuation τ sig (Elt F)) : after ops V (Proc.devRef .tc main_v48) = (addi : (⟨S4196352, .i32⟩ : BufTy).Contents (Elt F) → (⟨S4196352, .i32⟩ : BufTy).Contents (Elt F) → (⟨S4196352, .i32⟩ : BufTy).Contents (Elt F)) (after ops V (Proc.devRef .tc main_v28)) (after ops V (Proc.devRef .tc main_v47)) :=
  (fixed V (binary main_v28 main_v47 main_v48 (addi : (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[155]? = some (binary main_v28 main_v47 main_v48 (addi : (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v48) (by simp only [binary_writes, Finset.mem_singleton])).trans (res_main_v48 (after ops V))

theorem val_main_v48 (V : Valuation τ sig (Elt F)) : after ops V (Proc.devRef .tc main_v48) = Stage.s_main_v48 (V (Proc.devRef .tc main_arg0)) := by
  rw [eq_main_v48, val_main_v28, val_main_v47]
  rfl

theorem res_main_v49 (W : Valuation τ sig (Elt F)) : (ternary main_v46 main_v48 main_v28 main_v49 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v49) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (W (Proc.devRef .tc main_v46)) (W (Proc.devRef .tc main_v48)) (W (Proc.devRef .tc main_v28)) :=
  ternary_result ..

theorem eq_main_v49 (V : Valuation τ sig (Elt F)) : after ops V (Proc.devRef .tc main_v49) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (after ops V (Proc.devRef .tc main_v46)) (after ops V (Proc.devRef .tc main_v48)) (after ops V (Proc.devRef .tc main_v28)) :=
  (fixed V (ternary main_v46 main_v48 main_v28 main_v49 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[156]? = some (ternary main_v46 main_v48 main_v28 main_v49 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v49) (by simp only [ternary_writes, Finset.mem_singleton])).trans (res_main_v49 (after ops V))

theorem val_main_v49 (V : Valuation τ sig (Elt F)) : after ops V (Proc.devRef .tc main_v49) = Stage.s_main_v49 (V (Proc.devRef .tc main_arg0)) := by
  rw [eq_main_v49, val_main_v46, val_main_v48, val_main_v28]
  rfl

theorem res_main_v50 (W : Valuation τ sig (Elt F)) : (unary main_v49 main_v50 (broadcastInDim S4196352x1 ![0] bcast_S4196352_S4196352x1_0 : (⟨S4196352, .i32⟩ : BufTy).Contents (Elt F) → (⟨S4196352x1, .i32⟩ : BufTy).Contents (Elt F)) : HloOp τ sig (Elt F)).result W (Proc.devRef .tc main_v50) = (broadcastInDim S4196352x1 ![0] bcast_S4196352_S4196352x1_0 : (⟨S4196352, .i32⟩ : BufTy).Contents (Elt F) → (⟨S4196352x1, .i32⟩ : BufTy).Contents (Elt F)) (W (Proc.devRef .tc main_v49)) :=
  unary_result ..

theorem eq_main_v50 (V : Valuation τ sig (Elt F)) : after ops V (Proc.devRef .tc main_v50) = (broadcastInDim S4196352x1 ![0] bcast_S4196352_S4196352x1_0 : (⟨S4196352, .i32⟩ : BufTy).Contents (Elt F) → (⟨S4196352x1, .i32⟩ : BufTy).Contents (Elt F)) (after ops V (Proc.devRef .tc main_v49)) :=
  (fixed V (unary main_v49 main_v50 (broadcastInDim S4196352x1 ![0] bcast_S4196352_S4196352x1_0 : (⟨S4196352, .i32⟩ : BufTy).Contents (Elt F) → (⟨S4196352x1, .i32⟩ : BufTy).Contents (Elt F)) : HloOp τ sig (Elt F)) (List.mem_of_getElem? (show (ops : List (HloOp τ sig (Elt F)))[157]? = some (unary main_v49 main_v50 (broadcastInDim S4196352x1 ![0] bcast_S4196352_S4196352x1_0 : (⟨S4196352, .i32⟩ : BufTy).Contents (Elt F) → (⟨S4196352x1, .i32⟩ : BufTy).Contents (Elt F)) : HloOp τ sig (Elt F)) from rfl)) (Proc.devRef .tc main_v50) (by simp only [unary_writes, Finset.mem_singleton])).trans (res_main_v50 (after ops V))

theorem val_main_v50 (V : Valuation τ sig (Elt F)) : after ops V (Proc.devRef .tc main_v50) = Stage.s_main_v50 (V (Proc.devRef .tc main_arg0)) := by
  rw [eq_main_v50, val_main_v49]
  rfl

theorem res_main_v51 (W : Valuation τ sig (Elt F)) : (binary main_v44 main_v50 main_v51 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) : HloOp τ sig (Elt F)).result W (Proc.devRef .tc main_v51) = ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) (W (Proc.devRef .tc main_v44)) (W (Proc.devRef .tc main_v50)) :=
  binary_result ..

theorem eq_main_v51 (V : Valuation τ sig (Elt F)) : after ops V (Proc.devRef .tc main_v51) = ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) (after ops V (Proc.devRef .tc main_v44)) (after ops V (Proc.devRef .tc main_v50)) :=
  (fixed V (binary main_v44 main_v50 main_v51 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) : HloOp τ sig (Elt F)) (List.mem_of_getElem? (show (ops : List (HloOp τ sig (Elt F)))[158]? = some (binary main_v44 main_v50 main_v51 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) : HloOp τ sig (Elt F)) from rfl)) (Proc.devRef .tc main_v51) (by simp only [binary_writes, Finset.mem_singleton])).trans (res_main_v51 (after ops V))

theorem val_main_v51 (V : Valuation τ sig (Elt F)) : after ops V (Proc.devRef .tc main_v51) = Stage.s_main_v51 (V (Proc.devRef .tc main_arg0)) := by
  rw [eq_main_v51, val_main_v44, val_main_v50]
  rfl

theorem res_main_c_21 (W : Valuation τ sig (Elt F)) : (nullary main_c_21 (constantI S_ 32 0#32) : HloOp τ sig (Elt F)).result W (Proc.devRef .tc main_c_21) = (constantI S_ 32 0#32) :=
  nullary_result ..

theorem eq_main_c_21 (V : Valuation τ sig (Elt F)) : after ops V (Proc.devRef .tc main_c_21) = (constantI S_ 32 0#32) :=
  (fixed V (nullary main_c_21 (constantI S_ 32 0#32) : HloOp τ sig (Elt F)) (List.mem_of_getElem? (show (ops : List (HloOp τ sig (Elt F)))[159]? = some (nullary main_c_21 (constantI S_ 32 0#32) : HloOp τ sig (Elt F)) from rfl)) (Proc.devRef .tc main_c_21) (by simp only [nullary_writes, Finset.mem_singleton])).trans (res_main_c_21 (after ops V))

theorem val_main_c_21 (V : Valuation τ sig (Elt F)) : after ops V (Proc.devRef .tc main_c_21) = Stage.s_main_c_21 := by
  rw [eq_main_c_21]
  rfl

theorem res_main_v52 (W : Valuation τ sig (Elt F)) : (unary main_c_21 main_v52 (broadcastInDim S4196352 ![] bcast_S_S4196352 : (⟨S_, .i32⟩ : BufTy).Contents (Elt F) → (⟨S4196352, .i32⟩ : BufTy).Contents (Elt F)) : HloOp τ sig (Elt F)).result W (Proc.devRef .tc main_v52) = (broadcastInDim S4196352 ![] bcast_S_S4196352 : (⟨S_, .i32⟩ : BufTy).Contents (Elt F) → (⟨S4196352, .i32⟩ : BufTy).Contents (Elt F)) (W (Proc.devRef .tc main_c_21)) :=
  unary_result ..

theorem eq_main_v52 (V : Valuation τ sig (Elt F)) : after ops V (Proc.devRef .tc main_v52) = (broadcastInDim S4196352 ![] bcast_S_S4196352 : (⟨S_, .i32⟩ : BufTy).Contents (Elt F) → (⟨S4196352, .i32⟩ : BufTy).Contents (Elt F)) (after ops V (Proc.devRef .tc main_c_21)) :=
  (fixed V (unary main_c_21 main_v52 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[160]? = some (unary main_c_21 main_v52 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v52) (by simp only [unary_writes, Finset.mem_singleton])).trans (res_main_v52 (after ops V))

theorem val_main_v52 (V : Valuation τ sig (Elt F)) : after ops V (Proc.devRef .tc main_v52) = Stage.s_main_v52 (F := F) := by
  rw [eq_main_v52, val_main_c_21]
  rfl

theorem res_main_v53 (W : Valuation τ sig (Elt F)) : (binary main_v29 main_v52 main_v53 (cmpi .slt : (⟨S4196352, .i32⟩ : BufTy).Contents (Elt F) → (⟨S4196352, .i32⟩ : BufTy).Contents (Elt F) → (⟨S4196352, .i1⟩ : BufTy).Contents (Elt F)) : HloOp τ sig (Elt F)).result W (Proc.devRef .tc main_v53) = (cmpi .slt : (⟨S4196352, .i32⟩ : BufTy).Contents (Elt F) → (⟨S4196352, .i32⟩ : BufTy).Contents (Elt F) → (⟨S4196352, .i1⟩ : BufTy).Contents (Elt F)) (W (Proc.devRef .tc main_v29)) (W (Proc.devRef .tc main_v52)) :=
  binary_result ..

theorem eq_main_v53 (V : Valuation τ sig (Elt F)) : after ops V (Proc.devRef .tc main_v53) = (cmpi .slt : (⟨S4196352, .i32⟩ : BufTy).Contents (Elt F) → (⟨S4196352, .i32⟩ : BufTy).Contents (Elt F) → (⟨S4196352, .i1⟩ : BufTy).Contents (Elt F)) (after ops V (Proc.devRef .tc main_v29)) (after ops V (Proc.devRef .tc main_v52)) :=
  (fixed V (binary main_v29 main_v52 main_v53 (cmpi .slt : (⟨S4196352, .i32⟩ : BufTy).Contents (Elt F) → (⟨S4196352, .i32⟩ : BufTy).Contents (Elt F) → (⟨S4196352, .i1⟩ : BufTy).Contents (Elt F)) : HloOp τ sig (Elt F)) (List.mem_of_getElem? (show (ops : List (HloOp τ sig (Elt F)))[161]? = some (binary main_v29 main_v52 main_v53 (cmpi .slt : (⟨S4196352, .i32⟩ : BufTy).Contents (Elt F) → (⟨S4196352, .i32⟩ : BufTy).Contents (Elt F) → (⟨S4196352, .i1⟩ : BufTy).Contents (Elt F)) : HloOp τ sig (Elt F)) from rfl)) (Proc.devRef .tc main_v53) (by simp only [binary_writes, Finset.mem_singleton])).trans (res_main_v53 (after ops V))

theorem val_main_v53 (V : Valuation τ sig (Elt F)) : after ops V (Proc.devRef .tc main_v53) = Stage.s_main_v53 (V (Proc.devRef .tc main_arg0)) := by
  rw [eq_main_v53, val_main_v29, val_main_v52]
  rfl

theorem res_main_c_22 (W : Valuation τ sig (Elt F)) : (nullary main_c_22 (constantI S_ 32 2048#32) : HloOp τ sig (Elt F)).result W (Proc.devRef .tc main_c_22) = (constantI S_ 32 2048#32) :=
  nullary_result ..

theorem eq_main_c_22 (V : Valuation τ sig (Elt F)) : after ops V (Proc.devRef .tc main_c_22) = (constantI S_ 32 2048#32) :=
  (fixed V (nullary main_c_22 (constantI S_ 32 2048#32) : HloOp τ sig (Elt F)) (List.mem_of_getElem? (show (ops : List (HloOp τ sig (Elt F)))[162]? = some (nullary main_c_22 (constantI S_ 32 2048#32) : HloOp τ sig (Elt F)) from rfl)) (Proc.devRef .tc main_c_22) (by simp only [nullary_writes, Finset.mem_singleton])).trans (res_main_c_22 (after ops V))

theorem val_main_c_22 (V : Valuation τ sig (Elt F)) : after ops V (Proc.devRef .tc main_c_22) = Stage.s_main_c_22 := by
  rw [eq_main_c_22]
  rfl

theorem res_main_v54 (W : Valuation τ sig (Elt F)) : (unary main_c_22 main_v54 (broadcastInDim S4196352 ![] bcast_S_S4196352 : (⟨S_, .i32⟩ : BufTy).Contents (Elt F) → (⟨S4196352, .i32⟩ : BufTy).Contents (Elt F)) : HloOp τ sig (Elt F)).result W (Proc.devRef .tc main_v54) = (broadcastInDim S4196352 ![] bcast_S_S4196352 : (⟨S_, .i32⟩ : BufTy).Contents (Elt F) → (⟨S4196352, .i32⟩ : BufTy).Contents (Elt F)) (W (Proc.devRef .tc main_c_22)) :=
  unary_result ..

theorem eq_main_v54 (V : Valuation τ sig (Elt F)) : after ops V (Proc.devRef .tc main_v54) = (broadcastInDim S4196352 ![] bcast_S_S4196352 : (⟨S_, .i32⟩ : BufTy).Contents (Elt F) → (⟨S4196352, .i32⟩ : BufTy).Contents (Elt F)) (after ops V (Proc.devRef .tc main_c_22)) :=
  (fixed V (unary main_c_22 main_v54 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[163]? = some (unary main_c_22 main_v54 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v54) (by simp only [unary_writes, Finset.mem_singleton])).trans (res_main_v54 (after ops V))

theorem val_main_v54 (V : Valuation τ sig (Elt F)) : after ops V (Proc.devRef .tc main_v54) = Stage.s_main_v54 (F := F) := by
  rw [eq_main_v54, val_main_c_22]
  rfl

theorem res_main_v55 (W : Valuation τ sig (Elt F)) : (binary main_v29 main_v54 main_v55 (addi : (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v55) = (addi : (⟨S4196352, .i32⟩ : BufTy).Contents (Elt F) → (⟨S4196352, .i32⟩ : BufTy).Contents (Elt F) → (⟨S4196352, .i32⟩ : BufTy).Contents (Elt F)) (W (Proc.devRef .tc main_v29)) (W (Proc.devRef .tc main_v54)) :=
  binary_result ..

theorem eq_main_v55 (V : Valuation τ sig (Elt F)) : after ops V (Proc.devRef .tc main_v55) = (addi : (⟨S4196352, .i32⟩ : BufTy).Contents (Elt F) → (⟨S4196352, .i32⟩ : BufTy).Contents (Elt F) → (⟨S4196352, .i32⟩ : BufTy).Contents (Elt F)) (after ops V (Proc.devRef .tc main_v29)) (after ops V (Proc.devRef .tc main_v54)) :=
  (fixed V (binary main_v29 main_v54 main_v55 (addi : (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[164]? = some (binary main_v29 main_v54 main_v55 (addi : (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v55) (by simp only [binary_writes, Finset.mem_singleton])).trans (res_main_v55 (after ops V))

theorem val_main_v55 (V : Valuation τ sig (Elt F)) : after ops V (Proc.devRef .tc main_v55) = Stage.s_main_v55 (V (Proc.devRef .tc main_arg0)) := by
  rw [eq_main_v55, val_main_v29, val_main_v54]
  rfl

theorem res_main_v56 (W : Valuation τ sig (Elt F)) : (ternary main_v53 main_v55 main_v29 main_v56 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v56) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (W (Proc.devRef .tc main_v53)) (W (Proc.devRef .tc main_v55)) (W (Proc.devRef .tc main_v29)) :=
  ternary_result ..

theorem eq_main_v56 (V : Valuation τ sig (Elt F)) : after ops V (Proc.devRef .tc main_v56) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (after ops V (Proc.devRef .tc main_v53)) (after ops V (Proc.devRef .tc main_v55)) (after ops V (Proc.devRef .tc main_v29)) :=
  (fixed V (ternary main_v53 main_v55 main_v29 main_v56 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[165]? = some (ternary main_v53 main_v55 main_v29 main_v56 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v56) (by simp only [ternary_writes, Finset.mem_singleton])).trans (res_main_v56 (after ops V))

theorem val_main_v56 (V : Valuation τ sig (Elt F)) : after ops V (Proc.devRef .tc main_v56) = Stage.s_main_v56 (V (Proc.devRef .tc main_arg0)) := by
  rw [eq_main_v56, val_main_v53, val_main_v55, val_main_v29]
  rfl

theorem res_main_v57 (W : Valuation τ sig (Elt F)) : (unary main_v56 main_v57 (broadcastInDim S4196352x1 ![0] bcast_S4196352_S4196352x1_0 : (⟨S4196352, .i32⟩ : BufTy).Contents (Elt F) → (⟨S4196352x1, .i32⟩ : BufTy).Contents (Elt F)) : HloOp τ sig (Elt F)).result W (Proc.devRef .tc main_v57) = (broadcastInDim S4196352x1 ![0] bcast_S4196352_S4196352x1_0 : (⟨S4196352, .i32⟩ : BufTy).Contents (Elt F) → (⟨S4196352x1, .i32⟩ : BufTy).Contents (Elt F)) (W (Proc.devRef .tc main_v56)) :=
  unary_result ..

theorem eq_main_v57 (V : Valuation τ sig (Elt F)) : after ops V (Proc.devRef .tc main_v57) = (broadcastInDim S4196352x1 ![0] bcast_S4196352_S4196352x1_0 : (⟨S4196352, .i32⟩ : BufTy).Contents (Elt F) → (⟨S4196352x1, .i32⟩ : BufTy).Contents (Elt F)) (after ops V (Proc.devRef .tc main_v56)) :=
  (fixed V (unary main_v56 main_v57 (broadcastInDim S4196352x1 ![0] bcast_S4196352_S4196352x1_0 : (⟨S4196352, .i32⟩ : BufTy).Contents (Elt F) → (⟨S4196352x1, .i32⟩ : BufTy).Contents (Elt F)) : HloOp τ sig (Elt F)) (List.mem_of_getElem? (show (ops : List (HloOp τ sig (Elt F)))[166]? = some (unary main_v56 main_v57 (broadcastInDim S4196352x1 ![0] bcast_S4196352_S4196352x1_0 : (⟨S4196352, .i32⟩ : BufTy).Contents (Elt F) → (⟨S4196352x1, .i32⟩ : BufTy).Contents (Elt F)) : HloOp τ sig (Elt F)) from rfl)) (Proc.devRef .tc main_v57) (by simp only [unary_writes, Finset.mem_singleton])).trans (res_main_v57 (after ops V))

theorem val_main_v57 (V : Valuation τ sig (Elt F)) : after ops V (Proc.devRef .tc main_v57) = Stage.s_main_v57 (V (Proc.devRef .tc main_arg0)) := by
  rw [eq_main_v57, val_main_v56]
  rfl

theorem res_main_v58 (W : Valuation τ sig (Elt F)) : (binary main_v44 main_v57 main_v58 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) : HloOp τ sig (Elt F)).result W (Proc.devRef .tc main_v58) = ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) (W (Proc.devRef .tc main_v44)) (W (Proc.devRef .tc main_v57)) :=
  binary_result ..

theorem eq_main_v58 (V : Valuation τ sig (Elt F)) : after ops V (Proc.devRef .tc main_v58) = ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) (after ops V (Proc.devRef .tc main_v44)) (after ops V (Proc.devRef .tc main_v57)) :=
  (fixed V (binary main_v44 main_v57 main_v58 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) : HloOp τ sig (Elt F)) (List.mem_of_getElem? (show (ops : List (HloOp τ sig (Elt F)))[167]? = some (binary main_v44 main_v57 main_v58 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) : HloOp τ sig (Elt F)) from rfl)) (Proc.devRef .tc main_v58) (by simp only [binary_writes, Finset.mem_singleton])).trans (res_main_v58 (after ops V))

theorem val_main_v58 (V : Valuation τ sig (Elt F)) : after ops V (Proc.devRef .tc main_v58) = Stage.s_main_v58 (V (Proc.devRef .tc main_arg0)) := by
  rw [eq_main_v58, val_main_v44, val_main_v57]
  rfl

theorem res_main_v59 (W : Valuation τ sig (Elt F)) : (binary main_v51 main_v58 main_v59 (mulf : (⟨S4196352, .f32⟩ : BufTy).Contents (Elt F) → (⟨S4196352, .f32⟩ : BufTy).Contents (Elt F) → (⟨S4196352, .f32⟩ : BufTy).Contents (Elt F)) : HloOp τ sig (Elt F)).result W (Proc.devRef .tc main_v59) = (mulf : (⟨S4196352, .f32⟩ : BufTy).Contents (Elt F) → (⟨S4196352, .f32⟩ : BufTy).Contents (Elt F) → (⟨S4196352, .f32⟩ : BufTy).Contents (Elt F)) (W (Proc.devRef .tc main_v51)) (W (Proc.devRef .tc main_v58)) :=
  binary_result ..

theorem eq_main_v59 (V : Valuation τ sig (Elt F)) : after ops V (Proc.devRef .tc main_v59) = (mulf : (⟨S4196352, .f32⟩ : BufTy).Contents (Elt F) → (⟨S4196352, .f32⟩ : BufTy).Contents (Elt F) → (⟨S4196352, .f32⟩ : BufTy).Contents (Elt F)) (after ops V (Proc.devRef .tc main_v51)) (after ops V (Proc.devRef .tc main_v58)) :=
  (fixed V (binary main_v51 main_v58 main_v59 (mulf : (⟨S4196352, .f32⟩ : BufTy).Contents (Elt F) → (⟨S4196352, .f32⟩ : BufTy).Contents (Elt F) → (⟨S4196352, .f32⟩ : BufTy).Contents (Elt F)) : HloOp τ sig (Elt F)) (List.mem_of_getElem? (show (ops : List (HloOp τ sig (Elt F)))[168]? = some (binary main_v51 main_v58 main_v59 (mulf : (⟨S4196352, .f32⟩ : BufTy).Contents (Elt F) → (⟨S4196352, .f32⟩ : BufTy).Contents (Elt F) → (⟨S4196352, .f32⟩ : BufTy).Contents (Elt F)) : HloOp τ sig (Elt F)) from rfl)) (Proc.devRef .tc main_v59) (by simp only [binary_writes, Finset.mem_singleton])).trans (res_main_v59 (after ops V))

theorem val_main_v59 (V : Valuation τ sig (Elt F)) : after ops V (Proc.devRef .tc main_v59) = Stage.s_main_v59 (V (Proc.devRef .tc main_arg0)) := by
  rw [eq_main_v59, val_main_v51, val_main_v58]
  rfl

theorem res_main_c_23 (W : Valuation τ sig (Elt F)) : (nullary main_c_23 (constantI S_ 32 0#32) : HloOp τ sig (Elt F)).result W (Proc.devRef .tc main_c_23) = (constantI S_ 32 0#32) :=
  nullary_result ..

theorem eq_main_c_23 (V : Valuation τ sig (Elt F)) : after ops V (Proc.devRef .tc main_c_23) = (constantI S_ 32 0#32) :=
  (fixed V (nullary main_c_23 (constantI S_ 32 0#32) : HloOp τ sig (Elt F)) (List.mem_of_getElem? (show (ops : List (HloOp τ sig (Elt F)))[169]? = some (nullary main_c_23 (constantI S_ 32 0#32) : HloOp τ sig (Elt F)) from rfl)) (Proc.devRef .tc main_c_23) (by simp only [nullary_writes, Finset.mem_singleton])).trans (res_main_c_23 (after ops V))

theorem val_main_c_23 (V : Valuation τ sig (Elt F)) : after ops V (Proc.devRef .tc main_c_23) = Stage.s_main_c_23 := by
  rw [eq_main_c_23]
  rfl

theorem res_main_v60 (W : Valuation τ sig (Elt F)) : (unary main_c_23 main_v60 (broadcastInDim S4196352 ![] bcast_S_S4196352 : (⟨S_, .i32⟩ : BufTy).Contents (Elt F) → (⟨S4196352, .i32⟩ : BufTy).Contents (Elt F)) : HloOp τ sig (Elt F)).result W (Proc.devRef .tc main_v60) = (broadcastInDim S4196352 ![] bcast_S_S4196352 : (⟨S_, .i32⟩ : BufTy).Contents (Elt F) → (⟨S4196352, .i32⟩ : BufTy).Contents (Elt F)) (W (Proc.devRef .tc main_c_23)) :=
  unary_result ..

theorem eq_main_v60 (V : Valuation τ sig (Elt F)) : after ops V (Proc.devRef .tc main_v60) = (broadcastInDim S4196352 ![] bcast_S_S4196352 : (⟨S_, .i32⟩ : BufTy).Contents (Elt F) → (⟨S4196352, .i32⟩ : BufTy).Contents (Elt F)) (after ops V (Proc.devRef .tc main_c_23)) :=
  (fixed V (unary main_c_23 main_v60 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[170]? = some (unary main_c_23 main_v60 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v60) (by simp only [unary_writes, Finset.mem_singleton])).trans (res_main_v60 (after ops V))

theorem val_main_v60 (V : Valuation τ sig (Elt F)) : after ops V (Proc.devRef .tc main_v60) = Stage.s_main_v60 (F := F) := by
  rw [eq_main_v60, val_main_c_23]
  rfl

theorem res_main_v61 (W : Valuation τ sig (Elt F)) : (binary main_v28 main_v60 main_v61 (cmpi .slt : (⟨S4196352, .i32⟩ : BufTy).Contents (Elt F) → (⟨S4196352, .i32⟩ : BufTy).Contents (Elt F) → (⟨S4196352, .i1⟩ : BufTy).Contents (Elt F)) : HloOp τ sig (Elt F)).result W (Proc.devRef .tc main_v61) = (cmpi .slt : (⟨S4196352, .i32⟩ : BufTy).Contents (Elt F) → (⟨S4196352, .i32⟩ : BufTy).Contents (Elt F) → (⟨S4196352, .i1⟩ : BufTy).Contents (Elt F)) (W (Proc.devRef .tc main_v28)) (W (Proc.devRef .tc main_v60)) :=
  binary_result ..

theorem eq_main_v61 (V : Valuation τ sig (Elt F)) : after ops V (Proc.devRef .tc main_v61) = (cmpi .slt : (⟨S4196352, .i32⟩ : BufTy).Contents (Elt F) → (⟨S4196352, .i32⟩ : BufTy).Contents (Elt F) → (⟨S4196352, .i1⟩ : BufTy).Contents (Elt F)) (after ops V (Proc.devRef .tc main_v28)) (after ops V (Proc.devRef .tc main_v60)) :=
  (fixed V (binary main_v28 main_v60 main_v61 (cmpi .slt : (⟨S4196352, .i32⟩ : BufTy).Contents (Elt F) → (⟨S4196352, .i32⟩ : BufTy).Contents (Elt F) → (⟨S4196352, .i1⟩ : BufTy).Contents (Elt F)) : HloOp τ sig (Elt F)) (List.mem_of_getElem? (show (ops : List (HloOp τ sig (Elt F)))[171]? = some (binary main_v28 main_v60 main_v61 (cmpi .slt : (⟨S4196352, .i32⟩ : BufTy).Contents (Elt F) → (⟨S4196352, .i32⟩ : BufTy).Contents (Elt F) → (⟨S4196352, .i1⟩ : BufTy).Contents (Elt F)) : HloOp τ sig (Elt F)) from rfl)) (Proc.devRef .tc main_v61) (by simp only [binary_writes, Finset.mem_singleton])).trans (res_main_v61 (after ops V))

theorem val_main_v61 (V : Valuation τ sig (Elt F)) : after ops V (Proc.devRef .tc main_v61) = Stage.s_main_v61 (V (Proc.devRef .tc main_arg0)) := by
  rw [eq_main_v61, val_main_v28, val_main_v60]
  rfl

theorem res_main_c_24 (W : Valuation τ sig (Elt F)) : (nullary main_c_24 (constantI S_ 32 2048#32) : HloOp τ sig (Elt F)).result W (Proc.devRef .tc main_c_24) = (constantI S_ 32 2048#32) :=
  nullary_result ..

theorem eq_main_c_24 (V : Valuation τ sig (Elt F)) : after ops V (Proc.devRef .tc main_c_24) = (constantI S_ 32 2048#32) :=
  (fixed V (nullary main_c_24 (constantI S_ 32 2048#32) : HloOp τ sig (Elt F)) (List.mem_of_getElem? (show (ops : List (HloOp τ sig (Elt F)))[172]? = some (nullary main_c_24 (constantI S_ 32 2048#32) : HloOp τ sig (Elt F)) from rfl)) (Proc.devRef .tc main_c_24) (by simp only [nullary_writes, Finset.mem_singleton])).trans (res_main_c_24 (after ops V))

theorem val_main_c_24 (V : Valuation τ sig (Elt F)) : after ops V (Proc.devRef .tc main_c_24) = Stage.s_main_c_24 := by
  rw [eq_main_c_24]
  rfl

theorem res_main_v62 (W : Valuation τ sig (Elt F)) : (unary main_c_24 main_v62 (broadcastInDim S4196352 ![] bcast_S_S4196352 : (⟨S_, .i32⟩ : BufTy).Contents (Elt F) → (⟨S4196352, .i32⟩ : BufTy).Contents (Elt F)) : HloOp τ sig (Elt F)).result W (Proc.devRef .tc main_v62) = (broadcastInDim S4196352 ![] bcast_S_S4196352 : (⟨S_, .i32⟩ : BufTy).Contents (Elt F) → (⟨S4196352, .i32⟩ : BufTy).Contents (Elt F)) (W (Proc.devRef .tc main_c_24)) :=
  unary_result ..

theorem eq_main_v62 (V : Valuation τ sig (Elt F)) : after ops V (Proc.devRef .tc main_v62) = (broadcastInDim S4196352 ![] bcast_S_S4196352 : (⟨S_, .i32⟩ : BufTy).Contents (Elt F) → (⟨S4196352, .i32⟩ : BufTy).Contents (Elt F)) (after ops V (Proc.devRef .tc main_c_24)) :=
  (fixed V (unary main_c_24 main_v62 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[173]? = some (unary main_c_24 main_v62 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v62) (by simp only [unary_writes, Finset.mem_singleton])).trans (res_main_v62 (after ops V))

theorem val_main_v62 (V : Valuation τ sig (Elt F)) : after ops V (Proc.devRef .tc main_v62) = Stage.s_main_v62 (F := F) := by
  rw [eq_main_v62, val_main_c_24]
  rfl

theorem res_main_v63 (W : Valuation τ sig (Elt F)) : (binary main_v28 main_v62 main_v63 (addi : (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v63) = (addi : (⟨S4196352, .i32⟩ : BufTy).Contents (Elt F) → (⟨S4196352, .i32⟩ : BufTy).Contents (Elt F) → (⟨S4196352, .i32⟩ : BufTy).Contents (Elt F)) (W (Proc.devRef .tc main_v28)) (W (Proc.devRef .tc main_v62)) :=
  binary_result ..

theorem eq_main_v63 (V : Valuation τ sig (Elt F)) : after ops V (Proc.devRef .tc main_v63) = (addi : (⟨S4196352, .i32⟩ : BufTy).Contents (Elt F) → (⟨S4196352, .i32⟩ : BufTy).Contents (Elt F) → (⟨S4196352, .i32⟩ : BufTy).Contents (Elt F)) (after ops V (Proc.devRef .tc main_v28)) (after ops V (Proc.devRef .tc main_v62)) :=
  (fixed V (binary main_v28 main_v62 main_v63 (addi : (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[174]? = some (binary main_v28 main_v62 main_v63 (addi : (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v63) (by simp only [binary_writes, Finset.mem_singleton])).trans (res_main_v63 (after ops V))

theorem val_main_v63 (V : Valuation τ sig (Elt F)) : after ops V (Proc.devRef .tc main_v63) = Stage.s_main_v63 (V (Proc.devRef .tc main_arg0)) := by
  rw [eq_main_v63, val_main_v28, val_main_v62]
  rfl

theorem res_main_v64 (W : Valuation τ sig (Elt F)) : (ternary main_v61 main_v63 main_v28 main_v64 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v64) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (W (Proc.devRef .tc main_v61)) (W (Proc.devRef .tc main_v63)) (W (Proc.devRef .tc main_v28)) :=
  ternary_result ..

theorem eq_main_v64 (V : Valuation τ sig (Elt F)) : after ops V (Proc.devRef .tc main_v64) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (after ops V (Proc.devRef .tc main_v61)) (after ops V (Proc.devRef .tc main_v63)) (after ops V (Proc.devRef .tc main_v28)) :=
  (fixed V (ternary main_v61 main_v63 main_v28 main_v64 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[175]? = some (ternary main_v61 main_v63 main_v28 main_v64 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v64) (by simp only [ternary_writes, Finset.mem_singleton])).trans (res_main_v64 (after ops V))

theorem val_main_v64 (V : Valuation τ sig (Elt F)) : after ops V (Proc.devRef .tc main_v64) = Stage.s_main_v64 (V (Proc.devRef .tc main_arg0)) := by
  rw [eq_main_v64, val_main_v61, val_main_v63, val_main_v28]
  rfl

theorem res_main_v65 (W : Valuation τ sig (Elt F)) : (unary main_v64 main_v65 (broadcastInDim S4196352x1 ![0] bcast_S4196352_S4196352x1_0 : (⟨S4196352, .i32⟩ : BufTy).Contents (Elt F) → (⟨S4196352x1, .i32⟩ : BufTy).Contents (Elt F)) : HloOp τ sig (Elt F)).result W (Proc.devRef .tc main_v65) = (broadcastInDim S4196352x1 ![0] bcast_S4196352_S4196352x1_0 : (⟨S4196352, .i32⟩ : BufTy).Contents (Elt F) → (⟨S4196352x1, .i32⟩ : BufTy).Contents (Elt F)) (W (Proc.devRef .tc main_v64)) :=
  unary_result ..

theorem eq_main_v65 (V : Valuation τ sig (Elt F)) : after ops V (Proc.devRef .tc main_v65) = (broadcastInDim S4196352x1 ![0] bcast_S4196352_S4196352x1_0 : (⟨S4196352, .i32⟩ : BufTy).Contents (Elt F) → (⟨S4196352x1, .i32⟩ : BufTy).Contents (Elt F)) (after ops V (Proc.devRef .tc main_v64)) :=
  (fixed V (unary main_v64 main_v65 (broadcastInDim S4196352x1 ![0] bcast_S4196352_S4196352x1_0 : (⟨S4196352, .i32⟩ : BufTy).Contents (Elt F) → (⟨S4196352x1, .i32⟩ : BufTy).Contents (Elt F)) : HloOp τ sig (Elt F)) (List.mem_of_getElem? (show (ops : List (HloOp τ sig (Elt F)))[176]? = some (unary main_v64 main_v65 (broadcastInDim S4196352x1 ![0] bcast_S4196352_S4196352x1_0 : (⟨S4196352, .i32⟩ : BufTy).Contents (Elt F) → (⟨S4196352x1, .i32⟩ : BufTy).Contents (Elt F)) : HloOp τ sig (Elt F)) from rfl)) (Proc.devRef .tc main_v65) (by simp only [unary_writes, Finset.mem_singleton])).trans (res_main_v65 (after ops V))

theorem val_main_v65 (V : Valuation τ sig (Elt F)) : after ops V (Proc.devRef .tc main_v65) = Stage.s_main_v65 (V (Proc.devRef .tc main_arg0)) := by
  rw [eq_main_v65, val_main_v64]
  rfl

theorem res_main_v66 (W : Valuation τ sig (Elt F)) : (binary main_v26 main_v65 main_v66 ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)) : HloOp τ sig (Elt F)).result W (Proc.devRef .tc main_v66) = ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)) (W (Proc.devRef .tc main_v26)) (W (Proc.devRef .tc main_v65)) :=
  binary_result ..

theorem eq_main_v66 (V : Valuation τ sig (Elt F)) : after ops V (Proc.devRef .tc main_v66) = ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)) (after ops V (Proc.devRef .tc main_v26)) (after ops V (Proc.devRef .tc main_v65)) :=
  (fixed V (binary main_v26 main_v65 main_v66 ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)) : HloOp τ sig (Elt F)) (List.mem_of_getElem? (show (ops : List (HloOp τ sig (Elt F)))[177]? = some (binary main_v26 main_v65 main_v66 ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)) : HloOp τ sig (Elt F)) from rfl)) (Proc.devRef .tc main_v66) (by simp only [binary_writes, Finset.mem_singleton])).trans (res_main_v66 (after ops V))

theorem val_main_v66 (V : Valuation τ sig (Elt F)) : after ops V (Proc.devRef .tc main_v66) = Stage.s_main_v66 (V (Proc.devRef .tc main_arg0)) (V (Proc.devRef .tc main_arg1)) := by
  rw [eq_main_v66, val_main_v26, val_main_v65]
  rfl

theorem res_main_v67 (W : Valuation τ sig (Elt F)) : (unary main_v59 main_v67 (broadcastInDim S4196352x1 ![0] bcast_S4196352_S4196352x1_0 : (⟨S4196352, .f32⟩ : BufTy).Contents (Elt F) → (⟨S4196352x1, .f32⟩ : BufTy).Contents (Elt F)) : HloOp τ sig (Elt F)).result W (Proc.devRef .tc main_v67) = (broadcastInDim S4196352x1 ![0] bcast_S4196352_S4196352x1_0 : (⟨S4196352, .f32⟩ : BufTy).Contents (Elt F) → (⟨S4196352x1, .f32⟩ : BufTy).Contents (Elt F)) (W (Proc.devRef .tc main_v59)) :=
  unary_result ..

theorem eq_main_v67 (V : Valuation τ sig (Elt F)) : after ops V (Proc.devRef .tc main_v67) = (broadcastInDim S4196352x1 ![0] bcast_S4196352_S4196352x1_0 : (⟨S4196352, .f32⟩ : BufTy).Contents (Elt F) → (⟨S4196352x1, .f32⟩ : BufTy).Contents (Elt F)) (after ops V (Proc.devRef .tc main_v59)) :=
  (fixed V (unary main_v59 main_v67 (broadcastInDim S4196352x1 ![0] bcast_S4196352_S4196352x1_0 : (⟨S4196352, .f32⟩ : BufTy).Contents (Elt F) → (⟨S4196352x1, .f32⟩ : BufTy).Contents (Elt F)) : HloOp τ sig (Elt F)) (List.mem_of_getElem? (show (ops : List (HloOp τ sig (Elt F)))[178]? = some (unary main_v59 main_v67 (broadcastInDim S4196352x1 ![0] bcast_S4196352_S4196352x1_0 : (⟨S4196352, .f32⟩ : BufTy).Contents (Elt F) → (⟨S4196352x1, .f32⟩ : BufTy).Contents (Elt F)) : HloOp τ sig (Elt F)) from rfl)) (Proc.devRef .tc main_v67) (by simp only [unary_writes, Finset.mem_singleton])).trans (res_main_v67 (after ops V))

theorem val_main_v67 (V : Valuation τ sig (Elt F)) : after ops V (Proc.devRef .tc main_v67) = Stage.s_main_v67 (V (Proc.devRef .tc main_arg0)) := by
  rw [eq_main_v67, val_main_v59]
  rfl

theorem res_main_v68 (W : Valuation τ sig (Elt F)) : (unary main_v67 main_v68 (broadcastInDim S4196352x32 ![0, 1] bcast_S4196352x1_S4196352x32_0_1 : (⟨S4196352x1, .f32⟩ : BufTy).Contents (Elt F) → (⟨S4196352x32, .f32⟩ : BufTy).Contents (Elt F)) : HloOp τ sig (Elt F)).result W (Proc.devRef .tc main_v68) = (broadcastInDim S4196352x32 ![0, 1] bcast_S4196352x1_S4196352x32_0_1 : (⟨S4196352x1, .f32⟩ : BufTy).Contents (Elt F) → (⟨S4196352x32, .f32⟩ : BufTy).Contents (Elt F)) (W (Proc.devRef .tc main_v67)) :=
  unary_result ..

theorem eq_main_v68 (V : Valuation τ sig (Elt F)) : after ops V (Proc.devRef .tc main_v68) = (broadcastInDim S4196352x32 ![0, 1] bcast_S4196352x1_S4196352x32_0_1 : (⟨S4196352x1, .f32⟩ : BufTy).Contents (Elt F) → (⟨S4196352x32, .f32⟩ : BufTy).Contents (Elt F)) (after ops V (Proc.devRef .tc main_v67)) :=
  (fixed V (unary main_v67 main_v68 (broadcastInDim S4196352x32 ![0, 1] bcast_S4196352x1_S4196352x32_0_1 : (⟨S4196352x1, .f32⟩ : BufTy).Contents (Elt F) → (⟨S4196352x32, .f32⟩ : BufTy).Contents (Elt F)) : HloOp τ sig (Elt F)) (List.mem_of_getElem? (show (ops : List (HloOp τ sig (Elt F)))[179]? = some (unary main_v67 main_v68 (broadcastInDim S4196352x32 ![0, 1] bcast_S4196352x1_S4196352x32_0_1 : (⟨S4196352x1, .f32⟩ : BufTy).Contents (Elt F) → (⟨S4196352x32, .f32⟩ : BufTy).Contents (Elt F)) : HloOp τ sig (Elt F)) from rfl)) (Proc.devRef .tc main_v68) (by simp only [unary_writes, Finset.mem_singleton])).trans (res_main_v68 (after ops V))

theorem val_main_v68 (V : Valuation τ sig (Elt F)) : after ops V (Proc.devRef .tc main_v68) = Stage.s_main_v68 (V (Proc.devRef .tc main_arg0)) := by
  rw [eq_main_v68, val_main_v67]
  rfl

theorem res_main_v69 (W : Valuation τ sig (Elt F)) : (binary main_v66 main_v68 main_v69 (mulf : (⟨S4196352x32, .f32⟩ : BufTy).Contents (Elt F) → (⟨S4196352x32, .f32⟩ : BufTy).Contents (Elt F) → (⟨S4196352x32, .f32⟩ : BufTy).Contents (Elt F)) : HloOp τ sig (Elt F)).result W (Proc.devRef .tc main_v69) = (mulf : (⟨S4196352x32, .f32⟩ : BufTy).Contents (Elt F) → (⟨S4196352x32, .f32⟩ : BufTy).Contents (Elt F) → (⟨S4196352x32, .f32⟩ : BufTy).Contents (Elt F)) (W (Proc.devRef .tc main_v66)) (W (Proc.devRef .tc main_v68)) :=
  binary_result ..

theorem eq_main_v69 (V : Valuation τ sig (Elt F)) : after ops V (Proc.devRef .tc main_v69) = (mulf : (⟨S4196352x32, .f32⟩ : BufTy).Contents (Elt F) → (⟨S4196352x32, .f32⟩ : BufTy).Contents (Elt F) → (⟨S4196352x32, .f32⟩ : BufTy).Contents (Elt F)) (after ops V (Proc.devRef .tc main_v66)) (after ops V (Proc.devRef .tc main_v68)) :=
  (fixed V (binary main_v66 main_v68 main_v69 (mulf : (⟨S4196352x32, .f32⟩ : BufTy).Contents (Elt F) → (⟨S4196352x32, .f32⟩ : BufTy).Contents (Elt F) → (⟨S4196352x32, .f32⟩ : BufTy).Contents (Elt F)) : HloOp τ sig (Elt F)) (List.mem_of_getElem? (show (ops : List (HloOp τ sig (Elt F)))[180]? = some (binary main_v66 main_v68 main_v69 (mulf : (⟨S4196352x32, .f32⟩ : BufTy).Contents (Elt F) → (⟨S4196352x32, .f32⟩ : BufTy).Contents (Elt F) → (⟨S4196352x32, .f32⟩ : BufTy).Contents (Elt F)) : HloOp τ sig (Elt F)) from rfl)) (Proc.devRef .tc main_v69) (by simp only [binary_writes, Finset.mem_singleton])).trans (res_main_v69 (after ops V))

theorem val_main_v69 (V : Valuation τ sig (Elt F)) : after ops V (Proc.devRef .tc main_v69) = Stage.s_main_v69 (V (Proc.devRef .tc main_arg0)) (V (Proc.devRef .tc main_arg1)) := by
  rw [eq_main_v69, val_main_v66, val_main_v68]
  rfl

theorem res_main_cst_25 (W : Valuation τ sig (Elt F)) : (nullary main_cst_25 (constant S_ .f32 0x00000000#32) : HloOp τ sig (Elt F)).result W (Proc.devRef .tc main_cst_25) = (constant (F := F) S_ .f32 0x00000000#32) :=
  nullary_result ..

theorem eq_main_cst_25 (V : Valuation τ sig (Elt F)) : after ops V (Proc.devRef .tc main_cst_25) = (constant (F := F) S_ .f32 0x00000000#32) :=
  (fixed V (nullary main_cst_25 (constant S_ .f32 0x00000000#32) : HloOp τ sig (Elt F)) (List.mem_of_getElem? (show (ops : List (HloOp τ sig (Elt F)))[181]? = some (nullary main_cst_25 (constant S_ .f32 0x00000000#32) : HloOp τ sig (Elt F)) from rfl)) (Proc.devRef .tc main_cst_25) (by simp only [nullary_writes, Finset.mem_singleton])).trans (res_main_cst_25 (after ops V))

theorem val_main_cst_25 (V : Valuation τ sig (Elt F)) : after ops V (Proc.devRef .tc main_cst_25) = Stage.s_main_cst_25 (F := F) := by
  rw [eq_main_cst_25]
  rfl

theorem res_main_v70 (W : Valuation τ sig (Elt F)) : (unary main_cst_25 main_v70 (broadcastInDim S2048x32 ![] bcast_S_S2048x32 : (⟨S_, .f32⟩ : BufTy).Contents (Elt F) → (⟨S2048x32, .f32⟩ : BufTy).Contents (Elt F)) : HloOp τ sig (Elt F)).result W (Proc.devRef .tc main_v70) = (broadcastInDim S2048x32 ![] bcast_S_S2048x32 : (⟨S_, .f32⟩ : BufTy).Contents (Elt F) → (⟨S2048x32, .f32⟩ : BufTy).Contents (Elt F)) (W (Proc.devRef .tc main_cst_25)) :=
  unary_result ..

theorem eq_main_v70 (V : Valuation τ sig (Elt F)) : after ops V (Proc.devRef .tc main_v70) = (broadcastInDim S2048x32 ![] bcast_S_S2048x32 : (⟨S_, .f32⟩ : BufTy).Contents (Elt F) → (⟨S2048x32, .f32⟩ : BufTy).Contents (Elt F)) (after ops V (Proc.devRef .tc main_cst_25)) :=
  (fixed V (unary main_cst_25 main_v70 (broadcastInDim S2048x32 ![] bcast_S_S2048x32 : (⟨S_, .f32⟩ : BufTy).Contents (Elt F) → (⟨S2048x32, .f32⟩ : BufTy).Contents (Elt F)) : HloOp τ sig (Elt F)) (List.mem_of_getElem? (show (ops : List (HloOp τ sig (Elt F)))[182]? = some (unary main_cst_25 main_v70 (broadcastInDim S2048x32 ![] bcast_S_S2048x32 : (⟨S_, .f32⟩ : BufTy).Contents (Elt F) → (⟨S2048x32, .f32⟩ : BufTy).Contents (Elt F)) : HloOp τ sig (Elt F)) from rfl)) (Proc.devRef .tc main_v70) (by simp only [unary_writes, Finset.mem_singleton])).trans (res_main_v70 (after ops V))

theorem val_main_v70 (V : Valuation τ sig (Elt F)) : after ops V (Proc.devRef .tc main_v70) = Stage.s_main_v70 (F := F) := by
  rw [eq_main_v70, val_main_cst_25]
  rfl

theorem res_main_c_26 (W : Valuation τ sig (Elt F)) : (nullary main_c_26 (constantI S_ 32 0#32) : HloOp τ sig (Elt F)).result W (Proc.devRef .tc main_c_26) = (constantI S_ 32 0#32) :=
  nullary_result ..

theorem eq_main_c_26 (V : Valuation τ sig (Elt F)) : after ops V (Proc.devRef .tc main_c_26) = (constantI S_ 32 0#32) :=
  (fixed V (nullary main_c_26 (constantI S_ 32 0#32) : HloOp τ sig (Elt F)) (List.mem_of_getElem? (show (ops : List (HloOp τ sig (Elt F)))[183]? = some (nullary main_c_26 (constantI S_ 32 0#32) : HloOp τ sig (Elt F)) from rfl)) (Proc.devRef .tc main_c_26) (by simp only [nullary_writes, Finset.mem_singleton])).trans (res_main_c_26 (after ops V))

theorem val_main_c_26 (V : Valuation τ sig (Elt F)) : after ops V (Proc.devRef .tc main_c_26) = Stage.s_main_c_26 := by
  rw [eq_main_c_26]
  rfl

theorem res_main_v71 (W : Valuation τ sig (Elt F)) : (unary main_c_26 main_v71 (broadcastInDim S4196352 ![] bcast_S_S4196352 : (⟨S_, .i32⟩ : BufTy).Contents (Elt F) → (⟨S4196352, .i32⟩ : BufTy).Contents (Elt F)) : HloOp τ sig (Elt F)).result W (Proc.devRef .tc main_v71) = (broadcastInDim S4196352 ![] bcast_S_S4196352 : (⟨S_, .i32⟩ : BufTy).Contents (Elt F) → (⟨S4196352, .i32⟩ : BufTy).Contents (Elt F)) (W (Proc.devRef .tc main_c_26)) :=
  unary_result ..

theorem eq_main_v71 (V : Valuation τ sig (Elt F)) : after ops V (Proc.devRef .tc main_v71) = (broadcastInDim S4196352 ![] bcast_S_S4196352 : (⟨S_, .i32⟩ : BufTy).Contents (Elt F) → (⟨S4196352, .i32⟩ : BufTy).Contents (Elt F)) (after ops V (Proc.devRef .tc main_c_26)) :=
  (fixed V (unary main_c_26 main_v71 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[184]? = some (unary main_c_26 main_v71 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v71) (by simp only [unary_writes, Finset.mem_singleton])).trans (res_main_v71 (after ops V))

theorem val_main_v71 (V : Valuation τ sig (Elt F)) : after ops V (Proc.devRef .tc main_v71) = Stage.s_main_v71 (F := F) := by
  rw [eq_main_v71, val_main_c_26]
  rfl

theorem res_main_v72 (W : Valuation τ sig (Elt F)) : (binary main_v29 main_v71 main_v72 (cmpi .slt : (⟨S4196352, .i32⟩ : BufTy).Contents (Elt F) → (⟨S4196352, .i32⟩ : BufTy).Contents (Elt F) → (⟨S4196352, .i1⟩ : BufTy).Contents (Elt F)) : HloOp τ sig (Elt F)).result W (Proc.devRef .tc main_v72) = (cmpi .slt : (⟨S4196352, .i32⟩ : BufTy).Contents (Elt F) → (⟨S4196352, .i32⟩ : BufTy).Contents (Elt F) → (⟨S4196352, .i1⟩ : BufTy).Contents (Elt F)) (W (Proc.devRef .tc main_v29)) (W (Proc.devRef .tc main_v71)) :=
  binary_result ..

theorem eq_main_v72 (V : Valuation τ sig (Elt F)) : after ops V (Proc.devRef .tc main_v72) = (cmpi .slt : (⟨S4196352, .i32⟩ : BufTy).Contents (Elt F) → (⟨S4196352, .i32⟩ : BufTy).Contents (Elt F) → (⟨S4196352, .i1⟩ : BufTy).Contents (Elt F)) (after ops V (Proc.devRef .tc main_v29)) (after ops V (Proc.devRef .tc main_v71)) :=
  (fixed V (binary main_v29 main_v71 main_v72 (cmpi .slt : (⟨S4196352, .i32⟩ : BufTy).Contents (Elt F) → (⟨S4196352, .i32⟩ : BufTy).Contents (Elt F) → (⟨S4196352, .i1⟩ : BufTy).Contents (Elt F)) : HloOp τ sig (Elt F)) (List.mem_of_getElem? (show (ops : List (HloOp τ sig (Elt F)))[185]? = some (binary main_v29 main_v71 main_v72 (cmpi .slt : (⟨S4196352, .i32⟩ : BufTy).Contents (Elt F) → (⟨S4196352, .i32⟩ : BufTy).Contents (Elt F) → (⟨S4196352, .i1⟩ : BufTy).Contents (Elt F)) : HloOp τ sig (Elt F)) from rfl)) (Proc.devRef .tc main_v72) (by simp only [binary_writes, Finset.mem_singleton])).trans (res_main_v72 (after ops V))

theorem val_main_v72 (V : Valuation τ sig (Elt F)) : after ops V (Proc.devRef .tc main_v72) = Stage.s_main_v72 (V (Proc.devRef .tc main_arg0)) := by
  rw [eq_main_v72, val_main_v29, val_main_v71]
  rfl

theorem res_main_c_27 (W : Valuation τ sig (Elt F)) : (nullary main_c_27 (constantI S_ 32 2048#32) : HloOp τ sig (Elt F)).result W (Proc.devRef .tc main_c_27) = (constantI S_ 32 2048#32) :=
  nullary_result ..

theorem eq_main_c_27 (V : Valuation τ sig (Elt F)) : after ops V (Proc.devRef .tc main_c_27) = (constantI S_ 32 2048#32) :=
  (fixed V (nullary main_c_27 (constantI S_ 32 2048#32) : HloOp τ sig (Elt F)) (List.mem_of_getElem? (show (ops : List (HloOp τ sig (Elt F)))[186]? = some (nullary main_c_27 (constantI S_ 32 2048#32) : HloOp τ sig (Elt F)) from rfl)) (Proc.devRef .tc main_c_27) (by simp only [nullary_writes, Finset.mem_singleton])).trans (res_main_c_27 (after ops V))

theorem val_main_c_27 (V : Valuation τ sig (Elt F)) : after ops V (Proc.devRef .tc main_c_27) = Stage.s_main_c_27 := by
  rw [eq_main_c_27]
  rfl

theorem res_main_v73 (W : Valuation τ sig (Elt F)) : (unary main_c_27 main_v73 (broadcastInDim S4196352 ![] bcast_S_S4196352 : (⟨S_, .i32⟩ : BufTy).Contents (Elt F) → (⟨S4196352, .i32⟩ : BufTy).Contents (Elt F)) : HloOp τ sig (Elt F)).result W (Proc.devRef .tc main_v73) = (broadcastInDim S4196352 ![] bcast_S_S4196352 : (⟨S_, .i32⟩ : BufTy).Contents (Elt F) → (⟨S4196352, .i32⟩ : BufTy).Contents (Elt F)) (W (Proc.devRef .tc main_c_27)) :=
  unary_result ..

theorem eq_main_v73 (V : Valuation τ sig (Elt F)) : after ops V (Proc.devRef .tc main_v73) = (broadcastInDim S4196352 ![] bcast_S_S4196352 : (⟨S_, .i32⟩ : BufTy).Contents (Elt F) → (⟨S4196352, .i32⟩ : BufTy).Contents (Elt F)) (after ops V (Proc.devRef .tc main_c_27)) :=
  (fixed V (unary main_c_27 main_v73 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[187]? = some (unary main_c_27 main_v73 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v73) (by simp only [unary_writes, Finset.mem_singleton])).trans (res_main_v73 (after ops V))

theorem val_main_v73 (V : Valuation τ sig (Elt F)) : after ops V (Proc.devRef .tc main_v73) = Stage.s_main_v73 (F := F) := by
  rw [eq_main_v73, val_main_c_27]
  rfl

theorem res_main_v74 (W : Valuation τ sig (Elt F)) : (binary main_v29 main_v73 main_v74 (addi : (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v74) = (addi : (⟨S4196352, .i32⟩ : BufTy).Contents (Elt F) → (⟨S4196352, .i32⟩ : BufTy).Contents (Elt F) → (⟨S4196352, .i32⟩ : BufTy).Contents (Elt F)) (W (Proc.devRef .tc main_v29)) (W (Proc.devRef .tc main_v73)) :=
  binary_result ..

theorem eq_main_v74 (V : Valuation τ sig (Elt F)) : after ops V (Proc.devRef .tc main_v74) = (addi : (⟨S4196352, .i32⟩ : BufTy).Contents (Elt F) → (⟨S4196352, .i32⟩ : BufTy).Contents (Elt F) → (⟨S4196352, .i32⟩ : BufTy).Contents (Elt F)) (after ops V (Proc.devRef .tc main_v29)) (after ops V (Proc.devRef .tc main_v73)) :=
  (fixed V (binary main_v29 main_v73 main_v74 (addi : (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[188]? = some (binary main_v29 main_v73 main_v74 (addi : (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v74) (by simp only [binary_writes, Finset.mem_singleton])).trans (res_main_v74 (after ops V))

theorem val_main_v74 (V : Valuation τ sig (Elt F)) : after ops V (Proc.devRef .tc main_v74) = Stage.s_main_v74 (V (Proc.devRef .tc main_arg0)) := by
  rw [eq_main_v74, val_main_v29, val_main_v73]
  rfl

theorem res_main_v75 (W : Valuation τ sig (Elt F)) : (ternary main_v72 main_v74 main_v29 main_v75 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v75) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (W (Proc.devRef .tc main_v72)) (W (Proc.devRef .tc main_v74)) (W (Proc.devRef .tc main_v29)) :=
  ternary_result ..

theorem eq_main_v75 (V : Valuation τ sig (Elt F)) : after ops V (Proc.devRef .tc main_v75) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (after ops V (Proc.devRef .tc main_v72)) (after ops V (Proc.devRef .tc main_v74)) (after ops V (Proc.devRef .tc main_v29)) :=
  (fixed V (ternary main_v72 main_v74 main_v29 main_v75 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[189]? = some (ternary main_v72 main_v74 main_v29 main_v75 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v75) (by simp only [ternary_writes, Finset.mem_singleton])).trans (res_main_v75 (after ops V))

theorem val_main_v75 (V : Valuation τ sig (Elt F)) : after ops V (Proc.devRef .tc main_v75) = Stage.s_main_v75 (V (Proc.devRef .tc main_arg0)) := by
  rw [eq_main_v75, val_main_v72, val_main_v74, val_main_v29]
  rfl

theorem res_main_v76 (W : Valuation τ sig (Elt F)) : (unary main_v75 main_v76 (broadcastInDim S4196352x1 ![0] bcast_S4196352_S4196352x1_0 : (⟨S4196352, .i32⟩ : BufTy).Contents (Elt F) → (⟨S4196352x1, .i32⟩ : BufTy).Contents (Elt F)) : HloOp τ sig (Elt F)).result W (Proc.devRef .tc main_v76) = (broadcastInDim S4196352x1 ![0] bcast_S4196352_S4196352x1_0 : (⟨S4196352, .i32⟩ : BufTy).Contents (Elt F) → (⟨S4196352x1, .i32⟩ : BufTy).Contents (Elt F)) (W (Proc.devRef .tc main_v75)) :=
  unary_result ..

theorem eq_main_v76 (V : Valuation τ sig (Elt F)) : after ops V (Proc.devRef .tc main_v76) = (broadcastInDim S4196352x1 ![0] bcast_S4196352_S4196352x1_0 : (⟨S4196352, .i32⟩ : BufTy).Contents (Elt F) → (⟨S4196352x1, .i32⟩ : BufTy).Contents (Elt F)) (after ops V (Proc.devRef .tc main_v75)) :=
  (fixed V (unary main_v75 main_v76 (broadcastInDim S4196352x1 ![0] bcast_S4196352_S4196352x1_0 : (⟨S4196352, .i32⟩ : BufTy).Contents (Elt F) → (⟨S4196352x1, .i32⟩ : BufTy).Contents (Elt F)) : HloOp τ sig (Elt F)) (List.mem_of_getElem? (show (ops : List (HloOp τ sig (Elt F)))[190]? = some (unary main_v75 main_v76 (broadcastInDim S4196352x1 ![0] bcast_S4196352_S4196352x1_0 : (⟨S4196352, .i32⟩ : BufTy).Contents (Elt F) → (⟨S4196352x1, .i32⟩ : BufTy).Contents (Elt F)) : HloOp τ sig (Elt F)) from rfl)) (Proc.devRef .tc main_v76) (by simp only [unary_writes, Finset.mem_singleton])).trans (res_main_v76 (after ops V))

theorem val_main_v76 (V : Valuation τ sig (Elt F)) : after ops V (Proc.devRef .tc main_v76) = Stage.s_main_v76 (V (Proc.devRef .tc main_arg0)) := by
  rw [eq_main_v76, val_main_v75]
  rfl

theorem res_main_v77 (W : Valuation τ sig (Elt F)) : (ternary main_v70 main_v76 main_v69 main_v77 ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)) : HloOp τ sig (Elt F)).result W (Proc.devRef .tc main_v77) = ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)) (W (Proc.devRef .tc main_v70)) (W (Proc.devRef .tc main_v76)) (W (Proc.devRef .tc main_v69)) :=
  ternary_result ..

theorem eq_main_v77 (V : Valuation τ sig (Elt F)) : after ops V (Proc.devRef .tc main_v77) = ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)) (after ops V (Proc.devRef .tc main_v70)) (after ops V (Proc.devRef .tc main_v76)) (after ops V (Proc.devRef .tc main_v69)) :=
  (fixed V (ternary main_v70 main_v76 main_v69 main_v77 ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)) : HloOp τ sig (Elt F)) (List.mem_of_getElem? (show (ops : List (HloOp τ sig (Elt F)))[191]? = some (ternary main_v70 main_v76 main_v69 main_v77 ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)) : HloOp τ sig (Elt F)) from rfl)) (Proc.devRef .tc main_v77) (by simp only [ternary_writes, Finset.mem_singleton])).trans (res_main_v77 (after ops V))

theorem val_main_v77 (V : Valuation τ sig (Elt F)) : after ops V (Proc.devRef .tc main_v77) = Stage.s_main_v77 (V (Proc.devRef .tc main_arg0)) (V (Proc.devRef .tc main_arg1)) := by
  rw [eq_main_v77, val_main_v70, val_main_v76, val_main_v69]
  rfl

theorem res_main_v78 (W : Valuation τ sig (Elt F)) : (unary main_arg2 main_v78 (broadcastInDim S1x32 ![1] bcast_S32_S1x32_1 : (⟨S32, .f32⟩ : BufTy).Contents (Elt F) → (⟨S1x32, .f32⟩ : BufTy).Contents (Elt F)) : HloOp τ sig (Elt F)).result W (Proc.devRef .tc main_v78) = (broadcastInDim S1x32 ![1] bcast_S32_S1x32_1 : (⟨S32, .f32⟩ : BufTy).Contents (Elt F) → (⟨S1x32, .f32⟩ : BufTy).Contents (Elt F)) (W (Proc.devRef .tc main_arg2)) :=
  unary_result ..

theorem eq_main_v78 (V : Valuation τ sig (Elt F)) : after ops V (Proc.devRef .tc main_v78) = (broadcastInDim S1x32 ![1] bcast_S32_S1x32_1 : (⟨S32, .f32⟩ : BufTy).Contents (Elt F) → (⟨S1x32, .f32⟩ : BufTy).Contents (Elt F)) (after ops V (Proc.devRef .tc main_arg2)) :=
  (fixed V (unary main_arg2 main_v78 (broadcastInDim S1x32 ![1] bcast_S32_S1x32_1 : (⟨S32, .f32⟩ : BufTy).Contents (Elt F) → (⟨S1x32, .f32⟩ : BufTy).Contents (Elt F)) : HloOp τ sig (Elt F)) (List.mem_of_getElem? (show (ops : List (HloOp τ sig (Elt F)))[192]? = some (unary main_arg2 main_v78 (broadcastInDim S1x32 ![1] bcast_S32_S1x32_1 : (⟨S32, .f32⟩ : BufTy).Contents (Elt F) → (⟨S1x32, .f32⟩ : BufTy).Contents (Elt F)) : HloOp τ sig (Elt F)) from rfl)) (Proc.devRef .tc main_v78) (by simp only [unary_writes, Finset.mem_singleton])).trans (res_main_v78 (after ops V))

theorem val_main_v78 (V : Valuation τ sig (Elt F)) : after ops V (Proc.devRef .tc main_v78) = Stage.s_main_v78 (V (Proc.devRef .tc main_arg2)) := by
  rw [eq_main_v78, arg2_kept]
  rfl

theorem res_main_v79 (W : Valuation τ sig (Elt F)) : (unary main_v78 main_v79 (broadcastInDim S2048x32 ![0, 1] bcast_S1x32_S2048x32_0_1 : (⟨S1x32, .f32⟩ : BufTy).Contents (Elt F) → (⟨S2048x32, .f32⟩ : BufTy).Contents (Elt F)) : HloOp τ sig (Elt F)).result W (Proc.devRef .tc main_v79) = (broadcastInDim S2048x32 ![0, 1] bcast_S1x32_S2048x32_0_1 : (⟨S1x32, .f32⟩ : BufTy).Contents (Elt F) → (⟨S2048x32, .f32⟩ : BufTy).Contents (Elt F)) (W (Proc.devRef .tc main_v78)) :=
  unary_result ..

theorem eq_main_v79 (V : Valuation τ sig (Elt F)) : after ops V (Proc.devRef .tc main_v79) = (broadcastInDim S2048x32 ![0, 1] bcast_S1x32_S2048x32_0_1 : (⟨S1x32, .f32⟩ : BufTy).Contents (Elt F) → (⟨S2048x32, .f32⟩ : BufTy).Contents (Elt F)) (after ops V (Proc.devRef .tc main_v78)) :=
  (fixed V (unary main_v78 main_v79 (broadcastInDim S2048x32 ![0, 1] bcast_S1x32_S2048x32_0_1 : (⟨S1x32, .f32⟩ : BufTy).Contents (Elt F) → (⟨S2048x32, .f32⟩ : BufTy).Contents (Elt F)) : HloOp τ sig (Elt F)) (List.mem_of_getElem? (show (ops : List (HloOp τ sig (Elt F)))[193]? = some (unary main_v78 main_v79 (broadcastInDim S2048x32 ![0, 1] bcast_S1x32_S2048x32_0_1 : (⟨S1x32, .f32⟩ : BufTy).Contents (Elt F) → (⟨S2048x32, .f32⟩ : BufTy).Contents (Elt F)) : HloOp τ sig (Elt F)) from rfl)) (Proc.devRef .tc main_v79) (by simp only [unary_writes, Finset.mem_singleton])).trans (res_main_v79 (after ops V))

theorem val_main_v79 (V : Valuation τ sig (Elt F)) : after ops V (Proc.devRef .tc main_v79) = Stage.s_main_v79 (V (Proc.devRef .tc main_arg2)) := by
  rw [eq_main_v79, val_main_v78]
  rfl

theorem res_main_v80 (W : Valuation τ sig (Elt F)) : (binary main_v77 main_v79 main_v80 (addf : (⟨S2048x32, .f32⟩ : BufTy).Contents (Elt F) → (⟨S2048x32, .f32⟩ : BufTy).Contents (Elt F) → (⟨S2048x32, .f32⟩ : BufTy).Contents (Elt F)) : HloOp τ sig (Elt F)).result W (Proc.devRef .tc main_v80) = (addf : (⟨S2048x32, .f32⟩ : BufTy).Contents (Elt F) → (⟨S2048x32, .f32⟩ : BufTy).Contents (Elt F) → (⟨S2048x32, .f32⟩ : BufTy).Contents (Elt F)) (W (Proc.devRef .tc main_v77)) (W (Proc.devRef .tc main_v79)) :=
  binary_result ..

theorem eq_main_v80 (V : Valuation τ sig (Elt F)) : after ops V (Proc.devRef .tc main_v80) = (addf : (⟨S2048x32, .f32⟩ : BufTy).Contents (Elt F) → (⟨S2048x32, .f32⟩ : BufTy).Contents (Elt F) → (⟨S2048x32, .f32⟩ : BufTy).Contents (Elt F)) (after ops V (Proc.devRef .tc main_v77)) (after ops V (Proc.devRef .tc main_v79)) :=
  (fixed V (binary main_v77 main_v79 main_v80 (addf : (⟨S2048x32, .f32⟩ : BufTy).Contents (Elt F) → (⟨S2048x32, .f32⟩ : BufTy).Contents (Elt F) → (⟨S2048x32, .f32⟩ : BufTy).Contents (Elt F)) : HloOp τ sig (Elt F)) (List.mem_of_getElem? (show (ops : List (HloOp τ sig (Elt F)))[194]? = some (binary main_v77 main_v79 main_v80 (addf : (⟨S2048x32, .f32⟩ : BufTy).Contents (Elt F) → (⟨S2048x32, .f32⟩ : BufTy).Contents (Elt F) → (⟨S2048x32, .f32⟩ : BufTy).Contents (Elt F)) : HloOp τ sig (Elt F)) from rfl)) (Proc.devRef .tc main_v80) (by simp only [binary_writes, Finset.mem_singleton])).trans (res_main_v80 (after ops V))

theorem val_main_v80 (V : Valuation τ sig (Elt F)) : after ops V (Proc.devRef .tc main_v80) = Stage.s_main_v80 (V (Proc.devRef .tc main_arg0)) (V (Proc.devRef .tc main_arg1)) (V (Proc.devRef .tc main_arg2)) := by
  rw [eq_main_v80, val_main_v77, val_main_v79]
  rfl

theorem res_main_call10_cst (W : Valuation τ sig (Elt F)) : (TRef.nullary main_call10.cst (constant S_ .f32 0x00000000#32) : HloOp τ sig (Elt F)).result W (Proc.devRef .tc main_call10_cst) = (constant (F := F) S_ .f32 0x00000000#32) :=
  nullary_result ..

theorem eq_main_call10_cst (V : Valuation τ sig (Elt F)) : after ops V (Proc.devRef .tc main_call10_cst) = (constant (F := F) S_ .f32 0x00000000#32) :=
  (fixed V (TRef.nullary main_call10.cst (constant S_ .f32 0x00000000#32) : HloOp τ sig (Elt F)) (List.mem_of_getElem? (show (ops : List (HloOp τ sig (Elt F)))[195]? = some (TRef.nullary main_call10.cst (constant S_ .f32 0x00000000#32) : HloOp τ sig (Elt F)) from rfl)) (Proc.devRef .tc main_call10_cst) (by simp only [nullary_writes, Finset.mem_singleton])).trans (res_main_call10_cst (after ops V))

theorem val_main_call10_cst (V : Valuation τ sig (Elt F)) : after ops V (Proc.devRef .tc main_call10_cst) = Stage.s_main_call10_cst (F := F) := by
  rw [eq_main_call10_cst]
  rfl

theorem res_main_call10_v0 (W : Valuation τ sig (Elt F)) : (TRef.unary main_call10.cst main_call10.v0 (broadcastInDim S2048x32 ![] bcast_S_S2048x32) : HloOp τ sig (Elt F)).result W (Proc.devRef .tc main_call10_v0) = ((broadcastInDim S2048x32 ![] bcast_S_S2048x32) : (⟨S_, .f32⟩ : BufTy).Contents (Elt F) → (⟨S2048x32, .f32⟩ : BufTy).Contents (Elt F)) (W (Proc.devRef .tc main_call10_cst)) :=
  unary_result ..

theorem eq_main_call10_v0 (V : Valuation τ sig (Elt F)) : after ops V (Proc.devRef .tc main_call10_v0) = ((broadcastInDim S2048x32 ![] bcast_S_S2048x32) : (⟨S_, .f32⟩ : BufTy).Contents (Elt F) → (⟨S2048x32, .f32⟩ : BufTy).Contents (Elt F)) (after ops V (Proc.devRef .tc main_call10_cst)) :=
  (fixed V (TRef.unary main_call10.cst main_call10.v0 (broadcastInDim S2048x32 ![] bcast_S_S2048x32) : HloOp τ sig (Elt F)) (List.mem_of_getElem? (show (ops : List (HloOp τ sig (Elt F)))[196]? = some (TRef.unary main_call10.cst main_call10.v0 (broadcastInDim S2048x32 ![] bcast_S_S2048x32) : HloOp τ sig (Elt F)) from rfl)) (Proc.devRef .tc main_call10_v0) (by simp only [unary_writes, Finset.mem_singleton])).trans (res_main_call10_v0 (after ops V))

theorem val_main_call10_v0 (V : Valuation τ sig (Elt F)) : after ops V (Proc.devRef .tc main_call10_v0) = Stage.s_main_call10_v0 (F := F) := by
  rw [eq_main_call10_v0, val_main_call10_cst]
  rfl

theorem res_main_v81 (W : Valuation τ sig (Elt F)) : (TRef.binary (TRef.of main_v80 : TRef sig ⟨S2048x32, .f32⟩) main_call10.v0 main_call10.v1 maximumf : HloOp τ sig (Elt F)).result W (Proc.devRef .tc main_v81) = (maximumf : (⟨S2048x32, .f32⟩ : BufTy).Contents (Elt F) → (⟨S2048x32, .f32⟩ : BufTy).Contents (Elt F) → (⟨S2048x32, .f32⟩ : BufTy).Contents (Elt F)) (W (Proc.devRef .tc main_v80)) (W (Proc.devRef .tc main_call10_v0)) :=
  binary_result ..

theorem eq_main_v81 (V : Valuation τ sig (Elt F)) : after ops V (Proc.devRef .tc main_v81) = (maximumf : (⟨S2048x32, .f32⟩ : BufTy).Contents (Elt F) → (⟨S2048x32, .f32⟩ : BufTy).Contents (Elt F) → (⟨S2048x32, .f32⟩ : BufTy).Contents (Elt F)) (after ops V (Proc.devRef .tc main_v80)) (after ops V (Proc.devRef .tc main_call10_v0)) :=
  (fixed V (TRef.binary (TRef.of main_v80 : TRef sig ⟨S2048x32, .f32⟩) main_call10.v0 main_call10.v1 maximumf : HloOp τ sig (Elt F)) (List.mem_of_getElem? (show (ops : List (HloOp τ sig (Elt F)))[197]? = some (TRef.binary (TRef.of main_v80 : TRef sig ⟨S2048x32, .f32⟩) main_call10.v0 main_call10.v1 maximumf : HloOp τ sig (Elt F)) from rfl)) (Proc.devRef .tc main_v81) (by simp only [binary_writes, Finset.mem_singleton])).trans (res_main_v81 (after ops V))

theorem val_main_v81 (V : Valuation τ sig (Elt F)) : after ops V (Proc.devRef .tc main_v81) = Stage.s_main_v81 (V (Proc.devRef .tc main_arg0)) (V (Proc.devRef .tc main_arg1)) (V (Proc.devRef .tc main_arg2)) := by
  rw [eq_main_v81, val_main_v80, val_main_call10_v0]
  rfl

theorem res_main_v82 (W : Valuation τ sig (Elt F)) : (binary main_v81 main_arg3 main_v82 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)) : HloOp τ sig (Elt F)).result W (Proc.devRef .tc main_v82) = ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)) (W (Proc.devRef .tc main_v81)) (W (Proc.devRef .tc main_arg3)) :=
  binary_result ..

theorem eq_main_v82 (V : Valuation τ sig (Elt F)) : after ops V (Proc.devRef .tc main_v82) = ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)) (after ops V (Proc.devRef .tc main_v81)) (after ops V (Proc.devRef .tc main_arg3)) :=
  (fixed V (binary main_v81 main_arg3 main_v82 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)) : HloOp τ sig (Elt F)) (List.mem_of_getElem? (show (ops : List (HloOp τ sig (Elt F)))[198]? = some (binary main_v81 main_arg3 main_v82 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)) : HloOp τ sig (Elt F)) from rfl)) (Proc.devRef .tc main_v82) (by simp only [binary_writes, Finset.mem_singleton])).trans (res_main_v82 (after ops V))

theorem val_main_v82 (V : Valuation τ sig (Elt F)) : after ops V (Proc.devRef .tc main_v82) = Stage.s_main_v82 (V (Proc.devRef .tc main_arg0)) (V (Proc.devRef .tc main_arg1)) (V (Proc.devRef .tc main_arg2)) (V (Proc.devRef .tc main_arg3)) := by
  rw [eq_main_v82, val_main_v81, arg3_kept]
  rfl

theorem res_main_v83 (W : Valuation τ sig (Elt F)) : (nullary main_v83 (iotaInDim S2048 32 0) : HloOp τ sig (Elt F)).result W (Proc.devRef .tc main_v83) = (iotaInDim S2048 32 0) :=
  nullary_result ..

theorem eq_main_v83 (V : Valuation τ sig (Elt F)) : after ops V (Proc.devRef .tc main_v83) = (iotaInDim S2048 32 0) :=
  (fixed V (nullary main_v83 (iotaInDim S2048 32 0) : HloOp τ sig (Elt F)) (List.mem_of_getElem? (show (ops : List (HloOp τ sig (Elt F)))[199]? = some (nullary main_v83 (iotaInDim S2048 32 0) : HloOp τ sig (Elt F)) from rfl)) (Proc.devRef .tc main_v83) (by simp only [nullary_writes, Finset.mem_singleton])).trans (res_main_v83 (after ops V))

theorem val_main_v83 (V : Valuation τ sig (Elt F)) : after ops V (Proc.devRef .tc main_v83) = Stage.s_main_v83 := by
  rw [eq_main_v83]
  rfl

theorem res_main_v84 (W : Valuation τ sig (Elt F)) : (binary main_v23 main_v83 main_v84 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) : HloOp τ sig (Elt F)).result W (Proc.devRef .tc main_v84) = ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) (W (Proc.devRef .tc main_v23)) (W (Proc.devRef .tc main_v83)) :=
  binary_result ..

theorem eq_main_v84 (V : Valuation τ sig (Elt F)) : after ops V (Proc.devRef .tc main_v84) = ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) (after ops V (Proc.devRef .tc main_v23)) (after ops V (Proc.devRef .tc main_v83)) :=
  (fixed V (binary main_v23 main_v83 main_v84 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) : HloOp τ sig (Elt F)) (List.mem_of_getElem? (show (ops : List (HloOp τ sig (Elt F)))[200]? = some (binary main_v23 main_v83 main_v84 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) : HloOp τ sig (Elt F)) from rfl)) (Proc.devRef .tc main_v84) (by simp only [binary_writes, Finset.mem_singleton])).trans (res_main_v84 (after ops V))

theorem val_main_v84 (V : Valuation τ sig (Elt F)) : after ops V (Proc.devRef .tc main_v84) = Stage.s_main_v84 (V (Proc.devRef .tc main_arg0)) := by
  rw [eq_main_v84, val_main_v23, val_main_v83]
  rfl

theorem res_main_v85 (W : Valuation τ sig (Elt F)) : (binary main_v24 main_v83 main_v85 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) : HloOp τ sig (Elt F)).result W (Proc.devRef .tc main_v85) = ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) (W (Proc.devRef .tc main_v24)) (W (Proc.devRef .tc main_v83)) :=
  binary_result ..

theorem eq_main_v85 (V : Valuation τ sig (Elt F)) : after ops V (Proc.devRef .tc main_v85) = ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) (after ops V (Proc.devRef .tc main_v24)) (after ops V (Proc.devRef .tc main_v83)) :=
  (fixed V (binary main_v24 main_v83 main_v85 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) : HloOp τ sig (Elt F)) (List.mem_of_getElem? (show (ops : List (HloOp τ sig (Elt F)))[201]? = some (binary main_v24 main_v83 main_v85 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) : HloOp τ sig (Elt F)) from rfl)) (Proc.devRef .tc main_v85) (by simp only [binary_writes, Finset.mem_singleton])).trans (res_main_v85 (after ops V))

theorem val_main_v85 (V : Valuation τ sig (Elt F)) : after ops V (Proc.devRef .tc main_v85) = Stage.s_main_v85 (V (Proc.devRef .tc main_arg0)) := by
  rw [eq_main_v85, val_main_v24, val_main_v83]
  rfl

theorem res_main_cst_28 (W : Valuation τ sig (Elt F)) : (nullary main_cst_28 (constant S_ .f32 0x00000000#32) : HloOp τ sig (Elt F)).result W (Proc.devRef .tc main_cst_28) = (constant (F := F) S_ .f32 0x00000000#32) :=
  nullary_result ..

theorem eq_main_cst_28 (V : Valuation τ sig (Elt F)) : after ops V (Proc.devRef .tc main_cst_28) = (constant (F := F) S_ .f32 0x00000000#32) :=
  (fixed V (nullary main_cst_28 (constant S_ .f32 0x00000000#32) : HloOp τ sig (Elt F)) (List.mem_of_getElem? (show (ops : List (HloOp τ sig (Elt F)))[202]? = some (nullary main_cst_28 (constant S_ .f32 0x00000000#32) : HloOp τ sig (Elt F)) from rfl)) (Proc.devRef .tc main_cst_28) (by simp only [nullary_writes, Finset.mem_singleton])).trans (res_main_cst_28 (after ops V))

theorem val_main_cst_28 (V : Valuation τ sig (Elt F)) : after ops V (Proc.devRef .tc main_cst_28) = Stage.s_main_cst_28 (F := F) := by
  rw [eq_main_cst_28]
  rfl

theorem res_main_v86 (W : Valuation τ sig (Elt F)) : (unary main_cst_28 main_v86 (broadcastInDim S2048 ![] bcast_S_S2048 : (⟨S_, .f32⟩ : BufTy).Contents (Elt F) → (⟨S2048, .f32⟩ : BufTy).Contents (Elt F)) : HloOp τ sig (Elt F)).result W (Proc.devRef .tc main_v86) = (broadcastInDim S2048 ![] bcast_S_S2048 : (⟨S_, .f32⟩ : BufTy).Contents (Elt F) → (⟨S2048, .f32⟩ : BufTy).Contents (Elt F)) (W (Proc.devRef .tc main_cst_28)) :=
  unary_result ..

theorem eq_main_v86 (V : Valuation τ sig (Elt F)) : after ops V (Proc.devRef .tc main_v86) = (broadcastInDim S2048 ![] bcast_S_S2048 : (⟨S_, .f32⟩ : BufTy).Contents (Elt F) → (⟨S2048, .f32⟩ : BufTy).Contents (Elt F)) (after ops V (Proc.devRef .tc main_cst_28)) :=
  (fixed V (unary main_cst_28 main_v86 (broadcastInDim S2048 ![] bcast_S_S2048 : (⟨S_, .f32⟩ : BufTy).Contents (Elt F) → (⟨S2048, .f32⟩ : BufTy).Contents (Elt F)) : HloOp τ sig (Elt F)) (List.mem_of_getElem? (show (ops : List (HloOp τ sig (Elt F)))[203]? = some (unary main_cst_28 main_v86 (broadcastInDim S2048 ![] bcast_S_S2048 : (⟨S_, .f32⟩ : BufTy).Contents (Elt F) → (⟨S2048, .f32⟩ : BufTy).Contents (Elt F)) : HloOp τ sig (Elt F)) from rfl)) (Proc.devRef .tc main_v86) (by simp only [unary_writes, Finset.mem_singleton])).trans (res_main_v86 (after ops V))

theorem val_main_v86 (V : Valuation τ sig (Elt F)) : after ops V (Proc.devRef .tc main_v86) = Stage.s_main_v86 (F := F) := by
  rw [eq_main_v86, val_main_cst_28]
  rfl

theorem res_main_c_29 (W : Valuation τ sig (Elt F)) : (nullary main_c_29 (constantI S_ 32 0#32) : HloOp τ sig (Elt F)).result W (Proc.devRef .tc main_c_29) = (constantI S_ 32 0#32) :=
  nullary_result ..

theorem eq_main_c_29 (V : Valuation τ sig (Elt F)) : after ops V (Proc.devRef .tc main_c_29) = (constantI S_ 32 0#32) :=
  (fixed V (nullary main_c_29 (constantI S_ 32 0#32) : HloOp τ sig (Elt F)) (List.mem_of_getElem? (show (ops : List (HloOp τ sig (Elt F)))[204]? = some (nullary main_c_29 (constantI S_ 32 0#32) : HloOp τ sig (Elt F)) from rfl)) (Proc.devRef .tc main_c_29) (by simp only [nullary_writes, Finset.mem_singleton])).trans (res_main_c_29 (after ops V))

theorem val_main_c_29 (V : Valuation τ sig (Elt F)) : after ops V (Proc.devRef .tc main_c_29) = Stage.s_main_c_29 := by
  rw [eq_main_c_29]
  rfl

theorem res_main_v87 (W : Valuation τ sig (Elt F)) : (unary main_c_29 main_v87 (broadcastInDim S4196352 ![] bcast_S_S4196352 : (⟨S_, .i32⟩ : BufTy).Contents (Elt F) → (⟨S4196352, .i32⟩ : BufTy).Contents (Elt F)) : HloOp τ sig (Elt F)).result W (Proc.devRef .tc main_v87) = (broadcastInDim S4196352 ![] bcast_S_S4196352 : (⟨S_, .i32⟩ : BufTy).Contents (Elt F) → (⟨S4196352, .i32⟩ : BufTy).Contents (Elt F)) (W (Proc.devRef .tc main_c_29)) :=
  unary_result ..

theorem eq_main_v87 (V : Valuation τ sig (Elt F)) : after ops V (Proc.devRef .tc main_v87) = (broadcastInDim S4196352 ![] bcast_S_S4196352 : (⟨S_, .i32⟩ : BufTy).Contents (Elt F) → (⟨S4196352, .i32⟩ : BufTy).Contents (Elt F)) (after ops V (Proc.devRef .tc main_c_29)) :=
  (fixed V (unary main_c_29 main_v87 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[205]? = some (unary main_c_29 main_v87 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v87) (by simp only [unary_writes, Finset.mem_singleton])).trans (res_main_v87 (after ops V))

theorem val_main_v87 (V : Valuation τ sig (Elt F)) : after ops V (Proc.devRef .tc main_v87) = Stage.s_main_v87 (F := F) := by
  rw [eq_main_v87, val_main_c_29]
  rfl

theorem res_main_v88 (W : Valuation τ sig (Elt F)) : (binary main_v85 main_v87 main_v88 (cmpi .slt : (⟨S4196352, .i32⟩ : BufTy).Contents (Elt F) → (⟨S4196352, .i32⟩ : BufTy).Contents (Elt F) → (⟨S4196352, .i1⟩ : BufTy).Contents (Elt F)) : HloOp τ sig (Elt F)).result W (Proc.devRef .tc main_v88) = (cmpi .slt : (⟨S4196352, .i32⟩ : BufTy).Contents (Elt F) → (⟨S4196352, .i32⟩ : BufTy).Contents (Elt F) → (⟨S4196352, .i1⟩ : BufTy).Contents (Elt F)) (W (Proc.devRef .tc main_v85)) (W (Proc.devRef .tc main_v87)) :=
  binary_result ..

theorem eq_main_v88 (V : Valuation τ sig (Elt F)) : after ops V (Proc.devRef .tc main_v88) = (cmpi .slt : (⟨S4196352, .i32⟩ : BufTy).Contents (Elt F) → (⟨S4196352, .i32⟩ : BufTy).Contents (Elt F) → (⟨S4196352, .i1⟩ : BufTy).Contents (Elt F)) (after ops V (Proc.devRef .tc main_v85)) (after ops V (Proc.devRef .tc main_v87)) :=
  (fixed V (binary main_v85 main_v87 main_v88 (cmpi .slt : (⟨S4196352, .i32⟩ : BufTy).Contents (Elt F) → (⟨S4196352, .i32⟩ : BufTy).Contents (Elt F) → (⟨S4196352, .i1⟩ : BufTy).Contents (Elt F)) : HloOp τ sig (Elt F)) (List.mem_of_getElem? (show (ops : List (HloOp τ sig (Elt F)))[206]? = some (binary main_v85 main_v87 main_v88 (cmpi .slt : (⟨S4196352, .i32⟩ : BufTy).Contents (Elt F) → (⟨S4196352, .i32⟩ : BufTy).Contents (Elt F) → (⟨S4196352, .i1⟩ : BufTy).Contents (Elt F)) : HloOp τ sig (Elt F)) from rfl)) (Proc.devRef .tc main_v88) (by simp only [binary_writes, Finset.mem_singleton])).trans (res_main_v88 (after ops V))

theorem val_main_v88 (V : Valuation τ sig (Elt F)) : after ops V (Proc.devRef .tc main_v88) = Stage.s_main_v88 (V (Proc.devRef .tc main_arg0)) := by
  rw [eq_main_v88, val_main_v85, val_main_v87]
  rfl

theorem res_main_c_30 (W : Valuation τ sig (Elt F)) : (nullary main_c_30 (constantI S_ 32 2048#32) : HloOp τ sig (Elt F)).result W (Proc.devRef .tc main_c_30) = (constantI S_ 32 2048#32) :=
  nullary_result ..

theorem eq_main_c_30 (V : Valuation τ sig (Elt F)) : after ops V (Proc.devRef .tc main_c_30) = (constantI S_ 32 2048#32) :=
  (fixed V (nullary main_c_30 (constantI S_ 32 2048#32) : HloOp τ sig (Elt F)) (List.mem_of_getElem? (show (ops : List (HloOp τ sig (Elt F)))[207]? = some (nullary main_c_30 (constantI S_ 32 2048#32) : HloOp τ sig (Elt F)) from rfl)) (Proc.devRef .tc main_c_30) (by simp only [nullary_writes, Finset.mem_singleton])).trans (res_main_c_30 (after ops V))

theorem val_main_c_30 (V : Valuation τ sig (Elt F)) : after ops V (Proc.devRef .tc main_c_30) = Stage.s_main_c_30 := by
  rw [eq_main_c_30]
  rfl

theorem res_main_v89 (W : Valuation τ sig (Elt F)) : (unary main_c_30 main_v89 (broadcastInDim S4196352 ![] bcast_S_S4196352 : (⟨S_, .i32⟩ : BufTy).Contents (Elt F) → (⟨S4196352, .i32⟩ : BufTy).Contents (Elt F)) : HloOp τ sig (Elt F)).result W (Proc.devRef .tc main_v89) = (broadcastInDim S4196352 ![] bcast_S_S4196352 : (⟨S_, .i32⟩ : BufTy).Contents (Elt F) → (⟨S4196352, .i32⟩ : BufTy).Contents (Elt F)) (W (Proc.devRef .tc main_c_30)) :=
  unary_result ..

theorem eq_main_v89 (V : Valuation τ sig (Elt F)) : after ops V (Proc.devRef .tc main_v89) = (broadcastInDim S4196352 ![] bcast_S_S4196352 : (⟨S_, .i32⟩ : BufTy).Contents (Elt F) → (⟨S4196352, .i32⟩ : BufTy).Contents (Elt F)) (after ops V (Proc.devRef .tc main_c_30)) :=
  (fixed V (unary main_c_30 main_v89 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[208]? = some (unary main_c_30 main_v89 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v89) (by simp only [unary_writes, Finset.mem_singleton])).trans (res_main_v89 (after ops V))

theorem val_main_v89 (V : Valuation τ sig (Elt F)) : after ops V (Proc.devRef .tc main_v89) = Stage.s_main_v89 (F := F) := by
  rw [eq_main_v89, val_main_c_30]
  rfl

theorem res_main_v90 (W : Valuation τ sig (Elt F)) : (binary main_v85 main_v89 main_v90 (addi : (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v90) = (addi : (⟨S4196352, .i32⟩ : BufTy).Contents (Elt F) → (⟨S4196352, .i32⟩ : BufTy).Contents (Elt F) → (⟨S4196352, .i32⟩ : BufTy).Contents (Elt F)) (W (Proc.devRef .tc main_v85)) (W (Proc.devRef .tc main_v89)) :=
  binary_result ..

theorem eq_main_v90 (V : Valuation τ sig (Elt F)) : after ops V (Proc.devRef .tc main_v90) = (addi : (⟨S4196352, .i32⟩ : BufTy).Contents (Elt F) → (⟨S4196352, .i32⟩ : BufTy).Contents (Elt F) → (⟨S4196352, .i32⟩ : BufTy).Contents (Elt F)) (after ops V (Proc.devRef .tc main_v85)) (after ops V (Proc.devRef .tc main_v89)) :=
  (fixed V (binary main_v85 main_v89 main_v90 (addi : (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[209]? = some (binary main_v85 main_v89 main_v90 (addi : (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v90) (by simp only [binary_writes, Finset.mem_singleton])).trans (res_main_v90 (after ops V))

theorem val_main_v90 (V : Valuation τ sig (Elt F)) : after ops V (Proc.devRef .tc main_v90) = Stage.s_main_v90 (V (Proc.devRef .tc main_arg0)) := by
  rw [eq_main_v90, val_main_v85, val_main_v89]
  rfl

theorem res_main_v91 (W : Valuation τ sig (Elt F)) : (ternary main_v88 main_v90 main_v85 main_v91 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v91) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (W (Proc.devRef .tc main_v88)) (W (Proc.devRef .tc main_v90)) (W (Proc.devRef .tc main_v85)) :=
  ternary_result ..

theorem eq_main_v91 (V : Valuation τ sig (Elt F)) : after ops V (Proc.devRef .tc main_v91) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (after ops V (Proc.devRef .tc main_v88)) (after ops V (Proc.devRef .tc main_v90)) (after ops V (Proc.devRef .tc main_v85)) :=
  (fixed V (ternary main_v88 main_v90 main_v85 main_v91 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[210]? = some (ternary main_v88 main_v90 main_v85 main_v91 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v91) (by simp only [ternary_writes, Finset.mem_singleton])).trans (res_main_v91 (after ops V))

theorem val_main_v91 (V : Valuation τ sig (Elt F)) : after ops V (Proc.devRef .tc main_v91) = Stage.s_main_v91 (V (Proc.devRef .tc main_arg0)) := by
  rw [eq_main_v91, val_main_v88, val_main_v90, val_main_v85]
  rfl

theorem res_main_v92 (W : Valuation τ sig (Elt F)) : (unary main_v91 main_v92 (broadcastInDim S4196352x1 ![0] bcast_S4196352_S4196352x1_0 : (⟨S4196352, .i32⟩ : BufTy).Contents (Elt F) → (⟨S4196352x1, .i32⟩ : BufTy).Contents (Elt F)) : HloOp τ sig (Elt F)).result W (Proc.devRef .tc main_v92) = (broadcastInDim S4196352x1 ![0] bcast_S4196352_S4196352x1_0 : (⟨S4196352, .i32⟩ : BufTy).Contents (Elt F) → (⟨S4196352x1, .i32⟩ : BufTy).Contents (Elt F)) (W (Proc.devRef .tc main_v91)) :=
  unary_result ..

theorem eq_main_v92 (V : Valuation τ sig (Elt F)) : after ops V (Proc.devRef .tc main_v92) = (broadcastInDim S4196352x1 ![0] bcast_S4196352_S4196352x1_0 : (⟨S4196352, .i32⟩ : BufTy).Contents (Elt F) → (⟨S4196352x1, .i32⟩ : BufTy).Contents (Elt F)) (after ops V (Proc.devRef .tc main_v91)) :=
  (fixed V (unary main_v91 main_v92 (broadcastInDim S4196352x1 ![0] bcast_S4196352_S4196352x1_0 : (⟨S4196352, .i32⟩ : BufTy).Contents (Elt F) → (⟨S4196352x1, .i32⟩ : BufTy).Contents (Elt F)) : HloOp τ sig (Elt F)) (List.mem_of_getElem? (show (ops : List (HloOp τ sig (Elt F)))[211]? = some (unary main_v91 main_v92 (broadcastInDim S4196352x1 ![0] bcast_S4196352_S4196352x1_0 : (⟨S4196352, .i32⟩ : BufTy).Contents (Elt F) → (⟨S4196352x1, .i32⟩ : BufTy).Contents (Elt F)) : HloOp τ sig (Elt F)) from rfl)) (Proc.devRef .tc main_v92) (by simp only [unary_writes, Finset.mem_singleton])).trans (res_main_v92 (after ops V))

theorem val_main_v92 (V : Valuation τ sig (Elt F)) : after ops V (Proc.devRef .tc main_v92) = Stage.s_main_v92 (V (Proc.devRef .tc main_arg0)) := by
  rw [eq_main_v92, val_main_v91]
  rfl

theorem res_main_cst_31 (W : Valuation τ sig (Elt F)) : (nullary main_cst_31 (constant S_ .f32 0x3F800000#32) : HloOp τ sig (Elt F)).result W (Proc.devRef .tc main_cst_31) = (constant (F := F) S_ .f32 0x3F800000#32) :=
  nullary_result ..

theorem eq_main_cst_31 (V : Valuation τ sig (Elt F)) : after ops V (Proc.devRef .tc main_cst_31) = (constant (F := F) S_ .f32 0x3F800000#32) :=
  (fixed V (nullary main_cst_31 (constant S_ .f32 0x3F800000#32) : HloOp τ sig (Elt F)) (List.mem_of_getElem? (show (ops : List (HloOp τ sig (Elt F)))[212]? = some (nullary main_cst_31 (constant S_ .f32 0x3F800000#32) : HloOp τ sig (Elt F)) from rfl)) (Proc.devRef .tc main_cst_31) (by simp only [nullary_writes, Finset.mem_singleton])).trans (res_main_cst_31 (after ops V))

theorem val_main_cst_31 (V : Valuation τ sig (Elt F)) : after ops V (Proc.devRef .tc main_cst_31) = Stage.s_main_cst_31 (F := F) := by
  rw [eq_main_cst_31]
  rfl

theorem res_main_v93 (W : Valuation τ sig (Elt F)) : (unary main_cst_31 main_v93 (broadcastInDim S4196352 ![] bcast_S_S4196352 : (⟨S_, .f32⟩ : BufTy).Contents (Elt F) → (⟨S4196352, .f32⟩ : BufTy).Contents (Elt F)) : HloOp τ sig (Elt F)).result W (Proc.devRef .tc main_v93) = (broadcastInDim S4196352 ![] bcast_S_S4196352 : (⟨S_, .f32⟩ : BufTy).Contents (Elt F) → (⟨S4196352, .f32⟩ : BufTy).Contents (Elt F)) (W (Proc.devRef .tc main_cst_31)) :=
  unary_result ..

theorem eq_main_v93 (V : Valuation τ sig (Elt F)) : after ops V (Proc.devRef .tc main_v93) = (broadcastInDim S4196352 ![] bcast_S_S4196352 : (⟨S_, .f32⟩ : BufTy).Contents (Elt F) → (⟨S4196352, .f32⟩ : BufTy).Contents (Elt F)) (after ops V (Proc.devRef .tc main_cst_31)) :=
  (fixed V (unary main_cst_31 main_v93 (broadcastInDim S4196352 ![] bcast_S_S4196352 : (⟨S_, .f32⟩ : BufTy).Contents (Elt F) → (⟨S4196352, .f32⟩ : BufTy).Contents (Elt F)) : HloOp τ sig (Elt F)) (List.mem_of_getElem? (show (ops : List (HloOp τ sig (Elt F)))[213]? = some (unary main_cst_31 main_v93 (broadcastInDim S4196352 ![] bcast_S_S4196352 : (⟨S_, .f32⟩ : BufTy).Contents (Elt F) → (⟨S4196352, .f32⟩ : BufTy).Contents (Elt F)) : HloOp τ sig (Elt F)) from rfl)) (Proc.devRef .tc main_v93) (by simp only [unary_writes, Finset.mem_singleton])).trans (res_main_v93 (after ops V))

theorem val_main_v93 (V : Valuation τ sig (Elt F)) : after ops V (Proc.devRef .tc main_v93) = Stage.s_main_v93 (F := F) := by
  rw [eq_main_v93, val_main_cst_31]
  rfl

theorem res_main_v94 (W : Valuation τ sig (Elt F)) : (ternary main_v86 main_v92 main_v93 main_v94 ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)) : HloOp τ sig (Elt F)).result W (Proc.devRef .tc main_v94) = ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)) (W (Proc.devRef .tc main_v86)) (W (Proc.devRef .tc main_v92)) (W (Proc.devRef .tc main_v93)) :=
  ternary_result ..

theorem eq_main_v94 (V : Valuation τ sig (Elt F)) : after ops V (Proc.devRef .tc main_v94) = ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)) (after ops V (Proc.devRef .tc main_v86)) (after ops V (Proc.devRef .tc main_v92)) (after ops V (Proc.devRef .tc main_v93)) :=
  (fixed V (ternary main_v86 main_v92 main_v93 main_v94 ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)) : HloOp τ sig (Elt F)) (List.mem_of_getElem? (show (ops : List (HloOp τ sig (Elt F)))[214]? = some (ternary main_v86 main_v92 main_v93 main_v94 ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)) : HloOp τ sig (Elt F)) from rfl)) (Proc.devRef .tc main_v94) (by simp only [ternary_writes, Finset.mem_singleton])).trans (res_main_v94 (after ops V))

theorem val_main_v94 (V : Valuation τ sig (Elt F)) : after ops V (Proc.devRef .tc main_v94) = Stage.s_main_v94 (V (Proc.devRef .tc main_arg0)) := by
  rw [eq_main_v94, val_main_v86, val_main_v92, val_main_v93]
  rfl

theorem res_main_cst_32 (W : Valuation τ sig (Elt F)) : (nullary main_cst_32 (constant S_ .f32 0x00000000#32) : HloOp τ sig (Elt F)).result W (Proc.devRef .tc main_cst_32) = (constant (F := F) S_ .f32 0x00000000#32) :=
  nullary_result ..

theorem eq_main_cst_32 (V : Valuation τ sig (Elt F)) : after ops V (Proc.devRef .tc main_cst_32) = (constant (F := F) S_ .f32 0x00000000#32) :=
  (fixed V (nullary main_cst_32 (constant S_ .f32 0x00000000#32) : HloOp τ sig (Elt F)) (List.mem_of_getElem? (show (ops : List (HloOp τ sig (Elt F)))[215]? = some (nullary main_cst_32 (constant S_ .f32 0x00000000#32) : HloOp τ sig (Elt F)) from rfl)) (Proc.devRef .tc main_cst_32) (by simp only [nullary_writes, Finset.mem_singleton])).trans (res_main_cst_32 (after ops V))

theorem val_main_cst_32 (V : Valuation τ sig (Elt F)) : after ops V (Proc.devRef .tc main_cst_32) = Stage.s_main_cst_32 (F := F) := by
  rw [eq_main_cst_32]
  rfl

theorem res_main_v95 (W : Valuation τ sig (Elt F)) : (unary main_cst_32 main_v95 (broadcastInDim S2048 ![] bcast_S_S2048 : (⟨S_, .f32⟩ : BufTy).Contents (Elt F) → (⟨S2048, .f32⟩ : BufTy).Contents (Elt F)) : HloOp τ sig (Elt F)).result W (Proc.devRef .tc main_v95) = (broadcastInDim S2048 ![] bcast_S_S2048 : (⟨S_, .f32⟩ : BufTy).Contents (Elt F) → (⟨S2048, .f32⟩ : BufTy).Contents (Elt F)) (W (Proc.devRef .tc main_cst_32)) :=
  unary_result ..

theorem eq_main_v95 (V : Valuation τ sig (Elt F)) : after ops V (Proc.devRef .tc main_v95) = (broadcastInDim S2048 ![] bcast_S_S2048 : (⟨S_, .f32⟩ : BufTy).Contents (Elt F) → (⟨S2048, .f32⟩ : BufTy).Contents (Elt F)) (after ops V (Proc.devRef .tc main_cst_32)) :=
  (fixed V (unary main_cst_32 main_v95 (broadcastInDim S2048 ![] bcast_S_S2048 : (⟨S_, .f32⟩ : BufTy).Contents (Elt F) → (⟨S2048, .f32⟩ : BufTy).Contents (Elt F)) : HloOp τ sig (Elt F)) (List.mem_of_getElem? (show (ops : List (HloOp τ sig (Elt F)))[216]? = some (unary main_cst_32 main_v95 (broadcastInDim S2048 ![] bcast_S_S2048 : (⟨S_, .f32⟩ : BufTy).Contents (Elt F) → (⟨S2048, .f32⟩ : BufTy).Contents (Elt F)) : HloOp τ sig (Elt F)) from rfl)) (Proc.devRef .tc main_v95) (by simp only [unary_writes, Finset.mem_singleton])).trans (res_main_v95 (after ops V))

theorem val_main_v95 (V : Valuation τ sig (Elt F)) : after ops V (Proc.devRef .tc main_v95) = Stage.s_main_v95 (F := F) := by
  rw [eq_main_v95, val_main_cst_32]
  rfl

theorem res_main_v96 (W : Valuation τ sig (Elt F)) : (binary main_v94 main_v95 main_v96 (cmpf .ogt : (⟨S2048, .f32⟩ : BufTy).Contents (Elt F) → (⟨S2048, .f32⟩ : BufTy).Contents (Elt F) → (⟨S2048, .i1⟩ : BufTy).Contents (Elt F)) : HloOp τ sig (Elt F)).result W (Proc.devRef .tc main_v96) = (cmpf .ogt : (⟨S2048, .f32⟩ : BufTy).Contents (Elt F) → (⟨S2048, .f32⟩ : BufTy).Contents (Elt F) → (⟨S2048, .i1⟩ : BufTy).Contents (Elt F)) (W (Proc.devRef .tc main_v94)) (W (Proc.devRef .tc main_v95)) :=
  binary_result ..

theorem eq_main_v96 (V : Valuation τ sig (Elt F)) : after ops V (Proc.devRef .tc main_v96) = (cmpf .ogt : (⟨S2048, .f32⟩ : BufTy).Contents (Elt F) → (⟨S2048, .f32⟩ : BufTy).Contents (Elt F) → (⟨S2048, .i1⟩ : BufTy).Contents (Elt F)) (after ops V (Proc.devRef .tc main_v94)) (after ops V (Proc.devRef .tc main_v95)) :=
  (fixed V (binary main_v94 main_v95 main_v96 (cmpf .ogt : (⟨S2048, .f32⟩ : BufTy).Contents (Elt F) → (⟨S2048, .f32⟩ : BufTy).Contents (Elt F) → (⟨S2048, .i1⟩ : BufTy).Contents (Elt F)) : HloOp τ sig (Elt F)) (List.mem_of_getElem? (show (ops : List (HloOp τ sig (Elt F)))[217]? = some (binary main_v94 main_v95 main_v96 (cmpf .ogt : (⟨S2048, .f32⟩ : BufTy).Contents (Elt F) → (⟨S2048, .f32⟩ : BufTy).Contents (Elt F) → (⟨S2048, .i1⟩ : BufTy).Contents (Elt F)) : HloOp τ sig (Elt F)) from rfl)) (Proc.devRef .tc main_v96) (by simp only [binary_writes, Finset.mem_singleton])).trans (res_main_v96 (after ops V))

theorem val_main_v96 (V : Valuation τ sig (Elt F)) : after ops V (Proc.devRef .tc main_v96) = Stage.s_main_v96 (V (Proc.devRef .tc main_arg0)) := by
  rw [eq_main_v96, val_main_v94, val_main_v95]
  rfl

theorem res_main_v97 (W : Valuation τ sig (Elt F)) : (unary main_v94 main_v97 (Host.sqrt : (⟨S2048, .f32⟩ : BufTy).Contents (Elt F) → (⟨S2048, .f32⟩ : BufTy).Contents (Elt F)) : HloOp τ sig (Elt F)).result W (Proc.devRef .tc main_v97) = (Host.sqrt : (⟨S2048, .f32⟩ : BufTy).Contents (Elt F) → (⟨S2048, .f32⟩ : BufTy).Contents (Elt F)) (W (Proc.devRef .tc main_v94)) :=
  unary_result ..

theorem eq_main_v97 (V : Valuation τ sig (Elt F)) : after ops V (Proc.devRef .tc main_v97) = (Host.sqrt : (⟨S2048, .f32⟩ : BufTy).Contents (Elt F) → (⟨S2048, .f32⟩ : BufTy).Contents (Elt F)) (after ops V (Proc.devRef .tc main_v94)) :=
  (fixed V (unary main_v94 main_v97 (Host.sqrt : (⟨S2048, .f32⟩ : BufTy).Contents (Elt F) → (⟨S2048, .f32⟩ : BufTy).Contents (Elt F)) : HloOp τ sig (Elt F)) (List.mem_of_getElem? (show (ops : List (HloOp τ sig (Elt F)))[218]? = some (unary main_v94 main_v97 (Host.sqrt : (⟨S2048, .f32⟩ : BufTy).Contents (Elt F) → (⟨S2048, .f32⟩ : BufTy).Contents (Elt F)) : HloOp τ sig (Elt F)) from rfl)) (Proc.devRef .tc main_v97) (by simp only [unary_writes, Finset.mem_singleton])).trans (res_main_v97 (after ops V))

theorem val_main_v97 (V : Valuation τ sig (Elt F)) : after ops V (Proc.devRef .tc main_v97) = Stage.s_main_v97 (V (Proc.devRef .tc main_arg0)) := by
  rw [eq_main_v97, val_main_v94]
  rfl

theorem res_main_cst_33 (W : Valuation τ sig (Elt F)) : (nullary main_cst_33 (constant S_ .f32 0x3F800000#32) : HloOp τ sig (Elt F)).result W (Proc.devRef .tc main_cst_33) = (constant (F := F) S_ .f32 0x3F800000#32) :=
  nullary_result ..

theorem eq_main_cst_33 (V : Valuation τ sig (Elt F)) : after ops V (Proc.devRef .tc main_cst_33) = (constant (F := F) S_ .f32 0x3F800000#32) :=
  (fixed V (nullary main_cst_33 (constant S_ .f32 0x3F800000#32) : HloOp τ sig (Elt F)) (List.mem_of_getElem? (show (ops : List (HloOp τ sig (Elt F)))[219]? = some (nullary main_cst_33 (constant S_ .f32 0x3F800000#32) : HloOp τ sig (Elt F)) from rfl)) (Proc.devRef .tc main_cst_33) (by simp only [nullary_writes, Finset.mem_singleton])).trans (res_main_cst_33 (after ops V))

theorem val_main_cst_33 (V : Valuation τ sig (Elt F)) : after ops V (Proc.devRef .tc main_cst_33) = Stage.s_main_cst_33 (F := F) := by
  rw [eq_main_cst_33]
  rfl

theorem res_main_v98 (W : Valuation τ sig (Elt F)) : (unary main_cst_33 main_v98 (broadcastInDim S2048 ![] bcast_S_S2048 : (⟨S_, .f32⟩ : BufTy).Contents (Elt F) → (⟨S2048, .f32⟩ : BufTy).Contents (Elt F)) : HloOp τ sig (Elt F)).result W (Proc.devRef .tc main_v98) = (broadcastInDim S2048 ![] bcast_S_S2048 : (⟨S_, .f32⟩ : BufTy).Contents (Elt F) → (⟨S2048, .f32⟩ : BufTy).Contents (Elt F)) (W (Proc.devRef .tc main_cst_33)) :=
  unary_result ..

theorem eq_main_v98 (V : Valuation τ sig (Elt F)) : after ops V (Proc.devRef .tc main_v98) = (broadcastInDim S2048 ![] bcast_S_S2048 : (⟨S_, .f32⟩ : BufTy).Contents (Elt F) → (⟨S2048, .f32⟩ : BufTy).Contents (Elt F)) (after ops V (Proc.devRef .tc main_cst_33)) :=
  (fixed V (unary main_cst_33 main_v98 (broadcastInDim S2048 ![] bcast_S_S2048 : (⟨S_, .f32⟩ : BufTy).Contents (Elt F) → (⟨S2048, .f32⟩ : BufTy).Contents (Elt F)) : HloOp τ sig (Elt F)) (List.mem_of_getElem? (show (ops : List (HloOp τ sig (Elt F)))[220]? = some (unary main_cst_33 main_v98 (broadcastInDim S2048 ![] bcast_S_S2048 : (⟨S_, .f32⟩ : BufTy).Contents (Elt F) → (⟨S2048, .f32⟩ : BufTy).Contents (Elt F)) : HloOp τ sig (Elt F)) from rfl)) (Proc.devRef .tc main_v98) (by simp only [unary_writes, Finset.mem_singleton])).trans (res_main_v98 (after ops V))

theorem val_main_v98 (V : Valuation τ sig (Elt F)) : after ops V (Proc.devRef .tc main_v98) = Stage.s_main_v98 (F := F) := by
  rw [eq_main_v98, val_main_cst_33]
  rfl

theorem res_main_v99 (W : Valuation τ sig (Elt F)) : (binary main_v98 main_v97 main_v99 (Host.divf : (⟨S2048, .f32⟩ : BufTy).Contents (Elt F) → (⟨S2048, .f32⟩ : BufTy).Contents (Elt F) → (⟨S2048, .f32⟩ : BufTy).Contents (Elt F)) : HloOp τ sig (Elt F)).result W (Proc.devRef .tc main_v99) = (Host.divf : (⟨S2048, .f32⟩ : BufTy).Contents (Elt F) → (⟨S2048, .f32⟩ : BufTy).Contents (Elt F) → (⟨S2048, .f32⟩ : BufTy).Contents (Elt F)) (W (Proc.devRef .tc main_v98)) (W (Proc.devRef .tc main_v97)) :=
  binary_result ..

theorem eq_main_v99 (V : Valuation τ sig (Elt F)) : after ops V (Proc.devRef .tc main_v99) = (Host.divf : (⟨S2048, .f32⟩ : BufTy).Contents (Elt F) → (⟨S2048, .f32⟩ : BufTy).Contents (Elt F) → (⟨S2048, .f32⟩ : BufTy).Contents (Elt F)) (after ops V (Proc.devRef .tc main_v98)) (after ops V (Proc.devRef .tc main_v97)) :=
  (fixed V (binary main_v98 main_v97 main_v99 (Host.divf : (⟨S2048, .f32⟩ : BufTy).Contents (Elt F) → (⟨S2048, .f32⟩ : BufTy).Contents (Elt F) → (⟨S2048, .f32⟩ : BufTy).Contents (Elt F)) : HloOp τ sig (Elt F)) (List.mem_of_getElem? (show (ops : List (HloOp τ sig (Elt F)))[221]? = some (binary main_v98 main_v97 main_v99 (Host.divf : (⟨S2048, .f32⟩ : BufTy).Contents (Elt F) → (⟨S2048, .f32⟩ : BufTy).Contents (Elt F) → (⟨S2048, .f32⟩ : BufTy).Contents (Elt F)) : HloOp τ sig (Elt F)) from rfl)) (Proc.devRef .tc main_v99) (by simp only [binary_writes, Finset.mem_singleton])).trans (res_main_v99 (after ops V))

theorem val_main_v99 (V : Valuation τ sig (Elt F)) : after ops V (Proc.devRef .tc main_v99) = Stage.s_main_v99 (V (Proc.devRef .tc main_arg0)) := by
  rw [eq_main_v99, val_main_v98, val_main_v97]
  rfl

theorem res_main_cst_34 (W : Valuation τ sig (Elt F)) : (nullary main_cst_34 (constant S_ .f32 0x00000000#32) : HloOp τ sig (Elt F)).result W (Proc.devRef .tc main_cst_34) = (constant (F := F) S_ .f32 0x00000000#32) :=
  nullary_result ..

theorem eq_main_cst_34 (V : Valuation τ sig (Elt F)) : after ops V (Proc.devRef .tc main_cst_34) = (constant (F := F) S_ .f32 0x00000000#32) :=
  (fixed V (nullary main_cst_34 (constant S_ .f32 0x00000000#32) : HloOp τ sig (Elt F)) (List.mem_of_getElem? (show (ops : List (HloOp τ sig (Elt F)))[222]? = some (nullary main_cst_34 (constant S_ .f32 0x00000000#32) : HloOp τ sig (Elt F)) from rfl)) (Proc.devRef .tc main_cst_34) (by simp only [nullary_writes, Finset.mem_singleton])).trans (res_main_cst_34 (after ops V))

theorem val_main_cst_34 (V : Valuation τ sig (Elt F)) : after ops V (Proc.devRef .tc main_cst_34) = Stage.s_main_cst_34 (F := F) := by
  rw [eq_main_cst_34]
  rfl

theorem res_main_call11_v0 (W : Valuation τ sig (Elt F)) : (TRef.unary (TRef.of main_cst_34 : TRef sig ⟨S_, .f32⟩) main_call11.v0 id : HloOp τ sig (Elt F)).result W (Proc.devRef .tc main_call11_v0) = (id : (⟨S_, .f32⟩ : BufTy).Contents (Elt F) → (⟨S_, .f32⟩ : BufTy).Contents (Elt F)) (W (Proc.devRef .tc main_cst_34)) :=
  unary_result ..

theorem eq_main_call11_v0 (V : Valuation τ sig (Elt F)) : after ops V (Proc.devRef .tc main_call11_v0) = (id : (⟨S_, .f32⟩ : BufTy).Contents (Elt F) → (⟨S_, .f32⟩ : BufTy).Contents (Elt F)) (after ops V (Proc.devRef .tc main_cst_34)) :=
  (fixed V (TRef.unary (TRef.of main_cst_34 : TRef sig ⟨S_, .f32⟩) main_call11.v0 id : HloOp τ sig (Elt F)) (List.mem_of_getElem? (show (ops : List (HloOp τ sig (Elt F)))[223]? = some (TRef.unary (TRef.of main_cst_34 : TRef sig ⟨S_, .f32⟩) main_call11.v0 id : HloOp τ sig (Elt F)) from rfl)) (Proc.devRef .tc main_call11_v0) (by simp only [unary_writes, Finset.mem_singleton])).trans (res_main_call11_v0 (after ops V))

theorem val_main_call11_v0 (V : Valuation τ sig (Elt F)) : after ops V (Proc.devRef .tc main_call11_v0) = Stage.s_main_call11_v0 (F := F) := by
  rw [eq_main_call11_v0, val_main_cst_34]
  rfl

theorem res_main_call11_v1 (W : Valuation τ sig (Elt F)) : (TRef.unary main_call11.v0 main_call11.v1 (broadcastInDim S2048 ![] bcast_S_S2048) : HloOp τ sig (Elt F)).result W (Proc.devRef .tc main_call11_v1) = ((broadcastInDim S2048 ![] bcast_S_S2048) : (⟨S_, .f32⟩ : BufTy).Contents (Elt F) → (⟨S2048, .f32⟩ : BufTy).Contents (Elt F)) (W (Proc.devRef .tc main_call11_v0)) :=
  unary_result ..

theorem eq_main_call11_v1 (V : Valuation τ sig (Elt F)) : after ops V (Proc.devRef .tc main_call11_v1) = ((broadcastInDim S2048 ![] bcast_S_S2048) : (⟨S_, .f32⟩ : BufTy).Contents (Elt F) → (⟨S2048, .f32⟩ : BufTy).Contents (Elt F)) (after ops V (Proc.devRef .tc main_call11_v0)) :=
  (fixed V (TRef.unary main_call11.v0 main_call11.v1 (broadcastInDim S2048 ![] bcast_S_S2048) : HloOp τ sig (Elt F)) (List.mem_of_getElem? (show (ops : List (HloOp τ sig (Elt F)))[224]? = some (TRef.unary main_call11.v0 main_call11.v1 (broadcastInDim S2048 ![] bcast_S_S2048) : HloOp τ sig (Elt F)) from rfl)) (Proc.devRef .tc main_call11_v1) (by simp only [unary_writes, Finset.mem_singleton])).trans (res_main_call11_v1 (after ops V))

theorem val_main_call11_v1 (V : Valuation τ sig (Elt F)) : after ops V (Proc.devRef .tc main_call11_v1) = Stage.s_main_call11_v1 (F := F) := by
  rw [eq_main_call11_v1, val_main_call11_v0]
  rfl

theorem res_main_v100 (W : Valuation τ sig (Elt F)) : (TRef.ternary (TRef.of main_v96 : TRef sig ⟨S2048, .i1⟩) (TRef.of main_v99 : TRef sig ⟨S2048, .f32⟩) main_call11.v1 main_call11.v2 select : HloOp τ sig (Elt F)).result W (Proc.devRef .tc main_v100) = (select : (⟨S2048, .i1⟩ : BufTy).Contents (Elt F) → (⟨S2048, .f32⟩ : BufTy).Contents (Elt F) → (⟨S2048, .f32⟩ : BufTy).Contents (Elt F) → (⟨S2048, .f32⟩ : BufTy).Contents (Elt F)) (W (Proc.devRef .tc main_v96)) (W (Proc.devRef .tc main_v99)) (W (Proc.devRef .tc main_call11_v1)) :=
  ternary_result ..

theorem eq_main_v100 (V : Valuation τ sig (Elt F)) : after ops V (Proc.devRef .tc main_v100) = (select : (⟨S2048, .i1⟩ : BufTy).Contents (Elt F) → (⟨S2048, .f32⟩ : BufTy).Contents (Elt F) → (⟨S2048, .f32⟩ : BufTy).Contents (Elt F) → (⟨S2048, .f32⟩ : BufTy).Contents (Elt F)) (after ops V (Proc.devRef .tc main_v96)) (after ops V (Proc.devRef .tc main_v99)) (after ops V (Proc.devRef .tc main_call11_v1)) :=
  (fixed V (TRef.ternary (TRef.of main_v96 : TRef sig ⟨S2048, .i1⟩) (TRef.of main_v99 : TRef sig ⟨S2048, .f32⟩) main_call11.v1 main_call11.v2 select : HloOp τ sig (Elt F)) (List.mem_of_getElem? (show (ops : List (HloOp τ sig (Elt F)))[225]? = some (TRef.ternary (TRef.of main_v96 : TRef sig ⟨S2048, .i1⟩) (TRef.of main_v99 : TRef sig ⟨S2048, .f32⟩) main_call11.v1 main_call11.v2 select : HloOp τ sig (Elt F)) from rfl)) (Proc.devRef .tc main_v100) (by simp only [ternary_writes, Finset.mem_singleton])).trans (res_main_v100 (after ops V))

theorem val_main_v100 (V : Valuation τ sig (Elt F)) : after ops V (Proc.devRef .tc main_v100) = Stage.s_main_v100 (V (Proc.devRef .tc main_arg0)) := by
  rw [eq_main_v100, val_main_v96, val_main_v99, val_main_call11_v1]
  rfl

theorem res_main_c_35 (W : Valuation τ sig (Elt F)) : (nullary main_c_35 (constantI S_ 32 0#32) : HloOp τ sig (Elt F)).result W (Proc.devRef .tc main_c_35) = (constantI S_ 32 0#32) :=
  nullary_result ..

theorem eq_main_c_35 (V : Valuation τ sig (Elt F)) : after ops V (Proc.devRef .tc main_c_35) = (constantI S_ 32 0#32) :=
  (fixed V (nullary main_c_35 (constantI S_ 32 0#32) : HloOp τ sig (Elt F)) (List.mem_of_getElem? (show (ops : List (HloOp τ sig (Elt F)))[226]? = some (nullary main_c_35 (constantI S_ 32 0#32) : HloOp τ sig (Elt F)) from rfl)) (Proc.devRef .tc main_c_35) (by simp only [nullary_writes, Finset.mem_singleton])).trans (res_main_c_35 (after ops V))

theorem val_main_c_35 (V : Valuation τ sig (Elt F)) : after ops V (Proc.devRef .tc main_c_35) = Stage.s_main_c_35 := by
  rw [eq_main_c_35]
  rfl

theorem res_main_v101 (W : Valuation τ sig (Elt F)) : (unary main_c_35 main_v101 (broadcastInDim S4196352 ![] bcast_S_S4196352 : (⟨S_, .i32⟩ : BufTy).Contents (Elt F) → (⟨S4196352, .i32⟩ : BufTy).Contents (Elt F)) : HloOp τ sig (Elt F)).result W (Proc.devRef .tc main_v101) = (broadcastInDim S4196352 ![] bcast_S_S4196352 : (⟨S_, .i32⟩ : BufTy).Contents (Elt F) → (⟨S4196352, .i32⟩ : BufTy).Contents (Elt F)) (W (Proc.devRef .tc main_c_35)) :=
  unary_result ..

theorem eq_main_v101 (V : Valuation τ sig (Elt F)) : after ops V (Proc.devRef .tc main_v101) = (broadcastInDim S4196352 ![] bcast_S_S4196352 : (⟨S_, .i32⟩ : BufTy).Contents (Elt F) → (⟨S4196352, .i32⟩ : BufTy).Contents (Elt F)) (after ops V (Proc.devRef .tc main_c_35)) :=
  (fixed V (unary main_c_35 main_v101 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[227]? = some (unary main_c_35 main_v101 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v101) (by simp only [unary_writes, Finset.mem_singleton])).trans (res_main_v101 (after ops V))

theorem val_main_v101 (V : Valuation τ sig (Elt F)) : after ops V (Proc.devRef .tc main_v101) = Stage.s_main_v101 (F := F) := by
  rw [eq_main_v101, val_main_c_35]
  rfl

theorem res_main_v102 (W : Valuation τ sig (Elt F)) : (binary main_v84 main_v101 main_v102 (cmpi .slt : (⟨S4196352, .i32⟩ : BufTy).Contents (Elt F) → (⟨S4196352, .i32⟩ : BufTy).Contents (Elt F) → (⟨S4196352, .i1⟩ : BufTy).Contents (Elt F)) : HloOp τ sig (Elt F)).result W (Proc.devRef .tc main_v102) = (cmpi .slt : (⟨S4196352, .i32⟩ : BufTy).Contents (Elt F) → (⟨S4196352, .i32⟩ : BufTy).Contents (Elt F) → (⟨S4196352, .i1⟩ : BufTy).Contents (Elt F)) (W (Proc.devRef .tc main_v84)) (W (Proc.devRef .tc main_v101)) :=
  binary_result ..

theorem eq_main_v102 (V : Valuation τ sig (Elt F)) : after ops V (Proc.devRef .tc main_v102) = (cmpi .slt : (⟨S4196352, .i32⟩ : BufTy).Contents (Elt F) → (⟨S4196352, .i32⟩ : BufTy).Contents (Elt F) → (⟨S4196352, .i1⟩ : BufTy).Contents (Elt F)) (after ops V (Proc.devRef .tc main_v84)) (after ops V (Proc.devRef .tc main_v101)) :=
  (fixed V (binary main_v84 main_v101 main_v102 (cmpi .slt : (⟨S4196352, .i32⟩ : BufTy).Contents (Elt F) → (⟨S4196352, .i32⟩ : BufTy).Contents (Elt F) → (⟨S4196352, .i1⟩ : BufTy).Contents (Elt F)) : HloOp τ sig (Elt F)) (List.mem_of_getElem? (show (ops : List (HloOp τ sig (Elt F)))[228]? = some (binary main_v84 main_v101 main_v102 (cmpi .slt : (⟨S4196352, .i32⟩ : BufTy).Contents (Elt F) → (⟨S4196352, .i32⟩ : BufTy).Contents (Elt F) → (⟨S4196352, .i1⟩ : BufTy).Contents (Elt F)) : HloOp τ sig (Elt F)) from rfl)) (Proc.devRef .tc main_v102) (by simp only [binary_writes, Finset.mem_singleton])).trans (res_main_v102 (after ops V))

theorem val_main_v102 (V : Valuation τ sig (Elt F)) : after ops V (Proc.devRef .tc main_v102) = Stage.s_main_v102 (V (Proc.devRef .tc main_arg0)) := by
  rw [eq_main_v102, val_main_v84, val_main_v101]
  rfl

theorem res_main_c_36 (W : Valuation τ sig (Elt F)) : (nullary main_c_36 (constantI S_ 32 2048#32) : HloOp τ sig (Elt F)).result W (Proc.devRef .tc main_c_36) = (constantI S_ 32 2048#32) :=
  nullary_result ..

theorem eq_main_c_36 (V : Valuation τ sig (Elt F)) : after ops V (Proc.devRef .tc main_c_36) = (constantI S_ 32 2048#32) :=
  (fixed V (nullary main_c_36 (constantI S_ 32 2048#32) : HloOp τ sig (Elt F)) (List.mem_of_getElem? (show (ops : List (HloOp τ sig (Elt F)))[229]? = some (nullary main_c_36 (constantI S_ 32 2048#32) : HloOp τ sig (Elt F)) from rfl)) (Proc.devRef .tc main_c_36) (by simp only [nullary_writes, Finset.mem_singleton])).trans (res_main_c_36 (after ops V))

theorem val_main_c_36 (V : Valuation τ sig (Elt F)) : after ops V (Proc.devRef .tc main_c_36) = Stage.s_main_c_36 := by
  rw [eq_main_c_36]
  rfl

theorem res_main_v103 (W : Valuation τ sig (Elt F)) : (unary main_c_36 main_v103 (broadcastInDim S4196352 ![] bcast_S_S4196352 : (⟨S_, .i32⟩ : BufTy).Contents (Elt F) → (⟨S4196352, .i32⟩ : BufTy).Contents (Elt F)) : HloOp τ sig (Elt F)).result W (Proc.devRef .tc main_v103) = (broadcastInDim S4196352 ![] bcast_S_S4196352 : (⟨S_, .i32⟩ : BufTy).Contents (Elt F) → (⟨S4196352, .i32⟩ : BufTy).Contents (Elt F)) (W (Proc.devRef .tc main_c_36)) :=
  unary_result ..

theorem eq_main_v103 (V : Valuation τ sig (Elt F)) : after ops V (Proc.devRef .tc main_v103) = (broadcastInDim S4196352 ![] bcast_S_S4196352 : (⟨S_, .i32⟩ : BufTy).Contents (Elt F) → (⟨S4196352, .i32⟩ : BufTy).Contents (Elt F)) (after ops V (Proc.devRef .tc main_c_36)) :=
  (fixed V (unary main_c_36 main_v103 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[230]? = some (unary main_c_36 main_v103 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v103) (by simp only [unary_writes, Finset.mem_singleton])).trans (res_main_v103 (after ops V))

theorem val_main_v103 (V : Valuation τ sig (Elt F)) : after ops V (Proc.devRef .tc main_v103) = Stage.s_main_v103 (F := F) := by
  rw [eq_main_v103, val_main_c_36]
  rfl

theorem res_main_v104 (W : Valuation τ sig (Elt F)) : (binary main_v84 main_v103 main_v104 (addi : (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v104) = (addi : (⟨S4196352, .i32⟩ : BufTy).Contents (Elt F) → (⟨S4196352, .i32⟩ : BufTy).Contents (Elt F) → (⟨S4196352, .i32⟩ : BufTy).Contents (Elt F)) (W (Proc.devRef .tc main_v84)) (W (Proc.devRef .tc main_v103)) :=
  binary_result ..

theorem eq_main_v104 (V : Valuation τ sig (Elt F)) : after ops V (Proc.devRef .tc main_v104) = (addi : (⟨S4196352, .i32⟩ : BufTy).Contents (Elt F) → (⟨S4196352, .i32⟩ : BufTy).Contents (Elt F) → (⟨S4196352, .i32⟩ : BufTy).Contents (Elt F)) (after ops V (Proc.devRef .tc main_v84)) (after ops V (Proc.devRef .tc main_v103)) :=
  (fixed V (binary main_v84 main_v103 main_v104 (addi : (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[231]? = some (binary main_v84 main_v103 main_v104 (addi : (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v104) (by simp only [binary_writes, Finset.mem_singleton])).trans (res_main_v104 (after ops V))

theorem val_main_v104 (V : Valuation τ sig (Elt F)) : after ops V (Proc.devRef .tc main_v104) = Stage.s_main_v104 (V (Proc.devRef .tc main_arg0)) := by
  rw [eq_main_v104, val_main_v84, val_main_v103]
  rfl

theorem res_main_v105 (W : Valuation τ sig (Elt F)) : (ternary main_v102 main_v104 main_v84 main_v105 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v105) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (W (Proc.devRef .tc main_v102)) (W (Proc.devRef .tc main_v104)) (W (Proc.devRef .tc main_v84)) :=
  ternary_result ..

theorem eq_main_v105 (V : Valuation τ sig (Elt F)) : after ops V (Proc.devRef .tc main_v105) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (after ops V (Proc.devRef .tc main_v102)) (after ops V (Proc.devRef .tc main_v104)) (after ops V (Proc.devRef .tc main_v84)) :=
  (fixed V (ternary main_v102 main_v104 main_v84 main_v105 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[232]? = some (ternary main_v102 main_v104 main_v84 main_v105 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v105) (by simp only [ternary_writes, Finset.mem_singleton])).trans (res_main_v105 (after ops V))

theorem val_main_v105 (V : Valuation τ sig (Elt F)) : after ops V (Proc.devRef .tc main_v105) = Stage.s_main_v105 (V (Proc.devRef .tc main_arg0)) := by
  rw [eq_main_v105, val_main_v102, val_main_v104, val_main_v84]
  rfl

theorem res_main_v106 (W : Valuation τ sig (Elt F)) : (unary main_v105 main_v106 (broadcastInDim S4196352x1 ![0] bcast_S4196352_S4196352x1_0 : (⟨S4196352, .i32⟩ : BufTy).Contents (Elt F) → (⟨S4196352x1, .i32⟩ : BufTy).Contents (Elt F)) : HloOp τ sig (Elt F)).result W (Proc.devRef .tc main_v106) = (broadcastInDim S4196352x1 ![0] bcast_S4196352_S4196352x1_0 : (⟨S4196352, .i32⟩ : BufTy).Contents (Elt F) → (⟨S4196352x1, .i32⟩ : BufTy).Contents (Elt F)) (W (Proc.devRef .tc main_v105)) :=
  unary_result ..

theorem eq_main_v106 (V : Valuation τ sig (Elt F)) : after ops V (Proc.devRef .tc main_v106) = (broadcastInDim S4196352x1 ![0] bcast_S4196352_S4196352x1_0 : (⟨S4196352, .i32⟩ : BufTy).Contents (Elt F) → (⟨S4196352x1, .i32⟩ : BufTy).Contents (Elt F)) (after ops V (Proc.devRef .tc main_v105)) :=
  (fixed V (unary main_v105 main_v106 (broadcastInDim S4196352x1 ![0] bcast_S4196352_S4196352x1_0 : (⟨S4196352, .i32⟩ : BufTy).Contents (Elt F) → (⟨S4196352x1, .i32⟩ : BufTy).Contents (Elt F)) : HloOp τ sig (Elt F)) (List.mem_of_getElem? (show (ops : List (HloOp τ sig (Elt F)))[233]? = some (unary main_v105 main_v106 (broadcastInDim S4196352x1 ![0] bcast_S4196352_S4196352x1_0 : (⟨S4196352, .i32⟩ : BufTy).Contents (Elt F) → (⟨S4196352x1, .i32⟩ : BufTy).Contents (Elt F)) : HloOp τ sig (Elt F)) from rfl)) (Proc.devRef .tc main_v106) (by simp only [unary_writes, Finset.mem_singleton])).trans (res_main_v106 (after ops V))

theorem val_main_v106 (V : Valuation τ sig (Elt F)) : after ops V (Proc.devRef .tc main_v106) = Stage.s_main_v106 (V (Proc.devRef .tc main_arg0)) := by
  rw [eq_main_v106, val_main_v105]
  rfl

theorem res_main_v107 (W : Valuation τ sig (Elt F)) : (binary main_v100 main_v106 main_v107 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) : HloOp τ sig (Elt F)).result W (Proc.devRef .tc main_v107) = ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) (W (Proc.devRef .tc main_v100)) (W (Proc.devRef .tc main_v106)) :=
  binary_result ..

theorem eq_main_v107 (V : Valuation τ sig (Elt F)) : after ops V (Proc.devRef .tc main_v107) = ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) (after ops V (Proc.devRef .tc main_v100)) (after ops V (Proc.devRef .tc main_v106)) :=
  (fixed V (binary main_v100 main_v106 main_v107 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) : HloOp τ sig (Elt F)) (List.mem_of_getElem? (show (ops : List (HloOp τ sig (Elt F)))[234]? = some (binary main_v100 main_v106 main_v107 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) : HloOp τ sig (Elt F)) from rfl)) (Proc.devRef .tc main_v107) (by simp only [binary_writes, Finset.mem_singleton])).trans (res_main_v107 (after ops V))

theorem val_main_v107 (V : Valuation τ sig (Elt F)) : after ops V (Proc.devRef .tc main_v107) = Stage.s_main_v107 (V (Proc.devRef .tc main_arg0)) := by
  rw [eq_main_v107, val_main_v100, val_main_v106]
  rfl

theorem res_main_c_37 (W : Valuation τ sig (Elt F)) : (nullary main_c_37 (constantI S_ 32 0#32) : HloOp τ sig (Elt F)).result W (Proc.devRef .tc main_c_37) = (constantI S_ 32 0#32) :=
  nullary_result ..

theorem eq_main_c_37 (V : Valuation τ sig (Elt F)) : after ops V (Proc.devRef .tc main_c_37) = (constantI S_ 32 0#32) :=
  (fixed V (nullary main_c_37 (constantI S_ 32 0#32) : HloOp τ sig (Elt F)) (List.mem_of_getElem? (show (ops : List (HloOp τ sig (Elt F)))[235]? = some (nullary main_c_37 (constantI S_ 32 0#32) : HloOp τ sig (Elt F)) from rfl)) (Proc.devRef .tc main_c_37) (by simp only [nullary_writes, Finset.mem_singleton])).trans (res_main_c_37 (after ops V))

theorem val_main_c_37 (V : Valuation τ sig (Elt F)) : after ops V (Proc.devRef .tc main_c_37) = Stage.s_main_c_37 := by
  rw [eq_main_c_37]
  rfl

theorem res_main_v108 (W : Valuation τ sig (Elt F)) : (unary main_c_37 main_v108 (broadcastInDim S4196352 ![] bcast_S_S4196352 : (⟨S_, .i32⟩ : BufTy).Contents (Elt F) → (⟨S4196352, .i32⟩ : BufTy).Contents (Elt F)) : HloOp τ sig (Elt F)).result W (Proc.devRef .tc main_v108) = (broadcastInDim S4196352 ![] bcast_S_S4196352 : (⟨S_, .i32⟩ : BufTy).Contents (Elt F) → (⟨S4196352, .i32⟩ : BufTy).Contents (Elt F)) (W (Proc.devRef .tc main_c_37)) :=
  unary_result ..

theorem eq_main_v108 (V : Valuation τ sig (Elt F)) : after ops V (Proc.devRef .tc main_v108) = (broadcastInDim S4196352 ![] bcast_S_S4196352 : (⟨S_, .i32⟩ : BufTy).Contents (Elt F) → (⟨S4196352, .i32⟩ : BufTy).Contents (Elt F)) (after ops V (Proc.devRef .tc main_c_37)) :=
  (fixed V (unary main_c_37 main_v108 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[236]? = some (unary main_c_37 main_v108 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v108) (by simp only [unary_writes, Finset.mem_singleton])).trans (res_main_v108 (after ops V))

theorem val_main_v108 (V : Valuation τ sig (Elt F)) : after ops V (Proc.devRef .tc main_v108) = Stage.s_main_v108 (F := F) := by
  rw [eq_main_v108, val_main_c_37]
  rfl

theorem res_main_v109 (W : Valuation τ sig (Elt F)) : (binary main_v85 main_v108 main_v109 (cmpi .slt : (⟨S4196352, .i32⟩ : BufTy).Contents (Elt F) → (⟨S4196352, .i32⟩ : BufTy).Contents (Elt F) → (⟨S4196352, .i1⟩ : BufTy).Contents (Elt F)) : HloOp τ sig (Elt F)).result W (Proc.devRef .tc main_v109) = (cmpi .slt : (⟨S4196352, .i32⟩ : BufTy).Contents (Elt F) → (⟨S4196352, .i32⟩ : BufTy).Contents (Elt F) → (⟨S4196352, .i1⟩ : BufTy).Contents (Elt F)) (W (Proc.devRef .tc main_v85)) (W (Proc.devRef .tc main_v108)) :=
  binary_result ..

theorem eq_main_v109 (V : Valuation τ sig (Elt F)) : after ops V (Proc.devRef .tc main_v109) = (cmpi .slt : (⟨S4196352, .i32⟩ : BufTy).Contents (Elt F) → (⟨S4196352, .i32⟩ : BufTy).Contents (Elt F) → (⟨S4196352, .i1⟩ : BufTy).Contents (Elt F)) (after ops V (Proc.devRef .tc main_v85)) (after ops V (Proc.devRef .tc main_v108)) :=
  (fixed V (binary main_v85 main_v108 main_v109 (cmpi .slt : (⟨S4196352, .i32⟩ : BufTy).Contents (Elt F) → (⟨S4196352, .i32⟩ : BufTy).Contents (Elt F) → (⟨S4196352, .i1⟩ : BufTy).Contents (Elt F)) : HloOp τ sig (Elt F)) (List.mem_of_getElem? (show (ops : List (HloOp τ sig (Elt F)))[237]? = some (binary main_v85 main_v108 main_v109 (cmpi .slt : (⟨S4196352, .i32⟩ : BufTy).Contents (Elt F) → (⟨S4196352, .i32⟩ : BufTy).Contents (Elt F) → (⟨S4196352, .i1⟩ : BufTy).Contents (Elt F)) : HloOp τ sig (Elt F)) from rfl)) (Proc.devRef .tc main_v109) (by simp only [binary_writes, Finset.mem_singleton])).trans (res_main_v109 (after ops V))

theorem val_main_v109 (V : Valuation τ sig (Elt F)) : after ops V (Proc.devRef .tc main_v109) = Stage.s_main_v109 (V (Proc.devRef .tc main_arg0)) := by
  rw [eq_main_v109, val_main_v85, val_main_v108]
  rfl

theorem res_main_c_38 (W : Valuation τ sig (Elt F)) : (nullary main_c_38 (constantI S_ 32 2048#32) : HloOp τ sig (Elt F)).result W (Proc.devRef .tc main_c_38) = (constantI S_ 32 2048#32) :=
  nullary_result ..

theorem eq_main_c_38 (V : Valuation τ sig (Elt F)) : after ops V (Proc.devRef .tc main_c_38) = (constantI S_ 32 2048#32) :=
  (fixed V (nullary main_c_38 (constantI S_ 32 2048#32) : HloOp τ sig (Elt F)) (List.mem_of_getElem? (show (ops : List (HloOp τ sig (Elt F)))[238]? = some (nullary main_c_38 (constantI S_ 32 2048#32) : HloOp τ sig (Elt F)) from rfl)) (Proc.devRef .tc main_c_38) (by simp only [nullary_writes, Finset.mem_singleton])).trans (res_main_c_38 (after ops V))

theorem val_main_c_38 (V : Valuation τ sig (Elt F)) : after ops V (Proc.devRef .tc main_c_38) = Stage.s_main_c_38 := by
  rw [eq_main_c_38]
  rfl

theorem res_main_v110 (W : Valuation τ sig (Elt F)) : (unary main_c_38 main_v110 (broadcastInDim S4196352 ![] bcast_S_S4196352 : (⟨S_, .i32⟩ : BufTy).Contents (Elt F) → (⟨S4196352, .i32⟩ : BufTy).Contents (Elt F)) : HloOp τ sig (Elt F)).result W (Proc.devRef .tc main_v110) = (broadcastInDim S4196352 ![] bcast_S_S4196352 : (⟨S_, .i32⟩ : BufTy).Contents (Elt F) → (⟨S4196352, .i32⟩ : BufTy).Contents (Elt F)) (W (Proc.devRef .tc main_c_38)) :=
  unary_result ..

theorem eq_main_v110 (V : Valuation τ sig (Elt F)) : after ops V (Proc.devRef .tc main_v110) = (broadcastInDim S4196352 ![] bcast_S_S4196352 : (⟨S_, .i32⟩ : BufTy).Contents (Elt F) → (⟨S4196352, .i32⟩ : BufTy).Contents (Elt F)) (after ops V (Proc.devRef .tc main_c_38)) :=
  (fixed V (unary main_c_38 main_v110 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[239]? = some (unary main_c_38 main_v110 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v110) (by simp only [unary_writes, Finset.mem_singleton])).trans (res_main_v110 (after ops V))

theorem val_main_v110 (V : Valuation τ sig (Elt F)) : after ops V (Proc.devRef .tc main_v110) = Stage.s_main_v110 (F := F) := by
  rw [eq_main_v110, val_main_c_38]
  rfl

theorem res_main_v111 (W : Valuation τ sig (Elt F)) : (binary main_v85 main_v110 main_v111 (addi : (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v111) = (addi : (⟨S4196352, .i32⟩ : BufTy).Contents (Elt F) → (⟨S4196352, .i32⟩ : BufTy).Contents (Elt F) → (⟨S4196352, .i32⟩ : BufTy).Contents (Elt F)) (W (Proc.devRef .tc main_v85)) (W (Proc.devRef .tc main_v110)) :=
  binary_result ..

theorem eq_main_v111 (V : Valuation τ sig (Elt F)) : after ops V (Proc.devRef .tc main_v111) = (addi : (⟨S4196352, .i32⟩ : BufTy).Contents (Elt F) → (⟨S4196352, .i32⟩ : BufTy).Contents (Elt F) → (⟨S4196352, .i32⟩ : BufTy).Contents (Elt F)) (after ops V (Proc.devRef .tc main_v85)) (after ops V (Proc.devRef .tc main_v110)) :=
  (fixed V (binary main_v85 main_v110 main_v111 (addi : (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[240]? = some (binary main_v85 main_v110 main_v111 (addi : (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v111) (by simp only [binary_writes, Finset.mem_singleton])).trans (res_main_v111 (after ops V))

theorem val_main_v111 (V : Valuation τ sig (Elt F)) : after ops V (Proc.devRef .tc main_v111) = Stage.s_main_v111 (V (Proc.devRef .tc main_arg0)) := by
  rw [eq_main_v111, val_main_v85, val_main_v110]
  rfl

theorem res_main_v112 (W : Valuation τ sig (Elt F)) : (ternary main_v109 main_v111 main_v85 main_v112 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v112) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (W (Proc.devRef .tc main_v109)) (W (Proc.devRef .tc main_v111)) (W (Proc.devRef .tc main_v85)) :=
  ternary_result ..

theorem eq_main_v112 (V : Valuation τ sig (Elt F)) : after ops V (Proc.devRef .tc main_v112) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (after ops V (Proc.devRef .tc main_v109)) (after ops V (Proc.devRef .tc main_v111)) (after ops V (Proc.devRef .tc main_v85)) :=
  (fixed V (ternary main_v109 main_v111 main_v85 main_v112 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[241]? = some (ternary main_v109 main_v111 main_v85 main_v112 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v112) (by simp only [ternary_writes, Finset.mem_singleton])).trans (res_main_v112 (after ops V))

theorem val_main_v112 (V : Valuation τ sig (Elt F)) : after ops V (Proc.devRef .tc main_v112) = Stage.s_main_v112 (V (Proc.devRef .tc main_arg0)) := by
  rw [eq_main_v112, val_main_v109, val_main_v111, val_main_v85]
  rfl

theorem res_main_v113 (W : Valuation τ sig (Elt F)) : (unary main_v112 main_v113 (broadcastInDim S4196352x1 ![0] bcast_S4196352_S4196352x1_0 : (⟨S4196352, .i32⟩ : BufTy).Contents (Elt F) → (⟨S4196352x1, .i32⟩ : BufTy).Contents (Elt F)) : HloOp τ sig (Elt F)).result W (Proc.devRef .tc main_v113) = (broadcastInDim S4196352x1 ![0] bcast_S4196352_S4196352x1_0 : (⟨S4196352, .i32⟩ : BufTy).Contents (Elt F) → (⟨S4196352x1, .i32⟩ : BufTy).Contents (Elt F)) (W (Proc.devRef .tc main_v112)) :=
  unary_result ..

theorem eq_main_v113 (V : Valuation τ sig (Elt F)) : after ops V (Proc.devRef .tc main_v113) = (broadcastInDim S4196352x1 ![0] bcast_S4196352_S4196352x1_0 : (⟨S4196352, .i32⟩ : BufTy).Contents (Elt F) → (⟨S4196352x1, .i32⟩ : BufTy).Contents (Elt F)) (after ops V (Proc.devRef .tc main_v112)) :=
  (fixed V (unary main_v112 main_v113 (broadcastInDim S4196352x1 ![0] bcast_S4196352_S4196352x1_0 : (⟨S4196352, .i32⟩ : BufTy).Contents (Elt F) → (⟨S4196352x1, .i32⟩ : BufTy).Contents (Elt F)) : HloOp τ sig (Elt F)) (List.mem_of_getElem? (show (ops : List (HloOp τ sig (Elt F)))[242]? = some (unary main_v112 main_v113 (broadcastInDim S4196352x1 ![0] bcast_S4196352_S4196352x1_0 : (⟨S4196352, .i32⟩ : BufTy).Contents (Elt F) → (⟨S4196352x1, .i32⟩ : BufTy).Contents (Elt F)) : HloOp τ sig (Elt F)) from rfl)) (Proc.devRef .tc main_v113) (by simp only [unary_writes, Finset.mem_singleton])).trans (res_main_v113 (after ops V))

theorem val_main_v113 (V : Valuation τ sig (Elt F)) : after ops V (Proc.devRef .tc main_v113) = Stage.s_main_v113 (V (Proc.devRef .tc main_arg0)) := by
  rw [eq_main_v113, val_main_v112]
  rfl

theorem res_main_v114 (W : Valuation τ sig (Elt F)) : (binary main_v100 main_v113 main_v114 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) : HloOp τ sig (Elt F)).result W (Proc.devRef .tc main_v114) = ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) (W (Proc.devRef .tc main_v100)) (W (Proc.devRef .tc main_v113)) :=
  binary_result ..

theorem eq_main_v114 (V : Valuation τ sig (Elt F)) : after ops V (Proc.devRef .tc main_v114) = ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) (after ops V (Proc.devRef .tc main_v100)) (after ops V (Proc.devRef .tc main_v113)) :=
  (fixed V (binary main_v100 main_v113 main_v114 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) : HloOp τ sig (Elt F)) (List.mem_of_getElem? (show (ops : List (HloOp τ sig (Elt F)))[243]? = some (binary main_v100 main_v113 main_v114 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) : HloOp τ sig (Elt F)) from rfl)) (Proc.devRef .tc main_v114) (by simp only [binary_writes, Finset.mem_singleton])).trans (res_main_v114 (after ops V))

theorem val_main_v114 (V : Valuation τ sig (Elt F)) : after ops V (Proc.devRef .tc main_v114) = Stage.s_main_v114 (V (Proc.devRef .tc main_arg0)) := by
  rw [eq_main_v114, val_main_v100, val_main_v113]
  rfl

theorem res_main_v115 (W : Valuation τ sig (Elt F)) : (binary main_v107 main_v114 main_v115 (mulf : (⟨S4196352, .f32⟩ : BufTy).Contents (Elt F) → (⟨S4196352, .f32⟩ : BufTy).Contents (Elt F) → (⟨S4196352, .f32⟩ : BufTy).Contents (Elt F)) : HloOp τ sig (Elt F)).result W (Proc.devRef .tc main_v115) = (mulf : (⟨S4196352, .f32⟩ : BufTy).Contents (Elt F) → (⟨S4196352, .f32⟩ : BufTy).Contents (Elt F) → (⟨S4196352, .f32⟩ : BufTy).Contents (Elt F)) (W (Proc.devRef .tc main_v107)) (W (Proc.devRef .tc main_v114)) :=
  binary_result ..

theorem eq_main_v115 (V : Valuation τ sig (Elt F)) : after ops V (Proc.devRef .tc main_v115) = (mulf : (⟨S4196352, .f32⟩ : BufTy).Contents (Elt F) → (⟨S4196352, .f32⟩ : BufTy).Contents (Elt F) → (⟨S4196352, .f32⟩ : BufTy).Contents (Elt F)) (after ops V (Proc.devRef .tc main_v107)) (after ops V (Proc.devRef .tc main_v114)) :=
  (fixed V (binary main_v107 main_v114 main_v115 (mulf : (⟨S4196352, .f32⟩ : BufTy).Contents (Elt F) → (⟨S4196352, .f32⟩ : BufTy).Contents (Elt F) → (⟨S4196352, .f32⟩ : BufTy).Contents (Elt F)) : HloOp τ sig (Elt F)) (List.mem_of_getElem? (show (ops : List (HloOp τ sig (Elt F)))[244]? = some (binary main_v107 main_v114 main_v115 (mulf : (⟨S4196352, .f32⟩ : BufTy).Contents (Elt F) → (⟨S4196352, .f32⟩ : BufTy).Contents (Elt F) → (⟨S4196352, .f32⟩ : BufTy).Contents (Elt F)) : HloOp τ sig (Elt F)) from rfl)) (Proc.devRef .tc main_v115) (by simp only [binary_writes, Finset.mem_singleton])).trans (res_main_v115 (after ops V))

theorem val_main_v115 (V : Valuation τ sig (Elt F)) : after ops V (Proc.devRef .tc main_v115) = Stage.s_main_v115 (V (Proc.devRef .tc main_arg0)) := by
  rw [eq_main_v115, val_main_v107, val_main_v114]
  rfl

theorem res_main_c_39 (W : Valuation τ sig (Elt F)) : (nullary main_c_39 (constantI S_ 32 0#32) : HloOp τ sig (Elt F)).result W (Proc.devRef .tc main_c_39) = (constantI S_ 32 0#32) :=
  nullary_result ..

theorem eq_main_c_39 (V : Valuation τ sig (Elt F)) : after ops V (Proc.devRef .tc main_c_39) = (constantI S_ 32 0#32) :=
  (fixed V (nullary main_c_39 (constantI S_ 32 0#32) : HloOp τ sig (Elt F)) (List.mem_of_getElem? (show (ops : List (HloOp τ sig (Elt F)))[245]? = some (nullary main_c_39 (constantI S_ 32 0#32) : HloOp τ sig (Elt F)) from rfl)) (Proc.devRef .tc main_c_39) (by simp only [nullary_writes, Finset.mem_singleton])).trans (res_main_c_39 (after ops V))

theorem val_main_c_39 (V : Valuation τ sig (Elt F)) : after ops V (Proc.devRef .tc main_c_39) = Stage.s_main_c_39 := by
  rw [eq_main_c_39]
  rfl

theorem res_main_v116 (W : Valuation τ sig (Elt F)) : (unary main_c_39 main_v116 (broadcastInDim S4196352 ![] bcast_S_S4196352 : (⟨S_, .i32⟩ : BufTy).Contents (Elt F) → (⟨S4196352, .i32⟩ : BufTy).Contents (Elt F)) : HloOp τ sig (Elt F)).result W (Proc.devRef .tc main_v116) = (broadcastInDim S4196352 ![] bcast_S_S4196352 : (⟨S_, .i32⟩ : BufTy).Contents (Elt F) → (⟨S4196352, .i32⟩ : BufTy).Contents (Elt F)) (W (Proc.devRef .tc main_c_39)) :=
  unary_result ..

theorem eq_main_v116 (V : Valuation τ sig (Elt F)) : after ops V (Proc.devRef .tc main_v116) = (broadcastInDim S4196352 ![] bcast_S_S4196352 : (⟨S_, .i32⟩ : BufTy).Contents (Elt F) → (⟨S4196352, .i32⟩ : BufTy).Contents (Elt F)) (after ops V (Proc.devRef .tc main_c_39)) :=
  (fixed V (unary main_c_39 main_v116 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[246]? = some (unary main_c_39 main_v116 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v116) (by simp only [unary_writes, Finset.mem_singleton])).trans (res_main_v116 (after ops V))

theorem val_main_v116 (V : Valuation τ sig (Elt F)) : after ops V (Proc.devRef .tc main_v116) = Stage.s_main_v116 (F := F) := by
  rw [eq_main_v116, val_main_c_39]
  rfl

theorem res_main_v117 (W : Valuation τ sig (Elt F)) : (binary main_v84 main_v116 main_v117 (cmpi .slt : (⟨S4196352, .i32⟩ : BufTy).Contents (Elt F) → (⟨S4196352, .i32⟩ : BufTy).Contents (Elt F) → (⟨S4196352, .i1⟩ : BufTy).Contents (Elt F)) : HloOp τ sig (Elt F)).result W (Proc.devRef .tc main_v117) = (cmpi .slt : (⟨S4196352, .i32⟩ : BufTy).Contents (Elt F) → (⟨S4196352, .i32⟩ : BufTy).Contents (Elt F) → (⟨S4196352, .i1⟩ : BufTy).Contents (Elt F)) (W (Proc.devRef .tc main_v84)) (W (Proc.devRef .tc main_v116)) :=
  binary_result ..

theorem eq_main_v117 (V : Valuation τ sig (Elt F)) : after ops V (Proc.devRef .tc main_v117) = (cmpi .slt : (⟨S4196352, .i32⟩ : BufTy).Contents (Elt F) → (⟨S4196352, .i32⟩ : BufTy).Contents (Elt F) → (⟨S4196352, .i1⟩ : BufTy).Contents (Elt F)) (after ops V (Proc.devRef .tc main_v84)) (after ops V (Proc.devRef .tc main_v116)) :=
  (fixed V (binary main_v84 main_v116 main_v117 (cmpi .slt : (⟨S4196352, .i32⟩ : BufTy).Contents (Elt F) → (⟨S4196352, .i32⟩ : BufTy).Contents (Elt F) → (⟨S4196352, .i1⟩ : BufTy).Contents (Elt F)) : HloOp τ sig (Elt F)) (List.mem_of_getElem? (show (ops : List (HloOp τ sig (Elt F)))[247]? = some (binary main_v84 main_v116 main_v117 (cmpi .slt : (⟨S4196352, .i32⟩ : BufTy).Contents (Elt F) → (⟨S4196352, .i32⟩ : BufTy).Contents (Elt F) → (⟨S4196352, .i1⟩ : BufTy).Contents (Elt F)) : HloOp τ sig (Elt F)) from rfl)) (Proc.devRef .tc main_v117) (by simp only [binary_writes, Finset.mem_singleton])).trans (res_main_v117 (after ops V))

theorem val_main_v117 (V : Valuation τ sig (Elt F)) : after ops V (Proc.devRef .tc main_v117) = Stage.s_main_v117 (V (Proc.devRef .tc main_arg0)) := by
  rw [eq_main_v117, val_main_v84, val_main_v116]
  rfl

theorem res_main_c_40 (W : Valuation τ sig (Elt F)) : (nullary main_c_40 (constantI S_ 32 2048#32) : HloOp τ sig (Elt F)).result W (Proc.devRef .tc main_c_40) = (constantI S_ 32 2048#32) :=
  nullary_result ..

theorem eq_main_c_40 (V : Valuation τ sig (Elt F)) : after ops V (Proc.devRef .tc main_c_40) = (constantI S_ 32 2048#32) :=
  (fixed V (nullary main_c_40 (constantI S_ 32 2048#32) : HloOp τ sig (Elt F)) (List.mem_of_getElem? (show (ops : List (HloOp τ sig (Elt F)))[248]? = some (nullary main_c_40 (constantI S_ 32 2048#32) : HloOp τ sig (Elt F)) from rfl)) (Proc.devRef .tc main_c_40) (by simp only [nullary_writes, Finset.mem_singleton])).trans (res_main_c_40 (after ops V))

theorem val_main_c_40 (V : Valuation τ sig (Elt F)) : after ops V (Proc.devRef .tc main_c_40) = Stage.s_main_c_40 := by
  rw [eq_main_c_40]
  rfl

theorem res_main_v118 (W : Valuation τ sig (Elt F)) : (unary main_c_40 main_v118 (broadcastInDim S4196352 ![] bcast_S_S4196352 : (⟨S_, .i32⟩ : BufTy).Contents (Elt F) → (⟨S4196352, .i32⟩ : BufTy).Contents (Elt F)) : HloOp τ sig (Elt F)).result W (Proc.devRef .tc main_v118) = (broadcastInDim S4196352 ![] bcast_S_S4196352 : (⟨S_, .i32⟩ : BufTy).Contents (Elt F) → (⟨S4196352, .i32⟩ : BufTy).Contents (Elt F)) (W (Proc.devRef .tc main_c_40)) :=
  unary_result ..

theorem eq_main_v118 (V : Valuation τ sig (Elt F)) : after ops V (Proc.devRef .tc main_v118) = (broadcastInDim S4196352 ![] bcast_S_S4196352 : (⟨S_, .i32⟩ : BufTy).Contents (Elt F) → (⟨S4196352, .i32⟩ : BufTy).Contents (Elt F)) (after ops V (Proc.devRef .tc main_c_40)) :=
  (fixed V (unary main_c_40 main_v118 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[249]? = some (unary main_c_40 main_v118 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v118) (by simp only [unary_writes, Finset.mem_singleton])).trans (res_main_v118 (after ops V))

theorem val_main_v118 (V : Valuation τ sig (Elt F)) : after ops V (Proc.devRef .tc main_v118) = Stage.s_main_v118 (F := F) := by
  rw [eq_main_v118, val_main_c_40]
  rfl

theorem res_main_v119 (W : Valuation τ sig (Elt F)) : (binary main_v84 main_v118 main_v119 (addi : (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v119) = (addi : (⟨S4196352, .i32⟩ : BufTy).Contents (Elt F) → (⟨S4196352, .i32⟩ : BufTy).Contents (Elt F) → (⟨S4196352, .i32⟩ : BufTy).Contents (Elt F)) (W (Proc.devRef .tc main_v84)) (W (Proc.devRef .tc main_v118)) :=
  binary_result ..

theorem eq_main_v119 (V : Valuation τ sig (Elt F)) : after ops V (Proc.devRef .tc main_v119) = (addi : (⟨S4196352, .i32⟩ : BufTy).Contents (Elt F) → (⟨S4196352, .i32⟩ : BufTy).Contents (Elt F) → (⟨S4196352, .i32⟩ : BufTy).Contents (Elt F)) (after ops V (Proc.devRef .tc main_v84)) (after ops V (Proc.devRef .tc main_v118)) :=
  (fixed V (binary main_v84 main_v118 main_v119 (addi : (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[250]? = some (binary main_v84 main_v118 main_v119 (addi : (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v119) (by simp only [binary_writes, Finset.mem_singleton])).trans (res_main_v119 (after ops V))

theorem val_main_v119 (V : Valuation τ sig (Elt F)) : after ops V (Proc.devRef .tc main_v119) = Stage.s_main_v119 (V (Proc.devRef .tc main_arg0)) := by
  rw [eq_main_v119, val_main_v84, val_main_v118]
  rfl

theorem res_main_v120 (W : Valuation τ sig (Elt F)) : (ternary main_v117 main_v119 main_v84 main_v120 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v120) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (W (Proc.devRef .tc main_v117)) (W (Proc.devRef .tc main_v119)) (W (Proc.devRef .tc main_v84)) :=
  ternary_result ..

theorem eq_main_v120 (V : Valuation τ sig (Elt F)) : after ops V (Proc.devRef .tc main_v120) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (after ops V (Proc.devRef .tc main_v117)) (after ops V (Proc.devRef .tc main_v119)) (after ops V (Proc.devRef .tc main_v84)) :=
  (fixed V (ternary main_v117 main_v119 main_v84 main_v120 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[251]? = some (ternary main_v117 main_v119 main_v84 main_v120 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v120) (by simp only [ternary_writes, Finset.mem_singleton])).trans (res_main_v120 (after ops V))

theorem val_main_v120 (V : Valuation τ sig (Elt F)) : after ops V (Proc.devRef .tc main_v120) = Stage.s_main_v120 (V (Proc.devRef .tc main_arg0)) := by
  rw [eq_main_v120, val_main_v117, val_main_v119, val_main_v84]
  rfl

theorem res_main_v121 (W : Valuation τ sig (Elt F)) : (unary main_v120 main_v121 (broadcastInDim S4196352x1 ![0] bcast_S4196352_S4196352x1_0 : (⟨S4196352, .i32⟩ : BufTy).Contents (Elt F) → (⟨S4196352x1, .i32⟩ : BufTy).Contents (Elt F)) : HloOp τ sig (Elt F)).result W (Proc.devRef .tc main_v121) = (broadcastInDim S4196352x1 ![0] bcast_S4196352_S4196352x1_0 : (⟨S4196352, .i32⟩ : BufTy).Contents (Elt F) → (⟨S4196352x1, .i32⟩ : BufTy).Contents (Elt F)) (W (Proc.devRef .tc main_v120)) :=
  unary_result ..

theorem eq_main_v121 (V : Valuation τ sig (Elt F)) : after ops V (Proc.devRef .tc main_v121) = (broadcastInDim S4196352x1 ![0] bcast_S4196352_S4196352x1_0 : (⟨S4196352, .i32⟩ : BufTy).Contents (Elt F) → (⟨S4196352x1, .i32⟩ : BufTy).Contents (Elt F)) (after ops V (Proc.devRef .tc main_v120)) :=
  (fixed V (unary main_v120 main_v121 (broadcastInDim S4196352x1 ![0] bcast_S4196352_S4196352x1_0 : (⟨S4196352, .i32⟩ : BufTy).Contents (Elt F) → (⟨S4196352x1, .i32⟩ : BufTy).Contents (Elt F)) : HloOp τ sig (Elt F)) (List.mem_of_getElem? (show (ops : List (HloOp τ sig (Elt F)))[252]? = some (unary main_v120 main_v121 (broadcastInDim S4196352x1 ![0] bcast_S4196352_S4196352x1_0 : (⟨S4196352, .i32⟩ : BufTy).Contents (Elt F) → (⟨S4196352x1, .i32⟩ : BufTy).Contents (Elt F)) : HloOp τ sig (Elt F)) from rfl)) (Proc.devRef .tc main_v121) (by simp only [unary_writes, Finset.mem_singleton])).trans (res_main_v121 (after ops V))

theorem val_main_v121 (V : Valuation τ sig (Elt F)) : after ops V (Proc.devRef .tc main_v121) = Stage.s_main_v121 (V (Proc.devRef .tc main_arg0)) := by
  rw [eq_main_v121, val_main_v120]
  rfl

theorem res_main_v122 (W : Valuation τ sig (Elt F)) : (binary main_v82 main_v121 main_v122 ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)) : HloOp τ sig (Elt F)).result W (Proc.devRef .tc main_v122) = ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)) (W (Proc.devRef .tc main_v82)) (W (Proc.devRef .tc main_v121)) :=
  binary_result ..

theorem eq_main_v122 (V : Valuation τ sig (Elt F)) : after ops V (Proc.devRef .tc main_v122) = ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)) (after ops V (Proc.devRef .tc main_v82)) (after ops V (Proc.devRef .tc main_v121)) :=
  (fixed V (binary main_v82 main_v121 main_v122 ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)) : HloOp τ sig (Elt F)) (List.mem_of_getElem? (show (ops : List (HloOp τ sig (Elt F)))[253]? = some (binary main_v82 main_v121 main_v122 ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)) : HloOp τ sig (Elt F)) from rfl)) (Proc.devRef .tc main_v122) (by simp only [binary_writes, Finset.mem_singleton])).trans (res_main_v122 (after ops V))

theorem val_main_v122 (V : Valuation τ sig (Elt F)) : after ops V (Proc.devRef .tc main_v122) = Stage.s_main_v122 (V (Proc.devRef .tc main_arg0)) (V (Proc.devRef .tc main_arg1)) (V (Proc.devRef .tc main_arg2)) (V (Proc.devRef .tc main_arg3)) := by
  rw [eq_main_v122, val_main_v82, val_main_v121]
  rfl

theorem res_main_v123 (W : Valuation τ sig (Elt F)) : (unary main_v115 main_v123 (broadcastInDim S4196352x1 ![0] bcast_S4196352_S4196352x1_0 : (⟨S4196352, .f32⟩ : BufTy).Contents (Elt F) → (⟨S4196352x1, .f32⟩ : BufTy).Contents (Elt F)) : HloOp τ sig (Elt F)).result W (Proc.devRef .tc main_v123) = (broadcastInDim S4196352x1 ![0] bcast_S4196352_S4196352x1_0 : (⟨S4196352, .f32⟩ : BufTy).Contents (Elt F) → (⟨S4196352x1, .f32⟩ : BufTy).Contents (Elt F)) (W (Proc.devRef .tc main_v115)) :=
  unary_result ..

theorem eq_main_v123 (V : Valuation τ sig (Elt F)) : after ops V (Proc.devRef .tc main_v123) = (broadcastInDim S4196352x1 ![0] bcast_S4196352_S4196352x1_0 : (⟨S4196352, .f32⟩ : BufTy).Contents (Elt F) → (⟨S4196352x1, .f32⟩ : BufTy).Contents (Elt F)) (after ops V (Proc.devRef .tc main_v115)) :=
  (fixed V (unary main_v115 main_v123 (broadcastInDim S4196352x1 ![0] bcast_S4196352_S4196352x1_0 : (⟨S4196352, .f32⟩ : BufTy).Contents (Elt F) → (⟨S4196352x1, .f32⟩ : BufTy).Contents (Elt F)) : HloOp τ sig (Elt F)) (List.mem_of_getElem? (show (ops : List (HloOp τ sig (Elt F)))[254]? = some (unary main_v115 main_v123 (broadcastInDim S4196352x1 ![0] bcast_S4196352_S4196352x1_0 : (⟨S4196352, .f32⟩ : BufTy).Contents (Elt F) → (⟨S4196352x1, .f32⟩ : BufTy).Contents (Elt F)) : HloOp τ sig (Elt F)) from rfl)) (Proc.devRef .tc main_v123) (by simp only [unary_writes, Finset.mem_singleton])).trans (res_main_v123 (after ops V))

theorem val_main_v123 (V : Valuation τ sig (Elt F)) : after ops V (Proc.devRef .tc main_v123) = Stage.s_main_v123 (V (Proc.devRef .tc main_arg0)) := by
  rw [eq_main_v123, val_main_v115]
  rfl

theorem res_main_v124 (W : Valuation τ sig (Elt F)) : (unary main_v123 main_v124 (broadcastInDim S4196352x32 ![0, 1] bcast_S4196352x1_S4196352x32_0_1 : (⟨S4196352x1, .f32⟩ : BufTy).Contents (Elt F) → (⟨S4196352x32, .f32⟩ : BufTy).Contents (Elt F)) : HloOp τ sig (Elt F)).result W (Proc.devRef .tc main_v124) = (broadcastInDim S4196352x32 ![0, 1] bcast_S4196352x1_S4196352x32_0_1 : (⟨S4196352x1, .f32⟩ : BufTy).Contents (Elt F) → (⟨S4196352x32, .f32⟩ : BufTy).Contents (Elt F)) (W (Proc.devRef .tc main_v123)) :=
  unary_result ..

theorem eq_main_v124 (V : Valuation τ sig (Elt F)) : after ops V (Proc.devRef .tc main_v124) = (broadcastInDim S4196352x32 ![0, 1] bcast_S4196352x1_S4196352x32_0_1 : (⟨S4196352x1, .f32⟩ : BufTy).Contents (Elt F) → (⟨S4196352x32, .f32⟩ : BufTy).Contents (Elt F)) (after ops V (Proc.devRef .tc main_v123)) :=
  (fixed V (unary main_v123 main_v124 (broadcastInDim S4196352x32 ![0, 1] bcast_S4196352x1_S4196352x32_0_1 : (⟨S4196352x1, .f32⟩ : BufTy).Contents (Elt F) → (⟨S4196352x32, .f32⟩ : BufTy).Contents (Elt F)) : HloOp τ sig (Elt F)) (List.mem_of_getElem? (show (ops : List (HloOp τ sig (Elt F)))[255]? = some (unary main_v123 main_v124 (broadcastInDim S4196352x32 ![0, 1] bcast_S4196352x1_S4196352x32_0_1 : (⟨S4196352x1, .f32⟩ : BufTy).Contents (Elt F) → (⟨S4196352x32, .f32⟩ : BufTy).Contents (Elt F)) : HloOp τ sig (Elt F)) from rfl)) (Proc.devRef .tc main_v124) (by simp only [unary_writes, Finset.mem_singleton])).trans (res_main_v124 (after ops V))

theorem val_main_v124 (V : Valuation τ sig (Elt F)) : after ops V (Proc.devRef .tc main_v124) = Stage.s_main_v124 (V (Proc.devRef .tc main_arg0)) := by
  rw [eq_main_v124, val_main_v123]
  rfl

theorem res_main_v125 (W : Valuation τ sig (Elt F)) : (binary main_v122 main_v124 main_v125 (mulf : (⟨S4196352x32, .f32⟩ : BufTy).Contents (Elt F) → (⟨S4196352x32, .f32⟩ : BufTy).Contents (Elt F) → (⟨S4196352x32, .f32⟩ : BufTy).Contents (Elt F)) : HloOp τ sig (Elt F)).result W (Proc.devRef .tc main_v125) = (mulf : (⟨S4196352x32, .f32⟩ : BufTy).Contents (Elt F) → (⟨S4196352x32, .f32⟩ : BufTy).Contents (Elt F) → (⟨S4196352x32, .f32⟩ : BufTy).Contents (Elt F)) (W (Proc.devRef .tc main_v122)) (W (Proc.devRef .tc main_v124)) :=
  binary_result ..

theorem eq_main_v125 (V : Valuation τ sig (Elt F)) : after ops V (Proc.devRef .tc main_v125) = (mulf : (⟨S4196352x32, .f32⟩ : BufTy).Contents (Elt F) → (⟨S4196352x32, .f32⟩ : BufTy).Contents (Elt F) → (⟨S4196352x32, .f32⟩ : BufTy).Contents (Elt F)) (after ops V (Proc.devRef .tc main_v122)) (after ops V (Proc.devRef .tc main_v124)) :=
  (fixed V (binary main_v122 main_v124 main_v125 (mulf : (⟨S4196352x32, .f32⟩ : BufTy).Contents (Elt F) → (⟨S4196352x32, .f32⟩ : BufTy).Contents (Elt F) → (⟨S4196352x32, .f32⟩ : BufTy).Contents (Elt F)) : HloOp τ sig (Elt F)) (List.mem_of_getElem? (show (ops : List (HloOp τ sig (Elt F)))[256]? = some (binary main_v122 main_v124 main_v125 (mulf : (⟨S4196352x32, .f32⟩ : BufTy).Contents (Elt F) → (⟨S4196352x32, .f32⟩ : BufTy).Contents (Elt F) → (⟨S4196352x32, .f32⟩ : BufTy).Contents (Elt F)) : HloOp τ sig (Elt F)) from rfl)) (Proc.devRef .tc main_v125) (by simp only [binary_writes, Finset.mem_singleton])).trans (res_main_v125 (after ops V))

theorem val_main_v125 (V : Valuation τ sig (Elt F)) : after ops V (Proc.devRef .tc main_v125) = Stage.s_main_v125 (V (Proc.devRef .tc main_arg0)) (V (Proc.devRef .tc main_arg1)) (V (Proc.devRef .tc main_arg2)) (V (Proc.devRef .tc main_arg3)) := by
  rw [eq_main_v125, val_main_v122, val_main_v124]
  rfl

theorem res_main_cst_41 (W : Valuation τ sig (Elt F)) : (nullary main_cst_41 (constant S_ .f32 0x00000000#32) : HloOp τ sig (Elt F)).result W (Proc.devRef .tc main_cst_41) = (constant (F := F) S_ .f32 0x00000000#32) :=
  nullary_result ..

theorem eq_main_cst_41 (V : Valuation τ sig (Elt F)) : after ops V (Proc.devRef .tc main_cst_41) = (constant (F := F) S_ .f32 0x00000000#32) :=
  (fixed V (nullary main_cst_41 (constant S_ .f32 0x00000000#32) : HloOp τ sig (Elt F)) (List.mem_of_getElem? (show (ops : List (HloOp τ sig (Elt F)))[257]? = some (nullary main_cst_41 (constant S_ .f32 0x00000000#32) : HloOp τ sig (Elt F)) from rfl)) (Proc.devRef .tc main_cst_41) (by simp only [nullary_writes, Finset.mem_singleton])).trans (res_main_cst_41 (after ops V))

theorem val_main_cst_41 (V : Valuation τ sig (Elt F)) : after ops V (Proc.devRef .tc main_cst_41) = Stage.s_main_cst_41 (F := F) := by
  rw [eq_main_cst_41]
  rfl

theorem res_main_v126 (W : Valuation τ sig (Elt F)) : (unary main_cst_41 main_v126 (broadcastInDim S2048x32 ![] bcast_S_S2048x32 : (⟨S_, .f32⟩ : BufTy).Contents (Elt F) → (⟨S2048x32, .f32⟩ : BufTy).Contents (Elt F)) : HloOp τ sig (Elt F)).result W (Proc.devRef .tc main_v126) = (broadcastInDim S2048x32 ![] bcast_S_S2048x32 : (⟨S_, .f32⟩ : BufTy).Contents (Elt F) → (⟨S2048x32, .f32⟩ : BufTy).Contents (Elt F)) (W (Proc.devRef .tc main_cst_41)) :=
  unary_result ..

theorem eq_main_v126 (V : Valuation τ sig (Elt F)) : after ops V (Proc.devRef .tc main_v126) = (broadcastInDim S2048x32 ![] bcast_S_S2048x32 : (⟨S_, .f32⟩ : BufTy).Contents (Elt F) → (⟨S2048x32, .f32⟩ : BufTy).Contents (Elt F)) (after ops V (Proc.devRef .tc main_cst_41)) :=
  (fixed V (unary main_cst_41 main_v126 (broadcastInDim S2048x32 ![] bcast_S_S2048x32 : (⟨S_, .f32⟩ : BufTy).Contents (Elt F) → (⟨S2048x32, .f32⟩ : BufTy).Contents (Elt F)) : HloOp τ sig (Elt F)) (List.mem_of_getElem? (show (ops : List (HloOp τ sig (Elt F)))[258]? = some (unary main_cst_41 main_v126 (broadcastInDim S2048x32 ![] bcast_S_S2048x32 : (⟨S_, .f32⟩ : BufTy).Contents (Elt F) → (⟨S2048x32, .f32⟩ : BufTy).Contents (Elt F)) : HloOp τ sig (Elt F)) from rfl)) (Proc.devRef .tc main_v126) (by simp only [unary_writes, Finset.mem_singleton])).trans (res_main_v126 (after ops V))

theorem val_main_v126 (V : Valuation τ sig (Elt F)) : after ops V (Proc.devRef .tc main_v126) = Stage.s_main_v126 (F := F) := by
  rw [eq_main_v126, val_main_cst_41]
  rfl

theorem res_main_c_42 (W : Valuation τ sig (Elt F)) : (nullary main_c_42 (constantI S_ 32 0#32) : HloOp τ sig (Elt F)).result W (Proc.devRef .tc main_c_42) = (constantI S_ 32 0#32) :=
  nullary_result ..

theorem eq_main_c_42 (V : Valuation τ sig (Elt F)) : after ops V (Proc.devRef .tc main_c_42) = (constantI S_ 32 0#32) :=
  (fixed V (nullary main_c_42 (constantI S_ 32 0#32) : HloOp τ sig (Elt F)) (List.mem_of_getElem? (show (ops : List (HloOp τ sig (Elt F)))[259]? = some (nullary main_c_42 (constantI S_ 32 0#32) : HloOp τ sig (Elt F)) from rfl)) (Proc.devRef .tc main_c_42) (by simp only [nullary_writes, Finset.mem_singleton])).trans (res_main_c_42 (after ops V))

theorem val_main_c_42 (V : Valuation τ sig (Elt F)) : after ops V (Proc.devRef .tc main_c_42) = Stage.s_main_c_42 := by
  rw [eq_main_c_42]
  rfl

theorem res_main_v127 (W : Valuation τ sig (Elt F)) : (unary main_c_42 main_v127 (broadcastInDim S4196352 ![] bcast_S_S4196352 : (⟨S_, .i32⟩ : BufTy).Contents (Elt F) → (⟨S4196352, .i32⟩ : BufTy).Contents (Elt F)) : HloOp τ sig (Elt F)).result W (Proc.devRef .tc main_v127) = (broadcastInDim S4196352 ![] bcast_S_S4196352 : (⟨S_, .i32⟩ : BufTy).Contents (Elt F) → (⟨S4196352, .i32⟩ : BufTy).Contents (Elt F)) (W (Proc.devRef .tc main_c_42)) :=
  unary_result ..

theorem eq_main_v127 (V : Valuation τ sig (Elt F)) : after ops V (Proc.devRef .tc main_v127) = (broadcastInDim S4196352 ![] bcast_S_S4196352 : (⟨S_, .i32⟩ : BufTy).Contents (Elt F) → (⟨S4196352, .i32⟩ : BufTy).Contents (Elt F)) (after ops V (Proc.devRef .tc main_c_42)) :=
  (fixed V (unary main_c_42 main_v127 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[260]? = some (unary main_c_42 main_v127 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v127) (by simp only [unary_writes, Finset.mem_singleton])).trans (res_main_v127 (after ops V))

theorem val_main_v127 (V : Valuation τ sig (Elt F)) : after ops V (Proc.devRef .tc main_v127) = Stage.s_main_v127 (F := F) := by
  rw [eq_main_v127, val_main_c_42]
  rfl

theorem res_main_v128 (W : Valuation τ sig (Elt F)) : (binary main_v85 main_v127 main_v128 (cmpi .slt : (⟨S4196352, .i32⟩ : BufTy).Contents (Elt F) → (⟨S4196352, .i32⟩ : BufTy).Contents (Elt F) → (⟨S4196352, .i1⟩ : BufTy).Contents (Elt F)) : HloOp τ sig (Elt F)).result W (Proc.devRef .tc main_v128) = (cmpi .slt : (⟨S4196352, .i32⟩ : BufTy).Contents (Elt F) → (⟨S4196352, .i32⟩ : BufTy).Contents (Elt F) → (⟨S4196352, .i1⟩ : BufTy).Contents (Elt F)) (W (Proc.devRef .tc main_v85)) (W (Proc.devRef .tc main_v127)) :=
  binary_result ..

theorem eq_main_v128 (V : Valuation τ sig (Elt F)) : after ops V (Proc.devRef .tc main_v128) = (cmpi .slt : (⟨S4196352, .i32⟩ : BufTy).Contents (Elt F) → (⟨S4196352, .i32⟩ : BufTy).Contents (Elt F) → (⟨S4196352, .i1⟩ : BufTy).Contents (Elt F)) (after ops V (Proc.devRef .tc main_v85)) (after ops V (Proc.devRef .tc main_v127)) :=
  (fixed V (binary main_v85 main_v127 main_v128 (cmpi .slt : (⟨S4196352, .i32⟩ : BufTy).Contents (Elt F) → (⟨S4196352, .i32⟩ : BufTy).Contents (Elt F) → (⟨S4196352, .i1⟩ : BufTy).Contents (Elt F)) : HloOp τ sig (Elt F)) (List.mem_of_getElem? (show (ops : List (HloOp τ sig (Elt F)))[261]? = some (binary main_v85 main_v127 main_v128 (cmpi .slt : (⟨S4196352, .i32⟩ : BufTy).Contents (Elt F) → (⟨S4196352, .i32⟩ : BufTy).Contents (Elt F) → (⟨S4196352, .i1⟩ : BufTy).Contents (Elt F)) : HloOp τ sig (Elt F)) from rfl)) (Proc.devRef .tc main_v128) (by simp only [binary_writes, Finset.mem_singleton])).trans (res_main_v128 (after ops V))

theorem val_main_v128 (V : Valuation τ sig (Elt F)) : after ops V (Proc.devRef .tc main_v128) = Stage.s_main_v128 (V (Proc.devRef .tc main_arg0)) := by
  rw [eq_main_v128, val_main_v85, val_main_v127]
  rfl

theorem res_main_c_43 (W : Valuation τ sig (Elt F)) : (nullary main_c_43 (constantI S_ 32 2048#32) : HloOp τ sig (Elt F)).result W (Proc.devRef .tc main_c_43) = (constantI S_ 32 2048#32) :=
  nullary_result ..

theorem eq_main_c_43 (V : Valuation τ sig (Elt F)) : after ops V (Proc.devRef .tc main_c_43) = (constantI S_ 32 2048#32) :=
  (fixed V (nullary main_c_43 (constantI S_ 32 2048#32) : HloOp τ sig (Elt F)) (List.mem_of_getElem? (show (ops : List (HloOp τ sig (Elt F)))[262]? = some (nullary main_c_43 (constantI S_ 32 2048#32) : HloOp τ sig (Elt F)) from rfl)) (Proc.devRef .tc main_c_43) (by simp only [nullary_writes, Finset.mem_singleton])).trans (res_main_c_43 (after ops V))

theorem val_main_c_43 (V : Valuation τ sig (Elt F)) : after ops V (Proc.devRef .tc main_c_43) = Stage.s_main_c_43 := by
  rw [eq_main_c_43]
  rfl

theorem res_main_v129 (W : Valuation τ sig (Elt F)) : (unary main_c_43 main_v129 (broadcastInDim S4196352 ![] bcast_S_S4196352 : (⟨S_, .i32⟩ : BufTy).Contents (Elt F) → (⟨S4196352, .i32⟩ : BufTy).Contents (Elt F)) : HloOp τ sig (Elt F)).result W (Proc.devRef .tc main_v129) = (broadcastInDim S4196352 ![] bcast_S_S4196352 : (⟨S_, .i32⟩ : BufTy).Contents (Elt F) → (⟨S4196352, .i32⟩ : BufTy).Contents (Elt F)) (W (Proc.devRef .tc main_c_43)) :=
  unary_result ..

theorem eq_main_v129 (V : Valuation τ sig (Elt F)) : after ops V (Proc.devRef .tc main_v129) = (broadcastInDim S4196352 ![] bcast_S_S4196352 : (⟨S_, .i32⟩ : BufTy).Contents (Elt F) → (⟨S4196352, .i32⟩ : BufTy).Contents (Elt F)) (after ops V (Proc.devRef .tc main_c_43)) :=
  (fixed V (unary main_c_43 main_v129 (broadcastInDim S4196352 ![] bcast_S_S4196352 : (⟨S_, .i32⟩ : BufTy).Contents (Elt F) → (⟨S4196352, .i32⟩ : BufTy).Contents (Elt F)) : HloOp τ sig (Elt F)) (List.mem_of_getElem? (show (ops : List (HloOp τ sig (Elt F)))[263]? = some (unary main_c_43 main_v129 (broadcastInDim S4196352 ![] bcast_S_S4196352 : (⟨S_, .i32⟩ : BufTy).Contents (Elt F) → (⟨S4196352, .i32⟩ : BufTy).Contents (Elt F)) : HloOp τ sig (Elt F)) from rfl)) (Proc.devRef .tc main_v129) (by simp only [unary_writes, Finset.mem_singleton])).trans (res_main_v129 (after ops V))

theorem val_main_v129 (V : Valuation τ sig (Elt F)) : after ops V (Proc.devRef .tc main_v129) = Stage.s_main_v129 (F := F) := by
  rw [eq_main_v129, val_main_c_43]
  rfl

theorem res_main_v130 (W : Valuation τ sig (Elt F)) : (binary main_v85 main_v129 main_v130 (addi : (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v130) = (addi : (⟨S4196352, .i32⟩ : BufTy).Contents (Elt F) → (⟨S4196352, .i32⟩ : BufTy).Contents (Elt F) → (⟨S4196352, .i32⟩ : BufTy).Contents (Elt F)) (W (Proc.devRef .tc main_v85)) (W (Proc.devRef .tc main_v129)) :=
  binary_result ..

theorem eq_main_v130 (V : Valuation τ sig (Elt F)) : after ops V (Proc.devRef .tc main_v130) = (addi : (⟨S4196352, .i32⟩ : BufTy).Contents (Elt F) → (⟨S4196352, .i32⟩ : BufTy).Contents (Elt F) → (⟨S4196352, .i32⟩ : BufTy).Contents (Elt F)) (after ops V (Proc.devRef .tc main_v85)) (after ops V (Proc.devRef .tc main_v129)) :=
  (fixed V (binary main_v85 main_v129 main_v130 (addi : (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[264]? = some (binary main_v85 main_v129 main_v130 (addi : (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v130) (by simp only [binary_writes, Finset.mem_singleton])).trans (res_main_v130 (after ops V))

theorem val_main_v130 (V : Valuation τ sig (Elt F)) : after ops V (Proc.devRef .tc main_v130) = Stage.s_main_v130 (V (Proc.devRef .tc main_arg0)) := by
  rw [eq_main_v130, val_main_v85, val_main_v129]
  rfl

theorem res_main_v131 (W : Valuation τ sig (Elt F)) : (ternary main_v128 main_v130 main_v85 main_v131 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)).result W (Proc.devRef .tc main_v131) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (W (Proc.devRef .tc main_v128)) (W (Proc.devRef .tc main_v130)) (W (Proc.devRef .tc main_v85)) :=
  ternary_result ..

theorem eq_main_v131 (V : Valuation τ sig (Elt F)) : after ops V (Proc.devRef .tc main_v131) = (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) (after ops V (Proc.devRef .tc main_v128)) (after ops V (Proc.devRef .tc main_v130)) (after ops V (Proc.devRef .tc main_v85)) :=
  (fixed V (ternary main_v128 main_v130 main_v85 main_v131 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) (List.mem_of_getElem? (show (ops : List (HloOp τ sig (Elt F)))[265]? = some (ternary main_v128 main_v130 main_v85 main_v131 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)) : HloOp τ sig (Elt F)) from rfl)) (Proc.devRef .tc main_v131) (by simp only [ternary_writes, Finset.mem_singleton])).trans (res_main_v131 (after ops V))

theorem val_main_v131 (V : Valuation τ sig (Elt F)) : after ops V (Proc.devRef .tc main_v131) = Stage.s_main_v131 (V (Proc.devRef .tc main_arg0)) := by
  rw [eq_main_v131, val_main_v128, val_main_v130, val_main_v85]
  rfl

theorem res_main_v132 (W : Valuation τ sig (Elt F)) : (unary main_v131 main_v132 (broadcastInDim S4196352x1 ![0] bcast_S4196352_S4196352x1_0 : (⟨S4196352, .i32⟩ : BufTy).Contents (Elt F) → (⟨S4196352x1, .i32⟩ : BufTy).Contents (Elt F)) : HloOp τ sig (Elt F)).result W (Proc.devRef .tc main_v132) = (broadcastInDim S4196352x1 ![0] bcast_S4196352_S4196352x1_0 : (⟨S4196352, .i32⟩ : BufTy).Contents (Elt F) → (⟨S4196352x1, .i32⟩ : BufTy).Contents (Elt F)) (W (Proc.devRef .tc main_v131)) :=
  unary_result ..

theorem eq_main_v132 (V : Valuation τ sig (Elt F)) : after ops V (Proc.devRef .tc main_v132) = (broadcastInDim S4196352x1 ![0] bcast_S4196352_S4196352x1_0 : (⟨S4196352, .i32⟩ : BufTy).Contents (Elt F) → (⟨S4196352x1, .i32⟩ : BufTy).Contents (Elt F)) (after ops V (Proc.devRef .tc main_v131)) :=
  (fixed V (unary main_v131 main_v132 (broadcastInDim S4196352x1 ![0] bcast_S4196352_S4196352x1_0 : (⟨S4196352, .i32⟩ : BufTy).Contents (Elt F) → (⟨S4196352x1, .i32⟩ : BufTy).Contents (Elt F)) : HloOp τ sig (Elt F)) (List.mem_of_getElem? (show (ops : List (HloOp τ sig (Elt F)))[266]? = some (unary main_v131 main_v132 (broadcastInDim S4196352x1 ![0] bcast_S4196352_S4196352x1_0 : (⟨S4196352, .i32⟩ : BufTy).Contents (Elt F) → (⟨S4196352x1, .i32⟩ : BufTy).Contents (Elt F)) : HloOp τ sig (Elt F)) from rfl)) (Proc.devRef .tc main_v132) (by simp only [unary_writes, Finset.mem_singleton])).trans (res_main_v132 (after ops V))

theorem val_main_v132 (V : Valuation τ sig (Elt F)) : after ops V (Proc.devRef .tc main_v132) = Stage.s_main_v132 (V (Proc.devRef .tc main_arg0)) := by
  rw [eq_main_v132, val_main_v131]
  rfl

theorem res_main_v133 (W : Valuation τ sig (Elt F)) : (ternary main_v126 main_v132 main_v125 main_v133 ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)) : HloOp τ sig (Elt F)).result W (Proc.devRef .tc main_v133) = ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)) (W (Proc.devRef .tc main_v126)) (W (Proc.devRef .tc main_v132)) (W (Proc.devRef .tc main_v125)) :=
  ternary_result ..

theorem eq_main_v133 (V : Valuation τ sig (Elt F)) : after ops V (Proc.devRef .tc main_v133) = ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)) (after ops V (Proc.devRef .tc main_v126)) (after ops V (Proc.devRef .tc main_v132)) (after ops V (Proc.devRef .tc main_v125)) :=
  (fixed V (ternary main_v126 main_v132 main_v125 main_v133 ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)) : HloOp τ sig (Elt F)) (List.mem_of_getElem? (show (ops : List (HloOp τ sig (Elt F)))[267]? = some (ternary main_v126 main_v132 main_v125 main_v133 ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)) : HloOp τ sig (Elt F)) from rfl)) (Proc.devRef .tc main_v133) (by simp only [ternary_writes, Finset.mem_singleton])).trans (res_main_v133 (after ops V))

theorem val_main_v133 (V : Valuation τ sig (Elt F)) : after ops V (Proc.devRef .tc main_v133) = Stage.s_main_v133 (V (Proc.devRef .tc main_arg0)) (V (Proc.devRef .tc main_arg1)) (V (Proc.devRef .tc main_arg2)) (V (Proc.devRef .tc main_arg3)) := by
  rw [eq_main_v133, val_main_v126, val_main_v132, val_main_v125]
  rfl

theorem res_main_v134 (W : Valuation τ sig (Elt F)) : (unary main_arg4 main_v134 (broadcastInDim S1x32 ![1] bcast_S32_S1x32_1 : (⟨S32, .f32⟩ : BufTy).Contents (Elt F) → (⟨S1x32, .f32⟩ : BufTy).Contents (Elt F)) : HloOp τ sig (Elt F)).result W (Proc.devRef .tc main_v134) = (broadcastInDim S1x32 ![1] bcast_S32_S1x32_1 : (⟨S32, .f32⟩ : BufTy).Contents (Elt F) → (⟨S1x32, .f32⟩ : BufTy).Contents (Elt F)) (W (Proc.devRef .tc main_arg4)) :=
  unary_result ..

theorem eq_main_v134 (V : Valuation τ sig (Elt F)) : after ops V (Proc.devRef .tc main_v134) = (broadcastInDim S1x32 ![1] bcast_S32_S1x32_1 : (⟨S32, .f32⟩ : BufTy).Contents (Elt F) → (⟨S1x32, .f32⟩ : BufTy).Contents (Elt F)) (after ops V (Proc.devRef .tc main_arg4)) :=
  (fixed V (unary main_arg4 main_v134 (broadcastInDim S1x32 ![1] bcast_S32_S1x32_1 : (⟨S32, .f32⟩ : BufTy).Contents (Elt F) → (⟨S1x32, .f32⟩ : BufTy).Contents (Elt F)) : HloOp τ sig (Elt F)) (List.mem_of_getElem? (show (ops : List (HloOp τ sig (Elt F)))[268]? = some (unary main_arg4 main_v134 (broadcastInDim S1x32 ![1] bcast_S32_S1x32_1 : (⟨S32, .f32⟩ : BufTy).Contents (Elt F) → (⟨S1x32, .f32⟩ : BufTy).Contents (Elt F)) : HloOp τ sig (Elt F)) from rfl)) (Proc.devRef .tc main_v134) (by simp only [unary_writes, Finset.mem_singleton])).trans (res_main_v134 (after ops V))

theorem val_main_v134 (V : Valuation τ sig (Elt F)) : after ops V (Proc.devRef .tc main_v134) = Stage.s_main_v134 (V (Proc.devRef .tc main_arg4)) := by
  rw [eq_main_v134, arg4_kept]
  rfl

theorem res_main_v135 (W : Valuation τ sig (Elt F)) : (unary main_v134 main_v135 (broadcastInDim S2048x32 ![0, 1] bcast_S1x32_S2048x32_0_1 : (⟨S1x32, .f32⟩ : BufTy).Contents (Elt F) → (⟨S2048x32, .f32⟩ : BufTy).Contents (Elt F)) : HloOp τ sig (Elt F)).result W (Proc.devRef .tc main_v135) = (broadcastInDim S2048x32 ![0, 1] bcast_S1x32_S2048x32_0_1 : (⟨S1x32, .f32⟩ : BufTy).Contents (Elt F) → (⟨S2048x32, .f32⟩ : BufTy).Contents (Elt F)) (W (Proc.devRef .tc main_v134)) :=
  unary_result ..

theorem eq_main_v135 (V : Valuation τ sig (Elt F)) : after ops V (Proc.devRef .tc main_v135) = (broadcastInDim S2048x32 ![0, 1] bcast_S1x32_S2048x32_0_1 : (⟨S1x32, .f32⟩ : BufTy).Contents (Elt F) → (⟨S2048x32, .f32⟩ : BufTy).Contents (Elt F)) (after ops V (Proc.devRef .tc main_v134)) :=
  (fixed V (unary main_v134 main_v135 (broadcastInDim S2048x32 ![0, 1] bcast_S1x32_S2048x32_0_1 : (⟨S1x32, .f32⟩ : BufTy).Contents (Elt F) → (⟨S2048x32, .f32⟩ : BufTy).Contents (Elt F)) : HloOp τ sig (Elt F)) (List.mem_of_getElem? (show (ops : List (HloOp τ sig (Elt F)))[269]? = some (unary main_v134 main_v135 (broadcastInDim S2048x32 ![0, 1] bcast_S1x32_S2048x32_0_1 : (⟨S1x32, .f32⟩ : BufTy).Contents (Elt F) → (⟨S2048x32, .f32⟩ : BufTy).Contents (Elt F)) : HloOp τ sig (Elt F)) from rfl)) (Proc.devRef .tc main_v135) (by simp only [unary_writes, Finset.mem_singleton])).trans (res_main_v135 (after ops V))

theorem val_main_v135 (V : Valuation τ sig (Elt F)) : after ops V (Proc.devRef .tc main_v135) = Stage.s_main_v135 (V (Proc.devRef .tc main_arg4)) := by
  rw [eq_main_v135, val_main_v134]
  rfl

theorem res_main_v136 (W : Valuation τ sig (Elt F)) : (binary main_v133 main_v135 main_v136 (addf : (⟨S2048x32, .f32⟩ : BufTy).Contents (Elt F) → (⟨S2048x32, .f32⟩ : BufTy).Contents (Elt F) → (⟨S2048x32, .f32⟩ : BufTy).Contents (Elt F)) : HloOp τ sig (Elt F)).result W (Proc.devRef .tc main_v136) = (addf : (⟨S2048x32, .f32⟩ : BufTy).Contents (Elt F) → (⟨S2048x32, .f32⟩ : BufTy).Contents (Elt F) → (⟨S2048x32, .f32⟩ : BufTy).Contents (Elt F)) (W (Proc.devRef .tc main_v133)) (W (Proc.devRef .tc main_v135)) :=
  binary_result ..

theorem eq_main_v136 (V : Valuation τ sig (Elt F)) : after ops V (Proc.devRef .tc main_v136) = (addf : (⟨S2048x32, .f32⟩ : BufTy).Contents (Elt F) → (⟨S2048x32, .f32⟩ : BufTy).Contents (Elt F) → (⟨S2048x32, .f32⟩ : BufTy).Contents (Elt F)) (after ops V (Proc.devRef .tc main_v133)) (after ops V (Proc.devRef .tc main_v135)) :=
  (fixed V (binary main_v133 main_v135 main_v136 (addf : (⟨S2048x32, .f32⟩ : BufTy).Contents (Elt F) → (⟨S2048x32, .f32⟩ : BufTy).Contents (Elt F) → (⟨S2048x32, .f32⟩ : BufTy).Contents (Elt F)) : HloOp τ sig (Elt F)) (List.mem_of_getElem? (show (ops : List (HloOp τ sig (Elt F)))[270]? = some (binary main_v133 main_v135 main_v136 (addf : (⟨S2048x32, .f32⟩ : BufTy).Contents (Elt F) → (⟨S2048x32, .f32⟩ : BufTy).Contents (Elt F) → (⟨S2048x32, .f32⟩ : BufTy).Contents (Elt F)) : HloOp τ sig (Elt F)) from rfl)) (Proc.devRef .tc main_v136) (by simp only [binary_writes, Finset.mem_singleton])).trans (res_main_v136 (after ops V))

theorem val_main_v136 (V : Valuation τ sig (Elt F)) : after ops V (Proc.devRef .tc main_v136) = Stage.s_main_v136 (V (Proc.devRef .tc main_arg0)) (V (Proc.devRef .tc main_arg1)) (V (Proc.devRef .tc main_arg2)) (V (Proc.devRef .tc main_arg3)) (V (Proc.devRef .tc main_arg4)) := by
  rw [eq_main_v136, val_main_v133, val_main_v135]
  rfl

theorem res_main_call12_cst (W : Valuation τ sig (Elt F)) : (TRef.nullary main_call12.cst (constant S_ .f32 0x00000000#32) : HloOp τ sig (Elt F)).result W (Proc.devRef .tc main_call12_cst) = (constant (F := F) S_ .f32 0x00000000#32) :=
  nullary_result ..

theorem eq_main_call12_cst (V : Valuation τ sig (Elt F)) : after ops V (Proc.devRef .tc main_call12_cst) = (constant (F := F) S_ .f32 0x00000000#32) :=
  (fixed V (TRef.nullary main_call12.cst (constant S_ .f32 0x00000000#32) : HloOp τ sig (Elt F)) (List.mem_of_getElem? (show (ops : List (HloOp τ sig (Elt F)))[271]? = some (TRef.nullary main_call12.cst (constant S_ .f32 0x00000000#32) : HloOp τ sig (Elt F)) from rfl)) (Proc.devRef .tc main_call12_cst) (by simp only [nullary_writes, Finset.mem_singleton])).trans (res_main_call12_cst (after ops V))

theorem val_main_call12_cst (V : Valuation τ sig (Elt F)) : after ops V (Proc.devRef .tc main_call12_cst) = Stage.s_main_call12_cst (F := F) := by
  rw [eq_main_call12_cst]
  rfl

theorem res_main_call12_v0 (W : Valuation τ sig (Elt F)) : (TRef.unary main_call12.cst main_call12.v0 (broadcastInDim S2048x32 ![] bcast_S_S2048x32) : HloOp τ sig (Elt F)).result W (Proc.devRef .tc main_call12_v0) = ((broadcastInDim S2048x32 ![] bcast_S_S2048x32) : (⟨S_, .f32⟩ : BufTy).Contents (Elt F) → (⟨S2048x32, .f32⟩ : BufTy).Contents (Elt F)) (W (Proc.devRef .tc main_call12_cst)) :=
  unary_result ..

theorem eq_main_call12_v0 (V : Valuation τ sig (Elt F)) : after ops V (Proc.devRef .tc main_call12_v0) = ((broadcastInDim S2048x32 ![] bcast_S_S2048x32) : (⟨S_, .f32⟩ : BufTy).Contents (Elt F) → (⟨S2048x32, .f32⟩ : BufTy).Contents (Elt F)) (after ops V (Proc.devRef .tc main_call12_cst)) :=
  (fixed V (TRef.unary main_call12.cst main_call12.v0 (broadcastInDim S2048x32 ![] bcast_S_S2048x32) : HloOp τ sig (Elt F)) (List.mem_of_getElem? (show (ops : List (HloOp τ sig (Elt F)))[272]? = some (TRef.unary main_call12.cst main_call12.v0 (broadcastInDim S2048x32 ![] bcast_S_S2048x32) : HloOp τ sig (Elt F)) from rfl)) (Proc.devRef .tc main_call12_v0) (by simp only [unary_writes, Finset.mem_singleton])).trans (res_main_call12_v0 (after ops V))

theorem val_main_call12_v0 (V : Valuation τ sig (Elt F)) : after ops V (Proc.devRef .tc main_call12_v0) = Stage.s_main_call12_v0 (F := F) := by
  rw [eq_main_call12_v0, val_main_call12_cst]
  rfl

theorem res_main_v137 (W : Valuation τ sig (Elt F)) : (TRef.binary (TRef.of main_v136 : TRef sig ⟨S2048x32, .f32⟩) main_call12.v0 main_call12.v1 maximumf : HloOp τ sig (Elt F)).result W (Proc.devRef .tc main_v137) = (maximumf : (⟨S2048x32, .f32⟩ : BufTy).Contents (Elt F) → (⟨S2048x32, .f32⟩ : BufTy).Contents (Elt F) → (⟨S2048x32, .f32⟩ : BufTy).Contents (Elt F)) (W (Proc.devRef .tc main_v136)) (W (Proc.devRef .tc main_call12_v0)) :=
  binary_result ..

theorem eq_main_v137 (V : Valuation τ sig (Elt F)) : after ops V (Proc.devRef .tc main_v137) = (maximumf : (⟨S2048x32, .f32⟩ : BufTy).Contents (Elt F) → (⟨S2048x32, .f32⟩ : BufTy).Contents (Elt F) → (⟨S2048x32, .f32⟩ : BufTy).Contents (Elt F)) (after ops V (Proc.devRef .tc main_v136)) (after ops V (Proc.devRef .tc main_call12_v0)) :=
  (fixed V (TRef.binary (TRef.of main_v136 : TRef sig ⟨S2048x32, .f32⟩) main_call12.v0 main_call12.v1 maximumf : HloOp τ sig (Elt F)) (List.mem_of_getElem? (show (ops : List (HloOp τ sig (Elt F)))[273]? = some (TRef.binary (TRef.of main_v136 : TRef sig ⟨S2048x32, .f32⟩) main_call12.v0 main_call12.v1 maximumf : HloOp τ sig (Elt F)) from rfl)) (Proc.devRef .tc main_v137) (by simp only [binary_writes, Finset.mem_singleton])).trans (res_main_v137 (after ops V))

theorem val_main_v137 (V : Valuation τ sig (Elt F)) : after ops V (Proc.devRef .tc main_v137) = Stage.s_main_v137 (V (Proc.devRef .tc main_arg0)) (V (Proc.devRef .tc main_arg1)) (V (Proc.devRef .tc main_arg2)) (V (Proc.devRef .tc main_arg3)) (V (Proc.devRef .tc main_arg4)) := by
  rw [eq_main_v137, val_main_v136, val_main_call12_v0]
  rfl

theorem res_main_cst_44 (W : Valuation τ sig (Elt F)) : (nullary main_cst_44 (constant S_ .f32 0x00000000#32) : HloOp τ sig (Elt F)).result W (Proc.devRef .tc main_cst_44) = (constant (F := F) S_ .f32 0x00000000#32) :=
  nullary_result ..

theorem eq_main_cst_44 (V : Valuation τ sig (Elt F)) : after ops V (Proc.devRef .tc main_cst_44) = (constant (F := F) S_ .f32 0x00000000#32) :=
  (fixed V (nullary main_cst_44 (constant S_ .f32 0x00000000#32) : HloOp τ sig (Elt F)) (List.mem_of_getElem? (show (ops : List (HloOp τ sig (Elt F)))[274]? = some (nullary main_cst_44 (constant S_ .f32 0x00000000#32) : HloOp τ sig (Elt F)) from rfl)) (Proc.devRef .tc main_cst_44) (by simp only [nullary_writes, Finset.mem_singleton])).trans (res_main_cst_44 (after ops V))

theorem val_main_cst_44 (V : Valuation τ sig (Elt F)) : after ops V (Proc.devRef .tc main_cst_44) = Stage.s_main_cst_44 (F := F) := by
  rw [eq_main_cst_44]
  rfl

theorem res_main_v138 (W : Valuation τ sig (Elt F)) : (binary main_v137 main_cst_44 main_v138 ((fun x v => Host.reduceAdd x v reducesTo_S2048x32_S32_d0 h_S_) : (⟨S2048x32, .f32⟩ : BufTy).Contents (Elt F) → (⟨S_, .f32⟩ : BufTy).Contents (Elt F) → (⟨S32, .f32⟩ : BufTy).Contents (Elt F)) : HloOp τ sig (Elt F)).result W (Proc.devRef .tc main_v138) = ((fun x v => Host.reduceAdd x v reducesTo_S2048x32_S32_d0 h_S_) : (⟨S2048x32, .f32⟩ : BufTy).Contents (Elt F) → (⟨S_, .f32⟩ : BufTy).Contents (Elt F) → (⟨S32, .f32⟩ : BufTy).Contents (Elt F)) (W (Proc.devRef .tc main_v137)) (W (Proc.devRef .tc main_cst_44)) :=
  binary_result ..

theorem eq_main_v138 (V : Valuation τ sig (Elt F)) : after ops V (Proc.devRef .tc main_v138) = ((fun x v => Host.reduceAdd x v reducesTo_S2048x32_S32_d0 h_S_) : (⟨S2048x32, .f32⟩ : BufTy).Contents (Elt F) → (⟨S_, .f32⟩ : BufTy).Contents (Elt F) → (⟨S32, .f32⟩ : BufTy).Contents (Elt F)) (after ops V (Proc.devRef .tc main_v137)) (after ops V (Proc.devRef .tc main_cst_44)) :=
  (fixed V (binary main_v137 main_cst_44 main_v138 ((fun x v => Host.reduceAdd x v reducesTo_S2048x32_S32_d0 h_S_) : (⟨S2048x32, .f32⟩ : BufTy).Contents (Elt F) → (⟨S_, .f32⟩ : BufTy).Contents (Elt F) → (⟨S32, .f32⟩ : BufTy).Contents (Elt F)) : HloOp τ sig (Elt F)) (List.mem_of_getElem? (show (ops : List (HloOp τ sig (Elt F)))[275]? = some (binary main_v137 main_cst_44 main_v138 ((fun x v => Host.reduceAdd x v reducesTo_S2048x32_S32_d0 h_S_) : (⟨S2048x32, .f32⟩ : BufTy).Contents (Elt F) → (⟨S_, .f32⟩ : BufTy).Contents (Elt F) → (⟨S32, .f32⟩ : BufTy).Contents (Elt F)) : HloOp τ sig (Elt F)) from rfl)) (Proc.devRef .tc main_v138) (by simp only [binary_writes, Finset.mem_singleton])).trans (res_main_v138 (after ops V))

theorem val_main_v138 (V : Valuation τ sig (Elt F)) : after ops V (Proc.devRef .tc main_v138) = Stage.s_main_v138 (V (Proc.devRef .tc main_arg0)) (V (Proc.devRef .tc main_arg1)) (V (Proc.devRef .tc main_arg2)) (V (Proc.devRef .tc main_arg3)) (V (Proc.devRef .tc main_arg4)) := by
  rw [eq_main_v138, val_main_v137, val_main_cst_44]
  rfl

theorem res_main_v139 (W : Valuation τ sig (Elt F)) : (unary main_v138 main_v139 (broadcastInDim S1x32 ![1] bcast_S32_S1x32_1 : (⟨S32, .f32⟩ : BufTy).Contents (Elt F) → (⟨S1x32, .f32⟩ : BufTy).Contents (Elt F)) : HloOp τ sig (Elt F)).result W (Proc.devRef .tc main_v139) = (broadcastInDim S1x32 ![1] bcast_S32_S1x32_1 : (⟨S32, .f32⟩ : BufTy).Contents (Elt F) → (⟨S1x32, .f32⟩ : BufTy).Contents (Elt F)) (W (Proc.devRef .tc main_v138)) :=
  unary_result ..

theorem eq_main_v139 (V : Valuation τ sig (Elt F)) : after ops V (Proc.devRef .tc main_v139) = (broadcastInDim S1x32 ![1] bcast_S32_S1x32_1 : (⟨S32, .f32⟩ : BufTy).Contents (Elt F) → (⟨S1x32, .f32⟩ : BufTy).Contents (Elt F)) (after ops V (Proc.devRef .tc main_v138)) :=
  (fixed V (unary main_v138 main_v139 (broadcastInDim S1x32 ![1] bcast_S32_S1x32_1 : (⟨S32, .f32⟩ : BufTy).Contents (Elt F) → (⟨S1x32, .f32⟩ : BufTy).Contents (Elt F)) : HloOp τ sig (Elt F)) (List.mem_of_getElem? (show (ops : List (HloOp τ sig (Elt F)))[276]? = some (unary main_v138 main_v139 (broadcastInDim S1x32 ![1] bcast_S32_S1x32_1 : (⟨S32, .f32⟩ : BufTy).Contents (Elt F) → (⟨S1x32, .f32⟩ : BufTy).Contents (Elt F)) : HloOp τ sig (Elt F)) from rfl)) (Proc.devRef .tc main_v139) (by simp only [unary_writes, Finset.mem_singleton])).trans (res_main_v139 (after ops V))

theorem val_main_v139 (V : Valuation τ sig (Elt F)) : after ops V (Proc.devRef .tc main_v139) = Stage.s_main_v139 (V (Proc.devRef .tc main_arg0)) (V (Proc.devRef .tc main_arg1)) (V (Proc.devRef .tc main_arg2)) (V (Proc.devRef .tc main_arg3)) (V (Proc.devRef .tc main_arg4)) := by
  rw [eq_main_v139, val_main_v138]
  rfl

theorem res_main_v140 (W : Valuation τ sig (Elt F)) : (binary main_v139 main_arg5 main_v140 ((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)) : HloOp τ sig (Elt F)).result W (Proc.devRef .tc main_v140) = ((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)) (W (Proc.devRef .tc main_v139)) (W (Proc.devRef .tc main_arg5)) :=
  binary_result ..

theorem eq_main_v140 (V : Valuation τ sig (Elt F)) : after ops V (Proc.devRef .tc main_v140) = ((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)) (after ops V (Proc.devRef .tc main_v139)) (after ops V (Proc.devRef .tc main_arg5)) :=
  (fixed V (binary main_v139 main_arg5 main_v140 ((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)) : HloOp τ sig (Elt F)) (List.mem_of_getElem? (show (ops : List (HloOp τ sig (Elt F)))[277]? = some (binary main_v139 main_arg5 main_v140 ((fun l r => Host.dotGeneral dot_S1x32_S32x8_S1x8_1_0_0_1_n_n none l r) : (⟨S1x32, .f32⟩ : BufTy).Contents (Elt F) → (⟨S32x8, .f32⟩ : BufTy).Contents (Elt F) → (⟨S1x8, .f32⟩ : BufTy).Contents (Elt F)) : HloOp τ sig (Elt F)) from rfl)) (Proc.devRef .tc main_v140) (by simp only [binary_writes, Finset.mem_singleton])).trans (res_main_v140 (after ops V))

theorem val_main_v140 (V : Valuation τ sig (Elt F)) : after ops V (Proc.devRef .tc main_v140) = Stage.s_main_v140 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [eq_main_v140, val_main_v139, arg5_kept]
  rfl

theorem res_main_v141 (W : Valuation τ sig (Elt F)) : (unary main_arg6 main_v141 (broadcastInDim S1x8 ![1] bcast_S8_S1x8_1 : (⟨S8, .f32⟩ : BufTy).Contents (Elt F) → (⟨S1x8, .f32⟩ : BufTy).Contents (Elt F)) : HloOp τ sig (Elt F)).result W (Proc.devRef .tc main_v141) = (broadcastInDim S1x8 ![1] bcast_S8_S1x8_1 : (⟨S8, .f32⟩ : BufTy).Contents (Elt F) → (⟨S1x8, .f32⟩ : BufTy).Contents (Elt F)) (W (Proc.devRef .tc main_arg6)) :=
  unary_result ..

theorem eq_main_v141 (V : Valuation τ sig (Elt F)) : after ops V (Proc.devRef .tc main_v141) = (broadcastInDim S1x8 ![1] bcast_S8_S1x8_1 : (⟨S8, .f32⟩ : BufTy).Contents (Elt F) → (⟨S1x8, .f32⟩ : BufTy).Contents (Elt F)) (after ops V (Proc.devRef .tc main_arg6)) :=
  (fixed V (unary main_arg6 main_v141 (broadcastInDim S1x8 ![1] bcast_S8_S1x8_1 : (⟨S8, .f32⟩ : BufTy).Contents (Elt F) → (⟨S1x8, .f32⟩ : BufTy).Contents (Elt F)) : HloOp τ sig (Elt F)) (List.mem_of_getElem? (show (ops : List (HloOp τ sig (Elt F)))[278]? = some (unary main_arg6 main_v141 (broadcastInDim S1x8 ![1] bcast_S8_S1x8_1 : (⟨S8, .f32⟩ : BufTy).Contents (Elt F) → (⟨S1x8, .f32⟩ : BufTy).Contents (Elt F)) : HloOp τ sig (Elt F)) from rfl)) (Proc.devRef .tc main_v141) (by simp only [unary_writes, Finset.mem_singleton])).trans (res_main_v141 (after ops V))

theorem val_main_v141 (V : Valuation τ sig (Elt F)) : after ops V (Proc.devRef .tc main_v141) = Stage.s_main_v141 (V (Proc.devRef .tc main_arg6)) := by
  rw [eq_main_v141, arg6_kept]
  rfl

theorem res_main_v142 (W : Valuation τ sig (Elt F)) : (binary main_v140 main_v141 main_v142 (addf : (⟨S1x8, .f32⟩ : BufTy).Contents (Elt F) → (⟨S1x8, .f32⟩ : BufTy).Contents (Elt F) → (⟨S1x8, .f32⟩ : BufTy).Contents (Elt F)) : HloOp τ sig (Elt F)).result W (Proc.devRef .tc main_v142) = (addf : (⟨S1x8, .f32⟩ : BufTy).Contents (Elt F) → (⟨S1x8, .f32⟩ : BufTy).Contents (Elt F) → (⟨S1x8, .f32⟩ : BufTy).Contents (Elt F)) (W (Proc.devRef .tc main_v140)) (W (Proc.devRef .tc main_v141)) :=
  binary_result ..

theorem eq_main_v142 (V : Valuation τ sig (Elt F)) : after ops V (Proc.devRef .tc main_v142) = (addf : (⟨S1x8, .f32⟩ : BufTy).Contents (Elt F) → (⟨S1x8, .f32⟩ : BufTy).Contents (Elt F) → (⟨S1x8, .f32⟩ : BufTy).Contents (Elt F)) (after ops V (Proc.devRef .tc main_v140)) (after ops V (Proc.devRef .tc main_v141)) :=
  (fixed V (binary main_v140 main_v141 main_v142 (addf : (⟨S1x8, .f32⟩ : BufTy).Contents (Elt F) → (⟨S1x8, .f32⟩ : BufTy).Contents (Elt F) → (⟨S1x8, .f32⟩ : BufTy).Contents (Elt F)) : HloOp τ sig (Elt F)) (List.mem_of_getElem? (show (ops : List (HloOp τ sig (Elt F)))[279]? = some (binary main_v140 main_v141 main_v142 (addf : (⟨S1x8, .f32⟩ : BufTy).Contents (Elt F) → (⟨S1x8, .f32⟩ : BufTy).Contents (Elt F) → (⟨S1x8, .f32⟩ : BufTy).Contents (Elt F)) : HloOp τ sig (Elt F)) from rfl)) (Proc.devRef .tc main_v142) (by simp only [binary_writes, Finset.mem_singleton])).trans (res_main_v142 (after ops V))

theorem val_main_v142 (V : Valuation τ sig (Elt F)) : after ops V (Proc.devRef .tc main_v142) = Stage.s_main_v142 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [eq_main_v142, val_main_v140, val_main_v141]
  rfl

end Cert.ReferenceIdeal.RefRun

end
-- ==== Proof.LibNthEnum.lean ====
/-
  Counting lemmas behind an index list built from prefix sums.

  For a decidable predicate `p` on the naturals and a length `N`, write `c i = #{j ≤ i | p j}` for the inclusive prefix
  count. The number of positions `i < N` whose prefix count is at most `k`,
      slot p N k = #{i < N | c i ≤ k},
  is what one obtains by histogramming the prefix counts (`cnt j = #{i < N | c i = j}`) and prefix-summing the histogram
  (`∑ j ≤ k, cnt j`). It is the position of the `k`-th true entry (counting from zero) whenever there are more than `k`
  true entries below `N`, and it is `N` otherwise. Consequently a sum over the first `count p N` slots of a function of
  the slot's position is the sum of that function over the true positions below `N`: the slots enumerate the true
  positions, each once, in increasing order.
-/
import Mathlib.Data.Nat.Nth
import Mathlib.Algebra.BigOperators.Group.Finset.Basic

namespace Cert.Lib.NthEnum

open Finset

variable (p : ℕ → Prop) [DecidablePred p]

/-- The number of positions below `N` whose inclusive prefix count is at most `k`. -/
def slot (N k : ℕ) : ℕ := ((range N).filter fun i => Nat.count p (i + 1) ≤ k).card

/-- The histogram of the inclusive prefix counts over the positions below `N`. -/
def hist (N j : ℕ) : ℕ := ((range N).filter fun i => Nat.count p (i + 1) = j).card

/-- Prefix-summing the histogram gives the slot. -/
theorem sum_hist (N k : ℕ) : ∑ j ∈ range (k + 1), hist p N j = slot p N k := by
  unfold hist slot
  rw [← Finset.card_biUnion]
  · congr 1
    ext i
    simp only [mem_biUnion, mem_range, mem_filter]
    constructor
    · rintro ⟨j, hj, hi, rfl⟩; exact ⟨hi, Nat.lt_succ_iff.mp hj⟩
    · rintro ⟨hi, hle⟩; exact ⟨_, Nat.lt_succ_iff.mpr hle, hi, rfl⟩
  · intro a _ b _ hab
    refine Finset.disjoint_left.mpr fun i hia hib => hab ?_
    rw [← (mem_filter.mp hia).2, ← (mem_filter.mp hib).2]

/-- More than `k` true entries below `N`: the `k`-th one exists, whatever witness of finiteness is asked for. -/
theorem lt_card_of_lt_count {N k : ℕ} (hk : k < Nat.count p N) :
    ∀ hf : (Set.ofPred p).Finite, k < hf.toFinset.card := by
  intro hf
  refine lt_of_lt_of_le hk ?_
  rw [Nat.count_eq_card_filter_range]
  refine Finset.card_le_card fun i hi => ?_
  rw [Set.Finite.mem_toFinset]
  exact (mem_filter.mp hi).2

/-- The `k`-th true entry lies below `N` and is a true entry. -/
theorem nth_lt {N k : ℕ} (hk : k < Nat.count p N) : Nat.nth p k < N := Nat.nth_lt_of_lt_count hk

theorem nth_mem {N k : ℕ} (hk : k < Nat.count p N) : p (Nat.nth p k) := Nat.nth_mem k (lt_card_of_lt_count p hk)

/-- The prefix count through position `i` is at most `k` exactly when `i` lies before the `k`-th true entry. -/
theorem count_succ_le_iff {N k i : ℕ} (hk : k < Nat.count p N) : Nat.count p (i + 1) ≤ k ↔ i < Nat.nth p k := by
  constructor
  · intro h
    by_contra hlt
    have hle : Nat.nth p k + 1 ≤ i + 1 := Nat.succ_le_succ (Nat.le_of_not_lt hlt)
    have h1 : Nat.count p (Nat.nth p k + 1) = k + 1 := by
      rw [Nat.count_succ, if_pos (nth_mem p hk), Nat.count_nth (lt_card_of_lt_count p hk)]
    have h2 := Nat.count_monotone p hle
    omega
  · intro h
    exact Nat.le_nth_of_count_le (Nat.succ_le_of_lt h)

/-- With more than `k` true entries below `N`, slot `k` is the position of the `k`-th true entry. -/
theorem slot_eq_nth {N k : ℕ} (hk : k < Nat.count p N) : slot p N k = Nat.nth p k := by
  unfold slot
  have : ((range N).filter fun i => Nat.count p (i + 1) ≤ k) = range (Nat.nth p k) := by
    ext i
    simp only [mem_filter, mem_range, count_succ_le_iff p hk]
    exact ⟨fun h => h.2, fun h => ⟨lt_trans h (nth_lt p hk), h⟩⟩
  rw [this, card_range]

/-- With at most `k` true entries below `N`, every position counts: slot `k` is `N`. -/
theorem slot_of_count_le {N k : ℕ} (hk : Nat.count p N ≤ k) : slot p N k = N := by
  unfold slot
  rw [Finset.filter_true_of_mem, card_range]
  intro i hi
  exact le_trans (Nat.count_monotone p (Nat.succ_le_of_lt (mem_range.mp hi))) hk

/-- The slots below the number of true entries enumerate the true positions below `N`, each once. -/
theorem sum_nth {M : Type*} [AddCommMonoid M] (f : ℕ → M) (N : ℕ) :
    ∑ k ∈ range (Nat.count p N), f (Nat.nth p k) = ∑ i ∈ (range N).filter p, f i := by
  refine Finset.sum_nbij' (fun k => Nat.nth p k) (fun i => Nat.count p i) ?_ ?_ ?_ ?_ ?_
  · intro k hk
    have hk' := mem_range.mp hk
    exact mem_filter.mpr ⟨mem_range.mpr (nth_lt p hk'), nth_mem p hk'⟩
  · intro i hi
    obtain ⟨hiN, hpi⟩ := mem_filter.mp hi
    have h1 : Nat.count p (i + 1) = Nat.count p i + 1 := by rw [Nat.count_succ, if_pos hpi]
    have h2 : Nat.count p (i + 1) ≤ Nat.count p N := Nat.count_monotone p (Nat.succ_le_of_lt (mem_range.mp hiN))
    exact mem_range.mpr (by omega)
  · intro k hk
    exact Nat.count_nth (lt_card_of_lt_count p (mem_range.mp hk))
  · intro i hi
    exact Nat.nth_count (mem_filter.mp hi).2
  · intro k _
    rfl

/-- The same with the slots spelt as prefix sums of the histogram, over all `N` slots, the ones past the number of true
    entries contributing a default. -/
theorem sum_slots {M : Type*} [AddCommMonoid M] (f : ℕ → M) (N : ℕ) :
    ∑ k ∈ range (Nat.count p N), f (slot p N k) = ∑ i ∈ (range N).filter p, f i := by
  rw [← sum_nth p f N]
  exact Finset.sum_congr rfl fun k hk => by rw [slot_eq_nth p (mem_range.mp hk)]

end Cert.Lib.NthEnum
-- ==== Proof.LibCumsum.lean ====
/-
  An inclusive prefix sum written as a padded window reduction.

  A window reduction by addition over a rank-one array of length `n`, with a window of `n` positions, stride one and
  `n - 1` positions of padding in front, puts at position `j` the sum of the entries at positions `0, …, j`: the window
  at `j` covers the padded positions `j, …, j + n - 1`, the padding (which holds the additive identity) occupies the
  padded positions below `n - 1`, and so the entries met are exactly those at `j + k - (n - 1)` for the window offsets
  `k` with `n - 1 ≤ j + k`. Sums of words are sums modulo `2 ^ w`; when the natural-number sum stays below `2 ^ w` the
  word's value is that sum.
-/
import Idealize.ShloMosaic.PureOps.Contract
import Idealize.ShloMosaic.Lib.ValueIdx
import Mathlib.Data.BitVec
import Mathlib.Algebra.BigOperators.Intervals
import Mathlib.Algebra.BigOperators.Fin

namespace Cert.Lib.Cumsum

open Idealize.ShloMosaic Idealize.ShloMosaic.ValueIdx Finset

/-- A rank-one array of words read at a natural position: its entry inside the array, zero beyond its end. -/
def atNat {w n : ℕ} (x : (⟨1, ![n]⟩ : Shape).Idx → BitVec w) (k : ℕ) : BitVec w :=
  if h : k < n then x (ix1 ⟨k, h⟩) else 0

theorem atNat_of_lt {w n : ℕ} (x : (⟨1, ![n]⟩ : Shape).Idx → BitVec w) {k : ℕ} (h : k < n) :
    atNat x k = x (ix1 ⟨k, h⟩) := dif_pos h

/-- A left fold by word addition over all of `Fin M`, from zero, is the sum. -/
theorem foldl_addi_finRange {w M : ℕ} (g : Fin M → BitVec w) :
    (List.finRange M).foldl (fun r n => IntOp.addi r (g n)) 0 = ∑ n : Fin M, g n := by
  rw [Fin.sum_univ_def, List.sum_eq_foldl, List.foldl_map]
  rfl

/-- The number of positions of a rank-one shape is its length. -/
theorem numel_one (n : ℕ) : (⟨1, ![n]⟩ : Shape).numel = n := by
  simp [Shape.numel]

/-- In a rank-one shape the row-major position of an index is its coordinate. -/
theorem rowMajor_symm_one_val {n : ℕ} (q : Fin (⟨1, ![n]⟩ : Shape).numel) :
    (((⟨1, ![n]⟩ : Shape).rowMajor.symm q) 0).val = q.val := by
  have h := Shape.rowMajor_val_one ((⟨1, ![n]⟩ : Shape).rowMajor.symm q)
  rw [Equiv.apply_symm_apply] at h
  exact h.symm

/-- The padded window reduction by addition is the inclusive prefix sum. `m` is the padding in front, one less than
    the length `n`. -/
theorem reduceWindow_addi_cumsum {w : ℕ} {u : Shape} (m n : ℕ) (hmn : m + 1 = n)
    (x : (⟨1, ![n]⟩ : Shape).Idx → BitVec w) (init : u.Idx → BitVec w)
    (h : (⟨1, ![n]⟩ : Shape).ReduceWindows (![n] : Fin 1 → ℕ) ![1] ![m] ![0] ⟨1, ![n]⟩) (hu : 0 < u.numel)
    (h0 : init (Shape.Idx.first hu) = 0) (j : (⟨1, ![n]⟩ : Shape).Idx) :
    Host.reduceWindow IntOp.addi (![n] : Fin 1 → ℕ) ![1] ![m] ![0] x init h hu j
      = ∑ k ∈ range ((j 0).val + 1), atNat x k := by
  have hj : (j 0).val < n := (j 0).isLt
  unfold Host.reduceWindow
  simp only [h0]
  rw [foldl_addi_finRange]
  -- every summand as a function of the window offset, a natural number
  have hterm : ∀ q : Fin (⟨1, ![n]⟩ : Shape).numel,
      (if hin : ∀ a : Fin 1, (![m] : Fin 1 → ℕ) a ≤ (j (a.cast h.1.symm)).val * (![1] : Fin 1 → ℕ) a
            + (((⟨1, ![n]⟩ : Shape).rowMajor.symm q) a).val ∧
          (j (a.cast h.1.symm)).val * (![1] : Fin 1 → ℕ) a + (((⟨1, ![n]⟩ : Shape).rowMajor.symm q) a).val
            - (![m] : Fin 1 → ℕ) a < (⟨1, ![n]⟩ : Shape).size a
        then x (fun a => ⟨(j (a.cast h.1.symm)).val * (![1] : Fin 1 → ℕ) a
            + (((⟨1, ![n]⟩ : Shape).rowMajor.symm q) a).val - (![m] : Fin 1 → ℕ) a, (hin a).2⟩)
        else (0 : BitVec w))
        = (fun k : ℕ => if m ≤ (j 0).val + k then atNat x ((j 0).val + k - m) else 0) q.val := by
    intro q
    have hq := rowMajor_symm_one_val q
    have hqn : q.val < n := lt_of_lt_of_eq q.isLt (numel_one n)
    show _ = if m ≤ (j 0).val + q.val then atNat x ((j 0).val + q.val - m) else 0
    by_cases hc : m ≤ (j 0).val + q.val
    · have hlt : (j 0).val + q.val - m < n := by omega
      rw [if_pos hc, atNat_of_lt x hlt]
      split_ifs with hin
      · congr 1
        funext a
        match a with
        | ⟨0, _⟩ =>
          refine Fin.ext ?_
          show (j 0).val * 1 + (((⟨1, ![n]⟩ : Shape).rowMajor.symm q) 0).val - m = (j 0).val + q.val - m
          rw [hq]; omega
      · refine absurd (fun a => ?_) hin
        match a with
        | ⟨0, _⟩ =>
          show m ≤ (j 0).val * 1 + (((⟨1, ![n]⟩ : Shape).rowMajor.symm q) 0).val ∧
            (j 0).val * 1 + (((⟨1, ![n]⟩ : Shape).rowMajor.symm q) 0).val - m < n
          rw [hq]; omega
    · rw [if_neg hc]
      split_ifs with hin
      · exfalso
        have h1 : m ≤ (j 0).val * 1 + (((⟨1, ![n]⟩ : Shape).rowMajor.symm q) 0).val := (hin 0).1
        rw [hq] at h1; omega
      · rfl
  rw [Finset.sum_congr rfl (fun q _ => hterm q), Fin.sum_univ_eq_sum_range
    (fun k : ℕ => if m ≤ (j 0).val + k then atNat x ((j 0).val + k - m) else 0), numel_one]
  -- the offsets below `m - j` meet padding; the others, shifted, are the positions `0 … j`
  have hsplit : range n = range (m - (j 0).val) ∪ Ico (m - (j 0).val) n := by
    ext k; simp only [mem_union, mem_range, mem_Ico]; omega
  have hdisj : Disjoint (range (m - (j 0).val)) (Ico (m - (j 0).val) n) := by
    rw [Finset.disjoint_left]; intro k hk hk'; simp only [mem_range, mem_Ico] at hk hk'; omega
  rw [hsplit, Finset.sum_union hdisj, Finset.sum_eq_zero, zero_add, Finset.sum_Ico_eq_sum_range]
  · have hlen : n - (m - (j 0).val) = (j 0).val + 1 := by omega
    rw [hlen]
    refine Finset.sum_congr rfl fun k hk => ?_
    have hk' : k < (j 0).val + 1 := mem_range.mp hk
    rw [if_pos (by omega)]
    congr 1; omega
  · intro k hk
    have hk' : k < m - (j 0).val := mem_range.mp hk
    rw [if_neg (by omega)]

/-- A sum of words is the word of the sum of their values. -/
theorem sum_eq_ofNat_sum {w : ℕ} (f : ℕ → BitVec w) (s : Finset ℕ) :
    ∑ k ∈ s, f k = BitVec.ofNat w (∑ k ∈ s, (f k).toNat) := by
  classical
  induction s using Finset.induction_on with
  | empty => simp
  | insert a s ha ih =>
    rw [Finset.sum_insert ha, Finset.sum_insert ha, ih]
    apply BitVec.eq_of_toNat_eq
    simp [BitVec.toNat_add, BitVec.toNat_ofNat]

/-- When the values sum to less than `2 ^ w`, the value of the sum of the words is the sum of the values. -/
theorem toNat_sum {w : ℕ} (f : ℕ → BitVec w) (s : Finset ℕ) (hlt : ∑ k ∈ s, (f k).toNat < 2 ^ w) :
    (∑ k ∈ s, f k).toNat = ∑ k ∈ s, (f k).toNat := by
  rw [sum_eq_ofNat_sum, BitVec.toNat_ofNat, Nat.mod_eq_of_lt hlt]

end Cert.Lib.Cumsum
-- ==== Proof.LibBincount.lean ====
/-
  A histogram written as a scatter of additions.

  A scatter whose body adds takes the updates one by one, in row-major order of their indices, and adds each to the
  operand's entry at the position the update's index vector names, dropping an update whose position lies outside the
  operand. Read at one position `k`, the result is therefore the operand's entry plus the sum of the updates that land
  on `k` (word addition is commutative and associative, so the order plays no part). For a rank-one operand, one index
  per update held in a column (`e × 1` indices, `e` updates), an update lands on `k` exactly when its index, read as a
  signed integer, equals `k`: with every update equal to one and an operand of zeros this is the histogram of the
  indices.
-/
import Idealize.ShloMosaic.PureOps.ShapeOps
import Idealize.ShloMosaic.Lib.ValueIdx
import Mathlib.Data.BitVec
import Mathlib.Algebra.BigOperators.Fin

namespace Cert.Lib.Bincount

open Idealize.ShloMosaic Idealize.ShloMosaic.ValueIdx Finset

/-- A left fold whose step, read at any position, adds a contribution of the element folded in: the result at a position
    is the starting entry plus the contributions of the list's elements there. -/
theorem foldl_pointwise {ι : Type} {w M : ℕ} (step : (ι → BitVec w) → Fin M → ι → BitVec w)
    (c : Fin M → ι → BitVec w) (hstep : ∀ r n k, step r n k = r k + c n k)
    (l : List (Fin M)) (x : ι → BitVec w) (k : ι) :
    l.foldl step x k = x k + (l.map fun n => c n k).sum := by
  induction l generalizing x with
  | nil => simp
  | cons n l ih => rw [List.foldl_cons, ih, hstep, List.map_cons, List.sum_cons, add_assoc]

/-- A scatter of additions read at a position: the operand's entry plus the updates whose result index is that
    position. -/
theorem scatter_addi_apply {s si u : Shape} {w w' : ℕ} (d : ScatterDims s si u) (x : s.Idx → BitVec w)
    (idx : IVec si w') (upd : u.Idx → BitVec w) (k : s.Idx) :
    Host.scatter d IntOp.addi x idx upd k
      = x k + ∑ j : u.Idx, if d.resultIdx? j idx = some k then upd j else 0 := by
  unfold Host.scatter
  refine (foldl_pointwise _
    (fun n k' => if d.resultIdx? (u.rowMajor.symm n) idx = some k' then upd (u.rowMajor.symm n) else 0)
    ?_ (List.finRange u.numel) x k).trans ?_
  · intro r n k'
    cases hres : d.resultIdx? (u.rowMajor.symm n) idx with
    | none => simp
    | some i =>
      by_cases hk : k' = i
      · subst hk; simp [IntOp.addi]
      · have hne : ¬ (some i = some k') := fun h => hk (Option.some.inj h).symm
        simp [hk, hne]
  · rw [← Fin.sum_univ_def, ← Equiv.sum_comp u.rowMajor.symm]

/-! ## One index per update, held in a column, into a rank-one operand -/

section Column

variable {w' : ℕ} (n e : ℕ)
  (wf : ScatterDims.WF (⟨1, ![n]⟩ : Shape) ⟨2, ![e, 1]⟩ ⟨1, ![e]⟩ [] [0] [0] 1)

/-- The dimension numbers of a scatter of `e` scalar updates into a rank-one operand of length `n`, update `i` going to
    the position held at row `i` of an `e × 1` column of indices: no window axes, the operand's axis inserted, the index
    vector along the column's second axis. -/
abbrev colDims : ScatterDims (⟨1, ![n]⟩ : Shape) ⟨2, ![e, 1]⟩ ⟨1, ![e]⟩ :=
  { updateWindowDims := [], insertedWindowDims := [0], scatterDimsToOperandDims := [0], indexVectorDim := 1, wf := wf }

/-- Update `j` starts at the index in row `j` of the column, read signed. -/
theorem colDims_start (j : (⟨1, ![e]⟩ : Shape).Idx) (idx : IVec ⟨2, ![e, 1]⟩ w') :
    (colDims n e wf).start j idx 0 = (idx (ix2 (j 0) (0 : Fin 1))).toInt := by
  unfold ScatterDims.start
  rw [dif_pos (by simp)]
  congr 2
  funext b
  match b with
  | ⟨0, _⟩ => rfl
  | ⟨1, _⟩ => rfl

/-- There is no window: every update is one element. -/
theorem colDims_window (j : (⟨1, ![e]⟩ : Shape).Idx) : (colDims n e wf).window j 0 = 0 := by
  unfold ScatterDims.window
  rw [dif_neg (by simp [ScatterDims.sKept, Shape.kept])]

/-- Update `j` lands on position `k` exactly when its index, read signed, is `k`. -/
theorem colDims_resultIdx?_eq_some (j : (⟨1, ![e]⟩ : Shape).Idx) (idx : IVec ⟨2, ![e, 1]⟩ w')
    (k : (⟨1, ![n]⟩ : Shape).Idx) :
    (colDims n e wf).resultIdx? j idx = some k ↔ (idx (ix2 (j 0) (0 : Fin 1))).toInt = ((k 0).val : ℤ) := by
  have hs := colDims_start n e wf j idx
  have hw := colDims_window n e wf j
  have hk : (k 0).val < n := (k 0).isLt
  unfold ScatterDims.resultIdx?
  constructor
  · intro h
    split_ifs at h with hin
    have h0 := congrFun (Option.some.inj h) 0
    have hv : ((colDims n e wf).start j idx 0 + ((colDims n e wf).window j 0 : ℕ)).toNat = (k 0).val :=
      congrArg Fin.val h0
    have hpos := (hin 0).1
    rw [hs, hw] at hv hpos
    omega
  · intro h
    have hin : ∀ a : Fin 1, 0 ≤ (colDims n e wf).start j idx a + ((colDims n e wf).window j a : ℕ) ∧
        (colDims n e wf).start j idx a + ((colDims n e wf).window j a : ℕ) < ((⟨1, ![n]⟩ : Shape).size a : ℕ) := by
      intro a
      match a with
      | ⟨0, _⟩ =>
        show 0 ≤ (colDims n e wf).start j idx 0 + ((colDims n e wf).window j 0 : ℕ) ∧
          (colDims n e wf).start j idx 0 + ((colDims n e wf).window j 0 : ℕ) < (n : ℤ)
        rw [hs, hw, h]; omega
    rw [dif_pos hin]
    congr 1
    funext a
    match a with
    | ⟨0, _⟩ =>
      refine Fin.ext ?_
      show ((colDims n e wf).start j idx 0 + ((colDims n e wf).window j 0 : ℕ)).toNat = (k 0).val
      rw [hs, hw, h]; omega

/-- The scatter of additions along a column of indices, read at position `k`: the operand's entry plus the updates
    whose index is `k`. -/
theorem bincount_apply {w : ℕ} (x : (⟨1, ![n]⟩ : Shape).Idx → BitVec w) (idx : IVec ⟨2, ![e, 1]⟩ w')
    (upd : (⟨1, ![e]⟩ : Shape).Idx → BitVec w) (k : (⟨1, ![n]⟩ : Shape).Idx) :
    Host.scatter (colDims n e wf) IntOp.addi x idx upd k
      = x k + ∑ i : Fin e, if (idx (ix2 i (0 : Fin 1))).toInt = ((k 0).val : ℤ) then upd (ix1 i) else 0 := by
  rw [scatter_addi_apply]
  congr 1
  have hE : ∀ f : (⟨1, ![e]⟩ : Shape).Idx → BitVec w, ∑ j, f j = ∑ i : Fin e, f (ix1 i) := fun f =>
    Fintype.sum_equiv ⟨fun j => j 0, ix1, fun j => (eq_ix1 j).symm, fun _ => rfl⟩ _ _ fun j =>
      congrArg f (eq_ix1 j)
  rw [hE]
  refine Finset.sum_congr rfl fun i _ => ?_
  exact if_congr (colDims_resultIdx?_eq_some n e wf (ix1 i) idx k) rfl rfl

end Column

end Cert.Lib.Bincount
-- ==== Proof.LibFloorMod.lean ====
/-
  Floor division and remainder of non-negative 32-bit words, written out with truncating division.

  On signed integers the floor quotient of `x` by `d` is the truncating quotient, less one when the operands' signs differ
  and the truncating remainder is not zero; the floor remainder is the truncating remainder, plus the divisor when the two
  have different signs and the remainder is not zero. For a non-negative `x` and a positive `d` (both below `2 ^ 31` as natural
  numbers) no correction applies: the truncating quotient and remainder are the natural-number ones, the signs agree
  unless `x` is zero, and then the remainder is zero. So the two chains compute `x / d` and `x % d`. Beside them: a clip
  at zero followed by the wrap of a negative index by a length is the identity on a non-negative word, and the signed
  order on non-negative words is the order of their natural values.
-/
import Idealize.ShloMosaic.PureOps.Vector
import Mathlib.Data.BitVec

namespace Cert.Lib.FloorMod

open Idealize.ShloMosaic

/-- The sign of a word: zero, minus one or one. -/
def sgn (x : BitVec 32) : BitVec 32 := if x = 0 then 0 else if x.msb then -1 else 1

/-- The floor quotient of `x` by `d`, written with the truncating quotient and remainder. -/
def floorDiv (x d : BitVec 32) : BitVec 32 :=
  Scalar.select
    (IntOp.andi (IntOp.cmpi .ne (sgn x) (sgn d)) (IntOp.cmpi .ne (IntOp.remsi .host x d) 0#32))
    (IntOp.subi (IntOp.divsi .host x d) 1#32) (IntOp.divsi .host x d)

/-- The floor remainder of `x` by `d`, written with the truncating remainder, for a divisor that is not zero. -/
def floorRem (x d : BitVec 32) : BitVec 32 :=
  Scalar.select
    (IntOp.andi (IntOp.cmpi .ne (IntOp.cmpi .slt (IntOp.remsi .host x d) 0#32) (IntOp.cmpi .slt d 0#32))
      (IntOp.cmpi .ne (IntOp.remsi .host x d) 0#32))
    (IntOp.addi (IntOp.remsi .host x d) d) (IntOp.remsi .host x d)

/-- A clip at zero from below, then the wrap of a negative index by the length `len`. -/
def clipWrap (len x : BitVec 32) : BitVec 32 :=
  Scalar.select (IntOp.cmpi .slt (IntOp.maxsi 0#32 x) 0#32) (IntOp.addi (IntOp.maxsi 0#32 x) len) (IntOp.maxsi 0#32 x)

theorem msb_false_of_lt {x : BitVec 32} (h : x.toNat < 2 ^ 31) : x.msb = false := by
  rw [BitVec.msb_eq_decide]; simp; omega

theorem toInt_of_lt {x : BitVec 32} (h : x.toNat < 2 ^ 31) : x.toInt = (x.toNat : ℤ) := by
  rw [BitVec.toInt_eq_toNat_cond]; split <;> omega

theorem ne_zero_of_pos {d : BitVec 32} (h : 0 < d.toNat) : d ≠ 0 := by
  intro h0; rw [h0] at h; simp at h

theorem not_corner {x d : BitVec 32} (hx : x.toNat < 2 ^ 31) (hd : 0 < d.toNat) : ¬ IntOp.SDivCorner x d := by
  rintro (h | ⟨h, _⟩)
  · exact ne_zero_of_pos hd h
  · rw [h] at hx; simp [BitVec.toNat_intMin] at hx

/-- The truncating quotient of a non-negative word by a positive one is the natural quotient. -/
theorem divsi_eq {x d : BitVec 32} (hx : x.toNat < 2 ^ 31) (hd : 0 < d.toNat) (hd' : d.toNat < 2 ^ 31) :
    IntOp.divsi .host x d = x / d := by
  unfold IntOp.divsi
  rw [if_neg (not_corner hx hd), BitVec.sdiv_eq, msb_false_of_lt hx, msb_false_of_lt hd']
  rfl

/-- The truncating remainder of a non-negative word by a positive one is the natural remainder. -/
theorem remsi_eq {x d : BitVec 32} (hx : x.toNat < 2 ^ 31) (hd : 0 < d.toNat) (hd' : d.toNat < 2 ^ 31) :
    IntOp.remsi .host x d = x % d := by
  unfold IntOp.remsi
  rw [if_neg (not_corner hx hd), BitVec.srem_eq, msb_false_of_lt hx, msb_false_of_lt hd']

theorem sgn_of_pos {d : BitVec 32} (hd : 0 < d.toNat) (hd' : d.toNat < 2 ^ 31) : sgn d = 1 := by
  unfold sgn; rw [if_neg (ne_zero_of_pos hd), msb_false_of_lt hd']; rfl

theorem select_zero {α : Type} (a b : α) : Scalar.select 0#1 a b = b := by
  unfold Scalar.select; rw [if_neg (by decide)]

theorem select_one {α : Type} (a b : α) : Scalar.select 1#1 a b = a := by
  unfold Scalar.select; rw [if_pos (by decide)]

theorem andi_zero_right (c : BitVec 1) : IntOp.andi c 0#1 = 0#1 := by unfold IntOp.andi; exact BitVec.and_zero
theorem andi_zero_left (c : BitVec 1) : IntOp.andi 0#1 c = 0#1 := by unfold IntOp.andi; exact BitVec.zero_and

theorem cmpi_ne_self {w : ℕ} (x : BitVec w) : IntOp.cmpi .ne x x = 0#1 := by
  unfold IntOp.cmpi; simp

/-- The floor quotient of a non-negative word by a positive one is the natural quotient. -/
theorem floorDiv_eq {x d : BitVec 32} (hx : x.toNat < 2 ^ 31) (hd : 0 < d.toNat) (hd' : d.toNat < 2 ^ 31) :
    floorDiv x d = x / d := by
  unfold floorDiv
  rw [divsi_eq hx hd hd', remsi_eq hx hd hd', sgn_of_pos hd hd']
  by_cases h0 : x = 0
  · subst h0
    have hz : (0 : BitVec 32) % d = 0 := by apply BitVec.eq_of_toNat_eq; simp
    have hc : IntOp.cmpi .ne (0 : BitVec 32) 0#32 = 0#1 := by decide
    rw [hz, hc, andi_zero_right, select_zero]
  · have : sgn x = 1 := by unfold sgn; rw [if_neg h0, msb_false_of_lt hx]; rfl
    rw [this, cmpi_ne_self, andi_zero_left, select_zero]

theorem toNat_floorDiv {x d : BitVec 32} (hx : x.toNat < 2 ^ 31) (hd : 0 < d.toNat) (hd' : d.toNat < 2 ^ 31) :
    (floorDiv x d).toNat = x.toNat / d.toNat := by
  rw [floorDiv_eq hx hd hd', BitVec.toNat_udiv]

/-- The floor remainder of a non-negative word by a positive one is the natural remainder. -/
theorem floorRem_eq {x d : BitVec 32} (hx : x.toNat < 2 ^ 31) (hd : 0 < d.toNat) (hd' : d.toNat < 2 ^ 31) :
    floorRem x d = x % d := by
  unfold floorRem
  rw [remsi_eq hx hd hd']
  have hr : (x % d).toNat < 2 ^ 31 := by
    rw [BitVec.toNat_umod]; exact lt_of_le_of_lt (Nat.mod_le _ _) hx
  have h1 : IntOp.cmpi .slt (x % d) 0#32 = 0#1 := by
    unfold IntOp.cmpi
    have : (x % d).slt 0#32 = false := by
      rw [Bool.eq_false_iff]; intro h
      rw [BitVec.slt_iff_toInt_lt, toInt_of_lt hr] at h; simp at h; omega
    simp [this]
  have h2 : IntOp.cmpi .slt d 0#32 = 0#1 := by
    unfold IntOp.cmpi
    have : d.slt 0#32 = false := by
      rw [Bool.eq_false_iff]; intro h
      rw [BitVec.slt_iff_toInt_lt, toInt_of_lt hd'] at h; simp at h; omega
    simp [this]
  rw [h1, h2, cmpi_ne_self, andi_zero_left, select_zero]

theorem toNat_floorRem {x d : BitVec 32} (hx : x.toNat < 2 ^ 31) (hd : 0 < d.toNat) (hd' : d.toNat < 2 ^ 31) :
    (floorRem x d).toNat = x.toNat % d.toNat := by
  rw [floorRem_eq hx hd hd', BitVec.toNat_umod]

/-- On a non-negative word the clip and the wrap change nothing. -/
theorem clipWrap_eq (len : BitVec 32) {x : BitVec 32} (hx : x.toNat < 2 ^ 31) : clipWrap len x = x := by
  have hm : IntOp.maxsi 0#32 x = x := by
    unfold IntOp.maxsi
    rw [if_neg]
    intro h
    rw [BitVec.slt_iff_toInt_lt, toInt_of_lt hx] at h; simp at h; omega
  unfold clipWrap
  rw [hm]
  have h1 : IntOp.cmpi .slt x 0#32 = 0#1 := by
    unfold IntOp.cmpi
    have : x.slt 0#32 = false := by
      rw [Bool.eq_false_iff]; intro h
      rw [BitVec.slt_iff_toInt_lt, toInt_of_lt hx] at h; simp at h; omega
    simp [this]
  rw [h1, select_zero]

/-- "Greater or equal", signed, on non-negative words is the order of the natural values. -/
theorem cmpi_sge_eq_one_iff {x y : BitVec 32} (hx : x.toNat < 2 ^ 31) (hy : y.toNat < 2 ^ 31) :
    IntOp.cmpi .sge x y = 1#1 ↔ y.toNat ≤ x.toNat := by
  unfold IntOp.cmpi
  show BitVec.ofBool (y.sle x) = 1#1 ↔ _
  rw [show (BitVec.ofBool (y.sle x) = 1#1) ↔ y.sle x = true from by cases y.sle x <;> decide,
    BitVec.sle_iff_toInt_le, toInt_of_lt hx, toInt_of_lt hy]
  omega

/-- "Greater", signed, against zero is positivity of the signed value. -/
theorem cmpi_sgt_zero_eq_one_iff (x : BitVec 32) : IntOp.cmpi .sgt x 0#32 = 1#1 ↔ 0 < x.toInt := by
  unfold IntOp.cmpi
  show BitVec.ofBool ((0#32 : BitVec 32).slt x) = 1#1 ↔ _
  rw [show (BitVec.ofBool ((0#32 : BitVec 32).slt x) = 1#1) ↔ (0#32 : BitVec 32).slt x = true from by
      cases (0#32 : BitVec 32).slt x <;> decide,
    BitVec.slt_iff_toInt_lt]
  simp

/-- A one-bit word is zero or one. -/
theorem bit_cases (c : BitVec 1) : c = 0#1 ∨ c = 1#1 := by
  have := c.isLt
  rcases Nat.lt_succ_iff_lt_or_eq.mp (show c.toNat < 1 + 1 by omega) with h | h
  · left; apply BitVec.eq_of_toNat_eq; simp; omega
  · right; apply BitVec.eq_of_toNat_eq; simp; omega

/-- A one-bit word widened to 32 bits is, as a natural number, one when the bit is one and zero otherwise. -/
theorem toNat_setWidth_bit (c : BitVec 1) : (c.setWidth 32).toNat = if c = 1#1 then 1 else 0 := by
  rcases bit_cases c with h | h <;> subst h <;> decide

end Cert.Lib.FloorMod
-- ==== Proof.NonzeroIndex.lean ====
/-
  The reference's edge list: slot `e` of its row and column arrays holds the row and the column of the `e`-th positive
  entry of the matrix in row-major order, and the fill value 2048 from the number of positive entries on.

  The reference obtains the list without a loop. It flattens the matrix of bits "entry positive" row by row
  (flat position `i = 2048 r + c`) and takes inclusive prefix sums: `c i` is the number of positive positions up to and
  including `i`. It then histograms the prefix counts (`hist k = #{i | c i = k}`; the one count that can equal the
  length falls outside the histogram and is dropped) and prefix-sums the histogram, which gives
  `slot k = #{i | c i ≤ k}`: the position of the `k`-th positive entry when there is one, and the length otherwise.
  Row and column are the quotient and the remainder of that position by 2048; slots from the total on are overwritten
  with 2048. Every quantity stays between `0` and `4194304 < 2 ^ 31`, so the 32-bit words never wrap and the signed
  operations agree with the natural-number ones.
-/
import proofs.«178039_g46316927320456_cont_sun_m_677_15_alg».proof.Proof.RefStages
import proofs.«178039_g46316927320456_cont_sun_m_677_15_alg».proof.Proof.EdgeSpec
import proofs.«178039_g46316927320456_cont_sun_m_677_15_alg».proof.Proof.LibNthEnum
import proofs.«178039_g46316927320456_cont_sun_m_677_15_alg».proof.Proof.LibCumsum
import proofs.«178039_g46316927320456_cont_sun_m_677_15_alg».proof.Proof.LibBincount
import proofs.«178039_g46316927320456_cont_sun_m_677_15_alg».proof.Proof.LibFloorMod
import Idealize.ShloMosaic.Lib.IndicatorCount
import Idealize.ShloMosaic.Lib.Pipeline.Value

noncomputable section

namespace Cert.NonzeroIndex

open Cert.ReferenceIdeal Cert.ReferenceIdeal.Gen Cert.ReferenceIdeal.Stage Idealize.ShloMosaic Idealize.ShloMosaic.ValueIdx
open Cert.EdgeSpec Cert.Lib.Cumsum Cert.Lib.Bincount Cert.Lib.FloorMod Cert.Lib.NthEnum Finset

variable (a0 : (⟨S2048x2048, .i32⟩ : BufTy).Contents (Elt Ideal))

/-! ## The bits and their prefix counts -/

/-- The comparison's bit at row `r`, column `c` is one exactly when the entry is positive. -/
theorem v1_eq_one_iff (r c : Fin 2048) : s_main_v1 a0 (ix2 r c) = 1#1 ↔ Pos a0 r c := by
  unfold s_main_v1 Pos
  exact cmpi_sgt_zero_eq_one_iff (a0 (ix2 r c))

/-- The flattened, widened bit at flat position `k` is the bit of row `k / 2048`, column `k % 2048`. -/
theorem bit_apply (k : ℕ) (h : k < 4194304) :
    s_main_call0_v1 a0 (ix1 ⟨k, h⟩)
      = (s_main_v1 a0 (ix2 ⟨k / 2048, by omega⟩ ⟨k % 2048, Nat.mod_lt _ (by decide)⟩)).setWidth 32 := by
  unfold s_main_call0_v1 s_main_call0_v0
  refine congrArg (BitVec.setWidth 32) (shapeCast_apply (s_main_v1 a0) _ (ix1 ⟨k, h⟩)
    (ix2 ⟨k / 2048, by omega⟩ ⟨k % 2048, Nat.mod_lt _ (by decide)⟩) ?_)
  rw [Shape.rowMajor_val_two, Shape.rowMajor_val_one]
  show k / 2048 * 2048 + k % 2048 = k
  omega

/-- As a natural number the widened bit at flat position `k` is one when the position is positive, zero otherwise. -/
theorem toNat_bit (k : ℕ) :
    (atNat (s_main_call0_v1 a0) k).toNat = if PosAt a0 k then 1 else 0 := by
  by_cases h : k < 4194304
  · rw [atNat_of_lt _ h, bit_apply a0 k h, toNat_setWidth_bit]
    refine if_congr ?_ rfl rfl
    rw [v1_eq_one_iff]
    exact ⟨fun hp => ⟨h, hp⟩, fun ⟨_, hp⟩ => hp⟩
  · have hn : ¬ PosAt a0 k := fun ⟨h', _⟩ => h h'
    unfold atNat
    rw [dif_neg h, if_neg hn]; rfl

/-- The sum of the bits over the first `m` flat positions is the number of positive positions among them. -/
theorem sum_toNat_bit (m : ℕ) :
    ∑ k ∈ range m, (atNat (s_main_call0_v1 a0) k).toNat = Nat.count (PosAt a0) m := by
  rw [Nat.count_eq_card_filter_range, Finset.card_filter]
  exact Finset.sum_congr rfl fun k _ => toNat_bit a0 k

theorem count_le (m : ℕ) : Nat.count (PosAt a0) m ≤ m := by
  rw [Nat.count_eq_card_filter_range]
  exact (Finset.card_filter_le _ _).trans (by rw [card_range])

/-- The first prefix sum at position `i` is the inclusive prefix count of positive positions. -/
theorem toNat_v2 (i : Fin 4194304) : (s_main_v2 a0 (ix1 i)).toNat = Nat.count (PosAt a0) (i.val + 1) := by
  have hi := i.isLt
  unfold s_main_v2
  have hsum := reduceWindow_addi_cumsum (w := 32) 4194303 4194304 rfl (s_main_call0_v1 a0)
    s_main_call0_call0_v0 reduceWindows_S4194304_S4194304_w4194304s1p4194303_0 h_S_ rfl (ix1 i)
  refine (congrArg BitVec.toNat hsum).trans ?_
  show (∑ k ∈ range (i.val + 1), atNat (s_main_call0_v1 a0) k).toNat = _
  have hle := count_le a0 (i.val + 1)
  rw [toNat_sum _ _ (by rw [sum_toNat_bit]; omega), sum_toNat_bit]

/-- The clip at zero and the wrap of negative indices leave the prefix counts as they are. -/
theorem v9_eq_v2 (i : Fin 4194304) : s_main_v9 a0 (ix1 i) = s_main_v2 a0 (ix1 i) := by
  have hlt : (s_main_v2 a0 (ix1 i)).toNat < 2 ^ 31 := by
    rw [toNat_v2]; have := count_le a0 (i.val + 1); have := i.isLt; omega
  unfold s_main_v9 s_main_v6 s_main_v8 s_main_v4
  generalize s_main_v2 a0 = V at hlt ⊢
  exact clipWrap_eq 4194304#32 hlt

/-! ## The histogram of the prefix counts, and its prefix sums -/

/-- Row `i` of the column of scatter indices is the prefix count at `i`. -/
theorem v10_apply (i : Fin 4194304) : s_main_v10 a0 (ix2 i (0 : Fin 1)) = s_main_v9 a0 (ix1 i) := by
  unfold s_main_v10
  refine broadcastInDim_apply _ _ (s_main_v9 a0) (ix2 i (0 : Fin 1)) (ix1 i) ?_
  intro a
  match a with
  | ⟨0, _⟩ => rfl

/-- Read as a signed integer, the scatter index of row `i` is the inclusive prefix count at `i`. -/
theorem toInt_v10 (i : Fin 4194304) :
    (s_main_v10 a0 (ix2 i (0 : Fin 1))).toInt = ((Nat.count (PosAt a0) (i.val + 1) : ℕ) : ℤ) := by
  have hlt : (s_main_v2 a0 (ix1 i)).toNat < 2 ^ 31 := by
    rw [toNat_v2]; have := count_le a0 (i.val + 1); have := i.isLt; omega
  rw [v10_apply, v9_eq_v2, toInt_of_lt hlt, toNat_v2]

/-- The scatter's result at `k` is the number of positions whose inclusive prefix count is `k`. -/
theorem toNat_v12 (k : Fin 4194304) : (s_main_v12 a0 (ix1 k)).toNat = hist (PosAt a0) 4194304 k.val := by
  unfold s_main_v12
  have hb := bincount_apply (w := 32) 4194304 4194304 Facts₀.scatter_S4194304_S4194304x1_S4194304_n_0_0_1_wf
    (s_main_v3 (F := Ideal)) (s_main_v10 a0) (s_main_v11 (F := Ideal)) (ix1 k)
  refine (congrArg BitVec.toNat hb).trans ?_
  have hterm : ∀ i : Fin 4194304,
      (if (s_main_v10 a0 (ix2 i (0 : Fin 1))).toInt = (((ix1 k : (⟨1, ![4194304]⟩ : Shape).Idx) 0).val : ℤ)
        then s_main_v11 (F := Ideal) (ix1 i) else 0)
        = (fun m : ℕ => if Nat.count (PosAt a0) (m + 1) = k.val then (1#32 : BitVec 32) else 0) i.val := by
    intro i
    rw [toInt_v10]
    show (if ((Nat.count (PosAt a0) (i.val + 1) : ℕ) : ℤ) = (k.val : ℤ) then (1#32 : BitVec 32) else 0) = _
    simp only [Nat.cast_inj]
  rw [Finset.sum_congr rfl (fun i _ => hterm i),
    Fin.sum_univ_eq_sum_range (fun m : ℕ => if Nat.count (PosAt a0) (m + 1) = k.val then (1#32 : BitVec 32) else 0)]
  show (0#32 + ∑ m ∈ range 4194304, if Nat.count (PosAt a0) (m + 1) = k.val then (1#32 : BitVec 32) else 0).toNat = _
  rw [BitVec.zero_add]
  have hnat : ∑ m ∈ range 4194304, (if Nat.count (PosAt a0) (m + 1) = k.val then (1#32 : BitVec 32) else 0).toNat
      = hist (PosAt a0) 4194304 k.val := by
    unfold hist
    rw [Finset.card_filter]
    refine Finset.sum_congr rfl fun m _ => ?_
    split_ifs <;> rfl
  have hle : hist (PosAt a0) 4194304 k.val ≤ 4194304 := by
    unfold hist; exact (Finset.card_filter_le _ _).trans (by rw [card_range])
  rw [toNat_sum _ _ (by rw [hnat]; omega), hnat]

/-- The second prefix sum at `k` is the number of positions whose inclusive prefix count is at most `k`. -/
theorem toNat_v13 (k : Fin 4194304) : (s_main_v13 a0 (ix1 k)).toNat = slot (PosAt a0) 4194304 k.val := by
  have hk := k.isLt
  unfold s_main_v13
  have hsum := reduceWindow_addi_cumsum (w := 32) 4194303 4194304 rfl (s_main_v12 a0)
    s_main_call2_call0_v0 reduceWindows_S4194304_S4194304_w4194304s1p4194303_0 h_S_ rfl (ix1 k)
  refine (congrArg BitVec.toNat hsum).trans ?_
  show (∑ m ∈ range (k.val + 1), atNat (s_main_v12 a0) m).toNat = _
  have hterm : ∀ m ∈ range (k.val + 1), (atNat (s_main_v12 a0) m).toNat = hist (PosAt a0) 4194304 m := by
    intro m hm
    have hm' : m < 4194304 := by have := mem_range.mp hm; omega
    rw [atNat_of_lt _ hm']
    exact toNat_v12 a0 ⟨m, hm'⟩
  have hs : ∑ m ∈ range (k.val + 1), (atNat (s_main_v12 a0) m).toNat = slot (PosAt a0) 4194304 k.val := by
    rw [Finset.sum_congr rfl hterm, sum_hist]
  have hle : slot (PosAt a0) 4194304 k.val ≤ 4194304 := by
    unfold slot; exact (Finset.card_filter_le _ _).trans (by rw [card_range])
  rw [toNat_sum _ _ (by rw [hs]; omega), hs]

/-! ## Quotient and remainder by the row length -/

/-- The floor division of the slot by 2048, at an index, is the scalar chain applied to the slot there. -/
theorem v14_apply (j : S4194304.Idx) : s_main_v14 a0 j = floorDiv (s_main_v13 a0 j) 2048#32 := by
  unfold s_main_v14 s_main_call3_v10 s_main_call3_v12 s_main_call3_v9 s_main_call3_v7 s_main_call3_v5 s_main_call3_v2
    s_main_call3_v1
  generalize s_main_v13 a0 = V
  rfl

/-- The remainder by 2048 of that quotient. -/
theorem v15_apply (j : S4194304.Idx) : s_main_v15 a0 j = floorRem (s_main_v14 a0 j) 2048#32 := by
  unfold s_main_v15 s_main_call4_v12 s_main_call4_v14 s_main_call4_v11 s_main_call4_v8 s_main_call4_v6 s_main_call4_v4
  generalize s_main_v14 a0 = V
  rfl

/-- The floor division of the slot by one. -/
theorem v16_apply (j : S4194304.Idx) : s_main_v16 a0 j = floorDiv (s_main_v13 a0 j) 1#32 := by
  unfold s_main_v16 s_main_call5_v10 s_main_call5_v12 s_main_call5_v9 s_main_call5_v7 s_main_call5_v5 s_main_call5_v2
    s_main_call5_v1
  generalize s_main_v13 a0 = V
  rfl

/-- The remainder by 2048 of the slot. -/
theorem v17_apply (j : S4194304.Idx) : s_main_v17 a0 j = floorRem (s_main_v16 a0 j) 2048#32 := by
  unfold s_main_v17 s_main_call6_v12 s_main_call6_v14 s_main_call6_v11 s_main_call6_v8 s_main_call6_v6 s_main_call6_v4
  generalize s_main_v16 a0 = V
  rfl

theorem toNat_2048 : (2048#32 : BitVec 32).toNat = 2048 := by decide
theorem toNat_one : (1#32 : BitVec 32).toNat = 1 := by decide

/-- For a slot `s ≤ 4194304` the row word is `s / 2048 % 2048` and the column word is `s % 2048`. -/
theorem toNat_v15 (k : Fin 4194304) :
    (s_main_v15 a0 (ix1 k)).toNat = slot (PosAt a0) 4194304 k.val / 2048 % 2048 := by
  have hle : slot (PosAt a0) 4194304 k.val ≤ 4194304 := by
    unfold slot; exact (Finset.card_filter_le _ _).trans (by rw [card_range])
  have h13 : (s_main_v13 a0 (ix1 k)).toNat < 2 ^ 31 := by rw [toNat_v13]; omega
  have h14 : (s_main_v14 a0 (ix1 k)).toNat = slot (PosAt a0) 4194304 k.val / 2048 := by
    rw [v14_apply, toNat_floorDiv h13 (by decide) (by decide), toNat_2048, toNat_v13]
  rw [v15_apply, toNat_floorRem (by rw [h14]; omega) (by decide) (by decide), toNat_2048, h14]

theorem toNat_v17 (k : Fin 4194304) :
    (s_main_v17 a0 (ix1 k)).toNat = slot (PosAt a0) 4194304 k.val % 2048 := by
  have hle : slot (PosAt a0) 4194304 k.val ≤ 4194304 := by
    unfold slot; exact (Finset.card_filter_le _ _).trans (by rw [card_range])
  have h13 : (s_main_v13 a0 (ix1 k)).toNat < 2 ^ 31 := by rw [toNat_v13]; omega
  have h16 : (s_main_v16 a0 (ix1 k)).toNat = slot (PosAt a0) 4194304 k.val := by
    rw [v16_apply, toNat_floorDiv h13 (by decide) (by decide), toNat_one, Nat.div_one, toNat_v13]
  rw [v17_apply, toNat_floorRem (by rw [h16]; omega) (by decide) (by decide), toNat_2048, h16]

/-! ## The number of positive entries, and the fill -/

theorem numel_adj : S2048x2048.numel = 4194304 := by
  rw [Shape.numel, Fin.prod_univ_two]; rfl

/-- The index of the matrix at a row-major position: row the quotient, column the remainder by 2048. -/
theorem rowMajor_symm_adj (q : Fin S2048x2048.numel) (h : q.val < 4194304) :
    S2048x2048.rowMajor.symm q = ix2 ⟨q.val / 2048, by omega⟩ ⟨q.val % 2048, Nat.mod_lt _ (by decide)⟩ := by
  rw [Equiv.symm_apply_eq]
  apply Fin.ext
  rw [Shape.rowMajor_val_two]
  show q.val = q.val / 2048 * 2048 + q.val % 2048
  omega

/-- The number of indices of the matrix whose bit is one is the number of positive flat positions. -/
theorem card_bits : (Finset.univ.filter fun i : S2048x2048.Idx => s_main_v1 a0 i = 1#1).card = total a0 := by
  unfold total
  rw [Nat.count_eq_card_filter_range, Finset.card_filter, Finset.card_filter,
    ← Equiv.sum_comp S2048x2048.rowMajor.symm]
  have hterm : ∀ q : Fin S2048x2048.numel,
      (if s_main_v1 a0 (S2048x2048.rowMajor.symm q) = 1#1 then 1 else 0)
        = (fun k : ℕ => if PosAt a0 k then 1 else 0) q.val := by
    intro q
    have hq : q.val < 4194304 := lt_of_lt_of_eq q.isLt numel_adj
    rw [rowMajor_symm_adj q hq]
    exact if_congr ((v1_eq_one_iff a0 _ _).trans ⟨fun hp => ⟨hq, hp⟩, fun ⟨_, hp⟩ => hp⟩) rfl rfl
  rw [Finset.sum_congr rfl (fun q _ => hterm q),
    Fin.sum_univ_eq_sum_range (fun k : ℕ => if PosAt a0 k then 1 else 0), numel_adj]

theorem total_le : total a0 ≤ 4194304 := count_le a0 4194304

/-- The sum of all the bits is the number of positive entries, as a word. -/
theorem v20_eq : s_main_v20 a0 ix0 = BitVec.ofNat 32 (total a0) := by
  unfold s_main_v20
  refine (Host.reduce_eq_fold IntOp.addi (s_main_v19 a0) s_main_c_9 reducesTo_S2048x2048_S_d0_1 h_S_ ix0).trans ?_
  have hall : ∀ i : S2048x2048.Idx, reducesTo_S2048x2048_S_d0_1.drop i = ix0 := fun i => funext fun a => a.elim0
  rw [Finset.filter_true_of_mem (fun i _ => hall i)]
  refine (IndicatorCount.fold_addi_setWidth_eq_card (w := 32) (s_main_v1 a0) Finset.univ).trans ?_
  rw [card_bits]

/-- The fill condition at slot `e`: the slot number has reached the number of positive entries. -/
theorem v22_eq_one_iff (e : Fin 4194304) : s_main_v22 a0 (ix1 e) = 1#1 ↔ total a0 ≤ e.val := by
  have he := e.isLt
  have ht := total_le a0
  have h21 : s_main_v21 a0 (ix1 e) = BitVec.ofNat 32 (total a0) := by
    unfold s_main_v21 broadcastInDim
    rw [← v20_eq]
    exact congrArg (s_main_v20 a0) (eq_ix0 _)
  have h18 : s_main_v18 (ix1 e) = BitVec.ofNat 32 e.val := rfl
  unfold s_main_v22
  show IntOp.cmpi .sge (s_main_v18 (ix1 e)) (s_main_v21 a0 (ix1 e)) = 1#1 ↔ _
  rw [h18, h21, cmpi_sge_eq_one_iff (by rw [BitVec.toNat_ofNat]; omega) (by rw [BitVec.toNat_ofNat]; omega),
    BitVec.toNat_ofNat, BitVec.toNat_ofNat, Nat.mod_eq_of_lt (by omega), Nat.mod_eq_of_lt (by omega)]

/-! ## The two index arrays -/

/-- The reference's row and column arrays list the positive positions in row-major order, then the fill value. -/
theorem lists : Lists a0 (s_main_v23 (F := Ideal) a0) (s_main_v24 (F := Ideal) a0) where
  listed := by
    intro e he
    have hcount : e.val < Nat.count (PosAt a0) 4194304 := he
    have hslot : slot (PosAt a0) 4194304 e.val = Nat.nth (PosAt a0) e.val := slot_eq_nth (PosAt a0) hcount
    have hnth : Nat.nth (PosAt a0) e.val < 4194304 := nth_lt (PosAt a0) hcount
    have h22 : s_main_v22 a0 (ix1 e) = 0#1 := by
      rcases bit_cases (s_main_v22 a0 (ix1 e)) with h | h
      · exact h
      · exact absurd ((v22_eq_one_iff a0 e).mp h) (by omega)
    constructor
    · unfold s_main_v23
      show (Scalar.select (s_main_v22 a0 (ix1 e)) _ (s_main_v15 a0 (ix1 e))).toNat = _
      rw [h22, Lib.FloorMod.select_zero, toNat_v15, hslot]
      exact Nat.mod_eq_of_lt (by omega)
    · unfold s_main_v24
      show (Scalar.select (s_main_v22 a0 (ix1 e)) _ (s_main_v17 a0 (ix1 e))).toNat = _
      rw [h22, Lib.FloorMod.select_zero, toNat_v17, hslot]
  filled := by
    intro e he
    have h22 : s_main_v22 a0 (ix1 e) = 1#1 := (v22_eq_one_iff a0 e).mpr he
    constructor
    · unfold s_main_v23
      show Scalar.select (s_main_v22 a0 (ix1 e)) (s_main_call7_v1 (ix1 e)) _ = _
      rw [h22, Lib.FloorMod.select_one]; rfl
    · unfold s_main_v24
      show Scalar.select (s_main_v22 a0 (ix1 e)) (s_main_call8_v1 (ix1 e)) _ = _
      rw [h22, Lib.FloorMod.select_one]; rfl

end Cert.NonzeroIndex
-- ==== Proof.RefLayersCount.lean ====
/-
  Sums over an edge list that lists the positive positions of a square pattern and then the diagonal.

  Take an N×N pattern of positions, flattened row-major (position i is row i / N, column i % N), and a predicate p marking
  some of them. An edge list of N·N + N slots holds, in its first count p (N·N) slots, the marked positions in increasing
  order; its slots up to N·N after those hold nothing; its last N slots hold the diagonal, slot N·N + x being (x, x).
  Summing over all slots a quantity that is nonzero only for the slots whose column is c collects, for each marked
  position (r, c) of column c, that row's term, and from the diagonal the single term of slot N·N + c:
      ∑ over slots = ∑ r < N, [p (N·r + c)] g r + s.
-/
import proofs.«178039_g46316927320456_cont_sun_m_677_15_alg».proof.Proof.LibNthEnum
import Mathlib.Algebra.BigOperators.Intervals
import Mathlib.Algebra.BigOperators.Fin
import Mathlib.Tactic

namespace Cert.RefLayers.Count

open Finset

variable {M : Type*} [AddCommMonoid M]

/-- The slots in three runs: the first `count p E₀` carry a function of the slot's marked position, the next ones up to
    `E₀` nothing, the last `N` a function of their offset. -/
theorem sum_slots_tail (p : ℕ → Prop) [DecidablePred p] (E₀ N : ℕ) (H G S : ℕ → M)
    (h1 : ∀ e, e < Nat.count p E₀ → H e = G (Nat.nth p e))
    (h2 : ∀ e, Nat.count p E₀ ≤ e → e < E₀ → H e = 0)
    (h3 : ∀ x, x < N → H (E₀ + x) = S x) :
    ∑ e ∈ range (E₀ + N), H e = ∑ i ∈ (range E₀).filter p, G i + ∑ x ∈ range N, S x := by
  rw [Finset.sum_range_add]
  congr 1
  · rw [← Cert.Lib.NthEnum.sum_nth p G E₀]
    have hT : Nat.count p E₀ ≤ E₀ := Nat.count_le p
    have hsub : range (Nat.count p E₀) ⊆ range E₀ := fun e he => mem_range.mpr (lt_of_lt_of_le (mem_range.mp he) hT)
    rw [← Finset.sum_subset hsub]
    · exact Finset.sum_congr rfl fun e he => h1 e (mem_range.mp he)
    · intro e he hne
      exact h2 e (Nat.le_of_not_lt fun h => hne (mem_range.mpr h)) (mem_range.mp he)
  · exact Finset.sum_congr rfl fun x hx => h3 x (mem_range.mp hx)

/-- The marked positions of column `c`, one per row. -/
theorem sum_filter_col (p : ℕ → Prop) [DecidablePred p] (N c : ℕ) (hc : c < N) (g : ℕ → M) :
    ∑ i ∈ (range (N * N)).filter p, (if i % N = c then g (i / N) else 0)
      = ∑ r ∈ range N, if p (N * r + c) then g r else 0 := by
  have hN : 0 < N := lt_of_le_of_lt (Nat.zero_le c) hc
  rw [Finset.sum_filter]
  have hswap : ∀ i, (if p i then (if i % N = c then g (i / N) else 0) else 0)
      = if i % N = c then (if p i then g (i / N) else 0) else 0 := by
    intro i; split_ifs <;> rfl
  rw [Finset.sum_congr rfl fun i _ => hswap i, ← Finset.sum_filter]
  refine Finset.sum_nbij' (fun i => i / N) (fun r => N * r + c) ?_ ?_ ?_ ?_ ?_
  · intro i hi
    exact mem_range.mpr (Nat.div_lt_of_lt_mul (mem_range.mp (mem_filter.mp hi).1))
  · intro r hr
    have hr' := mem_range.mp hr
    refine mem_filter.mpr ⟨mem_range.mpr ?_, ?_⟩
    · calc N * r + c < N * r + N := Nat.add_lt_add_left hc _
        _ = N * (r + 1) := by ring
        _ ≤ N * N := Nat.mul_le_mul_left N hr'
    · rw [Nat.mul_add_mod, Nat.mod_eq_of_lt hc]
  · intro i hi
    have h := (mem_filter.mp hi).2
    show N * (i / N) + c = i
    rw [← h]; exact Nat.div_add_mod i N
  · intro r _
    show (N * r + c) / N = r
    rw [Nat.mul_add_div hN, Nat.div_eq_of_lt hc, Nat.add_zero]
  · intro i hi
    have h := (mem_filter.mp hi).2
    have hi' : N * (i / N) + c = i := by rw [← h]; exact Nat.div_add_mod i N
    show (if p i then g (i / N) else 0) = if p (N * (i / N) + c) then g (i / N) else 0
    rw [hi']

/-- THE EDGE SUM: over the `N·N + N` slots, the marked positions of column `c` contribute their row's term and the
    diagonal contributes slot `N·N + c`'s. -/
theorem edge_sum_nat (p : ℕ → Prop) [DecidablePred p] (N c : ℕ) (hc : c < N) (H g : ℕ → M) (s : M)
    (h1 : ∀ e, e < Nat.count p (N * N) → H e = if Nat.nth p e % N = c then g (Nat.nth p e / N) else 0)
    (h2 : ∀ e, Nat.count p (N * N) ≤ e → e < N * N → H e = 0)
    (h3 : ∀ x, x < N → H (N * N + x) = if x = c then s else 0) :
    ∑ e ∈ range (N * N + N), H e = (∑ r ∈ range N, if p (N * r + c) then g r else 0) + s := by
  rw [sum_slots_tail p (N * N) N H (fun i => if i % N = c then g (i / N) else 0) (fun x => if x = c then s else 0) h1 h2 h3,
    sum_filter_col p N c hc g, Finset.sum_ite_eq' (range N) c (fun _ => s), if_pos (mem_range.mpr hc)]

/-- The same over slots and rows typed as `Fin`: `F` is the slot's contribution, `g` a row's term. -/
theorem edge_sum (p : ℕ → Prop) [DecidablePred p] (N E₀ Et : ℕ) (hE₀ : E₀ = N * N) (hEt : Et = E₀ + N) (c : Fin N)
    (F : Fin Et → M) (g : Fin N → M) (s : M)
    (h1 : ∀ e : Fin Et, e.val < Nat.count p E₀ → ∀ r : Fin N, r.val = Nat.nth p e.val / N →
      F e = if Nat.nth p e.val % N = c.val then g r else 0)
    (h2 : ∀ e : Fin Et, Nat.count p E₀ ≤ e.val → e.val < E₀ → F e = 0)
    (h3 : ∀ e : Fin Et, E₀ ≤ e.val → F e = if e.val - E₀ = c.val then s else 0) :
    ∑ e, F e = (∑ r : Fin N, if p (N * r.val + c.val) then g r else 0) + s := by
  subst hE₀ hEt
  have hT : Nat.count p (N * N) ≤ N * N := Nat.count_le p
  have key := edge_sum_nat p N c.val c.isLt (fun e => if h : e < N * N + N then F ⟨e, h⟩ else 0)
    (fun r => if h : r < N then g ⟨r, h⟩ else 0) s
    (by
      intro e he
      have heN : e < N * N := lt_of_lt_of_le he hT
      have hlt : e < N * N + N := Nat.lt_add_right N heN
      have hn : Nat.nth p e < N * N := Cert.Lib.NthEnum.nth_lt p he
      have hr : Nat.nth p e / N < N := Nat.div_lt_of_lt_mul hn
      show (if h : e < N * N + N then F ⟨e, h⟩ else 0) = if Nat.nth p e % N = c.val then
        (if h : Nat.nth p e / N < N then g ⟨Nat.nth p e / N, h⟩ else 0) else 0
      rw [dif_pos hlt, dif_pos hr]
      exact h1 ⟨e, hlt⟩ he ⟨Nat.nth p e / N, hr⟩ rfl)
    (by
      intro e he heN
      have hlt : e < N * N + N := Nat.lt_add_right N heN
      show (if h : e < N * N + N then F ⟨e, h⟩ else 0) = 0
      rw [dif_pos hlt]
      exact h2 ⟨e, hlt⟩ he heN)
    (by
      intro x hx
      have hlt : N * N + x < N * N + N := Nat.add_lt_add_left hx _
      show (if h : N * N + x < N * N + N then F ⟨N * N + x, h⟩ else 0) = _
      rw [dif_pos hlt, h3 ⟨N * N + x, hlt⟩ (Nat.le_add_right _ _)]
      show (if N * N + x - N * N = c.val then s else 0) = _
      rw [Nat.add_sub_cancel_left])
  rw [Finset.sum_fin_eq_sum_range, key]
  congr 1
  rw [Finset.sum_fin_eq_sum_range]
  refine Finset.sum_congr rfl fun r hr => ?_
  simp only [dif_pos (mem_range.mp hr)]

end Cert.RefLayers.Count
-- ==== Proof.RefLayersIdx.lean ====
/-
  The reference's two edge arrays, slot by slot.

  Each graph convolution extends the row array and the column array (4194304 slots: the positive positions of the
  adjacency matrix in row-major order, then the fill value 2048) by the 2048 self loops (slot 4194304 + x holds x), and
  normalises every index i to i + 2048 when i < 0. All the indices are non-negative, so the normalisation changes nothing.
  Slot e of the extended arrays therefore holds
    • the row and the column of the e-th positive position, when e is below the number of positive positions;
    • 2048 and 2048 — no node — from there up to slot 4194304;
    • x and x at slot 4194304 + x.
  Summing over all slots a quantity that is nonzero only at the slots whose column is c collects one term per positive
  entry (r, c) of column c and the self loop's term (`col_sum`).
-/
import proofs.«178039_g46316927320456_cont_sun_m_677_15_alg».proof.Proof.RefStages
import proofs.«178039_g46316927320456_cont_sun_m_677_15_alg».proof.Proof.EdgeSpec
import proofs.«178039_g46316927320456_cont_sun_m_677_15_alg».proof.Proof.RefLayersCount
import Idealize.ShloMosaic.Lib.Pipeline.Value
import Idealize.ShloMosaic.Lib.IdealHost

noncomputable section

namespace Cert.RefLayers

open Cert.ReferenceIdeal Cert.ReferenceIdeal.Gen Cert.ReferenceIdeal.Stage Cert.EdgeSpec
open Idealize.ShloMosaic Idealize.ShloMosaic.ValueIdx

/-- An index array extended by the self loops. -/
def cat (base : (⟨S4194304, .i32⟩ : BufTy).Contents (Elt Ideal)) : (⟨S4196352, .i32⟩ : BufTy).Contents (Elt Ideal) :=
  concatenate S4196352 0 [⟨S4194304, base⟩, ⟨S2048, s_main_v27⟩] concatenates_S4194304_S2048_S4196352_d0

/-- … and normalised: an index below zero is moved up by 2048. -/
def normCat (base : (⟨S4194304, .i32⟩ : BufTy).Contents (Elt Ideal)) : (⟨S4196352, .i32⟩ : BufTy).Contents (Elt Ideal) :=
  select (cmpi .slt (cat base) (s_main_v31 (F := Ideal))) (addi (cat base) (s_main_v33 (F := Ideal))) (cat base)

variable (a0 : (⟨S2048x2048, .i32⟩ : BufTy).Contents (Elt Ideal))

/-- The normalised column array and row array of the first convolution … -/
theorem v35_eq : s_main_v35 (F := Ideal) a0 = normCat (s_main_v24 (F := Ideal) a0) := rfl
theorem v49_eq : s_main_v49 (F := Ideal) a0 = normCat (s_main_v23 (F := Ideal) a0) := rfl

/-- … are recomputed, operation for operation, for every later use. -/
theorem v56_eq : s_main_v56 (F := Ideal) a0 = s_main_v35 (F := Ideal) a0 := rfl
theorem v75_eq : s_main_v75 (F := Ideal) a0 = s_main_v35 (F := Ideal) a0 := rfl
theorem v64_eq : s_main_v64 (F := Ideal) a0 = s_main_v49 (F := Ideal) a0 := rfl
theorem v91_eq : s_main_v91 (F := Ideal) a0 = s_main_v35 (F := Ideal) a0 := rfl
theorem v112_eq : s_main_v112 (F := Ideal) a0 = s_main_v35 (F := Ideal) a0 := rfl
theorem v131_eq : s_main_v131 (F := Ideal) a0 = s_main_v35 (F := Ideal) a0 := rfl
theorem v105_eq : s_main_v105 (F := Ideal) a0 = s_main_v49 (F := Ideal) a0 := rfl
theorem v120_eq : s_main_v120 (F := Ideal) a0 = s_main_v49 (F := Ideal) a0 := rfl

/-- A non-negative index is left alone. -/
theorem norm_of_nonneg (x : BitVec 32) (hx : 0 ≤ x.toInt) :
    Scalar.select (IntOp.cmpi .slt x 0#32) (IntOp.addi x 2048#32) x = x := by
  have h : IntOp.cmpi .slt x 0#32 = 0#1 := by
    simp [IntOp.cmpi, BitVec.slt, not_lt.mpr hx]
  rw [h, select_zero]

theorem normCat_apply (base : (⟨S4194304, .i32⟩ : BufTy).Contents (Elt Ideal)) (e : Fin 4196352) :
    normCat base (ix1 e) = Scalar.select (IntOp.cmpi .slt (cat base (ix1 e)) 0#32)
      (IntOp.addi (cat base (ix1 e)) 2048#32) (cat base (ix1 e)) := rfl

/-- A slot of the original array. -/
theorem cat_left (base : (⟨S4194304, .i32⟩ : BufTy).Contents (Elt Ideal)) (e : Fin 4196352) (h : e.val < 4194304) :
    cat base (ix1 e) = base (ix1 ⟨e.val, h⟩) := by
  unfold cat
  exact concatenate_pair_apply_left (0 : Fin 1) base s_main_v27 concatenates_S4194304_S2048_S4196352_d0 (ix1 e) rfl
    (ix1 ⟨e.val, h⟩) (fun b => by match b with | ⟨0, _⟩ => rfl)

/-- A self-loop slot. -/
theorem cat_right (base : (⟨S4194304, .i32⟩ : BufTy).Contents (Elt Ideal)) (e : Fin 4196352) (h : 4194304 ≤ e.val) :
    cat base (ix1 e) = BitVec.ofNat 32 (e.val - 4194304) := by
  unfold cat
  have he := e.isLt
  refine (concatenate_pair_apply_right (0 : Fin 1) base s_main_v27 concatenates_S4194304_S2048_S4196352_d0 (ix1 e) rfl rfl
    (ix1 (⟨e.val - 4194304, by omega⟩ : Fin 2048))
    (fun b hb => by match b with | ⟨0, _⟩ => exact absurd rfl hb) ?_).trans ?_
  · show (e.val - 4194304) + 4194304 = e.val
    omega
  · rfl

/-- A word below 2³¹ read signed is the word read unsigned. -/
theorem toInt_of_toNat (x : BitVec 32) (n : ℕ) (h : x.toNat = n) (hn : n ≤ 2048) : x.toInt = (n : ℤ) := by
  rw [BitVec.toInt_eq_toNat_of_lt (by rw [h]; omega), h]

theorem toInt_ofNat_small (n : ℕ) (hn : n ≤ 2048) : (BitVec.ofNat 32 n).toInt = (n : ℤ) :=
  toInt_of_toNat _ n (by rw [BitVec.toNat_ofNat]; omega) hn

/-- A slot of the original array holding a non-negative index keeps it. -/
theorem normCat_left (base : (⟨S4194304, .i32⟩ : BufTy).Contents (Elt Ideal)) (e : Fin 4196352) (h : e.val < 4194304)
    (hb : 0 ≤ (base (ix1 ⟨e.val, h⟩)).toInt) : normCat base (ix1 e) = base (ix1 ⟨e.val, h⟩) := by
  rw [normCat_apply, cat_left base e h, norm_of_nonneg _ hb]

/-- A self-loop slot holds its offset. -/
theorem normCat_right (base : (⟨S4194304, .i32⟩ : BufTy).Contents (Elt Ideal)) (e : Fin 4196352) (h : 4194304 ≤ e.val) :
    (normCat base (ix1 e)).toInt = ((e.val - 4194304 : ℕ) : ℤ) := by
  have he := e.isLt
  have h1 : (BitVec.ofNat 32 (e.val - 4194304)).toInt = ((e.val - 4194304 : ℕ) : ℤ) := toInt_ofNat_small _ (by omega)
  rw [normCat_apply, cat_right base e h, norm_of_nonneg _ (by rw [h1]; omega), h1]

/-- The column word and the row word of slot `e`. -/
def colW (e : Fin 4196352) : BitVec 32 := s_main_v35 (F := Ideal) a0 (ix1 e)
def rowW (e : Fin 4196352) : BitVec 32 := s_main_v49 (F := Ideal) a0 (ix1 e)

variable {a0}
variable (hl : Lists a0 (s_main_v23 (F := Ideal) a0) (s_main_v24 (F := Ideal) a0))
include hl

/-- Below the number of positive positions: the row and the column of that positive position. -/
theorem edge_listed (e : Fin 4196352) (he : e.val < total a0) :
    (rowW a0 e).toInt = ((Nat.nth (PosAt a0) e.val / 2048 : ℕ) : ℤ)
      ∧ (colW a0 e).toInt = ((Nat.nth (PosAt a0) e.val % 2048 : ℕ) : ℤ) := by
  have hT : total a0 ≤ 4194304 := Nat.count_le _
  have h : e.val < 4194304 := lt_of_lt_of_le he hT
  have hn : Nat.nth (PosAt a0) e.val < 4194304 := Cert.Lib.NthEnum.nth_lt _ he
  obtain ⟨hr, hc⟩ := hl.listed ⟨e.val, h⟩ he
  have hr' : (s_main_v23 (F := Ideal) a0 (ix1 ⟨e.val, h⟩)).toInt = ((Nat.nth (PosAt a0) e.val / 2048 : ℕ) : ℤ) :=
    toInt_of_toNat _ _ hr (by omega)
  have hc' : (s_main_v24 (F := Ideal) a0 (ix1 ⟨e.val, h⟩)).toInt = ((Nat.nth (PosAt a0) e.val % 2048 : ℕ) : ℤ) :=
    toInt_of_toNat _ _ hc (by omega)
  constructor
  · unfold rowW
    rw [v49_eq, normCat_left _ e h (by rw [hr']; omega), hr']
  · unfold colW
    rw [v35_eq, normCat_left _ e h (by rw [hc']; omega), hc']

/-- From there up to the end of the original arrays: the fill value, which is no node. -/
theorem edge_filled (e : Fin 4196352) (he : total a0 ≤ e.val) (h : e.val < 4194304) :
    (rowW a0 e).toInt = 2048 ∧ (colW a0 e).toInt = 2048 := by
  obtain ⟨hr, hc⟩ := hl.filled ⟨e.val, h⟩ he
  have h2048 : (2048#32 : BitVec 32).toInt = 2048 := by decide
  constructor
  · unfold rowW
    rw [v49_eq, normCat_left _ e h (by rw [hr, h2048]; omega), hr, h2048]
  · unfold colW
    rw [v35_eq, normCat_left _ e h (by rw [hc, h2048]; omega), hc, h2048]

omit hl in
/-- The self loops. -/
theorem edge_loop (e : Fin 4196352) (h : 4194304 ≤ e.val) :
    (rowW a0 e).toInt = ((e.val - 4194304 : ℕ) : ℤ) ∧ (colW a0 e).toInt = ((e.val - 4194304 : ℕ) : ℤ) := by
  constructor
  · unfold rowW; rw [v49_eq]; exact normCat_right _ e h
  · unfold colW; rw [v35_eq]; exact normCat_right _ e h

/-- The row a gather reads for slot `e`: the index read signed and clamped into the nodes. -/
abbrev clampR (e : Fin 4196352) : Fin 2048 := ⟨min (rowW a0 e).toInt.toNat (2048 - 1), by omega⟩
abbrev clampC (e : Fin 4196352) : Fin 2048 := ⟨min (colW a0 e).toInt.toNat (2048 - 1), by omega⟩

omit hl in
/-- A flat position built from a row and a column is positive exactly when that entry is. -/
theorem posAt_iff (r c : Fin 2048) : PosAt a0 (2048 * r.val + c.val) ↔ Pos a0 r c := by
  have hr := r.isLt
  have hc := c.isLt
  have e1 : (2048 * r.val + c.val) / 2048 = r.val := by omega
  have e2 : (2048 * r.val + c.val) % 2048 = c.val := by omega
  unfold PosAt
  constructor
  · rintro ⟨_, hp⟩
    have er : (⟨(2048 * r.val + c.val) / 2048, by omega⟩ : Fin 2048) = r := Fin.ext e1
    have ec : (⟨(2048 * r.val + c.val) % 2048, Nat.mod_lt _ (by decide)⟩ : Fin 2048) = c := Fin.ext e2
    rw [er, ec] at hp
    exact hp
  · intro hp
    refine ⟨by omega, ?_⟩
    have er : (⟨(2048 * r.val + c.val) / 2048, by omega⟩ : Fin 2048) = r := Fin.ext e1
    have ec : (⟨(2048 * r.val + c.val) % 2048, Nat.mod_lt _ (by decide)⟩ : Fin 2048) = c := Fin.ext e2
    rw [er, ec]
    exact hp

/-- THE SUM OVER THE SLOTS OF COLUMN `c`: a quantity of the slot's (clamped) row and column, summed over the slots whose
    column index is `c`, is its sum over the positive entries `(r, c)` of column `c` plus its value at the self loop
    `(c, c)`. -/
theorem col_sum [∀ r c, Decidable (Pos a0 r c)] (c : Fin 2048) (Φ : Fin 2048 → Fin 2048 → EReal) :
    (∑ e : Fin 4196352, if (colW a0 e).toInt = (c.val : ℤ) then Φ (clampR (a0 := a0) e) (clampC (a0 := a0) e) else 0)
      = (∑ r : Fin 2048, if Pos a0 r c then Φ r c else 0) + Φ c c := by
  have hc := c.isLt
  rw [Cert.RefLayers.Count.edge_sum (PosAt a0) 2048 4194304 4196352 rfl rfl c _ (fun r => Φ r c) (Φ c c)]
  · congr 1
    exact Finset.sum_congr rfl fun r _ => if_congr (posAt_iff r c) rfl rfl
  · intro e he r hr
    obtain ⟨h1, h2⟩ := edge_listed hl e he
    have hn : Nat.nth (PosAt a0) e.val < 4194304 := Cert.Lib.NthEnum.nth_lt _ he
    by_cases hcc : Nat.nth (PosAt a0) e.val % 2048 = c.val
    · have er : clampR (a0 := a0) e = r := Fin.ext (by show min (rowW a0 e).toInt.toNat (2048 - 1) = r.val; rw [h1]; omega)
      have ec : clampC (a0 := a0) e = c := Fin.ext (by show min (colW a0 e).toInt.toNat (2048 - 1) = c.val; rw [h2]; omega)
      rw [if_pos (by rw [h2, hcc]), if_pos hcc, er, ec]
    · rw [if_neg (by rw [h2]; omega), if_neg hcc]
  · intro e he h
    obtain ⟨_, h2⟩ := edge_filled hl e he h
    rw [if_neg (by rw [h2]; omega)]
  · intro e h
    obtain ⟨h1, h2⟩ := edge_loop (a0 := a0) e h
    have he := e.isLt
    by_cases hcc : e.val - 4194304 = c.val
    · have er : clampR (a0 := a0) e = c := Fin.ext (by show min (rowW a0 e).toInt.toNat (2048 - 1) = c.val; rw [h1]; omega)
      have ec : clampC (a0 := a0) e = c := Fin.ext (by show min (colW a0 e).toInt.toNat (2048 - 1) = c.val; rw [h2]; omega)
      rw [if_pos (by rw [h2, hcc]), if_pos hcc, er, ec]
    · rw [if_neg (by rw [h2]; omega), if_neg hcc]

end Cert.RefLayers

end
-- ==== Proof.LibSparseRows.lean ====
/-
  Row gathers, row scatter-adds and sparse products on the host, read at an index.

  A sparse matrix given by its edges — for each of E edges a row number, a column number and a value — acts on an N×F
  matrix h by  out[n, f] = Σ over the edges e into row n of  val[e] · h[col[e], f].  On the host this is a GATHER of the rows
  `h[col]` (E×F), a product with the values laid along the columns, and a SCATTER-ADD of the E×F products into N×F zeros
  by the row numbers (a segment sum). Read at an index:
  • the row gather at (e, f) is the operand at (r, f), r the index col[e] read signed and clamped into [0, N − 1];
  • the row scatter-add at (n, f) is the operand's entry plus the sum, over the update rows whose index — read signed, not
    clamped — is n, of the update's entry (e, f); an update row whose index is no row of the operand adds nothing;
  • so the product at (n, f) is that sum of val · h over the edges into n, and it reads column f of h only: the product of
    several matrices laid side by side is the products of each laid side by side (`spmm_cols`).
  Every statement is at the ideal values (floats are extended reals); none needs a finiteness hypothesis.
-/
import Idealize.ShloMosaic.Lib.ValueIdx
import Idealize.ShloMosaic.PureOps.Ideal.Laws

noncomputable section

namespace GatherRows

open Idealize.ShloMosaic Idealize.ShloMosaic.ValueIdx

variable {α : Type} {N E F w : Nat}

/-- The dimension numbers of a row gather from an N×F operand by E×1 start indices. -/
abbrev rowDims (N E F : Nat)
    (wf : GatherDims.WF (⟨2, ![N, F]⟩ : Shape) ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

variable (wf : GatherDims.WF (⟨2, ![N, F]⟩ : Shape) ⟨2, ![E, 1]⟩ ⟨2, ![E, F]⟩ [1] [0] [] [0] [] 1 ![1, F])

/-- THE ROW GATHER READ AT (e, f): the operand at the row idx[e] names — read signed, clamped into the operand — and
    column f. -/
theorem gather_rows_apply (hN : 0 < N) (x : (⟨2, ![N, F]⟩ : Shape).Idx → α) (idx : IVec ⟨2, ![E, 1]⟩ w) (e : Fin E) (f : Fin F) :
    Host.gather (rowDims N E F wf) x idx (ix2 e f)
      = x (ix2 (⟨min (idx (ix2 e (0 : Fin 1))).toInt.toNat (N - 1), by omega⟩ : Fin N) f) := by
  unfold Host.gather
  congr 1
  funext a
  refine Fin.ext ?_
  have hb : ∀ a : Fin 2, (rowDims N E F wf).batchCoord (ix2 e f) a = 0 := fun a =>
    GatherDims.batchCoord_eq_zero _ _ _ List.not_mem_nil
  match a with
  | ⟨0, _⟩ =>
    show (rowDims N E F wf).start (ix2 e f) idx 0 + (rowDims N E F wf).batchCoord (ix2 e f) 0 + (rowDims N E F wf).offCoord (ix2 e f) 0 = _
    have h0 : (0 : Fin 2) ∉ (rowDims N E F wf).sKept :=
      (show (0 : Fin 2) ∉ (List.finRange 2).filter (· ∉ [(0 : Fin 2)] ++ []) by decide)
    rw [hb 0, GatherDims.offCoord_eq_zero _ _ _ h0]
    simp only [Nat.add_zero]
    unfold GatherDims.start
    rw [dif_pos (show (0 : Fin 2) ∈ [(0 : Fin 2)] from List.mem_singleton.mpr rfl)]
    have hsi : (rowDims N E F wf).siIdx (ix2 e f) ⟨List.idxOf (0 : Fin 2) (rowDims N E F wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E F wf).start (ix2 e f) idx 1 + (rowDims N E F wf).batchCoord (ix2 e f) 1 + (rowDims N E F wf).offCoord (ix2 e f) 1 = f.val
    have h1 : (1 : Fin 2) ∈ (rowDims N E F wf).sKept :=
      (show (1 : Fin 2) ∈ (List.finRange 2).filter (· ∉ [(0 : Fin 2)] ++ []) by decide)
    rw [hb 1]
    unfold GatherDims.start GatherDims.offCoord
    rw [dif_neg (show (1 : Fin 2) ∉ [(0 : Fin 2)] by decide), dif_pos h1]
    simp only [Nat.zero_add, Nat.add_zero]
    rfl

end GatherRows

namespace ScatterRows

open Idealize.ShloMosaic Idealize.ShloMosaic.ValueIdx

variable {N E F w : Nat}

/-- The dimension numbers of a row scatter into an N×F operand from E×1 indices and E×F updates. -/
abbrev rowDims (N E F : Nat) (wf : ScatterDims.WF (⟨2, ![N, F]⟩ : Shape) ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable (wf : ScatterDims.WF (⟨2, ![N, F]⟩ : Shape) ⟨2, ![E, 1]⟩ ⟨2, ![E, F]⟩ [1] [0] [0] 1)

/-- On the row axis an update has no window coordinate. -/
theorem window_row (j : (⟨2, ![E, F]⟩ : Shape).Idx) : (rowDims N E F wf).window j 0 = 0 := by
  have h : (0 : Fin 2) ∉ (rowDims N E F wf).sKept :=
    (show (0 : Fin 2) ∉ (List.finRange 2).filter (· ∉ [(0 : Fin 2)]) by decide)
  unfold ScatterDims.window
  rw [dif_neg h]

/-- On the column axis its window coordinate is its own column. -/
theorem window_col (j : (⟨2, ![E, F]⟩ : Shape).Idx) : (rowDims N E F wf).window j 1 = (j 1).val := by
  have h : (1 : Fin 2) ∈ (rowDims N E F wf).sKept :=
    (show (1 : Fin 2) ∈ (List.finRange 2).filter (· ∉ [(0 : Fin 2)]) by decide)
  unfold ScatterDims.window
  rw [dif_pos h]
  rfl

/-- The window starts at column 0. -/
theorem start_col (j : (⟨2, ![E, F]⟩ : Shape).Idx) (idx : IVec ⟨2, ![E, 1]⟩ w) : (rowDims N E F wf).start j idx 1 = 0 := by
  unfold ScatterDims.start
  rw [dif_neg (show (1 : Fin 2) ∉ [(0 : Fin 2)] by decide)]

/-- The window starts at the row the update row's index names, read signed. -/
theorem start_row (j : (⟨2, ![E, F]⟩ : Shape).Idx) (idx : IVec ⟨2, ![E, 1]⟩ w) :
    (rowDims N E F wf).start j idx 0 = (idx (ix2 (j 0 : Fin E) (0 : Fin 1))).toInt := by
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl

/-- Update entry `j` lands on the operand's entry (n, f) exactly when its row's index, read signed, is n and its column is f. -/
theorem resultIdx_eq_some_iff (j : (⟨2, ![E, F]⟩ : Shape).Idx) (idx : IVec ⟨2, ![E, 1]⟩ w) (n : Fin N) (f : Fin F) :
    (rowDims N E F wf).resultIdx? j idx = some (ix2 n f)
      ↔ (idx (ix2 (j 0 : Fin E) (0 : Fin 1))).toInt = (n.val : ℤ) ∧ (j 1 : Fin F) = f := by
  unfold ScatterDims.resultIdx?
  constructor
  · intro h
    split at h
    · rename_i hr
      have he := Option.some.inj h
      have e0 := congrArg (fun g => (g 0).val) he
      have e1 := congrArg (fun g => (g 1).val) he
      simp only [start_row, start_col, window_row, window_col] at e0 e1
      have h0 := hr 0
      simp only [start_row, window_row] at h0
      refine ⟨?_, Fin.ext ?_⟩
      · have : ((idx (ix2 (j 0 : Fin E) (0 : Fin 1))).toInt + 0).toNat = n.val := e0
        omega
      · have : ((0 : ℤ) + ((j 1).val : ℤ)).toNat = f.val := e1
        omega
    · exact absurd h (by simp)
  · rintro ⟨h0, h1⟩
    have hn := n.isLt
    have hj : (j 1).val < F := (j 1).isLt
    have s0 : (rowDims N E F wf).start j idx 0 + ((rowDims N E F wf).window j 0 : ℤ) = (n.val : ℤ) := by
      rw [start_row, window_row, h0]; omega
    have s1 : (rowDims N E F wf).start j idx 1 + ((rowDims N E F wf).window j 1 : ℤ) = ((j 1).val : ℤ) := by
      rw [start_col, window_col]; omega
    have hr : ∀ a, 0 ≤ (rowDims N E F wf).start j idx a + (rowDims N E F wf).window j a
        ∧ (rowDims N E F wf).start j idx a + (rowDims N E F wf).window j a < (⟨2, ![N, F]⟩ : Shape).size a := fun a =>
      match a with
      | ⟨0, _⟩ => (show 0 ≤ (rowDims N E F wf).start j idx 0 + ((rowDims N E F wf).window j 0 : ℤ)
          ∧ (rowDims N E F wf).start j idx 0 + ((rowDims N E F wf).window j 0 : ℤ) < ((N : ℕ) : ℤ) by rw [s0]; omega)
      | ⟨1, _⟩ => (show 0 ≤ (rowDims N E F wf).start j idx 1 + ((rowDims N E F wf).window j 1 : ℤ)
          ∧ (rowDims N E F wf).start j idx 1 + ((rowDims N E F wf).window j 1 : ℤ) < ((F : ℕ) : ℤ) by rw [s1]; omega)
    rw [dif_pos hr]
    congr 1
    funext a
    refine Fin.ext ?_
    match a with
    | ⟨0, _⟩ =>
      show ((rowDims N E F wf).start j idx 0 + ((rowDims N E F wf).window j 0 : ℤ)).toNat = n.val
      rw [s0]; omega
    | ⟨1, _⟩ =>
      show ((rowDims N E F wf).start j idx 1 + ((rowDims N E F wf).window j 1 : ℤ)).toNat = f.val
      rw [s1, ← h1]; omega

/-- THE ROW SCATTER-ADD READ AT (n, f): the operand's entry plus the sum, over the update rows whose index is n, of the
    update's entry in column f. -/
theorem hostScatterAdd_rows_apply (x : (⟨2, ![N, F]⟩ : Shape).Idx → EReal) (idx : IVec ⟨2, ![E, 1]⟩ w)
    (upd : (⟨2, ![E, F]⟩ : Shape).Idx → EReal) (n : Fin N) (f : Fin F) :
    Ideal.hostScatterAdd (rowDims N E F wf) x idx upd (ix2 n f)
      = x (ix2 n f) + ∑ e : Fin E, if (idx (ix2 e (0 : Fin 1))).toInt = (n.val : ℤ) then upd (ix2 e f) else 0 := by
  unfold Ideal.hostScatterAdd
  congr 1
  rw [Finset.sum_filter, sum_idx2]
  refine Finset.sum_congr rfl fun e _ => ?_
  have hiff : ∀ b : Fin F, (rowDims N E F wf).resultIdx? (ix2 e b) idx = some (ix2 n f)
      ↔ ((idx (ix2 e (0 : Fin 1))).toInt = (n.val : ℤ) ∧ b = f) :=
    fun b => resultIdx_eq_some_iff wf (ix2 e b) idx n f
  by_cases hc : (idx (ix2 e (0 : Fin 1))).toInt = (n.val : ℤ)
  · rw [if_pos hc]
    rw [Finset.sum_eq_single f]
    · rw [if_pos ((hiff f).mpr ⟨hc, rfl⟩)]
    · intro b _ hb
      rw [if_neg fun h => hb ((hiff b).mp h).2]
    · intro h; exact absurd (Finset.mem_univ f) h
  · rw [if_neg hc]
    refine Finset.sum_eq_zero fun b _ => ?_
    rw [if_neg fun h => hc ((hiff b).mp h).1]

/-- The same of the host operation at the ideal instance, as a printed program spells it. -/
theorem scatterAdd_rows_apply {φ : FTy} (x : FVec Ideal ⟨2, ![N, F]⟩ φ) (idx : IVec ⟨2, ![E, 1]⟩ w)
    (upd : FVec Ideal ⟨2, ![E, F]⟩ φ) (n : Fin N) (f : Fin F) :
    Host.scatterAdd (rowDims N E F wf) x idx upd (ix2 n f)
      = x (ix2 n f) + ∑ e : Fin E, if (idx (ix2 e (0 : Fin 1))).toInt = (n.val : ℤ) then upd (ix2 e f) else 0 :=
  hostScatterAdd_rows_apply wf x idx upd n f

/-- COLUMNS DO NOT MIX: two row scatters by the same indices, of any two widths, agree at a pair of columns on which
    their operands agree and their updates agree. So a scatter of matrices laid side by side is, column block by column
    block, the scatter of each. -/
theorem hostScatterAdd_rows_col {F' : Nat}
    (wf' : ScatterDims.WF (⟨2, ![N, F']⟩ : Shape) ⟨2, ![E, 1]⟩ ⟨2, ![E, F']⟩ [1] [0] [0] 1)
    (x : (⟨2, ![N, F]⟩ : Shape).Idx → EReal) (x' : (⟨2, ![N, F']⟩ : Shape).Idx → EReal) (idx : IVec ⟨2, ![E, 1]⟩ w)
    (upd : (⟨2, ![E, F]⟩ : Shape).Idx → EReal) (upd' : (⟨2, ![E, F']⟩ : Shape).Idx → EReal) (f : Fin F) (f' : Fin F')
    (hx : ∀ n : Fin N, x (ix2 n f) = x' (ix2 n f')) (hu : ∀ e : Fin E, upd (ix2 e f) = upd' (ix2 e f')) (n : Fin N) :
    Ideal.hostScatterAdd (rowDims N E F wf) x idx upd (ix2 n f)
      = Ideal.hostScatterAdd (rowDims N E F' wf') x' idx upd' (ix2 n f') := by
  rw [hostScatterAdd_rows_apply wf, hostScatterAdd_rows_apply wf', hx n]
  congr 1
  exact Finset.sum_congr rfl fun e _ => by rw [hu e]

end ScatterRows

namespace SparseRows

open Idealize.ShloMosaic Idealize.ShloMosaic.ValueIdx

variable {N E F w : Nat}
variable (wfg : GatherDims.WF (⟨2, ![N, F]⟩ : Shape) ⟨2, ![E, 1]⟩ ⟨2, ![E, F]⟩ [1] [0] [] [0] [] 1 ![1, F])
variable (wfs : ScatterDims.WF (⟨2, ![N, F]⟩ : Shape) ⟨2, ![E, 1]⟩ ⟨2, ![E, F]⟩ [1] [0] [0] 1)

/-- The clamped row an edge's column index names. -/
abbrev clampRow (hN : 0 < N) (ci : IVec ⟨2, ![E, 1]⟩ w) (e : Fin E) : Fin N :=
  ⟨min (ci (ix2 e (0 : Fin 1))).toInt.toNat (N - 1), by omega⟩

/-- THE SPARSE PRODUCT READ AT (n, f): scatter-adding, by the row indices `ri`, the products of the values `v` (laid out
    E×F) with the rows of `h` gathered by the column indices `ci`, onto `z`: the entry of `z` plus the sum over the edges
    into row n of value times `h` at the edge's column row, in column f. -/
theorem spmm_apply (hN : 0 < N) (z : (⟨2, ![N, F]⟩ : Shape).Idx → EReal) (ri ci : IVec ⟨2, ![E, 1]⟩ w)
    (v : (⟨2, ![E, F]⟩ : Shape).Idx → EReal) (h : (⟨2, ![N, F]⟩ : Shape).Idx → EReal) (n : Fin N) (f : Fin F) :
    Ideal.hostScatterAdd (ScatterRows.rowDims N E F wfs) z ri
        (fun j => v j * Host.gather (GatherRows.rowDims N E F wfg) h ci j) (ix2 n f)
      = z (ix2 n f) + ∑ e : Fin E, if (ri (ix2 e (0 : Fin 1))).toInt = (n.val : ℤ)
          then v (ix2 e f) * h (ix2 (clampRow hN ci e) f) else 0 := by
  rw [ScatterRows.hostScatterAdd_rows_apply wfs]
  congr 1
  refine Finset.sum_congr rfl fun e _ => ?_
  rw [GatherRows.gather_rows_apply wfg hN]

/-- SIDE BY SIDE: two sparse products by the same edges, of widths F and F', agree at a pair of columns on which the
    matrices, the laid-out values and the scatter's operands agree. A product over matrices laid side by side is therefore,
    column block by column block, the product over each. -/
theorem spmm_cols {F' : Nat}
    (wfg' : GatherDims.WF (⟨2, ![N, F']⟩ : Shape) ⟨2, ![E, 1]⟩ ⟨2, ![E, F']⟩ [1] [0] [] [0] [] 1 ![1, F'])
    (wfs' : ScatterDims.WF (⟨2, ![N, F']⟩ : Shape) ⟨2, ![E, 1]⟩ ⟨2, ![E, F']⟩ [1] [0] [0] 1)
    (hN : 0 < N) (ri ci : IVec ⟨2, ![E, 1]⟩ w)
    (z : (⟨2, ![N, F]⟩ : Shape).Idx → EReal) (z' : (⟨2, ![N, F']⟩ : Shape).Idx → EReal)
    (v : (⟨2, ![E, F]⟩ : Shape).Idx → EReal) (v' : (⟨2, ![E, F']⟩ : Shape).Idx → EReal)
    (h : (⟨2, ![N, F]⟩ : Shape).Idx → EReal) (h' : (⟨2, ![N, F']⟩ : Shape).Idx → EReal) (f : Fin F) (f' : Fin F')
    (hz : ∀ n : Fin N, z (ix2 n f) = z' (ix2 n f')) (hv : ∀ e : Fin E, v (ix2 e f) = v' (ix2 e f'))
    (hh : ∀ n : Fin N, h (ix2 n f) = h' (ix2 n f')) (n : Fin N) :
    Ideal.hostScatterAdd (ScatterRows.rowDims N E F wfs) z ri
        (fun j => v j * Host.gather (GatherRows.rowDims N E F wfg) h ci j) (ix2 n f)
      = Ideal.hostScatterAdd (ScatterRows.rowDims N E F' wfs') z' ri
        (fun j => v' j * Host.gather (GatherRows.rowDims N E F' wfg') h' ci j) (ix2 n f') := by
  rw [spmm_apply wfg wfs hN, spmm_apply wfg' wfs' hN, hz n]
  congr 1
  exact Finset.sum_congr rfl fun e _ => by rw [hv e, hh]

end SparseRows

end
-- ==== Proof.LibCountScatter.lean ====
/-
  A vector scatter-add on the host, read at an index: counting the edges into each node.

  Scatter-adding a vector of E values into a vector of N entries by E row numbers adds, to entry n, the values whose row
  number — read signed, not clamped — is n; a value whose row number is no entry of the operand adds nothing. With every
  value 1 and the operand 0 this counts the edges into each node.

  The same number is a column of a ROW scatter-add: if an E×F' matrix of updates carries the values in one of its columns,
  scatter-adding its rows by the same row numbers leaves, in that column of row n, the same sum. So a column of ones laid
  beside the messages and scatter-added once gives the per-node sums and the per-node count together.
  Every statement is at the ideal values (floats are extended reals); none needs a finiteness hypothesis.
-/
import Idealize.ShloMosaic.Lib.ValueIdx
import Idealize.ShloMosaic.PureOps.Ideal.Laws
import proofs.«178039_g46316927320456_cont_sun_m_677_15_alg».proof.Proof.LibSparseRows

noncomputable section

namespace ScatterVec

open Idealize.ShloMosaic Idealize.ShloMosaic.ValueIdx

variable {N E w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter into a vector of N entries from E×1 indices and E updates. -/
abbrev vecDims (N E : Nat) (wf : ScatterDims.WF (⟨1, ![N]⟩ : Shape) ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF (⟨1, ![N]⟩ : Shape) ⟨2, ![E, 1]⟩ ⟨1, ![E]⟩ [] [0] [0] 1)

/-- An update is a single value: it has no window coordinate. -/
theorem window_entry (j : (⟨1, ![E]⟩ : Shape).Idx) : (vecDims N E wf).window j 0 = 0 := by
  have h : (0 : Fin 1) ∉ (vecDims N E wf).sKept :=
    (show (0 : Fin 1) ∉ (List.finRange 1).filter (· ∉ [(0 : Fin 1)]) by decide)
  unfold ScatterDims.window
  rw [dif_neg h]

/-- It lands on the entry its index names, read signed. -/
theorem start_entry (j : (⟨1, ![E]⟩ : Shape).Idx) (idx : IVec ⟨2, ![E, 1]⟩ w) :
    (vecDims N E wf).start j idx 0 = (idx (ix2 (j 0 : Fin E) (0 : Fin 1))).toInt := by
  unfold ScatterDims.start
  rw [dif_pos (show (0 : Fin 1) ∈ [(0 : Fin 1)] from List.mem_singleton.mpr rfl)]
  congr 2
  funext b
  refine Fin.ext ?_
  match b with
  | ⟨0, _⟩ => rfl
  | ⟨1, _⟩ => rfl

/-- Update `j` lands on the operand's entry n exactly when its index, read signed, is n. -/
theorem resultIdx_eq_some_iff (j : (⟨1, ![E]⟩ : Shape).Idx) (idx : IVec ⟨2, ![E, 1]⟩ w) (n : Fin N) :
    (vecDims N E wf).resultIdx? j idx = some (ix1 n) ↔ (idx (ix2 (j 0 : Fin E) (0 : Fin 1))).toInt = (n.val : ℤ) := by
  unfold ScatterDims.resultIdx?
  constructor
  · intro h
    split at h
    · rename_i hr
      have he := Option.some.inj h
      have e0 := congrArg (fun g => (g 0).val) he
      simp only [start_entry, window_entry] at e0
      have h0 := hr 0
      simp only [start_entry, window_entry] at h0
      have : ((idx (ix2 (j 0 : Fin E) (0 : Fin 1))).toInt + 0).toNat = n.val := e0
      omega
    · exact absurd h (by simp)
  · intro h0
    have hn := n.isLt
    have s0 : (vecDims N E wf).start j idx 0 + ((vecDims N E wf).window j 0 : ℤ) = (n.val : ℤ) := by
      rw [start_entry, window_entry, h0]; omega
    have hr : ∀ a, 0 ≤ (vecDims N E wf).start j idx a + (vecDims N E wf).window j a
        ∧ (vecDims N E wf).start j idx a + (vecDims N E wf).window j a < (⟨1, ![N]⟩ : Shape).size a := fun a =>
      match a with
      | ⟨0, _⟩ => (show 0 ≤ (vecDims N E wf).start j idx 0 + ((vecDims N E wf).window j 0 : ℤ)
          ∧ (vecDims N E wf).start j idx 0 + ((vecDims N E wf).window j 0 : ℤ) < ((N : ℕ) : ℤ) by rw [s0]; omega)
    rw [dif_pos hr]
    congr 1
    funext a
    refine Fin.ext ?_
    match a with
    | ⟨0, _⟩ =>
      show ((vecDims N E wf).start j idx 0 + ((vecDims N E wf).window j 0 : ℤ)).toNat = n.val
      rw [s0]; omega

/-- THE VECTOR SCATTER-ADD READ AT n: the operand's entry plus the sum of the updates whose index is n. -/
theorem hostScatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  by_cases hc : (idx (ix2 e (0 : Fin 1))).toInt = (n.val : ℤ)
  · rw [if_pos hc, if_pos ((resultIdx_eq_some_iff wf (ix1 e) idx n).mpr hc)]
  · rw [if_neg hc, if_neg fun h => hc ((resultIdx_eq_some_iff wf (ix1 e) idx n).mp h)]

/-- The same of the host operation at the ideal instance, as a printed program spells it. -/
theorem scatterAdd_vec_apply {φ : FTy} (x : FVec Ideal ⟨1, ![N]⟩ φ) (idx : IVec ⟨2, ![E, 1]⟩ w)
    (upd : FVec Ideal ⟨1, ![E]⟩ φ) (n : Fin N) :
    Host.scatterAdd (vecDims N E wf) x idx upd (ix1 n)
      = x (ix1 n) + ∑ e : Fin E, if (idx (ix2 e (0 : Fin 1))).toInt = (n.val : ℤ) then upd (ix1 e) else 0 :=
  hostScatterAdd_vec_apply wf x idx upd n

/-- A COLUMN OF A ROW SCATTER IS A VECTOR SCATTER: a row scatter-add of E×F' updates by the same indices, read in a
    column where its operand agrees with the vector operand and its updates carry the vector's updates, is the vector
    scatter-add. -/
theorem hostScatterAdd_vec_eq_col {F' : Nat}
    (wf' : ScatterDims.WF (⟨2, ![N, F']⟩ : Shape) ⟨2, ![E, 1]⟩ ⟨2, ![E, F']⟩ [1] [0] [0] 1)
    (x : (⟨1, ![N]⟩ : Shape).Idx → EReal) (x' : (⟨2, ![N, F']⟩ : Shape).Idx → EReal) (idx : IVec ⟨2, ![E, 1]⟩ w)
    (upd : (⟨1, ![E]⟩ : Shape).Idx → EReal) (upd' : (⟨2, ![E, F']⟩ : Shape).Idx → EReal) (f' : Fin F')
    (hx : ∀ n : Fin N, x (ix1 n) = x' (ix2 n f')) (hu : ∀ e : Fin E, upd (ix1 e) = upd' (ix2 e f')) (n : Fin N) :
    Ideal.hostScatterAdd (vecDims N E wf) x idx upd (ix1 n)
      = Ideal.hostScatterAdd (ScatterRows.rowDims N E F' wf') x' idx upd' (ix2 n f') := by
  rw [hostScatterAdd_vec_apply wf, ScatterRows.hostScatterAdd_rows_apply wf', hx n]
  congr 1
  exact Finset.sum_congr rfl fun e _ => by rw [hu e]

end ScatterVec

end
-- ==== Proof.LibGatherVec.lean ====
/-
  A vector gather on the host, read at an index.

  Reading a vector of N values at E positions — `x[idx]` for a flat array `x` and E integer positions laid out E×1 — gives a
  vector of E values. Entry e of the result is the vector's entry at the position idx[e] names, the position read as a
  SIGNED number and CLAMPED into [0, N − 1]: the host's gather clamps every start index into the operand, so a position
  below 0 reads entry 0 and a position past the end reads entry N − 1; no position reads nothing.
  The statement holds for any element type, since a gather only moves elements.
-/
import Idealize.ShloMosaic.Lib.ValueIdx

namespace GatherVec

open Idealize.ShloMosaic Idealize.ShloMosaic.ValueIdx

variable {α : Type} {N E w : Nat}

/-- The dimension numbers of a gather from a vector of N entries by E×1 start indices into a vector of E entries:
    no offset axis, the operand's one axis collapsed, slices of one entry. -/
abbrev vecDims (N E : Nat)
    (wf : GatherDims.WF (⟨1, ![N]⟩ : Shape) ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

variable (wf : GatherDims.WF (⟨1, ![N]⟩ : Shape) ⟨2, ![E, 1]⟩ ⟨1, ![E]⟩ [] [0] [] [0] [] 1 ![1])

/-- THE VECTOR GATHER READ AT e: the operand at the entry idx[e] names — read signed, clamped into the operand.
    The operand's one coordinate is start + batch + offset: there is no batching axis and the one axis is collapsed, so
    the last two are 0, and the start is the index word clamped to [0, N − 1] (the slice has one entry). -/
theorem gather_vec_apply (hN : 0 < N) (x : (⟨1, ![N]⟩ : Shape).Idx → α) (idx : IVec ⟨2, ![E, 1]⟩ w) (e : Fin E) :
    Host.gather (vecDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecDims N E wf).start (ix1 e) idx 0 + (vecDims N E wf).batchCoord (ix1 e) 0
      + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  -- the start index of result entry e is read at (e, 0): e on the batch axis, component 0 on the index vector's axis
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end GatherVec
-- ==== Proof.RefLayersVals.lean ====
/-
  The reference's degree, normalisation and aggregation, as real numbers.

  With A r c = 1 when the adjacency entry (r, c) is positive and 0 otherwise:
    • the scatter-add of ones by the column array gives deg c = ∑ r, A r c + 1 (the self loop), a real number ≥ 1;
    • so the comparison deg > 0 holds and the selected value is 1 / √(deg c) = dinv c;
    • the two gathers of dinv by the row and the column array read dinv at the slot's (clamped) row and column;
    • the row scatter-add, by the column array, of the gathered rows of a real matrix x times that product gives
          ∑ r, A r c · (x r h · (dinv r · dinv c)) + x c h · (dinv c · dinv c)            (`conv_apply`).
  A slot whose column is no node is dropped by the scatter-add, so what the gathers read there does not matter.
-/
import proofs.«178039_g46316927320456_cont_sun_m_677_15_alg».proof.Proof.RefLayersIdx
import proofs.«178039_g46316927320456_cont_sun_m_677_15_alg».proof.Proof.Spec
import proofs.«178039_g46316927320456_cont_sun_m_677_15_alg».proof.Proof.LibCountScatter
import proofs.«178039_g46316927320456_cont_sun_m_677_15_alg».proof.Proof.LibGatherVec

noncomputable section

namespace Cert.RefLayers

open Cert.ReferenceIdeal Cert.ReferenceIdeal.Gen Cert.ReferenceIdeal.Stage Cert.EdgeSpec
open Idealize.ShloMosaic Idealize.ShloMosaic.ValueIdx

/-- A finite sum of reals read on the extended reals is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A float scalar broadcast to any shape reads the scalar's value everywhere. -/
theorem bcast_const_apply {T : Shape} (h : S_.BroadcastsInDim T ![]) (b : BitVec 32) (j : T.Idx) :
    broadcastInDim T ![] h (constant (F := Ideal) S_ .f32 b) j = Ideal.ofBits .f32 b := by
  rw [broadcastInDim_scalar_apply, constant_apply]

/-- The comparison `x > y` of two extended reals with `y < x` answers true. -/
theorem cmp_ogt_of_lt {x y : EReal} (h : y < x) : Ideal.cmp .ogt x y = 1#1 := by
  unfold Ideal.cmp
  simp [h]

/-- The host's square root at an index. -/
theorem hostSqrt_apply {s : Shape} {φ : FTy} (x : FVec Ideal s φ) (i : s.Idx) :
    Host.sqrt x i = FloatOps.hostUnary HostUnaryOp.sqrt (x i) := rfl

/-- At a positive real `d`: the comparison `d > 0` holds and `1 / √d` is selected. -/
theorem select_dinv (d : ℝ) (z : EReal) (hd : 0 < d) :
    Scalar.select (FloatOps.cmpf (F := Ideal) (φ := .f32) .ogt (d : EReal) 0)
        (Ideal.div 1 (FloatOps.hostUnary (F := Ideal) (φ := .f32) HostUnaryOp.sqrt (d : EReal))) z
      = ((1 / Real.sqrt d : ℝ) : EReal) := by
  rw [Ideal.cmpf_def, cmp_ogt_of_lt (EReal.coe_pos.mpr hd), select_one, Ideal.hostUnary_sqrt_def, Ideal.sqrt_coe,
    if_neg (not_lt.mpr hd.le), Ideal.div_coe (Real.sqrt_ne_zero'.mpr hd), one_mul]

theorem v30_apply (c : Fin 2048) : s_main_v30 (F := Ideal) (ix1 c) = 0 := by
  unfold s_main_v30 s_main_cst_12; rw [bcast_const_apply]; exact Ideal.ofBits_zero_f32

theorem v37_apply (e : Fin 4196352) : s_main_v37 (F := Ideal) (ix1 e) = ((1 : ℝ) : EReal) := by
  unfold s_main_v37 s_main_cst_15; rw [bcast_const_apply, Ideal.ofBits_one_f32]; rfl

theorem v39_apply (c : Fin 2048) : s_main_v39 (F := Ideal) (ix1 c) = 0 := by
  unfold s_main_v39 s_main_cst_16; rw [bcast_const_apply]; exact Ideal.ofBits_zero_f32

theorem v42_apply (c : Fin 2048) : s_main_v42 (F := Ideal) (ix1 c) = 1 := by
  unfold s_main_v42 s_main_cst_17; rw [bcast_const_apply]; exact Ideal.ofBits_one_f32

theorem v70_apply (c : Fin 2048) (h : Fin 32) : s_main_v70 (F := Ideal) (ix2 c h) = 0 := by
  unfold s_main_v70 s_main_cst_25; rw [bcast_const_apply]; exact Ideal.ofBits_zero_f32

variable (a0 : (⟨S2048x2048, .i32⟩ : BufTy).Contents (Elt Ideal))

/-- The index arrays laid out as columns of one entry. -/
theorem v36_apply (e : Fin 4196352) : s_main_v36 (F := Ideal) a0 (ix2 e (0 : Fin 1)) = colW a0 e := by
  unfold s_main_v36 colW
  exact broadcastInDim_apply _ _ _ _ (ix1 e) (fun a => by match a with | ⟨0, _⟩ => rfl)

theorem v50_apply (e : Fin 4196352) : s_main_v50 (F := Ideal) a0 (ix2 e (0 : Fin 1)) = rowW a0 e := by
  unfold s_main_v50 rowW
  exact broadcastInDim_apply _ _ _ _ (ix1 e) (fun a => by match a with | ⟨0, _⟩ => rfl)

theorem v57_apply (e : Fin 4196352) : s_main_v57 (F := Ideal) a0 (ix2 e (0 : Fin 1)) = colW a0 e := by
  unfold s_main_v57 colW
  rw [v56_eq]
  exact broadcastInDim_apply _ _ _ _ (ix1 e) (fun a => by match a with | ⟨0, _⟩ => rfl)

theorem v65_apply (e : Fin 4196352) : s_main_v65 (F := Ideal) a0 (ix2 e (0 : Fin 1)) = rowW a0 e := by
  unfold s_main_v65 rowW
  rw [v64_eq]
  exact broadcastInDim_apply _ _ _ _ (ix1 e) (fun a => by match a with | ⟨0, _⟩ => rfl)

theorem v76_apply (e : Fin 4196352) : s_main_v76 (F := Ideal) a0 (ix2 e (0 : Fin 1)) = colW a0 e := by
  unfold s_main_v76 colW
  rw [v75_eq]
  exact broadcastInDim_apply _ _ _ _ (ix1 e) (fun a => by match a with | ⟨0, _⟩ => rfl)

/-- The second convolution recomputes the zero matrix, the index columns and the edge weights of the first, operation for
    operation. -/
theorem v126_eq : s_main_v126 (F := Ideal) = s_main_v70 (F := Ideal) := rfl
theorem v132_eq : s_main_v132 (F := Ideal) a0 = s_main_v76 (F := Ideal) a0 := rfl
theorem v121_eq : s_main_v121 (F := Ideal) a0 = s_main_v65 (F := Ideal) a0 := rfl
theorem v124_eq : s_main_v124 (F := Ideal) a0 = s_main_v68 (F := Ideal) a0 := rfl

variable {a0} [∀ r c, Decidable (Pos a0 r c)]

/-- The 0/1 adjacency pattern. -/
def Adj (a0 : (⟨S2048x2048, .i32⟩ : BufTy).Contents (Elt Ideal)) [∀ r c, Decidable (Pos a0 r c)] :
    Fin 2048 → Fin 2048 → ℝ := fun r c => if Pos a0 r c then 1 else 0

theorem Adj_nonneg (r c : Fin 2048) : 0 ≤ Adj a0 r c := by
  unfold Adj; split_ifs <;> norm_num

/-- A sum over the positive entries of a column of real terms, read on the extended reals. -/
theorem masked_sum (c : Fin 2048) (φ : Fin 2048 → ℝ) :
    (∑ r : Fin 2048, if Pos a0 r c then ((φ r : ℝ) : EReal) else 0) = ((∑ r, Adj a0 r c * φ r : ℝ) : EReal) := by
  rw [coe_sum]
  refine Finset.sum_congr rfl fun r _ => ?_
  unfold Adj
  by_cases h : Pos a0 r c
  · rw [if_pos h, if_pos h, one_mul]
  · rw [if_neg h, if_neg h, zero_mul, EReal.coe_zero]

variable (hl : Lists a0 (s_main_v23 (F := Ideal) a0) (s_main_v24 (F := Ideal) a0))
include hl

/-- THE DEGREE: the number of positive entries of the column, plus the self loop. -/
theorem deg_apply (c : Fin 2048) :
    s_main_v38 (F := Ideal) a0 (ix1 c) = ((Spec.indeg (Adj a0) c + 1 : ℝ) : EReal) := by
  unfold s_main_v38
  refine (ScatterVec.scatterAdd_vec_apply scatter_S2048_S4196352x1_S4196352_n_0_0_1_wf _ _ _ c).trans ?_
  rw [v30_apply, zero_add]
  rw [Finset.sum_congr rfl fun e _ => by rw [v36_apply a0 e, v37_apply e]]
  rw [col_sum hl c (fun _ _ => ((1 : ℝ) : EReal)), masked_sum c (fun _ => 1), ← EReal.coe_add]
  congr 2
  unfold Spec.indeg
  exact Finset.sum_congr rfl fun r _ => mul_one _

theorem deg_pos (c : Fin 2048) : 0 < Spec.indeg (Adj a0) c + 1 := by
  have := Spec.indeg_nonneg (Adj a0) Adj_nonneg c
  linarith

/-- THE NORMALISATION: the degree is positive, so the selected value is its inverse square root. -/
theorem dinv_apply (c : Fin 2048) :
    s_main_v44 (F := Ideal) a0 (ix1 c) = ((Spec.dinv (Adj a0) c : ℝ) : EReal) := by
  have hpos := deg_pos hl c
  have hd := deg_apply hl c
  unfold s_main_v44 s_main_v43 s_main_v41 s_main_v40
  rw [select_apply, hostDivf_apply, cmpf_apply, hostSqrt_apply, hd, v39_apply, v42_apply]
  exact select_dinv _ _ hpos

/-- The normalisation gathered by the row array … -/
theorem v51_apply (e : Fin 4196352) :
    s_main_v51 (F := Ideal) a0 (ix1 e) = ((Spec.dinv (Adj a0) (clampR (a0 := a0) e) : ℝ) : EReal) := by
  unfold s_main_v51
  refine (GatherVec.gather_vec_apply gather_S2048_S4196352x1_S4196352_n_0_n_n_0_1_1_wf (by decide) _ _ e).trans ?_
  have hk : (⟨min (s_main_v50 (F := Ideal) a0 (ix2 e (0 : Fin 1))).toInt.toNat (2048 - 1), by omega⟩ : Fin 2048)
      = clampR (a0 := a0) e := Fin.ext (by show min _ _ = min _ _; rw [v50_apply a0 e])
  rw [hk]
  exact dinv_apply hl _

/-- … and by the column array. -/
theorem v58_apply (e : Fin 4196352) :
    s_main_v58 (F := Ideal) a0 (ix1 e) = ((Spec.dinv (Adj a0) (clampC (a0 := a0) e) : ℝ) : EReal) := by
  unfold s_main_v58
  refine (GatherVec.gather_vec_apply gather_S2048_S4196352x1_S4196352_n_0_n_n_0_1_1_wf (by decide) _ _ e).trans ?_
  have hk : (⟨min (s_main_v57 (F := Ideal) a0 (ix2 e (0 : Fin 1))).toInt.toNat (2048 - 1), by omega⟩ : Fin 2048)
      = clampC (a0 := a0) e := Fin.ext (by show min _ _ = min _ _; rw [v57_apply a0 e])
  rw [hk]
  exact dinv_apply hl _

/-- The edge weight laid along the feature columns. -/
theorem v68_apply (e : Fin 4196352) (h : Fin 32) :
    s_main_v68 (F := Ideal) a0 (ix2 e h)
      = ((Spec.dinv (Adj a0) (clampR (a0 := a0) e) * Spec.dinv (Adj a0) (clampC (a0 := a0) e) : ℝ) : EReal) := by
  unfold s_main_v68
  refine (broadcastInDim_apply _ _ _ _ (ix2 e (0 : Fin 1)) (fun a => by match a with | ⟨0, _⟩ => rfl | ⟨1, _⟩ => rfl)).trans ?_
  unfold s_main_v67
  refine (broadcastInDim_apply _ _ _ _ (ix1 e) (fun a => by match a with | ⟨0, _⟩ => rfl)).trans ?_
  unfold s_main_v59
  rw [mulf_apply, v51_apply hl e, v58_apply hl e, ← EReal.coe_mul]

/-- THE AGGREGATION of a real matrix `x`: gather its rows by the row array, weight them, scatter-add by the column array. -/
theorem conv_apply (X : FVec Ideal S2048x32 .f32) (xr : Fin 2048 → Fin 32 → ℝ)
    (hX : ∀ n h, X (ix2 n h) = ((xr n h : ℝ) : EReal)) (c : Fin 2048) (h : Fin 32) :
    Host.scatterAdd scatter_S2048x32_S4196352x1_S4196352x32_1_0_0_1 (s_main_v70 (F := Ideal)) (s_main_v76 (F := Ideal) a0)
        (mulf (Host.gather gather_S2048x32_S4196352x1_S4196352x32_1_0_n_n_0_1_132 X (s_main_v65 (F := Ideal) a0))
          (s_main_v68 (F := Ideal) a0)) (ix2 c h)
      = ((∑ r, Adj a0 r c * (xr r h * (Spec.dinv (Adj a0) r * Spec.dinv (Adj a0) c))
          + xr c h * (Spec.dinv (Adj a0) c * Spec.dinv (Adj a0) c) : ℝ) : EReal) := by
  refine (ScatterRows.scatterAdd_rows_apply scatter_S2048x32_S4196352x1_S4196352x32_1_0_0_1_wf _ _ _ c h).trans ?_
  rw [v70_apply, zero_add]
  have hterm : ∀ e : Fin 4196352,
      mulf (Host.gather gather_S2048x32_S4196352x1_S4196352x32_1_0_n_n_0_1_132 X (s_main_v65 (F := Ideal) a0))
          (s_main_v68 (F := Ideal) a0) (ix2 e h)
        = ((xr (clampR (a0 := a0) e) h
            * (Spec.dinv (Adj a0) (clampR (a0 := a0) e) * Spec.dinv (Adj a0) (clampC (a0 := a0) e)) : ℝ) : EReal) := by
    intro e
    have hg : Host.gather gather_S2048x32_S4196352x1_S4196352x32_1_0_n_n_0_1_132 X (s_main_v65 (F := Ideal) a0) (ix2 e h) = _ :=
      GatherRows.gather_rows_apply gather_S2048x32_S4196352x1_S4196352x32_1_0_n_n_0_1_132_wf (by decide) X
        (s_main_v65 (F := Ideal) a0) e h
    rw [mulf_apply, v68_apply hl e h, hg]
    have hk : (⟨min (s_main_v65 (F := Ideal) a0 (ix2 e (0 : Fin 1))).toInt.toNat (2048 - 1), by omega⟩ : Fin 2048)
        = clampR (a0 := a0) e := Fin.ext (by show min _ _ = min _ _; rw [v65_apply a0 e])
    rw [hk, hX, ← EReal.coe_mul]
  rw [Finset.sum_congr rfl fun e _ => by rw [v76_apply a0 e, hterm e]]
  rw [col_sum hl c (fun r c' => ((xr r h * (Spec.dinv (Adj a0) r * Spec.dinv (Adj a0) c') : ℝ) : EReal)),
    masked_sum c (fun r => xr r h * (Spec.dinv (Adj a0) r * Spec.dinv (Adj a0) c)), ← EReal.coe_add]

end Cert.RefLayers

end
-- ==== Proof.RefLayers.lean ====
/-
  The reference's result, entry by entry, is the network function over the reals.

  Layer by layer, with A the 0/1 adjacency pattern, dinv the normalisation and every weight a real number:
    • the all-ones feature times W1 is the row w1 at every node, so the first aggregation gives, at (c, h),
          ∑ r, A r c · (w1 h · (dinv r · dinv c)) + w1 h · (dinv c · dinv c) = alpha c · w1 h,
      and adding the bias and rectifying gives x1;
    • the second layer's product x1 · W2 is a real matrix, its aggregation gives dinv c · (z c h + y2 c h), and adding the bias
      and rectifying gives x2;
    • the sum over the nodes gives pooled, and the dense layer gives out.
-/
import proofs.«178039_g46316927320456_cont_sun_m_677_15_alg».proof.Proof.RefLayersVals
import proofs.«178039_g46316927320456_cont_sun_m_677_15_alg».proof.Proof.LibPlainProduct

noncomputable section

namespace Cert.RefLayers

open Cert.ReferenceIdeal Cert.ReferenceIdeal.Gen Cert.ReferenceIdeal.Stage Cert.EdgeSpec
open Idealize.ShloMosaic Idealize.ShloMosaic.ValueIdx

/-- The maximum of two reals read on the extended reals. -/
theorem coe_max' (x y : ℝ) : ((max x y : ℝ) : EReal) = max (x : EReal) (y : EReal) :=
  EReal.coe_strictMono.monotone.map_max

/-- The first aggregation over the reals: the common factor `w` and the column's `dinv c` come out of the sum. -/
theorem layer1_real (A : Fin 2048 → Fin 2048 → ℝ) (w b : ℝ) (c : Fin 2048) :
    ∑ r, A r c * (w * (Spec.dinv A r * Spec.dinv A c)) + w * (Spec.dinv A c * Spec.dinv A c) + b
      = Spec.alpha A c * w + b := by
  unfold Spec.alpha Spec.t
  have h : ∑ r, A r c * (w * (Spec.dinv A r * Spec.dinv A c)) = (∑ r, A r c * Spec.dinv A r) * (w * Spec.dinv A c) := by
    rw [Finset.sum_mul]; exact Finset.sum_congr rfl fun r _ => by ring
  rw [h]; ring

/-- The second aggregation over the reals. -/
theorem layer2_real (A : Fin 2048 → Fin 2048 → ℝ) (y : Fin 2048 → ℝ) (b : ℝ) (c : Fin 2048) :
    ∑ r, A r c * (y r * (Spec.dinv A r * Spec.dinv A c)) + y c * (Spec.dinv A c * Spec.dinv A c) + b
      = Spec.dinv A c * (∑ r, A r c * (Spec.dinv A r * y r) + Spec.dinv A c * y c) + b := by
  have h : ∑ r, A r c * (y r * (Spec.dinv A r * Spec.dinv A c)) = Spec.dinv A c * ∑ r, A r c * (Spec.dinv A r * y r) := by
    rw [Finset.mul_sum]; exact Finset.sum_congr rfl fun r _ => by ring
  rw [h]; ring

variable {a0 : (⟨S2048x2048, .i32⟩ : BufTy).Contents (Elt Ideal)} [∀ r c, Decidable (Pos a0 r c)]
variable (w1r : S1x32.Idx → ℝ) (b1r : S32.Idx → ℝ) (w2r : S32x32.Idx → ℝ) (b2r : S32.Idx → ℝ)
  (wfcr : S32x8.Idx → ℝ) (bfcr : S8.Idx → ℝ)

/-- The all-ones feature times the first weights: the weight row at every node. -/
theorem v26_apply (r : Fin 2048) (h : Fin 32) :
    s_main_v26 (F := Ideal) (fun i => ((w1r i : ℝ) : EReal)) (ix2 r h) = ((w1r (ix2 (0 : Fin 1) h) : ℝ) : EReal) := by
  unfold s_main_v26
  refine (PlainProduct.dotGeneral_apply dot_S2048x1_S1x32_S2048x32_1_0_0_1_n_n_wf none (s_main_v25 (F := Ideal)) _ r h).trans ?_
  rw [Fin.sum_univ_one]
  have h25 : s_main_v25 (F := Ideal) (ix2 r (0 : Fin 1)) = 1 := by
    unfold s_main_v25 s_main_cst; rw [bcast_const_apply]; exact Ideal.ofBits_one_f32
  rw [h25, one_mul]

/-- A bias row laid over the nodes. -/
theorem v79_apply (a2 : (⟨S32, .f32⟩ : BufTy).Contents (Elt Ideal)) (c : Fin 2048) (h : Fin 32) :
    s_main_v79 (F := Ideal) a2 (ix2 c h) = a2 (ix1 h) := by
  unfold s_main_v79
  refine (broadcastInDim_apply _ _ _ _ (ix2 (0 : Fin 1) h) (fun a => by match a with | ⟨0, _⟩ => rfl | ⟨1, _⟩ => rfl)).trans ?_
  unfold s_main_v78
  exact broadcastInDim_apply _ _ _ _ (ix1 h) (fun a => by match a with | ⟨0, _⟩ => rfl)

theorem v135_apply (a4 : (⟨S32, .f32⟩ : BufTy).Contents (Elt Ideal)) (c : Fin 2048) (h : Fin 32) :
    s_main_v135 (F := Ideal) a4 (ix2 c h) = a4 (ix1 h) := by
  unfold s_main_v135
  refine (broadcastInDim_apply _ _ _ _ (ix2 (0 : Fin 1) h) (fun a => by match a with | ⟨0, _⟩ => rfl | ⟨1, _⟩ => rfl)).trans ?_
  unfold s_main_v134
  exact broadcastInDim_apply _ _ _ _ (ix1 h) (fun a => by match a with | ⟨0, _⟩ => rfl)

theorem call10_apply (c : Fin 2048) (h : Fin 32) : s_main_call10_v0 (F := Ideal) (ix2 c h) = 0 := by
  unfold s_main_call10_v0 s_main_call10_cst; rw [bcast_const_apply]; exact Ideal.ofBits_zero_f32

theorem call12_apply (c : Fin 2048) (h : Fin 32) : s_main_call12_v0 (F := Ideal) (ix2 c h) = 0 := by
  unfold s_main_call12_v0 s_main_call12_cst; rw [bcast_const_apply]; exact Ideal.ofBits_zero_f32

variable (hl : Lists a0 (s_main_v23 (F := Ideal) a0) (s_main_v24 (F := Ideal) a0))
include hl

/-- THE FIRST LAYER. -/
theorem x1_apply (c : Fin 2048) (h : Fin 32) :
    s_main_v81 (F := Ideal) a0 (fun i => ((w1r i : ℝ) : EReal)) (fun i => ((b1r i : ℝ) : EReal)) (ix2 c h)
      = ((Spec.x1 (Adj a0) (fun k => w1r (ix2 (0 : Fin 1) k)) (fun k => b1r (ix1 k)) c h : ℝ) : EReal) := by
  have h77 := conv_apply hl (s_main_v26 (F := Ideal) (fun i => ((w1r i : ℝ) : EReal))) (fun _ k => w1r (ix2 (0 : Fin 1) k))
    (fun n k => v26_apply w1r n k) c h
  unfold s_main_v81
  rw [maximumf_apply, call10_apply]
  unfold s_main_v80 s_main_v77 s_main_v69 s_main_v66
  beta_reduce
  rw [addf_apply, h77, v79_apply, ← EReal.coe_add, ← EReal.coe_zero, ← coe_max']
  unfold Spec.x1
  rw [layer1_real]

/-- The first layer's output times the second weights. -/
theorem v82_apply (n : Fin 2048) (h : Fin 32) :
    s_main_v82 (F := Ideal) a0 (fun i => ((w1r i : ℝ) : EReal)) (fun i => ((b1r i : ℝ) : EReal))
        (fun i => ((w2r i : ℝ) : EReal)) (ix2 n h)
      = ((∑ k, Spec.x1 (Adj a0) (fun k => w1r (ix2 (0 : Fin 1) k)) (fun k => b1r (ix1 k)) n k * w2r (ix2 k h) : ℝ) : EReal) := by
  unfold s_main_v82
  refine (PlainProduct.dotGeneral_apply dot_S2048x32_S32x32_S2048x32_1_0_0_1_n_n_wf none
    (s_main_v81 (F := Ideal) a0 (fun i => ((w1r i : ℝ) : EReal)) (fun i => ((b1r i : ℝ) : EReal))) _ n h).trans ?_
  rw [coe_sum]
  exact Finset.sum_congr rfl fun k _ => by rw [x1_apply w1r b1r hl n k, ← EReal.coe_mul]

/-- THE SECOND LAYER. -/
theorem x2_apply (c : Fin 2048) (h : Fin 32) :
    s_main_v137 (F := Ideal) a0 (fun i => ((w1r i : ℝ) : EReal)) (fun i => ((b1r i : ℝ) : EReal))
        (fun i => ((w2r i : ℝ) : EReal)) (fun i => ((b2r i : ℝ) : EReal)) (ix2 c h)
      = ((Spec.x2 (Adj a0) (fun k => w1r (ix2 (0 : Fin 1) k)) (fun k => b1r (ix1 k)) (fun k h => w2r (ix2 k h))
          (fun h => b2r (ix1 h)) c h : ℝ) : EReal) := by
  have h133 := conv_apply hl (s_main_v82 (F := Ideal) a0 (fun i => ((w1r i : ℝ) : EReal)) (fun i => ((b1r i : ℝ) : EReal))
      (fun i => ((w2r i : ℝ) : EReal)))
    (fun n k => ∑ j, Spec.x1 (Adj a0) (fun k => w1r (ix2 (0 : Fin 1) k)) (fun k => b1r (ix1 k)) n j * w2r (ix2 j k))
    (fun n k => v82_apply w1r b1r w2r hl n k) c h
  unfold s_main_v137
  rw [maximumf_apply, call12_apply]
  unfold s_main_v136 s_main_v133 s_main_v125 s_main_v122
  beta_reduce
  rw [v126_eq, v132_eq, v121_eq, v124_eq, addf_apply, h133, v135_apply, ← EReal.coe_add, ← EReal.coe_zero, ← coe_max']
  unfold Spec.x2 Spec.z Spec.y2
  rw [layer2_real]

/-- THE POOLING: the sum over the nodes. -/
theorem pooled_apply (h : Fin 32) :
    s_main_v138 (F := Ideal) a0 (fun i => ((w1r i : ℝ) : EReal)) (fun i => ((b1r i : ℝ) : EReal))
        (fun i => ((w2r i : ℝ) : EReal)) (fun i => ((b2r i : ℝ) : EReal)) (ix1 h)
      = ((Spec.pooled (Adj a0) (fun k => w1r (ix2 (0 : Fin 1) k)) (fun k => b1r (ix1 k)) (fun k h => w2r (ix2 k h))
          (fun h => b2r (ix1 h)) h : ℝ) : EReal) := by
  have hred : S2048x32.Reduces [0] S32 := by decide
  have hlift : ∀ k : Fin 2048, hred.lift (ix1 h) k = ix2 k h := fun k =>
    funext fun a => Fin.ext (by match a with | ⟨0, _⟩ => rfl | ⟨1, _⟩ => rfl)
  unfold s_main_v138
  beta_reduce
  rw [hostReduceAdd_apply, Ideal.hostReduceAdd_single reducesTo_S2048x32_S32_d0 hred]
  have h0 : s_main_cst_44 (F := Ideal) (Shape.Idx.first h_S_) = 0 := by
    unfold s_main_cst_44; rw [constant_apply]; exact Ideal.ofBits_zero_f32
  rw [h0, zero_add]
  show (∑ k : Fin 2048, s_main_v137 (F := Ideal) a0 (fun i => ((w1r i : ℝ) : EReal)) (fun i => ((b1r i : ℝ) : EReal))
    (fun i => ((w2r i : ℝ) : EReal)) (fun i => ((b2r i : ℝ) : EReal)) (hred.lift (ix1 h) k)) = _
  unfold Spec.pooled
  rw [coe_sum]
  exact Finset.sum_congr rfl fun k _ => by rw [hlift k, x2_apply w1r b1r w2r b2r hl k h]

/-- THE DENSE LAYER. -/
theorem out_apply (o : Fin 8) :
    s_main_v142 (F := Ideal) a0 (fun i => ((w1r i : ℝ) : EReal)) (fun i => ((b1r i : ℝ) : EReal))
        (fun i => ((w2r i : ℝ) : EReal)) (fun i => ((b2r i : ℝ) : EReal)) (fun i => ((wfcr i : ℝ) : EReal))
        (fun i => ((bfcr i : ℝ) : EReal)) (ix2 (0 : Fin 1) o)
      = ((Spec.out (Adj a0) (fun k => w1r (ix2 (0 : Fin 1) k)) (fun k => b1r (ix1 k)) (fun k h => w2r (ix2 k h))
          (fun h => b2r (ix1 h)) (fun h o => wfcr (ix2 h o)) (fun o => bfcr (ix1 o)) o : ℝ) : EReal) := by
  unfold s_main_v142
  rw [addf_apply]
  have h141 : s_main_v141 (F := Ideal) (fun i => ((bfcr i : ℝ) : EReal)) (ix2 (0 : Fin 1) o) = ((bfcr (ix1 o) : ℝ) : EReal) := by
    unfold s_main_v141
    exact broadcastInDim_apply _ _ _ _ (ix1 o) (fun a => by match a with | ⟨0, _⟩ => rfl)
  have h139 : ∀ k : Fin 32, s_main_v139 (F := Ideal) a0 (fun i => ((w1r i : ℝ) : EReal)) (fun i => ((b1r i : ℝ) : EReal))
      (fun i => ((w2r i : ℝ) : EReal)) (fun i => ((b2r i : ℝ) : EReal)) (ix2 (0 : Fin 1) k)
        = ((Spec.pooled (Adj a0) (fun k => w1r (ix2 (0 : Fin 1) k)) (fun k => b1r (ix1 k)) (fun k h => w2r (ix2 k h))
          (fun h => b2r (ix1 h)) k : ℝ) : EReal) := by
    intro k
    unfold s_main_v139
    refine (broadcastInDim_apply _ _ _ _ (ix1 k) (fun a => by match a with | ⟨0, _⟩ => rfl)).trans ?_
    exact pooled_apply w1r b1r w2r b2r hl k
  have h140 : s_main_v140 (F := Ideal) a0 (fun i => ((w1r i : ℝ) : EReal)) (fun i => ((b1r i : ℝ) : EReal))
      (fun i => ((w2r i : ℝ) : EReal)) (fun i => ((b2r i : ℝ) : EReal)) (fun i => ((wfcr i : ℝ) : EReal)) (ix2 (0 : Fin 1) o)
        = ((∑ k, Spec.pooled (Adj a0) (fun k => w1r (ix2 (0 : Fin 1) k)) (fun k => b1r (ix1 k)) (fun k h => w2r (ix2 k h))
          (fun h => b2r (ix1 h)) k * wfcr (ix2 k o) : ℝ) : EReal) := by
    unfold s_main_v140
    refine (PlainProduct.dotGeneral_apply dot_S1x32_S32x8_S1x8_1_0_0_1_n_n_wf none
      (s_main_v139 (F := Ideal) a0 (fun i => ((w1r i : ℝ) : EReal)) (fun i => ((b1r i : ℝ) : EReal))
        (fun i => ((w2r i : ℝ) : EReal)) (fun i => ((b2r i : ℝ) : EReal))) _ (0 : Fin 1) o).trans ?_
    rw [coe_sum]
    exact Finset.sum_congr rfl fun k _ => by rw [h139 k, ← EReal.coe_mul]
  rw [h140, h141, ← EReal.coe_add]
  rfl

omit hl in
/-- THE REFERENCE'S VALUE: with real weights and the edge arrays listing the positive entries, entry `o` of the
    reference's result is the network function over the reals. -/
theorem ref_value (a0 : (⟨S2048x2048, .i32⟩ : BufTy).Contents (Elt Ideal)) [∀ r c, Decidable (Cert.EdgeSpec.Pos a0 r c)]
    (a1 : (⟨S1x32, .f32⟩ : BufTy).Contents (Elt Ideal)) (a2 : (⟨S32, .f32⟩ : BufTy).Contents (Elt Ideal))
    (a3 : (⟨S32x32, .f32⟩ : BufTy).Contents (Elt Ideal)) (a4 : (⟨S32, .f32⟩ : BufTy).Contents (Elt Ideal))
    (a5 : (⟨S32x8, .f32⟩ : BufTy).Contents (Elt Ideal)) (a6 : (⟨S8, .f32⟩ : BufTy).Contents (Elt Ideal))
    (w1r : S1x32.Idx → ℝ) (b1r : S32.Idx → ℝ) (w2r : S32x32.Idx → ℝ) (b2r : S32.Idx → ℝ) (wfcr : S32x8.Idx → ℝ)
    (bfcr : S8.Idx → ℝ)
    (h1 : a1 = fun i => ((w1r i : ℝ) : EReal)) (h2 : a2 = fun i => ((b1r i : ℝ) : EReal))
    (h3 : a3 = fun i => ((w2r i : ℝ) : EReal)) (h4 : a4 = fun i => ((b2r i : ℝ) : EReal))
    (h5 : a5 = fun i => ((wfcr i : ℝ) : EReal)) (h6 : a6 = fun i => ((bfcr i : ℝ) : EReal))
    (hl : Cert.EdgeSpec.Lists a0 (Stage.s_main_v23 (F := Ideal) a0) (Stage.s_main_v24 (F := Ideal) a0)) (o : Fin 8) :
    Stage.s_main_v142 (F := Ideal) a0 a1 a2 a3 a4 a5 a6 (ix2 (0 : Fin 1) o)
      = ((Cert.Spec.out (fun r c => if Cert.EdgeSpec.Pos a0 r c then 1 else 0) (fun k => w1r (ix2 (0 : Fin 1) k))
          (fun k => b1r (ix1 k)) (fun k h => w2r (ix2 k h)) (fun h => b2r (ix1 h)) (fun h o => wfcr (ix2 h o))
          (fun o => bfcr (ix1 o)) o : ℝ) : EReal) := by
  subst h1 h2 h3 h4 h5 h6
  exact out_apply w1r b1r w2r b2r wfcr bfcr hl o

end Cert.RefLayers

end
-- ==== Proof.RefFinal.lean ====
/-
  The reference's run: under the precondition every weakly fair execution of the program terminates without a fault, leaves its
  seven argument arrays as they were, and ends with its one result equal to the common value — the specification's output on the
  0/1 matrix of the positive adjacency entries and on the real parts of the six float arguments.

  Every buffer ends at the fold of the program's operations over the launch contents. The result buffer's fold is the last stage
  as a function of the seven argument arrays. Under the precondition each float argument is the coercion of its real parts. On
  such arrays, the row and column index arrays listing the positive positions in order, the last stage at (0, o) is the coercion
  of the specification's `out o`; and an index of the 1 × 8 result is (0, o) for its second coordinate o.
-/
import proofs.«178039_g46316927320456_cont_sun_m_677_15_alg».proof.Defs
import proofs.«178039_g46316927320456_cont_sun_m_677_15_alg».proof.Proof.RefVals
import proofs.«178039_g46316927320456_cont_sun_m_677_15_alg».proof.Proof.Meet
import proofs.«178039_g46316927320456_cont_sun_m_677_15_alg».proof.Proof.Finite
import proofs.«178039_g46316927320456_cont_sun_m_677_15_alg».proof.Proof.NonzeroIndex
import proofs.«178039_g46316927320456_cont_sun_m_677_15_alg».proof.Proof.RefLayers

noncomputable section

namespace Cert.RefFinal

open Cert.ReferenceIdeal Cert.ReferenceIdeal.Gen Cert.ReferenceIdeal.RefRun Idealize.ShloMosaic Idealize.ShloMosaic.ValueIdx
  Idealize.ShloMosaic.TcCoe Idealize.SL.Sem Idealize.ShloMosaic.StableHlo

/-- The value of the reference's layers: on float arguments that are coercions of real arrays, and index arrays that list the
    positive positions, the last stage at (0, o) is the coercion of the specification's output at o. -/
def LayersValue : Prop :=
  ∀ (a0 : (⟨S2048x2048, .i32⟩ : BufTy).Contents (Elt Ideal)) [∀ r c, Decidable (Cert.EdgeSpec.Pos a0 r c)]
    (a1 : (⟨S1x32, .f32⟩ : BufTy).Contents (Elt Ideal)) (a2 : (⟨S32, .f32⟩ : BufTy).Contents (Elt Ideal))
    (a3 : (⟨S32x32, .f32⟩ : BufTy).Contents (Elt Ideal)) (a4 : (⟨S32, .f32⟩ : BufTy).Contents (Elt Ideal))
    (a5 : (⟨S32x8, .f32⟩ : BufTy).Contents (Elt Ideal)) (a6 : (⟨S8, .f32⟩ : BufTy).Contents (Elt Ideal))
    (w1r : S1x32.Idx → ℝ) (b1r : S32.Idx → ℝ) (w2r : S32x32.Idx → ℝ) (b2r : S32.Idx → ℝ) (wfcr : S32x8.Idx → ℝ)
    (bfcr : S8.Idx → ℝ)
    (_ : a1 = fun i => ((w1r i : ℝ) : EReal)) (_ : a2 = fun i => ((b1r i : ℝ) : EReal))
    (_ : a3 = fun i => ((w2r i : ℝ) : EReal)) (_ : a4 = fun i => ((b2r i : ℝ) : EReal))
    (_ : a5 = fun i => ((wfcr i : ℝ) : EReal)) (_ : a6 = fun i => ((bfcr i : ℝ) : EReal))
    (_ : Cert.EdgeSpec.Lists a0 (Stage.s_main_v23 (F := Ideal) a0) (Stage.s_main_v24 (F := Ideal) a0)) (o : Fin 8),
    Stage.s_main_v142 (F := Ideal) a0 a1 a2 a3 a4 a5 a6 (ix2 (0 : Fin 1) o)
      = ((Cert.Spec.out (fun r c => if Cert.EdgeSpec.Pos a0 r c then 1 else 0) (fun k => w1r (ix2 (0 : Fin 1) k))
          (fun k => b1r (ix1 k)) (fun k h => w2r (ix2 k h)) (fun h => b2r (ix1 h)) (fun h o => wfcr (ix2 h o))
          (fun o => bfcr (ix1 o)) o : ℝ) : EReal)

/-- An index of the 1 × 8 result is (0, o) for its second coordinate o. -/
theorem eq_row0 (i : (⟨2, ![1, 8]⟩ : Shape).Idx) : i = ix2 (0 : Fin 1) (i 1) := by
  funext a
  match a with
  | ⟨0, _⟩ =>
    have h0 : (i 0).val < 1 := (i 0).isLt
    exact Fin.ext (by show (i 0).val = 0; omega)
  | ⟨1, _⟩ => rfl

/-- Under the precondition the last stage is the common value. -/
theorem value_eq (hval : LayersValue) [Cert.Pre_finite_inputs.Facts] (a0 : IVec S2048x2048 32) (a1 : FVec Ideal S1x32 .f32)
    (a2 : FVec Ideal S32 .f32) (a3 : FVec Ideal S32x32 .f32) (a4 : FVec Ideal S32 .f32) (a5 : FVec Ideal S32x8 .f32)
    (a6 : FVec Ideal S8 .f32)
    (hp : Cert.Pre_finite_inputs.fn (F := Ideal) a0 a1 a2 a3 a4 a5 a6 = fun _ => 1#1) :
    Stage.s_main_v142 (F := Ideal) a0 a1 a2 a3 a4 a5 a6 = Cert.Meet.G a0 a1 a2 a3 a4 a5 a6 := by
  obtain ⟨e1, e2, e3, e4, e5, e6⟩ := Cert.Finite.reals_of_pre a0 a1 a2 a3 a4 a5 a6 hp
  funext i
  obtain ⟨o, rfl⟩ : ∃ o : Fin 8, i = ix2 (0 : Fin 1) o := ⟨i 1, eq_row0 i⟩
  exact hval a0 a1 a2 a3 a4 a5 a6 (Cert.Meet.re a1) (Cert.Meet.re a2) (Cert.Meet.re a3) (Cert.Meet.re a4) (Cert.Meet.re a5)
    (Cert.Meet.re a6) (Cert.Meet.eq_coe_re a1 e1) (Cert.Meet.eq_coe_re a2 e2) (Cert.Meet.eq_coe_re a3 e3)
    (Cert.Meet.eq_coe_re a4 e4) (Cert.Meet.eq_coe_re a5 e5) (Cert.Meet.eq_coe_re a6 e6) (Cert.NonzeroIndex.lists a0) o

/-- The reference runs, ends with the common value in its result, and leaves its arguments unchanged — given the value of its
    layers. -/
theorem run_of (hval : LayersValue)
    (m' : (ℓ : Loc Cert.ReferenceIdeal.nD Cert.ReferenceIdeal.τ Cert.ReferenceIdeal.sig) → Buf (Elt Ideal) ℓ)
    (ρ' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v142) = Cert.Meet.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run (Cert.ReferenceIdeal.defs (F := Ideal)) _ _).mono (fun _ h c =>
    ⟨((h c main_v142).trans (val_main_v142 _)).trans (value_eq hval _ _ _ _ _ _ _ (hpre c)),
     (h c main_arg0).trans (arg0_kept _), (h c main_arg1).trans (arg1_kept _), (h c main_arg2).trans (arg2_kept _),
     (h c main_arg3).trans (arg3_kept _), (h c main_arg4).trans (arg4_kept _), (h c main_arg5).trans (arg5_kept _),
     (h c main_arg6).trans (arg6_kept _)⟩)
    (run_all m' ρ')

/-- The reference runs: under the precondition every weakly fair execution terminates without a fault, the result ends at the
    common value, and the seven argument arrays end unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v142) = Cert.Meet.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  run_of (fun a0 _ => Cert.RefLayers.ref_value a0) m' ρ' hpre

end Cert.RefFinal
-- ==== Proof.lean ====
/-
  The certificate: a two-layer graph convolution with sum pooling and a dense layer, computed densely by the kernel and over an
  edge list by the reference, agree on finite weights.

  Both programs compute, from a 2048 × 2048 integer adjacency array and six float arrays, the 1 × 8 array
      out o = ∑ h, (∑ c, relu (dinv c · (∑ r, A r c · y2 r h + y2 c h) + b2 h)) · Wfc h o + bfc o
  with A the 0/1 matrix of positive adjacency entries, dinv c = 1 / √(∑ r, A r c + 1), y2 = dinv · (relu (alpha · W1 + b1) W2) and
  alpha c = dinv c · (∑ r, A r c · dinv r + dinv c) (Spec.lean). The kernel computes it in three passes over blocks of 256 rows
  (KernelFun.lean; read entry by entry in KernelPay.lean and KernelMath.lean); the reference lists the positive entries
  (NonzeroIndex.lean over LibCumsum, LibBincount, LibFloorMod and LibNthEnum), appends the self loops and aggregates by gathers and
  scatter-adds (RefLayers.lean). Finiteness of the float inputs is what lets common factors be taken out of the sums and makes the
  kernel's correction term y2 − y2 vanish.

  The three frames: both printed kernels run to the end with their arguments unchanged (the whole-body runs of KernelRunA.lean and
  KernelIdealRunF.lean through the launch side's frame theorem), and the reference is a straight line of 280 host operations none
  of which writes an argument (RefRun.lean). The idealization's one ledger entry is the rule that widening after narrowing is the
  identity on the extended reals.
-/
import proofs.«178039_g46316927320456_cont_sun_m_677_15_alg».proof.Defs
import proofs.«178039_g46316927320456_cont_sun_m_677_15_alg».proof.Proof.Gen.Kernel
import proofs.«178039_g46316927320456_cont_sun_m_677_15_alg».proof.Proof.Gen.KernelIdeal
import proofs.«178039_g46316927320456_cont_sun_m_677_15_alg».proof.Proof.Gen.ReferenceIdeal
import proofs.«178039_g46316927320456_cont_sun_m_677_15_alg».proof.Proof.Gen.Pre_finite_inputs
import proofs.«178039_g46316927320456_cont_sun_m_677_15_alg».proof.Proof.KernelFrame
import proofs.«178039_g46316927320456_cont_sun_m_677_15_alg».proof.Proof.RefRun
import proofs.«178039_g46316927320456_cont_sun_m_677_15_alg».proof.Proof.KernelFinal
import proofs.«178039_g46316927320456_cont_sun_m_677_15_alg».proof.Proof.RefFinal

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenN.frame m ρ

theorem frame_referenceIdeal : Cert.frame_ReferenceIdeal := fun m ρ _ =>
  Cert.ReferenceIdeal.RefRun.run_frame (F := Ideal) m ρ

/-- The ledger's one entry: at the extended reals, widening to f32 after narrowing to bf16 is the identity. -/
theorem preserves : Cert.preserves_Kernel_KernelIdeal :=
  IdealRules.truncf_extf.statement Cert.KernelIdeal.S2048x32 .f32 .bf16

/-- From memories agreeing on the arguments both idealized programs end at the common value of those arguments. -/
theorem algebraic : Cert.algebraic_KernelIdeal_ReferenceIdeal := by
  intro m ρ m' ρ' hpre hagree
  refine ⟨fun c => Cert.Meet.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelFinal.run m ρ hpre, ?_⟩
  have hpre' : Cert.Pre_ReferenceIdeal m' := fun c => by
    rw [(hagree c).1, (hagree c).2.1, (hagree c).2.2.1, (hagree c).2.2.2.1, (hagree c).2.2.2.2.1, (hagree c).2.2.2.2.2.1,
      (hagree c).2.2.2.2.2.2]
    exact hpre c
  refine (θ_run _ _ _).mono (fun r h c => ?_) (Cert.RefFinal.run m' ρ' hpre')
  obtain ⟨hv, hargs⟩ := h c
  refine ⟨hv.trans ?_, hargs⟩
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
